-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x32 : Shape := ⟨2, ![1000000, 32]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S64x1 : Shape := ⟨2, ![64, 1]⟩
abbrev S1 : Shape := ⟨1, ![1]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part4 {F : FTy → Type} [FloatOps F] (main_arg1 : IVec S16384 32) (main_v65 : IVec S_ 1) (main_v67 : IVec S16384 1) : IVec S_ 1 :=
  let main_c_26 : IVec S_ 32 := constantI S_ 32 999999#32
  let main_v68 : IVec S16384 32 := broadcastInDim S16384 ![] bcast_S_S16384 main_c_26
  let main_v69 : IVec S16384 1 := cmpi .sle main_arg1 main_v68
  let main_v70 : IVec S16384 1 := andi main_v67 main_v69
  let main_c_27 : IVec S_ 1 := constantI S_ 1 1#1
  let main_v71 : IVec S_ 1 := (fun x v => Host.reduce IntOp.andi x v reducesTo_S16384_S_d0 h_S_) main_v70 main_c_27
  let main_v72 : IVec S_ 1 := andi main_v65 main_v71
  main_v72

def fn_part3 {F : FTy → Type} [FloatOps F] (main_arg0 : IVec S16384 32) (main_arg1 : IVec S16384 32) (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S16384 32 := broadcastInDim S16384 ![] bcast_S_S16384 main_c_22
  let main_v60 : IVec S16384 1 := cmpi .sge main_arg0 main_v59
  let main_c_23 : IVec S_ 32 := constantI S_ 32 999999#32
  let main_v61 : IVec S16384 32 := broadcastInDim S16384 ![] bcast_S_S16384 main_c_23
  let main_v62 : IVec S16384 1 := cmpi .sle main_arg0 main_v61
  let main_v63 : IVec S16384 1 := andi main_v60 main_v62
  let main_c_24 : IVec S_ 1 := constantI S_ 1 1#1
  let main_v64 : IVec S_ 1 := (fun x v => Host.reduce IntOp.andi x v reducesTo_S16384_S_d0 h_S_) main_v63 main_c_24
  let main_v65 : IVec S_ 1 := andi main_v58 main_v64
  let main_c_25 : IVec S_ 32 := constantI S_ 32 0#32
  let main_v66 : IVec S16384 32 := broadcastInDim S16384 ![] bcast_S_S16384 main_c_25
  let main_v67 : IVec S16384 1 := cmpi .sge main_arg1 main_v66
  fn_part4 (F := F) main_arg1 main_v65 main_v67

def fn_part2 {F : FTy → Type} [FloatOps F] (main_arg0 : IVec S16384 32) (main_arg1 : IVec S16384 32) (main_arg9 : FVec F S64 .f32) (main_arg10 : FVec F S64x32 .f32) (main_arg11 : FVec F S32 .f32) (main_arg12 : FVec F S64x1 .f32) (main_arg13 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg0 main_arg1 main_arg13 main_v48 main_v49 main_v50

def fn_part1 {F : FTy → Type} [FloatOps F] (main_arg0 : IVec S16384 32) (main_arg1 : IVec S16384 32) (main_arg6 : FVec F S64x128 .f32) (main_arg7 : FVec F S128 .f32) (main_arg8 : FVec F S128x64 .f32) (main_arg9 : FVec F S64 .f32) (main_arg10 : FVec F S64x32 .f32) (main_arg11 : FVec F S32 .f32) (main_arg12 : FVec F S64x1 .f32) (main_arg13 : FVec F S1 .f32) (main_v13 : IVec S_ 1) (main_v16 : IVec S1000000x32 1) : IVec S_ 1 :=
  let main_c_5 : IVec S_ 1 := constantI S_ 1 1#1
  let main_v17 : IVec S_ 1 := (fun x v => Host.reduce IntOp.andi x v reducesTo_S1000000x32_S_d0_1 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg0 main_arg1 main_arg9 main_arg10 main_arg11 main_arg12 main_arg13 main_v33

def fn {F : FTy → Type} [FloatOps F] (main_arg0 : IVec S16384 32) (main_arg1 : IVec S16384 32) (main_arg2 : FVec F S1000000x32 .f32) (main_arg3 : FVec F S1000000x32 .f32) (main_arg4 : FVec F S1000000x32 .f32) (main_arg5 : FVec F S1000000x32 .f32) (main_arg6 : FVec F S64x128 .f32) (main_arg7 : FVec F S128 .f32) (main_arg8 : FVec F S128x64 .f32) (main_arg9 : FVec F S64 .f32) (main_arg10 : FVec F S64x32 .f32) (main_arg11 : FVec F S32 .f32) (main_arg12 : FVec F S64x1 .f32) (main_arg13 : FVec F S1 .f32) : IVec S_ 1 :=
  let main_v0 : FVec F S1000000x32 .f32 := Host.absf main_arg2
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S1000000x32 .f32 := Host.absf main_arg3
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S1000000x32 .f32 := Host.absf main_arg4
  let main_cst_2 : FVec F S_ .f32 := constant S_ .f32 0x7F800000#32
  let main_v10 : FVec F S1000000x32 .f32 := broadcastInDim S1000000x32 ![] bcast_S_S1000000x32 main_cst_2
  let main_v11 : IVec S1000000x32 1 := cmpf .olt main_v9 main_v10
  let main_c_3 : IVec S_ 1 := constantI S_ 1 1#1
  let main_v12 : IVec S_ 1 := (fun x v => Host.reduce IntOp.andi x v reducesTo_S1000000x32_S_d0_1 h_S_) main_v11 main_c_3
  let main_v13 : IVec S_ 1 := andi main_v8 main_v12
  let main_v14 : FVec F S1000000x32 .f32 := Host.absf main_arg5
  let main_cst_4 : FVec F S_ .f32 := constant S_ .f32 0x7F800000#32
  let main_v15 : FVec F S1000000x32 .f32 := broadcastInDim S1000000x32 ![] bcast_S_S1000000x32 main_cst_4
  let main_v16 : IVec S1000000x32 1 := cmpf .olt main_v14 main_v15
  fn_part1 (F := F) main_arg0 main_arg1 main_arg6 main_arg7 main_arg8 main_arg9 main_arg10 main_arg11 main_arg12 main_arg13 main_v13 main_v16
-- ==== Kernel.lean ====
abbrev S16384 : Shape := ⟨1, ![16384]⟩
abbrev S1000000x32 : Shape := ⟨2, ![1000000, 32]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S64x1 : Shape := ⟨2, ![64, 1]⟩
abbrev S1 : Shape := ⟨1, ![1]⟩
abbrev S32x1000000 : Shape := ⟨2, ![32, 1000000]⟩
abbrev S1000000x128 : Shape := ⟨2, ![1000000, 128]⟩
abbrev S32x4096 : Shape := ⟨2, ![32, 4096]⟩
abbrev S4096x128 : Shape := ⟨2, ![4096, 128]⟩
abbrev S4096x32 : Shape := ⟨2, ![4096, 32]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S16 : Shape := ⟨1, ![16]⟩
abbrev S1x128 : Shape := ⟨2, ![1, 128]⟩
abbrev S32x128 : Shape := ⟨2, ![32, 128]⟩
abbrev S32x1 : Shape := ⟨2, ![32, 1]⟩
abbrev S1x32 : Shape := ⟨2, ![1, 32]⟩
abbrev S1x64 : Shape := ⟨2, ![1, 64]⟩
abbrev S1x1 : Shape := ⟨2, ![1, 1]⟩
abbrev S16384x1 : Shape := ⟨2, ![16384, 1]⟩
abbrev S2048x128 : Shape := ⟨2, ![2048, 128]⟩
abbrev S2048x1 : Shape := ⟨2, ![2048, 1]⟩
abbrev S2048x32 : Shape := ⟨2, ![2048, 32]⟩
abbrev S2048x64 : Shape := ⟨2, ![2048, 64]⟩
abbrev S2048 : Shape := ⟨1, ![2048]⟩

abbrev nBuf : Table → Nat
  | .hbm => 33
  | .local .tc .vmem => 26
  | .local .scVector .vmem => 3
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S1000000x32, .f32⟩
  | .hbm, ⟨4, _⟩ => ⟨S1000000x32, .f32⟩
  | .hbm, ⟨5, _⟩ => ⟨S1000000x32, .f32⟩
  | .hbm, ⟨6, _⟩ => ⟨S64x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S64x1, .f32⟩
  | .hbm, ⟨13, _⟩ => ⟨S1, .f32⟩
  | .hbm, ⟨14, _⟩ => ⟨S32x1000000, .f32⟩
  | .hbm, ⟨15, _⟩ => ⟨S32x1000000, .f32⟩
  | .hbm, ⟨16, _⟩ => ⟨S32x1000000, .f32⟩
  | .hbm, ⟨17, _⟩ => ⟨S32x1000000, .f32⟩
  | .hbm, ⟨18, _⟩ => ⟨S1000000x128, .f32⟩
  | .hbm, ⟨19, _⟩ => ⟨S16384x128, .f32⟩
  | .hbm, ⟨20, _⟩ => ⟨S16384x128, .f32⟩
  | .hbm, ⟨21, _⟩ => ⟨S32x128, .f32⟩
  | .hbm, ⟨22, _⟩ => ⟨S32x128, .f32⟩
  | .hbm, ⟨23, _⟩ => ⟨S32x1, .f32⟩
  | .hbm, ⟨24, _⟩ => ⟨S1x32, .f32⟩
  | .hbm, ⟨25, _⟩ => ⟨S32x1, .f32⟩
  | .hbm, ⟨26, _⟩ => ⟨S1x32, .f32⟩
  | .hbm, ⟨27, _⟩ => ⟨S1x128, .f32⟩
  | .hbm, ⟨28, _⟩ => ⟨S1x64, .f32⟩
  | .hbm, ⟨29, _⟩ => ⟨S1x32, .f32⟩
  | .hbm, ⟨30, _⟩ => ⟨S1x1, .f32⟩
  | .hbm, ⟨31, _⟩ => ⟨S16384x1, .f32⟩
  | .hbm, ⟨32, _⟩ => ⟨S16384, .f32⟩
  | .local .tc .vmem, ⟨0, _⟩ => ⟨S32x4096, .f32⟩
  | .local .tc .vmem, ⟨1, _⟩ => ⟨S32x4096, .f32⟩
  | .local .tc .vmem, ⟨2, _⟩ => ⟨S32x4096, .f32⟩
  | .local .tc .vmem, ⟨3, _⟩ => ⟨S32x4096, .f32⟩
  | .local .tc .vmem, ⟨4, _⟩ => ⟨S32x4096, .f32⟩
  | .local .tc .vmem, ⟨5, _⟩ => ⟨S32x4096, .f32⟩
  | .local .tc .vmem, ⟨6, _⟩ => ⟨S32x4096, .f32⟩
  | .local .tc .vmem, ⟨7, _⟩ => ⟨S32x4096, .f32⟩
  | .local .tc .vmem, ⟨8, _⟩ => ⟨S4096x128, .f32⟩
  | .local .tc .vmem, ⟨9, _⟩ => ⟨S4096x128, .f32⟩
  | .local .tc .vmem, ⟨10, _⟩ => ⟨S2048x128, .f32⟩
  | .local .tc .vmem, ⟨11, _⟩ => ⟨S2048x128, .f32⟩
  | .local .tc .vmem, ⟨12, _⟩ => ⟨S2048x128, .f32⟩
  | .local .tc .vmem, ⟨13, _⟩ => ⟨S2048x128, .f32⟩
  | .local .tc .vmem, ⟨14, _⟩ => ⟨S32x128, .f32⟩
  | .local .tc .vmem, ⟨15, _⟩ => ⟨S32x128, .f32⟩
  | .local .tc .vmem, ⟨16, _⟩ => ⟨S1x128, .f32⟩
  | .local .tc .vmem, ⟨17, _⟩ => ⟨S128x64, .f32⟩
  | .local .tc .vmem, ⟨18, _⟩ => ⟨S1x64, .f32⟩
  | .local .tc .vmem, ⟨19, _⟩ => ⟨S64x32, .f32⟩
  | .local .tc .vmem, ⟨20, _⟩ => ⟨S1x32, .f32⟩
  | .local .tc .vmem, ⟨21, _⟩ => ⟨S1x32, .f32⟩
  | .local .tc .vmem, ⟨22, _⟩ => ⟨S1x32, .f32⟩
  | .local .tc .vmem, ⟨23, _⟩ => ⟨S1x1, .f32⟩
  | .local .tc .vmem, ⟨24, _⟩ => ⟨S2048x1, .f32⟩
  | .local .tc .vmem, ⟨25, _⟩ => ⟨S2048x1, .f32⟩
  | .local .scVector .vmem, ⟨0, _⟩ => ⟨S512, .i32⟩
  | .local .scVector .vmem, ⟨1, _⟩ => ⟨S512, .i32⟩
  | .local .scVector .vmem, ⟨2, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_arg0_scv : Ref sig .scVector := ⟨.hbm, 0, rfl⟩
abbrev main_arg1_scv : Ref sig .scVector := ⟨.hbm, 1, rfl⟩
abbrev main_v4_scv : Ref sig .scVector := ⟨.hbm, 18, rfl⟩
abbrev main_v5_0_scv : Ref sig .scVector := ⟨.hbm, 19, rfl⟩
abbrev main_v5_1_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg11_0 : Ref sig .tc := ⟨.vmem, 23, rfl⟩
abbrev cc2_stg12_0 : Ref sig .tc := ⟨.vmem, 24, rfl⟩
abbrev cc2_stg12_1 : Ref sig .tc := ⟨.vmem, 25, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem11_0 : DmaSem sig := 28
abbrev cc2_sem12_0 : DmaSem sig := 29
abbrev cc2_sem12_1 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k1_off2 (k1_t1 : Fin k1_t1_loop.trips) : Fin 1 → Nat :=
  let c0_i32 : BitVec 32 := 0#32
  let c1_i32 : BitVec 32 := 1#32
  let arg11 : BitVec 32 := Scf.iv c0_i32 c1_i32 k1_t1
  let c16_i32 : BitVec 32 := 16#32
  let v7 : BitVec 32 := Scalar.muli arg11 c16_i32
  let v8 : Index := Scalar.indexCast v7
  ![v8.toNat]
def k1_off3 (k1_t1 : Fin k1_t1_loop.trips) : Fin 2 → Nat :=
  let c0_i32 : BitVec 32 := 0#32
  let c1_i32 : BitVec 32 := 1#32
  let arg11 : BitVec 32 := Scf.iv c0_i32 c1_i32 k1_t1
  let c16_i32_13 : BitVec 32 := 16#32
  let v13 : BitVec 32 := Scalar.muli arg11 c16_i32_13
  let c0_i32_14 : BitVec 32 := 0#32
  let v14 : BitVec 32 := Scalar.addi v13 c0_i32_14
  let c0_i32_15 : BitVec 32 := 0#32
  ![v14.toNat, 0]
def k1_off4 (v12 : BitVec 32) : Fin 2 → Nat :=
  let c0_i32_16 : BitVec 32 := 0#32
  ![v12.toNat, 0]

def k1_chk1 (v12 : BitVec 32) : Prop :=
  (∀ a, (k1_off4 v12) a + S1x128.size a ≤ S1000000x128.size a)
instance k1_chk1.dec : ∀ (v12 : BitVec 32), Decidable (k1_chk1 v12) := fun v12 => decidable_of_iff' _ (Iff.of_eq (k1_chk1.eq_1 v12))
theorem k1_off4_inb : ∀ (v12 : BitVec 32) (k1_hw1 : k1_chk1 v12), ∀ a, (k1_off4 v12) a + S1x128.size a ≤ S1000000x128.size a := fun v12 k1_hw1 => k1_hw1

def k1_off5 (k1_t1 : Fin k1_t1_loop.trips) (c0_i32_14 : BitVec 32) : Fin 2 → Nat :=
  let c0_i32 : BitVec 32 := 0#32
  let c1_i32 : BitVec 32 := 1#32
  let arg11 : BitVec 32 := Scf.iv c0_i32 c1_i32 k1_t1
  let c16_i32_13 : BitVec 32 := 16#32
  let v13 : BitVec 32 := Scalar.muli arg11 c16_i32_13
  let v14 : BitVec 32 := Scalar.addi v13 c0_i32_14
  let c0_i32_17 : BitVec 32 := 0#32
  ![v14.toNat, 0]
def k1_off6 (v24 : BitVec 32) : Fin 2 → Nat :=
  let c0_i32_22 : BitVec 32 := 0#32
  ![v24.toNat, 0]

def k1_chk2 (v24 : BitVec 32) : Prop :=
  (∀ a, (k1_off6 v24) a + S1x128.size a ≤ S1000000x128.size a)
instance k1_chk2.dec : ∀ (v24 : BitVec 32), Decidable (k1_chk2 v24) := fun v24 => decidable_of_iff' _ (Iff.of_eq (k1_chk2.eq_1 v24))
theorem k1_off6_inb : ∀ (v24 : BitVec 32) (k1_hw2 : k1_chk2 v24), ∀ a, (k1_off6 v24) a + S1x128.size a ≤ S1000000x128.size a := fun v24 k1_hw2 => k1_hw2

def k1_off7 (k1_t1 : Fin k1_t1_loop.trips) (c1_i32_20 : BitVec 32) : Fin 2 → Nat :=
  let c0_i32 : BitVec 32 := 0#32
  let c1_i32 : BitVec 32 := 1#32
  let arg11 : BitVec 32 := Scf.iv c0_i32 c1_i32 k1_t1
  let c16_i32_19 : BitVec 32 := 16#32
  let v25 : BitVec 32 := Scalar.muli arg11 c16_i32_19
  let v26 : BitVec 32 := Scalar.addi v25 c1_i32_20
  let c0_i32_23 : BitVec 32 := 0#32
  ![v26.toNat, 0]
def k1_off8 (v36 : BitVec 32) : Fin 2 → Nat :=
  let c0_i32_28 : BitVec 32 := 0#32
  ![v36.toNat, 0]

def k1_chk3 (v36 : BitVec 32) : Prop :=
  (∀ a, (k1_off8 v36) a + S1x128.size a ≤ S1000000x128.size a)
instance k1_chk3.dec : ∀ (v36 : BitVec 32), Decidable (k1_chk3 v36) := fun v36 => decidable_of_iff' _ (Iff.of_eq (k1_chk3.eq_1 v36))
theorem k1_off8_inb : ∀ (v36 : BitVec 32) (k1_hw3 : k1_chk3 v36), ∀ a, (k1_off8 v36) a + S1x128.size a ≤ S1000000x128.size a := fun v36 k1_hw3 => k1_hw3

def k1_off9 (k1_t1 : Fin k1_t1_loop.trips) (c2_i32_26 : BitVec 32) : Fin 2 → Nat :=
  let c0_i32 : BitVec 32 := 0#32
  let c1_i32 : BitVec 32 := 1#32
  let arg11 : BitVec 32 := Scf.iv c0_i32 c1_i32 k1_t1
  let c16_i32_25 : BitVec 32 := 16#32
  let v37 : BitVec 32 := Scalar.muli arg11 c16_i32_25
  let v38 : BitVec 32 := Scalar.addi v37 c2_i32_26
  let c0_i32_29 : BitVec 32 := 0#32
  ![v38.toNat, 0]
def k1_off10 (v48 : BitVec 32) : Fin 2 → Nat :=
  let c0_i32_33 : BitVec 32 := 0#32
  ![v48.toNat, 0]

def k1_chk4 (v48 : BitVec 32) : Prop :=
  (∀ a, (k1_off10 v48) a + S1x128.size a ≤ S1000000x128.size a)
instance k1_chk4.dec : ∀ (v48 : BitVec 32), Decidable (k1_chk4 v48) := fun v48 => decidable_of_iff' _ (Iff.of_eq (k1_chk4.eq_1 v48))
theorem k1_off10_inb : ∀ (v48 : BitVec 32) (k1_hw4 : k1_chk4 v48), ∀ a, (k1_off10 v48) a + S1x128.size a ≤ S1000000x128.size a := fun v48 k1_hw4 => k1_hw4

def k1_off11 (k1_t1 : Fin k1_t1_loop.trips) (c3_i32 : BitVec 32) : Fin 2 → Nat :=
  let c0_i32 : BitVec 32 := 0#32
  let c1_i32 : BitVec 32 := 1#32
  let arg11 : BitVec 32 := Scf.iv c0_i32 c1_i32 k1_t1
  let c16_i32_31 : BitVec 32 := 16#32
  let v49 : BitVec 32 := Scalar.muli arg11 c16_i32_31
  let v50 : BitVec 32 := Scalar.addi v49 c3_i32
  let c0_i32_34 : BitVec 32 := 0#32
  ![v50.toNat, 0]
def k1_off12 (v60 : BitVec 32) : Fin 2 → Nat :=
  let c0_i32_38 : BitVec 32 := 0#32
  ![v60.toNat, 0]

def k1_chk5 (v60 : BitVec 32) : Prop :=
  (∀ a, (k1_off12 v60) a + S1x128.size a ≤ S1000000x128.size a)
instance k1_chk5.dec : ∀ (v60 : BitVec 32), Decidable (k1_chk5 v60) := fun v60 => decidable_of_iff' _ (Iff.of_eq (k1_chk5.eq_1 v60))
theorem k1_off12_inb : ∀ (v60 : BitVec 32) (k1_hw5 : k1_chk5 v60), ∀ a, (k1_off12 v60) a + S1x128.size a ≤ S1000000x128.size a := fun v60 k1_hw5 => k1_hw5

def k1_off13 (k1_t1 : Fin k1_t1_loop.trips) (c4_i32 : BitVec 32) : Fin 2 → Nat :=
  let c0_i32 : BitVec 32 := 0#32
  let c1_i32 : BitVec 32 := 1#32
  let arg11 : BitVec 32 := Scf.iv c0_i32 c1_i32 k1_t1
  let c16_i32_36 : BitVec 32 := 16#32
  let v61 : BitVec 32 := Scalar.muli arg11 c16_i32_36
  let v62 : BitVec 32 := Scalar.addi v61 c4_i32
  let c0_i32_39 : BitVec 32 := 0#32
  ![v62.toNat, 0]
def k1_off14 (v72 : BitVec 32) : Fin 2 → Nat :=
  let c0_i32_43 : BitVec 32 := 0#32
  ![v72.toNat, 0]

def k1_chk6 (v72 : BitVec 32) : Prop :=
  (∀ a, (k1_off14 v72) a + S1x128.size a ≤ S1000000x128.size a)
instance k1_chk6.dec : ∀ (v72 : BitVec 32), Decidable (k1_chk6 v72) := fun v72 => decidable_of_iff' _ (Iff.of_eq (k1_chk6.eq_1 v72))
theorem k1_off14_inb : ∀ (v72 : BitVec 32) (k1_hw6 : k1_chk6 v72), ∀ a, (k1_off14 v72) a + S1x128.size a ≤ S1000000x128.size a := fun v72 k1_hw6 => k1_hw6

def k1_off15 (k1_t1 : Fin k1_t1_loop.trips) (c5_i32 : BitVec 32) : Fin 2 → Nat :=
  let c0_i32 : BitVec 32 := 0#32
  let c1_i32 : BitVec 32 := 1#32
  let arg11 : BitVec 32 := Scf.iv c0_i32 c1_i32 k1_t1
  let c16_i32_41 : BitVec 32 := 16#32
  let v73 : BitVec 32 := Scalar.muli arg11 c16_i32_41
  let v74 : BitVec 32 := Scalar.addi v73 c5_i32
  let c0_i32_44 : BitVec 32 := 0#32
  ![v74.toNat, 0]
def k1_off16 (v84 : BitVec 32) : Fin 2 → Nat :=
  let c0_i32_48 : BitVec 32 := 0#32
  ![v84.toNat, 0]

def k1_chk7 (v84 : BitVec 32) : Prop :=
  (∀ a, (k1_off16 v84) a + S1x128.size a ≤ S1000000x128.size a)
instance k1_chk7.dec : ∀ (v84 : BitVec 32), Decidable (k1_chk7 v84) := fun v84 => decidable_of_iff' _ (Iff.of_eq (k1_chk7.eq_1 v84))
theorem k1_off16_inb : ∀ (v84 : BitVec 32) (k1_hw7 : k1_chk7 v84), ∀ a, (k1_off16 v84) a + S1x128.size a ≤ S1000000x128.size a := fun v84 k1_hw7 => k1_hw7

def k1_off17 (k1_t1 : Fin k1_t1_loop.trips) (c6_i32 : BitVec 32) : Fin 2 → Nat :=
  let c0_i32 : BitVec 32 := 0#32
  let c1_i32 : BitVec 32 := 1#32
  let arg11 : BitVec 32 := Scf.iv c0_i32 c1_i32 k1_t1
  let c16_i32_46 : BitVec 32 := 16#32
  let v85 : BitVec 32 := Scalar.muli arg11 c16_i32_46
  let v86 : BitVec 32 := Scalar.addi v85 c6_i32
  let c0_i32_49 : BitVec 32 := 0#32
  ![v86.toNat, 0]
def k1_off18 (v96 : BitVec 32) : Fin 2 → Nat :=
  let c0_i32_53 : BitVec 32 := 0#32
  ![v96.toNat, 0]

def k1_chk8 (v96 : BitVec 32) : Prop :=
  (∀ a, (k1_off18 v96) a + S1x128.size a ≤ S1000000x128.size a)
instance k1_chk8.dec : ∀ (v96 : BitVec 32), Decidable (k1_chk8 v96) := fun v96 => decidable_of_iff' _ (Iff.of_eq (k1_chk8.eq_1 v96))
theorem k1_off18_inb : ∀ (v96 : BitVec 32) (k1_hw8 : k1_chk8 v96), ∀ a, (k1_off18 v96) a + S1x128.size a ≤ S1000000x128.size a := fun v96 k1_hw8 => k1_hw8

def k1_off19 (k1_t1 : Fin k1_t1_loop.trips) (c7_i32 : BitVec 32) : Fin 2 → Nat :=
  let c0_i32 : BitVec 32 := 0#32
  let c1_i32 : BitVec 32 := 1#32
  let arg11 : BitVec 32 := Scf.iv c0_i32 c1_i32 k1_t1
  let c16_i32_51 : BitVec 32 := 16#32
  let v97 : BitVec 32 := Scalar.muli arg11 c16_i32_51
  let v98 : BitVec 32 := Scalar.addi v97 c7_i32
  let c0_i32_54 : BitVec 32 := 0#32
  ![v98.toNat, 0]
def k1_off20 (v108 : BitVec 32) : Fin 2 → Nat :=
  let c0_i32_58 : BitVec 32 := 0#32
  ![v108.toNat, 0]

def k1_chk9 (v108 : BitVec 32) : Prop :=
  (∀ a, (k1_off20 v108) a + S1x128.size a ≤ S1000000x128.size a)
instance k1_chk9.dec : ∀ (v108 : BitVec 32), Decidable (k1_chk9 v108) := fun v108 => decidable_of_iff' _ (Iff.of_eq (k1_chk9.eq_1 v108))
theorem k1_off20_inb : ∀ (v108 : BitVec 32) (k1_hw9 : k1_chk9 v108), ∀ a, (k1_off20 v108) a + S1x128.size a ≤ S1000000x128.size a := fun v108 k1_hw9 => k1_hw9

def k1_off21 (k1_t1 : Fin k1_t1_loop.trips) (c8_i32 : BitVec 32) : Fin 2 → Nat :=
  let c0_i32 : BitVec 32 := 0#32
  let c1_i32 : BitVec 32 := 1#32
  let arg11 : BitVec 32 := Scf.iv c0_i32 c1_i32 k1_t1
  let c16_i32_56 : BitVec 32 := 16#32
  let v109 : BitVec 32 := Scalar.muli arg11 c16_i32_56
  let v110 : BitVec 32 := Scalar.addi v109 c8_i32
  let c0_i32_59 : BitVec 32 := 0#32
  ![v110.toNat, 0]
def k1_off22 (v120 : BitVec 32) : Fin 2 → Nat :=
  let c0_i32_63 : BitVec 32 := 0#32
  ![v120.toNat, 0]

def k1_chk10 (v120 : BitVec 32) : Prop :=
  (∀ a, (k1_off22 v120) a + S1x128.size a ≤ S1000000x128.size a)
instance k1_chk10.dec : ∀ (v120 : BitVec 32), Decidable (k1_chk10 v120) := fun v120 => decidable_of_iff' _ (Iff.of_eq (k1_chk10.eq_1 v120))
theorem k1_off22_inb : ∀ (v120 : BitVec 32) (k1_hw10 : k1_chk10 v120), ∀ a, (k1_off22 v120) a + S1x128.size a ≤ S1000000x128.size a := fun v120 k1_hw10 => k1_hw10

def k1_off23 (k1_t1 : Fin k1_t1_loop.trips) (c9_i32 : BitVec 32) : Fin 2 → Nat :=
  let c0_i32 : BitVec 32 := 0#32
  let c1_i32 : BitVec 32 := 1#32
  let arg11 : BitVec 32 := Scf.iv c0_i32 c1_i32 k1_t1
  let c16_i32_61 : BitVec 32 := 16#32
  let v121 : BitVec 32 := Scalar.muli arg11 c16_i32_61
  let v122 : BitVec 32 := Scalar.addi v121 c9_i32
  let c0_i32_64 : BitVec 32 := 0#32
  ![v122.toNat, 0]
def k1_off24 (v132 : BitVec 32) : Fin 2 → Nat :=
  let c0_i32_68 : BitVec 32 := 0#32
  ![v132.toNat, 0]

def k1_chk11 (v132 : BitVec 32) : Prop :=
  (∀ a, (k1_off24 v132) a + S1x128.size a ≤ S1000000x128.size a)
instance k1_chk11.dec : ∀ (v132 : BitVec 32), Decidable (k1_chk11 v132) := fun v132 => decidable_of_iff' _ (Iff.of_eq (k1_chk11.eq_1 v132))
theorem k1_off24_inb : ∀ (v132 : BitVec 32) (k1_hw11 : k1_chk11 v132), ∀ a, (k1_off24 v132) a + S1x128.size a ≤ S1000000x128.size a := fun v132 k1_hw11 => k1_hw11

def k1_off25 (k1_t1 : Fin k1_t1_loop.trips) (c10_i32 : BitVec 32) : Fin 2 → Nat :=
  let c0_i32 : BitVec 32 := 0#32
  let c1_i32 : BitVec 32 := 1#32
  let arg11 : BitVec 32 := Scf.iv c0_i32 c1_i32 k1_t1
  let c16_i32_66 : BitVec 32 := 16#32
  let v133 : BitVec 32 := Scalar.muli arg11 c16_i32_66
  let v134 : BitVec 32 := Scalar.addi v133 c10_i32
  let c0_i32_69 : BitVec 32 := 0#32
  ![v134.toNat, 0]
def k1_off26 (v144 : BitVec 32) : Fin 2 → Nat :=
  let c0_i32_73 : BitVec 32 := 0#32
  ![v144.toNat, 0]

def k1_chk12 (v144 : BitVec 32) : Prop :=
  (∀ a, (k1_off26 v144) a + S1x128.size a ≤ S1000000x128.size a)
instance k1_chk12.dec : ∀ (v144 : BitVec 32), Decidable (k1_chk12 v144) := fun v144 => decidable_of_iff' _ (Iff.of_eq (k1_chk12.eq_1 v144))
theorem k1_off26_inb : ∀ (v144 : BitVec 32) (k1_hw12 : k1_chk12 v144), ∀ a, (k1_off26 v144) a + S1x128.size a ≤ S1000000x128.size a := fun v144 k1_hw12 => k1_hw12

def k1_off27 (k1_t1 : Fin k1_t1_loop.trips) (c11_i32 : BitVec 32) : Fin 2 → Nat :=
  let c0_i32 : BitVec 32 := 0#32
  let c1_i32 : BitVec 32 := 1#32
  let arg11 : BitVec 32 := Scf.iv c0_i32 c1_i32 k1_t1
  let c16_i32_71 : BitVec 32 := 16#32
  let v145 : BitVec 32 := Scalar.muli arg11 c16_i32_71
  let v146 : BitVec 32 := Scalar.addi v145 c11_i32
  let c0_i32_74 : BitVec 32 := 0#32
  ![v146.toNat, 0]
def k1_off28 (v156 : BitVec 32) : Fin 2 → Nat :=
  let c0_i32_78 : BitVec 32 := 0#32
  ![v156.toNat, 0]

def k1_chk13 (v156 : BitVec 32) : Prop :=
  (∀ a, (k1_off28 v156) a + S1x128.size a ≤ S1000000x128.size a)
instance k1_chk13.dec : ∀ (v156 : BitVec 32), Decidable (k1_chk13 v156) := fun v156 => decidable_of_iff' _ (Iff.of_eq (k1_chk13.eq_1 v156))
theorem k1_off28_inb : ∀ (v156 : BitVec 32) (k1_hw13 : k1_chk13 v156), ∀ a, (k1_off28 v156) a + S1x128.size a ≤ S1000000x128.size a := fun v156 k1_hw13 => k1_hw13

def k1_off29 (k1_t1 : Fin k1_t1_loop.trips) (c12_i32 : BitVec 32) : Fin 2 → Nat :=
  let c0_i32 : BitVec 32 := 0#32
  let c1_i32 : BitVec 32 := 1#32
  let arg11 : BitVec 32 := Scf.iv c0_i32 c1_i32 k1_t1
  let c16_i32_76 : BitVec 32 := 16#32
  let v157 : BitVec 32 := Scalar.muli arg11 c16_i32_76
  let v158 : BitVec 32 := Scalar.addi v157 c12_i32
  let c0_i32_79 : BitVec 32 := 0#32
  ![v158.toNat, 0]
def k1_off30 (v168 : BitVec 32) : Fin 2 → Nat :=
  let c0_i32_83 : BitVec 32 := 0#32
  ![v168.toNat, 0]

def k1_chk14 (v168 : BitVec 32) : Prop :=
  (∀ a, (k1_off30 v168) a + S1x128.size a ≤ S1000000x128.size a)
instance k1_chk14.dec : ∀ (v168 : BitVec 32), Decidable (k1_chk14 v168) := fun v168 => decidable_of_iff' _ (Iff.of_eq (k1_chk14.eq_1 v168))
theorem k1_off30_inb : ∀ (v168 : BitVec 32) (k1_hw14 : k1_chk14 v168), ∀ a, (k1_off30 v168) a + S1x128.size a ≤ S1000000x128.size a := fun v168 k1_hw14 => k1_hw14

def k1_off31 (k1_t1 : Fin k1_t1_loop.trips) (c13_i32 : BitVec 32) : Fin 2 → Nat :=
  let c0_i32 : BitVec 32 := 0#32
  let c1_i32 : BitVec 32 := 1#32
  let arg11 : BitVec 32 := Scf.iv c0_i32 c1_i32 k1_t1
  let c16_i32_81 : BitVec 32 := 16#32
  let v169 : BitVec 32 := Scalar.muli arg11 c16_i32_81
  let v170 : BitVec 32 := Scalar.addi v169 c13_i32
  let c0_i32_84 : BitVec 32 := 0#32
  ![v170.toNat, 0]
def k1_off32 (v180 : BitVec 32) : Fin 2 → Nat :=
  let c0_i32_88 : BitVec 32 := 0#32
  ![v180.toNat, 0]

def k1_chk15 (v180 : BitVec 32) : Prop :=
  (∀ a, (k1_off32 v180) a + S1x128.size a ≤ S1000000x128.size a)
instance k1_chk15.dec : ∀ (v180 : BitVec 32), Decidable (k1_chk15 v180) := fun v180 => decidable_of_iff' _ (Iff.of_eq (k1_chk15.eq_1 v180))
theorem k1_off32_inb : ∀ (v180 : BitVec 32) (k1_hw15 : k1_chk15 v180), ∀ a, (k1_off32 v180) a + S1x128.size a ≤ S1000000x128.size a := fun v180 k1_hw15 => k1_hw15

def k1_off33 (k1_t1 : Fin k1_t1_loop.trips) (c14_i32 : BitVec 32) : Fin 2 → Nat :=
  let c0_i32 : BitVec 32 := 0#32
  let c1_i32 : BitVec 32 := 1#32
  let arg11 : BitVec 32 := Scf.iv c0_i32 c1_i32 k1_t1
  let c16_i32_86 : BitVec 32 := 16#32
  let v181 : BitVec 32 := Scalar.muli arg11 c16_i32_86
  let v182 : BitVec 32 := Scalar.addi v181 c14_i32
  let c0_i32_89 : BitVec 32 := 0#32
  ![v182.toNat, 0]
def k1_off34 (v192 : BitVec 32) : Fin 2 → Nat :=
  let c0_i32_93 : BitVec 32 := 0#32
  ![v192.toNat, 0]

def k1_chk16 (v192 : BitVec 32) : Prop :=
  (∀ a, (k1_off34 v192) a + S1x128.size a ≤ S1000000x128.size a)
instance k1_chk16.dec : ∀ (v192 : BitVec 32), Decidable (k1_chk16 v192) := fun v192 => decidable_of_iff' _ (Iff.of_eq (k1_chk16.eq_1 v192))
theorem k1_off34_inb : ∀ (v192 : BitVec 32) (k1_hw16 : k1_chk16 v192), ∀ a, (k1_off34 v192) a + S1x128.size a ≤ S1000000x128.size a := fun v192 k1_hw16 => k1_hw16

def k1_off35 (k1_t1 : Fin k1_t1_loop.trips) : Fin 2 → Nat :=
  let c0_i32 : BitVec 32 := 0#32
  let c1_i32 : BitVec 32 := 1#32
  let arg11 : BitVec 32 := Scf.iv c0_i32 c1_i32 k1_t1
  let c16_i32_91 : BitVec 32 := 16#32
  let v193 : BitVec 32 := Scalar.muli arg11 c16_i32_91
  let c15_i32 : BitVec 32 := 15#32
  let v194 : BitVec 32 := Scalar.addi v193 c15_i32
  let c0_i32_94 : BitVec 32 := 0#32
  ![v194.toNat, 0]
@[reducible] def k1_t2_loop : Scf.Loop 32 :=
  let c0_i32_1 : BitVec 32 := 0#32
  let c512_i32_2 : BitVec 32 := 512#32
  let v4 : BitVec 32 := Scalar.addi c0_i32_1 c512_i32_2
  let c1_i32_3 : BitVec 32 := 1#32
  ⟨c0_i32_1, v4, c1_i32_3⟩
def k1_off36 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_13_r2 : BitVec 32 := 0#32
  ![v2.toNat, 0]
@[reducible] def k1_t3_loop : Scf.Loop 32 :=
  let c0_i32_5 : BitVec 32 := 0#32
  let c32_i32_6 : BitVec 32 := 32#32
  let v5 : BitVec 32 := Scalar.addi c0_i32_5 c32_i32_6
  let c1_i32_7 : BitVec 32 := 1#32
  ⟨c0_i32_5, v5, c1_i32_7⟩
def k1_off37 (k1_t3 : Fin k1_t3_loop.trips) : Fin 1 → Nat :=
  let c0_i32_5 : BitVec 32 := 0#32
  let c1_i32_7 : BitVec 32 := 1#32
  let arg11 : BitVec 32 := Scf.iv c0_i32_5 c1_i32_7 k1_t3
  let c16_i32 : BitVec 32 := 16#32
  let v7 : BitVec 32 := Scalar.muli arg11 c16_i32
  let v8 : Index := Scalar.indexCast v7
  ![v8.toNat]
def k1_off38 (k1_t3 : Fin k1_t3_loop.trips) : Fin 2 → Nat :=
  let c0_i32_5 : BitVec 32 := 0#32
  let c1_i32_7 : BitVec 32 := 1#32
  let arg11 : BitVec 32 := Scf.iv c0_i32_5 c1_i32_7 k1_t3
  let c16_i32_13 : BitVec 32 := 16#32
  let v13 : BitVec 32 := Scalar.muli arg11 c16_i32_13
  let c0_i32_14 : BitVec 32 := 0#32
  let v14 : BitVec 32 := Scalar.addi v13 c0_i32_14
  let c0_i32_15 : BitVec 32 := 0#32
  ![v14.toNat, 0]
def k1_off39 (v12 : BitVec 32) : Fin 2 → Nat :=
  let c0_i32_16 : BitVec 32 := 0#32
  ![v12.toNat, 0]

def k1_chk17 (v12 : BitVec 32) : Prop :=
  (∀ a, (k1_off39 v12) a + S1x128.size a ≤ S1000000x128.size a)
instance k1_chk17.dec : ∀ (v12 : BitVec 32), Decidable (k1_chk17 v12) := fun v12 => decidable_of_iff' _ (Iff.of_eq (k1_chk17.eq_1 v12))
theorem k1_off39_inb : ∀ (v12 : BitVec 32) (k1_hw17 : k1_chk17 v12), ∀ a, (k1_off39 v12) a + S1x128.size a ≤ S1000000x128.size a := fun v12 k1_hw17 => k1_hw17

def k1_off40 (k1_t3 : Fin k1_t3_loop.trips) (c0_i32_14 : BitVec 32) : Fin 2 → Nat :=
  let c0_i32_5 : BitVec 32 := 0#32
  let c1_i32_7 : BitVec 32 := 1#32
  let arg11 : BitVec 32 := Scf.iv c0_i32_5 c1_i32_7 k1_t3
  let c16_i32_13 : BitVec 32 := 16#32
  let v13 : BitVec 32 := Scalar.muli arg11 c16_i32_13
  let v14 : BitVec 32 := Scalar.addi v13 c0_i32_14
  let c0_i32_17 : BitVec 32 := 0#32
  ![v14.toNat, 0]
def k1_off41 (v24 : BitVec 32) : Fin 2 → Nat :=
  let c0_i32_22 : BitVec 32 := 0#32
  ![v24.toNat, 0]

def k1_chk18 (v24 : BitVec 32) : Prop :=
  (∀ a, (k1_off41 v24) a + S1x128.size a ≤ S1000000x128.size a)
instance k1_chk18.dec : ∀ (v24 : BitVec 32), Decidable (k1_chk18 v24) := fun v24 => decidable_of_iff' _ (Iff.of_eq (k1_chk18.eq_1 v24))
theorem k1_off41_inb : ∀ (v24 : BitVec 32) (k1_hw18 : k1_chk18 v24), ∀ a, (k1_off41 v24) a + S1x128.size a ≤ S1000000x128.size a := fun v24 k1_hw18 => k1_hw18

def k1_off42 (k1_t3 : Fin k1_t3_loop.trips) (c1_i32_20 : BitVec 32) : Fin 2 → Nat :=
  let c0_i32_5 : BitVec 32 := 0#32
  let c1_i32_7 : BitVec 32 := 1#32
  let arg11 : BitVec 32 := Scf.iv c0_i32_5 c1_i32_7 k1_t3
  let c16_i32_19 : BitVec 32 := 16#32
  let v25 : BitVec 32 := Scalar.muli arg11 c16_i32_19
  let v26 : BitVec 32 := Scalar.addi v25 c1_i32_20
  let c0_i32_23 : BitVec 32 := 0#32
  ![v26.toNat, 0]
def k1_off43 (v36 : BitVec 32) : Fin 2 → Nat :=
  let c0_i32_28 : BitVec 32 := 0#32
  ![v36.toNat, 0]

def k1_chk19 (v36 : BitVec 32) : Prop :=
  (∀ a, (k1_off43 v36) a + S1x128.size a ≤ S1000000x128.size a)
instance k1_chk19.dec : ∀ (v36 : BitVec 32), Decidable (k1_chk19 v36) := fun v36 => decidable_of_iff' _ (Iff.of_eq (k1_chk19.eq_1 v36))
theorem k1_off43_inb : ∀ (v36 : BitVec 32) (k1_hw19 : k1_chk19 v36), ∀ a, (k1_off43 v36) a + S1x128.size a ≤ S1000000x128.size a := fun v36 k1_hw19 => k1_hw19

def k1_off44 (k1_t3 : Fin k1_t3_loop.trips) (c2_i32_26 : BitVec 32) : Fin 2 → Nat :=
  let c0_i32_5 : BitVec 32 := 0#32
  let c1_i32_7 : BitVec 32 := 1#32
  let arg11 : BitVec 32 := Scf.iv c0_i32_5 c1_i32_7 k1_t3
  let c16_i32_25 : BitVec 32 := 16#32
  let v37 : BitVec 32 := Scalar.muli arg11 c16_i32_25
  let v38 : BitVec 32 := Scalar.addi v37 c2_i32_26
  let c0_i32_29 : BitVec 32 := 0#32
  ![v38.toNat, 0]
def k1_off45 (v48 : BitVec 32) : Fin 2 → Nat :=
  let c0_i32_33 : BitVec 32 := 0#32
  ![v48.toNat, 0]

def k1_chk20 (v48 : BitVec 32) : Prop :=
  (∀ a, (k1_off45 v48) a + S1x128.size a ≤ S1000000x128.size a)
instance k1_chk20.dec : ∀ (v48 : BitVec 32), Decidable (k1_chk20 v48) := fun v48 => decidable_of_iff' _ (Iff.of_eq (k1_chk20.eq_1 v48))
theorem k1_off45_inb : ∀ (v48 : BitVec 32) (k1_hw20 : k1_chk20 v48), ∀ a, (k1_off45 v48) a + S1x128.size a ≤ S1000000x128.size a := fun v48 k1_hw20 => k1_hw20

def k1_off46 (k1_t3 : Fin k1_t3_loop.trips) (c3_i32 : BitVec 32) : Fin 2 → Nat :=
  let c0_i32_5 : BitVec 32 := 0#32
  let c1_i32_7 : BitVec 32 := 1#32
  let arg11 : BitVec 32 := Scf.iv c0_i32_5 c1_i32_7 k1_t3
  let c16_i32_31 : BitVec 32 := 16#32
  let v49 : BitVec 32 := Scalar.muli arg11 c16_i32_31
  let v50 : BitVec 32 := Scalar.addi v49 c3_i32
  let c0_i32_34 : BitVec 32 := 0#32
  ![v50.toNat, 0]
def k1_off47 (v60 : BitVec 32) : Fin 2 → Nat :=
  let c0_i32_38 : BitVec 32 := 0#32
  ![v60.toNat, 0]

def k1_chk21 (v60 : BitVec 32) : Prop :=
  (∀ a, (k1_off47 v60) a + S1x128.size a ≤ S1000000x128.size a)
instance k1_chk21.dec : ∀ (v60 : BitVec 32), Decidable (k1_chk21 v60) := fun v60 => decidable_of_iff' _ (Iff.of_eq (k1_chk21.eq_1 v60))
theorem k1_off47_inb : ∀ (v60 : BitVec 32) (k1_hw21 : k1_chk21 v60), ∀ a, (k1_off47 v60) a + S1x128.size a ≤ S1000000x128.size a := fun v60 k1_hw21 => k1_hw21

def k1_off48 (k1_t3 : Fin k1_t3_loop.trips) (c4_i32 : BitVec 32) : Fin 2 → Nat :=
  let c0_i32_5 : BitVec 32 := 0#32
  let c1_i32_7 : BitVec 32 := 1#32
  let arg11 : BitVec 32 := Scf.iv c0_i32_5 c1_i32_7 k1_t3
  let c16_i32_36 : BitVec 32 := 16#32
  let v61 : BitVec 32 := Scalar.muli arg11 c16_i32_36
  let v62 : BitVec 32 := Scalar.addi v61 c4_i32
  let c0_i32_39 : BitVec 32 := 0#32
  ![v62.toNat, 0]
def k1_off49 (v72 : BitVec 32) : Fin 2 → Nat :=
  let c0_i32_43 : BitVec 32 := 0#32
  ![v72.toNat, 0]

def k1_chk22 (v72 : BitVec 32) : Prop :=
  (∀ a, (k1_off49 v72) a + S1x128.size a ≤ S1000000x128.size a)
instance k1_chk22.dec : ∀ (v72 : BitVec 32), Decidable (k1_chk22 v72) := fun v72 => decidable_of_iff' _ (Iff.of_eq (k1_chk22.eq_1 v72))
theorem k1_off49_inb : ∀ (v72 : BitVec 32) (k1_hw22 : k1_chk22 v72), ∀ a, (k1_off49 v72) a + S1x128.size a ≤ S1000000x128.size a := fun v72 k1_hw22 => k1_hw22

def k1_off50 (k1_t3 : Fin k1_t3_loop.trips) (c5_i32 : BitVec 32) : Fin 2 → Nat :=
  let c0_i32_5 : BitVec 32 := 0#32
  let c1_i32_7 : BitVec 32 := 1#32
  let arg11 : BitVec 32 := Scf.iv c0_i32_5 c1_i32_7 k1_t3
  let c16_i32_41 : BitVec 32 := 16#32
  let v73 : BitVec 32 := Scalar.muli arg11 c16_i32_41
  let v74 : BitVec 32 := Scalar.addi v73 c5_i32
  let c0_i32_44 : BitVec 32 := 0#32
  ![v74.toNat, 0]
def k1_off51 (v84 : BitVec 32) : Fin 2 → Nat :=
  let c0_i32_48 : BitVec 32 := 0#32
  ![v84.toNat, 0]

def k1_chk23 (v84 : BitVec 32) : Prop :=
  (∀ a, (k1_off51 v84) a + S1x128.size a ≤ S1000000x128.size a)
instance k1_chk23.dec : ∀ (v84 : BitVec 32), Decidable (k1_chk23 v84) := fun v84 => decidable_of_iff' _ (Iff.of_eq (k1_chk23.eq_1 v84))
theorem k1_off51_inb : ∀ (v84 : BitVec 32) (k1_hw23 : k1_chk23 v84), ∀ a, (k1_off51 v84) a + S1x128.size a ≤ S1000000x128.size a := fun v84 k1_hw23 => k1_hw23

def k1_off52 (k1_t3 : Fin k1_t3_loop.trips) (c6_i32 : BitVec 32) : Fin 2 → Nat :=
  let c0_i32_5 : BitVec 32 := 0#32
  let c1_i32_7 : BitVec 32 := 1#32
  let arg11 : BitVec 32 := Scf.iv c0_i32_5 c1_i32_7 k1_t3
  let c16_i32_46 : BitVec 32 := 16#32
  let v85 : BitVec 32 := Scalar.muli arg11 c16_i32_46
  let v86 : BitVec 32 := Scalar.addi v85 c6_i32
  let c0_i32_49 : BitVec 32 := 0#32
  ![v86.toNat, 0]
def k1_off53 (v96 : BitVec 32) : Fin 2 → Nat :=
  let c0_i32_53 : BitVec 32 := 0#32
  ![v96.toNat, 0]

def k1_chk24 (v96 : BitVec 32) : Prop :=
  (∀ a, (k1_off53 v96) a + S1x128.size a ≤ S1000000x128.size a)
instance k1_chk24.dec : ∀ (v96 : BitVec 32), Decidable (k1_chk24 v96) := fun v96 => decidable_of_iff' _ (Iff.of_eq (k1_chk24.eq_1 v96))
theorem k1_off53_inb : ∀ (v96 : BitVec 32) (k1_hw24 : k1_chk24 v96), ∀ a, (k1_off53 v96) a + S1x128.size a ≤ S1000000x128.size a := fun v96 k1_hw24 => k1_hw24

def k1_off54 (k1_t3 : Fin k1_t3_loop.trips) (c7_i32 : BitVec 32) : Fin 2 → Nat :=
  let c0_i32_5 : BitVec 32 := 0#32
  let c1_i32_7 : BitVec 32 := 1#32
  let arg11 : BitVec 32 := Scf.iv c0_i32_5 c1_i32_7 k1_t3
  let c16_i32_51 : BitVec 32 := 16#32
  let v97 : BitVec 32 := Scalar.muli arg11 c16_i32_51
  let v98 : BitVec 32 := Scalar.addi v97 c7_i32
  let c0_i32_54 : BitVec 32 := 0#32
  ![v98.toNat, 0]
def k1_off55 (v108 : BitVec 32) : Fin 2 → Nat :=
  let c0_i32_58 : BitVec 32 := 0#32
  ![v108.toNat, 0]

def k1_chk25 (v108 : BitVec 32) : Prop :=
  (∀ a, (k1_off55 v108) a + S1x128.size a ≤ S1000000x128.size a)
instance k1_chk25.dec : ∀ (v108 : BitVec 32), Decidable (k1_chk25 v108) := fun v108 => decidable_of_iff' _ (Iff.of_eq (k1_chk25.eq_1 v108))
theorem k1_off55_inb : ∀ (v108 : BitVec 32) (k1_hw25 : k1_chk25 v108), ∀ a, (k1_off55 v108) a + S1x128.size a ≤ S1000000x128.size a := fun v108 k1_hw25 => k1_hw25

def k1_off56 (k1_t3 : Fin k1_t3_loop.trips) (c8_i32 : BitVec 32) : Fin 2 → Nat :=
  let c0_i32_5 : BitVec 32 := 0#32
  let c1_i32_7 : BitVec 32 := 1#32
  let arg11 : BitVec 32 := Scf.iv c0_i32_5 c1_i32_7 k1_t3
  let c16_i32_56 : BitVec 32 := 16#32
  let v109 : BitVec 32 := Scalar.muli arg11 c16_i32_56
  let v110 : BitVec 32 := Scalar.addi v109 c8_i32
  let c0_i32_59 : BitVec 32 := 0#32
  ![v110.toNat, 0]
def k1_off57 (v120 : BitVec 32) : Fin 2 → Nat :=
  let c0_i32_63 : BitVec 32 := 0#32
  ![v120.toNat, 0]

def k1_chk26 (v120 : BitVec 32) : Prop :=
  (∀ a, (k1_off57 v120) a + S1x128.size a ≤ S1000000x128.size a)
instance k1_chk26.dec : ∀ (v120 : BitVec 32), Decidable (k1_chk26 v120) := fun v120 => decidable_of_iff' _ (Iff.of_eq (k1_chk26.eq_1 v120))
theorem k1_off57_inb : ∀ (v120 : BitVec 32) (k1_hw26 : k1_chk26 v120), ∀ a, (k1_off57 v120) a + S1x128.size a ≤ S1000000x128.size a := fun v120 k1_hw26 => k1_hw26

def k1_off58 (k1_t3 : Fin k1_t3_loop.trips) (c9_i32 : BitVec 32) : Fin 2 → Nat :=
  let c0_i32_5 : BitVec 32 := 0#32
  let c1_i32_7 : BitVec 32 := 1#32
  let arg11 : BitVec 32 := Scf.iv c0_i32_5 c1_i32_7 k1_t3
  let c16_i32_61 : BitVec 32 := 16#32
  let v121 : BitVec 32 := Scalar.muli arg11 c16_i32_61
  let v122 : BitVec 32 := Scalar.addi v121 c9_i32
  let c0_i32_64 : BitVec 32 := 0#32
  ![v122.toNat, 0]
def k1_off59 (v132 : BitVec 32) : Fin 2 → Nat :=
  let c0_i32_68 : BitVec 32 := 0#32
  ![v132.toNat, 0]

def k1_chk27 (v132 : BitVec 32) : Prop :=
  (∀ a, (k1_off59 v132) a + S1x128.size a ≤ S1000000x128.size a)
instance k1_chk27.dec : ∀ (v132 : BitVec 32), Decidable (k1_chk27 v132) := fun v132 => decidable_of_iff' _ (Iff.of_eq (k1_chk27.eq_1 v132))
theorem k1_off59_inb : ∀ (v132 : BitVec 32) (k1_hw27 : k1_chk27 v132), ∀ a, (k1_off59 v132) a + S1x128.size a ≤ S1000000x128.size a := fun v132 k1_hw27 => k1_hw27

def k1_off60 (k1_t3 : Fin k1_t3_loop.trips) (c10_i32 : BitVec 32) : Fin 2 → Nat :=
  let c0_i32_5 : BitVec 32 := 0#32
  let c1_i32_7 : BitVec 32 := 1#32
  let arg11 : BitVec 32 := Scf.iv c0_i32_5 c1_i32_7 k1_t3
  let c16_i32_66 : BitVec 32 := 16#32
  let v133 : BitVec 32 := Scalar.muli arg11 c16_i32_66
  let v134 : BitVec 32 := Scalar.addi v133 c10_i32
  let c0_i32_69 : BitVec 32 := 0#32
  ![v134.toNat, 0]
def k1_off61 (v144 : BitVec 32) : Fin 2 → Nat :=
  let c0_i32_73 : BitVec 32 := 0#32
  ![v144.toNat, 0]

def k1_chk28 (v144 : BitVec 32) : Prop :=
  (∀ a, (k1_off61 v144) a + S1x128.size a ≤ S1000000x128.size a)
instance k1_chk28.dec : ∀ (v144 : BitVec 32), Decidable (k1_chk28 v144) := fun v144 => decidable_of_iff' _ (Iff.of_eq (k1_chk28.eq_1 v144))
theorem k1_off61_inb : ∀ (v144 : BitVec 32) (k1_hw28 : k1_chk28 v144), ∀ a, (k1_off61 v144) a + S1x128.size a ≤ S1000000x128.size a := fun v144 k1_hw28 => k1_hw28

def k1_off62 (k1_t3 : Fin k1_t3_loop.trips) (c11_i32 : BitVec 32) : Fin 2 → Nat :=
  let c0_i32_5 : BitVec 32 := 0#32
  let c1_i32_7 : BitVec 32 := 1#32
  let arg11 : BitVec 32 := Scf.iv c0_i32_5 c1_i32_7 k1_t3
  let c16_i32_71 : BitVec 32 := 16#32
  let v145 : BitVec 32 := Scalar.muli arg11 c16_i32_71
  let v146 : BitVec 32 := Scalar.addi v145 c11_i32
  let c0_i32_74 : BitVec 32 := 0#32
  ![v146.toNat, 0]
def k1_off63 (v156 : BitVec 32) : Fin 2 → Nat :=
  let c0_i32_78 : BitVec 32 := 0#32
  ![v156.toNat, 0]

def k1_chk29 (v156 : BitVec 32) : Prop :=
  (∀ a, (k1_off63 v156) a + S1x128.size a ≤ S1000000x128.size a)
instance k1_chk29.dec : ∀ (v156 : BitVec 32), Decidable (k1_chk29 v156) := fun v156 => decidable_of_iff' _ (Iff.of_eq (k1_chk29.eq_1 v156))
theorem k1_off63_inb : ∀ (v156 : BitVec 32) (k1_hw29 : k1_chk29 v156), ∀ a, (k1_off63 v156) a + S1x128.size a ≤ S1000000x128.size a := fun v156 k1_hw29 => k1_hw29

def k1_off64 (k1_t3 : Fin k1_t3_loop.trips) (c12_i32 : BitVec 32) : Fin 2 → Nat :=
  let c0_i32_5 : BitVec 32 := 0#32
  let c1_i32_7 : BitVec 32 := 1#32
  let arg11 : BitVec 32 := Scf.iv c0_i32_5 c1_i32_7 k1_t3
  let c16_i32_76 : BitVec 32 := 16#32
  let v157 : BitVec 32 := Scalar.muli arg11 c16_i32_76
  let v158 : BitVec 32 := Scalar.addi v157 c12_i32
  let c0_i32_79 : BitVec 32 := 0#32
  ![v158.toNat, 0]
def k1_off65 (v168 : BitVec 32) : Fin 2 → Nat :=
  let c0_i32_83 : BitVec 32 := 0#32
  ![v168.toNat, 0]

def k1_chk30 (v168 : BitVec 32) : Prop :=
  (∀ a, (k1_off65 v168) a + S1x128.size a ≤ S1000000x128.size a)
instance k1_chk30.dec : ∀ (v168 : BitVec 32), Decidable (k1_chk30 v168) := fun v168 => decidable_of_iff' _ (Iff.of_eq (k1_chk30.eq_1 v168))
theorem k1_off65_inb : ∀ (v168 : BitVec 32) (k1_hw30 : k1_chk30 v168), ∀ a, (k1_off65 v168) a + S1x128.size a ≤ S1000000x128.size a := fun v168 k1_hw30 => k1_hw30

def k1_off66 (k1_t3 : Fin k1_t3_loop.trips) (c13_i32 : BitVec 32) : Fin 2 → Nat :=
  let c0_i32_5 : BitVec 32 := 0#32
  let c1_i32_7 : BitVec 32 := 1#32
  let arg11 : BitVec 32 := Scf.iv c0_i32_5 c1_i32_7 k1_t3
  let c16_i32_81 : BitVec 32 := 16#32
  let v169 : BitVec 32 := Scalar.muli arg11 c16_i32_81
  let v170 : BitVec 32 := Scalar.addi v169 c13_i32
  let c0_i32_84 : BitVec 32 := 0#32
  ![v170.toNat, 0]
def k1_off67 (v180 : BitVec 32) : Fin 2 → Nat :=
  let c0_i32_88 : BitVec 32 := 0#32
  ![v180.toNat, 0]

def k1_chk31 (v180 : BitVec 32) : Prop :=
  (∀ a, (k1_off67 v180) a + S1x128.size a ≤ S1000000x128.size a)
instance k1_chk31.dec : ∀ (v180 : BitVec 32), Decidable (k1_chk31 v180) := fun v180 => decidable_of_iff' _ (Iff.of_eq (k1_chk31.eq_1 v180))
theorem k1_off67_inb : ∀ (v180 : BitVec 32) (k1_hw31 : k1_chk31 v180), ∀ a, (k1_off67 v180) a + S1x128.size a ≤ S1000000x128.size a := fun v180 k1_hw31 => k1_hw31

def k1_off68 (k1_t3 : Fin k1_t3_loop.trips) (c14_i32 : BitVec 32) : Fin 2 → Nat :=
  let c0_i32_5 : BitVec 32 := 0#32
  let c1_i32_7 : BitVec 32 := 1#32
  let arg11 : BitVec 32 := Scf.iv c0_i32_5 c1_i32_7 k1_t3
  let c16_i32_86 : BitVec 32 := 16#32
  let v181 : BitVec 32 := Scalar.muli arg11 c16_i32_86
  let v182 : BitVec 32 := Scalar.addi v181 c14_i32
  let c0_i32_89 : BitVec 32 := 0#32
  ![v182.toNat, 0]
def k1_off69 (v192 : BitVec 32) : Fin 2 → Nat :=
  let c0_i32_93 : BitVec 32 := 0#32
  ![v192.toNat, 0]

def k1_chk32 (v192 : BitVec 32) : Prop :=
  (∀ a, (k1_off69 v192) a + S1x128.size a ≤ S1000000x128.size a)
instance k1_chk32.dec : ∀ (v192 : BitVec 32), Decidable (k1_chk32 v192) := fun v192 => decidable_of_iff' _ (Iff.of_eq (k1_chk32.eq_1 v192))
theorem k1_off69_inb : ∀ (v192 : BitVec 32) (k1_hw32 : k1_chk32 v192), ∀ a, (k1_off69 v192) a + S1x128.size a ≤ S1000000x128.size a := fun v192 k1_hw32 => k1_hw32

def k1_off70 (k1_t3 : Fin k1_t3_loop.trips) : Fin 2 → Nat :=
  let c0_i32_5 : BitVec 32 := 0#32
  let c1_i32_7 : BitVec 32 := 1#32
  let arg11 : BitVec 32 := Scf.iv c0_i32_5 c1_i32_7 k1_t3
  let c16_i32_91 : BitVec 32 := 16#32
  let v193 : BitVec 32 := Scalar.muli arg11 c16_i32_91
  let c15_i32 : BitVec 32 := 15#32
  let v194 : BitVec 32 := Scalar.addi v193 c15_i32
  let c0_i32_94 : BitVec 32 := 0#32
  ![v194.toNat, 0]
@[reducible] def k1_t4_loop : Scf.Loop 32 :=
  let c0_i32_9 : BitVec 32 := 0#32
  let c512_i32_10 : BitVec 32 := 512#32
  let v6 : BitVec 32 := Scalar.addi c0_i32_9 c512_i32_10
  let c1_i32_11 : BitVec 32 := 1#32
  ⟨c0_i32_9, v6, c1_i32_11⟩
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S2048x1 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x32_S32x1000000_1_0 : S1000000x32.Transposes [1, 0] S32x1000000
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  transposes_S32x4096_p1_0_S4096x32 : S32x4096.Transposes [1, 0] S4096x32
  concatenates_S4096x32_S4096x32_S4096x32_S4096x32_S4096x128_d1 : Shape.Concatenates [S4096x32, S4096x32, S4096x32, S4096x32] S4096x128 1
  inb_S4096x128_S4096x128_0_0 : ∀ a, (![0, 0] : Fin 2 → Nat) a + S4096x128.size a ≤ S4096x128.size a
  h_S4096x128 : 0 < S4096x128.numel
  h_S16 : 0 < S16.numel
  shapeCasts_S16_S16 : S16.ShapeCasts S16
  slices_S16_o0_S1 : S16.Slices ![0] S1
  inpos_S1_p0 : ∀ a, (![0] : Fin 1 → Nat) a < S1.size a
  squeezes_S1x128_S128 : S1x128.Squeezes S128
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S512x128_S1x128_0_0 : ∀ a, (![0, 0] : Fin 2 → Nat) a + S1x128.size a ≤ S512x128.size a
  inb_S1000000x128_S1x128_0_0 : ∀ a, (![0, 0] : Fin 2 → Nat) a + S1x128.size a ≤ S1000000x128.size a
  slices_S64x128_S32x128_0_0 : S64x128.Slices ![0, 0] S32x128
  slices_S64x128_S32x128_32_0 : S64x128.Slices ![32, 0] S32x128
  slices_S64x1_S32x1_0_0 : S64x1.Slices ![0, 0] S32x1
  shapeCasts_S32x1_S1x32 : S32x1.ShapeCasts S1x32
  slices_S64x1_S32x1_32_0 : S64x1.Slices ![32, 0] S32x1
  shapeCasts_S128_S1x128 : S128.ShapeCasts S1x128
  shapeCasts_S64_S1x64 : S64.ShapeCasts S1x64
  shapeCasts_S32_S1x32 : S32.ShapeCasts S1x32
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S2048x128_o0_0_S2048x32 : S2048x128.Slices ![0, 0] S2048x32
  slices_S2048x128_o0_32_S2048x32 : S2048x128.Slices ![0, 32] S2048x32
  slices_S2048x128_o0_64_S2048x32 : S2048x128.Slices ![0, 64] S2048x32
  slices_S2048x128_o0_96_S2048x32 : S2048x128.Slices ![0, 96] S2048x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  reduces_S2048x32_S2048 : S2048x32.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  dot_S2048x32_S32x128_S2048x128_1_0_0_1_n_n_wf : DotDims.WF S2048x32 S32x128 S2048x128 [1] [0] [0] [1] [] []
  dot_S2048x128_S128x64_S2048x64_1_0_0_1_n_n_wf : DotDims.WF S2048x128 S128x64 S2048x64 [1] [0] [0] [1] [] []
  dot_S2048x64_S64x32_S2048x32_1_0_0_1_n_n_wf : DotDims.WF S2048x64 S64x32 S2048x32 [1] [0] [0] [1] [] []
  hcc1_scratch3 : 10 + S_.numel ≤ 31
  hcc1_scoped0 : 11 + S_.numel ≤ 31
  hcc1_scoped1 : 12 + S_.numel ≤ 31
  hcc1_scoped2 : 13 + S_.numel ≤ 31
  hcc1_scoped3 : 14 + S_.numel ≤ 31
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x4096.size a < S32x1000000.size a
  hwx0_0 : ∀ i : grid0.Coords, EltTy.bits .f32 = 32 ∨ (Rect.unit (s := S32x1000000) (fun a => cc0_transform_0 i a * S32x4096.size a) (fun a => (Pipeline.Clip.of (cc0_transform_0 i a) (S32x4096.size a) (S32x1000000.size a)).extent (S32x4096.size a)) fun a => Pipeline.Clip.inb (Pipeline.Clip.ok_of (hstart0_0 i a))).WholeWords (EltTy.packing .f32)
  hwxs0_0 : ∀ i : grid0.Coords, EltTy.bits .f32 = 32 ∨ (Rect.unit (s := S32x4096) (fun _ => 0) (fun a => (Pipeline.Clip.of (cc0_transform_0 i a) (S32x4096.size a) (S32x1000000.size a)).extent (S32x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S32x4096.size a < S32x1000000.size a
  hwx0_1 : ∀ i : grid0.Coords, EltTy.bits .f32 = 32 ∨ (Rect.unit (s := S32x1000000) (fun a => cc0_transform_1 i a * S32x4096.size a) (fun a => (Pipeline.Clip.of (cc0_transform_1 i a) (S32x4096.size a) (S32x1000000.size a)).extent (S32x4096.size a)) fun a => Pipeline.Clip.inb (Pipeline.Clip.ok_of (hstart0_1 i a))).WholeWords (EltTy.packing .f32)
  hwxs0_1 : ∀ i : grid0.Coords, EltTy.bits .f32 = 32 ∨ (Rect.unit (s := S32x4096) (fun _ => 0) (fun a => (Pipeline.Clip.of (cc0_transform_1 i a) (S32x4096.size a) (S32x1000000.size a)).extent (S32x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x4096.size a < S32x1000000.size a
  hwx0_2 : ∀ i : grid0.Coords, EltTy.bits .f32 = 32 ∨ (Rect.unit (s := S32x1000000) (fun a => cc0_transform_2 i a * S32x4096.size a) (fun a => (Pipeline.Clip.of (cc0_transform_2 i a) (S32x4096.size a) (S32x1000000.size a)).extent (S32x4096.size a)) fun a => Pipeline.Clip.inb (Pipeline.Clip.ok_of (hstart0_2 i a))).WholeWords (EltTy.packing .f32)
  hwxs0_2 : ∀ i : grid0.Coords, EltTy.bits .f32 = 32 ∨ (Rect.unit (s := S32x4096) (fun _ => 0) (fun a => (Pipeline.Clip.of (cc0_transform_2 i a) (S32x4096.size a) (S32x1000000.size a)).extent (S32x4096.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x4096.size a < S32x1000000.size a
  hwx0_3 : ∀ i : grid0.Coords, EltTy.bits .f32 = 32 ∨ (Rect.unit (s := S32x1000000) (fun a => cc0_transform_3 i a * S32x4096.size a) (fun a => (Pipeline.Clip.of (cc0_transform_3 i a) (S32x4096.size a) (S32x1000000.size a)).extent (S32x4096.size a)) fun a => Pipeline.Clip.inb (Pipeline.Clip.ok_of (hstart0_3 i a))).WholeWords (EltTy.packing .f32)
  hwxs0_3 : ∀ i : grid0.Coords, EltTy.bits .f32 = 32 ∨ (Rect.unit (s := S32x4096) (fun _ => 0) (fun a => (Pipeline.Clip.of (cc0_transform_3 i a) (S32x4096.size a) (S32x1000000.size a)).extent (S32x4096.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S4096x128.size a < S1000000x128.size a
  hwx0_4 : ∀ i : grid0.Coords, EltTy.bits .f32 = 32 ∨ (Rect.unit (s := S1000000x128) (fun a => cc0_transform_4 i a * S4096x128.size a) (fun a => (Pipeline.Clip.of (cc0_transform_4 i a) (S4096x128.size a) (S1000000x128.size a)).extent (S4096x128.size a)) fun a => Pipeline.Clip.inb (Pipeline.Clip.ok_of (hstart0_4 i a))).WholeWords (EltTy.packing .f32)
  hwxs0_4 : ∀ i : grid0.Coords, EltTy.bits .f32 = 32 ∨ (Rect.unit (s := S4096x128) (fun _ => 0) (fun a => (Pipeline.Clip.of (cc0_transform_4 i a) (S4096x128.size a) (S1000000x128.size a)).extent (S4096x128.size a)) fun a => (Nat.zero_add _).trans_le (Pipeline.Clip.extent_le (Pipeline.Clip.ok_of (hstart0_4 i a)))).WholeWords (EltTy.packing .f32)
  hcore1 : grid1.bound 0 ≤ τ.nSC
  hsub1 : grid1.bound 1 ≤ τ.nSub
  k1_off1_inb : ∀ i : grid1.Coords, ∀ a, (k1_off1 i) a + S512.size a ≤ S16384.size a
  k1_t1_ok : k1_t1_loop.OK
  k1_off2_inb : ∀ k1_t1 : Fin k1_t1_loop.trips, ∀ a, (k1_off2 k1_t1) a + S16.size a ≤ S512.size a
  k1_off3_inb : ∀ k1_t1 : Fin k1_t1_loop.trips, ∀ a, (k1_off3 k1_t1) a + S1x128.size a ≤ S512x128.size a
  k1_off5_inb : ∀ k1_t1 : Fin k1_t1_loop.trips, ∀ (r : Fin 2), ∀ a, (k1_off5 k1_t1 (BitVec.ofNat 32 r.val)) a + S1x128.size a ≤ S512x128.size a
  k1_off7_inb : ∀ k1_t1 : Fin k1_t1_loop.trips, ∀ (r : Fin 2), ∀ a, (k1_off7 k1_t1 (BitVec.ofNat 32 (1 + r.val))) a + S1x128.size a ≤ S512x128.size a
  k1_off9_inb : ∀ k1_t1 : Fin k1_t1_loop.trips, ∀ (r : Fin 2), ∀ a, (k1_off9 k1_t1 (BitVec.ofNat 32 (2 + r.val))) a + S1x128.size a ≤ S512x128.size a
  k1_off11_inb : ∀ k1_t1 : Fin k1_t1_loop.trips, ∀ (r : Fin 2), ∀ a, (k1_off11 k1_t1 (BitVec.ofNat 32 (3 + r.val))) a + S1x128.size a ≤ S512x128.size a
  k1_off13_inb : ∀ k1_t1 : Fin k1_t1_loop.trips, ∀ (r : Fin 2), ∀ a, (k1_off13 k1_t1 (BitVec.ofNat 32 (4 + r.val))) a + S1x128.size a ≤ S512x128.size a
  k1_off15_inb : ∀ k1_t1 : Fin k1_t1_loop.trips, ∀ (r : Fin 2), ∀ a, (k1_off15 k1_t1 (BitVec.ofNat 32 (5 + r.val))) a + S1x128.size a ≤ S512x128.size a
  k1_off17_inb : ∀ k1_t1 : Fin k1_t1_loop.trips, ∀ (r : Fin 2), ∀ a, (k1_off17 k1_t1 (BitVec.ofNat 32 (6 + r.val))) a + S1x128.size a ≤ S512x128.size a
  k1_off19_inb : ∀ k1_t1 : Fin k1_t1_loop.trips, ∀ (r : Fin 2), ∀ a, (k1_off19 k1_t1 (BitVec.ofNat 32 (7 + r.val))) a + S1x128.size a ≤ S512x128.size a
  k1_off21_inb : ∀ k1_t1 : Fin k1_t1_loop.trips, ∀ (r : Fin 2), ∀ a, (k1_off21 k1_t1 (BitVec.ofNat 32 (8 + r.val))) a + S1x128.size a ≤ S512x128.size a
  k1_off23_inb : ∀ k1_t1 : Fin k1_t1_loop.trips, ∀ (r : Fin 2), ∀ a, (k1_off23 k1_t1 (BitVec.ofNat 32 (9 + r.val))) a + S1x128.size a ≤ S512x128.size a
  k1_off25_inb : ∀ k1_t1 : Fin k1_t1_loop.trips, ∀ (r : Fin 2), ∀ a, (k1_off25 k1_t1 (BitVec.ofNat 32 (10 + r.val))) a + S1x128.size a ≤ S512x128.size a
  k1_off27_inb : ∀ k1_t1 : Fin k1_t1_loop.trips, ∀ (r : Fin 2), ∀ a, (k1_off27 k1_t1 (BitVec.ofNat 32 (11 + r.val))) a + S1x128.size a ≤ S512x128.size a
  k1_off29_inb : ∀ k1_t1 : Fin k1_t1_loop.trips, ∀ (r : Fin 2), ∀ a, (k1_off29 k1_t1 (BitVec.ofNat 32 (12 + r.val))) a + S1x128.size a ≤ S512x128.size a
  k1_off31_inb : ∀ k1_t1 : Fin k1_t1_loop.trips, ∀ (r : Fin 2), ∀ a, (k1_off31 k1_t1 (BitVec.ofNat 32 (13 + r.val))) a + S1x128.size a ≤ S512x128.size a
  k1_off33_inb : ∀ k1_t1 : Fin k1_t1_loop.trips, ∀ (r : Fin 2), ∀ a, (k1_off33 k1_t1 (BitVec.ofNat 32 (14 + r.val))) a + S1x128.size a ≤ S512x128.size a
  k1_off35_inb : ∀ k1_t1 : Fin k1_t1_loop.trips, ∀ a, (k1_off35 k1_t1) a + S1x128.size a ≤ S512x128.size a
  k1_t2_ok : k1_t2_loop.OK
  k1_off36_inb : ∀ i : grid1.Coords, ∀ a, (k1_off36 i) a + S512x128.size a ≤ S16384x128.size a
  k1_t3_ok : k1_t3_loop.OK
  k1_off37_inb : ∀ k1_t3 : Fin k1_t3_loop.trips, ∀ a, (k1_off37 k1_t3) a + S16.size a ≤ S512.size a
  k1_off38_inb : ∀ k1_t3 : Fin k1_t3_loop.trips, ∀ a, (k1_off38 k1_t3) a + S1x128.size a ≤ S512x128.size a
  k1_off40_inb : ∀ k1_t3 : Fin k1_t3_loop.trips, ∀ (r : Fin 2), ∀ a, (k1_off40 k1_t3 (BitVec.ofNat 32 r.val)) a + S1x128.size a ≤ S512x128.size a
  k1_off42_inb : ∀ k1_t3 : Fin k1_t3_loop.trips, ∀ (r : Fin 2), ∀ a, (k1_off42 k1_t3 (BitVec.ofNat 32 (1 + r.val))) a + S1x128.size a ≤ S512x128.size a
  k1_off44_inb : ∀ k1_t3 : Fin k1_t3_loop.trips, ∀ (r : Fin 2), ∀ a, (k1_off44 k1_t3 (BitVec.ofNat 32 (2 + r.val))) a + S1x128.size a ≤ S512x128.size a
  k1_off46_inb : ∀ k1_t3 : Fin k1_t3_loop.trips, ∀ (r : Fin 2), ∀ a, (k1_off46 k1_t3 (BitVec.ofNat 32 (3 + r.val))) a + S1x128.size a ≤ S512x128.size a
  k1_off48_inb : ∀ k1_t3 : Fin k1_t3_loop.trips, ∀ (r : Fin 2), ∀ a, (k1_off48 k1_t3 (BitVec.ofNat 32 (4 + r.val))) a + S1x128.size a ≤ S512x128.size a
  k1_off50_inb : ∀ k1_t3 : Fin k1_t3_loop.trips, ∀ (r : Fin 2), ∀ a, (k1_off50 k1_t3 (BitVec.ofNat 32 (5 + r.val))) a + S1x128.size a ≤ S512x128.size a
  k1_off52_inb : ∀ k1_t3 : Fin k1_t3_loop.trips, ∀ (r : Fin 2), ∀ a, (k1_off52 k1_t3 (BitVec.ofNat 32 (6 + r.val))) a + S1x128.size a ≤ S512x128.size a
  k1_off54_inb : ∀ k1_t3 : Fin k1_t3_loop.trips, ∀ (r : Fin 2), ∀ a, (k1_off54 k1_t3 (BitVec.ofNat 32 (7 + r.val))) a + S1x128.size a ≤ S512x128.size a
  k1_off56_inb : ∀ k1_t3 : Fin k1_t3_loop.trips, ∀ (r : Fin 2), ∀ a, (k1_off56 k1_t3 (BitVec.ofNat 32 (8 + r.val))) a + S1x128.size a ≤ S512x128.size a
  k1_off58_inb : ∀ k1_t3 : Fin k1_t3_loop.trips, ∀ (r : Fin 2), ∀ a, (k1_off58 k1_t3 (BitVec.ofNat 32 (9 + r.val))) a + S1x128.size a ≤ S512x128.size a
  k1_off60_inb : ∀ k1_t3 : Fin k1_t3_loop.trips, ∀ (r : Fin 2), ∀ a, (k1_off60 k1_t3 (BitVec.ofNat 32 (10 + r.val))) a + S1x128.size a ≤ S512x128.size a
  k1_off62_inb : ∀ k1_t3 : Fin k1_t3_loop.trips, ∀ (r : Fin 2), ∀ a, (k1_off62 k1_t3 (BitVec.ofNat 32 (11 + r.val))) a + S1x128.size a ≤ S512x128.size a
  k1_off64_inb : ∀ k1_t3 : Fin k1_t3_loop.trips, ∀ (r : Fin 2), ∀ a, (k1_off64 k1_t3 (BitVec.ofNat 32 (12 + r.val))) a + S1x128.size a ≤ S512x128.size a
  k1_off66_inb : ∀ k1_t3 : Fin k1_t3_loop.trips, ∀ (r : Fin 2), ∀ a, (k1_off66 k1_t3 (BitVec.ofNat 32 (13 + r.val))) a + S1x128.size a ≤ S512x128.size a
  k1_off68_inb : ∀ k1_t3 : Fin k1_t3_loop.trips, ∀ (r : Fin 2), ∀ a, (k1_off68 k1_t3 (BitVec.ofNat 32 (14 + r.val))) a + S1x128.size a ≤ S512x128.size a
  k1_off70_inb : ∀ k1_t3 : Fin k1_t3_loop.trips, ∀ a, (k1_off70 k1_t3) a + S1x128.size a ≤ S512x128.size a
  k1_t4_ok : k1_t4_loop.OK
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .f32 = 32 ∨ (Rect.block (s := S16384x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x128.size a ≤ S32x128.size a
  hwx2_2 : ∀ i : grid2.Coords, EltTy.bits .f32 = 32 ∨ (Rect.block (s := S32x128) S32x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x128.size a ≤ S32x128.size a
  hwx2_3 : ∀ i : grid2.Coords, EltTy.bits .f32 = 32 ∨ (Rect.block (s := S32x128) S32x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x32.size a ≤ S64x32.size a
  hwx2_7 : ∀ i : grid2.Coords, EltTy.bits .f32 = 32 ∨ (Rect.block (s := S64x32) S64x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x32.size a ≤ S1x32.size a
  hwx2_9 : ∀ i : grid2.Coords, EltTy.bits .f32 = 32 ∨ (Rect.block (s := S1x32) S1x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x32.size a ≤ S1x32.size a
  hwx2_10 : ∀ i : grid2.Coords, EltTy.bits .f32 = 32 ∨ (Rect.block (s := S1x32) S1x32.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x1.size a ≤ S1x1.size a
  hwx2_11 : ∀ i : grid2.Coords, EltTy.bits .f32 = 32 ∨ (Rect.block (s := S1x1) S1x1.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S2048x1.size a ≤ S16384x1.size a
  hwx2_12 : ∀ i : grid2.Coords, EltTy.bits .f32 = 32 ∨ (Rect.block (s := S16384x1) S2048x1.size (cc2_transform_12 i) (hinb2_12 i)).WholeWords (EltTy.packing .f32)

variable [Facts₀]

abbrev cc1_scratch3 : DmaSems sig S_ := SemArray.consecutive 10 S_ hcc1_scratch3
abbrev cc1_scoped0 : DmaSems sig S_ := SemArray.consecutive 11 S_ hcc1_scoped0
abbrev cc1_scoped1 : DmaSems sig S_ := SemArray.consecutive 12 S_ hcc1_scoped1
abbrev cc1_scoped2 : DmaSems sig S_ := SemArray.consecutive 13 S_ hcc1_scoped2
abbrev cc1_scoped3 : DmaSems sig S_ := SemArray.consecutive 14 S_ hcc1_scoped3
def dot_S2048x32_S32x128_S2048x128_1_0_0_1_n_n : DotDims S2048x32 S32x128 S2048x128 where
  lhsContracting := [1]
  rhsContracting := [0]
  lhsNonContracting := [0]
  rhsNonContracting := [1]
  lhsBatch := []
  rhsBatch := []
  wf := dot_S2048x32_S32x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf

abbrev win0_0 : Pipeline.Window sig grid0 :=
  Pipeline.Window.ofSpecClip (Memref.whole main_v0) S32x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S32x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S32x4096.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v3) S32x4096.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v4) S4096x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win2_0 : Pipeline.Window sig grid2 :=
  Pipeline.Window.ofSpec (Memref.whole main_v5_0) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_1) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S32x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S32x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S64x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v14) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v9) S1x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v11) S1x32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v15) S1x1.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v16) S2048x1.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S16384 : Shape := ⟨1, ![16384]⟩
abbrev S1000000x32 : Shape := ⟨2, ![1000000, 32]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S64x1 : Shape := ⟨2, ![64, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x32 : Shape := ⟨2, ![16384, 32]⟩
abbrev S16384x64 : Shape := ⟨2, ![16384, 64]⟩
abbrev S16384x128 : Shape := ⟨2, ![16384, 128]⟩
abbrev S1x128 : Shape := ⟨2, ![1, 128]⟩
abbrev S1x64 : Shape := ⟨2, ![1, 64]⟩
abbrev S1x32 : Shape := ⟨2, ![1, 32]⟩

abbrev nBuf : Space → Nat
  | .hbm => 135
  | .vmem => 0
  | .smem => 0
  | _ => 0

abbrev hbmTy0_0 (i : Nat) : BufTy := match i % 128 with
  | 0 => ⟨S16384, .i32⟩
  | 1 => ⟨S16384, .i32⟩
  | 2 => ⟨S1000000x32, .f32⟩
  | 3 => ⟨S1000000x32, .f32⟩
  | 4 => ⟨S1000000x32, .f32⟩
  | 5 => ⟨S1000000x32, .f32⟩
  | 6 => ⟨S64x128, .f32⟩
  | 7 => ⟨S128, .f32⟩
  | 8 => ⟨S128x64, .f32⟩
  | 9 => ⟨S64, .f32⟩
  | 10 => ⟨S64x32, .f32⟩
  | 11 => ⟨S32, .f32⟩
  | 12 => ⟨S64x1, .f32⟩
  | 13 => ⟨S1, .f32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x32, .f32⟩
  | 33 => ⟨S16384x32, .i1⟩
  | 34 => ⟨S_, .f32⟩
  | 35 => ⟨S16384x32, .f32⟩
  | 36 => ⟨S16384x32, .f32⟩
  | 37 => ⟨S_, .i32⟩
  | 38 => ⟨S16384, .i32⟩
  | 39 => ⟨S16384, .i1⟩
  | 40 => ⟨S_, .i32⟩
  | 41 => ⟨S16384, .i32⟩
  | 42 => ⟨S16384, .i32⟩
  | 43 => ⟨S16384, .i32⟩
  | 44 => ⟨S16384x1, .i32⟩
  | 45 => ⟨S1, .i32⟩
  | 46 => ⟨S_, .i32⟩
  | 47 => ⟨S16384x1, .i32⟩
  | 48 => ⟨S16384x1, .i1⟩
  | 49 => ⟨S1x1, .i32⟩
  | 50 => ⟨S16384x1, .i32⟩
  | 51 => ⟨S16384x1, .i1⟩
  | 52 => ⟨S16384x1, .i1⟩
  | 53 => ⟨S_, .i1⟩
  | 54 => ⟨S16384, .i1⟩
  | 55 => ⟨S16384x32, .f32⟩
  | 56 => ⟨S16384x32, .i1⟩
  | 57 => ⟨S_, .f32⟩
  | 58 => ⟨S16384x32, .f32⟩
  | 59 => ⟨S16384x32, .f32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S1, .i32⟩
  | 69 => ⟨S_, .i32⟩
  | 70 => ⟨S16384x1, .i32⟩
  | 71 => ⟨S16384x1, .i1⟩
  | 72 => ⟨S1x1, .i32⟩
  | 73 => ⟨S16384x1, .i32⟩
  | 74 => ⟨S16384x1, .i1⟩
  | 75 => ⟨S16384x1, .i1⟩
  | 76 => ⟨S_, .i1⟩
  | 77 => ⟨S16384, .i1⟩
  | 78 => ⟨S16384x32, .f32⟩
  | 79 => ⟨S16384x32, .i1⟩
  | 80 => ⟨S_, .f32⟩
  | 81 => ⟨S16384x32, .f32⟩
  | 82 => ⟨S16384x32, .f32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S1, .i32⟩
  | 92 => ⟨S_, .i32⟩
  | 93 => ⟨S16384x1, .i32⟩
  | 94 => ⟨S16384x1, .i1⟩
  | 95 => ⟨S1x1, .i32⟩
  | 96 => ⟨S16384x1, .i32⟩
  | 97 => ⟨S16384x1, .i1⟩
  | 98 => ⟨S16384x1, .i1⟩
  | 99 => ⟨S_, .i1⟩
  | 100 => ⟨S16384, .i1⟩
  | 101 => ⟨S16384x32, .f32⟩
  | 102 => ⟨S16384x32, .i1⟩
  | 103 => ⟨S_, .f32⟩
  | 104 => ⟨S16384x32, .f32⟩
  | 105 => ⟨S16384x32, .f32⟩
  | 106 => ⟨S16384x32, .f32⟩
  | 107 => ⟨S16384x64, .f32⟩
  | 108 => ⟨S16384x128, .f32⟩
  | 109 => ⟨S1x128, .f32⟩
  | 110 => ⟨S16384x128, .f32⟩
  | 111 => ⟨S16384x128, .f32⟩
  | 112 => ⟨S_, .f32⟩
  | 113 => ⟨S16384x128, .f32⟩
  | 114 => ⟨S16384x128, .f32⟩
  | 115 => ⟨S16384x64, .f32⟩
  | 116 => ⟨S1x64, .f32⟩
  | 117 => ⟨S16384x64, .f32⟩
  | 118 => ⟨S16384x64, .f32⟩
  | 119 => ⟨S_, .f32⟩
  | 120 => ⟨S16384x64, .f32⟩
  | 121 => ⟨S16384x64, .f32⟩
  | 122 => ⟨S16384x32, .f32⟩
  | 123 => ⟨S1x32, .f32⟩
  | 124 => ⟨S16384x32, .f32⟩
  | 125 => ⟨S16384x32, .f32⟩
  | 126 => ⟨S_, .f32⟩
  | 127 => ⟨S16384x32, .f32⟩
  | _ => ⟨S16384, .i32⟩

abbrev hbmTy0_1 (i : Nat) : BufTy := match i % 128 with
  | 0 => ⟨S16384x32, .f32⟩
  | 1 => ⟨S16384x64, .f32⟩
  | 2 => ⟨S16384x1, .f32⟩
  | 3 => ⟨S1x1, .f32⟩
  | 4 => ⟨S16384x1, .f32⟩
  | 5 => ⟨S16384x1, .f32⟩
  | 6 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v1 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v2 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v3 : Ref sig .tc := ⟨.hbm, 105, rfl⟩
abbrev main_v4 : Ref sig .tc := ⟨.hbm, 106, rfl⟩
abbrev main_v5 : Ref sig .tc := ⟨.hbm, 107, rfl⟩
abbrev main_v6 : Ref sig .tc := ⟨.hbm, 108, rfl⟩
abbrev main_v7 : Ref sig .tc := ⟨.hbm, 109, rfl⟩
abbrev main_v8 : Ref sig .tc := ⟨.hbm, 110, rfl⟩
abbrev main_v9 : Ref sig .tc := ⟨.hbm, 111, rfl⟩
abbrev main_call4_cst : Ref sig .tc := ⟨.hbm, 112, rfl⟩
abbrev main_call4_v0 : Ref sig .tc := ⟨.hbm, 113, rfl⟩
abbrev main_v10 : Ref sig .tc := ⟨.hbm, 114, rfl⟩
abbrev main_v11 : Ref sig .tc := ⟨.hbm, 115, rfl⟩
abbrev main_v12 : Ref sig .tc := ⟨.hbm, 116, rfl⟩
abbrev main_v13 : Ref sig .tc := ⟨.hbm, 117, rfl⟩
abbrev main_v14 : Ref sig .tc := ⟨.hbm, 118, rfl⟩
abbrev main_call5_cst : Ref sig .tc := ⟨.hbm, 119, rfl⟩
abbrev main_call5_v0 : Ref sig .tc := ⟨.hbm, 120, rfl⟩
abbrev main_v15 : Ref sig .tc := ⟨.hbm, 121, rfl⟩
abbrev main_v16 : Ref sig .tc := ⟨.hbm, 122, rfl⟩
abbrev main_v17 : Ref sig .tc := ⟨.hbm, 123, rfl⟩
abbrev main_v18 : Ref sig .tc := ⟨.hbm, 124, rfl⟩
abbrev main_v19 : Ref sig .tc := ⟨.hbm, 125, rfl⟩
abbrev main_call6_cst : Ref sig .tc := ⟨.hbm, 126, rfl⟩
abbrev main_call6_v0 : Ref sig .tc := ⟨.hbm, 127, rfl⟩
abbrev main_v20 : Ref sig .tc := ⟨.hbm, 128, rfl⟩
abbrev main_v21 : Ref sig .tc := ⟨.hbm, 129, rfl⟩
abbrev main_v22 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_v26 : Ref sig .tc := ⟨.hbm, 134, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  shapeCasts_S16384x1_S16384 : S16384x1.ShapeCasts S16384
  gather_S1000000x32_S16384x1_S16384x32_1_0_n_n_0_1_132_wf : GatherDims.WF S1000000x32 S16384x1 S16384x32 [1] [0] [] [0] [] 1 ![1, 32]
  dot_S16384x64_S64x128_S16384x128_1_0_0_1_n_n_wf : DotDims.WF S16384x64 S64x128 S16384x128 [1] [0] [0] [1] [] []
  dot_S16384x128_S128x64_S16384x64_1_0_0_1_n_n_wf : DotDims.WF S16384x128 S128x64 S16384x64 [1] [0] [0] [1] [] []
  dot_S16384x64_S64x32_S16384x32_1_0_0_1_n_n_wf : DotDims.WF S16384x64 S64x32 S16384x32 [1] [0] [0] [1] [] []
  dot_S16384x64_S64x1_S16384x1_1_0_0_1_n_n_wf : DotDims.WF S16384x64 S64x1 S16384x1 [1] [0] [0] [1] [] []

variable [Facts₀]

def gather_S1000000x32_S16384x1_S16384x32_1_0_n_n_0_1_132 : GatherDims S1000000x32 S16384x1 S16384x32 where
  offsetDims := [1]
  collapsedSliceDims := [0]
  operandBatchingDims := []
  startIndicesBatchingDims := []
  startIndexMap := [0]
  indexVectorDim := 1
  sliceSizes := ![1, 32]
  wf := gather_S1000000x32_S16384x1_S16384x32_1_0_n_n_0_1_132_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.Setup.lean ====
/-
  The program as the SparseCore launch theorem sees it, and the ghost state every later module is stated over.

  The device runs 35 threads: the TensorCore (the host operations of the main function and two pipelined
  kernel regions), two sequencers and thirty-two vector subcores (one row-gathering task each). The ghost state
  is a product: the launch handshakes' rounds (duties counted by call), the two pipelines' staging semaphores' rounds,
  and the exclusive transfer counters the gathering task's copies are counted in.
-/
import proofs.«212231_g88622355185883_cont_sun_m_1073_38_alg».proof.Defs
import Idealize.ShloMosaic.Lib.SparseCore.Launch
import Idealize.ShloMosaic.Lib.SparseCore.Ops
import Idealize.ShloMosaic.Lib.StableHlo.Run
import Idealize.ShloMosaic.Lib.Pipeline.Regions
import Idealize.ShloMosaic.Lib.Transfers
import Idealize.ShloMosaic.Lib.Batch
import Idealize.ShloMosaic.Lib.Tactic
import proofs.«212231_g88622355185883_cont_sun_m_1073_38_alg».proof.Proof.Gen.KernelIdeal
import proofs.«212231_g88622355185883_cont_sun_m_1073_38_alg».proof.Proof.Gen.KernelIdeal.Skeleton
import proofs.«212231_g88622355185883_cont_sun_m_1073_38_alg».proof.Proof.Gen.KernelIdeal.Launch
import proofs.«212231_g88622355185883_cont_sun_m_1073_38_alg».proof.Proof.Gen.KernelIdeal.Points
import proofs.«212231_g88622355185883_cont_sun_m_1073_38_alg».proof.Proof.Gen.Pre_input_domain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The two pipelines' staging semaphores' rounds. -/
abbrev UP : Type := URounds (GSem nD τ sig) Unit
/-- Rightmost, the transfer counters: the gathering task's copies and waits are counted there. -/
abbrev UU : Type := UH × UP × Counters

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The counters' copy is found by instance in the right factor. -/
example : CountersIn UU := inferInstance

end Cert.Proof.KI

end
-- ==== Proof.LaunchBase.lean ====
/-
  The TensorCore's host operations as three lists (before the first kernel region; between the SparseCore call and
  the second region; after it), the launch element of the ghost state, and the buffers' contents at launch.
-/
import proofs.«212231_g88622355185883_cont_sun_m_1073_38_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 1) (Elt F) ℕ UU ℕ

/-! ## The host operations -/

/-- The four table transposes. -/
abbrev hostA : List (HloOp τ sig (Elt F)) :=
  [ (StableHlo.unary main_arg2 main_v0 ((transpose S32x1000000 [1, 0] · transposes_S1000000x32_S32x1000000_1_0) : (⟨S1000000x32, .f32⟩ : BufTy).Contents (Elt F) → (⟨S32x1000000, .f32⟩ : BufTy).Contents (Elt F))),
    (StableHlo.unary main_arg3 main_v1 ((transpose S32x1000000 [1, 0] · transposes_S1000000x32_S32x1000000_1_0) : (⟨S1000000x32, .f32⟩ : BufTy).Contents (Elt F) → (⟨S32x1000000, .f32⟩ : BufTy).Contents (Elt F))),
    (StableHlo.unary main_arg4 main_v2 ((transpose S32x1000000 [1, 0] · transposes_S1000000x32_S32x1000000_1_0) : (⟨S1000000x32, .f32⟩ : BufTy).Contents (Elt F) → (⟨S32x1000000, .f32⟩ : BufTy).Contents (Elt F))),
    (StableHlo.unary main_arg5 main_v3 ((transpose S32x1000000 [1, 0] · transposes_S1000000x32_S32x1000000_1_0) : (⟨S1000000x32, .f32⟩ : BufTy).Contents (Elt F) → (⟨S32x1000000, .f32⟩ : BufTy).Contents (Elt F))) ]
/-- The slices and reshapes of the weights and biases. -/
abbrev hostB : List (HloOp τ sig (Elt F)) :=
  [ (StableHlo.unary main_arg6 main_v6 ((extractStridedSlice S32x128 ![0, 0] · slices_S64x128_S32x128_0_0) : (⟨S64x128, .f32⟩ : BufTy).Contents (Elt F) → (⟨S32x128, .f32⟩ : BufTy).Contents (Elt F))),
    (StableHlo.unary main_arg6 main_v7 ((extractStridedSlice S32x128 ![32, 0] · slices_S64x128_S32x128_32_0) : (⟨S64x128, .f32⟩ : BufTy).Contents (Elt F) → (⟨S32x128, .f32⟩ : BufTy).Contents (Elt F))),
    (StableHlo.unary main_arg12 main_v8 ((extractStridedSlice S32x1 ![0, 0] · slices_S64x1_S32x1_0_0) : (⟨S64x1, .f32⟩ : BufTy).Contents (Elt F) → (⟨S32x1, .f32⟩ : BufTy).Contents (Elt F))),
    (StableHlo.reshape main_v8 main_v9 rfl shapeCasts_S32x1_S1x32),
    (StableHlo.unary main_arg12 main_v10 ((extractStridedSlice S32x1 ![32, 0] · slices_S64x1_S32x1_32_0) : (⟨S64x1, .f32⟩ : BufTy).Contents (Elt F) → (⟨S32x1, .f32⟩ : BufTy).Contents (Elt F))),
    (StableHlo.reshape main_v10 main_v11 rfl shapeCasts_S32x1_S1x32),
    (StableHlo.reshape main_arg7 main_v12 rfl shapeCasts_S128_S1x128),
    (StableHlo.reshape main_arg9 main_v13 rfl shapeCasts_S64_S1x64),
    (StableHlo.reshape main_arg11 main_v14 rfl shapeCasts_S32_S1x32),
    (StableHlo.reshape main_arg13 main_v15 rfl shapeCasts_S1_S1x1) ]
/-- The closing reshape of the [16384, 1] column to a vector. -/
abbrev hostC : List (HloOp τ sig (Elt F)) :=
  [ (StableHlo.reshape main_v16 main_v17 rfl shapeCasts_S16384x1_S16384) ]

theorem hostA_sub : (hostA : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
theorem hostB_sub : (hostB : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.unary_bufs_sub .., StableHlo.reshape_bufs_sub .., StableHlo.reshape_bufs_sub .., StableHlo.reshape_bufs_sub .., StableHlo.reshape_bufs_sub .., StableHlo.reshape_bufs_sub ..⟩
theorem hostC_sub : (hostC : List (HloOp τ sig (Elt F))).Forall fun op => op.bufs ⊆ StableHlo.tcRefs τ sig :=
  StableHlo.reshape_bufs_sub ..

theorem hostA_fresh : (hostA : List (HloOp τ sig (Elt F))).Forall fun op => op.fresh = ∅ := by
  simp only [List.Forall]; repeat' constructor
theorem hostB_fresh : (hostB : List (HloOp τ sig (Elt F))).Forall fun op => op.fresh = ∅ := by
  simp only [List.Forall]; repeat' constructor
theorem hostC_fresh : (hostC : List (HloOp τ sig (Elt F))).Forall fun op => op.fresh = ∅ := by
  simp only [List.Forall]; repeat' constructor

/-! ## The launch element -/

/-- No pipeline has a prefetched table. -/
abbrev adm : (p : Fin 2) → (pcfgs (F := F) p).Adm := fun p => (cfgs p).toPCfg_adm
/-- The two pipelines as the several-regions rule names them. -/
abbrev pinned : Fin 2 → Pipeline.Cfg sig Λ₀ := Pipeline.pin (pcfgs (F := F)) adm
omit [FloatOps F] in
theorem cellOf_inj' : Function.Injective (Pipeline.cellOf (nD := nD) (τ := τ) (pinned (F := F))) := cellOf_inj

/-- The handshakes' rounds at their launch schedule, the pipelines' staging cells' rounds at theirs, no counter. -/
def u₀ : UU :=
  (initOf (K (F := F)).hsCells (K (F := F)).hsToks,
    initOf (Pipeline.cells (pinned (F := F)) cellOf_inj') (Pipeline.launchToks (pinned (F := F)) cellOf_inj'), 1)

omit [FloatOps F] in
theorem bigSep_emp' {I : Type} (s : Finset I) : (bigSep s fun _ => iprop(emp)) = (iprop(emp) : sProp 𝕄) := bigSep_emp_const s

/-- What the launch leaves a TensorCore for its two regions: both pipelines' cells' ghost state and duty tokens. -/
def G (d : Dev nD) : sProp 𝕄 :=
  bigSep Finset.univ fun p : Fin 2 => iprop(Pipeline.cellsGhost (pinned (F := F)) (EP (F := F)) p d ∗ Pipeline.toksInit (pinned (F := F)) (EP (F := F)) p d)

/-- The contents of a core's buffers at launch. -/
abbrev W0 (m : (ℓ : Loc nD τ sig) → Buf (Elt F) ℓ) : Dev nD → Valuation τ sig (Elt F) := fun c b => m (c, b)

/-! ## The launch element splits into the handshakes' part and the pipelines' part; the counters are not needed -/

omit [FloatOps F] in
theorem ownU_split (a : UH) (b : UP) : (ownU ((a, b, 1) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

/-- The pipelines' launch schedule funds every core's cells' ghost state and duty tokens. -/
theorem G_intro : (BI.own (EP (F := F) (initOf (Pipeline.cells (pinned (F := F)) cellOf_inj') (Pipeline.launchToks (pinned (F := F)) cellOf_inj'))) : sProp 𝕄)
    ⊢ iprop(|==> bigSep Finset.univ (G (F := F))) := by
  unfold G
  simp only [bigSep_sep']
  exact Pipeline.fund_ghost (pinned (F := F)) (EP (F := F)) cellOf_inj'

/-- The launch element: the handshakes' schedule, every TensorCore's pipelines' ghost state, and nothing for the
    gathering tasks (their copies are counted in counters they allocate themselves). -/
theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => P.x q thr) := by
  unfold u₀
  iintro Hu
  ihave H := (ownU_split _ _) $$ Hu
  icases H with ⟨HH, HP⟩
  imod (G_intro (F := F)) $$ HP with HG
  imodintro
  isplitl [HH]; · iexact HH
  isplitl [HG]; · iexact HG
  rw [show (bigSep Finset.univ fun thr : Thread nD τ => bigSep Finset.univ fun q : Fin 1 => P.x q thr) = (iprop(emp) : sProp 𝕄) from by
    simp only [hx]; rw [bigSep_congr fun _ _ => bigSep_emp' _, bigSep_emp']]
  iempintro

end Cert.Proof.KI

end
-- ==== Proof.RepackDefs.lean ====
import proofs.«212231_g88622355185883_cont_sun_m_1073_38_alg».proof.Proof.Setup
import Idealize.ShloMosaic.Lib.Pipeline.FrameBody
import Idealize.ShloMosaic.Lib.Pipeline.Value
import Idealize.ShloMosaic.Lib.ValueIdx

set_option maxRecDepth 16384

noncomputable section

namespace Cert.Proof.KI

open Cert.KernelIdeal Cert.KernelIdeal.Gen

open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2 eq_ix2)

variable {F : FTy → Type} [FloatOps F]

local notation "𝕄" => MT nD τ sig (HIx 1) (Elt F) ℕ UU ℕ

/-! ## The repacked table

Four tables of 32 rows and a million columns become one table of a million rows and 128 columns: row `v` of the
result is column `v` of the first table, then of the second, the third and the fourth, side by side. -/

/-- Entry `(v, j)` of the repacked table is entry `(j % 32, v)` of table number `j / 32`. -/
def repack (a0 a1 a2 a3 : S32x1000000.Idx → Elt F .f32) : S1000000x128.Idx → Elt F .f32 := fun i =>
  if (i 1).val < 32 then a0 (ix2 (n0 := 32) (n1 := 1000000) ⟨(i 1).val % 32, Nat.mod_lt _ (by decide)⟩ ⟨(i 0).val, (i 0).isLt⟩)
  else if (i 1).val < 64 then a1 (ix2 (n0 := 32) (n1 := 1000000) ⟨(i 1).val % 32, Nat.mod_lt _ (by decide)⟩ ⟨(i 0).val, (i 0).isLt⟩)
  else if (i 1).val < 96 then a2 (ix2 (n0 := 32) (n1 := 1000000) ⟨(i 1).val % 32, Nat.mod_lt _ (by decide)⟩ ⟨(i 0).val, (i 0).isLt⟩)
  else a3 (ix2 (n0 := 32) (n1 := 1000000) ⟨(i 1).val % 32, Nat.mod_lt _ (by decide)⟩ ⟨(i 0).val, (i 0).isLt⟩)

/-- The repacked table at an index whose column is `32 k + j`: table `k` at `(j, row)`. -/
theorem repack_apply (a0 a1 a2 a3 : S32x1000000.Idx → Elt F .f32) (i : S1000000x128.Idx) (k : Nat) (hk : k < 4) (j : Fin 32)
    (v : Fin 1000000) (hv : (i 0).val = v.val) (hj : (i 1).val = 32 * k + j.val) :
    repack a0 a1 a2 a3 i = (match k with | 0 => a0 | 1 => a1 | 2 => a2 | _ => a3) (ix2 (n0 := 32) (n1 := 1000000) j v) := by
  have e : (⟨(i 1).val % 32, Nat.mod_lt _ (by decide)⟩ : Fin 32) = j := Fin.ext (by show (i 1).val % 32 = j.val; have := j.isLt; omega)
  have ev : (⟨(i 0).val, (i 0).isLt⟩ : Fin 1000000) = v := Fin.ext hv
  unfold repack
  rw [e, ev]
  have hjl := j.isLt
  match k, hk with
  | 0, _ => rw [if_pos (by omega)]; rfl
  | 1, _ => rw [if_neg (by omega), if_pos (by omega)]; rfl
  | 2, _ => rw [if_neg (by omega), if_neg (by omega), if_pos (by omega)]; rfl
  | 3, _ => rw [if_neg (by omega), if_neg (by omega), if_neg (by omega)]; rfl

/-- A staging buffer filled by a transfer holds, at an index the transfer moves, what was transferred. -/
theorem fill_of_moved {G : Pipeline.Grid} (w : Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Window.fill; rw [dif_pos ((w.moved_iff i j).mpr h)]

/-! ## The blocks' positions

At grid point `t` every input window is at columns `4096 t ‥` of its table (all 32 rows) and the output window at
rows `4096 t ‥` of the result (all 128 columns); the last point's block reaches past the million and is cut there,
the inputs' columns and the output's rows alike. Decided over the 245 points. -/

theorem idx_facts0 : ∀ t : Fin cfg0.N,
    (win0_0.index t (0 : Fin 2) = 0 ∧ win0_0.index t (1 : Fin 2) = t.val ∧ win0_0.xsize (grid0.coords t) (0 : Fin 2) = 32
      ∧ win0_0.xsize (grid0.coords t) (1 : Fin 2) = win0_4.xsize (grid0.coords t) (0 : Fin 2))
    ∧ (win0_1.index t (0 : Fin 2) = 0 ∧ win0_1.index t (1 : Fin 2) = t.val ∧ win0_1.xsize (grid0.coords t) (0 : Fin 2) = 32
      ∧ win0_1.xsize (grid0.coords t) (1 : Fin 2) = win0_4.xsize (grid0.coords t) (0 : Fin 2))
    ∧ (win0_2.index t (0 : Fin 2) = 0 ∧ win0_2.index t (1 : Fin 2) = t.val ∧ win0_2.xsize (grid0.coords t) (0 : Fin 2) = 32
      ∧ win0_2.xsize (grid0.coords t) (1 : Fin 2) = win0_4.xsize (grid0.coords t) (0 : Fin 2))
    ∧ (win0_3.index t (0 : Fin 2) = 0 ∧ win0_3.index t (1 : Fin 2) = t.val ∧ win0_3.xsize (grid0.coords t) (0 : Fin 2) = 32
      ∧ win0_3.xsize (grid0.coords t) (1 : Fin 2) = win0_4.xsize (grid0.coords t) (0 : Fin 2))
    ∧ win0_4.index t (0 : Fin 2) = t.val ∧ win0_4.index t (1 : Fin 2) = 0 ∧ win0_4.xsize (grid0.coords t) (1 : Fin 2) = 128
    ∧ win0_4.xsize (grid0.coords t) (0 : Fin 2) ≤ 4096 ∧ 4096 * t.val + win0_4.xsize (grid0.coords t) (0 : Fin 2) ≤ 1000000
    ∧ (4096 * (t.val + 1) ≤ 1000000 → win0_4.xsize (grid0.coords t) (0 : Fin 2) = 4096)
    ∧ (1000000 < 4096 * (t.val + 1) → 4096 * t.val + win0_4.xsize (grid0.coords t) (0 : Fin 2) = 1000000) :=
  (by decide +kernel : ∀ t : Fin grid0.N, _)

section Region
variable (V : (c : Dev nD) → (b : Ref sig .tc) → Buf (Elt F) ((c.tc : Thread nD τ).loc b))
variable (O : Dev nD → CellTallies nD τ sig (HIx 1))

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The repacked table of the four input arrays as the region finds them. -/
abbrev rep0 (c : Dev nD) : S1000000x128.Idx → Elt F .f32 :=
  repack (V c main_v0) (V c main_v1) (V c main_v2) (V c main_v3)

/-- The word that stands, in the proof data, for the staging rows past the array's end (nothing reads it). -/
abbrev zf : Elt F .f32 := Scalar.ofBits .f32 0#32

/-- The region's invariant: the scoped buffers no window stages, each at some contents, and the generator register. -/
def Φ0 (c : Dev nD) : sProp 𝕄 :=
  iprop(Pipeline.scopedRest (Ix := HIx 1) (Name := ℕ) (U := UU) (Lvl := ℕ) (Val := Elt F) spec0 c ∗ ∃ r, prngReg c r)

/-- The proof data of the repacking pipeline on core `c`: the arrays as the region finds them; after the body at
    point `t` each input's buffer holds its block (on the columns inside the array) and the output's the block of
    the repacked table (on the rows inside the array); the core owes `O c` throughout. -/
def dat0 (c : Dev nD) : Dat τ (Elt F) (HIx 1) ℕ UU ℕ cfg0 c where
  A w := V c (Pipeline.arrRef spec0 w)
  after w t := match w with
    | ⟨0, _⟩ => win0_0.fill (grid0.coords t) (fun _ => zf) (iblk0 V c 0 t)
    | ⟨1, _⟩ => win0_1.fill (grid0.coords t) (fun _ => zf) (iblk0 V c 1 t)
    | ⟨2, _⟩ => win0_2.fill (grid0.coords t) (fun _ => zf) (iblk0 V c 2 t)
    | ⟨3, _⟩ => win0_3.fill (grid0.coords t) (fun _ => zf) (iblk0 V c 3 t)
    | ⟨4, _⟩ => win0_4.fill (grid0.coords t) (fun _ => zf) ((win0_4.blk t).view.read (Elt F) (rep0 V c))
  Φ _ := Φ0 c
  q _ := fullShare
  owed _ := O c
  recorded _ := {p : SemLoc sig × HIx 1 | p.2 = none}

theorem A_eq0 (c : Dev nD) (w : Fin cfg0.W) : (dat0 V O c).A w = V c (Pipeline.arrRef spec0 w) := by
  dsimp only [dat0]

example (c : Dev nD) : ∀ w, (dat0 V O c).A w = V c (Pipeline.arrRef spec0 w) := fun _ => rfl

end Region

end Cert.Proof.KI

end
-- ==== Proof.MlpBody.lean ====
/-
  The third region's kernel body, run once on arbitrary whole staging memrefs.

  The body loads its two row blocks [2048, 128] and its ten small operands whole, computes the
  three-layer perceptron and the product term row by row, and stores one [2048, 1] column. What the
  output buffer holds afterwards is the canonical contents of that one covering store: the payload
  term of the loads.
-/
import proofs.«212231_g88622355185883_cont_sun_m_1073_38_alg».proof.Proof.Setup
import Idealize.ShloMosaic.Lib.Pipeline.FrameBody
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses: every load and the one store take the whole buffer -/

abbrev rA : Rect S2048x128 := Rect.unit (s := S2048x128) ![0, 0] S2048x128.size inb_S2048x128_S2048x128_0_0
abbrev rW1 : Rect S32x128 := Rect.unit (s := S32x128) ![0, 0] S32x128.size inb_S32x128_S32x128_0_0
abbrev rB1 : Rect S1x128 := Rect.unit (s := S1x128) ![0, 0] S1x128.size inb_S1x128_S1x128_0_0
abbrev rW2 : Rect S128x64 := Rect.unit (s := S128x64) ![0, 0] S128x64.size inb_S128x64_S128x64_0_0
abbrev rB2 : Rect S1x64 := Rect.unit (s := S1x64) ![0, 0] S1x64.size inb_S1x64_S1x64_0_0
abbrev rW3 : Rect S64x32 := Rect.unit (s := S64x32) ![0, 0] S64x32.size inb_S64x32_S64x32_0_0
abbrev rB3 : Rect S1x32 := Rect.unit (s := S1x32) ![0, 0] S1x32.size inb_S1x32_S1x32_0_0
abbrev rBo : Rect S1x1 := Rect.unit (s := S1x1) ![0, 0] S1x1.size inb_S1x1_S1x1_0_0
abbrev rOut : Rect S2048x1 := Rect.unit (s := S2048x1) ![0, 0] S2048x1.size inb_S2048x1_S2048x1_0_0

/-! ## What the body leaves in the output window's buffer -/

/-- The output column after the body, from the twelve input buffers' contents: the one store's payload. -/
def out2_12 (x0 : Vec F S2048x128 .f32) (x1 : Vec F S2048x128 .f32) (x2 : Vec F S32x128 .f32) (x3 : Vec F S32x128 .f32) (x4 : Vec F S1x128 .f32) (x5 : Vec F S128x64 .f32) (x6 : Vec F S1x64 .f32) (x7 : Vec F S64x32 .f32) (x8 : Vec F S1x32 .f32) (x9 : Vec F S1x32 .f32) (x10 : Vec F S1x32 .f32) (x11 : Vec F S1x1 .f32) : Vec F S2048x1 .f32 :=
  View.canon [⟨rOut, k2_pay1 (k2_pay4 (View.ld x0 rA)) (k2_pay5 (View.ld x1 rA))
    (k2_pay6 (View.ld x0 rA) (View.ld x1 rA) (View.ld x2 rW1) (View.ld x3 rW1) (View.ld x4 rB1) (View.ld x5 rW2) (View.ld x6 rB2) (View.ld x7 rW3) (View.ld x8 rB3))
    (View.ld x9 rB3) (View.ld x10 rB3) (View.ld x11 rBo)⟩]

/-- The one store covers the buffer. -/
theorem cover2_12 (p0 : Vec F S2048x1 .f32) (y : S2048x1.Idx) :
    ∃ pc ∈ ([⟨rOut, p0⟩] : List (View.Piece (Elt F) S2048x1 .f32)), y ∈ pc.1.set :=
  View.cover_of_tiled [⟨rOut, p0⟩] S2048x1.size (by rfl) y

/-! ## The body's triple -/

set_option maxHeartbeats 4000000 in
/-- The body on whole staging memrefs, the twelve inputs' at read contents and the output's at anything, runs to
    the continuation holding the inputs' as they were and the output's at `out2_12` of the inputs'. -/
theorem sound_kernel2 (c : Dev nD) (E : Set ℕ) (i : grid2.Coords) (arg0 : Memref sig .tc .vmem S2048x128 .f32) (harg0 : arg0.IsWhole) (arg1 : Memref sig .tc .vmem S2048x128 .f32) (harg1 : arg1.IsWhole) (arg2 : Memref sig .tc .vmem S32x128 .f32) (harg2 : arg2.IsWhole) (arg3 : Memref sig .tc .vmem S32x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x1 .f32) (harg11 : arg11.IsWhole) (arg12 : Memref sig .tc .vmem S2048x1 .f32) (harg12 : arg12.IsWhole)
    (x0 : Vec F S2048x128 .f32) (x1 : Vec F S2048x128 .f32) (x2 : Vec F S32x128 .f32) (x3 : Vec F S32x128 .f32) (x4 : Vec F S1x128 .f32) (x5 : Vec F S128x64 .f32) (x6 : Vec F S1x64 .f32) (x7 : Vec F S64x32 .f32) (x8 : Vec F S1x32 .f32) (x9 : Vec F S1x32 .f32) (x10 : Vec F S1x32 .f32) (x11 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out2_12 x0 x1 x2 x3 x4 x5 x6 x7 x8 x9 x10 x11)) -∗ K ⟨⟩))
      ⊢ wp frame (wpE (defs₀ (F := F)) Variants.none c none) E (cc2_body i arg0 harg0 arg1 harg1 arg2 harg2 arg3 harg3 arg4 harg4 arg5 harg5 arg6 harg6 arg7 harg7 arg8 harg8 arg9 harg9 arg10 harg10 arg11 harg11 arg12 harg12) K := by
  simp only [cc2_body_eq_skeleton]; unfold cc2_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover2_12 _)

end Cert.Proof.KI

end
-- ==== Proof.MlpDat.lean ====
/-
  The third region's proof data at the buffer contents the region is entered with, and its body obligation.

  The proof data name, per window and grid point, what the staging buffer holds after the body: an input
  window's buffer still holds the block the pipeline fetched (rows 2048 t … 2048 t + 2047 of the two gathered
  row arrays; the ten small operands whole), and the output window's holds the body's column for those rows.
  The invariant is the class's (the scoped buffers no window stages, the generator register), and what the
  core owes the launch handshakes passes through every point unchanged.
-/
import proofs.«212231_g88622355185883_cont_sun_m_1073_38_alg».proof.Proof.Setup
import proofs.«212231_g88622355185883_cont_sun_m_1073_38_alg».proof.Proof.MlpBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region2

variable (V : (c : Dev nD) → (b : Ref sig .tc) → Buf (Elt F) ((c : Thread nD τ).loc b))
variable (O : Dev nD → CellTallies nD τ sig (HIx 1))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where the
    pipeline does not fetch, the block index has not moved and the body left the block in place. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not: where the
    pipeline does not fetch, the block index has not moved and the body left the block in place. -/
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not: where the
    pipeline does not fetch, the block index has not moved and the body left the block in place. -/
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not: where the
    pipeline does not fetch, the block index has not moved and the body left the block in place. -/
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not: where the
    pipeline does not fetch, the block index has not moved and the body left the block in place. -/
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not: where the
    pipeline does not fetch, the block index has not moved and the body left the block in place. -/
theorem before2_5_of {c : Dev nD} (dat : Dat τ (Elt F) (HIx 1) ℕ UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not: where the
    pipeline does not fetch, the block index has not moved and the body left the block in place. -/
theorem before2_6_of {c : Dev nD} (dat : Dat τ (Elt F) (HIx 1) ℕ UU ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not: where the
    pipeline does not fetch, the block index has not moved and the body left the block in place. -/
theorem before2_7_of {c : Dev nD} (dat : Dat τ (Elt F) (HIx 1) ℕ UU ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not: where the
    pipeline does not fetch, the block index has not moved and the body left the block in place. -/
theorem before2_8_of {c : Dev nD} (dat : Dat τ (Elt F) (HIx 1) ℕ UU ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not: where the
    pipeline does not fetch, the block index has not moved and the body left the block in place. -/
theorem before2_9_of {c : Dev nD} (dat : Dat τ (Elt F) (HIx 1) ℕ UU ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not: where the
    pipeline does not fetch, the block index has not moved and the body left the block in place. -/
theorem before2_10_of {c : Dev nD} (dat : Dat τ (Elt F) (HIx 1) ℕ UU ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not: where the
    pipeline does not fetch, the block index has not moved and the body left the block in place. -/
theorem before2_11_of {c : Dev nD} (dat : Dat τ (Elt F) (HIx 1) ℕ UU ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The region's invariant: the scoped buffers no window stages, each at some contents, and the generator register. -/
def Φ2 (c : Dev nD) : sProp 𝕄 :=
  iprop(Pipeline.scopedRest (Ix := HIx 1) (Name := ℕ) (U := UU) (Lvl := ℕ) (Val := Elt F) spec2 c ∗ ∃ r, prngReg c r)

/-- The proof data of the third region's pipeline on core `c`: the arrays as the region finds them; after the body
    at point `t` each input's buffer at its block and the output's at the body's column of the input blocks; the
    invariant `Φ2`; full shares; the core owes `O c` throughout. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
  Φ _ := Φ2 c
  q _ := fullShare
  owed _ := O c

/-- The proof data's arrays are the region-entry contents. -/
theorem A_eq2 (c : Dev nD) (w : Fin cfg2.W) : (dat2 V O c).A w = V c (Pipeline.arrRef spec2 w) := by
  dsimp only [dat2]

/-- What the body leaves, window by window. -/
theorem after2_0 (c : Dev nD) (t : Fin cfg2.N) : (dat2 V O c).after 0 t = iblk2 V c 0 t := by dsimp only [dat2]
theorem after2_1 (c : Dev nD) (t : Fin cfg2.N) : (dat2 V O c).after 1 t = iblk2 V c 1 t := by dsimp only [dat2]
theorem after2_2 (c : Dev nD) (t : Fin cfg2.N) : (dat2 V O c).after 2 t = iblk2 V c 2 t := by dsimp only [dat2]
theorem after2_3 (c : Dev nD) (t : Fin cfg2.N) : (dat2 V O c).after 3 t = iblk2 V c 3 t := by dsimp only [dat2]
theorem after2_4 (c : Dev nD) (t : Fin cfg2.N) : (dat2 V O c).after 4 t = iblk2 V c 4 t := by dsimp only [dat2]
theorem after2_5 (c : Dev nD) (t : Fin cfg2.N) : (dat2 V O c).after 5 t = iblk2 V c 5 t := by dsimp only [dat2]
theorem after2_6 (c : Dev nD) (t : Fin cfg2.N) : (dat2 V O c).after 6 t = iblk2 V c 6 t := by dsimp only [dat2]
theorem after2_7 (c : Dev nD) (t : Fin cfg2.N) : (dat2 V O c).after 7 t = iblk2 V c 7 t := by dsimp only [dat2]
theorem after2_8 (c : Dev nD) (t : Fin cfg2.N) : (dat2 V O c).after 8 t = iblk2 V c 8 t := by dsimp only [dat2]
theorem after2_9 (c : Dev nD) (t : Fin cfg2.N) : (dat2 V O c).after 9 t = iblk2 V c 9 t := by dsimp only [dat2]
theorem after2_10 (c : Dev nD) (t : Fin cfg2.N) : (dat2 V O c).after 10 t = iblk2 V c 10 t := by dsimp only [dat2]
theorem after2_11 (c : Dev nD) (t : Fin cfg2.N) : (dat2 V O c).after 11 t = iblk2 V c 11 t := by dsimp only [dat2]
theorem after2_12 (c : Dev nD) (t : Fin cfg2.N) : (dat2 V O c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) := by dsimp only [dat2]

/-- Each input's current staging buffer holds its block at every point. -/
theorem before2_0 (c : Dev nD) (t : Fin cfg2.N) (d) : (dat2 V O c).before 0 t d = iblk2 V c 0 t :=
  before2_0_of V (dat2 V O c) (A_eq2 V O c 0) (after2_0 V O c) t d
theorem before2_1 (c : Dev nD) (t : Fin cfg2.N) (d) : (dat2 V O c).before 1 t d = iblk2 V c 1 t :=
  before2_1_of V (dat2 V O c) (A_eq2 V O c 1) (after2_1 V O c) t d
theorem before2_2 (c : Dev nD) (t : Fin cfg2.N) (d) : (dat2 V O c).before 2 t d = iblk2 V c 2 t :=
  before2_2_of V (dat2 V O c) (A_eq2 V O c 2) (after2_2 V O c) t d
theorem before2_3 (c : Dev nD) (t : Fin cfg2.N) (d) : (dat2 V O c).before 3 t d = iblk2 V c 3 t :=
  before2_3_of V (dat2 V O c) (A_eq2 V O c 3) (after2_3 V O c) t d
theorem before2_4 (c : Dev nD) (t : Fin cfg2.N) (d) : (dat2 V O c).before 4 t d = iblk2 V c 4 t :=
  before2_4_of V (dat2 V O c) (A_eq2 V O c 4) (after2_4 V O c) t d
theorem before2_5 (c : Dev nD) (t : Fin cfg2.N) (d) : (dat2 V O c).before 5 t d = iblk2 V c 5 t :=
  before2_5_of V (dat2 V O c) (A_eq2 V O c 5) (after2_5 V O c) t d
theorem before2_6 (c : Dev nD) (t : Fin cfg2.N) (d) : (dat2 V O c).before 6 t d = iblk2 V c 6 t :=
  before2_6_of V (dat2 V O c) (A_eq2 V O c 6) (after2_6 V O c) t d
theorem before2_7 (c : Dev nD) (t : Fin cfg2.N) (d) : (dat2 V O c).before 7 t d = iblk2 V c 7 t :=
  before2_7_of V (dat2 V O c) (A_eq2 V O c 7) (after2_7 V O c) t d
theorem before2_8 (c : Dev nD) (t : Fin cfg2.N) (d) : (dat2 V O c).before 8 t d = iblk2 V c 8 t :=
  before2_8_of V (dat2 V O c) (A_eq2 V O c 8) (after2_8 V O c) t d
theorem before2_9 (c : Dev nD) (t : Fin cfg2.N) (d) : (dat2 V O c).before 9 t d = iblk2 V c 9 t :=
  before2_9_of V (dat2 V O c) (A_eq2 V O c 9) (after2_9 V O c) t d
theorem before2_10 (c : Dev nD) (t : Fin cfg2.N) (d) : (dat2 V O c).before 10 t d = iblk2 V c 10 t :=
  before2_10_of V (dat2 V O c) (A_eq2 V O c 10) (after2_10 V O c) t d
theorem before2_11 (c : Dev nD) (t : Fin cfg2.N) (d) : (dat2 V O c).before 11 t d = iblk2 V c 11 t :=
  before2_11_of V (dat2 V O c) (A_eq2 V O c 11) (after2_11 V O c) t d

/-! ## The body obligation, at a generic point -/

/-- What the body is called with at point `t`, the windows one by one, -/
def bodyPre2 (c : Dev nD) (t : Fin cfg2.N) : sProp 𝕄 :=
  iprop((dat2 V O c).Φ t.castSucc ∗ (dat2 V O c).owesAt (none : HIx 1) t.castSucc
    ∗ (∃ d, owns (c : Thread nD τ) (st2_0 t) fullShare ((dat2 V O c).before 0 t d))
    ∗ (∃ d, owns (c : Thread nD τ) (st2_1 t) fullShare ((dat2 V O c).before 1 t d))
    ∗ (∃ d, owns (c : Thread nD τ) (st2_2 t) fullShare ((dat2 V O c).before 2 t d))
    ∗ (∃ d, owns (c : Thread nD τ) (st2_3 t) fullShare ((dat2 V O c).before 3 t d))
    ∗ (∃ d, owns (c : Thread nD τ) (st2_4 t) fullShare ((dat2 V O c).before 4 t d))
    ∗ (∃ d, owns (c : Thread nD τ) (st2_5 t) fullShare ((dat2 V O c).before 5 t d))
    ∗ (∃ d, owns (c : Thread nD τ) (st2_6 t) fullShare ((dat2 V O c).before 6 t d))
    ∗ (∃ d, owns (c : Thread nD τ) (st2_7 t) fullShare ((dat2 V O c).before 7 t d))
    ∗ (∃ d, owns (c : Thread nD τ) (st2_8 t) fullShare ((dat2 V O c).before 8 t d))
    ∗ (∃ d, owns (c : Thread nD τ) (st2_9 t) fullShare ((dat2 V O c).before 9 t d))
    ∗ (∃ d, owns (c : Thread nD τ) (st2_10 t) fullShare ((dat2 V O c).before 10 t d))
    ∗ (∃ d, owns (c : Thread nD τ) (st2_11 t) fullShare ((dat2 V O c).before 11 t d))
    ∗ (∃ d, owns (c : Thread nD τ) (st2_12 t) fullShare ((dat2 V O c).before 12 t d)))

/-- and what it returns. -/
def bodyPost2 (c : Dev nD) (t : Fin cfg2.N) : sProp 𝕄 :=
  iprop((dat2 V O c).Φ t.succ ∗ (dat2 V O c).owesAt (none : HIx 1) t.succ
    ∗ owns (c : Thread nD τ) (st2_0 t) fullShare ((dat2 V O c).after 0 t)
    ∗ owns (c : Thread nD τ) (st2_1 t) fullShare ((dat2 V O c).after 1 t)
    ∗ owns (c : Thread nD τ) (st2_2 t) fullShare ((dat2 V O c).after 2 t)
    ∗ owns (c : Thread nD τ) (st2_3 t) fullShare ((dat2 V O c).after 3 t)
    ∗ owns (c : Thread nD τ) (st2_4 t) fullShare ((dat2 V O c).after 4 t)
    ∗ owns (c : Thread nD τ) (st2_5 t) fullShare ((dat2 V O c).after 5 t)
    ∗ owns (c : Thread nD τ) (st2_6 t) fullShare ((dat2 V O c).after 6 t)
    ∗ owns (c : Thread nD τ) (st2_7 t) fullShare ((dat2 V O c).after 7 t)
    ∗ owns (c : Thread nD τ) (st2_8 t) fullShare ((dat2 V O c).after 8 t)
    ∗ owns (c : Thread nD τ) (st2_9 t) fullShare ((dat2 V O c).after 9 t)
    ∗ owns (c : Thread nD τ) (st2_10 t) fullShare ((dat2 V O c).after 10 t)
    ∗ owns (c : Thread nD τ) (st2_11 t) fullShare ((dat2 V O c).after 11 t)
    ∗ owns (c : Thread nD τ) (st2_12 t) fullShare ((dat2 V O c).after 12 t))

/-- The body at any point: the inputs' memrefs hold their blocks, so the body's triple applies; the invariant and
    the core's `owes` pass through unread. -/
theorem sound_body2 (c : Dev nD) (t : Fin cfg2.N) :
    bodyPre2 V O c t ⊢ wp frame (wpE (defs₀ (F := F)) Variants.none c none) Set.univ (bodyAt2 t) (fun _ => bodyPost2 V O c t) := by
  unfold bodyPre2 bodyPost2 bodyAt2
  simp only [before2_0, before2_1, before2_2, before2_3, before2_4, before2_5, before2_6, before2_7, before2_8, before2_9, before2_10, before2_11]
  rw [show (dat2 V O c).Φ t.succ = (dat2 V O c).Φ t.castSucc from rfl,
    show (dat2 V O c).owesAt (none : HIx 1) t.succ = (dat2 V O c).owesAt (none : HIx 1) t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation2 (c : Dev nD) : BodyObligation (dat2 (F := F) V O c) (defs₀ (F := F)) Variants.none (none : HIx 1) Set.univ := fun t => by
  rw [bigSep_W2, bigSep_W2]
  exact sound_body2 V O c t

/-- The same in the form the several-regions launch takes. -/
theorem hbody2 (c : Dev nD) : Pipeline.BodyObligationLoose (dat2 (F := F) V O c) (defs₀ (F := F)) Variants.none (none : HIx 1) Set.univ :=
  (body_obligation2 V O c).loose

/-! ## The invariant at the region's two ends, and the inputs at its exit -/

/-- The invariant at every point is `Φ2`. -/
theorem Φ_eq2 (c : Dev nD) (t : Fin (cfg2.N + 1)) : (dat2 V O c).Φ t = Φ2 c := by dsimp only [dat2]

/-- Entry: the generator register and the scoped buffers no window stages make the invariant at the first point
    (whatever else is handed over beside them). -/
theorem hin2 (c : Dev nD) (P : sProp 𝕄) :
    iprop((∃ r, prngReg c r) ∗ P ∗ Pipeline.scopedRest (Ix := HIx 1) (Name := ℕ) (U := UU) (Lvl := ℕ) (Val := Elt F) spec2 c)
      ⊢ (dat2 V O c).Φ 0 := by
  rw [Φ_eq2]; unfold Φ2
  iintro ⟨Hp, -, Hr⟩
  isplitl [Hr]; · iexact Hr
  iexact Hp

/-- Exit: the invariant at the last point gives both back. -/
theorem hout2 (c : Dev nD) :
    (dat2 V O c).Φ (Fin.last cfg2.N)
      ⊢ iprop((∃ r, prngReg c r) ∗ (BI.emp : sProp 𝕄) ∗ Pipeline.scopedRest (Ix := HIx 1) (Name := ℕ) (U := UU) (Lvl := ℕ) (Val := Elt F) spec2 c) := by
  rw [Φ_eq2]; unfold Φ2
  iintro ⟨Hr, Hp⟩
  isplitl [Hp]; · iexact Hp
  isplitr; · iempintro
  iexact Hr

/-- An input window's array is never written: at every count of write-backs it holds the entry contents. -/
theorem kept2 (c : Dev nD) (w : Fin cfg2.W) (hw : (cfg2.win w).isOut = false) (n : Nat) :
    (dat2 V O c).arrAt w n = V c (Pipeline.arrRef spec2 w) :=
  ((dat2 V O c).arrAt_in w hw n).trans (A_eq2 V O c w)

end Region2

end Cert.Proof.KI

end
-- ==== Proof.ScPay.lean ====
/-
  The row-gathering call as the launch sees it. The call reads two index arrays of 16384 words and a table of
  1000000 rows of 128, and writes two arrays of 16384 rows: row b of the first is the table's row named by user index b,
  row b of the second the one named by item index b (gU, gI; an index word names the row of its value). The work is
  cut into 32 slices of 512 indices, slice 2 i + c to vector subcore i of SparseCore c. A task is handed its slices of
  the index arrays and of the results and a read share of the whole table; a SparseCore's operands are its sixteen
  tasks'. The whole arrays are the 32 tasks' parts (st0_intro) and are put back from them (dn0_elim).
-/
import proofs.«212231_g88622355185883_cont_sun_m_1073_38_alg».proof.Proof.Setup
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

/-! ## The arrays of the row-gathering call, as the TensorCore names them -/

/-- The user indices, the item indices, the concatenated table, and the two gathered-row results, of device `d`. -/
abbrev uLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v4
abbrev ouLoc (d : Dev nD) : Loc nD τ sig := (SparseCore.T d).loc main_v5_0
abbrev oiLoc (d : Dev nD) : Loc nD τ sig := (SparseCore.T d).loc main_v5_1

variable (m : (ℓ : Loc nD τ sig) → Buf (Elt F) ℓ) (Tv : (d : Dev nD) → Buf (Elt F) (tLoc d))

/-- The table row an index word names: the word's value, clamped to the last row (total, so that no hypothesis
    enters the gathered arrays' definition; under `IdxOK` the clamp is the identity). -/
def rowOf (v : BitVec 32) : Fin 1000000 := ⟨min v.toNat 999999, by omega⟩

theorem rowOf_val {v : BitVec 32} (h : v.toNat < 1000000) : (rowOf v).val = v.toNat := by
  unfold rowOf; simp only; omega

/-- The gathered user rows: row `b` is the table's row named by user index `b`. -/
def gU (d : Dev nD) : Buf (Elt F) (ouLoc d) :=
  fun j => Tv d (ValueIdx.ix2 (rowOf (m (uLoc d) (ValueIdx.ix1 (j 0)))) (j 1))
/-- The gathered item rows: row `b` is the table's row named by item index `b`. -/
def gI (d : Dev nD) : Buf (Elt F) (oiLoc d) :=
  fun j => Tv d (ValueIdx.ix2 (rowOf (m (iLoc d) (ValueIdx.ix1 (j 0)))) (j 1))

theorem gU_apply (d : Dev nD) (b : Fin 16384) (q : Fin 128) :
    gU m Tv d (ValueIdx.ix2 b q) = Tv d (ValueIdx.ix2 (rowOf (m (uLoc d) (ValueIdx.ix1 b))) q) := rfl
theorem gI_apply (d : Dev nD) (b : Fin 16384) (q : Fin 128) :
    gI m Tv d (ValueIdx.ix2 b q) = Tv d (ValueIdx.ix2 (rowOf (m (iLoc d) (ValueIdx.ix1 b))) q) := rfl

/-- What the proof asks of the launch memory: every index word names a row of the table. -/
def IdxOK : Prop :=
  ∀ d : Dev nD, (∀ j, (m (uLoc d) j).toNat < 1000000) ∧ (∀ j, (m (iLoc d) j).toNat < 1000000)

/-! ## The thirty-two tasks' slices -/

theorem hdivI : 32 ∣ S16384.size 0 := ⟨512, rfl⟩
theorem hdivO : 32 ∣ S16384x128.size 0 := ⟨512, rfl⟩
/-- Slice `w` of an index array (512 words) and of a gathered-rows array (512 rows). -/
abbrev partI (w : Fin 32) : Rect S16384 := Rect.part (s := S16384) (a₀ := 0) hdivI w
abbrev partO (w : Fin 32) : Rect S16384x128 := Rect.part (s := S16384x128) (a₀ := 0) hdivO w
abbrev setI (w : Fin 32) : Finset S16384.Idx :=
  ((Memref.whole main_arg0_scv : Memref sig .scVector .hbm S16384 .i32).view.slice (partI w)).set
abbrev setO (w : Fin 32) : Finset S16384x128.Idx :=
  ((Memref.whole main_v5_0_scv : Memref sig .scVector .hbm S16384x128 .f32).view.slice (partO w)).set

/-- The task of vector subcore `i` of SparseCore `c` works on slice `2 i + c`. -/
def wid (c : Fin 2) (i : Fin 16) : Fin 32 := ⟨2 * i.val + c.val, by omega⟩

/-! ## Read shares of the table: `n` pieces of a share, nothing left over -/

/-- Piece `k` of `n` of the share `q`: the `k`-th right half for `k + 1 < n`, what is left for the last. -/
def pieceN (q : PosShare TreeShare) (n k : ℕ) : PosShare TreeShare :=
  if k + 1 < n then shareTokN q k else shareDrop q (n - 1)
abbrev piece (q : PosShare TreeShare) (n : ℕ) (k : Fin n) : PosShare TreeShare := pieceN q n k.val

/-- A points-to at `q` is its `n` pieces (`0 < n`). -/
theorem pointsTo_pieces {ℓ : Loc nD τ sig} {I : Finset (Idx ℓ)} {f : Buf (Elt F) ℓ} (q : PosShare TreeShare) {n : ℕ} (hn : 0 < n) :
    (ℓ ↦[I]{q} f : sProp 𝕄) = bigSep Finset.univ (fun k : Fin n => ℓ ↦[I]{piece q n k} f) := by
  obtain ⟨n', rfl⟩ : ∃ n', n = n' + 1 := ⟨n - 1, by omega⟩
  have e1 : bigSep Finset.univ (fun k : Fin (n' + 1) => (ℓ ↦[I]{piece q (n' + 1) k} f : sProp 𝕄))
      = bigSep (Finset.range (n' + 1)) (fun k => ℓ ↦[I]{pieceN q (n' + 1) k} f) := by
    rw [← Nat.Iio_eq_range, ← Fin.map_valEmbedding_univ, BI.bigSep_map]; rfl
  have e2 : bigSep (Finset.range n') (fun k => (ℓ ↦[I]{pieceN q (n' + 1) k} f : sProp 𝕄))
      = bigSep (Finset.range n') (fun k => ℓ ↦[I]{shareTokN q k} f) :=
    bigSep_congr fun k hk => by
      have hk' : k < n' := Finset.mem_range.mp hk
      unfold pieceN; rw [if_pos (by omega)]
  have e3 : pieceN q (n' + 1) n' = shareDrop q n' := by unfold pieceN; rw [if_neg (by omega)]; rfl
  rw [e1, Finset.range_add_one, BI.bigSep_insert Finset.notMem_range_self, e2, e3]
  have h := pointsTo_toks_range (ℓ := ℓ) (S := I) (f := f) (Val := Elt F) (U := UU) (Name := ℕ) (Lvl := ℕ) (Ix := HIx 1) q n'
  exact BI.equiv_iff.mp ⟨h.1, h.2⟩

/-- The share of the table the task on `(c, i)` reads through. -/
def tileShare (c : Fin 2) (i : Fin 16) : PosShare TreeShare := piece (piece fullShare 2 c) 16 i

/-! ## What the handshakes carry -/

/-- What the task on slice `w` is handed: its slices of the two index arrays, the table whole at its read share,
    its slices of the two results at any contents. -/
def tilePre (d : Dev nD) (w : Fin 32) (q : PosShare TreeShare) : sProp 𝕄 :=
  iprop((uLoc d ↦[setI w]{fullShare} m (uLoc d)) ∗ (iLoc d ↦[setI w]{fullShare} m (iLoc d)) ∗ (tLoc d ↦{q} Tv d)
    ∗ (∃ f, ouLoc d ↦[setO w]{fullShare} f) ∗ (∃ f, oiLoc d ↦[setO w]{fullShare} f))
/-- What it hands back: the same, its slices of the results at the gathered rows. -/
def tilePost (d : Dev nD) (w : Fin 32) (q : PosShare TreeShare) : sProp 𝕄 :=
  iprop((uLoc d ↦[setI w]{fullShare} m (uLoc d)) ∗ (iLoc d ↦[setI w]{fullShare} m (iLoc d)) ∗ (tLoc d ↦{q} Tv d)
    ∗ (ouLoc d ↦[setO w]{fullShare} gU m Tv d) ∗ (oiLoc d ↦[setO w]{fullShare} gI m Tv d))

/-- The one call: a SparseCore takes and brings back its sixteen tasks' parts. -/
def P : (K (F := F)).Pay (nD := nD) (Val := Elt F) (Name := ℕ) (U := UU) where
  st := fun q d c => match q with
    | 0 => bigSep Finset.univ fun i : Fin ((K (F := F)).nSub 0) =>
        tilePre m Tv d (wid (Fin.cast nCore_zero c) (Fin.cast nSub_zero i)) (tileShare (Fin.cast nCore_zero c) (Fin.cast nSub_zero i))
  dn := fun q d c => match q with
    | 0 => bigSep Finset.univ fun i : Fin ((K (F := F)).nSub 0) =>
        tilePost m Tv d (wid (Fin.cast nCore_zero c) (Fin.cast nSub_zero i)) (tileShare (Fin.cast nCore_zero c) (Fin.cast nSub_zero i))
  go := fun q d c i => match q with
    | 0 => tilePre m Tv d (wid (Fin.cast nCore_zero c) (Fin.cast nSub_zero i)) (tileShare (Fin.cast nCore_zero c) (Fin.cast nSub_zero i))
  td := fun q d c i => match q with
    | 0 => tilePost m Tv d (wid (Fin.cast nCore_zero c) (Fin.cast nSub_zero i)) (tileShare (Fin.cast nCore_zero c) (Fin.cast nSub_zero i))
  x := fun _ _ => iprop(emp)

instance tilePre_storable (d : Dev nD) (w : Fin 32) (q : PosShare TreeShare) : BI.Storable (upEmb : UEmb _ 𝕄) (tilePre m Tv d w q) := by
  unfold tilePre; infer_instance
instance tilePost_storable (d : Dev nD) (w : Fin 32) (q : PosShare TreeShare) : BI.Storable (upEmb : UEmb _ 𝕄) (tilePost m Tv d w q) := by
  unfold tilePost; infer_instance

instance P_storable : (P (F := F) m Tv).IsStorable where
  st q d c := match q with | 0 => by unfold P; infer_instance
  dn q d c := match q with | 0 => by unfold P; infer_instance
  go q d c i := match q with | 0 => by unfold P; infer_instance
  td q d c i := match q with | 0 => by unfold P; infer_instance

theorem P_go (d : Dev nD) (c : Fin ((K (F := F)).nCore 0)) (i : Fin ((K (F := F)).nSub 0)) :
    (P m Tv).go 0 d c i = tilePre m Tv d (wid (Fin.cast nCore_zero c) (Fin.cast nSub_zero i)) (tileShare (Fin.cast nCore_zero c) (Fin.cast nSub_zero i)) := rfl
theorem P_td (d : Dev nD) (c : Fin ((K (F := F)).nCore 0)) (i : Fin ((K (F := F)).nSub 0)) :
    (P m Tv).td 0 d c i = tilePost m Tv d (wid (Fin.cast nCore_zero c) (Fin.cast nSub_zero i)) (tileShare (Fin.cast nCore_zero c) (Fin.cast nSub_zero i)) := rfl
theorem P_x (q : Fin 1) (thr : Thread nD τ) : (P m Tv).x q thr = iprop(emp) := rfl
theorem P_ox : (P m Tv).ox = fun _ _ => 0 := rfl

/-- A SparseCore's operands are its tasks' by definition, and so are its results. -/
theorem vecSplit : (K (F := F)).VecSplit' (P m Tv) 0 := by
  intro d c
  show (bigSep Finset.univ fun i : Fin ((K (F := F)).nSub 0) => (P m Tv).go 0 d c i) ⊢ |={Set.univ}=> iprop(
      (bigSep Finset.univ fun i : Fin ((K (F := F)).nSub 0) => (P m Tv).go 0 d c i)
      ∗ ((bigSep Finset.univ fun i : Fin ((K (F := F)).nSub 0) => (P m Tv).td 0 d c i)
          -∗ (bigSep Finset.univ fun i : Fin ((K (F := F)).nSub 0) => (P m Tv).td 0 d c i)))
  iintro H; imodintro
  isplitl [H]; · iexact H
  iintro H; iexact H

/-- The TensorCore's view of the five arrays, whole. -/
abbrev uPts (d : Dev nD) : sProp 𝕄 := uLoc d ↦{fullShare} m (uLoc d)
abbrev iPts (d : Dev nD) : sProp 𝕄 := iLoc d ↦{fullShare} m (iLoc d)
abbrev tPts (d : Dev nD) : sProp 𝕄 := tLoc d ↦{fullShare} Tv d
abbrev ouPts (d : Dev nD) (f : Buf (Elt F) (ouLoc d)) : sProp 𝕄 := ouLoc d ↦{fullShare} f
abbrev oiPts (d : Dev nD) (f : Buf (Elt F) (oiLoc d)) : sProp 𝕄 := oiLoc d ↦{fullShare} f

/-! ## The whole arrays are the thirty-two tasks' parts -/

/-- Slices are numbered by (SparseCore, vector subcore) pairs. -/
def widEquiv : Fin 2 × Fin 16 ≃ Fin 32 where
  toFun p := wid p.1 p.2
  invFun w := (⟨w.val % 2, by omega⟩, ⟨w.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv w := by
    refine Fin.ext ?_
    show 2 * (w.val / 2) + w.val % 2 = w.val; omega

theorem bigSep_wid (Φ : Fin 32 → sProp 𝕄) :
    (bigSep Finset.univ fun c : Fin 2 => bigSep Finset.univ fun i : Fin 16 => Φ (wid c i)) = bigSep Finset.univ Φ := by
  rw [bigSep_univ_equiv widEquiv Φ, bigSep_univ_prod]; rfl

theorem setI_eq (w : Fin 32) : setI w = (partI w).set := by
  show ((View.whole (main_arg0_scv : Ref sig .scVector)).slice (partI w)).set = _
  rw [View.set_slice]; exact Finset.map_refl
theorem setO_eq (w : Fin 32) : setO w = (partO w).set := by
  show ((View.whole (main_v5_0_scv : Ref sig .scVector)).slice (partO w)).set = _
  rw [View.set_slice]; exact Finset.map_refl
theorem setI_disjoint : ∀ i ∈ (Finset.univ : Finset (Fin 32)), ∀ j ∈ (Finset.univ : Finset (Fin 32)), i ≠ j → Disjoint (setI i) (setI j) :=
  fun i _ j _ h => by rw [setI_eq, setI_eq]; exact Rect.part_disjoint hdivI h
theorem setO_disjoint : ∀ i ∈ (Finset.univ : Finset (Fin 32)), ∀ j ∈ (Finset.univ : Finset (Fin 32)), i ≠ j → Disjoint (setO i) (setO j) :=
  fun i _ j _ h => by rw [setO_eq, setO_eq]; exact Rect.part_disjoint hdivO h
theorem setI_cover : (Finset.univ : Finset (Fin 32)).biUnion setI = Finset.univ :=
  (Finset.biUnion_congr rfl fun i _ => setI_eq i).trans (Rect.biUnion_part hdivI)
theorem setO_cover : (Finset.univ : Finset (Fin 32)).biUnion setO = Finset.univ :=
  (Finset.biUnion_congr rfl fun i _ => setO_eq i).trans (Rect.biUnion_part hdivO)

theorem uPts_parts (d : Dev nD) (f : Buf (Elt F) (uLoc d)) :
    (uLoc d ↦{fullShare} f : sProp 𝕄) = bigSep Finset.univ fun w : Fin 32 => uLoc d ↦[setI w]{fullShare} f := by
  rw [← pointsTo_biUnion Finset.univ (ℓ := uLoc d) setI setI_disjoint, setI_cover]; try rfl
theorem iPts_parts (d : Dev nD) (f : Buf (Elt F) (iLoc d)) :
    (iLoc d ↦{fullShare} f : sProp 𝕄) = bigSep Finset.univ fun w : Fin 32 => iLoc d ↦[setI w]{fullShare} f := by
  rw [← pointsTo_biUnion Finset.univ (ℓ := iLoc d) setI setI_disjoint, setI_cover]; try rfl
theorem ouPts_parts (d : Dev nD) (f : Buf (Elt F) (ouLoc d)) :
    (ouLoc d ↦{fullShare} f : sProp 𝕄) = bigSep Finset.univ fun w : Fin 32 => ouLoc d ↦[setO w]{fullShare} f := by
  rw [← pointsTo_biUnion Finset.univ (ℓ := ouLoc d) setO setO_disjoint, setO_cover]; try rfl
theorem oiPts_parts (d : Dev nD) (f : Buf (Elt F) (oiLoc d)) :
    (oiLoc d ↦{fullShare} f : sProp 𝕄) = bigSep Finset.univ fun w : Fin 32 => oiLoc d ↦[setO w]{fullShare} f := by
  rw [← pointsTo_biUnion Finset.univ (ℓ := oiLoc d) setO setO_disjoint, setO_cover]; try rfl

/-- The table at the full share is the thirty-two tasks' read shares. -/
theorem tPts_shares (d : Dev nD) :
    (tLoc d ↦{fullShare} Tv d : sProp 𝕄) = bigSep Finset.univ fun c : Fin 2 => bigSep Finset.univ fun i : Fin 16 => tLoc d ↦{tileShare c i} Tv d := by
  rw [pointsTo_pieces (F := F) fullShare (n := 2) (by decide)]
  exact bigSep_congr fun c _ => pointsTo_pieces (F := F) (piece fullShare 2 c) (n := 16) (by decide)

theorem pts_ex {ℓ : Loc nD τ sig} {I : Finset (Idx ℓ)} (f : Buf (Elt F) ℓ) :
    (ℓ ↦[I]{fullShare} f : sProp 𝕄) ⊢ iprop(∃ g, ℓ ↦[I]{fullShare} g) := by
  iintro H; iexists f; iexact H

/-- What the call takes from the TensorCore: the five arrays whole, the results at any contents. -/
theorem st0_intro (d : Dev nD) :
    iprop(uPts m d ∗ iPts m d ∗ tPts Tv d ∗ (∃ f, ouPts d f) ∗ (∃ f, oiPts d f))
      ⊢ bigSep Finset.univ fun c : Fin ((K (F := F)).nCore 0) => (P m Tv).st 0 d c := by
  have hst : (bigSep Finset.univ fun c : Fin ((K (F := F)).nCore 0) => (P m Tv).st 0 d c)
      = bigSep Finset.univ fun c : Fin 2 => bigSep Finset.univ fun i : Fin 16 => tilePre m Tv d (wid c i) (tileShare c i) := rfl
  rw [hst]
  unfold tilePre
  simp only [bigSep_sep']
  rw [bigSep_wid (fun w => uLoc d ↦[setI w]{fullShare} m (uLoc d)), bigSep_wid (fun w => iLoc d ↦[setI w]{fullShare} m (iLoc d)),
    bigSep_wid (fun w => iprop(∃ f, ouLoc d ↦[setO w]{fullShare} f)), bigSep_wid (fun w => iprop(∃ f, oiLoc d ↦[setO w]{fullShare} f)),
    ← uPts_parts, ← iPts_parts, ← tPts_shares]
  have hou : ∀ fu, (bigSep Finset.univ fun w : Fin 32 => (ouLoc d ↦[setO w]{fullShare} fu : sProp 𝕄))
      ⊢ bigSep Finset.univ fun w : Fin 32 => iprop(∃ f, ouLoc d ↦[setO w]{fullShare} f) :=
    fun fu => bigSep_mono fun w _ => pts_ex fu
  have hoi : ∀ fi, (bigSep Finset.univ fun w : Fin 32 => (oiLoc d ↦[setO w]{fullShare} fi : sProp 𝕄))
      ⊢ bigSep Finset.univ fun w : Fin 32 => iprop(∃ f, oiLoc d ↦[setO w]{fullShare} f) :=
    fun fi => bigSep_mono fun w _ => pts_ex fi
  iintro ⟨Hu, Hi, Ht, ⟨%fu, Hou⟩, ⟨%fi, Hoi⟩⟩
  isplitl [Hu]; · iexact Hu
  isplitl [Hi]; · iexact Hi
  isplitl [Ht]; · iexact Ht
  isplitl [Hou]
  · ihave H := (Entails.of_eq (ouPts_parts d fu)) $$ Hou
    iapply (hou fu) $$ H
  · ihave H := (Entails.of_eq (oiPts_parts d fi)) $$ Hoi
    iapply (hoi fi) $$ H
/-- What it brings back: the same, the results at the gathered rows. -/
theorem dn0_elim (d : Dev nD) :
    (bigSep Finset.univ fun c : Fin ((K (F := F)).nCore 0) => (P m Tv).dn 0 d c)
      ⊢ iprop(uPts m d ∗ iPts m d ∗ tPts Tv d ∗ ouPts d (gU m Tv d) ∗ oiPts d (gI m Tv d)) := by
  have hdn : (bigSep Finset.univ fun c : Fin ((K (F := F)).nCore 0) => (P m Tv).dn 0 d c)
      = bigSep Finset.univ fun c : Fin 2 => bigSep Finset.univ fun i : Fin 16 => tilePost m Tv d (wid c i) (tileShare c i) := rfl
  rw [hdn]
  unfold tilePost
  simp only [bigSep_sep']
  rw [bigSep_wid (fun w => uLoc d ↦[setI w]{fullShare} m (uLoc d)), bigSep_wid (fun w => iLoc d ↦[setI w]{fullShare} m (iLoc d)),
    bigSep_wid (fun w => ouLoc d ↦[setO w]{fullShare} gU m Tv d), bigSep_wid (fun w => oiLoc d ↦[setO w]{fullShare} gI m Tv d),
    ← uPts_parts, ← iPts_parts, ← tPts_shares, ← ouPts_parts, ← oiPts_parts]

end Cert.Proof.KI

end
-- ==== Proof.LaunchRegions.lean ====
/-
  The contents of the TensorCore's buffers between the segments of the main function, and its two kernel regions as
  records of the several-regions rule. The buffers' contents are a fold through the main function: the launch
  memory, then the four transposes, then region one's arrays at what its pipeline leaves, then the two gathered
  arrays, then the weight slices and reshapes, then region two's arrays, then the closing reshape.
-/
import proofs.«212231_g88622355185883_cont_sun_m_1073_38_alg».proof.Proof.LaunchBase
import proofs.«212231_g88622355185883_cont_sun_m_1073_38_alg».proof.Proof.RepackDefs
import proofs.«212231_g88622355185883_cont_sun_m_1073_38_alg».proof.Proof.MlpDat
import proofs.«212231_g88622355185883_cont_sun_m_1073_38_alg».proof.Proof.ScPay
import Idealize.ShloMosaic.Lib.Pipeline.FrameSuffix
import Idealize.ShloMosaic.Lib.Pipeline.RegionsLoop

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 1) (Elt F) ℕ UU ℕ

/-! ## What the TensorCore owes the launch handshakes: before the SparseCore call a start signal per SparseCore,
    after it nothing; never anything at the index of a kernel's own waits -/

abbrev KL : GSem nD τ sig → Finset (HIx 1) := (K (F := F)).L
abbrev Klev : GSem nD τ sig → HIx 1 → ℕ := (K (F := F)).lev
abbrev O0 : Dev nD → CellTallies nD τ sig (HIx 1) := fun d => (K (F := F)).Otc d 0
abbrev O2 : Dev nD → CellTallies nD τ sig (HIx 1) := fun d => (K (F := F)).Otc d 1

omit [FloatOps F] in
theorem O0_none (d : Dev nD) (g : GSem nD τ sig) : O0 (F := F) d g none = 0 := by
  by_contra h
  have := (K (F := F)).lev_of_Otc_pos (Nat.pos_of_ne_zero h); rw [SparseCore.Cfg.lev_none] at this; omega
omit [FloatOps F] in
theorem O2_none (d : Dev nD) (g : GSem nD τ sig) : O2 (F := F) d g none = 0 := by
  by_contra h
  have := (K (F := F)).lev_of_Otc_pos (Nat.pos_of_ne_zero h); rw [SparseCore.Cfg.lev_none] at this; omega

/-- What rides beside the buffers through a region: the generator register at some state, and the core's debt
    with every recorded wait pair at the index of a kernel's own waits. -/
abbrev Rst (O : Dev nD → CellTallies nD τ sig (HIx 1)) (c : Dev nD) : sProp 𝕄 :=
  iprop((∃ r, prngReg c r) ∗ ∃ W : Waits sig (HIx 1), ⌜∀ p ∈ W, p.2 = (none : HIx 1)⌝ ∗ owes (c.tc : Thread nD τ) (O c) W)

/-- The same with no bound on the recorded pairs (after the SparseCore call the waits on its completion are among them). -/
abbrev Rst' (O : Dev nD → CellTallies nD τ sig (HIx 1)) (c : Dev nD) : sProp 𝕄 :=
  iprop((∃ r, prngReg c r) ∗ ∃ W : Waits sig (HIx 1), owes (c.tc : Thread nD τ) (O c) W)

variable (m : (ℓ : Loc nD τ sig) → Buf (Elt F) ℓ)

/-! ## The buffers' contents at each segment boundary -/

/-- After the four transposes (region one's entry). -/
abbrev W1 : Dev nD → Valuation τ sig (Elt F) := fun c => after hostA (W0 m c)
abbrev V1 : (c : Dev nD) → (b : Ref sig .tc) → Buf (Elt F) ((c.tc : Thread nD τ).loc b) := fun c b => W1 m c b
/-- At region one's exit: its arrays at what the pipeline leaves, every other buffer as entered. -/
def W2 (c : Dev nD) : Valuation τ sig (Elt F) :=
  Pipeline.withArrays spec0 c (W1 m c) fun w => (dat0 (V1 m) (O0 (F := F)) c).arrAt w cfg0.N
theorem W2_arr (c : Dev nD) (w : Fin cfg0.W) :
    W2 m c (Proc.devRef .tc (Pipeline.arrRef spec0 w)) = (dat0 (V1 m) (O0 (F := F)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V1' : (c : Dev nD) → (b : Ref sig .tc) → Buf (Elt F) ((c.tc : Thread nD τ).loc b) := fun c b => W2 m c b
theorem hF0 (c : Dev nD) (w : Fin cfg0.W) : (dat0 (V1 m) (O0 (F := F)) c).arrAt w cfg0.N = V1' m c (Pipeline.arrRef spec0 w) :=
  (W2_arr m c w).symm
theorem hrest0 (c : Dev nD) : ∀ b, b ∉ Finset.univ.image (Pipeline.arrRef spec0) → V1' m c b = V1 m c b :=
  fun b hb => W2_of_ne m c b fun w e => hb (Finset.mem_image.mpr ⟨w, Finset.mem_univ _, e⟩)

/-- The repacked table as the SparseCore call finds it. -/
abbrev Tv : (d : Dev nD) → Buf (Elt F) (tLoc d) := fun d => W2 m d (Proc.devRef .tc main_v4)
/-- After the SparseCore call: the two gathered arrays at the rows the index words name, the rest as before. -/
def W3 (c : Dev nD) : Valuation τ sig (Elt F) :=
  Function.update (Function.update (W2 m c) (Proc.devRef .tc main_v5_0) (gU m (Tv m) c)) (Proc.devRef .tc main_v5_1) (gI m (Tv m) c)
/-- After the weight slices and reshapes (region two's entry). -/
abbrev W4 : Dev nD → Valuation τ sig (Elt F) := fun c => after hostB (W3 m c)
abbrev V4 : (c : Dev nD) → (b : Ref sig .tc) → Buf (Elt F) ((c.tc : Thread nD τ).loc b) := fun c b => W4 m c b
/-- At region two's exit. -/
def W5 (c : Dev nD) : Valuation τ sig (Elt F) :=
  Pipeline.withArrays spec2 c (W4 m c) fun w => (dat2 (V4 m) (O2 (F := F)) c).arrAt w cfg2.N
theorem W5_arr (c : Dev nD) (w : Fin cfg2.W) :
    W5 m c (Proc.devRef .tc (Pipeline.arrRef spec2 w)) = (dat2 (V4 m) (O2 (F := F)) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V4' : (c : Dev nD) → (b : Ref sig .tc) → Buf (Elt F) ((c.tc : Thread nD τ).loc b) := fun c b => W5 m c b
theorem hF2 (c : Dev nD) (w : Fin cfg2.W) : (dat2 (V4 m) (O2 (F := F)) c).arrAt w cfg2.N = V4' m c (Pipeline.arrRef spec2 w) :=
  (W5_arr m c w).symm
theorem hrest2 (c : Dev nD) : ∀ b, b ∉ Finset.univ.image (Pipeline.arrRef spec2) → V4' m c b = V4 m c b :=
  fun b hb => W5_of_ne m c b fun w e => hb (Finset.mem_image.mpr ⟨w, Finset.mem_univ _, e⟩)
/-- After the closing reshape: the end. -/
abbrev W6 : Dev nD → Valuation τ sig (Elt F) := fun c => after hostC (W5 m c)

/-! ## The proof data family -/

/-- Both pipelines' proof data, each at its region's entry contents. -/
def pdats : (p : Fin 2) → (c : Dev nD) → Pipeline.Dat τ (Elt F) (HIx 1) ℕ UU ℕ (Pipeline.pin (pcfgs (F := F)) adm p) c
  | ⟨0, _⟩ => fun c => dat0 (V1 m) (O0 (F := F)) c
  | ⟨1, _⟩ => fun c => dat2 (V4 m) (O2 (F := F)) c

variable (hb0 : ∀ c, Pipeline.BodyObligationLoose (dat0 (V1 m) (O0 (F := F)) c) (defs₀ (F := F)) 𝒱₀ (none : HIx 1) Set.univ)
variable (hb2 : ∀ c, Pipeline.BodyObligationLoose (dat2 (V4 m) (O2 (F := F)) c) (defs₀ (F := F)) 𝒱₀ (none : HIx 1) Set.univ)

/-! ## The regions as segments -/

-- a library lemma stated over the pinned configuration unifies with the printed one only when unification may unfold
-- plain definitions in a metavariable's type
set_option backward.isDefEq.respectTransparency.types false in
/-- The region of pipeline 0 over the thread state: entered from every unscoped buffer at `W1`, left at `W2`; its
    arrays are split out of the unscoped buffers and put back at their exit contents; the generator register goes into
    the region's invariant and comes back; what the core owes the launch handshakes rides through unchanged, its
    recorded wait pairs all at the index of a kernel's own waits. -/
def reg0 : Pipeline.RegionSeg (pcfgs (F := F)) adm (pdats m) (none : HIx 1) defs₀ 𝒱₀ (KL (F := F)) (Klev (F := F)) 0 where
  win := launch0.win.to₀
  block_pos := launch0.block_pos
  stage_whole := launch0.stage_whole
  K := PEmpty
  osem k := k.elim
  ho := Pipeline.OwnSemFacts.none _
  hbody c := hb0 c
  hwaits c := Pipeline.cellsWaits_intro (Pipeline.pin (pcfgs (F := F)) adm) (pdats m) (none : HIx 1) 0 c (R := levAts (KL (F := F)) (Klev (F := F)))
    fun w s t => (K (F := F)).mayWait_none _ (fun g => O0_none c g)
  pre c := iprop(held (c.tc : Thread nD τ) (Pipeline.ucRefs τ sig) (W1 m c) ∗ Rst (O0 (F := F)) c)
  post c := iprop(held (c.tc : Thread nD τ) (Pipeline.ucRefs τ sig) (W2 m c) ∗ Rst (O0 (F := F)) c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 0 c).Φ 0 = Φ0 c from rfl]; unfold Φ0
    iintro ⟨Hp, -, Hr⟩
    isplitl [Hr]; · iexact Hr
    iexact Hp
  hout c := by
    rw [Pipeline.ownSems0_none, show (pdats m 0 c).Φ (Fin.last _) = Φ0 c from rfl]; unfold Φ0
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V1' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro; intro p hp
      rcases hW hp with h | ⟨_, _, h⟩
      · exact h
      · rw [h]
    iexact HO

-- a library lemma stated over the pinned configuration unifies with the printed one only when unification may unfold
-- plain definitions in a metavariable's type
set_option backward.isDefEq.respectTransparency.types false in
/-- The region of pipeline 1 over the thread state: entered from every unscoped buffer at `W4`, left at `W5`; its
    arrays are split out of the unscoped buffers and put back at their exit contents; the generator register goes into
    the region's invariant and comes back; what the core owes the launch handshakes rides through unchanged, its
    recorded wait pairs all at the index of a kernel's own waits. -/
def reg2 : Pipeline.RegionSeg (pcfgs (F := F)) adm (pdats m) (none : HIx 1) defs₀ 𝒱₀ (KL (F := F)) (Klev (F := F)) 1 where
  win := launch2.win.to₀
  block_pos := launch2.block_pos
  stage_whole := launch2.stage_whole
  K := PEmpty
  osem k := k.elim
  ho := Pipeline.OwnSemFacts.none _
  hbody c := hb2 c
  hwaits c := Pipeline.cellsWaits_intro (Pipeline.pin (pcfgs (F := F)) adm) (pdats m) (none : HIx 1) 1 c (R := levAts (KL (F := F)) (Klev (F := F)))
    fun w s t => (K (F := F)).mayWait_none _ (fun g => O2_none c g)
  pre c := iprop(held (c.tc : Thread nD τ) (Pipeline.ucRefs τ sig) (W4 m c) ∗ Rst' (O2 (F := F)) c)
  post c := iprop(held (c.tc : Thread nD τ) (Pipeline.ucRefs τ sig) (W5 m c) ∗ Rst' (O2 (F := F)) c)
  X c := iprop(∃ r, prngReg c r)
  Y c := iprop(∃ r, prngReg c r)
  Z c := Pipeline.unscopedRest (Ix := HIx 1) (Name := ℕ) (U := UU) (Lvl := ℕ) spec2 c (V4 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Φ2 c from rfl]; unfold Φ2
    iintro ⟨Hp, -, Hr⟩
    isplitl [Hr]; · iexact Hr
    iexact Hp
  hout c := by
    rw [Pipeline.ownSems0_none, show (pdats m 1 c).Φ (Fin.last _) = Φ2 c from rfl]; unfold Φ2
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V4 m c) (V4' m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Proof.KI

end
-- ==== Proof.RepackBody.lean ====
import proofs.«212231_g88622355185883_cont_sun_m_1073_38_alg».proof.Proof.RepackDefs
import Idealize.ShloMosaic.Lib.ValueLayout
import Idealize.ShloMosaic.Lib.Pipeline.Frame
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2 eq_ix2)

variable {F : FTy → Type} [FloatOps F]

local notation "𝕄" => MT nD τ sig (HIx 1) (Elt F) ℕ UU ℕ

/-! ## The body's arithmetic, entry by entry -/

section Pay
variable {α : Type}

/-- Four blocks of 32 columns side by side: column `pre + j` of the whole is column `j` of the block starting at `pre`. -/
theorem concat4_apply (y0 y1 y2 y3 : S4096x32.Idx → α)
    (h : Shape.Concatenates [S4096x32, S4096x32, S4096x32, S4096x32] S4096x128 1) (r : Fin 4096) (j : Fin 32)
    (k : Nat) (hk : k < 4) (jj : Fin 128) (hjj : jj.val = 32 * k + j.val) :
    concatenate S4096x128 1 [⟨S4096x32, y0⟩, ⟨S4096x32, y1⟩, ⟨S4096x32, y2⟩, ⟨S4096x32, y3⟩] h (ix2 (n0 := 4096) (n1 := 128) r jj)
      = (match k with | 0 => y0 | 1 => y1 | 2 => y2 | _ => y3) (ix2 (n0 := 4096) (n1 := 32) r j) := by
  have hi : ∀ b : Fin S4096x32.rank, b.cast (rfl : S4096x32.rank = S4096x128.rank) ≠ (1 : Fin 2) →
      ((ix2 (n0 := 4096) (n1 := 32) r j) b).val = ((ix2 (n0 := 4096) (n1 := 128) r jj) (b.cast rfl)).val := by
    intro b hb
    match b with
    | ⟨0, _⟩ => rfl
    | ⟨1, _⟩ => exact absurd rfl hb
  match k, hk, hjj with
  | 0, _, hjj =>
    exact concatenate_apply_piece (t := S4096x128) (1 : Fin 2) [⟨S4096x32, y0⟩, ⟨S4096x32, y1⟩, ⟨S4096x32, y2⟩, ⟨S4096x32, y3⟩] h _ 0 (by show (_ : Nat) < 4; omega) S4096x32 y0 rfl rfl 0 rfl (ix2 (n0 := 4096) (n1 := 32) r j) hi (by show 0 + j.val = jj.val; omega)
  | 1, _, hjj =>
    exact concatenate_apply_piece (t := S4096x128) (1 : Fin 2) [⟨S4096x32, y0⟩, ⟨S4096x32, y1⟩, ⟨S4096x32, y2⟩, ⟨S4096x32, y3⟩] h _ 1 (by show (_ : Nat) < 4; omega) S4096x32 y1 rfl rfl 32 rfl (ix2 (n0 := 4096) (n1 := 32) r j) hi (by show 32 + j.val = jj.val; omega)
  | 2, _, hjj =>
    exact concatenate_apply_piece (t := S4096x128) (1 : Fin 2) [⟨S4096x32, y0⟩, ⟨S4096x32, y1⟩, ⟨S4096x32, y2⟩, ⟨S4096x32, y3⟩] h _ 2 (by show (_ : Nat) < 4; omega) S4096x32 y2 rfl rfl 64 rfl (ix2 (n0 := 4096) (n1 := 32) r j) hi (by show 64 + j.val = jj.val; omega)
  | 3, _, hjj =>
    exact concatenate_apply_piece (t := S4096x128) (1 : Fin 2) [⟨S4096x32, y0⟩, ⟨S4096x32, y1⟩, ⟨S4096x32, y2⟩, ⟨S4096x32, y3⟩] h _ 3 (by show (_ : Nat) < 4; omega) S4096x32 y3 rfl rfl 96 rfl (ix2 (n0 := 4096) (n1 := 32) r j) hi (by show 96 + j.val = jj.val; omega)

end Pay

/-- The body's store value, entry by entry: column `32 k + j` of row `r` is entry `(j, r)` of the `k`-th loaded block. -/
theorem pay_apply (x0 x1 x2 x3 : Vec F S32x4096 .f32) (r : Fin 4096) (j : Fin 32)
    (k : Nat) (hk : k < 4) (jj : Fin 128) (hjj : jj.val = 32 * k + j.val) :
    k0_pay1 x0 x1 x2 x3 (ix2 (n0 := 4096) (n1 := 128) r jj)
      = (match k with | 0 => x0 | 1 => x1 | 2 => x2 | _ => x3) (ix2 (n0 := 32) (n1 := 4096) j r) := by
  unfold k0_pay1
  simp only [shapeCast_self]
  refine (concat4_apply _ _ _ _ _ r j k hk jj hjj).trans ?_
  match k, hk with
  | 0, _ => exact ValueIdx.transpose_ix2_apply x0 _ r j
  | 1, _ => exact ValueIdx.transpose_ix2_apply x1 _ r j
  | 2, _ => exact ValueIdx.transpose_ix2_apply x2 _ r j
  | 3, _ => exact ValueIdx.transpose_ix2_apply x3 _ r j

/-! ## The body's accesses -/

abbrev rIn0 : Rect S32x4096 := Rect.unit (s := S32x4096) ![0, 0] S32x4096.size inb_S32x4096_S32x4096_0_0
abbrev rOut0 : Rect S4096x128 := Rect.unit (s := S4096x128) ![0, 0] S4096x128.size inb_S4096x128_S4096x128_0_0

theorem hz0 : (![0, 0] : Fin 2 → Nat) = fun _ => 0 := funext fun a => by fin_cases a <;> rfl

/-- The one store of the body writes the whole output buffer. -/
theorem cover0_4 (p0 : Vec F S4096x128 .f32) (y : S4096x128.Idx) :
    ∃ pc ∈ ([⟨rOut0, p0⟩] : List (View.Piece (Elt F) S4096x128 .f32)), y ∈ pc.1.set :=
  View.cover_of_tiled [⟨rOut0, p0⟩] S4096x128.size (by rfl) y

set_option maxHeartbeats 1000000 in
/-- The body on whole staging buffers: it loads the four input buffers whole, and stores the four transposes side
    by side over the whole output buffer; the inputs are left as they were. -/
theorem sound_kernel0 (c : Dev nD) (E : Set ℕ) (i : grid0.Coords)
    (arg1 : Memref sig .tc .vmem S32x4096 .f32) (harg1 : arg1.IsWhole) (arg2 : Memref sig .tc .vmem S32x4096 .f32) (harg2 : arg2.IsWhole)
    (arg3 : Memref sig .tc .vmem S32x4096 .f32) (harg3 : arg3.IsWhole) (arg4 : Memref sig .tc .vmem S32x4096 .f32) (harg4 : arg4.IsWhole)
    (arg5 : Memref sig .tc .vmem S4096x128 .f32) (harg5 : arg5.IsWhole)
    (x0 x1 x2 x3 : Vec F S32x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay1 x0 x1 x2 x3)) -∗ K ⟨⟩))
      ⊢ wp frame (wpE (defs₀ (F := F)) 𝒱₀ c none) E (cc0_body i arg1 harg1 arg2 harg2 arg3 harg3 arg4 harg4 arg5 harg5) K := by
  simp only [cc0_body_eq_skeleton]; unfold cc0_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover0_4 _)).trans ?_
  rw [View.canon_unit_zero hz0]
  show k0_pay1 (View.ld (View.read (Elt F) arg1.view f0) rIn0) (View.ld (View.read (Elt F) arg2.view f1) rIn0)
    (View.ld (View.read (Elt F) arg3.view f2) rIn0) (View.ld (View.read (Elt F) arg4.view f3) rIn0) = _
  rw [View.ld_unit_zero (S := S32x4096) hz0, View.ld_unit_zero (S := S32x4096) hz0, View.ld_unit_zero (S := S32x4096) hz0,
    View.ld_unit_zero (S := S32x4096) hz0]

/-! ## The proof data, window by window -/

section Region
variable (V : (c : Dev nD) → (b : Ref sig .tc) → Buf (Elt F) ((c.tc : Thread nD τ).loc b))
variable (O : Dev nD → CellTallies nD τ sig (HIx 1))

theorem after0_0 (c : Dev nD) (t : Fin cfg0.N) : (dat0 V O c).after 0 t = win0_0.fill (grid0.coords t) (fun _ => zf) (iblk0 V c 0 t) := by dsimp only [dat0]
theorem after0_1 (c : Dev nD) (t : Fin cfg0.N) : (dat0 V O c).after 1 t = win0_1.fill (grid0.coords t) (fun _ => zf) (iblk0 V c 1 t) := by dsimp only [dat0]
theorem after0_2 (c : Dev nD) (t : Fin cfg0.N) : (dat0 V O c).after 2 t = win0_2.fill (grid0.coords t) (fun _ => zf) (iblk0 V c 2 t) := by dsimp only [dat0]
theorem after0_3 (c : Dev nD) (t : Fin cfg0.N) : (dat0 V O c).after 3 t = win0_3.fill (grid0.coords t) (fun _ => zf) (iblk0 V c 3 t) := by dsimp only [dat0]
theorem after0_4 (c : Dev nD) (t : Fin cfg0.N) : (dat0 V O c).after 4 t = win0_4.fill (grid0.coords t) (fun _ => zf) ((win0_4.blk t).view.read (Elt F) (rep0 V c)) := by dsimp only [dat0]

/-- An input's staging buffer, fetched at every point, holds its block on the columns inside the array and whatever
    it held (`d`) past the array's end. -/
theorem before0_0 (c : Dev nD) (t : Fin cfg0.N) (d) : (dat0 V O c).before 0 t d = win0_0.fill (grid0.coords t) d (iblk0 V c 0 t) := by
  unfold Dat.before; rw [if_pos (fetch0_0 t)]; unfold Dat.fetched Dat.blockOf iblk0; rw [A_eq0]
theorem before0_1 (c : Dev nD) (t : Fin cfg0.N) (d) : (dat0 V O c).before 1 t d = win0_1.fill (grid0.coords t) d (iblk0 V c 1 t) := by
  unfold Dat.before; rw [if_pos (fetch0_1 t)]; unfold Dat.fetched Dat.blockOf iblk0; rw [A_eq0]
theorem before0_2 (c : Dev nD) (t : Fin cfg0.N) (d) : (dat0 V O c).before 2 t d = win0_2.fill (grid0.coords t) d (iblk0 V c 2 t) := by
  unfold Dat.before; rw [if_pos (fetch0_2 t)]; unfold Dat.fetched Dat.blockOf iblk0; rw [A_eq0]
theorem before0_3 (c : Dev nD) (t : Fin cfg0.N) (d) : (dat0 V O c).before 3 t d = win0_3.fill (grid0.coords t) d (iblk0 V c 3 t) := by
  unfold Dat.before; rw [if_pos (fetch0_3 t)]; unfold Dat.fetched Dat.blockOf iblk0; rw [A_eq0]
/-- The output's staging buffer, written back at every point, holds anything when the body runs. -/
theorem before0_4 (c : Dev nD) (t : Fin cfg0.N) (d) : (dat0 V O c).before 4 t d = d := by
  refine (dat0 V O c).before_out_reset 4 rfl t ?_ d
  by_cases h0 : t.val = 0
  · exact .inl h0
  · exact .inr ⟨h0, flush0_4 _⟩

/-! ## What the body writes is the block of the repacked table -/

/-- On the rows inside the array, the four transposes side by side of the four fetched blocks — whatever the buffers
    held past the array's end — are the output block of the repacked table: entry `(y0, 32 k + j)` of the store is entry
    `(j, y0)` of the `k`-th block, which is entry `(j, 4096 t + y0)` of the `k`-th table. -/
theorem cut_pay_eq (c : Dev nD) (t : Fin cfg0.N) (d0 d1 d2 d3 : S32x4096.Idx → Elt F .f32) :
    win0_4.cut (grid0.coords t) (k0_pay1 (win0_0.fill (grid0.coords t) d0 (iblk0 V c 0 t)) (win0_1.fill (grid0.coords t) d1 (iblk0 V c 1 t))
      (win0_2.fill (grid0.coords t) d2 (iblk0 V c 2 t)) (win0_3.fill (grid0.coords t) d3 (iblk0 V c 3 t)))
    = (win0_4.blk t).view.read (Elt F) (rep0 V c) := by
  obtain ⟨⟨a00, a01, a02, a03⟩, ⟨a10, a11, a12, a13⟩, ⟨a20, a21, a22, a23⟩, ⟨a30, a31, a32, a33⟩, b0, b1, b2, b3, b4, b5, b6⟩ := idx_facts0 t
  funext y
  have hy0 : (y 0).val < win0_4.xsize (grid0.coords t) (0 : Fin 2) := (y 0).isLt
  have hy1 : (y 1).val < win0_4.xsize (grid0.coords t) (1 : Fin 2) := (y 1).isLt
  have hy0' : (y 0).val < 4096 := by omega
  have hy1' : (y 1).val < 128 := by omega
  have hv : 4096 * t.val + (y 0).val < 1000000 := by omega
  have hk : (y 1).val / 32 < 4 := by omega
  have hjj : (y 1).val = 32 * ((y 1).val / 32) + (y 1).val % 32 := by omega
  show k0_pay1 _ _ _ _ (win0_4.xinj (grid0.coords t) y) = rep0 V c ((win0_4.blk t).view.emb y)
  rw [show win0_4.xinj (grid0.coords t) y = ix2 (n0 := 4096) (n1 := 128) ⟨(y 0).val, hy0'⟩ ⟨(y 1).val, hy1'⟩ from
    funext fun a => match a with | ⟨0, _⟩ => rfl | ⟨1, _⟩ => rfl]
  rw [pay_apply _ _ _ _ ⟨(y 0).val, hy0'⟩ ⟨(y 1).val % 32, Nat.mod_lt _ (by decide)⟩ ((y 1).val / 32) hk ⟨(y 1).val, hy1'⟩ hjj]
  show _ = repack (V c main_v0) (V c main_v1) (V c main_v2) (V c main_v3) ((win0_4.blk t).view.emb y)
  rw [repack_apply _ _ _ _ ((win0_4.blk t).view.emb y) ((y 1).val / 32) hk ⟨(y 1).val % 32, Nat.mod_lt _ (by decide)⟩
    ⟨4096 * t.val + (y 0).val, hv⟩
    (by show win0_4.index t (0 : Fin 2) * 4096 + 1 * (y 0).val = 4096 * t.val + (y 0).val; omega)
    (by show win0_4.index t (1 : Fin 2) * 128 + 1 * (y 1).val = 32 * ((y 1).val / 32) + (y 1).val % 32; omega)]
  generalize (y 1).val / 32 = k at hk
  generalize (⟨(y 1).val % 32, Nat.mod_lt _ (by decide)⟩ : Fin 32) = j
  match k, hk with
  | 0, _ =>
    show win0_0.fill (grid0.coords t) d0 (iblk0 V c 0 t) (ix2 (n0 := 32) (n1 := 4096) j ⟨(y 0).val, hy0'⟩) = V c main_v0 (ix2 (n0 := 32) (n1 := 1000000) j ⟨4096 * t.val + (y 0).val, hv⟩)
    rw [fill_of_moved win0_0 (grid0.coords t) d0 _ _ (fun a => match a with
      | ⟨0, _⟩ => by show j.val < win0_0.xsize (grid0.coords t) (0 : Fin 2); rw [a02]; exact j.isLt
      | ⟨1, _⟩ => by show (y 0).val < win0_0.xsize (grid0.coords t) (1 : Fin 2); rw [a03]; exact hy0)]
    show V c main_v0 ((win0_0.blk t).view.emb _) = _
    congr 1; funext a; apply Fin.ext
    match a with
    | ⟨0, _⟩ => show win0_0.index t (0 : Fin 2) * 32 + 1 * j.val = j.val; omega
    | ⟨1, _⟩ => show win0_0.index t (1 : Fin 2) * 4096 + 1 * (y 0).val = 4096 * t.val + (y 0).val; omega
  | 1, _ =>
    show win0_1.fill (grid0.coords t) d1 (iblk0 V c 1 t) (ix2 (n0 := 32) (n1 := 4096) j ⟨(y 0).val, hy0'⟩) = V c main_v1 (ix2 (n0 := 32) (n1 := 1000000) j ⟨4096 * t.val + (y 0).val, hv⟩)
    rw [fill_of_moved win0_1 (grid0.coords t) d1 _ _ (fun a => match a with
      | ⟨0, _⟩ => by show j.val < win0_1.xsize (grid0.coords t) (0 : Fin 2); rw [a12]; exact j.isLt
      | ⟨1, _⟩ => by show (y 0).val < win0_1.xsize (grid0.coords t) (1 : Fin 2); rw [a13]; exact hy0)]
    show V c main_v1 ((win0_1.blk t).view.emb _) = _
    congr 1; funext a; apply Fin.ext
    match a with
    | ⟨0, _⟩ => show win0_1.index t (0 : Fin 2) * 32 + 1 * j.val = j.val; omega
    | ⟨1, _⟩ => show win0_1.index t (1 : Fin 2) * 4096 + 1 * (y 0).val = 4096 * t.val + (y 0).val; omega
  | 2, _ =>
    show win0_2.fill (grid0.coords t) d2 (iblk0 V c 2 t) (ix2 (n0 := 32) (n1 := 4096) j ⟨(y 0).val, hy0'⟩) = V c main_v2 (ix2 (n0 := 32) (n1 := 1000000) j ⟨4096 * t.val + (y 0).val, hv⟩)
    rw [fill_of_moved win0_2 (grid0.coords t) d2 _ _ (fun a => match a with
      | ⟨0, _⟩ => by show j.val < win0_2.xsize (grid0.coords t) (0 : Fin 2); rw [a22]; exact j.isLt
      | ⟨1, _⟩ => by show (y 0).val < win0_2.xsize (grid0.coords t) (1 : Fin 2); rw [a23]; exact hy0)]
    show V c main_v2 ((win0_2.blk t).view.emb _) = _
    congr 1; funext a; apply Fin.ext
    match a with
    | ⟨0, _⟩ => show win0_2.index t (0 : Fin 2) * 32 + 1 * j.val = j.val; omega
    | ⟨1, _⟩ => show win0_2.index t (1 : Fin 2) * 4096 + 1 * (y 0).val = 4096 * t.val + (y 0).val; omega
  | 3, _ =>
    show win0_3.fill (grid0.coords t) d3 (iblk0 V c 3 t) (ix2 (n0 := 32) (n1 := 4096) j ⟨(y 0).val, hy0'⟩) = V c main_v3 (ix2 (n0 := 32) (n1 := 1000000) j ⟨4096 * t.val + (y 0).val, hv⟩)
    rw [fill_of_moved win0_3 (grid0.coords t) d3 _ _ (fun a => match a with
      | ⟨0, _⟩ => by show j.val < win0_3.xsize (grid0.coords t) (0 : Fin 2); rw [a32]; exact j.isLt
      | ⟨1, _⟩ => by show (y 0).val < win0_3.xsize (grid0.coords t) (1 : Fin 2); rw [a33]; exact hy0)]
    show V c main_v3 ((win0_3.blk t).view.emb _) = _
    congr 1; funext a; apply Fin.ext
    match a with
    | ⟨0, _⟩ => show win0_3.index t (0 : Fin 2) * 32 + 1 * j.val = j.val; omega
    | ⟨1, _⟩ => show win0_3.index t (1 : Fin 2) * 4096 + 1 * (y 0).val = 4096 * t.val + (y 0).val; omega

/-! ## The body obligation, at a generic point -/

/-- What the body is called with at point `t`, the windows one by one, -/
def bodyPre0 (c : Dev nD) (t : Fin cfg0.N) : sProp 𝕄 :=
  iprop((dat0 V O c).Φ t.castSucc ∗ (dat0 V O c).owesAt (none : HIx 1) t.castSucc
    ∗ (∃ d, owns (c : Thread nD τ) (st0_0 t) fullShare ((dat0 V O c).before 0 t d))
    ∗ (∃ d, owns (c : Thread nD τ) (st0_1 t) fullShare ((dat0 V O c).before 1 t d))
    ∗ (∃ d, owns (c : Thread nD τ) (st0_2 t) fullShare ((dat0 V O c).before 2 t d))
    ∗ (∃ d, owns (c : Thread nD τ) (st0_3 t) fullShare ((dat0 V O c).before 3 t d))
    ∗ (∃ d, owns (c : Thread nD τ) (st0_4 t) fullShare ((dat0 V O c).before 4 t d)))

/-- and what it returns: every buffer described on the part its window's transfers move. -/
def bodyPost0 (c : Dev nD) (t : Fin cfg0.N) : sProp 𝕄 :=
  iprop((dat0 V O c).Φ t.succ ∗ (dat0 V O c).owesAt (none : HIx 1) t.succ
    ∗ (∃ d, owns (c : Thread nD τ) (st0_0 t) fullShare (win0_0.fill (grid0.coords t) d (win0_0.cut (grid0.coords t) ((dat0 V O c).after 0 t))))
    ∗ (∃ d, owns (c : Thread nD τ) (st0_1 t) fullShare (win0_1.fill (grid0.coords t) d (win0_1.cut (grid0.coords t) ((dat0 V O c).after 1 t))))
    ∗ (∃ d, owns (c : Thread nD τ) (st0_2 t) fullShare (win0_2.fill (grid0.coords t) d (win0_2.cut (grid0.coords t) ((dat0 V O c).after 2 t))))
    ∗ (∃ d, owns (c : Thread nD τ) (st0_3 t) fullShare (win0_3.fill (grid0.coords t) d (win0_3.cut (grid0.coords t) ((dat0 V O c).after 3 t))))
    ∗ (∃ d, owns (c : Thread nD τ) (st0_4 t) fullShare (win0_4.fill (grid0.coords t) d (win0_4.cut (grid0.coords t) ((dat0 V O c).after 4 t)))))

/-- The body at any point: the inputs' buffers hold their blocks filled out with anything, the body leaves them so and
    stores the transposes side by side, which on the rows inside the array is the repacked table's block; the
    invariant and what the core owes pass through unread. -/
theorem sound_body0 (c : Dev nD) (t : Fin cfg0.N) :
    bodyPre0 V O c t ⊢ wp frame (wpE (defs₀ (F := F)) 𝒱₀ c none) Set.univ (bodyAt0 t) (fun _ => bodyPost0 V O c t) := by
  unfold bodyPre0 bodyPost0 bodyAt0
  simp only [before0_0, before0_1, before0_2, before0_3, before0_4]
  rw [show (dat0 V O c).Φ t.succ = (dat0 V O c).Φ t.castSucc from rfl,
    show (dat0 V O c).owesAt (none : HIx 1) t.succ = (dat0 V O c).owesAt (none : HIx 1) t.castSucc from rfl,
    after0_0, after0_1, after0_2, after0_3, after0_4,
    win0_0.cut_fill, win0_1.cut_fill, win0_2.cut_fill, win0_3.cut_fill, win0_4.cut_fill]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (win0_0.fill (grid0.coords t) d0 (iblk0 V c 0 t))
    (win0_1.fill (grid0.coords t) d1 (iblk0 V c 1 t)) (win0_2.fill (grid0.coords t) d2 (iblk0 V c 2 t))
    (win0_3.fill (grid0.coords t) d3 (iblk0 V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexists d3; iexact H3
  iexists (k0_pay1 (win0_0.fill (grid0.coords t) d0 (iblk0 V c 0 t)) (win0_1.fill (grid0.coords t) d1 (iblk0 V c 1 t))
    (win0_2.fill (grid0.coords t) d2 (iblk0 V c 2 t)) (win0_3.fill (grid0.coords t) d3 (iblk0 V c 3 t)))
  rw [← cut_pay_eq V c t d0 d1 d2 d3, win0_4.fill_cut]
  iexact H4

/-- The body obligation, at every point: each of the five windows is described on the part its transfers move. -/
theorem hbody0 (c : Dev nD) : BodyObligationLoose (dat0 V O c) (defs₀ (F := F)) 𝒱₀ (none : HIx 1) Set.univ := fun t => by
  rw [bigSep_W0, bigSep_W0]
  exact sound_body0 V O c t

/-! ## The invariant in and out -/

theorem hin0 (c : Dev nD) (P : sProp 𝕄) :
    iprop((∃ r, prngReg c r) ∗ P ∗ Pipeline.scopedRest (Ix := HIx 1) (Name := ℕ) (U := UU) (Lvl := ℕ) (Val := Elt F) spec0 c)
      ⊢ (dat0 V O c).Φ 0 := by
  rw [show (dat0 V O c).Φ 0 = Φ0 c from rfl]; unfold Φ0
  iintro ⟨Hp, -, Hr⟩
  isplitl [Hr]; · iexact Hr
  iexact Hp

theorem hout0 (c : Dev nD) (t : Fin (cfg0.N + 1)) :
    (dat0 V O c).Φ t ⊢ iprop((∃ r, prngReg c r) ∗ Pipeline.scopedRest (Ix := HIx 1) (Name := ℕ) (U := UU) (Lvl := ℕ) (Val := Elt F) spec0 c) := by
  rw [show (dat0 V O c).Φ t = Φ0 c from rfl]; unfold Φ0
  iintro ⟨Hr, Hp⟩
  isplitl [Hp]; · iexact Hp
  iexact Hr

end Region

end Cert.Proof.KI

end
-- ==== Proof.LaunchMain.lean ====
/-
  The main function on a device's TensorCore, from the launch to the return, under the SparseCore launch rule: four
  host transposes, the first kernel region, the SparseCore call, the weight slices and reshapes, the second kernel
  region, the closing reshape. Each step takes the buffers' contents from one boundary valuation to the next.
-/
import proofs.«212231_g88622355185883_cont_sun_m_1073_38_alg».proof.Proof.LaunchRegions
import proofs.«212231_g88622355185883_cont_sun_m_1073_38_alg».proof.Proof.RepackBody
import proofs.«212231_g88622355185883_cont_sun_m_1073_38_alg».proof.Proof.MlpDat

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 1) (Elt F) ℕ UU ℕ
/-- The body table the launch rule runs the program under. -/
abbrev DD : Defs nD τ sig (Elt F) (SparseCore.Sig (ΛP (F := F)) 1) := (K (F := F)).defs (D (F := F))

/-! ## The main function as host stretches, region calls and the SparseCore call -/

theorem main_eq (d : Dev nD) : main (F := F) d =
    (StableHlo.seq hostA >>= fun _ =>
      Prog.lift (.customCall (SparseCore.inner (Pipeline.entry 0)) ()) >>= fun _ =>
      (K (F := F)).run d 0 >>= fun _ =>
      StableHlo.seq hostB >>= fun _ =>
      Prog.lift (.customCall (SparseCore.inner (Pipeline.entry 1)) ()) >>= fun _ =>
      StableHlo.seq hostC >>= fun _ => pure ⟨⟩) := by
  simp only [main, StableHlo.seq, bind_assoc, pure_bind]

variable (m : (ℓ : Loc nD τ sig) → Buf (Elt F) ℓ)

/-! ## The regions' entry and exit states, spelt out -/

theorem reg0_pre (hb0 : ∀ c, Pipeline.BodyObligationLoose (dat0 (V1 m) (O0 (F := F)) c) (defs₀ (F := F)) 𝒱₀ (none : HIx 1) Set.univ) (d : Dev nD) :
    (reg0 m hb0).pre d = iprop(held (d.tc : Thread nD τ) (Pipeline.ucRefs τ sig) (W1 m d) ∗ Rst (O0 (F := F)) d) := rfl
theorem reg0_post (hb0 : ∀ c, Pipeline.BodyObligationLoose (dat0 (V1 m) (O0 (F := F)) c) (defs₀ (F := F)) 𝒱₀ (none : HIx 1) Set.univ) (d : Dev nD) :
    (reg0 m hb0).post d = iprop(held (d.tc : Thread nD τ) (Pipeline.ucRefs τ sig) (W2 m d) ∗ Rst (O0 (F := F)) d) := rfl
theorem reg2_pre (hb2 : ∀ c, Pipeline.BodyObligationLoose (dat2 (V4 m) (O2 (F := F)) c) (defs₀ (F := F)) 𝒱₀ (none : HIx 1) Set.univ) (d : Dev nD) :
    (reg2 m hb2).pre d = iprop(held (d.tc : Thread nD τ) (Pipeline.ucRefs τ sig) (W4 m d) ∗ Rst' (O2 (F := F)) d) := rfl
theorem reg2_post (hb2 : ∀ c, Pipeline.BodyObligationLoose (dat2 (V4 m) (O2 (F := F)) c) (defs₀ (F := F)) 𝒱₀ (none : HIx 1) Set.univ) (d : Dev nD) :
    (reg2 m hb2).post d = iprop(held (d.tc : Thread nD τ) (Pipeline.ucRefs τ sig) (W5 m d) ∗ Rst' (O2 (F := F)) d) := rfl

/-! ## A kernel region's step under the SparseCore body table -/

-- the region rule is stated over the pinned configuration and the TensorCore thread spelt `c.tc`
set_option backward.isDefEq.respectTransparency.types false in
set_option maxHeartbeats 800000 in
/-- The first region: from the boundary, every unscoped buffer at the contents after the transposes, the generator
    register, the core's debt and the first pipeline's ghost state, the region's call runs to the boundary and the
    buffers at the region's exit contents, the rest unchanged. -/
theorem regStep0 [∀ e, Nonempty (Elt F e)] (hb0 : ∀ c, Pipeline.BodyObligationLoose (dat0 (V1 m) (O0 (F := F)) c) (defs₀ (F := F)) 𝒱₀ (none : HIx 1) Set.univ)
    (d : Dev nD) {α : Type} (k : PUnit → Prog (TpuEff nD τ sig (Elt F) (SparseCore.Sig (ΛP (F := F)) 1) .tc) α) (Φ : α → sProp 𝕄) :
    iprop(boundary (d.tc : Thread nD τ) ∗ (held (d.tc : Thread nD τ) (Pipeline.ucRefs τ sig) (W1 m d) ∗ Rst (O0 (F := F)) d) ∗ levAts (KL (F := F)) (Klev (F := F))
        ∗ Pipeline.cellsGhost (pinned (F := F)) (EP (F := F)) 0 d ∗ Pipeline.toksInit (pinned (F := F)) (EP (F := F)) 0 d
        ∗ (iprop(boundary (d.tc : Thread nD τ) ∗ (held (d.tc : Thread nD τ) (Pipeline.ucRefs τ sig) (W2 m d) ∗ Rst (O0 (F := F)) d)) -∗ wp frame (wpE (DD (F := F)) 𝒱 (d.tc : Thread nD τ) none) Set.univ (k ⟨⟩) Φ))
      ⊢ wp frame (wpE (DD (F := F)) 𝒱 (d.tc : Thread nD τ) none) Set.univ
          (Prog.lift (.customCall (SparseCore.inner (Pipeline.entry 0)) ()) >>= k) Φ := by
  rw [← reg0_pre m hb0 d, ← reg0_post m hb0 d, wp_bind]
  iintro ⟨Hb, Hpre, Hlev, Hg, Ht, Hk⟩
  iapply ((K (F := F)).wp_liftProg (D (F := F)) 𝒱 (d.tc : Thread nD τ) Set.univ none
    (Prog.lift (.customCall (Pipeline.entry (0 : Fin 2)) ())) _)
  iapply (Pipeline.RegionSeg.wp (pcfgs (F := F)) adm (pdats m) (none : HIx 1) cellOf_inj (EP (F := F)) defs₀ 𝒱₀ (KL (F := F)) (Klev (F := F))
    (reg0 m hb0) d none (by intro u hu; cases hu) Prog.ret _) $$ [Hb Hpre Hlev Hg Ht Hk]
  isplitl [Hk]
  · iintro H
    rw [wp_ret]; imodintro
    iapply Hk; iexact H
  isplitl [Hb]; · iexact Hb
  isplitl [Hpre]; · iexact Hpre
  isplitl [Hlev]; · iexact Hlev
  isplitl [Hg]; · iexact Hg
  iexact Ht

-- as above
set_option backward.isDefEq.respectTransparency.types false in
set_option maxHeartbeats 800000 in
/-- The second region, the same way. -/
theorem regStep2 [∀ e, Nonempty (Elt F e)] (hb2 : ∀ c, Pipeline.BodyObligationLoose (dat2 (V4 m) (O2 (F := F)) c) (defs₀ (F := F)) 𝒱₀ (none : HIx 1) Set.univ)
    (d : Dev nD) {α : Type} (k : PUnit → Prog (TpuEff nD τ sig (Elt F) (SparseCore.Sig (ΛP (F := F)) 1) .tc) α) (Φ : α → sProp 𝕄) :
    iprop(boundary (d.tc : Thread nD τ) ∗ (held (d.tc : Thread nD τ) (Pipeline.ucRefs τ sig) (W4 m d) ∗ Rst' (O2 (F := F)) d) ∗ levAts (KL (F := F)) (Klev (F := F))
        ∗ Pipeline.cellsGhost (pinned (F := F)) (EP (F := F)) 1 d ∗ Pipeline.toksInit (pinned (F := F)) (EP (F := F)) 1 d
        ∗ (iprop(boundary (d.tc : Thread nD τ) ∗ (held (d.tc : Thread nD τ) (Pipeline.ucRefs τ sig) (W5 m d) ∗ Rst' (O2 (F := F)) d)) -∗ wp frame (wpE (DD (F := F)) 𝒱 (d.tc : Thread nD τ) none) Set.univ (k ⟨⟩) Φ))
      ⊢ wp frame (wpE (DD (F := F)) 𝒱 (d.tc : Thread nD τ) none) Set.univ
          (Prog.lift (.customCall (SparseCore.inner (Pipeline.entry 1)) ()) >>= k) Φ := by
  rw [← reg2_pre m hb2 d, ← reg2_post m hb2 d, wp_bind]
  iintro ⟨Hb, Hpre, Hlev, Hg, Ht, Hk⟩
  iapply ((K (F := F)).wp_liftProg (D (F := F)) 𝒱 (d.tc : Thread nD τ) Set.univ none
    (Prog.lift (.customCall (Pipeline.entry (1 : Fin 2)) ())) _)
  iapply (Pipeline.RegionSeg.wp (pcfgs (F := F)) adm (pdats m) (none : HIx 1) cellOf_inj (EP (F := F)) defs₀ 𝒱₀ (KL (F := F)) (Klev (F := F))
    (reg2 m hb2) d none (by intro u hu; cases hu) Prog.ret _) $$ [Hb Hpre Hlev Hg Ht Hk]
  isplitl [Hk]
  · iintro H
    rw [wp_ret]; imodintro
    iapply Hk; iexact H
  isplitl [Hb]; · iexact Hb
  isplitl [Hpre]; · iexact Hpre
  isplitl [Hlev]; · iexact Hlev
  isplitl [Hg]; · iexact Hg
  iexact Ht

/-! ## The five buffers the SparseCore call takes and gives back -/

abbrev r_u : DevRef τ sig := Proc.devRef .tc (main_arg0 : Ref sig .tc)
abbrev r_i : DevRef τ sig := Proc.devRef .tc (main_arg1 : Ref sig .tc)
abbrev r_t : DevRef τ sig := Proc.devRef .tc (main_v4 : Ref sig .tc)
abbrev r_ou : DevRef τ sig := Proc.devRef .tc (main_v5_0 : Ref sig .tc)
abbrev r_oi : DevRef τ sig := Proc.devRef .tc (main_v5_1 : Ref sig .tc)
abbrev S5 : Finset (DevRef τ sig) := {r_u, r_i, r_t, r_ou, r_oi}
theorem S5_sub : S5 ⊆ Pipeline.ucRefs τ sig := by decide

omit [FloatOps F] in
theorem held_S5 (d : Dev nD) (W : Valuation τ sig (Elt F)) :
    (held (T d) S5 W : sProp 𝕄) = iprop((uLoc d ↦{fullShare} W r_u) ∗ (iLoc d ↦{fullShare} W r_i) ∗ (tLoc d ↦{fullShare} W r_t)
      ∗ (ouLoc d ↦{fullShare} W r_ou) ∗ (oiLoc d ↦{fullShare} W r_oi)) := by
  unfold held S5
  rw [SparseCore.bigSep_insert' (by decide), SparseCore.bigSep_insert' (by decide), SparseCore.bigSep_insert' (by decide),
    SparseCore.bigSep_insert' (by decide), bigSep_singleton]

/-- The transposes write none of the index arrays, and region one none of them either. -/
theorem W2_u (d : Dev nD) : W2 m d r_u = m (uLoc d) :=
  (W2_of_ne m d main_arg0 (by decide)).trans (StableHlo.after_of_forall_not_mem (b := r_u) _ _ (List.forall_iff_forall_mem.mp (by
    simp only [hostA, List.Forall, StableHlo.unary_writes, Finset.mem_singleton]
    repeat' apply And.intro
    all_goals exact StableHlo.devRef_ne_of_ne (by decide))))
theorem W2_i (d : Dev nD) : W2 m d r_i = m (iLoc d) :=
  (W2_of_ne m d main_arg1 (by decide)).trans (StableHlo.after_of_forall_not_mem (b := r_i) _ _ (List.forall_iff_forall_mem.mp (by
    simp only [hostA, List.Forall, StableHlo.unary_writes, Finset.mem_singleton]
    repeat' apply And.intro
    all_goals exact StableHlo.devRef_ne_of_ne (by decide))))

theorem W3_u (d : Dev nD) : W3 m d r_u = m (uLoc d) := by
  unfold W3; rw [Function.update_of_ne (show r_u ≠ r_oi by decide), Function.update_of_ne (show r_u ≠ r_ou by decide)]; exact W2_u m d
theorem W3_i (d : Dev nD) : W3 m d r_i = m (iLoc d) := by
  unfold W3; rw [Function.update_of_ne (show r_i ≠ r_oi by decide), Function.update_of_ne (show r_i ≠ r_ou by decide)]; exact W2_i m d
theorem W3_t (d : Dev nD) : W3 m d r_t = Tv m d := by
  unfold W3; rw [Function.update_of_ne (show r_t ≠ r_oi by decide), Function.update_of_ne (show r_t ≠ r_ou by decide)]
theorem W3_ou (d : Dev nD) : W3 m d r_ou = gU m (Tv m) d := by
  unfold W3; rw [Function.update_of_ne (show r_ou ≠ r_oi by decide), Function.update_self]
theorem W3_oi (d : Dev nD) : W3 m d r_oi = gI m (Tv m) d := by
  unfold W3; rw [Function.update_self]
theorem W3_rest (d : Dev nD) : ∀ b ∈ Pipeline.ucRefs τ sig \ S5, W2 m d b = W3 m d b := by
  intro b hb
  have hb' := (Finset.mem_sdiff.mp hb).2
  have h1 : b ≠ r_oi := fun e => hb' (by rw [e]; decide)
  have h2 : b ≠ r_ou := fun e => hb' (by rw [e]; decide)
  unfold W3; rw [Function.update_of_ne h1, Function.update_of_ne h2]

/-! ## The SparseCore call -/

/-- The payloads of the launch handshakes, at the table region one leaves. -/
abbrev Pm : (K (F := F)).Pay (nD := nD) (Val := Elt F) (Name := ℕ) (U := UU) := P m (Tv m)

/-- The call: the two index arrays, the table and the two result arrays go to the SparseCores and come back, the
    result arrays holding the rows of the table the index words name. -/
theorem scStep (κ : GSem nD τ sig → ℕ) (d : Dev nD) {α : Type}
    (k : PUnit → Prog (TpuEff nD τ sig (Elt F) (SparseCore.Sig (ΛP (F := F)) 1) .tc) α) (Φ : α → sProp 𝕄) :
    iprop((K (F := F)).ctx EH (Pm m) κ ∗ (K (F := F)).tcSt EH d 0 ∗ held (T d) (Pipeline.ucRefs τ sig) (W2 m d)
        ∗ (iprop((K (F := F)).tcSt EH d 1 ∗ held (T d) (Pipeline.ucRefs τ sig) (W3 m d))
            -∗ wp frame (wpE (DD (F := F)) 𝒱 (T d) none) Set.univ (k ⟨⟩) Φ))
      ⊢ wp frame (wpE (DD (F := F)) 𝒱 (T d) none) Set.univ ((K (F := F)).run d 0 >>= k) Φ := by
  rw [wp_bind, StableHlo.held_sub_split (T d) S5_sub (W2 m d), held_S5, W2_u, W2_i]
  iintro ⟨#Hctx, Hst, ⟨⟨Hu, Hi, Ht, Hou, Hoi⟩, Hrest⟩, Hk⟩
  iapply ((K (F := F)).wp_run (D (F := F)) 𝒱 (EH := EH) (P := Pm m) κ d 0) $$ [Hst Hu Hi Ht Hou Hoi Hrest Hk]
  isplitr; · iexact Hctx
  isplitl [Hst]; · iexact Hst
  isplitl [Hu Hi Ht Hou Hoi]
  · iapply (st0_intro m (Tv m) d)
    isplitl [Hu]; · iexact Hu
    isplitl [Hi]; · iexact Hi
    isplitl [Ht]; · iexact Ht
    isplitl [Hou]; · iexists _; iexact Hou
    iexists _; iexact Hoi
  iintro ⟨Hst, Hdn⟩
  ihave H := (dn0_elim m (Tv m) d) $$ Hdn
  icases H with ⟨Hu, Hi, Ht, Hou, Hoi⟩
  iapply Hk
  isplitl [Hst]; · iexact Hst
  rw [StableHlo.held_sub_split (T d) S5_sub (W3 m d), held_S5, W3_u, W3_i, W3_t, W3_ou, W3_oi,
    ← StableHlo.held_congr (T d) (W3_rest m d)]
  isplitr [Hrest]
  · isplitl [Hu]; · iexact Hu
    isplitl [Hi]; · iexact Hi
    isplitl [Ht]; · iexact Ht
    isplitl [Hou]; · iexact Hou
    iexact Hoi
  iexact Hrest

/-! ## The whole main function -/

variable (ρ : Dev nD → PrngReg)

/-- What the main function leaves: every unscoped buffer at the last boundary's contents. -/
abbrev FIN (d : Dev nD) : sProp 𝕄 := held (T d) (Pipeline.ucRefs τ sig) (W6 m d)

/-- What a TensorCore owes the launch handshakes before call `n`, its recorded wait pairs bounded. -/
abbrev Debt (d : Dev nD) (n : ℕ) : sProp 𝕄 :=
  iprop(∃ W, ⌜(K (F := F)).WBelow (SparseCore.T d) W (8 * n)⌝ ∗ owes (SparseCore.T d) ((K (F := F)).Otc d n) W)

omit [FloatOps F] in
/-- A TensorCore's handshake state before call `n` is that debt beside the rest. -/
theorem tcSt_split (d : Dev nD) (n : ℕ) : ∃ B : sProp 𝕄, (K (F := F)).tcSt (EH (F := F)) d n = iprop(Debt (F := F) d n ∗ B) := ⟨_, rfl⟩

omit [FloatOps F] in
/-- Before the first call every recorded pair is at the index of a kernel's own waits, -/
theorem below_zero {d : Dev nD} {W : Waits sig (HIx 1)} (h : (K (F := F)).WBelow (SparseCore.T d) W (8 * 0)) : ∀ p ∈ W, p.2 = (none : HIx 1) := by
  intro p hp
  have h1 := h p hp
  cases hq : p.2 with
  | none => rfl
  | some q => rw [hq] at h1; have := (K (F := F)).lev_some_pos (SparseCore.T d, p.1) q; omega
omit [FloatOps F] in
/-- and conversely; -/
theorem below_of_none {d : Dev nD} {W : Waits sig (HIx 1)} (h : ∀ p ∈ W, p.2 = (none : HIx 1)) : (K (F := F)).WBelow (SparseCore.T d) W (8 * 0) := by
  intro p hp; rw [h p hp, SparseCore.Cfg.lev_none]
omit [FloatOps F] in
/-- after the only call every pair is low enough, whatever it is. -/
theorem below_one {d : Dev nD} (W : Waits sig (HIx 1)) : (K (F := F)).WBelow (SparseCore.T d) W (8 * 1) := by
  intro p hp
  cases hq : p.2 with
  | none => rw [SparseCore.Cfg.lev_none]; omega
  | some q => have h1 := (K (F := F)).lev_some_le (SparseCore.T d, p.1) q; have h2 := q.isLt; omega

-- the steps are stated at the TensorCore thread spelt `d.tc`, the launch rule spells it `T d`
set_option backward.isDefEq.respectTransparency.types false in
set_option maxHeartbeats 4000000 in
/-- The main function on device `d`'s TensorCore, from what the launch deals it to the buffers at the last boundary. -/
theorem hmain [∀ e, Nonempty (Elt F e)]
    (hb0 : ∀ c, Pipeline.BodyObligationLoose (dat0 (V1 m) (O0 (F := F)) c) (defs₀ (F := F)) 𝒱₀ (none : HIx 1) Set.univ)
    (hb2 : ∀ c, Pipeline.BodyObligationLoose (dat2 (V4 m) (O2 (F := F)) c) (defs₀ (F := F)) 𝒱₀ (none : HIx 1) Set.univ)
    (κ : GSem nD τ sig → ℕ) (d : Dev nD) :
    iprop((K (F := F)).ctx EH (Pm m) κ ∗ (K (F := F)).tcSt EH d 0 ∗ (K (F := F)).tcRes m ρ d ∗ G d)
      ⊢ wp frame (wpE (DD (F := F)) 𝒱 (SparseCore.T d) none) Set.univ (main d)
          fun _ => iprop((K (F := F)).tcSt EH d 1 ∗ FIN m d) := by
  obtain ⟨B0, hB0⟩ := tcSt_split (F := F) d 0
  obtain ⟨B1, hB1⟩ := tcSt_split (F := F) d 1
  have open0 : (K (F := F)).tcSt (EH (F := F)) d 0 ⊢ iprop(Debt (F := F) d 0 ∗ B0) := Entails.of_eq hB0
  have fold0 : iprop(Debt (F := F) d 0 ∗ B0) ⊢ (K (F := F)).tcSt (EH (F := F)) d 0 := Entails.of_eq hB0.symm
  have open1 : (K (F := F)).tcSt (EH (F := F)) d 1 ⊢ iprop(Debt (F := F) d 1 ∗ B1) := Entails.of_eq hB1
  have fold1 : iprop(Debt (F := F) d 1 ∗ B1) ⊢ (K (F := F)).tcSt (EH (F := F)) d 1 := Entails.of_eq hB1.symm
  unfold SparseCore.Cfg.tcRes G
  rw [show unscopedBufs d (fun b => m ((SparseCore.T d).loc b)) = held (d.tc : Thread nD τ) (Pipeline.ucRefs τ sig) (W0 m d)
        from Pipeline.unscopedBufs_held d (W0 m d),
    main_eq, show (Finset.univ : Finset (Fin 2)) = {0, 1} by decide, SparseCore.bigSep_insert' (by decide), bigSep_singleton]
  iintro ⟨#Hctx, Hst, ⟨Hb, Hheld, -, Hprng⟩, ⟨Hg0, Ht0⟩, ⟨Hg1, Ht1⟩⟩
  ihave #Hlev := (SparseCore.Cfg.ctx_levAts κ) $$ Hctx
  -- the transposes
  iapply (StableHlo.wp_seq (defs := DD (F := F)) 𝒱 none Set.univ d (Pipeline.ucRefs τ sig) _ hostA
      (fun op h => Pipeline.sub_ucRefs op ((List.forall_iff_forall_mem.mp hostA_sub) op h))
      (fun op h => (List.forall_iff_forall_mem.mp hostA_fresh) op h) (W0 m d)) $$ [Hb Hheld]
  · isplitl [Hb] <;> iassumption
  iintro ⟨Hb, Hheld⟩
  -- region one: the debt out of the handshake state, through the region, and back
  ihave Hst' := open0 $$ Hst
  icases Hst' with ⟨⟨%Wa, %hWa, HO⟩, HB0⟩
  iapply (regStep0 m hb0 d _ _) $$ [Hb Hheld Hprng HO Hg0 Ht0 HB0 Hg1 Ht1]
  isplitl [Hb]; · iexact Hb
  isplitl [Hheld Hprng HO]
  · isplitl [Hheld]; · iexact Hheld
    isplitl [Hprng]; · iexists _; iexact Hprng
    iexists Wa; isplitr; · ipureintro; exact below_zero hWa
    iexact HO
  isplitr; · iexact Hlev
  isplitl [Hg0]; · iexact Hg0
  isplitl [Ht0]; · iexact Ht0
  iintro ⟨Hb, Hheld, ⟨%r1, Hprng⟩, %Wb, %hWb, HO⟩
  -- the SparseCore call
  iapply (scStep m κ d _ _) $$ [Hheld HO HB0 Hb Hprng Hg1 Ht1]
  isplitr; · iexact Hctx
  isplitl [HO HB0]
  · iapply fold0
    isplitr [HB0]
    · iexists Wb; isplitr; · ipureintro; exact below_of_none hWb
      iexact HO
    iexact HB0
  isplitl [Hheld]; · iexact Hheld
  iintro ⟨Hst, Hheld⟩
  -- the slices and reshapes of the weights
  iapply (StableHlo.wp_seq (defs := DD (F := F)) 𝒱 none Set.univ d (Pipeline.ucRefs τ sig) _ hostB
      (fun op h => Pipeline.sub_ucRefs op ((List.forall_iff_forall_mem.mp hostB_sub) op h))
      (fun op h => (List.forall_iff_forall_mem.mp hostB_fresh) op h) (W3 m d)) $$ [Hb Hheld]
  · isplitl [Hb] <;> iassumption
  iintro ⟨Hb, Hheld⟩
  -- region two
  ihave Hst' := open1 $$ Hst
  icases Hst' with ⟨⟨%Wc, %hWc, HO⟩, HB1⟩
  iapply (regStep2 m hb2 d _ _) $$ [Hb Hheld Hprng HO Hg1 Ht1 HB1]
  isplitl [Hb]; · iexact Hb
  isplitl [Hheld Hprng HO]
  · isplitl [Hheld]; · iexact Hheld
    isplitl [Hprng]; · iexists _; iexact Hprng
    iexists Wc; iexact HO
  isplitr; · iexact Hlev
  isplitl [Hg1]; · iexact Hg1
  isplitl [Ht1]; · iexact Ht1
  iintro ⟨Hb, Hheld, ⟨%r2, Hprng⟩, %Wd, HO⟩
  -- the closing reshape
  iapply (StableHlo.wp_seq (defs := DD (F := F)) 𝒱 none Set.univ d (Pipeline.ucRefs τ sig) _ hostC
      (fun op h => Pipeline.sub_ucRefs op ((List.forall_iff_forall_mem.mp hostC_sub) op h))
      (fun op h => (List.forall_iff_forall_mem.mp hostC_fresh) op h) (W5 m d)) $$ [Hb Hheld]
  · isplitl [Hb] <;> iassumption
  iintro ⟨Hb, Hheld⟩
  rw [wp_pure]; imodintro
  isplitr [Hheld]
  · iapply fold1
    isplitr [HB1]
    · iexists Wd; isplitr; · ipureintro; exact below_one Wd
      iexact HO
    iexact HB1
  iexact Hheld

/-! ## Reading the last boundary off a final state -/

/-- Every unscoped buffer of the TensorCore holds the last boundary's contents. -/
def fq (d : Dev nD) (s' : Phys nD τ sig (Elt F)) : Prop :=
  ∀ b ∈ Pipeline.ucRefs τ sig, s'.mem.mem ((d.tc : Thread nD τ).1, b) = W6 m d b

set_option maxHeartbeats 1000000 in
theorem hfin (d : Dev nD) (s' : Phys nD τ sig (Elt F)) : iprop(FIN m d ∗ SI s') ⊢ (⌜fq m d s'⌝ : sProp 𝕄) := by
  iintro ⟨Hh, HSI⟩
  unfold FIN StableHlo.held
  ihave H := (pointsTo_read_all (Pipeline.ucRefs τ sig) (fun b => ((d.tc : Thread nD τ).1, b)) (W6 m d) s') $$ [Hh HSI]
  · isplitl [Hh] <;> iassumption
  icases H with ⟨%hq, -⟩
  ipureintro; exact hq

end Cert.Proof.KI

end
-- ==== Proof.PreIdx.lean ====
/-
  The index ranges out of the precondition. The precondition is one conjunction (a chain of one-bit "and"s) whose
  last two conjuncts say, for the user indices and for the item indices, that every index word lies between 0 and
  999999 read signed. A conjunction that is 1 has both sides 1; an "and"-reduction over a whole array that is 1
  had a 1 at every element; a signed comparison word that is 1 is the comparison of the signed readings; and a
  word whose signed reading is nonnegative reads the same unsigned.
-/
import proofs.«212231_g88622355185883_cont_sun_m_1073_38_alg».proof.Pre_input_domain
import Idealize.ShloMosaic.Lib.ReduceAll
import Idealize.ShloMosaic.Lib.ValueIdx

noncomputable section

namespace Cert.Proof.Ref

open Idealize.ShloMosaic Cert.Pre_input_domain Cert.Pre_input_domain.Facts

/-- A word between 0 and 999999 read signed is nonnegative and, read unsigned, below 1000000. -/
theorem word_range (w : BitVec 32) (h0 : IntOp.cmpi .sge w 0#32 = 1#1) (h1 : IntOp.cmpi .sle w 999999#32 = 1#1) :
    0 ≤ w.toInt ∧ w.toNat < 1000000 := by
  rw [IntOp.cmpi_sge] at h0
  rw [IntOp.cmpi_sle] at h1
  have z : (0#32 : BitVec 32).toInt = 0 := by decide
  have k : (999999#32 : BitVec 32).toInt = 999999 := by decide
  rw [z] at h0
  rw [k] at h1
  have hnn : 2 * w.toNat < 2 ^ 32 := BitVec.toInt_pos_iff.mp h0
  have e : w.toInt = w.toNat := BitVec.toInt_eq_toNat_of_lt hnn
  exact ⟨h0, by omega⟩

/-- THE PRECONDITION DECODED: every user index and every item index names a row of its table. -/
theorem idx_range {F : FTy → Type} [FloatOps F] [Cert.Pre_input_domain.Facts]
    (a0 a1 : IVec S16384 32) (a2 a3 a4 a5 : FVec F S1000000x32 .f32) (a6 : FVec F S64x128 .f32) (a7 : FVec F S128 .f32)
    (a8 : FVec F S128x64 .f32) (a9 : FVec F S64 .f32) (a10 : FVec F S64x32 .f32) (a11 : FVec F S32 .f32)
    (a12 : FVec F S64x1 .f32) (a13 : FVec F S1 .f32)
    (h : Cert.Pre_input_domain.fn (F := F) a0 a1 a2 a3 a4 a5 a6 a7 a8 a9 a10 a11 a12 a13 = fun _ => 1#1) :
    (∀ j, 0 ≤ (a0 j).toInt ∧ (a0 j).toNat < 1000000) ∧ (∀ j, 0 ≤ (a1 j).toInt ∧ (a1 j).toNat < 1000000) := by
  haveI : Subsingleton S_.Idx := ⟨fun a b => funext fun d => d.elim0⟩
  have e := congrFun h ValueIdx.ix0
  unfold Cert.Pre_input_domain.fn Cert.Pre_input_domain.fn_part1 Cert.Pre_input_domain.fn_part2
    Cert.Pre_input_domain.fn_part3 Cert.Pre_input_domain.fn_part4 at e
  dsimp only at e
  obtain ⟨e1, hI⟩ := IntOp.andi_eq_one.1 e
  obtain ⟨-, hU⟩ := IntOp.andi_eq_one.1 e1
  refine ⟨fun j => ?_, fun j => ?_⟩
  · have hj := IntOp.andi_eq_one.1 (Host.reduce_andi_all _ _ _ _ _ hU j)
    exact word_range (a0 j) hj.1 hj.2
  · have hj := IntOp.andi_eq_one.1 (Host.reduce_andi_all _ _ _ _ _ hI j)
    exact word_range (a1 j) hj.1 hj.2

end Cert.Proof.Ref

end
-- ==== Proof.RunKI.lean ====
/-
  The whole program's run under the SparseCore launch rule: from any memory whose index words name rows of the
  tables, every weakly fair execution of the thirty-five threads terminates, and every unscoped buffer of every
  TensorCore ends at the last boundary's contents. And the index ranges out of the stated precondition.
-/
import proofs.«212231_g88622355185883_cont_sun_m_1073_38_alg».proof.Proof.LaunchMain
import proofs.«212231_g88622355185883_cont_sun_m_1073_38_alg».proof.Proof.PreIdx
import Idealize.ShloMosaic.Lib.SparseCore.Launch

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 1) (Elt F) ℕ UU ℕ

/-! ## The index ranges out of the precondition -/

/-- The stated precondition, all ones on every device, says every index word names a row of the table. -/
theorem idxOK_of_pre (m : (ℓ : Loc nD τ sig) → Buf (Elt F) ℓ)
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      = fun _ => 1#1) : IdxOK m := fun d =>
  have r := Cert.Proof.Ref.idx_range (F := F) _ _ _ _ _ _ _ _ _ _ _ _ _ _ (h d)
  ⟨fun j => (r.1 j).2, fun j => (r.2 j).2⟩

/-! ## The run -/

section Run
variable (m : (ℓ : Loc nD τ sig) → Buf (Elt F) ℓ) (ρ : Dev nD → PrngReg)
-- the row-gathering task's obligation
variable (htile : (K (F := F)).TileObl (D (F := F)) 𝒱 (Pm m) v₀ 0)

include htile in
/-- From the launch memory every weakly fair execution of the program terminates, nothing faulting, and every unscoped
    buffer of every TensorCore ends holding the last boundary's contents. -/
theorem run_main [∀ e, Nonempty (Elt F e)] :
    θ_run (Cert.KernelIdeal.defs (F := F)) (Cert.KernelIdeal.threads (F := F)) ⟨m, fun _ => 0, ρ⟩
      (fun r => ∀ c : Dev nD, ∀ b ∈ Pipeline.ucRefs τ sig, r.2.mem (c, b) = W6 m c b) := by
  have hs : ∀ q, (K (F := F)).kind q = .scScalar → (K (F := F)).ScalarObl (D (F := F)) 𝒱 (Pm m) v₀ q (K (F := F)).lev :=
    fun q hq => match q with | 0 => nomatch hq
  have ht : ∀ q, (K (F := F)).kind q = .scVector → (K (F := F)).TileObl (D (F := F)) 𝒱 (Pm m) v₀ q (K (F := F)).lev :=
    fun q _ => match q with | 0 => htile
  have hv : ∀ q, (K (F := F)).kind q = .scVector → (K (F := F)).VecSplit (Pm m) q :=
    fun q _ => match q with | 0 => SparseCore.Cfg.VecSplit.of_plain (vecSplit m (Tv m))
  have hu := (sep_elim_left (Q := iprop((Pm m).oxCred ∗ (K (F := F)).freeSems0))).trans (hu₀ (F := F) (Pm m) fun _ _ => rfl)
  have hQ : ∀ s' : Phys nD τ sig (Elt F), (∀ d, fq m d s') →
      (fun r : PUnit.{1} × MemSt nD τ sig (Elt F) => ∀ c : Dev nD, ∀ b ∈ Pipeline.ucRefs τ sig, r.2.mem (c, b) = W6 m c b) (⟨⟩, s'.mem) :=
    fun s h c b hb => h c b hb
  -- each of the launch rule's premises is handed over in the spelling the rule states it in
  refine SparseCore.Cfg.θ_run_sc (K := K (F := F)) (D := D (F := F)) (𝒱 := 𝒱) (EH := EH) (P := Pm m) (lv := (K (F := F)).lev) facts v₀
    hs ht hv m ρ main G (FIN m) (u₀ (F := F)) ?hu ?hm (fq m) ?hf _ ?hQ rfl (SparseCore.Cfg.refines_self _)
  case hu => with_reducible exact hu
  case hm => intro κ d; with_reducible exact hmain m ρ (fun c => hbody0 (V1 m) (O0 (F := F)) c) (fun c => hbody2 (V4 m) (O2 (F := F)) c) κ d
  case hf => with_reducible exact hfin m
  case hQ => with_reducible exact hQ

end Run

end Cert.Proof.KI

end
-- ==== Proof.RepackValue.lean ====
import proofs.«212231_g88622355185883_cont_sun_m_1073_38_alg».proof.Proof.RepackDefs

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2 eq_ix2)

variable {F : FTy → Type} [FloatOps F]

/-! ## From the blocks to the whole table

Each grid point writes back, onto rows `4096 t ‥` of the result (cut at the millionth row), the block of the repacked
table there; the 245 blocks cover every row, so the result ends holding the repacked table. The four input tables
are never written. -/

section Region
variable (V : (c : Dev nD) → (b : Ref sig .tc) → Buf (Elt F) ((c.tc : Thread nD τ).loc b))
variable (O : Dev nD → CellTallies nD τ sig (HIx 1))

/-- What point `t` writes back is its block of the repacked table. -/
theorem flushed0_4 (c : Dev nD) (t : Fin cfg0.N) :
    (dat0 V O c).flushed 4 t = ((cfg0.win 4).blk t).view.read (Elt F) (rep0 V c) := by
  show (cfg0.win 4).cut (grid0.coords t) ((dat0 V O c).after 4 t) = _
  rw [show (dat0 V O c).after 4 t = win0_4.fill (grid0.coords t) (fun _ => zf) ((win0_4.blk t).view.read (Elt F) (rep0 V c)) from by
    dsimp only [dat0]]
  exact win0_4.cut_fill _ _ _

/-- An index of the result is in point `t`'s block iff each coordinate is in the block's range, cut at the array's end. -/
theorem mem_blk0_4 (t : Fin cfg0.N) (i : S1000000x128.Idx) :
    i ∈ ((cfg0.win 4).blk t).view.set ↔ ∀ a : Fin 2, win0_4.index t a * S4096x128.size a ≤ (i a).val
      ∧ (i a).val < win0_4.index t a * S4096x128.size a + win0_4.xsize (grid0.coords t) a := by
  show i ∈ ((View.whole main_v4).slice (win0_4.rect t)).set ↔ _
  rw [View.set_slice_whole, Rect.mem_set_unit]
  exact Iff.rfl

/-- Row `v` is in the block of point `v / 4096`. -/
theorem cover0 (i : S1000000x128.Idx) :
    ∃ t : Fin cfg0.N, (cfg0.win 4).flush t = true ∧ i ∈ ((cfg0.win 4).blk t).view.set := by
  have hi0 : (i 0).val < 1000000 := (i 0).isLt
  have hi1 : (i 1).val < 128 := (i 1).isLt
  have ht : (i 0).val / 4096 < cfg0.N := by
    show (i 0).val / 4096 < grid0.N
    rw [N_0]; omega
  obtain ⟨t, htv⟩ : ∃ t : Fin cfg0.N, t.val = (i 0).val / 4096 := ⟨⟨_, ht⟩, rfl⟩
  refine ⟨t, flush0_4 t, ?_⟩
  obtain ⟨-, -, -, -, b0, b1, b2, b3, b4, b5, b6⟩ := idx_facts0 t
  rw [mem_blk0_4]
  intro a
  match a with
  | ⟨0, _⟩ =>
    show win0_4.index t (0 : Fin 2) * 4096 ≤ (i 0).val
      ∧ (i 0).val < win0_4.index t (0 : Fin 2) * 4096 + win0_4.xsize (grid0.coords t) (0 : Fin 2)
    rw [b0]
    by_cases hl : 4096 * (t.val + 1) ≤ 1000000
    · have := b5 hl; omega
    · have := b6 (by omega); omega
  | ⟨1, _⟩ =>
    show win0_4.index t (1 : Fin 2) * 128 ≤ (i 1).val
      ∧ (i 1).val < win0_4.index t (1 : Fin 2) * 128 + win0_4.xsize (grid0.coords t) (1 : Fin 2)
    rw [b1, b2]; omega

/-- THE RESULT after the region: the repacked table of the four tables as the region found them. -/
theorem final0 (c : Dev nD) : (dat0 V O c).arrAt 4 cfg0.N = rep0 V c :=
  (dat0 V O c).arrAt_eq_of_cover 4 (rep0 V c) (fun t _ => flushed0_4 V O c t) cover0

/-- An input table is as the region found it. -/
theorem kept0 (c : Dev nD) (w : Fin cfg0.W) (hw : (cfg0.win w).isOut = false) :
    (dat0 V O c).arrAt w cfg0.N = V c (Pipeline.arrRef spec0 w) :=
  ((dat0 V O c).arrAt_in w hw _).trans (A_eq0 V O c w)

example (c : Dev nD) : (dat0 V O c).arrAt 0 cfg0.N = V c main_v0 := kept0 V O c 0 rfl
example (c : Dev nD) : (dat0 V O c).arrAt 3 cfg0.N = V c main_v3 := kept0 V O c 3 rfl

end Region

end Cert.Proof.KI

end
-- ==== Proof.MlpFinal.lean ====
/-
  From the output window's blocks to the whole result column.

  Point t of the grid writes back rows 2048 t … 2048 t + 2047 of the result; what it writes is the body's
  column computed from rows 2048 t … of the two gathered row arrays and from the ten small operands whole.
  The eight blocks tile the [16384, 1] result, so after the last point the result is ONE function of the twelve
  input arrays: row j is row j mod 2048 of the body's column on row block j / 2048.
-/
import proofs.«212231_g88622355185883_cont_sun_m_1073_38_alg».proof.Proof.Setup
import proofs.«212231_g88622355185883_cont_sun_m_1073_38_alg».proof.Proof.MlpDat
import Idealize.ShloMosaic.Lib.Pipeline.Value
import Idealize.ShloMosaic.Lib.ValueIdx

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix2 eq_ix2)

variable {F : FTy → Type} [FloatOps F]

local notation "𝕄" => MT nD τ sig (HIx 1) (Elt F) ℕ UU ℕ

theorem hz2 : (![0, 0] : Fin 2 → Nat) = fun _ => 0 := funext fun a => by fin_cases a <;> rfl

/-! ## The body's column as one function of the twelve loaded blocks -/

/-- The stored column, from the contents of the twelve input buffers. -/
def mlpBlk (x0 : S2048x128.Idx → Elt F .f32) (x1 : S2048x128.Idx → Elt F .f32) (x2 : S32x128.Idx → Elt F .f32) (x3 : S32x128.Idx → Elt F .f32) (x4 : S1x128.Idx → Elt F .f32) (x5 : S128x64.Idx → Elt F .f32) (x6 : S1x64.Idx → Elt F .f32) (x7 : S64x32.Idx → Elt F .f32) (x8 : S1x32.Idx → Elt F .f32) (x9 : S1x32.Idx → Elt F .f32) (x10 : S1x32.Idx → Elt F .f32) (x11 : S1x1.Idx → Elt F .f32) : S2048x1.Idx → Elt F .f32 :=
  k2_pay1 (k2_pay4 x0) (k2_pay5 x1) (k2_pay6 x0 x1 x2 x3 x4 x5 x6 x7 x8) x9 x10 x11

/-- What the body leaves in the output buffer is that column: its loads read whole buffers, its one store covers. -/
theorem out2_12_eq (x0 : S2048x128.Idx → Elt F .f32) (x1 : S2048x128.Idx → Elt F .f32) (x2 : S32x128.Idx → Elt F .f32) (x3 : S32x128.Idx → Elt F .f32) (x4 : S1x128.Idx → Elt F .f32) (x5 : S128x64.Idx → Elt F .f32) (x6 : S1x64.Idx → Elt F .f32) (x7 : S64x32.Idx → Elt F .f32) (x8 : S1x32.Idx → Elt F .f32) (x9 : S1x32.Idx → Elt F .f32) (x10 : S1x32.Idx → Elt F .f32) (x11 : S1x1.Idx → Elt F .f32) : out2_12 x0 x1 x2 x3 x4 x5 x6 x7 x8 x9 x10 x11 = mlpBlk x0 x1 x2 x3 x4 x5 x6 x7 x8 x9 x10 x11 := by
  unfold out2_12 mlpBlk
  rw [View.canon_unit_zero hz2]
  simp only [View.ld_unit_zero (S := S2048x128) hz2, View.ld_unit_zero (S := S32x128) hz2, View.ld_unit_zero (S := S1x128) hz2, View.ld_unit_zero (S := S128x64) hz2, View.ld_unit_zero (S := S1x64) hz2, View.ld_unit_zero (S := S64x32) hz2, View.ld_unit_zero (S := S1x32) hz2, View.ld_unit_zero (S := S1x1) hz2]

/-! ## The whole column -/

/-- Rows 2048 t … 2048 t + 2047 of a [16384, 128] array, as a [2048, 128] block. -/
def rowBlk (a : S16384x128.Idx → Elt F .f32) (t : Nat) : S2048x128.Idx → Elt F .f32 := fun y =>
  a (ix2 (n0 := 16384) (n1 := 128) ⟨(t * 2048 + (y 0).val) % 16384, Nat.mod_lt _ (by decide)⟩ ⟨(y 1).val, (y 1).isLt⟩)

/-- The result column as one function of the twelve input arrays: row j is row j mod 2048 of the body's column on
    row block j / 2048 of the two gathered row arrays. -/
def mlpOut (u i : S16384x128.Idx → Elt F .f32) (w1a w1b : S32x128.Idx → Elt F .f32) (b1 : S1x128.Idx → Elt F .f32) (w2 : S128x64.Idx → Elt F .f32) (b2 : S1x64.Idx → Elt F .f32) (w3 : S64x32.Idx → Elt F .f32) (b3 womf woh : S1x32.Idx → Elt F .f32) (bo : S1x1.Idx → Elt F .f32) : S16384x1.Idx → Elt F .f32 := fun j =>
  mlpBlk (rowBlk u ((j 0).val / 2048)) (rowBlk i ((j 0).val / 2048)) w1a w1b b1 w2 b2 w3 b3 womf woh bo
    (ix2 (n0 := 2048) (n1 := 1) ⟨(j 0).val % 2048, Nat.mod_lt _ (by decide)⟩ ⟨0, Nat.one_pos⟩)

/-- The body's column on row block t, read at row y, is the whole column at row 2048 t + y. -/
theorem mlpBlk_eq_mlpOut (u i : S16384x128.Idx → Elt F .f32) (w1a w1b : S32x128.Idx → Elt F .f32) (b1 : S1x128.Idx → Elt F .f32) (w2 : S128x64.Idx → Elt F .f32) (b2 : S1x64.Idx → Elt F .f32) (w3 : S64x32.Idx → Elt F .f32) (b3 womf woh : S1x32.Idx → Elt F .f32) (bo : S1x1.Idx → Elt F .f32) (t : Nat) (ht : t < 8) (x0 : S2048x128.Idx → Elt F .f32) (x1 : S2048x128.Idx → Elt F .f32) (x2 : S32x128.Idx → Elt F .f32) (x3 : S32x128.Idx → Elt F .f32) (x4 : S1x128.Idx → Elt F .f32) (x5 : S128x64.Idx → Elt F .f32) (x6 : S1x64.Idx → Elt F .f32) (x7 : S64x32.Idx → Elt F .f32) (x8 : S1x32.Idx → Elt F .f32) (x9 : S1x32.Idx → Elt F .f32) (x10 : S1x32.Idx → Elt F .f32) (x11 : S1x1.Idx → Elt F .f32)
    (h0 : x0 = rowBlk u t) (h1 : x1 = rowBlk i t) (h2 : x2 = w1a) (h3 : x3 = w1b) (h4 : x4 = b1) (h5 : x5 = w2) (h6 : x6 = b2) (h7 : x7 = w3) (h8 : x8 = b3) (h9 : x9 = womf) (h10 : x10 = woh) (h11 : x11 = bo)
    (y : S2048x1.Idx) (j : S16384x1.Idx) (hj : (j 0).val = t * 2048 + (y 0).val) :
    mlpBlk x0 x1 x2 x3 x4 x5 x6 x7 x8 x9 x10 x11 y = mlpOut u i w1a w1b b1 w2 b2 w3 b3 womf woh bo j := by
  subst h0 h1 h2 h3 h4 h5 h6 h7 h8 h9 h10 h11
  unfold mlpOut
  have hy0 : (y 0).val < 2048 := (y 0).isLt
  have hy1 : (y 1).val < 1 := (y 1).isLt
  have hq : (j 0).val / 2048 = t := by omega
  have hr : (j 0).val % 2048 = (y 0).val := by omega
  have hy : y = ix2 (n0 := 2048) (n1 := 1) ⟨(j 0).val % 2048, Nat.mod_lt _ (by decide)⟩ ⟨0, Nat.one_pos⟩ := by
    funext a; apply Fin.ext
    match a with
    | ⟨0, _⟩ => exact hr.symm
    | ⟨1, _⟩ => show (y 1).val = 0; omega
  rw [hq]
  exact congrArg _ hy

/-! ## The printed index maps, decided over the grid -/

theorem lt8 (t : Fin cfg2.N) : t.val < 8 := by have h : t.val < grid2.N := t.isLt; rw [N_2] at h; exact h

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_12 : ∀ t : Fin cfg2.N, win2_12.index t (0 : Fin 2) = t.val ∧ win2_12.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)
theorem idx2_9 : ∀ t : Fin cfg2.N, win2_9.index t (0 : Fin 2) = 0 ∧ win2_9.index t (1 : Fin 2) = 0 :=
  (by decide +kernel : ∀ t : Fin grid2.N, _)
theorem idx2_10 : ∀ t : Fin cfg2.N, win2_10.index t (0 : Fin 2) = 0 ∧ win2_10.index t (1 : Fin 2) = 0 :=
  (by decide +kernel : ∀ t : Fin grid2.N, _)
theorem idx2_11 : ∀ t : Fin cfg2.N, win2_11.index t (0 : Fin 2) = 0 ∧ win2_11.index t (1 : Fin 2) = 0 :=
  (by decide +kernel : ∀ t : Fin grid2.N, _)

section Region2

variable (V : (c : Dev nD) → (b : Ref sig .tc) → Buf (Elt F) ((c : Thread nD τ).loc b))
variable (O : Dev nD → CellTallies nD τ sig (HIx 1))

/-! ## Each input window's block, read off its array -/

/-- Window 0's block at point t is rows 2048 t … of its array. -/
theorem iblk2_0 (c : Dev nD) (t : Fin cfg2.N) : iblk2 V c 0 t = rowBlk (V c main_v5_0) t.val := by
  obtain ⟨e0, e1⟩ := idx2_0 t
  have ht := lt8 t
  funext z
  have hz0 : (z 0).val < 2048 := (z 0).isLt
  have hz1 : (z 1).val < 128 := (z 1).isLt
  show V c main_v5_0 (((cfg2.win 0).blk t).view.emb z) = V c main_v5_0 (ix2 (n0 := 16384) (n1 := 128) ⟨(t.val * 2048 + (z 0).val) % 16384, Nat.mod_lt _ (by decide)⟩ ⟨(z 1).val, (z 1).isLt⟩)
  refine congrArg _ (funext fun a => Fin.ext ?_)
  match a with
  | ⟨0, _⟩ => show win2_0.index t (0 : Fin 2) * 2048 + 1 * (z 0).val = (t.val * 2048 + (z 0).val) % 16384; omega
  | ⟨1, _⟩ => show win2_0.index t (1 : Fin 2) * 128 + 1 * (z 1).val = (z 1).val; omega
/-- Window 1's block at point t is rows 2048 t … of its array. -/
theorem iblk2_1 (c : Dev nD) (t : Fin cfg2.N) : iblk2 V c 1 t = rowBlk (V c main_v5_1) t.val := by
  obtain ⟨e0, e1⟩ := idx2_1 t
  have ht := lt8 t
  funext z
  have hz0 : (z 0).val < 2048 := (z 0).isLt
  have hz1 : (z 1).val < 128 := (z 1).isLt
  show V c main_v5_1 (((cfg2.win 1).blk t).view.emb z) = V c main_v5_1 (ix2 (n0 := 16384) (n1 := 128) ⟨(t.val * 2048 + (z 0).val) % 16384, Nat.mod_lt _ (by decide)⟩ ⟨(z 1).val, (z 1).isLt⟩)
  refine congrArg _ (funext fun a => Fin.ext ?_)
  match a with
  | ⟨0, _⟩ => show win2_1.index t (0 : Fin 2) * 2048 + 1 * (z 0).val = (t.val * 2048 + (z 0).val) % 16384; omega
  | ⟨1, _⟩ => show win2_1.index t (1 : Fin 2) * 128 + 1 * (z 1).val = (z 1).val; omega
/-- Window 2's block at every point is its whole array. -/
theorem iblk2_2 (c : Dev nD) (t : Fin cfg2.N) : iblk2 V c 2 t = V c main_v6 := by
  obtain ⟨e0, e1⟩ := idx2_2 t
  funext z
  show V c main_v6 (((cfg2.win 2).blk t).view.emb z) = V c main_v6 z
  refine congrArg _ (funext fun a => Fin.ext ?_)
  match a with
  | ⟨0, _⟩ => show win2_2.index t (0 : Fin 2) * 32 + 1 * (z 0).val = (z 0).val; omega
  | ⟨1, _⟩ => show win2_2.index t (1 : Fin 2) * 128 + 1 * (z 1).val = (z 1).val; omega
/-- Window 3's block at every point is its whole array. -/
theorem iblk2_3 (c : Dev nD) (t : Fin cfg2.N) : iblk2 V c 3 t = V c main_v7 := by
  obtain ⟨e0, e1⟩ := idx2_3 t
  funext z
  show V c main_v7 (((cfg2.win 3).blk t).view.emb z) = V c main_v7 z
  refine congrArg _ (funext fun a => Fin.ext ?_)
  match a with
  | ⟨0, _⟩ => show win2_3.index t (0 : Fin 2) * 32 + 1 * (z 0).val = (z 0).val; omega
  | ⟨1, _⟩ => show win2_3.index t (1 : Fin 2) * 128 + 1 * (z 1).val = (z 1).val; omega
/-- Window 4's block at every point is its whole array. -/
theorem iblk2_4 (c : Dev nD) (t : Fin cfg2.N) : iblk2 V c 4 t = V c main_v12 := by
  obtain ⟨e0, e1⟩ := idx2_4 t
  funext z
  show V c main_v12 (((cfg2.win 4).blk t).view.emb z) = V c main_v12 z
  refine congrArg _ (funext fun a => Fin.ext ?_)
  match a with
  | ⟨0, _⟩ => show win2_4.index t (0 : Fin 2) * 1 + 1 * (z 0).val = (z 0).val; omega
  | ⟨1, _⟩ => show win2_4.index t (1 : Fin 2) * 128 + 1 * (z 1).val = (z 1).val; omega
/-- Window 5's block at every point is its whole array. -/
theorem iblk2_5 (c : Dev nD) (t : Fin cfg2.N) : iblk2 V c 5 t = V c main_arg8 := by
  obtain ⟨e0, e1⟩ := idx2_5 t
  funext z
  show V c main_arg8 (((cfg2.win 5).blk t).view.emb z) = V c main_arg8 z
  refine congrArg _ (funext fun a => Fin.ext ?_)
  match a with
  | ⟨0, _⟩ => show win2_5.index t (0 : Fin 2) * 128 + 1 * (z 0).val = (z 0).val; omega
  | ⟨1, _⟩ => show win2_5.index t (1 : Fin 2) * 64 + 1 * (z 1).val = (z 1).val; omega
/-- Window 6's block at every point is its whole array. -/
theorem iblk2_6 (c : Dev nD) (t : Fin cfg2.N) : iblk2 V c 6 t = V c main_v13 := by
  obtain ⟨e0, e1⟩ := idx2_6 t
  funext z
  show V c main_v13 (((cfg2.win 6).blk t).view.emb z) = V c main_v13 z
  refine congrArg _ (funext fun a => Fin.ext ?_)
  match a with
  | ⟨0, _⟩ => show win2_6.index t (0 : Fin 2) * 1 + 1 * (z 0).val = (z 0).val; omega
  | ⟨1, _⟩ => show win2_6.index t (1 : Fin 2) * 64 + 1 * (z 1).val = (z 1).val; omega
/-- Window 7's block at every point is its whole array. -/
theorem iblk2_7 (c : Dev nD) (t : Fin cfg2.N) : iblk2 V c 7 t = V c main_arg10 := by
  obtain ⟨e0, e1⟩ := idx2_7 t
  funext z
  show V c main_arg10 (((cfg2.win 7).blk t).view.emb z) = V c main_arg10 z
  refine congrArg _ (funext fun a => Fin.ext ?_)
  match a with
  | ⟨0, _⟩ => show win2_7.index t (0 : Fin 2) * 64 + 1 * (z 0).val = (z 0).val; omega
  | ⟨1, _⟩ => show win2_7.index t (1 : Fin 2) * 32 + 1 * (z 1).val = (z 1).val; omega
/-- Window 8's block at every point is its whole array. -/
theorem iblk2_8 (c : Dev nD) (t : Fin cfg2.N) : iblk2 V c 8 t = V c main_v14 := by
  obtain ⟨e0, e1⟩ := idx2_8 t
  funext z
  show V c main_v14 (((cfg2.win 8).blk t).view.emb z) = V c main_v14 z
  refine congrArg _ (funext fun a => Fin.ext ?_)
  match a with
  | ⟨0, _⟩ => show win2_8.index t (0 : Fin 2) * 1 + 1 * (z 0).val = (z 0).val; omega
  | ⟨1, _⟩ => show win2_8.index t (1 : Fin 2) * 32 + 1 * (z 1).val = (z 1).val; omega
/-- Window 9's block at every point is its whole array. -/
theorem iblk2_9 (c : Dev nD) (t : Fin cfg2.N) : iblk2 V c 9 t = V c main_v9 := by
  obtain ⟨e0, e1⟩ := idx2_9 t
  funext z
  show V c main_v9 (((cfg2.win 9).blk t).view.emb z) = V c main_v9 z
  refine congrArg _ (funext fun a => Fin.ext ?_)
  match a with
  | ⟨0, _⟩ => show win2_9.index t (0 : Fin 2) * 1 + 1 * (z 0).val = (z 0).val; omega
  | ⟨1, _⟩ => show win2_9.index t (1 : Fin 2) * 32 + 1 * (z 1).val = (z 1).val; omega
/-- Window 10's block at every point is its whole array. -/
theorem iblk2_10 (c : Dev nD) (t : Fin cfg2.N) : iblk2 V c 10 t = V c main_v11 := by
  obtain ⟨e0, e1⟩ := idx2_10 t
  funext z
  show V c main_v11 (((cfg2.win 10).blk t).view.emb z) = V c main_v11 z
  refine congrArg _ (funext fun a => Fin.ext ?_)
  match a with
  | ⟨0, _⟩ => show win2_10.index t (0 : Fin 2) * 1 + 1 * (z 0).val = (z 0).val; omega
  | ⟨1, _⟩ => show win2_10.index t (1 : Fin 2) * 32 + 1 * (z 1).val = (z 1).val; omega
/-- Window 11's block at every point is its whole array. -/
theorem iblk2_11 (c : Dev nD) (t : Fin cfg2.N) : iblk2 V c 11 t = V c main_v15 := by
  obtain ⟨e0, e1⟩ := idx2_11 t
  funext z
  show V c main_v15 (((cfg2.win 11).blk t).view.emb z) = V c main_v15 z
  refine congrArg _ (funext fun a => Fin.ext ?_)
  match a with
  | ⟨0, _⟩ => show win2_11.index t (0 : Fin 2) * 1 + 1 * (z 0).val = (z 0).val; omega
  | ⟨1, _⟩ => show win2_11.index t (1 : Fin 2) * 1 + 1 * (z 1).val = (z 1).val; omega

/-! ## What each point writes back, the cover, and the whole column -/

/-- What point t writes back is block t of the whole column of the input arrays as the region finds them. -/
theorem flushed2_eq (c : Dev nD) (t : Fin cfg2.N) :
    (dat2 V O c).flushed 12 t = ((cfg2.win 12).blk t).view.read (Elt F) (mlpOut (V c main_v5_0) (V c main_v5_1) (V c main_v6) (V c main_v7) (V c main_v12) (V c main_arg8) (V c main_v13) (V c main_arg10) (V c main_v14) (V c main_v9) (V c main_v11) (V c main_v15)) := by
  show (cfg2.win 12).cut (grid2.coords t) ((dat2 V O c).after 12 t) = _
  rw [after2_12, out2_12_eq]
  obtain ⟨e0, e1⟩ := idx2_12 t
  funext y
  show mlpBlk (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) y = mlpOut (V c main_v5_0) (V c main_v5_1) (V c main_v6) (V c main_v7) (V c main_v12) (V c main_arg8) (V c main_v13) (V c main_arg10) (V c main_v14) (V c main_v9) (V c main_v11) (V c main_v15) (((cfg2.win 12).blk t).view.emb y)
  refine mlpBlk_eq_mlpOut (V c main_v5_0) (V c main_v5_1) (V c main_v6) (V c main_v7) (V c main_v12) (V c main_arg8) (V c main_v13) (V c main_arg10) (V c main_v14) (V c main_v9) (V c main_v11) (V c main_v15) t.val (lt8 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
    (iblk2_0 V c t) (iblk2_1 V c t) (iblk2_2 V c t) (iblk2_3 V c t) (iblk2_4 V c t) (iblk2_5 V c t) (iblk2_6 V c t) (iblk2_7 V c t) (iblk2_8 V c t) (iblk2_9 V c t) (iblk2_10 V c t) (iblk2_11 V c t) y _ ?_
  show win2_12.index t (0 : Fin 2) * 2048 + 1 * (y 0).val = t.val * 2048 + (y 0).val
  omega

/-- An index of the result is in point t's block iff each coordinate is in the block's range on its axis. -/
theorem mem_blk2 (t : Fin cfg2.N) (i : S16384x1.Idx) :
    i ∈ ((cfg2.win 12).blk t).view.set ↔ ∀ a : Fin 2, win2_12.index t a * S2048x1.size a ≤ (i a).val ∧ (i a).val < win2_12.index t a * S2048x1.size a + S2048x1.size a := by
  show i ∈ ((View.whole main_v16).slice (win2_12.rect t)).set ↔ _
  rw [View.set_slice_whole, Rect.mem_set_unit]
  exact Iff.rfl

/-- Every row of the result is in some point's block: row j in point j / 2048's. -/
theorem cover2 (i : S16384x1.Idx) : ∃ t : Fin cfg2.N, (cfg2.win 12).flush t = true ∧ i ∈ ((cfg2.win 12).blk t).view.set := by
  have hi0 : (i 0).val < 16384 := (i 0).isLt
  have hi1 : (i 1).val < 1 := (i 1).isLt
  have hN : (i 0).val / 2048 < cfg2.N := by show _ < grid2.N; rw [N_2]; omega
  obtain ⟨e0, e1⟩ := idx2_12 ⟨(i 0).val / 2048, hN⟩
  have e0' : win2_12.index ⟨(i 0).val / 2048, hN⟩ (0 : Fin 2) = (i 0).val / 2048 := e0
  refine ⟨⟨(i 0).val / 2048, hN⟩, flush2_12 _, ?_⟩
  rw [mem_blk2]
  intro a
  match a with
  | ⟨0, _⟩ => show win2_12.index ⟨(i 0).val / 2048, hN⟩ (0 : Fin 2) * 2048 ≤ (i 0).val ∧ (i 0).val < win2_12.index ⟨(i 0).val / 2048, hN⟩ (0 : Fin 2) * 2048 + 2048; omega
  | ⟨1, _⟩ => show win2_12.index ⟨(i 0).val / 2048, hN⟩ (1 : Fin 2) * 1 ≤ (i 1).val ∧ (i 1).val < win2_12.index ⟨(i 0).val / 2048, hN⟩ (1 : Fin 2) * 1 + 1; omega

/-- THE RESULT after the region: the whole column of the input arrays as the region finds them. -/
theorem final2 (c : Dev nD) : (dat2 V O c).arrAt 12 cfg2.N = mlpOut (V c main_v5_0) (V c main_v5_1) (V c main_v6) (V c main_v7) (V c main_v12) (V c main_arg8) (V c main_v13) (V c main_arg10) (V c main_v14) (V c main_v9) (V c main_v11) (V c main_v15) :=
  (dat2 V O c).arrAt_eq_of_cover 12 (mlpOut (V c main_v5_0) (V c main_v5_1) (V c main_v6) (V c main_v7) (V c main_v12) (V c main_arg8) (V c main_v13) (V c main_arg10) (V c main_v14) (V c main_v9) (V c main_v11) (V c main_v15)) (fun t _ => flushed2_eq V O c t) cover2

end Region2

end Cert.Proof.KI

end
-- ==== Proof.LaunchVals.lean ====
/-
  What the TensorCore's buffers hold at the end of the main function, read back through the fold of its segments:
  every argument array is as launched, and the result vector is the score column of the second kernel region
  computed from the rows the first region repacked and the row-gathering call gathered.
-/
import proofs.«212231_g88622355185883_cont_sun_m_1073_38_alg».proof.Proof.LaunchRegions
import proofs.«212231_g88622355185883_cont_sun_m_1073_38_alg».proof.Proof.RepackValue
import proofs.«212231_g88622355185883_cont_sun_m_1073_38_alg».proof.Proof.MlpFinal

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.Sem
open Idealize.ShloMosaic.StableHlo (held after)
open Idealize.ShloMosaic.ValueIdx (ix1 ix2 eq_ix2)

variable {F : FTy → Type} [FloatOps F]

/-! ## What each stretch of host operations writes -/

abbrev hostA_W : List (Ref sig .tc) := [main_v0, main_v1, main_v2, main_v3]
abbrev hostB_W : List (Ref sig .tc) := [main_v6, main_v7, main_v8, main_v9, main_v10, main_v11, main_v12, main_v13, main_v14, main_v15]
abbrev hostC_W : List (Ref sig .tc) := [main_v17]

theorem hostA_writes : (hostA : List (HloOp τ sig (Elt F))).Forall fun op => op.writes ⊆ (hostA_W.map (Proc.devRef (τ := τ) .tc)).toFinset := by
  simp only [List.Forall]
  repeat' apply And.intro
  all_goals (simp only [StableHlo.unary_writes, StableHlo.reshape_writes, Finset.singleton_subset_iff, List.mem_toFinset]; exact List.mem_map_of_mem (by decide))
theorem hostB_writes : (hostB : List (HloOp τ sig (Elt F))).Forall fun op => op.writes ⊆ (hostB_W.map (Proc.devRef (τ := τ) .tc)).toFinset := by
  simp only [List.Forall]
  repeat' apply And.intro
  all_goals (simp only [StableHlo.unary_writes, StableHlo.reshape_writes, Finset.singleton_subset_iff, List.mem_toFinset]; exact List.mem_map_of_mem (by decide))
theorem hostC_writes : (hostC : List (HloOp τ sig (Elt F))).Forall fun op => op.writes ⊆ (hostC_W.map (Proc.devRef (τ := τ) .tc)).toFinset := by
  simp only [List.Forall]
  simp only [StableHlo.unary_writes, StableHlo.reshape_writes, Finset.singleton_subset_iff, List.mem_toFinset]; exact List.mem_map_of_mem (by decide)

variable (m : (ℓ : Loc nD τ sig) → Buf (Elt F) ℓ)

/-! ## What each segment leaves unchanged -/

theorem W1_of (c : Dev nD) (r : Ref sig .tc) (h : r ∉ hostA_W) : W1 m c (Proc.devRef .tc r) = W0 m c (Proc.devRef .tc r) :=
  StableHlo.after_of_writes_sub hostA _ hostA_writes h
theorem W3_of (c : Dev nD) (r : Ref sig .tc) (h : r ∉ ([main_v5_0, main_v5_1] : List (Ref sig .tc))) :
    W3 m c (Proc.devRef .tc r) = W2 m c (Proc.devRef .tc r) := by
  have h0 : r ≠ main_v5_0 := fun e => h (e ▸ List.mem_cons_self)
  have h1 : r ≠ main_v5_1 := fun e => h (e ▸ List.mem_cons_of_mem _ List.mem_cons_self)
  unfold W3
  rw [Function.update_of_ne (StableHlo.devRef_ne_of_ne h1), Function.update_of_ne (StableHlo.devRef_ne_of_ne h0)]
theorem W4_of (c : Dev nD) (r : Ref sig .tc) (h : r ∉ hostB_W) : W4 m c (Proc.devRef .tc r) = W3 m c (Proc.devRef .tc r) :=
  StableHlo.after_of_writes_sub hostB _ hostB_writes h
theorem W6_of (c : Dev nD) (r : Ref sig .tc) (h : r ∉ hostC_W) : W6 m c (Proc.devRef .tc r) = W5 m c (Proc.devRef .tc r) :=
  StableHlo.after_of_writes_sub hostC _ hostC_writes h

/-- A buffer that no host operation writes, that is no array of the first region and is neither gathered array, and
    that the second region leaves as it found it, ends as launched. -/
theorem W6_kept (c : Dev nD) (r : Ref sig .tc) (hA : r ∉ hostA_W) (h0 : ∀ w, Pipeline.arrRef spec0 w ≠ r)
    (h3 : r ∉ ([main_v5_0, main_v5_1] : List (Ref sig .tc))) (hB : r ∉ hostB_W)
    (h5 : W5 m c (Proc.devRef .tc r) = W4 m c (Proc.devRef .tc r)) (hC : r ∉ hostC_W) :
    W6 m c (Proc.devRef .tc r) = m ((c.tc : Thread nD τ).loc r) :=
  (W6_of m c r hC).trans <| h5.trans <| (W4_of m c r hB).trans <| (W3_of m c r h3).trans <|
    (W2_of_ne m c r h0).trans <| (W1_of m c r hA).trans rfl

/-! ## The argument arrays end as launched -/

theorem W6_main_arg0 (c : Dev nD) : W6 m c (Proc.devRef .tc main_arg0) = m ((c.tc : Thread nD τ).loc main_arg0) :=
  W6_kept m c main_arg0 (by decide) (by decide) (by decide) (by decide) (W5_of_ne m c _ (by decide)) (by decide)
theorem W6_main_arg1 (c : Dev nD) : W6 m c (Proc.devRef .tc main_arg1) = m ((c.tc : Thread nD τ).loc main_arg1) :=
  W6_kept m c main_arg1 (by decide) (by decide) (by decide) (by decide) (W5_of_ne m c _ (by decide)) (by decide)
theorem W6_main_arg2 (c : Dev nD) : W6 m c (Proc.devRef .tc main_arg2) = m ((c.tc : Thread nD τ).loc main_arg2) :=
  W6_kept m c main_arg2 (by decide) (by decide) (by decide) (by decide) (W5_of_ne m c _ (by decide)) (by decide)
theorem W6_main_arg3 (c : Dev nD) : W6 m c (Proc.devRef .tc main_arg3) = m ((c.tc : Thread nD τ).loc main_arg3) :=
  W6_kept m c main_arg3 (by decide) (by decide) (by decide) (by decide) (W5_of_ne m c _ (by decide)) (by decide)
theorem W6_main_arg4 (c : Dev nD) : W6 m c (Proc.devRef .tc main_arg4) = m ((c.tc : Thread nD τ).loc main_arg4) :=
  W6_kept m c main_arg4 (by decide) (by decide) (by decide) (by decide) (W5_of_ne m c _ (by decide)) (by decide)
theorem W6_main_arg5 (c : Dev nD) : W6 m c (Proc.devRef .tc main_arg5) = m ((c.tc : Thread nD τ).loc main_arg5) :=
  W6_kept m c main_arg5 (by decide) (by decide) (by decide) (by decide) (W5_of_ne m c _ (by decide)) (by decide)
theorem W6_main_arg6 (c : Dev nD) : W6 m c (Proc.devRef .tc main_arg6) = m ((c.tc : Thread nD τ).loc main_arg6) :=
  W6_kept m c main_arg6 (by decide) (by decide) (by decide) (by decide) (W5_of_ne m c _ (by decide)) (by decide)
theorem W6_main_arg7 (c : Dev nD) : W6 m c (Proc.devRef .tc main_arg7) = m ((c.tc : Thread nD τ).loc main_arg7) :=
  W6_kept m c main_arg7 (by decide) (by decide) (by decide) (by decide) (W5_of_ne m c _ (by decide)) (by decide)
theorem W6_main_arg8 (c : Dev nD) : W6 m c (Proc.devRef .tc main_arg8) = m ((c.tc : Thread nD τ).loc main_arg8) :=
  W6_kept m c main_arg8 (by decide) (by decide) (by decide) (by decide)
    ((W5_arr m c 5).trans (kept2 (V4 m) (O2 (F := F)) c 5 rfl _)) (by decide)
theorem W6_main_arg9 (c : Dev nD) : W6 m c (Proc.devRef .tc main_arg9) = m ((c.tc : Thread nD τ).loc main_arg9) :=
  W6_kept m c main_arg9 (by decide) (by decide) (by decide) (by decide) (W5_of_ne m c _ (by decide)) (by decide)
theorem W6_main_arg10 (c : Dev nD) : W6 m c (Proc.devRef .tc main_arg10) = m ((c.tc : Thread nD τ).loc main_arg10) :=
  W6_kept m c main_arg10 (by decide) (by decide) (by decide) (by decide)
    ((W5_arr m c 7).trans (kept2 (V4 m) (O2 (F := F)) c 7 rfl _)) (by decide)
theorem W6_main_arg11 (c : Dev nD) : W6 m c (Proc.devRef .tc main_arg11) = m ((c.tc : Thread nD τ).loc main_arg11) :=
  W6_kept m c main_arg11 (by decide) (by decide) (by decide) (by decide) (W5_of_ne m c _ (by decide)) (by decide)
theorem W6_main_arg12 (c : Dev nD) : W6 m c (Proc.devRef .tc main_arg12) = m ((c.tc : Thread nD τ).loc main_arg12) :=
  W6_kept m c main_arg12 (by decide) (by decide) (by decide) (by decide) (W5_of_ne m c _ (by decide)) (by decide)
theorem W6_main_arg13 (c : Dev nD) : W6 m c (Proc.devRef .tc main_arg13) = m ((c.tc : Thread nD τ).loc main_arg13) :=
  W6_kept m c main_arg13 (by decide) (by decide) (by decide) (by decide) (W5_of_ne m c _ (by decide)) (by decide)

/-! ## The buffers the second region reads, as terms of the launch memory -/

/-- A buffer that nothing before the weight slices writes is as launched when they run. -/
theorem W3_kept (c : Dev nD) (r : Ref sig .tc) (hA : r ∉ hostA_W) (h0 : ∀ w, Pipeline.arrRef spec0 w ≠ r)
    (h3 : r ∉ ([main_v5_0, main_v5_1] : List (Ref sig .tc))) :
    W3 m c (Proc.devRef .tc r) = m ((c.tc : Thread nD τ).loc r) :=
  (W3_of m c r h3).trans <| (W2_of_ne m c r h0).trans <| (W1_of m c r hA).trans rfl

/-- The four tables transposed, as the first region finds them. -/
theorem W1_v0 (c : Dev nD) : W1 m c (Proc.devRef .tc main_v0)
    = transpose S32x1000000 [1, 0] (m ((c.tc : Thread nD τ).loc main_arg2)) transposes_S1000000x32_S32x1000000_1_0 := by
  show after hostA (W0 m c) (Proc.devRef .tc main_v0) = _
  after_results
theorem W1_v1 (c : Dev nD) : W1 m c (Proc.devRef .tc main_v1)
    = transpose S32x1000000 [1, 0] (m ((c.tc : Thread nD τ).loc main_arg3)) transposes_S1000000x32_S32x1000000_1_0 := by
  show after hostA (W0 m c) (Proc.devRef .tc main_v1) = _
  after_results
theorem W1_v2 (c : Dev nD) : W1 m c (Proc.devRef .tc main_v2)
    = transpose S32x1000000 [1, 0] (m ((c.tc : Thread nD τ).loc main_arg4)) transposes_S1000000x32_S32x1000000_1_0 := by
  show after hostA (W0 m c) (Proc.devRef .tc main_v2) = _
  after_results
theorem W1_v3 (c : Dev nD) : W1 m c (Proc.devRef .tc main_v3)
    = transpose S32x1000000 [1, 0] (m ((c.tc : Thread nD τ).loc main_arg5)) transposes_S1000000x32_S32x1000000_1_0 := by
  show after hostA (W0 m c) (Proc.devRef .tc main_v3) = _
  after_results

/-- The table the row-gathering call reads: the four argument tables, transposed and repacked. -/
theorem Tv_eq (c : Dev nD) : Tv m c
    = repack (transpose S32x1000000 [1, 0] (m ((c.tc : Thread nD τ).loc main_arg2)) transposes_S1000000x32_S32x1000000_1_0)
        (transpose S32x1000000 [1, 0] (m ((c.tc : Thread nD τ).loc main_arg3)) transposes_S1000000x32_S32x1000000_1_0)
        (transpose S32x1000000 [1, 0] (m ((c.tc : Thread nD τ).loc main_arg4)) transposes_S1000000x32_S32x1000000_1_0)
        (transpose S32x1000000 [1, 0] (m ((c.tc : Thread nD τ).loc main_arg5)) transposes_S1000000x32_S32x1000000_1_0) := by
  have h := (W2_arr m c 4).trans (final0 (V1 m) (O0 (F := F)) c)
  refine Eq.trans h ?_
  show repack (W1 m c (Proc.devRef .tc main_v0)) (W1 m c (Proc.devRef .tc main_v1)) (W1 m c (Proc.devRef .tc main_v2))
    (W1 m c (Proc.devRef .tc main_v3)) = _
  rw [W1_v0, W1_v1, W1_v2, W1_v3]

/-- The gathered rows, as the second region finds them. -/
theorem W4_v5_0 (c : Dev nD) : W4 m c (Proc.devRef .tc main_v5_0) = gU m (Tv m) c := by
  rw [W4_of m c main_v5_0 (by decide)]
  unfold W3
  rw [Function.update_of_ne (StableHlo.devRef_ne_of_ne (by decide)), Function.update_self]
theorem W4_v5_1 (c : Dev nD) : W4 m c (Proc.devRef .tc main_v5_1) = gI m (Tv m) c := by
  rw [W4_of m c main_v5_1 (by decide)]
  unfold W3
  rw [Function.update_self]

/-- The weight slices and reshapes, as the second region finds them. -/
theorem W4_v6 (c : Dev nD) : W4 m c (Proc.devRef .tc main_v6)
    = extractStridedSlice S32x128 ![0, 0] (m ((c.tc : Thread nD τ).loc main_arg6)) slices_S64x128_S32x128_0_0 := by
  show after hostB (W3 m c) (Proc.devRef .tc main_v6) = _
  after_results
  rw [W3_kept m c main_arg6 (by decide) (by decide) (by decide)]
theorem W4_v7 (c : Dev nD) : W4 m c (Proc.devRef .tc main_v7)
    = extractStridedSlice S32x128 ![32, 0] (m ((c.tc : Thread nD τ).loc main_arg6)) slices_S64x128_S32x128_32_0 := by
  show after hostB (W3 m c) (Proc.devRef .tc main_v7) = _
  after_results
  rw [W3_kept m c main_arg6 (by decide) (by decide) (by decide)]
theorem W4_v9 (c : Dev nD) : W4 m c (Proc.devRef .tc main_v9)
    = shapeCast S1x32 (extractStridedSlice S32x1 ![0, 0] (m ((c.tc : Thread nD τ).loc main_arg12)) slices_S64x1_S32x1_0_0) shapeCasts_S32x1_S1x32 := by
  show after hostB (W3 m c) (Proc.devRef .tc main_v9) = _
  after_results
  rw [W3_kept m c main_arg12 (by decide) (by decide) (by decide)]; rfl
theorem W4_v11 (c : Dev nD) : W4 m c (Proc.devRef .tc main_v11)
    = shapeCast S1x32 (extractStridedSlice S32x1 ![32, 0] (m ((c.tc : Thread nD τ).loc main_arg12)) slices_S64x1_S32x1_32_0) shapeCasts_S32x1_S1x32 := by
  show after hostB (W3 m c) (Proc.devRef .tc main_v11) = _
  after_results
  rw [W3_kept m c main_arg12 (by decide) (by decide) (by decide)]; rfl
theorem W4_v12 (c : Dev nD) : W4 m c (Proc.devRef .tc main_v12)
    = shapeCast S1x128 (m ((c.tc : Thread nD τ).loc main_arg7)) shapeCasts_S128_S1x128 := by
  show after hostB (W3 m c) (Proc.devRef .tc main_v12) = _
  after_results
  rw [W3_kept m c main_arg7 (by decide) (by decide) (by decide)]; rfl
theorem W4_v13 (c : Dev nD) : W4 m c (Proc.devRef .tc main_v13)
    = shapeCast S1x64 (m ((c.tc : Thread nD τ).loc main_arg9)) shapeCasts_S64_S1x64 := by
  show after hostB (W3 m c) (Proc.devRef .tc main_v13) = _
  after_results
  rw [W3_kept m c main_arg9 (by decide) (by decide) (by decide)]; rfl
theorem W4_v14 (c : Dev nD) : W4 m c (Proc.devRef .tc main_v14)
    = shapeCast S1x32 (m ((c.tc : Thread nD τ).loc main_arg11)) shapeCasts_S32_S1x32 := by
  show after hostB (W3 m c) (Proc.devRef .tc main_v14) = _
  after_results
  rw [W3_kept m c main_arg11 (by decide) (by decide) (by decide)]; rfl
theorem W4_v15 (c : Dev nD) : W4 m c (Proc.devRef .tc main_v15)
    = shapeCast S1x1 (m ((c.tc : Thread nD τ).loc main_arg13)) shapeCasts_S1_S1x1 := by
  show after hostB (W3 m c) (Proc.devRef .tc main_v15) = _
  after_results
  rw [W3_kept m c main_arg13 (by decide) (by decide) (by decide)]; rfl
theorem W4_arg8 (c : Dev nD) : W4 m c (Proc.devRef .tc main_arg8) = m ((c.tc : Thread nD τ).loc main_arg8) :=
  (W4_of m c main_arg8 (by decide)).trans (W3_kept m c main_arg8 (by decide) (by decide) (by decide))
theorem W4_arg10 (c : Dev nD) : W4 m c (Proc.devRef .tc main_arg10) = m ((c.tc : Thread nD τ).loc main_arg10) :=
  (W4_of m c main_arg10 (by decide)).trans (W3_kept m c main_arg10 (by decide) (by decide) (by decide))

/-! ## The result -/

/-- The result vector as one term of the launch memory: the score column of the rows gathered from the repacked
    table, against the weight slices and reshaped biases, reshaped to a vector. -/
def kernelOut (c : Dev nD) : S16384.Idx → Elt F .f32 :=
  shapeCast S16384
    (mlpOut (gU m (Tv m) c) (gI m (Tv m) c)
      (extractStridedSlice S32x128 ![0, 0] (m ((c.tc : Thread nD τ).loc main_arg6)) slices_S64x128_S32x128_0_0)
      (extractStridedSlice S32x128 ![32, 0] (m ((c.tc : Thread nD τ).loc main_arg6)) slices_S64x128_S32x128_32_0)
      (shapeCast S1x128 (m ((c.tc : Thread nD τ).loc main_arg7)) shapeCasts_S128_S1x128)
      (m ((c.tc : Thread nD τ).loc main_arg8))
      (shapeCast S1x64 (m ((c.tc : Thread nD τ).loc main_arg9)) shapeCasts_S64_S1x64)
      (m ((c.tc : Thread nD τ).loc main_arg10))
      (shapeCast S1x32 (m ((c.tc : Thread nD τ).loc main_arg11)) shapeCasts_S32_S1x32)
      (shapeCast S1x32 (extractStridedSlice S32x1 ![0, 0] (m ((c.tc : Thread nD τ).loc main_arg12)) slices_S64x1_S32x1_0_0) shapeCasts_S32x1_S1x32)
      (shapeCast S1x32 (extractStridedSlice S32x1 ![32, 0] (m ((c.tc : Thread nD τ).loc main_arg12)) slices_S64x1_S32x1_32_0) shapeCasts_S32x1_S1x32)
      (shapeCast S1x1 (m ((c.tc : Thread nD τ).loc main_arg13)) shapeCasts_S1_S1x1))
    shapeCasts_S16384x1_S16384

/-- The second region's result column. -/
theorem W5_v16 (c : Dev nD) : W5 m c (Proc.devRef .tc main_v16)
    = mlpOut (W4 m c (Proc.devRef .tc main_v5_0)) (W4 m c (Proc.devRef .tc main_v5_1)) (W4 m c (Proc.devRef .tc main_v6))
        (W4 m c (Proc.devRef .tc main_v7)) (W4 m c (Proc.devRef .tc main_v12)) (W4 m c (Proc.devRef .tc main_arg8))
        (W4 m c (Proc.devRef .tc main_v13)) (W4 m c (Proc.devRef .tc main_arg10)) (W4 m c (Proc.devRef .tc main_v14))
        (W4 m c (Proc.devRef .tc main_v9)) (W4 m c (Proc.devRef .tc main_v11)) (W4 m c (Proc.devRef .tc main_v15)) :=
  (W5_arr m c 12).trans (final2 (V4 m) (O2 (F := F)) c)

/-- THE RESULT at the end of the main function. -/
theorem W6_main_v17 (c : Dev nD) : W6 m c (Proc.devRef .tc main_v17) = kernelOut m c := by
  show after hostC (W5 m c) (Proc.devRef .tc main_v17) = _
  after_results
  rw [W5_v16, W4_v5_0, W4_v5_1, W4_v6, W4_v7, W4_v12, W4_arg8, W4_v13, W4_arg10, W4_v14, W4_v9, W4_v11, W4_v15]
  rfl

end Cert.Proof.KI

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.MlpLayers.lean ====
/-
  The perceptron's layers read entry by entry at the extended reals.

  The kernel body's arithmetic is cut into its layers, each a function of the layer before, generic in the float
  instance; the body's payload terms are these layers composed (by unfolding). At the extended reals each layer
  is read at one entry: a product into the zero accumulator is the sum over the contracted axis, a bias row
  broadcast over the rows is the bias at the column, the maximum with the zero splat is the maximum with 0, and
  the final lane sum is the sum over the 32 lanes.
-/
import proofs.«212231_g88622355185883_cont_sun_m_1073_38_alg».proof.Proof.Setup
import proofs.«212231_g88622355185883_cont_sun_m_1073_38_alg».proof.Proof.LibMatmul2
import Idealize.ShloMosaic.Lib.ValueIdx
import Idealize.ShloMosaic.Lib.ValueLayout
import Idealize.ShloMosaic.Lib.Pipeline.Value

set_option maxRecDepth 16384

noncomputable section

open scoped BigOperators

namespace Cert.Proof.KI

open Cert.KernelIdeal Cert.KernelIdeal.Gen

open Idealize.ShloMosaic Idealize.ShloMosaic.ValueIdx

variable {F : FTy → Type} [FloatOps F]

/-! ## The layers, at any float instance -/

/-- Columns o … o + 31 of a [2048, 128] block. -/
def cols (o : Nat) (x : Vec F S2048x128 .f32) (h : S2048x128.Slices ![0, o] S2048x32) : FVec F S2048x32 .f32 :=
  extractStridedSlice S2048x32 ![0, o] (shapeCast S2048x128 x shapeCasts_S2048x128_S2048x128) h

/-- First layer: two 32-long products added, the bias row, the maximum with zero. -/
def layer1 (v6 v7 : FVec F S2048x32 .f32) (x2 x3 : Vec F S32x128 .f32) (x4 : Vec F S1x128 .f32) : FVec F S2048x128 .f32 :=
  maximumf
    (addf
      (addf
        (matmul dot_S2048x32_S32x128_S2048x128_1_0_0_1_n_n none v6 (shapeCast S32x128 x2 shapeCasts_S32x128_S32x128) (constant S2048x128 .f32 0x00000000#32))
        (matmul dot_S2048x32_S32x128_S2048x128_1_0_0_1_n_n none v7 (shapeCast S32x128 x3 shapeCasts_S32x128_S32x128) (constant S2048x128 .f32 0x00000000#32)))
      (broadcastTo S2048x128 (shapeCast S1x128 x4 shapeCasts_S1x128_S1x128) broadcasts_S1x128_S2048x128))
    (broadcast S2048x128 (Scalar.ofBits .f32 0x00000000#32))

/-- Second layer: one 128-long product, the bias row, the maximum with zero. -/
def layer2 (a : FVec F S2048x128 .f32) (x5 : Vec F S128x64 .f32) (x6 : Vec F S1x64 .f32) : FVec F S2048x64 .f32 :=
  maximumf
    (addf
      (matmul dot_S2048x128_S128x64_S2048x64_1_0_0_1_n_n none a x5 (constant S2048x64 .f32 0x00000000#32))
      (broadcastTo S2048x64 (shapeCast S1x64 x6 shapeCasts_S1x64_S1x64) broadcasts_S1x64_S2048x64))
    (broadcast S2048x64 (Scalar.ofBits .f32 0x00000000#32))

/-- Third layer before its maximum: one 64-long product and the bias row. -/
def layer3 (a : FVec F S2048x64 .f32) (x7 : Vec F S64x32 .f32) (x8 : Vec F S1x32 .f32) : FVec F S2048x32 .f32 :=
  addf
    (matmul dot_S2048x64_S64x32_S2048x32_1_0_0_1_n_n none a x7 (constant S2048x32 .f32 0x00000000#32))
    (broadcastTo S2048x32 (shapeCast S1x32 x8 shapeCasts_S1x32_S1x32) broadcasts_S1x32_S2048x32)

/-- The body's payloads are the layers composed. -/
theorem k2_pay4_eq (x0 : Vec F S2048x128 .f32) : k2_pay4 x0 = cols 0 x0 slices_S2048x128_o0_0_S2048x32 := rfl
theorem k2_pay5_eq (x1 : Vec F S2048x128 .f32) : k2_pay5 x1 = cols 32 x1 slices_S2048x128_o0_32_S2048x32 := rfl
theorem k2_pay6_eq (x0 x1 : Vec F S2048x128 .f32) (x2 x3 : Vec F S32x128 .f32) (x4 : Vec F S1x128 .f32) (x5 : Vec F S128x64 .f32)
    (x6 : Vec F S1x64 .f32) (x7 : Vec F S64x32 .f32) (x8 : Vec F S1x32 .f32) :
    k2_pay6 x0 x1 x2 x3 x4 x5 x6 x7 x8
      = layer3 (layer2 (layer1 (cols 64 x0 slices_S2048x128_o0_64_S2048x32) (cols 96 x1 slices_S2048x128_o0_96_S2048x32) x2 x3 x4) x5 x6) x7 x8 := rfl

/-! ## The layers at the extended reals, entry by entry -/

/-- A column slice reads the block at the shifted column. -/
theorem cols_apply (o : Nat) (ho : o + 32 ≤ 128) (x : Vec Ideal S2048x128 .f32) (h : S2048x128.Slices ![0, o] S2048x32)
    (r : Fin 2048) (k : Fin 32) : cols o x h (ix2 r k) = x (ix2 r (⟨o + k.val, by omega⟩ : Fin 128)) := by
  unfold cols
  rw [Idealize.ShloMosaic.shapeCast_self]
  refine extractStridedSlice_apply _ x h (ix2 r k) (ix2 r (⟨o + k.val, by omega⟩ : Fin 128)) fun a => ?_
  match a with
  | ⟨0, _⟩ => show r.val = 0 + r.val; omega
  | ⟨1, _⟩ => rfl

theorem layer1_apply (v6 v7 : FVec Ideal S2048x32 .f32) (x2 x3 : Vec Ideal S32x128 .f32) (x4 : Vec Ideal S1x128 .f32)
    (r : Fin 2048) (n : Fin 128) :
    layer1 v6 v7 x2 x3 x4 (ix2 r n)
      = max (((∑ k : Fin 32, v6 (ix2 r k) * x2 (ix2 k n)) + ∑ k : Fin 32, v7 (ix2 r k) * x3 (ix2 k n)) + x4 (ix2 (0 : Fin 1) n)) 0 := by
  unfold layer1
  rw [shapeCast_self, shapeCast_self, shapeCast_self]
  rw [maximumf_apply, addf_apply, addf_apply, broadcast_apply]
  rw [show Scalar.ofBits (F := Ideal) .f32 0x00000000#32 = Ideal.ofBits .f32 0x00000000#32 from rfl, Ideal.ofBits_zero_f32]
  rw [broadcastTo_1b_ab_apply x4 broadcasts_S1x128_S2048x128 r n]
  rw [show dot_S2048x32_S32x128_S2048x128_1_0_0_1_n_n = Cert.Lib.plain2 dot_S2048x32_S32x128_S2048x128_1_0_0_1_n_n_wf from rfl]
  rw [Cert.Lib.matmul2_zero_apply _ v6 x2 r n, Cert.Lib.matmul2_zero_apply _ v7 x3 r n]

theorem layer2_apply (a : FVec Ideal S2048x128 .f32) (x5 : Vec Ideal S128x64 .f32) (x6 : Vec Ideal S1x64 .f32)
    (r : Fin 2048) (n : Fin 64) :
    layer2 a x5 x6 (ix2 r n) = max ((∑ k : Fin 128, a (ix2 r k) * x5 (ix2 k n)) + x6 (ix2 (0 : Fin 1) n)) 0 := by
  unfold layer2
  rw [shapeCast_self]
  rw [maximumf_apply, addf_apply, broadcast_apply]
  rw [show Scalar.ofBits (F := Ideal) .f32 0x00000000#32 = Ideal.ofBits .f32 0x00000000#32 from rfl, Ideal.ofBits_zero_f32]
  rw [broadcastTo_1b_ab_apply x6 broadcasts_S1x64_S2048x64 r n]
  rw [show dot_S2048x128_S128x64_S2048x64_1_0_0_1_n_n = Cert.Lib.plain2 dot_S2048x128_S128x64_S2048x64_1_0_0_1_n_n_wf from rfl]
  rw [Cert.Lib.matmul2_zero_apply _ a x5 r n]

theorem layer3_apply (a : FVec Ideal S2048x64 .f32) (x7 : Vec Ideal S64x32 .f32) (x8 : Vec Ideal S1x32 .f32)
    (r : Fin 2048) (n : Fin 32) :
    layer3 a x7 x8 (ix2 r n) = (∑ k : Fin 64, a (ix2 r k) * x7 (ix2 k n)) + x8 (ix2 (0 : Fin 1) n) := by
  unfold layer3
  rw [shapeCast_self]
  rw [addf_apply]
  rw [broadcastTo_1b_ab_apply x8 broadcasts_S1x32_S2048x32 r n]
  rw [show dot_S2048x64_S64x32_S2048x32_1_0_0_1_n_n = Cert.Lib.plain2 dot_S2048x64_S64x32_S2048x32_1_0_0_1_n_n_wf from rfl]
  rw [Cert.Lib.matmul2_zero_apply _ a x7 r n]

/-- The lane sum: at row r, the sum over the 32 lanes. -/
theorem laneSum_apply (src : FVec Ideal S2048x32 .f32) (hφ : FKind.Formats .f32)
    (hacc : (0x00000000#32 : BitVec 32) = 0x00000000#32) (r : Fin 2048) :
    multiReduction .add [1] S2048 src 0x00000000#32 reduces_S2048x32_S2048 hφ hacc (ix1 r) = ∑ k : Fin 32, src (ix2 r k) := by
  refine (Ideal.multiReduction_add_single src 0x00000000#32 reduces_S2048x32_S2048 hφ hacc (ix1 r)).trans ?_
  refine Finset.sum_congr rfl fun k _ => congrArg src ?_
  funext a
  match a with
  | ⟨0, _⟩ => rfl
  | ⟨1, _⟩ => rfl

/-- The stored column at row r: the 32-lane sum of the product term and the third layer's activations against
    the two output-weight rows, plus the output bias. -/
theorem k2_pay1_apply (v4 v5 v34 : FVec Ideal S2048x32 .f32) (x9 x10 : Vec Ideal S1x32 .f32) (x11 : Vec Ideal S1x1 .f32) (r : Fin 2048) :
    k2_pay1 (F := Ideal) v4 v5 v34 x9 x10 x11 (ix2 r (0 : Fin 1))
      = (∑ k : Fin 32, (v4 (ix2 r k) * v5 (ix2 r k) * x9 (ix2 (0 : Fin 1) k) + max (v34 (ix2 r k)) 0 * x10 (ix2 (0 : Fin 1) k)))
        + x11 (ix2 (0 : Fin 1) (0 : Fin 1)) := by
  unfold k2_pay1
  dsimp only
  rw [shapeCast_self, shapeCast_self, shapeCast_self]
  rw [addf_apply]
  rw [broadcastTo_1b_ab_apply x11 broadcasts_S1x1_S2048x1 r (0 : Fin 1)]
  rw [shapeCast_apply _ shapeCasts_S2048_S2048x1 (ix2 r (0 : Fin 1)) (ix1 r) (by
    rw [Shape.rowMajor_val_one, Shape.rowMajor_val_two]; show r.val = r.val * 1 + 0; omega)]
  rw [laneSum_apply]
  refine congrArg (· + x11 (ix2 (0 : Fin 1) (0 : Fin 1))) (Finset.sum_congr rfl fun k _ => ?_)
  rw [addf_apply, mulf_apply, mulf_apply, mulf_apply, maximumf_apply, broadcast_apply]
  rw [show Scalar.ofBits (F := Ideal) .f32 0x00000000#32 = Ideal.ofBits .f32 0x00000000#32 from rfl, Ideal.ofBits_zero_f32]
  rw [broadcastTo_1b_ab_apply x9 broadcasts_S1x32_S2048x32 r k, broadcastTo_1b_ab_apply x10 broadcasts_S1x32_S2048x32 r k]

end Cert.Proof.KI

end
-- ==== Proof.MlpValue.lean ====
/-
  The result column at the extended reals, entry by entry.

  Row b of the result is a function of row b of the two gathered row arrays alone: the 32-lane sum of the
  product of the two factor rows (columns 0–31 of the first array, 32–63 of the second) against the first
  output-weight row and of the third layer's activations against the second, plus the output bias; the
  activations come from columns 64–95 of the first array and 96–127 of the second through three dense
  layers, each a sum over the contracted axis plus a bias followed by the maximum with 0.
-/
import proofs.«212231_g88622355185883_cont_sun_m_1073_38_alg».proof.Proof.MlpFinal
import proofs.«212231_g88622355185883_cont_sun_m_1073_38_alg».proof.Proof.MlpLayers

set_option maxRecDepth 16384

noncomputable section

open scoped BigOperators

namespace Cert.Proof.KI

open Cert.KernelIdeal Cert.KernelIdeal.Gen

open Idealize.ShloMosaic Idealize.ShloMosaic.ValueIdx

/-! ## The entry functions, over a table of R rows and 128 columns -/

section Spec
variable {R : ℕ}

/-- First layer at row b, unit n: columns 64–95 of the first table against the first 32 weight rows, columns
    96–127 of the second against the other 32, the two sums added, then the bias, then the maximum with 0. -/
def h1At (u i : (⟨2, ![R, 128]⟩ : Shape).Idx → EReal) (w1a w1b : S32x128.Idx → EReal) (b1 : S1x128.Idx → EReal) (b : Fin R) (n : Fin 128) : EReal :=
  max (((∑ k : Fin 32, u (ix2 b (⟨64 + k.val, by omega⟩ : Fin 128)) * w1a (ix2 k n))
        + ∑ k : Fin 32, i (ix2 b (⟨96 + k.val, by omega⟩ : Fin 128)) * w1b (ix2 k n)) + b1 (ix2 (0 : Fin 1) n)) 0

/-- Second layer at row b, unit n. -/
def h2At (u i : (⟨2, ![R, 128]⟩ : Shape).Idx → EReal) (w1a w1b : S32x128.Idx → EReal) (b1 : S1x128.Idx → EReal) (w2 : S128x64.Idx → EReal) (b2 : S1x64.Idx → EReal) (b : Fin R) (n : Fin 64) : EReal :=
  max ((∑ k : Fin 128, h1At u i w1a w1b b1 b k * w2 (ix2 k n)) + b2 (ix2 (0 : Fin 1) n)) 0

/-- Third layer at row b, unit n. -/
def h3At (u i : (⟨2, ![R, 128]⟩ : Shape).Idx → EReal) (w1a w1b : S32x128.Idx → EReal) (b1 : S1x128.Idx → EReal) (w2 : S128x64.Idx → EReal) (b2 : S1x64.Idx → EReal) (w3 : S64x32.Idx → EReal) (b3 : S1x32.Idx → EReal) (b : Fin R) (n : Fin 32) : EReal :=
  max ((∑ k : Fin 64, h2At u i w1a w1b b1 w2 b2 b k * w3 (ix2 k n)) + b3 (ix2 (0 : Fin 1) n)) 0

/-- The score at row b. -/
def mlpRow (u i : (⟨2, ![R, 128]⟩ : Shape).Idx → EReal) (w1a w1b : S32x128.Idx → EReal) (b1 : S1x128.Idx → EReal) (w2 : S128x64.Idx → EReal) (b2 : S1x64.Idx → EReal) (w3 : S64x32.Idx → EReal) (b3 : S1x32.Idx → EReal) (womf woh : S1x32.Idx → EReal) (bo : S1x1.Idx → EReal) (b : Fin R) : EReal :=
  (∑ k : Fin 32, (u (ix2 b (⟨0 + k.val, by omega⟩ : Fin 128)) * i (ix2 b (⟨32 + k.val, by omega⟩ : Fin 128)) * womf (ix2 (0 : Fin 1) k)
      + h3At u i w1a w1b b1 w2 b2 w3 b3 b k * woh (ix2 (0 : Fin 1) k)))
    + bo (ix2 (0 : Fin 1) (0 : Fin 1))

end Spec

/-- The score of row b of the two gathered [16384, 128] row arrays. -/
def mlpAt (u i : S16384x128.Idx → EReal) (w1a w1b : S32x128.Idx → EReal) (b1 : S1x128.Idx → EReal) (w2 : S128x64.Idx → EReal) (b2 : S1x64.Idx → EReal) (w3 : S64x32.Idx → EReal) (b3 : S1x32.Idx → EReal) (womf woh : S1x32.Idx → EReal) (bo : S1x1.Idx → EReal) (b : Fin 16384) : EReal :=
  mlpRow (R := 16384) u i w1a w1b b1 w2 b2 w3 b3 womf woh bo b

/-! ## The body's column on one block -/

theorem h1_eq (x0 x1 : S2048x128.Idx → EReal) (x2 x3 : S32x128.Idx → EReal) (x4 : S1x128.Idx → EReal) (r : Fin 2048) (n : Fin 128) :
    layer1 (F := Ideal) (cols 64 x0 slices_S2048x128_o0_64_S2048x32) (cols 96 x1 slices_S2048x128_o0_96_S2048x32) x2 x3 x4 (ix2 r n)
      = h1At (R := 2048) x0 x1 x2 x3 x4 r n := by
  rw [layer1_apply]
  unfold h1At
  simp only [cols_apply 64 (by omega), cols_apply 96 (by omega)]

theorem h2_eq (x0 x1 : S2048x128.Idx → EReal) (x2 x3 : S32x128.Idx → EReal) (x4 : S1x128.Idx → EReal)
    (x5 : S128x64.Idx → EReal) (x6 : S1x64.Idx → EReal) (r : Fin 2048) (n : Fin 64) :
    layer2 (F := Ideal) (layer1 (cols 64 x0 slices_S2048x128_o0_64_S2048x32) (cols 96 x1 slices_S2048x128_o0_96_S2048x32) x2 x3 x4) x5 x6 (ix2 r n)
      = h2At (R := 2048) x0 x1 x2 x3 x4 x5 x6 r n := by
  rw [layer2_apply]
  unfold h2At
  simp only [h1_eq]

theorem h3_eq (x0 x1 : S2048x128.Idx → EReal) (x2 x3 : S32x128.Idx → EReal) (x4 : S1x128.Idx → EReal)
    (x5 : S128x64.Idx → EReal) (x6 : S1x64.Idx → EReal) (x7 : S64x32.Idx → EReal) (x8 : S1x32.Idx → EReal) (r : Fin 2048) (n : Fin 32) :
    max (k2_pay6 (F := Ideal) x0 x1 x2 x3 x4 x5 x6 x7 x8 (ix2 r n)) 0 = h3At (R := 2048) x0 x1 x2 x3 x4 x5 x6 x7 x8 r n := by
  rw [k2_pay6_eq, layer3_apply]
  unfold h3At
  simp only [h2_eq]

/-- The body's column on a block, at row r, is the score of row r of the block. -/
theorem mlpBlk_apply (x0 : S2048x128.Idx → EReal) (x1 : S2048x128.Idx → EReal) (x2 : S32x128.Idx → EReal) (x3 : S32x128.Idx → EReal) (x4 : S1x128.Idx → EReal) (x5 : S128x64.Idx → EReal) (x6 : S1x64.Idx → EReal) (x7 : S64x32.Idx → EReal) (x8 : S1x32.Idx → EReal) (x9 : S1x32.Idx → EReal) (x10 : S1x32.Idx → EReal) (x11 : S1x1.Idx → EReal) (r : Fin 2048) (z : Fin 1) :
    mlpBlk (F := Ideal) x0 x1 x2 x3 x4 x5 x6 x7 x8 x9 x10 x11 (ix2 r z) = mlpRow (R := 2048) x0 x1 x2 x3 x4 x5 x6 x7 x8 x9 x10 x11 r := by
  obtain rfl : z = (0 : Fin 1) := Subsingleton.elim _ _
  unfold mlpBlk
  rw [k2_pay1_apply]
  unfold mlpRow
  refine congrArg (· + x11 (ix2 (0 : Fin 1) (0 : Fin 1))) (Finset.sum_congr rfl fun k _ => ?_)
  rw [h3_eq, k2_pay4_eq, k2_pay5_eq, cols_apply 0 (by omega), cols_apply 32 (by omega)]

/-! ## From the block to the whole arrays -/

/-- Row r of row block t is row 2048 t + r of the array. -/
theorem rowBlk_apply (a : S16384x128.Idx → EReal) (t : Nat) (ht : t < 8) (r : Fin 2048) (q : Fin 128) :
    rowBlk (F := Ideal) a t (ix2 r q) = a (ix2 (⟨t * 2048 + r.val, by omega⟩ : Fin 16384) q) := by
  unfold rowBlk
  refine congrArg a (funext fun d => Fin.ext ?_)
  match d with
  | ⟨0, _⟩ => show (t * 2048 + r.val) % 16384 = t * 2048 + r.val; have := r.isLt; omega
  | ⟨1, _⟩ => rfl

/-- The score of row r of row block t is the score of row 2048 t + r. -/
theorem mlpRow_rowBlk (u i : S16384x128.Idx → EReal) (w1a w1b : S32x128.Idx → EReal) (b1 : S1x128.Idx → EReal) (w2 : S128x64.Idx → EReal) (b2 : S1x64.Idx → EReal) (w3 : S64x32.Idx → EReal) (b3 : S1x32.Idx → EReal) (womf woh : S1x32.Idx → EReal) (bo : S1x1.Idx → EReal) (t : Nat) (ht : t < 8) (r : Fin 2048) :
    mlpRow (R := 2048) (rowBlk (F := Ideal) u t) (rowBlk (F := Ideal) i t) w1a w1b b1 w2 b2 w3 b3 womf woh bo r
      = mlpRow (R := 16384) u i w1a w1b b1 w2 b2 w3 b3 womf woh bo (⟨t * 2048 + r.val, by omega⟩ : Fin 16384) := by
  unfold mlpRow h3At h2At h1At
  simp only [rowBlk_apply _ t ht]

/-- THE VALUE: row b of the result column is the score of row b of the two gathered row arrays. -/
theorem mlpOut_apply (u i : S16384x128.Idx → EReal) (w1a w1b : S32x128.Idx → EReal) (b1 : S1x128.Idx → EReal) (w2 : S128x64.Idx → EReal) (b2 : S1x64.Idx → EReal) (w3 : S64x32.Idx → EReal) (b3 : S1x32.Idx → EReal) (womf woh : S1x32.Idx → EReal) (bo : S1x1.Idx → EReal) (b : Fin 16384) :
    mlpOut (F := Ideal) u i w1a w1b b1 w2 b2 w3 b3 womf woh bo (ix2 b (0 : Fin 1)) = mlpAt u i w1a w1b b1 w2 b2 w3 b3 womf woh bo b := by
  have hb := b.isLt
  show mlpBlk (F := Ideal) (rowBlk u (b.val / 2048)) (rowBlk i (b.val / 2048)) w1a w1b b1 w2 b2 w3 b3 womf woh bo
      (ix2 (n0 := 2048) (n1 := 1) ⟨b.val % 2048, Nat.mod_lt _ (by decide)⟩ ⟨0, Nat.one_pos⟩) = _
  rw [mlpBlk_apply, mlpRow_rowBlk u i w1a w1b b1 w2 b2 w3 b3 womf woh bo (b.val / 2048) (by omega)]
  unfold mlpAt
  refine congrArg _ (Fin.ext ?_)
  show b.val / 2048 * 2048 + b.val % 2048 = b.val
  omega

end Cert.Proof.KI

end
-- ==== Proof.Spec.lean ====
/-
  The score of one (user, item) pair as a function of the argument arrays, entry by entry, in the
  reference's own arrangement: one 64-long first-layer input (the user's row then the item's row of the two
  layer tables), three dense layers each followed by a maximum with zero, one 64-long final feature vector
  (the elementwise product of the two factor rows, then the third layer's activations), and one sum against
  the output weights plus the output bias. Rows are named by natural numbers below the tables' extent.
-/
import Idealize.ShloMosaic.PureOps.Ideal
import Idealize.ShloMosaic.Lib.ValueIdx

noncomputable section

open scoped BigOperators

namespace Cert.Proof.Ref

open Idealize.ShloMosaic Idealize.ShloMosaic.ValueIdx

/-- The table row an index word names, given that the word, read unsigned, is below the extent. -/
def rowOf (idx : IVec (⟨1, ![16384]⟩ : Shape) 32) (h : ∀ j, (idx j).toNat < 1000000) (b : Fin 16384) : Fin 1000000 :=
  ⟨(idx (ix1 b)).toNat, h _⟩

/-- The first layer's input at position `k`: the user's layer row for `k < 32`, then the item's. -/
def x0 (umlp imlp : FVec Ideal (⟨2, ![1000000, 32]⟩ : Shape) .f32) (u i : Fin 1000000) (k : Fin 64) : EReal :=
  if h : k.val < 32 then umlp (ix2 u (⟨k.val, h⟩ : Fin 32)) else imlp (ix2 i (⟨k.val - 32, by omega⟩ : Fin 32))

/-- First layer, 64 → 128, then the maximum with zero. -/
def h1 (umlp imlp : FVec Ideal (⟨2, ![1000000, 32]⟩ : Shape) .f32) (W1 : FVec Ideal (⟨2, ![64, 128]⟩ : Shape) .f32)
    (b1 : FVec Ideal (⟨1, ![128]⟩ : Shape) .f32) (u i : Fin 1000000) (n : Fin 128) : EReal :=
  max ((∑ k : Fin 64, x0 umlp imlp u i k * W1 (ix2 k n)) + b1 (ix1 n)) 0

/-- Second layer, 128 → 64, then the maximum with zero. -/
def h2 (umlp imlp : FVec Ideal (⟨2, ![1000000, 32]⟩ : Shape) .f32) (W1 : FVec Ideal (⟨2, ![64, 128]⟩ : Shape) .f32)
    (b1 : FVec Ideal (⟨1, ![128]⟩ : Shape) .f32) (W2 : FVec Ideal (⟨2, ![128, 64]⟩ : Shape) .f32)
    (b2 : FVec Ideal (⟨1, ![64]⟩ : Shape) .f32) (u i : Fin 1000000) (n : Fin 64) : EReal :=
  max ((∑ k : Fin 128, h1 umlp imlp W1 b1 u i k * W2 (ix2 k n)) + b2 (ix1 n)) 0

/-- Third layer, 64 → 32, then the maximum with zero. -/
def h3 (umlp imlp : FVec Ideal (⟨2, ![1000000, 32]⟩ : Shape) .f32) (W1 : FVec Ideal (⟨2, ![64, 128]⟩ : Shape) .f32)
    (b1 : FVec Ideal (⟨1, ![128]⟩ : Shape) .f32) (W2 : FVec Ideal (⟨2, ![128, 64]⟩ : Shape) .f32)
    (b2 : FVec Ideal (⟨1, ![64]⟩ : Shape) .f32) (W3 : FVec Ideal (⟨2, ![64, 32]⟩ : Shape) .f32)
    (b3 : FVec Ideal (⟨1, ![32]⟩ : Shape) .f32) (u i : Fin 1000000) (n : Fin 32) : EReal :=
  max ((∑ k : Fin 64, h2 umlp imlp W1 b1 W2 b2 u i k * W3 (ix2 k n)) + b3 (ix1 n)) 0

/-- The final features at position `k`: the product of the two factor rows for `k < 32`, then the third
    layer's activations. -/
def ff (umf imf umlp imlp : FVec Ideal (⟨2, ![1000000, 32]⟩ : Shape) .f32) (W1 : FVec Ideal (⟨2, ![64, 128]⟩ : Shape) .f32)
    (b1 : FVec Ideal (⟨1, ![128]⟩ : Shape) .f32) (W2 : FVec Ideal (⟨2, ![128, 64]⟩ : Shape) .f32)
    (b2 : FVec Ideal (⟨1, ![64]⟩ : Shape) .f32) (W3 : FVec Ideal (⟨2, ![64, 32]⟩ : Shape) .f32)
    (b3 : FVec Ideal (⟨1, ![32]⟩ : Shape) .f32) (u i : Fin 1000000) (k : Fin 64) : EReal :=
  if h : k.val < 32 then umf (ix2 u (⟨k.val, h⟩ : Fin 32)) * imf (ix2 i (⟨k.val, h⟩ : Fin 32))
  else h3 umlp imlp W1 b1 W2 b2 W3 b3 u i (⟨k.val - 32, by omega⟩ : Fin 32)

/-- The score of the pair (user row `u`, item row `i`). -/
def score (umf imf umlp imlp : FVec Ideal (⟨2, ![1000000, 32]⟩ : Shape) .f32) (W1 : FVec Ideal (⟨2, ![64, 128]⟩ : Shape) .f32)
    (b1 : FVec Ideal (⟨1, ![128]⟩ : Shape) .f32) (W2 : FVec Ideal (⟨2, ![128, 64]⟩ : Shape) .f32)
    (b2 : FVec Ideal (⟨1, ![64]⟩ : Shape) .f32) (W3 : FVec Ideal (⟨2, ![64, 32]⟩ : Shape) .f32)
    (b3 : FVec Ideal (⟨1, ![32]⟩ : Shape) .f32) (Wo : FVec Ideal (⟨2, ![64, 1]⟩ : Shape) .f32)
    (bo : FVec Ideal (⟨1, ![1]⟩ : Shape) .f32) (u i : Fin 1000000) : EReal :=
  (∑ k : Fin 64, ff umf imf umlp imlp W1 b1 W2 b2 W3 b3 u i k * Wo (ix2 k (0 : Fin 1))) + bo (ix1 (0 : Fin 1))

end Cert.Proof.Ref

end
-- ==== Proof.MlpBridge.lean ====
/-
  The kernel's score is the reference's score.

  The kernel keeps the two halves of every 64-long sum apart — the first layer's input arrives as two 32-column
  pieces against the two halves of the first weight matrix, and the final features as the product term and the
  third layer's activations against the two halves of the output weights — while the reference concatenates and
  sums once. A sum over 64 positions is the sum over the first 32 plus the sum over the last 32, and a sum of
  termwise sums is the sum of the sums: both hold on the extended reals as they stand, with no finiteness.
-/
import proofs.«212231_g88622355185883_cont_sun_m_1073_38_alg».proof.Proof.Spec
import proofs.«212231_g88622355185883_cont_sun_m_1073_38_alg».proof.Proof.MlpValue

set_option maxRecDepth 16384

noncomputable section

open scoped BigOperators

namespace Cert.Proof.KI

open Cert.KernelIdeal Cert.KernelIdeal.Gen

open Idealize.ShloMosaic Idealize.ShloMosaic.ValueIdx

/-- A sum over 64 positions is the sum over the first 32 plus the sum over the last 32. -/
theorem sum64_split (g : Fin 64 → EReal) :
    ∑ k : Fin 64, g k = (∑ k : Fin 32, g (⟨0 + k.val, by omega⟩ : Fin 64)) + ∑ k : Fin 32, g (⟨32 + k.val, by omega⟩ : Fin 64) := by
  refine (Fin.sum_univ_add (a := 32) (b := 32) g).trans ?_
  refine congrArg₂ (· + ·) (Finset.sum_congr rfl fun k _ => congrArg g (Fin.ext ?_)) (Finset.sum_congr rfl fun k _ => congrArg g (Fin.ext ?_))
  · show k.val = 0 + k.val; omega
  · rfl

section Bridge

variable (umf imf umlp imlp : FVec Ideal (⟨2, ![1000000, 32]⟩ : Shape) .f32) (W1 : FVec Ideal (⟨2, ![64, 128]⟩ : Shape) .f32)
  (c1 : FVec Ideal (⟨1, ![128]⟩ : Shape) .f32) (W2 : FVec Ideal (⟨2, ![128, 64]⟩ : Shape) .f32) (c2 : FVec Ideal (⟨1, ![64]⟩ : Shape) .f32)
  (W3 : FVec Ideal (⟨2, ![64, 32]⟩ : Shape) .f32) (c3 : FVec Ideal (⟨1, ![32]⟩ : Shape) .f32) (Wo : FVec Ideal (⟨2, ![64, 1]⟩ : Shape) .f32)
  (co : FVec Ideal (⟨1, ![1]⟩ : Shape) .f32) (ur ir : Fin 1000000)

/-! ## The reference's concatenations at their two halves -/

theorem x0_lo (k : Fin 32) : Ref.x0 umlp imlp ur ir (⟨0 + k.val, by omega⟩ : Fin 64) = umlp (ix2 ur k) := by
  unfold Ref.x0
  rw [dif_pos (show (0 + k.val) < 32 by omega)]
  exact congrArg (fun z => umlp (ix2 ur z)) (Fin.ext (Nat.zero_add _))

theorem x0_hi (k : Fin 32) : Ref.x0 umlp imlp ur ir (⟨32 + k.val, by omega⟩ : Fin 64) = imlp (ix2 ir k) := by
  unfold Ref.x0
  rw [dif_neg (show ¬ (32 + k.val) < 32 by omega)]
  exact congrArg (fun z => imlp (ix2 ir z)) (Fin.ext (show 32 + k.val - 32 = k.val by omega))

theorem ff_lo (k : Fin 32) :
    Ref.ff umf imf umlp imlp W1 c1 W2 c2 W3 c3 ur ir (⟨0 + k.val, by omega⟩ : Fin 64) = umf (ix2 ur k) * imf (ix2 ir k) := by
  unfold Ref.ff
  rw [dif_pos (show (0 + k.val) < 32 by omega)]
  exact congrArg (fun z => umf (ix2 ur z) * imf (ix2 ir z)) (Fin.ext (Nat.zero_add _))

theorem ff_hi (k : Fin 32) :
    Ref.ff umf imf umlp imlp W1 c1 W2 c2 W3 c3 ur ir (⟨32 + k.val, by omega⟩ : Fin 64) = Ref.h3 umlp imlp W1 c1 W2 c2 W3 c3 ur ir k := by
  unfold Ref.ff
  rw [dif_neg (show ¬ (32 + k.val) < 32 by omega)]
  exact congrArg (fun z => Ref.h3 umlp imlp W1 c1 W2 c2 W3 c3 ur ir z) (Fin.ext (show 32 + k.val - 32 = k.val by omega))

/-! ## The bridge -/

variable (u i : S16384x128.Idx → EReal) (w1a w1b : S32x128.Idx → EReal) (b1 : S1x128.Idx → EReal) (w2 : S128x64.Idx → EReal) (b2 : S1x64.Idx → EReal) (w3 : S64x32.Idx → EReal) (b3 : S1x32.Idx → EReal) (womf woh : S1x32.Idx → EReal) (bo : S1x1.Idx → EReal) (b : Fin 16384)

/-- Row b of the two gathered row arrays is the user's and the item's table rows side by side; the kernel's
    weight operands are the reference's, the first-layer and output weights cut in two. Then the kernel's score of
    row b is the reference's score of the pair. -/
theorem mlpAt_eq_score
    (hu0 : ∀ k : Fin 32, u (ix2 b (⟨0 + k.val, by omega⟩ : Fin 128)) = umf (ix2 ur k))
    (hi1 : ∀ k : Fin 32, i (ix2 b (⟨32 + k.val, by omega⟩ : Fin 128)) = imf (ix2 ir k))
    (hu2 : ∀ k : Fin 32, u (ix2 b (⟨64 + k.val, by omega⟩ : Fin 128)) = umlp (ix2 ur k))
    (hi3 : ∀ k : Fin 32, i (ix2 b (⟨96 + k.val, by omega⟩ : Fin 128)) = imlp (ix2 ir k))
    (hw1a : ∀ (k : Fin 32) (n : Fin 128), w1a (ix2 k n) = W1 (ix2 (⟨0 + k.val, by omega⟩ : Fin 64) n))
    (hw1b : ∀ (k : Fin 32) (n : Fin 128), w1b (ix2 k n) = W1 (ix2 (⟨32 + k.val, by omega⟩ : Fin 64) n))
    (hb1 : ∀ n : Fin 128, b1 (ix2 (0 : Fin 1) n) = c1 (ix1 n))
    (hw2 : ∀ (k : Fin 128) (n : Fin 64), w2 (ix2 k n) = W2 (ix2 k n))
    (hb2 : ∀ n : Fin 64, b2 (ix2 (0 : Fin 1) n) = c2 (ix1 n))
    (hw3 : ∀ (k : Fin 64) (n : Fin 32), w3 (ix2 k n) = W3 (ix2 k n))
    (hb3 : ∀ n : Fin 32, b3 (ix2 (0 : Fin 1) n) = c3 (ix1 n))
    (hwomf : ∀ k : Fin 32, womf (ix2 (0 : Fin 1) k) = Wo (ix2 (⟨0 + k.val, by omega⟩ : Fin 64) (0 : Fin 1)))
    (hwoh : ∀ k : Fin 32, woh (ix2 (0 : Fin 1) k) = Wo (ix2 (⟨32 + k.val, by omega⟩ : Fin 64) (0 : Fin 1)))
    (hbo : bo (ix2 (0 : Fin 1) (0 : Fin 1)) = co (ix1 (0 : Fin 1))) :
    mlpAt u i w1a w1b b1 w2 b2 w3 b3 womf woh bo b = Ref.score umf imf umlp imlp W1 c1 W2 c2 W3 c3 Wo co ur ir := by
  have e1 : ∀ n : Fin 128, h1At (R := 16384) u i w1a w1b b1 b n = Ref.h1 umlp imlp W1 c1 ur ir n := fun n => by
    unfold h1At Ref.h1
    rw [sum64_split]
    simp only [x0_lo, x0_hi, hu2, hi3, hw1a, hw1b, hb1]
  have e2 : ∀ n : Fin 64, h2At (R := 16384) u i w1a w1b b1 w2 b2 b n = Ref.h2 umlp imlp W1 c1 W2 c2 ur ir n := fun n => by
    unfold h2At Ref.h2
    simp only [e1, hw2, hb2]
  have e3 : ∀ n : Fin 32, h3At (R := 16384) u i w1a w1b b1 w2 b2 w3 b3 b n = Ref.h3 umlp imlp W1 c1 W2 c2 W3 c3 ur ir n := fun n => by
    unfold h3At Ref.h3
    simp only [e2, hw3, hb3]
  unfold mlpAt mlpRow Ref.score
  rw [sum64_split, Finset.sum_add_distrib]
  simp only [ff_lo, ff_hi, e3, hu0, hi1, hwomf, hwoh, hbo]

end Bridge

end Cert.Proof.KI

end
-- ==== Proof.LaunchValsAt.lean ====
/-
  The result vector at the extended reals, entry by entry: entry b is the score of the table rows that the b-th
  user index and the b-th item index name. The gathered rows are read back through the repacked table and the
  transposes to the four argument tables; the weight slices and the reshaped biases are read at an entry.
-/
import proofs.«212231_g88622355185883_cont_sun_m_1073_38_alg».proof.Proof.LaunchVals
import proofs.«212231_g88622355185883_cont_sun_m_1073_38_alg».proof.Proof.MlpValue
import proofs.«212231_g88622355185883_cont_sun_m_1073_38_alg».proof.Proof.MlpBridge
import proofs.«212231_g88622355185883_cont_sun_m_1073_38_alg».proof.Proof.Spec
import Idealize.ShloMosaic.Lib.ValueLayout

set_option maxRecDepth 16384

noncomputable section

open scoped BigOperators

namespace Cert.Proof.KI

open Cert.KernelIdeal Cert.KernelIdeal.Gen

open Idealize.ShloMosaic Idealize.ShloMosaic.TcCoe
open Idealize.ShloMosaic.SparseCore.Cfg (HIx)
open Idealize.SL Idealize.SL.Sem
open Idealize.ShloMosaic.StableHlo (held after)
open Idealize.ShloMosaic.ValueIdx (ix1 ix2 eq_ix2)

/-! ## Two reshapes of a column read at an entry -/

section Layout
variable {α : Type}

/-- An `[a, 1]` column cast to the `[1, a]` row reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column cast to the `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

variable {F : FTy → Type} [FloatOps F]
variable (m : (ℓ : Loc nD τ sig) → Buf (Elt F) ℓ)

/-! ## The gathered rows, read back to the argument tables -/

/-- Column `32 kq + k` of gathered user row `b` is entry `(row, k)` of argument table `kq`, at the row the `b`-th
    user index names. -/
theorem gU_read (c : Dev nD) (b : Fin 16384) (kq : Nat) (hkq : kq < 4) (k : Fin 32) (q : Fin 128) (hq : q.val = 32 * kq + k.val) :
    gU m (Tv m) c (ix2 b q)
      = (match kq with
          | 0 => m ((c.tc : Thread nD τ).loc main_arg2) | 1 => m ((c.tc : Thread nD τ).loc main_arg3)
          | 2 => m ((c.tc : Thread nD τ).loc main_arg4) | _ => m ((c.tc : Thread nD τ).loc main_arg5))
        (ix2 (n0 := 1000000) (n1 := 32) (rowOf (m (uLoc c) (ix1 b))) k) := by
  rw [gU_apply, Tv_eq, repack_apply _ _ _ _ _ kq hkq k (rowOf (m (uLoc c) (ix1 b))) rfl hq]
  match kq, hkq with
  | 0, _ => exact ValueIdx.transpose_ix2_apply (m ((c.tc : Thread nD τ).loc main_arg2)) _ k _
  | 1, _ => exact ValueIdx.transpose_ix2_apply (m ((c.tc : Thread nD τ).loc main_arg3)) _ k _
  | 2, _ => exact ValueIdx.transpose_ix2_apply (m ((c.tc : Thread nD τ).loc main_arg4)) _ k _
  | 3, _ => exact ValueIdx.transpose_ix2_apply (m ((c.tc : Thread nD τ).loc main_arg5)) _ k _

/-- The same of the gathered item rows. -/
theorem gI_read (c : Dev nD) (b : Fin 16384) (kq : Nat) (hkq : kq < 4) (k : Fin 32) (q : Fin 128) (hq : q.val = 32 * kq + k.val) :
    gI m (Tv m) c (ix2 b q)
      = (match kq with
          | 0 => m ((c.tc : Thread nD τ).loc main_arg2) | 1 => m ((c.tc : Thread nD τ).loc main_arg3)
          | 2 => m ((c.tc : Thread nD τ).loc main_arg4) | _ => m ((c.tc : Thread nD τ).loc main_arg5))
        (ix2 (n0 := 1000000) (n1 := 32) (rowOf (m (iLoc c) (ix1 b))) k) := by
  rw [gI_apply, Tv_eq, repack_apply _ _ _ _ _ kq hkq k (rowOf (m (iLoc c) (ix1 b))) rfl hq]
  match kq, hkq with
  | 0, _ => exact ValueIdx.transpose_ix2_apply (m ((c.tc : Thread nD τ).loc main_arg2)) _ k _
  | 1, _ => exact ValueIdx.transpose_ix2_apply (m ((c.tc : Thread nD τ).loc main_arg3)) _ k _
  | 2, _ => exact ValueIdx.transpose_ix2_apply (m ((c.tc : Thread nD τ).loc main_arg4)) _ k _
  | 3, _ => exact ValueIdx.transpose_ix2_apply (m ((c.tc : Thread nD τ).loc main_arg5)) _ k _

/-- The closing reshape: entry `b` of the result vector is row `b` of the score column. -/
theorem kernelOut_apply (c : Dev nD) (b : Fin 16384) :
    kernelOut m c (ix1 b)
      = mlpOut (gU m (Tv m) c) (gI m (Tv m) c)
          (extractStridedSlice S32x128 ![0, 0] (m ((c.tc : Thread nD τ).loc main_arg6)) slices_S64x128_S32x128_0_0)
          (extractStridedSlice S32x128 ![32, 0] (m ((c.tc : Thread nD τ).loc main_arg6)) slices_S64x128_S32x128_32_0)
          (shapeCast S1x128 (m ((c.tc : Thread nD τ).loc main_arg7)) shapeCasts_S128_S1x128)
          (m ((c.tc : Thread nD τ).loc main_arg8))
          (shapeCast S1x64 (m ((c.tc : Thread nD τ).loc main_arg9)) shapeCasts_S64_S1x64)
          (m ((c.tc : Thread nD τ).loc main_arg10))
          (shapeCast S1x32 (m ((c.tc : Thread nD τ).loc main_arg11)) shapeCasts_S32_S1x32)
          (shapeCast S1x32 (extractStridedSlice S32x1 ![0, 0] (m ((c.tc : Thread nD τ).loc main_arg12)) slices_S64x1_S32x1_0_0) shapeCasts_S32x1_S1x32)
          (shapeCast S1x32 (extractStridedSlice S32x1 ![32, 0] (m ((c.tc : Thread nD τ).loc main_arg12)) slices_S64x1_S32x1_32_0) shapeCasts_S32x1_S1x32)
          (shapeCast S1x1 (m ((c.tc : Thread nD τ).loc main_arg13)) shapeCasts_S1_S1x1)
          (ix2 (n0 := 16384) (n1 := 1) b (0 : Fin 1)) := by
  unfold kernelOut
  exact shapeCast_a1_a_apply _ _ b

/-! ## The result entry is the score -/

section AtIdeal
variable (mI : (ℓ : Loc nD τ sig) → Buf (Elt Ideal) ℓ)

/-- Under the index words naming rows of the table, the clamped row is the row. -/
theorem rowOf_eq (idx : IVec (⟨1, ![16384]⟩ : Shape) 32) (h : ∀ j, (idx j).toNat < 1000000) (b : Fin 16384) :
    rowOf (idx (ix1 b)) = Cert.Proof.Ref.rowOf idx h b :=
  Fin.ext (rowOf_val (h _))

/-- THE KERNEL'S SIDE OF THE BRIDGE: entry `b` of the result vector is the score of the rows the `b`-th user and
    item index words name, as a function of the twelve float argument arrays. -/
theorem kernelOut_eq_score (c : Dev nD) (hu : ∀ j, (mI (uLoc c) j).toNat < 1000000) (hi : ∀ j, (mI (iLoc c) j).toNat < 1000000)
    (b : Fin 16384) :
    kernelOut (F := Ideal) mI c (ix1 b)
      = Cert.Proof.Ref.score (mI ((c.tc : Thread nD τ).loc main_arg2)) (mI ((c.tc : Thread nD τ).loc main_arg3))
          (mI ((c.tc : Thread nD τ).loc main_arg4)) (mI ((c.tc : Thread nD τ).loc main_arg5))
          (mI ((c.tc : Thread nD τ).loc main_arg6)) (mI ((c.tc : Thread nD τ).loc main_arg7))
          (mI ((c.tc : Thread nD τ).loc main_arg8)) (mI ((c.tc : Thread nD τ).loc main_arg9))
          (mI ((c.tc : Thread nD τ).loc main_arg10)) (mI ((c.tc : Thread nD τ).loc main_arg11))
          (mI ((c.tc : Thread nD τ).loc main_arg12)) (mI ((c.tc : Thread nD τ).loc main_arg13))
          (Cert.Proof.Ref.rowOf (mI (uLoc c)) hu b) (Cert.Proof.Ref.rowOf (mI (iLoc c)) hi b) := by
  rw [kernelOut_apply, mlpOut_apply]
  refine mlpAt_eq_score _ _ _ _ _ _ _ _ _ _ _ _ _ _ _ _ _ _ _ _ _ _ _ _ _ _ _ ?_ ?_ ?_ ?_ ?_ ?_ ?_ ?_ ?_ ?_ ?_ ?_ ?_ ?_
  · intro k
    rw [gU_read mI c b 0 (by decide) k _ rfl, rowOf_eq (mI (uLoc c)) hu b]; rfl
  · intro k
    rw [gI_read mI c b 1 (by decide) k _ rfl, rowOf_eq (mI (iLoc c)) hi b]; rfl
  · intro k
    rw [gU_read mI c b 2 (by decide) k _ rfl, rowOf_eq (mI (uLoc c)) hu b]; rfl
  · intro k
    rw [gI_read mI c b 3 (by decide) k _ rfl, rowOf_eq (mI (iLoc c)) hi b]; rfl
  · intro k n
    exact ValueIdx.slice2_axis0_eq 0 (mI ((c.tc : Thread nD τ).loc main_arg6)) _ k n
  · intro k n
    exact ValueIdx.slice2_axis0_eq 32 (mI ((c.tc : Thread nD τ).loc main_arg6)) _ k n
  · intro n
    exact ValueIdx.shapeCast_a_1a_apply (mI ((c.tc : Thread nD τ).loc main_arg7)) _ 0 n
  · intro k n; rfl
  · intro n
    exact ValueIdx.shapeCast_a_1a_apply (mI ((c.tc : Thread nD τ).loc main_arg9)) _ 0 n
  · intro k n; rfl
  · intro n
    exact ValueIdx.shapeCast_a_1a_apply (mI ((c.tc : Thread nD τ).loc main_arg11)) _ 0 n
  · intro k
    exact (shapeCast_a1_1a_apply _ _ 0 k).trans (ValueIdx.slice2_axis0_eq 0 (mI ((c.tc : Thread nD τ).loc main_arg12)) _ k 0)
  · intro k
    exact (shapeCast_a1_1a_apply _ _ 0 k).trans (ValueIdx.slice2_axis0_eq 32 (mI ((c.tc : Thread nD τ).loc main_arg12)) _ k 0)
  · exact ValueIdx.shapeCast_a_1a_apply (mI ((c.tc : Thread nD τ).loc main_arg13)) _ 0 0

end AtIdeal

end Cert.Proof.KI

end
-- ==== Proof.RefRunOps.lean ====
/-
  The reference's main function as the list of its 121 host operations, the outlined functions written out at
  their call sites (four row lookups of 23 operations each, three maxima with zero of 3 each, and the main
  function's own 20), and its run: every weakly fair execution terminates with every buffer at the
  operations' fold over the launch contents.
-/
import proofs.«212231_g88622355185883_cont_sun_m_1073_38_alg».proof.ReferenceIdeal
import Idealize.ShloMosaic.Lib.StableHlo.Run

noncomputable section

namespace Cert.Proof.Ref

open Cert.ReferenceIdeal Cert.ReferenceIdeal.Facts₀ Idealize.ShloMosaic Idealize.SL.Sem Idealize.ShloMosaic.StableHlo

variable {F : FTy → Type} [FloatOps F] [Cert.ReferenceIdeal.Facts]

/-- The main function's operations in order, the calls unfolded: each row lookup writes its own record's
    buffers, its last operation the main function's value. -/
abbrev ops : List (HloOp τ sig (Elt F)) :=
  [
    -- row lookup 0: table main_arg2, indices main_arg0
    TRef.nullary main_call0.c (constantI S_ 32 0#32),
    TRef.unary main_call0.c main_call0.v0 (broadcastInDim S16384 ![] bcast_S_S16384),
    TRef.binary (.of main_arg0 : TRef sig ⟨S16384, .i32⟩) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0 : TRef sig ⟨S16384, .i32⟩) main_call0.v2 main_call0.v3 addi,
    TRef.ternary main_call0.v1 main_call0.v3 (.of main_arg0 : TRef sig ⟨S16384, .i32⟩) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2 : TRef sig ⟨S1000000x32, .f32⟩) main_call0.v5 main_call0.v13 (fun x i => Host.gather gather_S1000000x32_S16384x1_S16384x32_1_0_n_n_0_1_132 x i),
    TRef.unary main_call0.v12 main_call0.v14 (broadcastInDim S16384x32 ![0] bcast_S16384_S16384x32_0),
    TRef.nullary main_call0.cst (constant S_ .f32 0x7FC00000#32),
    TRef.unary main_call0.cst main_call0.v15 (broadcastInDim S16384x32 ![] bcast_S_S16384x32),
    TRef.ternary main_call0.v14 main_call0.v13 main_call0.v15 main_call0.v16 select,
    -- row lookup 1: table main_arg3, indices main_arg1
    TRef.nullary main_call1.c (constantI S_ 32 0#32),
    TRef.unary main_call1.c main_call1.v0 (broadcastInDim S16384 ![] bcast_S_S16384),
    TRef.binary (.of main_arg1 : TRef sig ⟨S16384, .i32⟩) main_call1.v0 main_call1.v1 (cmpi .slt),
    TRef.nullary main_call1.c_0 (constantI S_ 32 1000000#32),
    TRef.unary main_call1.c_0 main_call1.v2 (broadcastInDim S16384 ![] bcast_S_S16384),
    TRef.binary (.of main_arg1 : TRef sig ⟨S16384, .i32⟩) main_call1.v2 main_call1.v3 addi,
    TRef.ternary main_call1.v1 main_call1.v3 (.of main_arg1 : TRef sig ⟨S16384, .i32⟩) main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3 : TRef sig ⟨S1000000x32, .f32⟩) main_call1.v5 main_call1.v13 (fun x i => Host.gather gather_S1000000x32_S16384x1_S16384x32_1_0_n_n_0_1_132 x i),
    TRef.unary main_call1.v12 main_call1.v14 (broadcastInDim S16384x32 ![0] bcast_S16384_S16384x32_0),
    TRef.nullary main_call1.cst (constant S_ .f32 0x7FC00000#32),
    TRef.unary main_call1.cst main_call1.v15 (broadcastInDim S16384x32 ![] bcast_S_S16384x32),
    TRef.ternary main_call1.v14 main_call1.v13 main_call1.v15 main_call1.v16 select,
    -- row lookup 2: table main_arg4, indices main_arg0
    TRef.nullary main_call2.c (constantI S_ 32 0#32),
    TRef.unary main_call2.c main_call2.v0 (broadcastInDim S16384 ![] bcast_S_S16384),
    TRef.binary (.of main_arg0 : TRef sig ⟨S16384, .i32⟩) main_call2.v0 main_call2.v1 (cmpi .slt),
    TRef.nullary main_call2.c_0 (constantI S_ 32 1000000#32),
    TRef.unary main_call2.c_0 main_call2.v2 (broadcastInDim S16384 ![] bcast_S_S16384),
    TRef.binary (.of main_arg0 : TRef sig ⟨S16384, .i32⟩) main_call2.v2 main_call2.v3 addi,
    TRef.ternary main_call2.v1 main_call2.v3 (.of main_arg0 : TRef sig ⟨S16384, .i32⟩) main_call2.call0.v0 select,
    TRef.unary main_call2.call0.v0 main_call2.v5 (broadcastInDim S16384x1 ![0] bcast_S16384_S16384x1_0),
    TRef.nullary main_call2.c_1 (constantI S1 32 999999#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg4 : TRef sig ⟨S1000000x32, .f32⟩) main_call2.v5 main_call2.v13 (fun x i => Host.gather gather_S1000000x32_S16384x1_S16384x32_1_0_n_n_0_1_132 x i),
    TRef.unary main_call2.v12 main_call2.v14 (broadcastInDim S16384x32 ![0] bcast_S16384_S16384x32_0),
    TRef.nullary main_call2.cst (constant S_ .f32 0x7FC00000#32),
    TRef.unary main_call2.cst main_call2.v15 (broadcastInDim S16384x32 ![] bcast_S_S16384x32),
    TRef.ternary main_call2.v14 main_call2.v13 main_call2.v15 main_call2.v16 select,
    -- row lookup 3: table main_arg5, indices main_arg1
    TRef.nullary main_call3.c (constantI S_ 32 0#32),
    TRef.unary main_call3.c main_call3.v0 (broadcastInDim S16384 ![] bcast_S_S16384),
    TRef.binary (.of main_arg1 : TRef sig ⟨S16384, .i32⟩) main_call3.v0 main_call3.v1 (cmpi .slt),
    TRef.nullary main_call3.c_0 (constantI S_ 32 1000000#32),
    TRef.unary main_call3.c_0 main_call3.v2 (broadcastInDim S16384 ![] bcast_S_S16384),
    TRef.binary (.of main_arg1 : TRef sig ⟨S16384, .i32⟩) main_call3.v2 main_call3.v3 addi,
    TRef.ternary main_call3.v1 main_call3.v3 (.of main_arg1 : TRef sig ⟨S16384, .i32⟩) main_call3.call0.v0 select,
    TRef.unary main_call3.call0.v0 main_call3.v5 (broadcastInDim S16384x1 ![0] bcast_S16384_S16384x1_0),
    TRef.nullary main_call3.c_1 (constantI S1 32 999999#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary (.of main_arg5 : TRef sig ⟨S1000000x32, .f32⟩) main_call3.v5 main_call3.v13 (fun x i => Host.gather gather_S1000000x32_S16384x1_S16384x32_1_0_n_n_0_1_132 x i),
    TRef.unary main_call3.v12 main_call3.v14 (broadcastInDim S16384x32 ![0] bcast_S16384_S16384x32_0),
    TRef.nullary main_call3.cst (constant S_ .f32 0x7FC00000#32),
    TRef.unary main_call3.cst main_call3.v15 (broadcastInDim S16384x32 ![] bcast_S_S16384x32),
    TRef.ternary main_call3.v14 main_call3.v13 main_call3.v15 main_call3.v16 select,
    -- the product of the factor rows, the three layers, the output column and its reshape
    StableHlo.binary main_v0 main_v1 main_v4 (mulf : (⟨S16384x32, .f32⟩ : BufTy).Contents (Elt F) → (⟨S16384x32, .f32⟩ : BufTy).Contents (Elt F) → (⟨S16384x32, .f32⟩ : BufTy).Contents (Elt F)),
    StableHlo.binary main_v2 main_v3 main_v5 ((fun a b => concatenate S16384x64 1 [⟨S16384x32, a⟩, ⟨S16384x32, b⟩] concatenates_S16384x32_S16384x32_S16384x64_d1) : (⟨S16384x32, .f32⟩ : BufTy).Contents (Elt F) → (⟨S16384x32, .f32⟩ : BufTy).Contents (Elt F) → (⟨S16384x64, .f32⟩ : BufTy).Contents (Elt F)),
    StableHlo.binary main_v5 main_arg6 main_v6 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    StableHlo.unary main_arg7 main_v7 (broadcastInDim S1x128 ![1] bcast_S128_S1x128_1 : (⟨S128, .f32⟩ : BufTy).Contents (Elt F) → (⟨S1x128, .f32⟩ : BufTy).Contents (Elt F)),
    StableHlo.unary main_v7 main_v8 (broadcastInDim S16384x128 ![0, 1] bcast_S1x128_S16384x128_0_1 : (⟨S1x128, .f32⟩ : BufTy).Contents (Elt F) → (⟨S16384x128, .f32⟩ : BufTy).Contents (Elt F)),
    StableHlo.binary main_v6 main_v8 main_v9 (addf : (⟨S16384x128, .f32⟩ : BufTy).Contents (Elt F) → (⟨S16384x128, .f32⟩ : BufTy).Contents (Elt F) → (⟨S16384x128, .f32⟩ : BufTy).Contents (Elt F)),
    TRef.nullary main_call4.cst (constant S_ .f32 0x00000000#32),
    TRef.unary main_call4.cst main_call4.v0 (broadcastInDim S16384x128 ![] bcast_S_S16384x128),
    TRef.binary (.of main_v9 : TRef sig ⟨S16384x128, .f32⟩) main_call4.v0 main_call4.v1 maximumf,
    StableHlo.binary main_v10 main_arg8 main_v11 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    StableHlo.unary main_arg9 main_v12 (broadcastInDim S1x64 ![1] bcast_S64_S1x64_1 : (⟨S64, .f32⟩ : BufTy).Contents (Elt F) → (⟨S1x64, .f32⟩ : BufTy).Contents (Elt F)),
    StableHlo.unary main_v12 main_v13 (broadcastInDim S16384x64 ![0, 1] bcast_S1x64_S16384x64_0_1 : (⟨S1x64, .f32⟩ : BufTy).Contents (Elt F) → (⟨S16384x64, .f32⟩ : BufTy).Contents (Elt F)),
    StableHlo.binary main_v11 main_v13 main_v14 (addf : (⟨S16384x64, .f32⟩ : BufTy).Contents (Elt F) → (⟨S16384x64, .f32⟩ : BufTy).Contents (Elt F) → (⟨S16384x64, .f32⟩ : BufTy).Contents (Elt F)),
    TRef.nullary main_call5.cst (constant S_ .f32 0x00000000#32),
    TRef.unary main_call5.cst main_call5.v0 (broadcastInDim S16384x64 ![] bcast_S_S16384x64),
    TRef.binary (.of main_v14 : TRef sig ⟨S16384x64, .f32⟩) main_call5.v0 main_call5.v1 maximumf,
    StableHlo.binary main_v15 main_arg10 main_v16 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
    StableHlo.unary main_arg11 main_v17 (broadcastInDim S1x32 ![1] bcast_S32_S1x32_1 : (⟨S32, .f32⟩ : BufTy).Contents (Elt F) → (⟨S1x32, .f32⟩ : BufTy).Contents (Elt F)),
    StableHlo.unary main_v17 main_v18 (broadcastInDim S16384x32 ![0, 1] bcast_S1x32_S16384x32_0_1 : (⟨S1x32, .f32⟩ : BufTy).Contents (Elt F) → (⟨S16384x32, .f32⟩ : BufTy).Contents (Elt F)),
    StableHlo.binary main_v16 main_v18 main_v19 (addf : (⟨S16384x32, .f32⟩ : BufTy).Contents (Elt F) → (⟨S16384x32, .f32⟩ : BufTy).Contents (Elt F) → (⟨S16384x32, .f32⟩ : BufTy).Contents (Elt F)),
    TRef.nullary main_call6.cst (constant S_ .f32 0x00000000#32),
    TRef.unary main_call6.cst main_call6.v0 (broadcastInDim S16384x32 ![] bcast_S_S16384x32),
    TRef.binary (.of main_v19 : TRef sig ⟨S16384x32, .f32⟩) main_call6.v0 main_call6.v1 maximumf,
    StableHlo.binary main_v4 main_v20 main_v21 ((fun a b => concatenate S16384x64 1 [⟨S16384x32, a⟩, ⟨S16384x32, b⟩] concatenates_S16384x32_S16384x32_S16384x64_d1) : (⟨S16384x32, .f32⟩ : BufTy).Contents (Elt F) → (⟨S16384x32, .f32⟩ : BufTy).Contents (Elt F) → (⟨S16384x64, .f32⟩ : BufTy).Contents (Elt F)),
    StableHlo.binary main_v21 main_arg12 main_v22 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    StableHlo.unary main_arg13 main_v23 (broadcastInDim S1x1 ![1] bcast_S1_S1x1_1 : (⟨S1, .f32⟩ : BufTy).Contents (Elt F) → (⟨S1x1, .f32⟩ : BufTy).Contents (Elt F)),
    StableHlo.unary main_v23 main_v24 (broadcastInDim S16384x1 ![0, 1] bcast_S1x1_S16384x1_0_1 : (⟨S1x1, .f32⟩ : BufTy).Contents (Elt F) → (⟨S16384x1, .f32⟩ : BufTy).Contents (Elt F)),
    StableHlo.binary main_v22 main_v24 main_v25 (addf : (⟨S16384x1, .f32⟩ : BufTy).Contents (Elt F) → (⟨S16384x1, .f32⟩ : BufTy).Contents (Elt F) → (⟨S16384x1, .f32⟩ : BufTy).Contents (Elt F)),
    StableHlo.reshape main_v25 main_v26 rfl shapeCasts_S16384x1_S16384 ]

-- 121 binds re-associated: the rewrite under the chain recurses once per statement
set_option maxRecDepth 4096 in
/-- The main function is that straight line: the outlined functions unfolded at their calls and the records
    at their fields, both sides are one chain of steps once sequencing is re-associated. -/
theorem main_eq (c : Dev nD) : main (F := F) c = seq ops := by
  simp only [main, fn_take.body, fn_where.body, fn_relu.body, fn_relu_0.body, fn_relu_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., binary_bufs_sub .., binary_bufs_sub .., unary_bufs_sub .., unary_bufs_sub .., binary_bufs_sub ..,
    reshape_bufs_sub ..⟩

/-- From any memory with zero counters every weakly fair execution of the main function terminates, and every
    buffer ends at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.Proof.Ref

end
-- ==== Proof.RefRunTerm.lean ====
/-
  The reference's result as one pure term of its fourteen argument arrays: the composition of its host
  operations, with the operations of one row lookup (wrap a negative index, test the range, gather, select)
  and of one dense layer (product with the weights, bias row added, maximum with zero) named once.
-/
import proofs.«212231_g88622355185883_cont_sun_m_1073_38_alg».proof.ReferenceIdeal

noncomputable section

namespace Cert.Proof.Ref

open Cert.ReferenceIdeal Cert.ReferenceIdeal.Facts₀ Idealize.ShloMosaic

variable {F : FTy → Type} [FloatOps F] [Cert.ReferenceIdeal.Facts]

/-- The index column of a row lookup: a negative index word gets the table's extent added, then the
    vector becomes a one-column array of start indices. -/
def takeIdx (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 1000000#32))) idx)

/-- The range test of a row lookup, per row and broadcast along the row: 0 ≤ index ≤ 999999, signed. -/
def takeOk (i5 : IVec S16384x1 32) : IVec S16384x32 1 :=
  broadcastInDim S16384x32 ![0] bcast_S16384_S16384x32_0
    (Host.reduce IntOp.andi
      (andi (cmpi .sge i5 (broadcastInDim S16384x1 ![] bcast_S_S16384x1 (constantI S_ 32 0#32)))
        (cmpi .sle i5 (broadcastInDim S16384x1 ![0, 1] bcast_S1x1_S16384x1_0_1
          (broadcastInDim S1x1 ![1] bcast_S1_S1x1_1 (constantI S1 32 999999#32)))))
      (constantI S_ 1 1#1) reducesTo_S16384x1_S16384_d1 h_S_)

/-- One row lookup: the gathered rows where the index is in range, the quiet-NaN word elsewhere. -/
def take (tbl : FVec F S1000000x32 .f32) (idx : IVec S16384 32) : FVec F S16384x32 .f32 :=
  select (takeOk (takeIdx idx))
    (Host.gather gather_S1000000x32_S16384x1_S16384x32_1_0_n_n_0_1_132 tbl (takeIdx idx))
    (broadcastInDim S16384x32 ![] bcast_S_S16384x32 (constant S_ .f32 0x7FC00000#32))

/-- First dense layer: 64 → 128. -/
def layer1 (x : FVec F S16384x64 .f32) (W : FVec F S64x128 .f32) (b : FVec F S128 .f32) : FVec F S16384x128 .f32 :=
  maximumf
    (addf (Host.dotGeneral dot_S16384x64_S64x128_S16384x128_1_0_0_1_n_n none x W)
      (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-- Second dense layer: 128 → 64. -/
def layer2 (x : FVec F S16384x128 .f32) (W : FVec F S128x64 .f32) (b : FVec F S64 .f32) : FVec F S16384x64 .f32 :=
  maximumf
    (addf (Host.dotGeneral dot_S16384x128_S128x64_S16384x64_1_0_0_1_n_n none x W)
      (broadcastInDim S16384x64 ![0, 1] bcast_S1x64_S16384x64_0_1 (broadcastInDim S1x64 ![1] bcast_S64_S1x64_1 b)))
    (broadcastInDim S16384x64 ![] bcast_S_S16384x64 (constant S_ .f32 0x00000000#32))

/-- Third dense layer: 64 → 32. -/
def layer3 (x : FVec F S16384x64 .f32) (W : FVec F S64x32 .f32) (b : FVec F S32 .f32) : FVec F S16384x32 .f32 :=
  maximumf
    (addf (Host.dotGeneral dot_S16384x64_S64x32_S16384x32_1_0_0_1_n_n none x W)
      (broadcastInDim S16384x32 ![0, 1] bcast_S1x32_S16384x32_0_1 (broadcastInDim S1x32 ![1] bcast_S32_S1x32_1 b)))
    (broadcastInDim S16384x32 ![] bcast_S_S16384x32 (constant S_ .f32 0x00000000#32))

/-- The output column before the final reshape: the 64 final features against the output weights, plus the output bias. -/
def outCol (ffv : FVec F S16384x64 .f32) (Wo : FVec F S64x1 .f32) (bo : FVec F S1 .f32) : FVec F S16384x1 .f32 :=
  addf (Host.dotGeneral dot_S16384x64_S64x1_S16384x1_1_0_0_1_n_n none ffv Wo)
    (broadcastInDim S16384x1 ![0, 1] bcast_S1x1_S16384x1_0_1 (broadcastInDim S1x1 ![1] bcast_S1_S1x1_1 bo))

/-- The hidden activations: the three layers over the two looked-up layer rows side by side. -/
def hidden (t2 t3 : FVec F S16384x32 .f32) (a6 : FVec F S64x128 .f32) (a7 : FVec F S128 .f32)
    (a8 : FVec F S128x64 .f32) (a9 : FVec F S64 .f32) (a10 : FVec F S64x32 .f32) (a11 : FVec F S32 .f32) : FVec F S16384x32 .f32 :=
  layer3 (layer2 (layer1
    (concatenate S16384x64 1 [⟨S16384x32, t2⟩, ⟨S16384x32, t3⟩] concatenates_S16384x32_S16384x32_S16384x64_d1)
    a6 a7) a8 a9) a10 a11

/-- The final features: the elementwise product of the two looked-up factor rows, then the hidden activations. -/
def features (t0 t1 t2 t3 : FVec F S16384x32 .f32) (a6 : FVec F S64x128 .f32) (a7 : FVec F S128 .f32)
    (a8 : FVec F S128x64 .f32) (a9 : FVec F S64 .f32) (a10 : FVec F S64x32 .f32) (a11 : FVec F S32 .f32) : FVec F S16384x64 .f32 :=
  concatenate S16384x64 1 [⟨S16384x32, mulf t0 t1⟩, ⟨S16384x32, hidden t2 t3 a6 a7 a8 a9 a10 a11⟩]
    concatenates_S16384x32_S16384x32_S16384x64_d1

/-- Everything after the four row lookups, as a function of the looked-up rows and the dense arguments: the
    output column read as a vector. -/
def tailTerm (t0 t1 t2 t3 : FVec F S16384x32 .f32) (a6 : FVec F S64x128 .f32) (a7 : FVec F S128 .f32)
    (a8 : FVec F S128x64 .f32) (a9 : FVec F S64 .f32) (a10 : FVec F S64x32 .f32) (a11 : FVec F S32 .f32)
    (a12 : FVec F S64x1 .f32) (a13 : FVec F S1 .f32) : FVec F S16384 .f32 :=
  fun i => shapeCast S16384 (outCol (features t0 t1 t2 t3 a6 a7 a8 a9 a10 a11) a12 a13) shapeCasts_S16384x1_S16384 i

/-- The reference's result: the four row lookups (user and item factor rows, user and item layer rows), then the rest. -/
def refTerm (a0 a1 : IVec S16384 32) (a2 a3 a4 a5 : FVec F S1000000x32 .f32) (a6 : FVec F S64x128 .f32) (a7 : FVec F S128 .f32)
    (a8 : FVec F S128x64 .f32) (a9 : FVec F S64 .f32) (a10 : FVec F S64x32 .f32) (a11 : FVec F S32 .f32)
    (a12 : FVec F S64x1 .f32) (a13 : FVec F S1 .f32) : FVec F S16384 .f32 :=
  tailTerm (take a2 a0) (take a3 a1) (take a4 a0) (take a5 a1) a6 a7 a8 a9 a10 a11 a12 a13

end Cert.Proof.Ref

end
-- ==== Proof.LibAfterAppend.lean ====
/-
  The buffer contents after two stretches of host operations run one after the other are the contents after the
  second stretch, taken from the contents after the first.
-/
import Idealize.ShloMosaic.Lib.StableHlo.Run

namespace Cert.Lib

open Idealize.ShloMosaic Idealize.ShloMosaic.StableHlo

variable {τ : Topo} {sig : RefSig} {Val : EltTy → Type}

/-- The fold of a concatenation of operation lists is the fold of the second list from the fold of the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib
-- ==== Proof.LibTypedRefs.lean ====
/-
  A typed reference's two transports cancel.

  A tensor value of a module-local function is held in a buffer whose type equals the value's; contents move between the
  two types by transport along that equation, there and back.  Back after there is the identity.
-/
import Idealize.ShloMosaic.Lib.StableHlo

namespace Cert.Lib

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, h2, h3⟩ := x
  subst h
  rfl

end Cert.Lib
-- ==== Proof.RefRunParts.lean ====
/-
  The reference's 121 operations cut into five stretches — the four row lookups and the rest — and what each
  stretch leaves in the buffers the later ones read: a lookup's stretch leaves the looked-up rows in its result
  buffer and every argument buffer and every other lookup's result as it was; the last stretch leaves the composed
  term of the four looked-up arrays and the dense arguments in the result buffer and the arguments as they were.
-/
import proofs.«212231_g88622355185883_cont_sun_m_1073_38_alg».proof.Proof.RefRunOps
import proofs.«212231_g88622355185883_cont_sun_m_1073_38_alg».proof.Proof.RefRunTerm
import proofs.«212231_g88622355185883_cont_sun_m_1073_38_alg».proof.Proof.LibAfterAppend
import proofs.«212231_g88622355185883_cont_sun_m_1073_38_alg».proof.Proof.LibTypedRefs

noncomputable section

namespace Cert.Proof.Ref

open Cert.ReferenceIdeal Cert.ReferenceIdeal.Facts₀ Idealize.ShloMosaic Idealize.SL.Sem Idealize.ShloMosaic.StableHlo

variable {F : FTy → Type} [FloatOps F] [Cert.ReferenceIdeal.Facts]

/-- The operations of row lookup 0. -/
def opsT0 : List (HloOp τ sig (Elt F)) :=
  [
    -- row lookup 0: table main_arg2, indices main_arg0
    TRef.nullary main_call0.c (constantI S_ 32 0#32),
    TRef.unary main_call0.c main_call0.v0 (broadcastInDim S16384 ![] bcast_S_S16384),
    TRef.binary (.of main_arg0 : TRef sig ⟨S16384, .i32⟩) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0 : TRef sig ⟨S16384, .i32⟩) main_call0.v2 main_call0.v3 addi,
    TRef.ternary main_call0.v1 main_call0.v3 (.of main_arg0 : TRef sig ⟨S16384, .i32⟩) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2 : TRef sig ⟨S1000000x32, .f32⟩) main_call0.v5 main_call0.v13 (fun x i => Host.gather gather_S1000000x32_S16384x1_S16384x32_1_0_n_n_0_1_132 x i),
    TRef.unary main_call0.v12 main_call0.v14 (broadcastInDim S16384x32 ![0] bcast_S16384_S16384x32_0),
    TRef.nullary main_call0.cst (constant S_ .f32 0x7FC00000#32),
    TRef.unary main_call0.cst main_call0.v15 (broadcastInDim S16384x32 ![] bcast_S_S16384x32),
    TRef.ternary main_call0.v14 main_call0.v13 main_call0.v15 main_call0.v16 select ]

/-- The operations of row lookup 1. -/
def opsT1 : List (HloOp τ sig (Elt F)) :=
  [
    -- row lookup 1: table main_arg3, indices main_arg1
    TRef.nullary main_call1.c (constantI S_ 32 0#32),
    TRef.unary main_call1.c main_call1.v0 (broadcastInDim S16384 ![] bcast_S_S16384),
    TRef.binary (.of main_arg1 : TRef sig ⟨S16384, .i32⟩) main_call1.v0 main_call1.v1 (cmpi .slt),
    TRef.nullary main_call1.c_0 (constantI S_ 32 1000000#32),
    TRef.unary main_call1.c_0 main_call1.v2 (broadcastInDim S16384 ![] bcast_S_S16384),
    TRef.binary (.of main_arg1 : TRef sig ⟨S16384, .i32⟩) main_call1.v2 main_call1.v3 addi,
    TRef.ternary main_call1.v1 main_call1.v3 (.of main_arg1 : TRef sig ⟨S16384, .i32⟩) main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3 : TRef sig ⟨S1000000x32, .f32⟩) main_call1.v5 main_call1.v13 (fun x i => Host.gather gather_S1000000x32_S16384x1_S16384x32_1_0_n_n_0_1_132 x i),
    TRef.unary main_call1.v12 main_call1.v14 (broadcastInDim S16384x32 ![0] bcast_S16384_S16384x32_0),
    TRef.nullary main_call1.cst (constant S_ .f32 0x7FC00000#32),
    TRef.unary main_call1.cst main_call1.v15 (broadcastInDim S16384x32 ![] bcast_S_S16384x32),
    TRef.ternary main_call1.v14 main_call1.v13 main_call1.v15 main_call1.v16 select ]

/-- The operations of row lookup 2. -/
def opsT2 : List (HloOp τ sig (Elt F)) :=
  [
    -- row lookup 2: table main_arg4, indices main_arg0
    TRef.nullary main_call2.c (constantI S_ 32 0#32),
    TRef.unary main_call2.c main_call2.v0 (broadcastInDim S16384 ![] bcast_S_S16384),
    TRef.binary (.of main_arg0 : TRef sig ⟨S16384, .i32⟩) main_call2.v0 main_call2.v1 (cmpi .slt),
    TRef.nullary main_call2.c_0 (constantI S_ 32 1000000#32),
    TRef.unary main_call2.c_0 main_call2.v2 (broadcastInDim S16384 ![] bcast_S_S16384),
    TRef.binary (.of main_arg0 : TRef sig ⟨S16384, .i32⟩) main_call2.v2 main_call2.v3 addi,
    TRef.ternary main_call2.v1 main_call2.v3 (.of main_arg0 : TRef sig ⟨S16384, .i32⟩) main_call2.call0.v0 select,
    TRef.unary main_call2.call0.v0 main_call2.v5 (broadcastInDim S16384x1 ![0] bcast_S16384_S16384x1_0),
    TRef.nullary main_call2.c_1 (constantI S1 32 999999#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg4 : TRef sig ⟨S1000000x32, .f32⟩) main_call2.v5 main_call2.v13 (fun x i => Host.gather gather_S1000000x32_S16384x1_S16384x32_1_0_n_n_0_1_132 x i),
    TRef.unary main_call2.v12 main_call2.v14 (broadcastInDim S16384x32 ![0] bcast_S16384_S16384x32_0),
    TRef.nullary main_call2.cst (constant S_ .f32 0x7FC00000#32),
    TRef.unary main_call2.cst main_call2.v15 (broadcastInDim S16384x32 ![] bcast_S_S16384x32),
    TRef.ternary main_call2.v14 main_call2.v13 main_call2.v15 main_call2.v16 select ]

/-- The operations of row lookup 3. -/
def opsT3 : List (HloOp τ sig (Elt F)) :=
  [
    -- row lookup 3: table main_arg5, indices main_arg1
    TRef.nullary main_call3.c (constantI S_ 32 0#32),
    TRef.unary main_call3.c main_call3.v0 (broadcastInDim S16384 ![] bcast_S_S16384),
    TRef.binary (.of main_arg1 : TRef sig ⟨S16384, .i32⟩) main_call3.v0 main_call3.v1 (cmpi .slt),
    TRef.nullary main_call3.c_0 (constantI S_ 32 1000000#32),
    TRef.unary main_call3.c_0 main_call3.v2 (broadcastInDim S16384 ![] bcast_S_S16384),
    TRef.binary (.of main_arg1 : TRef sig ⟨S16384, .i32⟩) main_call3.v2 main_call3.v3 addi,
    TRef.ternary main_call3.v1 main_call3.v3 (.of main_arg1 : TRef sig ⟨S16384, .i32⟩) main_call3.call0.v0 select,
    TRef.unary main_call3.call0.v0 main_call3.v5 (broadcastInDim S16384x1 ![0] bcast_S16384_S16384x1_0),
    TRef.nullary main_call3.c_1 (constantI S1 32 999999#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary (.of main_arg5 : TRef sig ⟨S1000000x32, .f32⟩) main_call3.v5 main_call3.v13 (fun x i => Host.gather gather_S1000000x32_S16384x1_S16384x32_1_0_n_n_0_1_132 x i),
    TRef.unary main_call3.v12 main_call3.v14 (broadcastInDim S16384x32 ![0] bcast_S16384_S16384x32_0),
    TRef.nullary main_call3.cst (constant S_ .f32 0x7FC00000#32),
    TRef.unary main_call3.cst main_call3.v15 (broadcastInDim S16384x32 ![] bcast_S_S16384x32),
    TRef.ternary main_call3.v14 main_call3.v13 main_call3.v15 main_call3.v16 select ]

/-- The operations after the four row lookups. -/
def opsM : List (HloOp τ sig (Elt F)) :=
  [
    StableHlo.binary main_v0 main_v1 main_v4 (mulf : (⟨S16384x32, .f32⟩ : BufTy).Contents (Elt F) → (⟨S16384x32, .f32⟩ : BufTy).Contents (Elt F) → (⟨S16384x32, .f32⟩ : BufTy).Contents (Elt F)),
    StableHlo.binary main_v2 main_v3 main_v5 ((fun a b => concatenate S16384x64 1 [⟨S16384x32, a⟩, ⟨S16384x32, b⟩] concatenates_S16384x32_S16384x32_S16384x64_d1) : (⟨S16384x32, .f32⟩ : BufTy).Contents (Elt F) → (⟨S16384x32, .f32⟩ : BufTy).Contents (Elt F) → (⟨S16384x64, .f32⟩ : BufTy).Contents (Elt F)),
    StableHlo.binary main_v5 main_arg6 main_v6 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    StableHlo.unary main_arg7 main_v7 (broadcastInDim S1x128 ![1] bcast_S128_S1x128_1 : (⟨S128, .f32⟩ : BufTy).Contents (Elt F) → (⟨S1x128, .f32⟩ : BufTy).Contents (Elt F)),
    StableHlo.unary main_v7 main_v8 (broadcastInDim S16384x128 ![0, 1] bcast_S1x128_S16384x128_0_1 : (⟨S1x128, .f32⟩ : BufTy).Contents (Elt F) → (⟨S16384x128, .f32⟩ : BufTy).Contents (Elt F)),
    StableHlo.binary main_v6 main_v8 main_v9 (addf : (⟨S16384x128, .f32⟩ : BufTy).Contents (Elt F) → (⟨S16384x128, .f32⟩ : BufTy).Contents (Elt F) → (⟨S16384x128, .f32⟩ : BufTy).Contents (Elt F)),
    TRef.nullary main_call4.cst (constant S_ .f32 0x00000000#32),
    TRef.unary main_call4.cst main_call4.v0 (broadcastInDim S16384x128 ![] bcast_S_S16384x128),
    TRef.binary (.of main_v9 : TRef sig ⟨S16384x128, .f32⟩) main_call4.v0 main_call4.v1 maximumf,
    StableHlo.binary main_v10 main_arg8 main_v11 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    StableHlo.unary main_arg9 main_v12 (broadcastInDim S1x64 ![1] bcast_S64_S1x64_1 : (⟨S64, .f32⟩ : BufTy).Contents (Elt F) → (⟨S1x64, .f32⟩ : BufTy).Contents (Elt F)),
    StableHlo.unary main_v12 main_v13 (broadcastInDim S16384x64 ![0, 1] bcast_S1x64_S16384x64_0_1 : (⟨S1x64, .f32⟩ : BufTy).Contents (Elt F) → (⟨S16384x64, .f32⟩ : BufTy).Contents (Elt F)),
    StableHlo.binary main_v11 main_v13 main_v14 (addf : (⟨S16384x64, .f32⟩ : BufTy).Contents (Elt F) → (⟨S16384x64, .f32⟩ : BufTy).Contents (Elt F) → (⟨S16384x64, .f32⟩ : BufTy).Contents (Elt F)),
    TRef.nullary main_call5.cst (constant S_ .f32 0x00000000#32),
    TRef.unary main_call5.cst main_call5.v0 (broadcastInDim S16384x64 ![] bcast_S_S16384x64),
    TRef.binary (.of main_v14 : TRef sig ⟨S16384x64, .f32⟩) main_call5.v0 main_call5.v1 maximumf,
    StableHlo.binary main_v15 main_arg10 main_v16 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
    StableHlo.unary main_arg11 main_v17 (broadcastInDim S1x32 ![1] bcast_S32_S1x32_1 : (⟨S32, .f32⟩ : BufTy).Contents (Elt F) → (⟨S1x32, .f32⟩ : BufTy).Contents (Elt F)),
    StableHlo.unary main_v17 main_v18 (broadcastInDim S16384x32 ![0, 1] bcast_S1x32_S16384x32_0_1 : (⟨S1x32, .f32⟩ : BufTy).Contents (Elt F) → (⟨S16384x32, .f32⟩ : BufTy).Contents (Elt F)),
    StableHlo.binary main_v16 main_v18 main_v19 (addf : (⟨S16384x32, .f32⟩ : BufTy).Contents (Elt F) → (⟨S16384x32, .f32⟩ : BufTy).Contents (Elt F) → (⟨S16384x32, .f32⟩ : BufTy).Contents (Elt F)),
    TRef.nullary main_call6.cst (constant S_ .f32 0x00000000#32),
    TRef.unary main_call6.cst main_call6.v0 (broadcastInDim S16384x32 ![] bcast_S_S16384x32),
    TRef.binary (.of main_v19 : TRef sig ⟨S16384x32, .f32⟩) main_call6.v0 main_call6.v1 maximumf,
    StableHlo.binary main_v4 main_v20 main_v21 ((fun a b => concatenate S16384x64 1 [⟨S16384x32, a⟩, ⟨S16384x32, b⟩] concatenates_S16384x32_S16384x32_S16384x64_d1) : (⟨S16384x32, .f32⟩ : BufTy).Contents (Elt F) → (⟨S16384x32, .f32⟩ : BufTy).Contents (Elt F) → (⟨S16384x64, .f32⟩ : BufTy).Contents (Elt F)),
    StableHlo.binary main_v21 main_arg12 main_v22 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    StableHlo.unary main_arg13 main_v23 (broadcastInDim S1x1 ![1] bcast_S1_S1x1_1 : (⟨S1, .f32⟩ : BufTy).Contents (Elt F) → (⟨S1x1, .f32⟩ : BufTy).Contents (Elt F)),
    StableHlo.unary main_v23 main_v24 (broadcastInDim S16384x1 ![0, 1] bcast_S1x1_S16384x1_0_1 : (⟨S1x1, .f32⟩ : BufTy).Contents (Elt F) → (⟨S16384x1, .f32⟩ : BufTy).Contents (Elt F)),
    StableHlo.binary main_v22 main_v24 main_v25 (addf : (⟨S16384x1, .f32⟩ : BufTy).Contents (Elt F) → (⟨S16384x1, .f32⟩ : BufTy).Contents (Elt F) → (⟨S16384x1, .f32⟩ : BufTy).Contents (Elt F)),
    StableHlo.reshape main_v25 main_v26 rfl shapeCasts_S16384x1_S16384 ]

/-- The 121 operations are the five stretches in order. -/
theorem ops_split : (ops : List (HloOp τ sig (Elt F))) = opsT0 ++ (opsT1 ++ (opsT2 ++ (opsT3 ++ opsM))) := rfl

/-! ### Row lookup 0 -/

theorem take0_eq (W : Valuation τ sig (Elt F)) :
    after opsT0 W (no_index (Proc.devRef .tc main_v0)) = take (W (Proc.devRef .tc main_arg2)) (W (Proc.devRef .tc main_arg0)) := by
  unfold opsT0
  after_results_simp
  simp only [Cert.Lib.ofBuf_toBuf]
  simp only [TRef.ofBuf, TRef.toBuf, cast_eq]
  rfl
theorem fr0_arg0 (W : Valuation τ sig (Elt F)) : after opsT0 W (no_index (Proc.devRef .tc main_arg0)) = W (Proc.devRef .tc main_arg0) := by
  unfold opsT0; after_results_simp
theorem fr0_arg1 (W : Valuation τ sig (Elt F)) : after opsT0 W (no_index (Proc.devRef .tc main_arg1)) = W (Proc.devRef .tc main_arg1) := by
  unfold opsT0; after_results_simp
theorem fr0_arg2 (W : Valuation τ sig (Elt F)) : after opsT0 W (no_index (Proc.devRef .tc main_arg2)) = W (Proc.devRef .tc main_arg2) := by
  unfold opsT0; after_results_simp
theorem fr0_arg3 (W : Valuation τ sig (Elt F)) : after opsT0 W (no_index (Proc.devRef .tc main_arg3)) = W (Proc.devRef .tc main_arg3) := by
  unfold opsT0; after_results_simp
theorem fr0_arg4 (W : Valuation τ sig (Elt F)) : after opsT0 W (no_index (Proc.devRef .tc main_arg4)) = W (Proc.devRef .tc main_arg4) := by
  unfold opsT0; after_results_simp
theorem fr0_arg5 (W : Valuation τ sig (Elt F)) : after opsT0 W (no_index (Proc.devRef .tc main_arg5)) = W (Proc.devRef .tc main_arg5) := by
  unfold opsT0; after_results_simp
theorem fr0_arg6 (W : Valuation τ sig (Elt F)) : after opsT0 W (no_index (Proc.devRef .tc main_arg6)) = W (Proc.devRef .tc main_arg6) := by
  unfold opsT0; after_results_simp
theorem fr0_arg7 (W : Valuation τ sig (Elt F)) : after opsT0 W (no_index (Proc.devRef .tc main_arg7)) = W (Proc.devRef .tc main_arg7) := by
  unfold opsT0; after_results_simp
theorem fr0_arg8 (W : Valuation τ sig (Elt F)) : after opsT0 W (no_index (Proc.devRef .tc main_arg8)) = W (Proc.devRef .tc main_arg8) := by
  unfold opsT0; after_results_simp
theorem fr0_arg9 (W : Valuation τ sig (Elt F)) : after opsT0 W (no_index (Proc.devRef .tc main_arg9)) = W (Proc.devRef .tc main_arg9) := by
  unfold opsT0; after_results_simp
theorem fr0_arg10 (W : Valuation τ sig (Elt F)) : after opsT0 W (no_index (Proc.devRef .tc main_arg10)) = W (Proc.devRef .tc main_arg10) := by
  unfold opsT0; after_results_simp
theorem fr0_arg11 (W : Valuation τ sig (Elt F)) : after opsT0 W (no_index (Proc.devRef .tc main_arg11)) = W (Proc.devRef .tc main_arg11) := by
  unfold opsT0; after_results_simp
theorem fr0_arg12 (W : Valuation τ sig (Elt F)) : after opsT0 W (no_index (Proc.devRef .tc main_arg12)) = W (Proc.devRef .tc main_arg12) := by
  unfold opsT0; after_results_simp
theorem fr0_arg13 (W : Valuation τ sig (Elt F)) : after opsT0 W (no_index (Proc.devRef .tc main_arg13)) = W (Proc.devRef .tc main_arg13) := by
  unfold opsT0; after_results_simp
theorem fr0_v1 (W : Valuation τ sig (Elt F)) : after opsT0 W (no_index (Proc.devRef .tc main_v1)) = W (Proc.devRef .tc main_v1) := by
  unfold opsT0; after_results_simp
theorem fr0_v2 (W : Valuation τ sig (Elt F)) : after opsT0 W (no_index (Proc.devRef .tc main_v2)) = W (Proc.devRef .tc main_v2) := by
  unfold opsT0; after_results_simp
theorem fr0_v3 (W : Valuation τ sig (Elt F)) : after opsT0 W (no_index (Proc.devRef .tc main_v3)) = W (Proc.devRef .tc main_v3) := by
  unfold opsT0; after_results_simp

/-! ### Row lookup 1 -/

theorem take1_eq (W : Valuation τ sig (Elt F)) :
    after opsT1 W (no_index (Proc.devRef .tc main_v1)) = take (W (Proc.devRef .tc main_arg3)) (W (Proc.devRef .tc main_arg1)) := by
  unfold opsT1
  after_results_simp
  simp only [Cert.Lib.ofBuf_toBuf]
  simp only [TRef.ofBuf, TRef.toBuf, cast_eq]
  rfl
theorem fr1_arg0 (W : Valuation τ sig (Elt F)) : after opsT1 W (no_index (Proc.devRef .tc main_arg0)) = W (Proc.devRef .tc main_arg0) := by
  unfold opsT1; after_results_simp
theorem fr1_arg1 (W : Valuation τ sig (Elt F)) : after opsT1 W (no_index (Proc.devRef .tc main_arg1)) = W (Proc.devRef .tc main_arg1) := by
  unfold opsT1; after_results_simp
theorem fr1_arg2 (W : Valuation τ sig (Elt F)) : after opsT1 W (no_index (Proc.devRef .tc main_arg2)) = W (Proc.devRef .tc main_arg2) := by
  unfold opsT1; after_results_simp
theorem fr1_arg3 (W : Valuation τ sig (Elt F)) : after opsT1 W (no_index (Proc.devRef .tc main_arg3)) = W (Proc.devRef .tc main_arg3) := by
  unfold opsT1; after_results_simp
theorem fr1_arg4 (W : Valuation τ sig (Elt F)) : after opsT1 W (no_index (Proc.devRef .tc main_arg4)) = W (Proc.devRef .tc main_arg4) := by
  unfold opsT1; after_results_simp
theorem fr1_arg5 (W : Valuation τ sig (Elt F)) : after opsT1 W (no_index (Proc.devRef .tc main_arg5)) = W (Proc.devRef .tc main_arg5) := by
  unfold opsT1; after_results_simp
theorem fr1_arg6 (W : Valuation τ sig (Elt F)) : after opsT1 W (no_index (Proc.devRef .tc main_arg6)) = W (Proc.devRef .tc main_arg6) := by
  unfold opsT1; after_results_simp
theorem fr1_arg7 (W : Valuation τ sig (Elt F)) : after opsT1 W (no_index (Proc.devRef .tc main_arg7)) = W (Proc.devRef .tc main_arg7) := by
  unfold opsT1; after_results_simp
theorem fr1_arg8 (W : Valuation τ sig (Elt F)) : after opsT1 W (no_index (Proc.devRef .tc main_arg8)) = W (Proc.devRef .tc main_arg8) := by
  unfold opsT1; after_results_simp
theorem fr1_arg9 (W : Valuation τ sig (Elt F)) : after opsT1 W (no_index (Proc.devRef .tc main_arg9)) = W (Proc.devRef .tc main_arg9) := by
  unfold opsT1; after_results_simp
theorem fr1_arg10 (W : Valuation τ sig (Elt F)) : after opsT1 W (no_index (Proc.devRef .tc main_arg10)) = W (Proc.devRef .tc main_arg10) := by
  unfold opsT1; after_results_simp
theorem fr1_arg11 (W : Valuation τ sig (Elt F)) : after opsT1 W (no_index (Proc.devRef .tc main_arg11)) = W (Proc.devRef .tc main_arg11) := by
  unfold opsT1; after_results_simp
theorem fr1_arg12 (W : Valuation τ sig (Elt F)) : after opsT1 W (no_index (Proc.devRef .tc main_arg12)) = W (Proc.devRef .tc main_arg12) := by
  unfold opsT1; after_results_simp
theorem fr1_arg13 (W : Valuation τ sig (Elt F)) : after opsT1 W (no_index (Proc.devRef .tc main_arg13)) = W (Proc.devRef .tc main_arg13) := by
  unfold opsT1; after_results_simp
theorem fr1_v0 (W : Valuation τ sig (Elt F)) : after opsT1 W (no_index (Proc.devRef .tc main_v0)) = W (Proc.devRef .tc main_v0) := by
  unfold opsT1; after_results_simp
theorem fr1_v2 (W : Valuation τ sig (Elt F)) : after opsT1 W (no_index (Proc.devRef .tc main_v2)) = W (Proc.devRef .tc main_v2) := by
  unfold opsT1; after_results_simp
theorem fr1_v3 (W : Valuation τ sig (Elt F)) : after opsT1 W (no_index (Proc.devRef .tc main_v3)) = W (Proc.devRef .tc main_v3) := by
  unfold opsT1; after_results_simp

/-! ### Row lookup 2 -/

theorem take2_eq (W : Valuation τ sig (Elt F)) :
    after opsT2 W (no_index (Proc.devRef .tc main_v2)) = take (W (Proc.devRef .tc main_arg4)) (W (Proc.devRef .tc main_arg0)) := by
  unfold opsT2
  after_results_simp
  simp only [Cert.Lib.ofBuf_toBuf]
  simp only [TRef.ofBuf, TRef.toBuf, cast_eq]
  rfl
theorem fr2_arg0 (W : Valuation τ sig (Elt F)) : after opsT2 W (no_index (Proc.devRef .tc main_arg0)) = W (Proc.devRef .tc main_arg0) := by
  unfold opsT2; after_results_simp
theorem fr2_arg1 (W : Valuation τ sig (Elt F)) : after opsT2 W (no_index (Proc.devRef .tc main_arg1)) = W (Proc.devRef .tc main_arg1) := by
  unfold opsT2; after_results_simp
theorem fr2_arg2 (W : Valuation τ sig (Elt F)) : after opsT2 W (no_index (Proc.devRef .tc main_arg2)) = W (Proc.devRef .tc main_arg2) := by
  unfold opsT2; after_results_simp
theorem fr2_arg3 (W : Valuation τ sig (Elt F)) : after opsT2 W (no_index (Proc.devRef .tc main_arg3)) = W (Proc.devRef .tc main_arg3) := by
  unfold opsT2; after_results_simp
theorem fr2_arg4 (W : Valuation τ sig (Elt F)) : after opsT2 W (no_index (Proc.devRef .tc main_arg4)) = W (Proc.devRef .tc main_arg4) := by
  unfold opsT2; after_results_simp
theorem fr2_arg5 (W : Valuation τ sig (Elt F)) : after opsT2 W (no_index (Proc.devRef .tc main_arg5)) = W (Proc.devRef .tc main_arg5) := by
  unfold opsT2; after_results_simp
theorem fr2_arg6 (W : Valuation τ sig (Elt F)) : after opsT2 W (no_index (Proc.devRef .tc main_arg6)) = W (Proc.devRef .tc main_arg6) := by
  unfold opsT2; after_results_simp
theorem fr2_arg7 (W : Valuation τ sig (Elt F)) : after opsT2 W (no_index (Proc.devRef .tc main_arg7)) = W (Proc.devRef .tc main_arg7) := by
  unfold opsT2; after_results_simp
theorem fr2_arg8 (W : Valuation τ sig (Elt F)) : after opsT2 W (no_index (Proc.devRef .tc main_arg8)) = W (Proc.devRef .tc main_arg8) := by
  unfold opsT2; after_results_simp
theorem fr2_arg9 (W : Valuation τ sig (Elt F)) : after opsT2 W (no_index (Proc.devRef .tc main_arg9)) = W (Proc.devRef .tc main_arg9) := by
  unfold opsT2; after_results_simp
theorem fr2_arg10 (W : Valuation τ sig (Elt F)) : after opsT2 W (no_index (Proc.devRef .tc main_arg10)) = W (Proc.devRef .tc main_arg10) := by
  unfold opsT2; after_results_simp
theorem fr2_arg11 (W : Valuation τ sig (Elt F)) : after opsT2 W (no_index (Proc.devRef .tc main_arg11)) = W (Proc.devRef .tc main_arg11) := by
  unfold opsT2; after_results_simp
theorem fr2_arg12 (W : Valuation τ sig (Elt F)) : after opsT2 W (no_index (Proc.devRef .tc main_arg12)) = W (Proc.devRef .tc main_arg12) := by
  unfold opsT2; after_results_simp
theorem fr2_arg13 (W : Valuation τ sig (Elt F)) : after opsT2 W (no_index (Proc.devRef .tc main_arg13)) = W (Proc.devRef .tc main_arg13) := by
  unfold opsT2; after_results_simp
theorem fr2_v0 (W : Valuation τ sig (Elt F)) : after opsT2 W (no_index (Proc.devRef .tc main_v0)) = W (Proc.devRef .tc main_v0) := by
  unfold opsT2; after_results_simp
theorem fr2_v1 (W : Valuation τ sig (Elt F)) : after opsT2 W (no_index (Proc.devRef .tc main_v1)) = W (Proc.devRef .tc main_v1) := by
  unfold opsT2; after_results_simp
theorem fr2_v3 (W : Valuation τ sig (Elt F)) : after opsT2 W (no_index (Proc.devRef .tc main_v3)) = W (Proc.devRef .tc main_v3) := by
  unfold opsT2; after_results_simp

/-! ### Row lookup 3 -/

theorem take3_eq (W : Valuation τ sig (Elt F)) :
    after opsT3 W (no_index (Proc.devRef .tc main_v3)) = take (W (Proc.devRef .tc main_arg5)) (W (Proc.devRef .tc main_arg1)) := by
  unfold opsT3
  after_results_simp
  simp only [Cert.Lib.ofBuf_toBuf]
  simp only [TRef.ofBuf, TRef.toBuf, cast_eq]
  rfl
theorem fr3_arg0 (W : Valuation τ sig (Elt F)) : after opsT3 W (no_index (Proc.devRef .tc main_arg0)) = W (Proc.devRef .tc main_arg0) := by
  unfold opsT3; after_results_simp
theorem fr3_arg1 (W : Valuation τ sig (Elt F)) : after opsT3 W (no_index (Proc.devRef .tc main_arg1)) = W (Proc.devRef .tc main_arg1) := by
  unfold opsT3; after_results_simp
theorem fr3_arg2 (W : Valuation τ sig (Elt F)) : after opsT3 W (no_index (Proc.devRef .tc main_arg2)) = W (Proc.devRef .tc main_arg2) := by
  unfold opsT3; after_results_simp
theorem fr3_arg3 (W : Valuation τ sig (Elt F)) : after opsT3 W (no_index (Proc.devRef .tc main_arg3)) = W (Proc.devRef .tc main_arg3) := by
  unfold opsT3; after_results_simp
theorem fr3_arg4 (W : Valuation τ sig (Elt F)) : after opsT3 W (no_index (Proc.devRef .tc main_arg4)) = W (Proc.devRef .tc main_arg4) := by
  unfold opsT3; after_results_simp
theorem fr3_arg5 (W : Valuation τ sig (Elt F)) : after opsT3 W (no_index (Proc.devRef .tc main_arg5)) = W (Proc.devRef .tc main_arg5) := by
  unfold opsT3; after_results_simp
theorem fr3_arg6 (W : Valuation τ sig (Elt F)) : after opsT3 W (no_index (Proc.devRef .tc main_arg6)) = W (Proc.devRef .tc main_arg6) := by
  unfold opsT3; after_results_simp
theorem fr3_arg7 (W : Valuation τ sig (Elt F)) : after opsT3 W (no_index (Proc.devRef .tc main_arg7)) = W (Proc.devRef .tc main_arg7) := by
  unfold opsT3; after_results_simp
theorem fr3_arg8 (W : Valuation τ sig (Elt F)) : after opsT3 W (no_index (Proc.devRef .tc main_arg8)) = W (Proc.devRef .tc main_arg8) := by
  unfold opsT3; after_results_simp
theorem fr3_arg9 (W : Valuation τ sig (Elt F)) : after opsT3 W (no_index (Proc.devRef .tc main_arg9)) = W (Proc.devRef .tc main_arg9) := by
  unfold opsT3; after_results_simp
theorem fr3_arg10 (W : Valuation τ sig (Elt F)) : after opsT3 W (no_index (Proc.devRef .tc main_arg10)) = W (Proc.devRef .tc main_arg10) := by
  unfold opsT3; after_results_simp
theorem fr3_arg11 (W : Valuation τ sig (Elt F)) : after opsT3 W (no_index (Proc.devRef .tc main_arg11)) = W (Proc.devRef .tc main_arg11) := by
  unfold opsT3; after_results_simp
theorem fr3_arg12 (W : Valuation τ sig (Elt F)) : after opsT3 W (no_index (Proc.devRef .tc main_arg12)) = W (Proc.devRef .tc main_arg12) := by
  unfold opsT3; after_results_simp
theorem fr3_arg13 (W : Valuation τ sig (Elt F)) : after opsT3 W (no_index (Proc.devRef .tc main_arg13)) = W (Proc.devRef .tc main_arg13) := by
  unfold opsT3; after_results_simp
theorem fr3_v0 (W : Valuation τ sig (Elt F)) : after opsT3 W (no_index (Proc.devRef .tc main_v0)) = W (Proc.devRef .tc main_v0) := by
  unfold opsT3; after_results_simp
theorem fr3_v1 (W : Valuation τ sig (Elt F)) : after opsT3 W (no_index (Proc.devRef .tc main_v1)) = W (Proc.devRef .tc main_v1) := by
  unfold opsT3; after_results_simp
theorem fr3_v2 (W : Valuation τ sig (Elt F)) : after opsT3 W (no_index (Proc.devRef .tc main_v2)) = W (Proc.devRef .tc main_v2) := by
  unfold opsT3; after_results_simp

/-! ### The rest -/

theorem tail_eq (W : Valuation τ sig (Elt F)) :
    after opsM W (no_index (Proc.devRef .tc main_v26))
      = tailTerm (W (Proc.devRef .tc main_v0)) (W (Proc.devRef .tc main_v1)) (W (Proc.devRef .tc main_v2)) (W (Proc.devRef .tc main_v3)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  unfold opsM
  after_results_simp
  rfl
theorem frM_arg0 (W : Valuation τ sig (Elt F)) : after opsM W (no_index (Proc.devRef .tc main_arg0)) = W (Proc.devRef .tc main_arg0) := by
  unfold opsM; after_results_simp
theorem frM_arg1 (W : Valuation τ sig (Elt F)) : after opsM W (no_index (Proc.devRef .tc main_arg1)) = W (Proc.devRef .tc main_arg1) := by
  unfold opsM; after_results_simp
theorem frM_arg2 (W : Valuation τ sig (Elt F)) : after opsM W (no_index (Proc.devRef .tc main_arg2)) = W (Proc.devRef .tc main_arg2) := by
  unfold opsM; after_results_simp
theorem frM_arg3 (W : Valuation τ sig (Elt F)) : after opsM W (no_index (Proc.devRef .tc main_arg3)) = W (Proc.devRef .tc main_arg3) := by
  unfold opsM; after_results_simp
theorem frM_arg4 (W : Valuation τ sig (Elt F)) : after opsM W (no_index (Proc.devRef .tc main_arg4)) = W (Proc.devRef .tc main_arg4) := by
  unfold opsM; after_results_simp
theorem frM_arg5 (W : Valuation τ sig (Elt F)) : after opsM W (no_index (Proc.devRef .tc main_arg5)) = W (Proc.devRef .tc main_arg5) := by
  unfold opsM; after_results_simp
theorem frM_arg6 (W : Valuation τ sig (Elt F)) : after opsM W (no_index (Proc.devRef .tc main_arg6)) = W (Proc.devRef .tc main_arg6) := by
  unfold opsM; after_results_simp
theorem frM_arg7 (W : Valuation τ sig (Elt F)) : after opsM W (no_index (Proc.devRef .tc main_arg7)) = W (Proc.devRef .tc main_arg7) := by
  unfold opsM; after_results_simp
theorem frM_arg8 (W : Valuation τ sig (Elt F)) : after opsM W (no_index (Proc.devRef .tc main_arg8)) = W (Proc.devRef .tc main_arg8) := by
  unfold opsM; after_results_simp
theorem frM_arg9 (W : Valuation τ sig (Elt F)) : after opsM W (no_index (Proc.devRef .tc main_arg9)) = W (Proc.devRef .tc main_arg9) := by
  unfold opsM; after_results_simp
theorem frM_arg10 (W : Valuation τ sig (Elt F)) : after opsM W (no_index (Proc.devRef .tc main_arg10)) = W (Proc.devRef .tc main_arg10) := by
  unfold opsM; after_results_simp
theorem frM_arg11 (W : Valuation τ sig (Elt F)) : after opsM W (no_index (Proc.devRef .tc main_arg11)) = W (Proc.devRef .tc main_arg11) := by
  unfold opsM; after_results_simp
theorem frM_arg12 (W : Valuation τ sig (Elt F)) : after opsM W (no_index (Proc.devRef .tc main_arg12)) = W (Proc.devRef .tc main_arg12) := by
  unfold opsM; after_results_simp
theorem frM_arg13 (W : Valuation τ sig (Elt F)) : after opsM W (no_index (Proc.devRef .tc main_arg13)) = W (Proc.devRef .tc main_arg13) := by
  unfold opsM; after_results_simp

end Cert.Proof.Ref

end
-- ==== Proof.RefRun.lean ====
/-
  The reference's run: from any memory with zero counters every weakly fair execution of the main function
  terminates, with the result buffer at the composed term of the fourteen argument arrays and the argument arrays
  unchanged. The fold over the 121 operations is taken stretch by stretch: the last stretch reads the four
  looked-up arrays and the dense arguments, each lookup's stretch leaves the others' results and all arguments as
  they were.
-/
import proofs.«212231_g88622355185883_cont_sun_m_1073_38_alg».proof.Proof.RefRunParts

noncomputable section

namespace Cert.Proof.Ref

open Cert.ReferenceIdeal Cert.ReferenceIdeal.Facts₀ Idealize.ShloMosaic Idealize.SL.Sem Idealize.ShloMosaic.StableHlo

variable {F : FTy → Type} [FloatOps F] [Cert.ReferenceIdeal.Facts]

/-- The fold of all the operations at the result buffer is the composed term of the argument buffers' contents. -/
theorem out_eq (V : Valuation τ sig (Elt F)) :
    after ops V (Proc.devRef .tc main_v26)
      = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_split, Cert.Lib.after_append, Cert.Lib.after_append, Cert.Lib.after_append, Cert.Lib.after_append, tail_eq]
  simp only [take0_eq, take1_eq, take2_eq, take3_eq,
    fr0_arg0, fr0_arg1, fr0_arg2, fr0_arg3, fr0_arg4, fr0_arg5, fr0_arg6, fr0_arg7, fr0_arg8, fr0_arg9, fr0_arg10, fr0_arg11, fr0_arg12, fr0_arg13, fr0_v1, fr0_v2, fr0_v3, fr1_arg0, fr1_arg1, fr1_arg2, fr1_arg3, fr1_arg4, fr1_arg5, fr1_arg6, fr1_arg7, fr1_arg8, fr1_arg9, fr1_arg10, fr1_arg11, fr1_arg12, fr1_arg13, fr1_v0, fr1_v2, fr1_v3, fr2_arg0, fr2_arg1, fr2_arg2, fr2_arg3, fr2_arg4, fr2_arg5, fr2_arg6, fr2_arg7, fr2_arg8, fr2_arg9, fr2_arg10, fr2_arg11, fr2_arg12, fr2_arg13, fr2_v0, fr2_v1, fr2_v3, fr3_arg0, fr3_arg1, fr3_arg2, fr3_arg3, fr3_arg4, fr3_arg5, fr3_arg6, fr3_arg7, fr3_arg8, fr3_arg9, fr3_arg10, fr3_arg11, fr3_arg12, fr3_arg13, fr3_v0, fr3_v1, fr3_v2]
  rfl

/-- The fold of all the operations at each argument buffer is the buffer's contents before. -/
theorem args_eq (V : Valuation τ sig (Elt F)) :
    after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5)
      ∧ after ops V (Proc.devRef .tc main_arg6) = V (Proc.devRef .tc main_arg6)
      ∧ after ops V (Proc.devRef .tc main_arg7) = V (Proc.devRef .tc main_arg7)
      ∧ after ops V (Proc.devRef .tc main_arg8) = V (Proc.devRef .tc main_arg8)
      ∧ after ops V (Proc.devRef .tc main_arg9) = V (Proc.devRef .tc main_arg9)
      ∧ after ops V (Proc.devRef .tc main_arg10) = V (Proc.devRef .tc main_arg10)
      ∧ after ops V (Proc.devRef .tc main_arg11) = V (Proc.devRef .tc main_arg11)
      ∧ after ops V (Proc.devRef .tc main_arg12) = V (Proc.devRef .tc main_arg12)
      ∧ after ops V (Proc.devRef .tc main_arg13) = V (Proc.devRef .tc main_arg13) := by
  rw [ops_split]
  simp only [Cert.Lib.after_append, frM_arg0, frM_arg1, frM_arg2, frM_arg3, frM_arg4, frM_arg5, frM_arg6, frM_arg7, frM_arg8, frM_arg9, frM_arg10, frM_arg11, frM_arg12, frM_arg13,
    fr0_arg0, fr0_arg1, fr0_arg2, fr0_arg3, fr0_arg4, fr0_arg5, fr0_arg6, fr0_arg7, fr0_arg8, fr0_arg9, fr0_arg10, fr0_arg11, fr0_arg12, fr0_arg13, fr1_arg0, fr1_arg1, fr1_arg2, fr1_arg3, fr1_arg4, fr1_arg5, fr1_arg6, fr1_arg7, fr1_arg8, fr1_arg9, fr1_arg10, fr1_arg11, fr1_arg12, fr1_arg13, fr2_arg0, fr2_arg1, fr2_arg2, fr2_arg3, fr2_arg4, fr2_arg5, fr2_arg6, fr2_arg7, fr2_arg8, fr2_arg9, fr2_arg10, fr2_arg11, fr2_arg12, fr2_arg13, fr3_arg0, fr3_arg1, fr3_arg2, fr3_arg3, fr3_arg4, fr3_arg5, fr3_arg6, fr3_arg7, fr3_arg8, fr3_arg9, fr3_arg10, fr3_arg11, fr3_arg12, fr3_arg13, and_self]

/-- From any memory with zero counters every weakly fair execution of the reference's main function terminates with the
    result at the composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v26)
        = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c main_v26).trans (out_eq (launchContents m c)),
      (h c main_arg0).trans (args_eq (launchContents m c)).1,
      (h c main_arg1).trans (args_eq (launchContents m c)).2.1,
      (h c main_arg2).trans (args_eq (launchContents m c)).2.2.1,
      (h c main_arg3).trans (args_eq (launchContents m c)).2.2.2.1,
      (h c main_arg4).trans (args_eq (launchContents m c)).2.2.2.2.1,
      (h c main_arg5).trans (args_eq (launchContents m c)).2.2.2.2.2.1,
      (h c main_arg6).trans (args_eq (launchContents m c)).2.2.2.2.2.2.1,
      (h c main_arg7).trans (args_eq (launchContents m c)).2.2.2.2.2.2.2.1,
      (h c main_arg8).trans (args_eq (launchContents m c)).2.2.2.2.2.2.2.2.1,
      (h c main_arg9).trans (args_eq (launchContents m c)).2.2.2.2.2.2.2.2.2.1,
      (h c main_arg10).trans (args_eq (launchContents m c)).2.2.2.2.2.2.2.2.2.2.1,
      (h c main_arg11).trans (args_eq (launchContents m c)).2.2.2.2.2.2.2.2.2.2.2.1,
      (h c main_arg12).trans (args_eq (launchContents m c)).2.2.2.2.2.2.2.2.2.2.2.2.1,
      (h c main_arg13).trans (args_eq (launchContents m c)).2.2.2.2.2.2.2.2.2.2.2.2.2⟩)
    (run_all m ρ)

end Cert.Proof.Ref

end
-- ==== Proof.LibGatherRows.lean ====
/-
  A row lookup read at an entry.

  `table[idx]` for a table [N, C] and a column [R, 1] of start indices lowers to a gather that collapses the table's
  first axis, takes whole rows (slices of 1 × C) and keeps the row's coordinate as the result's second axis. Read at
  result entry (r, k) it is the table at row `idx (r, 0)` — read signed and clamped into [0, N − 1], as every start
  index of a gather is — and column k: on the collapsed axis the operand coordinate is the clamped start, on the kept
  axis the start is 0 and the coordinate is the result's own.
-/
import Idealize.ShloMosaic.PureOps.Ideal
import Idealize.ShloMosaic.Lib.ValueIdx

noncomputable section

namespace Cert.Lib

open Idealize.ShloMosaic Idealize.ShloMosaic.ValueIdx

variable {α : Type}

/-- The dimension numbers of a row lookup: operand [N, C], start indices [R, 1], result [R, C]. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW LOOKUP READ AT (r, k): the table at the start index `idx (r, 0)`, read signed and clamped into
    [0, N − 1], and column k. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N C R wf) x idx (ix2 r k)
      = x (ix2 (⟨min (idx (ix2 r (0 : Fin 1))).toInt.toNat (N - 1), by omega⟩ : Fin N) k) := by
  unfold Host.gather
  congr 1
  funext a
  refine Fin.ext ?_
  match a with
  | ⟨0, _⟩ =>
    show (rowDims N C R wf).start (ix2 r k) idx 0 + (rowDims N C R wf).batchCoord (ix2 r k) 0
      + (rowDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r k) ⟨List.idxOf (0 : Fin 2) (rowDims N C R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    show (rowDims N C R wf).start (ix2 r k) idx 1 + (rowDims N C R wf).batchCoord (ix2 r k) 1
      + (rowDims N C R wf).offCoord (ix2 r k) 1 = k.val
    have h1 : (1 : Fin 2) ∈ (rowDims N C R wf).sKept :=
      (GatherDims.mem_sKept _ _).mpr ⟨(show (1 : Fin 2) ∉ [(0 : Fin 2)] from by decide), List.not_mem_nil⟩
    rw [GatherDims.batchCoord_eq_zero _ _ _ List.not_mem_nil]
    unfold GatherDims.start GatherDims.offCoord
    rw [dif_neg (show (1 : Fin 2) ∉ (rowDims N C R wf).startIndexMap from (show (1 : Fin 2) ∉ [(0 : Fin 2)] from by decide)), dif_pos h1]
    simp only [Nat.add_zero, Nat.zero_add]
    rfl

end Cert.Lib

end
-- ==== Proof.RefValueTake.lean ====
/-
  One row lookup read at an entry, under the hypothesis that every index word, read unsigned, is below the table's
  extent. Such a word has its sign bit clear, so it reads the same signed: the test "negative" fails and the wrapped
  index is the word itself; the range test 0 ≤ index ≤ 999999 holds in every row, so the "and" over the row's one
  column is 1 and the select keeps the gathered value; and the gather's clamp into [0, 999999] leaves the index as it is.
  So the looked-up array at (b, k) is the table at (row named by word b, k).
-/
import proofs.«212231_g88622355185883_cont_sun_m_1073_38_alg».proof.Proof.RefRunTerm
import proofs.«212231_g88622355185883_cont_sun_m_1073_38_alg».proof.Proof.Spec
import proofs.«212231_g88622355185883_cont_sun_m_1073_38_alg».proof.Proof.LibGatherRows
import Idealize.ShloMosaic.Lib.Pipeline.Value
import Idealize.ShloMosaic.Lib.Affine

noncomputable section

namespace Cert.Proof.Ref

open Cert.ReferenceIdeal Cert.ReferenceIdeal.Facts₀ Idealize.ShloMosaic Idealize.ShloMosaic.ValueIdx

variable {F : FTy → Type} [FloatOps F] [Cert.ReferenceIdeal.Facts]

/-- A left fold by "and" from 1 over one-bit words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- An "and"-reduction from the initial value 1 of an array of ones is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) _ fun n _ => hx _

/-- A word below 1000000 read unsigned reads the same signed. -/
theorem toInt_of_lt (w : BitVec 32) (h : w.toNat < 1000000) : w.toInt = (w.toNat : Int) :=
  BitVec.toInt_eq_toNat_of_lt (by omega)

/-- The wrapped index column at row `b` is index word `b`. -/
theorem takeIdx_apply (idx : IVec S16384 32) (h : ∀ j, (idx j).toNat < 1000000) (b : Fin 16384) (z : Fin 1) :
    takeIdx idx (ix2 b z) = idx (ix1 b) := by
  unfold takeIdx
  refine (broadcastInDim_apply _ bcast_S16384_S16384x1_0 _ (ix2 b z) (ix1 b) fun a => ?_).trans ?_
  · match a with
    | ⟨0, _⟩ =>
      show b.val = if (16384 : ℕ) = 1 then 0 else b.val
      rw [if_neg (by decide)]
  · have hc : IntOp.cmpi .slt (idx (ix1 b)) 0#32 = 0#1 := by
      apply eq_zero_of_ne_one
      intro h1
      have h2 := IntOp.cmpi_slt.1 h1
      rw [toInt_of_lt _ (h (ix1 b)), show (0#32 : BitVec 32).toInt = 0 from by decide] at h2
      omega
    show Scalar.select (IntOp.cmpi .slt (idx (ix1 b)) 0#32) _ (idx (ix1 b)) = idx (ix1 b)
    rw [hc, select_zero]

/-- The range test is 1 at every entry. -/
theorem takeOk_apply (idx : IVec S16384 32) (h : ∀ j, (idx j).toNat < 1000000) (b : Fin 16384) (k : Fin 32) :
    takeOk (takeIdx idx) (ix2 b k) = 1#1 := by
  unfold takeOk
  refine (broadcastInDim_apply _ bcast_S16384_S16384x32_0 _ (ix2 b k) (ix1 b) fun a => ?_).trans ?_
  · match a with
    | ⟨0, _⟩ =>
      show b.val = if (16384 : ℕ) = 1 then 0 else b.val
      rw [if_neg (by decide)]
  · refine reduce_andi_one _ _ _ _ (fun i => ?_) (fun _ => rfl) _
    obtain ⟨r, z, rfl⟩ : ∃ (r : Fin 16384) (z : Fin 1), i = ix2 r z := ⟨i 0, i 1, eq_ix2 i⟩
    show IntOp.andi (IntOp.cmpi .sge (takeIdx idx (ix2 r z)) 0#32) (IntOp.cmpi .sle (takeIdx idx (ix2 r z)) 999999#32) = 1#1
    rw [takeIdx_apply idx h r z]
    have hj := h (ix1 r)
    refine IntOp.andi_eq_one.2 ⟨IntOp.cmpi_sge.2 ?_, IntOp.cmpi_sle.2 ?_⟩
    · rw [toInt_of_lt _ hj, show (0#32 : BitVec 32).toInt = 0 from by decide]; omega
    · rw [toInt_of_lt _ hj, show (999999#32 : BitVec 32).toInt = 999999 from by decide]; omega

/-- THE ROW LOOKUP AT AN ENTRY: the table at the row the index word names. -/
theorem take_apply (tbl : FVec F S1000000x32 .f32) (idx : IVec S16384 32) (h : ∀ j, (idx j).toNat < 1000000)
    (b : Fin 16384) (k : Fin 32) :
    take tbl idx (ix2 b k) = tbl (ix2 (rowOf idx h b) k) := by
  unfold take
  show Scalar.select (takeOk (takeIdx idx) (ix2 b k))
    (Host.gather gather_S1000000x32_S16384x1_S16384x32_1_0_n_n_0_1_132 tbl (takeIdx idx) (ix2 b k)) _ = _
  rw [takeOk_apply idx h b k, select_one]
  refine (Cert.Lib.gather_rows_apply (by decide) gather_S1000000x32_S16384x1_S16384x32_1_0_n_n_0_1_132_wf tbl
    (takeIdx idx) b k).trans ?_
  have e : (⟨min (takeIdx idx (ix2 b (0 : Fin 1))).toInt.toNat (1000000 - 1), by omega⟩ : Fin 1000000) = rowOf idx h b := by
    apply Fin.ext
    show min (takeIdx idx (ix2 b (0 : Fin 1))).toInt.toNat (1000000 - 1) = (idx (ix1 b)).toNat
    have hj := h (ix1 b)
    rw [takeIdx_apply idx h b 0, toInt_of_lt _ hj, Int.toNat_natCast]
    omega
  exact congrArg (fun q => tbl (ix2 q k)) e

end Cert.Proof.Ref

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«212231_g88622355185883_cont_sun_m_1073_38_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.LibHostBiasRelu.lean ====
/-
  A bias row added on the host, then a rectified linear unit, read at an entry.

  The host adds a bias vector of length B to every row of an [A, B] array by making the vector a [1, B] row and
  repeating it down the A rows, then takes the maximum with the all-zero array (the scalar zero repeated to [A, B]).
  At the ideal values entry (p, q) of the result is max (u (p, q) + bias q, 0): the repeated row reads the bias at the
  entry's column, and the repeated scalar reads zero everywhere.
-/
import proofs.«212231_g88622355185883_cont_sun_m_1073_38_alg».proof.Proof.LibHostRowCol
import Idealize.ShloMosaic.Lib.Pipeline.Value
import Idealize.ShloMosaic.Lib.ValueIdx

noncomputable section

namespace Cert.Lib

open Idealize.ShloMosaic Idealize.ShloMosaic.ValueIdx

/-- A scalar repeated to any shape reads, at every index, the scalar. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun a => a.elim0

/-- The host's bias-add and rectified linear unit at entry (p, q) is `max (u (p, q) + bias q) 0`. -/
theorem hostBiasRelu_apply {A B : ℕ} (u : FVec Ideal ⟨2, ![A, B]⟩ .f32) (bias : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) (p : Fin A) (q : Fin B) :
    maximumf (addf u (broadcastInDim ⟨2, ![A, B]⟩ ![0, 1] h2 (broadcastInDim ⟨2, ![1, B]⟩ ![1] h1 bias)))
        (broadcastInDim ⟨2, ![A, B]⟩ ![] h0 (constant (F := Ideal) ⟨0, ![]⟩ .f32 0x00000000#32)) (ix2 p q)
      = max (u (ix2 p q) + bias (ix1 q)) (Ideal.ofBits .f32 0x00000000#32) := by
  rw [maximumf_apply, addf_apply, bcast_row_rows_apply bias h1 h2 p q, bcast_scalar_apply _ h0 (ix2 p q), constant_apply]

end Cert.Lib

end
-- ==== Proof.RefValueMlp.lean ====
/-
  Everything after the row lookups, read at an entry at the ideal values. A concatenation of two 32-wide arrays
  along the columns reads the first below column 32 and the second, 32 columns to the left, from there on; a dense
  layer at (p, q) is the maximum with zero of the sum over k of input (p, k) times weight (k, q) plus bias q; the
  output column at (p, 0) is the sum over the 64 final features times the output weights plus the output bias;
  and the final reshape of the [16384, 1] column to a vector reads the column's row.
-/
import proofs.«212231_g88622355185883_cont_sun_m_1073_38_alg».proof.Proof.RefRunTerm
import proofs.«212231_g88622355185883_cont_sun_m_1073_38_alg».proof.Proof.Spec
import proofs.«212231_g88622355185883_cont_sun_m_1073_38_alg».proof.Proof.LibHostDot2
import proofs.«212231_g88622355185883_cont_sun_m_1073_38_alg».proof.Proof.LibHostBiasRelu
import Idealize.ShloMosaic.Lib.Pipeline.Value

noncomputable section

open scoped BigOperators

namespace Cert.Proof.Ref

open Cert.ReferenceIdeal Cert.ReferenceIdeal.Facts₀ Idealize.ShloMosaic Idealize.ShloMosaic.ValueIdx

variable [Cert.ReferenceIdeal.Facts]

/-- Two 32-wide arrays side by side, at column `k`. -/
theorem cat_apply {α : Type} (x y : S16384x32.Idx → α) (b : Fin 16384) (k : Fin 64) :
    concatenate S16384x64 1 [⟨S16384x32, x⟩, ⟨S16384x32, y⟩] concatenates_S16384x32_S16384x32_S16384x64_d1 (ix2 b k)
      = if h : k.val < 32 then x (ix2 b (⟨k.val, h⟩ : Fin 32)) else y (ix2 b (⟨k.val - 32, by omega⟩ : Fin 32)) := by
  split
  · next h =>
    exact concatenate_pair_apply_left (1 : Fin 2) x y concatenates_S16384x32_S16384x32_S16384x64_d1 (ix2 b k) rfl
      (ix2 b (⟨k.val, h⟩ : Fin 32)) (fun c => by match c with | ⟨0, _⟩ => rfl | ⟨1, _⟩ => rfl)
  · next h =>
    exact concatenate_pair_apply_right (1 : Fin 2) x y concatenates_S16384x32_S16384x32_S16384x64_d1 (ix2 b k) rfl rfl
      (ix2 b (⟨k.val - 32, by omega⟩ : Fin 32))
      (fun c hc => by match c with | ⟨0, _⟩ => rfl | ⟨1, _⟩ => exact absurd rfl hc)
      (by show (k.val - 32) + 32 = k.val; omega)

/-- The first layer at an entry. -/
theorem layer1_apply (x : FVec Ideal S16384x64 .f32) (W : FVec Ideal S64x128 .f32) (bias : FVec Ideal S128 .f32)
    (p : Fin 16384) (q : Fin 128) :
    layer1 x W bias (ix2 p q) = max ((∑ k : Fin 64, x (ix2 p k) * W (ix2 k q)) + bias (ix1 q)) 0 := by
  unfold layer1
  refine (Cert.Lib.hostBiasRelu_apply _ bias bcast_S128_S1x128_1 bcast_S1x128_S16384x128_0_1 bcast_S_S16384x128 p q).trans ?_
  have hd : Host.dotGeneral dot_S16384x64_S64x128_S16384x128_1_0_0_1_n_n none x W (ix2 p q)
      = ∑ k : Fin 64, x (ix2 p k) * W (ix2 k q) :=
    Cert.Lib.hostDot2_apply dot_S16384x64_S64x128_S16384x128_1_0_0_1_n_n_wf x W p q
  rw [hd, Ideal.ofBits_zero_f32]

/-- The second layer at an entry. -/
theorem layer2_apply (x : FVec Ideal S16384x128 .f32) (W : FVec Ideal S128x64 .f32) (bias : FVec Ideal S64 .f32)
    (p : Fin 16384) (q : Fin 64) :
    layer2 x W bias (ix2 p q) = max ((∑ k : Fin 128, x (ix2 p k) * W (ix2 k q)) + bias (ix1 q)) 0 := by
  unfold layer2
  refine (Cert.Lib.hostBiasRelu_apply _ bias bcast_S64_S1x64_1 bcast_S1x64_S16384x64_0_1 bcast_S_S16384x64 p q).trans ?_
  have hd : Host.dotGeneral dot_S16384x128_S128x64_S16384x64_1_0_0_1_n_n none x W (ix2 p q)
      = ∑ k : Fin 128, x (ix2 p k) * W (ix2 k q) :=
    Cert.Lib.hostDot2_apply dot_S16384x128_S128x64_S16384x64_1_0_0_1_n_n_wf x W p q
  rw [hd, Ideal.ofBits_zero_f32]

/-- The third layer at an entry. -/
theorem layer3_apply (x : FVec Ideal S16384x64 .f32) (W : FVec Ideal S64x32 .f32) (bias : FVec Ideal S32 .f32)
    (p : Fin 16384) (q : Fin 32) :
    layer3 x W bias (ix2 p q) = max ((∑ k : Fin 64, x (ix2 p k) * W (ix2 k q)) + bias (ix1 q)) 0 := by
  unfold layer3
  refine (Cert.Lib.hostBiasRelu_apply _ bias bcast_S32_S1x32_1 bcast_S1x32_S16384x32_0_1 bcast_S_S16384x32 p q).trans ?_
  have hd : Host.dotGeneral dot_S16384x64_S64x32_S16384x32_1_0_0_1_n_n none x W (ix2 p q)
      = ∑ k : Fin 64, x (ix2 p k) * W (ix2 k q) :=
    Cert.Lib.hostDot2_apply dot_S16384x64_S64x32_S16384x32_1_0_0_1_n_n_wf x W p q
  rw [hd, Ideal.ofBits_zero_f32]

/-- The output column at row `p`. -/
theorem outCol_apply (ffv : FVec Ideal S16384x64 .f32) (Wo : FVec Ideal S64x1 .f32) (bo : FVec Ideal S1 .f32) (p : Fin 16384) :
    outCol ffv Wo bo (ix2 p (0 : Fin 1)) = (∑ k : Fin 64, ffv (ix2 p k) * Wo (ix2 k (0 : Fin 1))) + bo (ix1 (0 : Fin 1)) := by
  unfold outCol
  have hd : Host.dotGeneral dot_S16384x64_S64x1_S16384x1_1_0_0_1_n_n none ffv Wo (ix2 p (0 : Fin 1))
      = ∑ k : Fin 64, ffv (ix2 p k) * Wo (ix2 k (0 : Fin 1)) :=
    Cert.Lib.hostDot2_apply dot_S16384x64_S64x1_S16384x1_1_0_0_1_n_n_wf ffv Wo p 0
  rw [addf_apply, hd, Cert.Lib.bcast_row_rows_apply bo bcast_S1_S1x1_1 bcast_S1x1_S16384x1_0_1 p (0 : Fin 1)]

/-- The reshaped result at entry `b` is the output column at row `b`. -/
theorem tailTerm_apply (t0 t1 t2 t3 : FVec Ideal S16384x32 .f32) (a6 : FVec Ideal S64x128 .f32) (a7 : FVec Ideal S128 .f32)
    (a8 : FVec Ideal S128x64 .f32) (a9 : FVec Ideal S64 .f32) (a10 : FVec Ideal S64x32 .f32) (a11 : FVec Ideal S32 .f32)
    (a12 : FVec Ideal S64x1 .f32) (a13 : FVec Ideal S1 .f32) (b : Fin 16384) :
    tailTerm t0 t1 t2 t3 a6 a7 a8 a9 a10 a11 a12 a13 (ix1 b)
      = outCol (features t0 t1 t2 t3 a6 a7 a8 a9 a10 a11) a12 a13 (ix2 b (0 : Fin 1)) := by
  unfold tailTerm
  refine shapeCast_apply _ shapeCasts_S16384x1_S16384 (ix1 b) (ix2 b (0 : Fin 1)) ?_
  rw [Shape.rowMajor_val_two, Shape.rowMajor_val_one]
  show b.val * 1 + 0 = b.val
  omega

end Cert.Proof.Ref

end
-- ==== Proof.RefValueVec.lean ====
/-
  The scores of all 16384 pairs as one vector: entry `b` is the score of the pair of rows the `b`-th user index word
  and the `b`-th item index word name.
-/
import proofs.«212231_g88622355185883_cont_sun_m_1073_38_alg».proof.Proof.Spec

noncomputable section

namespace Cert.Proof.Ref

open Idealize.ShloMosaic Idealize.ShloMosaic.ValueIdx

/-- The vector of scores. -/
def scoreVec (a0 a1 : IVec (⟨1, ![16384]⟩ : Shape) 32) (a2 a3 a4 a5 : FVec Ideal (⟨2, ![1000000, 32]⟩ : Shape) .f32)
    (a6 : FVec Ideal (⟨2, ![64, 128]⟩ : Shape) .f32) (a7 : FVec Ideal (⟨1, ![128]⟩ : Shape) .f32)
    (a8 : FVec Ideal (⟨2, ![128, 64]⟩ : Shape) .f32) (a9 : FVec Ideal (⟨1, ![64]⟩ : Shape) .f32)
    (a10 : FVec Ideal (⟨2, ![64, 32]⟩ : Shape) .f32) (a11 : FVec Ideal (⟨1, ![32]⟩ : Shape) .f32)
    (a12 : FVec Ideal (⟨2, ![64, 1]⟩ : Shape) .f32) (a13 : FVec Ideal (⟨1, ![1]⟩ : Shape) .f32)
    (hu : ∀ j, (a0 j).toNat < 1000000) (hi : ∀ j, (a1 j).toNat < 1000000) : FVec Ideal (⟨1, ![16384]⟩ : Shape) .f32 :=
  fun j => score a2 a3 a4 a5 a6 a7 a8 a9 a10 a11 a12 a13 (rowOf a0 hu (j 0)) (rowOf a1 hi (j 0))

/-- Its entry `b`. -/
theorem scoreVec_apply (a0 a1 : IVec (⟨1, ![16384]⟩ : Shape) 32) (a2 a3 a4 a5 : FVec Ideal (⟨2, ![1000000, 32]⟩ : Shape) .f32)
    (a6 : FVec Ideal (⟨2, ![64, 128]⟩ : Shape) .f32) (a7 : FVec Ideal (⟨1, ![128]⟩ : Shape) .f32)
    (a8 : FVec Ideal (⟨2, ![128, 64]⟩ : Shape) .f32) (a9 : FVec Ideal (⟨1, ![64]⟩ : Shape) .f32)
    (a10 : FVec Ideal (⟨2, ![64, 32]⟩ : Shape) .f32) (a11 : FVec Ideal (⟨1, ![32]⟩ : Shape) .f32)
    (a12 : FVec Ideal (⟨2, ![64, 1]⟩ : Shape) .f32) (a13 : FVec Ideal (⟨1, ![1]⟩ : Shape) .f32)
    (hu : ∀ j, (a0 j).toNat < 1000000) (hi : ∀ j, (a1 j).toNat < 1000000) (b : Fin 16384) :
    scoreVec a0 a1 a2 a3 a4 a5 a6 a7 a8 a9 a10 a11 a12 a13 hu hi (ix1 b)
      = score a2 a3 a4 a5 a6 a7 a8 a9 a10 a11 a12 a13 (rowOf a0 hu b) (rowOf a1 hi b) := rfl

end Cert.Proof.Ref

end
-- ==== Proof.RefValue.lean ====
/-
  The reference's composed term read at an entry is the score of the pair of rows the two index words name:
  the four row lookups read the named rows, the first layer's input is the two layer rows side by side, the three
  layers and the final sum are the specification's own, and the reshape reads the output column's row.
-/
import proofs.«212231_g88622355185883_cont_sun_m_1073_38_alg».proof.Proof.RefValueTake
import proofs.«212231_g88622355185883_cont_sun_m_1073_38_alg».proof.Proof.RefValueMlp
import proofs.«212231_g88622355185883_cont_sun_m_1073_38_alg».proof.Proof.RefValueVec

noncomputable section

open scoped BigOperators

namespace Cert.Proof.Ref

open Cert.ReferenceIdeal Cert.ReferenceIdeal.Facts₀ Idealize.ShloMosaic Idealize.ShloMosaic.ValueIdx

variable [Cert.ReferenceIdeal.Facts]

variable (a0 a1 : IVec S16384 32) (a2 a3 a4 a5 : FVec Ideal S1000000x32 .f32) (a6 : FVec Ideal S64x128 .f32)
  (a7 : FVec Ideal S128 .f32) (a8 : FVec Ideal S128x64 .f32) (a9 : FVec Ideal S64 .f32) (a10 : FVec Ideal S64x32 .f32)
  (a11 : FVec Ideal S32 .f32) (a12 : FVec Ideal S64x1 .f32) (a13 : FVec Ideal S1 .f32)
  (hu : ∀ j, (a0 j).toNat < 1000000) (hi : ∀ j, (a1 j).toNat < 1000000) (b : Fin 16384)

/-- The first layer's input: the two looked-up layer rows side by side. -/
theorem x0_eq (k : Fin 64) :
    concatenate S16384x64 1 [⟨S16384x32, take a4 a0⟩, ⟨S16384x32, take a5 a1⟩] concatenates_S16384x32_S16384x32_S16384x64_d1 (ix2 b k)
      = x0 a4 a5 (rowOf a0 hu b) (rowOf a1 hi b) k := by
  rw [cat_apply]
  unfold x0
  by_cases h : k.val < 32
  · rw [dif_pos h, dif_pos h, take_apply a4 a0 hu]
  · rw [dif_neg h, dif_neg h, take_apply a5 a1 hi]

/-- The third layer's activations over the looked-up rows. -/
theorem hidden_eq (n : Fin 32) :
    hidden (take a4 a0) (take a5 a1) a6 a7 a8 a9 a10 a11 (ix2 b n)
      = h3 a4 a5 a6 a7 a8 a9 a10 a11 (rowOf a0 hu b) (rowOf a1 hi b) n := by
  unfold hidden h3
  rw [layer3_apply]
  refine congrArg (fun s => max (s + a11 (ix1 n)) 0) (Finset.sum_congr rfl fun k2 _ => congrArg (· * a10 (ix2 k2 n)) ?_)
  unfold h2
  rw [layer2_apply]
  refine congrArg (fun s => max (s + a9 (ix1 k2)) 0) (Finset.sum_congr rfl fun k1 _ => congrArg (· * a8 (ix2 k1 k2)) ?_)
  unfold h1
  rw [layer1_apply]
  exact congrArg (fun s => max (s + a7 (ix1 k1)) 0)
    (Finset.sum_congr rfl fun k _ => congrArg (· * a6 (ix2 k k1)) (x0_eq a0 a1 a4 a5 hu hi b k))

/-- The final features over the looked-up rows. -/
theorem features_eq (k : Fin 64) :
    features (take a2 a0) (take a3 a1) (take a4 a0) (take a5 a1) a6 a7 a8 a9 a10 a11 (ix2 b k)
      = ff a2 a3 a4 a5 a6 a7 a8 a9 a10 a11 (rowOf a0 hu b) (rowOf a1 hi b) k := by
  unfold features ff
  rw [cat_apply]
  by_cases h : k.val < 32
  · rw [dif_pos h, dif_pos h, mulf_apply, take_apply a2 a0 hu, take_apply a3 a1 hi]
  · rw [dif_neg h, dif_neg h, hidden_eq a0 a1 a4 a5 a6 a7 a8 a9 a10 a11 hu hi b]

/-- THE REFERENCE AT AN ENTRY: the score of the pair of rows the two index words name. -/
theorem refTerm_apply :
    refTerm (F := Ideal) a0 a1 a2 a3 a4 a5 a6 a7 a8 a9 a10 a11 a12 a13 (ix1 b)
      = score a2 a3 a4 a5 a6 a7 a8 a9 a10 a11 a12 a13 (rowOf a0 hu b) (rowOf a1 hi b) := by
  unfold refTerm score
  rw [tailTerm_apply, outCol_apply]
  exact congrArg (· + a13 (ix1 (0 : Fin 1)))
    (Finset.sum_congr rfl fun k _ => congrArg (· * a12 (ix2 k (0 : Fin 1)))
      (features_eq a0 a1 a2 a3 a4 a5 a6 a7 a8 a9 a10 a11 hu hi b k))

/-- THE REFERENCE'S RESULT as a whole array: the vector of scores. -/
theorem refTerm_eq :
    refTerm (F := Ideal) a0 a1 a2 a3 a4 a5 a6 a7 a8 a9 a10 a11 a12 a13 = scoreVec a0 a1 a2 a3 a4 a5 a6 a7 a8 a9 a10 a11 a12 a13 hu hi := by
  funext j
  obtain ⟨b, rfl⟩ : ∃ b : Fin 16384, j = ix1 b := ⟨j 0, eq_ix1 j⟩
  exact refTerm_apply a0 a1 a2 a3 a4 a5 a6 a7 a8 a9 a10 a11 a12 a13 hu hi b

end Cert.Proof.Ref

end
-- ==== Proof.RefValueClaim.lean ====
/-
  The reference's two conjuncts of the claim, in the claim's own spelling: its frame (the run with the value
  dropped), and its half of the algebraic conjunct — from a memory agreeing with the kernel program's on the
  fourteen arguments the reference ends with the vector of scores of that memory's arrays, the index words in range
  by the precondition.
-/
import proofs.«212231_g88622355185883_cont_sun_m_1073_38_alg».proof.Defs
import proofs.«212231_g88622355185883_cont_sun_m_1073_38_alg».proof.Proof.RefRun
import proofs.«212231_g88622355185883_cont_sun_m_1073_38_alg».proof.Proof.RefValue
import proofs.«212231_g88622355185883_cont_sun_m_1073_38_alg».proof.Proof.PreIdx

noncomputable section

namespace Cert.Proof.Ref

open Idealize.ShloMosaic Idealize.SL.Sem

variable [hKernelIdeal : Cert.KernelIdeal.Facts] [hReferenceIdeal : Cert.ReferenceIdeal.Facts]
  [hPre_input_domain : Cert.Pre_input_domain.Facts]

/-- The reference runs and leaves its arguments unchanged. -/
theorem ref_frame : Cert.frame_ReferenceIdeal :=
  fun m ρ _ => (θ_run Cert.ReferenceIdeal.defs _ _).mono (fun _ h c => (h c).2) (Cert.Proof.Ref.run (F := Ideal) m ρ)

/-- The reference's run with the value in score form, over the reference's own memory: given that every index word
    of that memory names a row, the result is the vector of scores of that memory's arrays. -/
theorem ref_run_score (m' : (ℓ : Loc Cert.ReferenceIdeal.nD Cert.ReferenceIdeal.τ Cert.ReferenceIdeal.sig) → Buf (Elt Ideal) ℓ) (ρ' : Dev Cert.ReferenceIdeal.nD → PrngReg)
    (hu : ∀ (c : Dev Cert.ReferenceIdeal.nD) j, (m' ((c.tc : Thread Cert.ReferenceIdeal.nD Cert.ReferenceIdeal.τ).loc Cert.ReferenceIdeal.main_arg0) j).toNat < 1000000)
    (hi : ∀ (c : Dev Cert.ReferenceIdeal.nD) j, (m' ((c.tc : Thread Cert.ReferenceIdeal.nD Cert.ReferenceIdeal.τ).loc Cert.ReferenceIdeal.main_arg1) j).toNat < 1000000) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v26)
        = scoreVec (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
            (hu c) (hi c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) :=
  (θ_run Cert.ReferenceIdeal.defs _ _).mono (fun _ h c =>
      ⟨(h c).1.trans (refTerm_eq _ _ _ _ _ _ _ _ _ _ _ _ _ _ (hu c) (hi c)), (h c).2⟩)
    (Cert.Proof.Ref.run (F := Ideal) m' ρ')

/-- Under the precondition every user index word of the kernel program's memory names a row. -/
theorem ki_hu (m : (ℓ : Loc Cert.KernelIdeal.nD Cert.KernelIdeal.τ Cert.KernelIdeal.sig) → Buf (Elt Ideal) ℓ) (hpre : Cert.Pre_KernelIdeal m)
    (c : Dev Cert.KernelIdeal.nD) : ∀ j, (m ((c.tc : Thread Cert.KernelIdeal.nD Cert.KernelIdeal.τ).loc Cert.KernelIdeal.main_arg0) j).toNat < 1000000 :=
  fun j => ((idx_range _ _ _ _ _ _ _ _ _ _ _ _ _ _ (hpre c)).1 j).2

/-- Under the precondition every item index word of the kernel program's memory names a row. -/
theorem ki_hi (m : (ℓ : Loc Cert.KernelIdeal.nD Cert.KernelIdeal.τ Cert.KernelIdeal.sig) → Buf (Elt Ideal) ℓ) (hpre : Cert.Pre_KernelIdeal m)
    (c : Dev Cert.KernelIdeal.nD) : ∀ j, (m ((c.tc : Thread Cert.KernelIdeal.nD Cert.KernelIdeal.τ).loc Cert.KernelIdeal.main_arg1) j).toNat < 1000000 :=
  fun j => ((idx_range _ _ _ _ _ _ _ _ _ _ _ _ _ _ (hpre c)).2 j).2

/-- The vector both programs end with: the scores of the kernel program's argument arrays. -/
def outKI (m : (ℓ : Loc Cert.KernelIdeal.nD Cert.KernelIdeal.τ Cert.KernelIdeal.sig) → Buf (Elt Ideal) ℓ) (hpre : Cert.Pre_KernelIdeal m)
    (c : Dev Cert.KernelIdeal.nD) : FVec Ideal (⟨1, ![16384]⟩ : Shape) .f32 :=
  scoreVec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
    (ki_hu m hpre c) (ki_hi m hpre c)

/-- The reference's half of the algebraic conjunct. -/
theorem ref_algebraic (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v26) = outKI m hpre c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) :=
  (θ_run Cert.ReferenceIdeal.defs _ _).mono (fun _ h c => ⟨(h c).1.trans (by
      obtain ⟨e0, e1, e2, e3, e4, e5, e6, e7, e8, e9, e10, e11, e12, e13⟩ := hagree c
      rw [e0, e1, e2, e3, e4, e5, e6, e7, e8, e9, e10, e11, e12, e13]
      exact refTerm_eq _ _ _ _ _ _ _ _ _ _ _ _ _ _ (ki_hu m hpre c) (ki_hi m hpre c)), (h c).2⟩)
    (Cert.Proof.Ref.run (F := Ideal) m' g')

end Cert.Proof.Ref

end
-- ==== Proof.ClaimsKI.lean ====
/-
  The two claims about the idealized kernel: its frame (every weakly fair execution terminates and the fourteen
  argument arrays end as launched) and, against the idealized reference from memories agreeing on the arguments,
  equal results entry by entry: both sides' entry b is the score of the rows the b-th index words name.
-/
import proofs.«212231_g88622355185883_cont_sun_m_1073_38_alg».proof.Proof.RunKI
import proofs.«212231_g88622355185883_cont_sun_m_1073_38_alg».proof.Proof.LaunchValsAt
import proofs.«212231_g88622355185883_cont_sun_m_1073_38_alg».proof.Proof.RefValueClaim
import proofs.«212231_g88622355185883_cont_sun_m_1073_38_alg».proof.Proof.Gen.ReferenceIdeal
import proofs.«212231_g88622355185883_cont_sun_m_1073_38_alg».proof.Proof.Gen.Pre_input_domain

noncomputable section

namespace Cert.Proof.KI

open Cert.KernelIdeal Cert.KernelIdeal.Gen

open Idealize.ShloMosaic Idealize.ShloMosaic.TcCoe
open Idealize.SL Idealize.SL.Sem
open Idealize.ShloMosaic.ValueIdx (ix1 ix2 eq_ix1)

/-! ## The argument arrays and the result are unscoped buffers of the TensorCore -/

theorem uc_arg0 : Proc.devRef (τ := τ) .tc main_arg0 ∈ Pipeline.ucRefs τ sig := by decide
theorem uc_arg1 : Proc.devRef (τ := τ) .tc main_arg1 ∈ Pipeline.ucRefs τ sig := by decide
theorem uc_arg2 : Proc.devRef (τ := τ) .tc main_arg2 ∈ Pipeline.ucRefs τ sig := by decide
theorem uc_arg3 : Proc.devRef (τ := τ) .tc main_arg3 ∈ Pipeline.ucRefs τ sig := by decide
theorem uc_arg4 : Proc.devRef (τ := τ) .tc main_arg4 ∈ Pipeline.ucRefs τ sig := by decide
theorem uc_arg5 : Proc.devRef (τ := τ) .tc main_arg5 ∈ Pipeline.ucRefs τ sig := by decide
theorem uc_arg6 : Proc.devRef (τ := τ) .tc main_arg6 ∈ Pipeline.ucRefs τ sig := by decide
theorem uc_arg7 : Proc.devRef (τ := τ) .tc main_arg7 ∈ Pipeline.ucRefs τ sig := by decide
theorem uc_arg8 : Proc.devRef (τ := τ) .tc main_arg8 ∈ Pipeline.ucRefs τ sig := by decide
theorem uc_arg9 : Proc.devRef (τ := τ) .tc main_arg9 ∈ Pipeline.ucRefs τ sig := by decide
theorem uc_arg10 : Proc.devRef (τ := τ) .tc main_arg10 ∈ Pipeline.ucRefs τ sig := by decide
theorem uc_arg11 : Proc.devRef (τ := τ) .tc main_arg11 ∈ Pipeline.ucRefs τ sig := by decide
theorem uc_arg12 : Proc.devRef (τ := τ) .tc main_arg12 ∈ Pipeline.ucRefs τ sig := by decide
theorem uc_arg13 : Proc.devRef (τ := τ) .tc main_arg13 ∈ Pipeline.ucRefs τ sig := by decide
theorem uc_v17 : Proc.devRef (τ := τ) .tc main_v17 ∈ Pipeline.ucRefs τ sig := by decide

section Claims
-- the row-gathering task's obligation, from any memory whose index words name rows of the tables
variable (htileI : ∀ (m : (ℓ : Loc nD τ sig) → Buf (Elt Ideal) ℓ), IdxOK m →
  (K (F := Ideal)).TileObl (D (F := Ideal)) 𝒱 (Pm m) v₀ 0)

include htileI in
/-- The idealized kernel's frame: the run, read at the argument arrays. -/
theorem frame_KernelIdeal : Cert.frame_KernelIdeal := fun m ρ hpre =>
  (θ_run Cert.KernelIdeal.defs _ _).mono
    (fun r h c => ⟨(h c _ (uc_arg0)).trans (W6_main_arg0 m c),
      (h c _ (uc_arg1)).trans (W6_main_arg1 m c),
      (h c _ (uc_arg2)).trans (W6_main_arg2 m c),
      (h c _ (uc_arg3)).trans (W6_main_arg3 m c),
      (h c _ (uc_arg4)).trans (W6_main_arg4 m c),
      (h c _ (uc_arg5)).trans (W6_main_arg5 m c),
      (h c _ (uc_arg6)).trans (W6_main_arg6 m c),
      (h c _ (uc_arg7)).trans (W6_main_arg7 m c),
      (h c _ (uc_arg8)).trans (W6_main_arg8 m c),
      (h c _ (uc_arg9)).trans (W6_main_arg9 m c),
      (h c _ (uc_arg10)).trans (W6_main_arg10 m c),
      (h c _ (uc_arg11)).trans (W6_main_arg11 m c),
      (h c _ (uc_arg12)).trans (W6_main_arg12 m c),
      (h c _ (uc_arg13)).trans (W6_main_arg13 m c)⟩)
    (run_main m ρ (htileI m (idxOK_of_pre m hpre)))

/-- The kernel's result vector is the vector of scores. -/
theorem W6_v17_eq_outKI (m : (ℓ : Loc nD τ sig) → Buf (Elt Ideal) ℓ) (hpre : Cert.Pre_KernelIdeal m) (c : Dev nD) :
    W6 m c (Proc.devRef .tc main_v17) = Cert.Proof.Ref.outKI m hpre c := by
  refine (W6_main_v17 m c).trans ?_
  funext j
  obtain ⟨b, rfl⟩ : ∃ b : Fin 16384, j = ix1 b := ⟨j 0, eq_ix1 j⟩
  exact kernelOut_eq_score m c (Cert.Proof.Ref.ki_hu m hpre c) (Cert.Proof.Ref.ki_hi m hpre c) b

include htileI in
/-- The idealized kernel against the idealized reference: equal results, entry by entry. -/
theorem algebraic_KernelIdeal_ReferenceIdeal : Cert.algebraic_KernelIdeal_ReferenceIdeal := by
  intro m ρ m' ρ' hpre hagree
  refine ⟨fun c => Cert.Proof.Ref.outKI m hpre c, ?_, Cert.Proof.Ref.ref_algebraic m m' ρ' hpre hagree⟩
  exact (θ_run Cert.KernelIdeal.defs _ _).mono
    (fun r h c => ⟨(h c _ uc_v17).trans (W6_v17_eq_outKI m hpre c), (h c _ (uc_arg0)).trans (W6_main_arg0 m c),
      (h c _ (uc_arg1)).trans (W6_main_arg1 m c),
      (h c _ (uc_arg2)).trans (W6_main_arg2 m c),
      (h c _ (uc_arg3)).trans (W6_main_arg3 m c),
      (h c _ (uc_arg4)).trans (W6_main_arg4 m c),
      (h c _ (uc_arg5)).trans (W6_main_arg5 m c),
      (h c _ (uc_arg6)).trans (W6_main_arg6 m c),
      (h c _ (uc_arg7)).trans (W6_main_arg7 m c),
      (h c _ (uc_arg8)).trans (W6_main_arg8 m c),
      (h c _ (uc_arg9)).trans (W6_main_arg9 m c),
      (h c _ (uc_arg10)).trans (W6_main_arg10 m c),
      (h c _ (uc_arg11)).trans (W6_main_arg11 m c),
      (h c _ (uc_arg12)).trans (W6_main_arg12 m c),
      (h c _ (uc_arg13)).trans (W6_main_arg13 m c)⟩)
    (run_main m ρ (htileI m (idxOK_of_pre m hpre)))

end Claims

end Cert.Proof.KI

end
-- ==== Proof.KbSetup.lean ====
/-
  The program as the SparseCore launch theorem sees it, and the ghost state every later module is stated over.

  The device runs 35 threads: the TensorCore (the host operations of the main function and two pipelined
  kernel regions), two sequencers and thirty-two vector subcores (one row-gathering task each). The ghost state
  is a product: the launch handshakes' rounds (duties counted by call), the two pipelines' staging semaphores' rounds,
  and the exclusive transfer counters the gathering task's copies are counted in.
-/
import proofs.«212231_g88622355185883_cont_sun_m_1073_38_alg».proof.Defs
import Idealize.ShloMosaic.Lib.SparseCore.Launch
import Idealize.ShloMosaic.Lib.SparseCore.Ops
import Idealize.ShloMosaic.Lib.StableHlo.Run
import Idealize.ShloMosaic.Lib.Pipeline.Regions
import Idealize.ShloMosaic.Lib.Transfers
import Idealize.ShloMosaic.Lib.Batch
import Idealize.ShloMosaic.Lib.Tactic
import proofs.«212231_g88622355185883_cont_sun_m_1073_38_alg».proof.Proof.Gen.Kernel
import proofs.«212231_g88622355185883_cont_sun_m_1073_38_alg».proof.Proof.Gen.Kernel.Skeleton
import proofs.«212231_g88622355185883_cont_sun_m_1073_38_alg».proof.Proof.Gen.Kernel.Launch
import proofs.«212231_g88622355185883_cont_sun_m_1073_38_alg».proof.Proof.Gen.Kernel.Points
import proofs.«212231_g88622355185883_cont_sun_m_1073_38_alg».proof.Proof.Gen.Pre_input_domain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The two pipelines' staging semaphores' rounds. -/
abbrev UP : Type := URounds (GSem nD τ sig) Unit
/-- Rightmost, the transfer counters: the gathering task's copies and waits are counted there. -/
abbrev UU : Type := UH × UP × Counters

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The counters' copy is found by instance in the right factor. -/
example : CountersIn UU := inferInstance

end Cert.Proof.KB

end
-- ==== Proof.KbLaunchBase.lean ====
/-
  The TensorCore's host operations as three lists (before the first kernel region; between the SparseCore call and
  the second region; after it), the launch element of the ghost state, and the buffers' contents at launch.
-/
import proofs.«212231_g88622355185883_cont_sun_m_1073_38_alg».proof.Proof.KbSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 1) (Elt F) ℕ UU ℕ

/-! ## The host operations -/

/-- The four table transposes. -/
abbrev hostA : List (HloOp τ sig (Elt F)) :=
  [ (StableHlo.unary main_arg2 main_v0 ((transpose S32x1000000 [1, 0] · transposes_S1000000x32_S32x1000000_1_0) : (⟨S1000000x32, .f32⟩ : BufTy).Contents (Elt F) → (⟨S32x1000000, .f32⟩ : BufTy).Contents (Elt F))),
    (StableHlo.unary main_arg3 main_v1 ((transpose S32x1000000 [1, 0] · transposes_S1000000x32_S32x1000000_1_0) : (⟨S1000000x32, .f32⟩ : BufTy).Contents (Elt F) → (⟨S32x1000000, .f32⟩ : BufTy).Contents (Elt F))),
    (StableHlo.unary main_arg4 main_v2 ((transpose S32x1000000 [1, 0] · transposes_S1000000x32_S32x1000000_1_0) : (⟨S1000000x32, .f32⟩ : BufTy).Contents (Elt F) → (⟨S32x1000000, .f32⟩ : BufTy).Contents (Elt F))),
    (StableHlo.unary main_arg5 main_v3 ((transpose S32x1000000 [1, 0] · transposes_S1000000x32_S32x1000000_1_0) : (⟨S1000000x32, .f32⟩ : BufTy).Contents (Elt F) → (⟨S32x1000000, .f32⟩ : BufTy).Contents (Elt F))) ]
/-- The slices and reshapes of the weights and biases. -/
abbrev hostB : List (HloOp τ sig (Elt F)) :=
  [ (StableHlo.unary main_arg6 main_v6 ((extractStridedSlice S32x128 ![0, 0] · slices_S64x128_S32x128_0_0) : (⟨S64x128, .f32⟩ : BufTy).Contents (Elt F) → (⟨S32x128, .f32⟩ : BufTy).Contents (Elt F))),
    (StableHlo.unary main_arg6 main_v7 ((extractStridedSlice S32x128 ![32, 0] · slices_S64x128_S32x128_32_0) : (⟨S64x128, .f32⟩ : BufTy).Contents (Elt F) → (⟨S32x128, .f32⟩ : BufTy).Contents (Elt F))),
    (StableHlo.unary main_arg12 main_v8 ((extractStridedSlice S32x1 ![0, 0] · slices_S64x1_S32x1_0_0) : (⟨S64x1, .f32⟩ : BufTy).Contents (Elt F) → (⟨S32x1, .f32⟩ : BufTy).Contents (Elt F))),
    (StableHlo.reshape main_v8 main_v9 rfl shapeCasts_S32x1_S1x32),
    (StableHlo.unary main_arg12 main_v10 ((extractStridedSlice S32x1 ![32, 0] · slices_S64x1_S32x1_32_0) : (⟨S64x1, .f32⟩ : BufTy).Contents (Elt F) → (⟨S32x1, .f32⟩ : BufTy).Contents (Elt F))),
    (StableHlo.reshape main_v10 main_v11 rfl shapeCasts_S32x1_S1x32),
    (StableHlo.reshape main_arg7 main_v12 rfl shapeCasts_S128_S1x128),
    (StableHlo.reshape main_arg9 main_v13 rfl shapeCasts_S64_S1x64),
    (StableHlo.reshape main_arg11 main_v14 rfl shapeCasts_S32_S1x32),
    (StableHlo.reshape main_arg13 main_v15 rfl shapeCasts_S1_S1x1) ]
/-- The closing reshape of the [16384, 1] column to a vector. -/
abbrev hostC : List (HloOp τ sig (Elt F)) :=
  [ (StableHlo.reshape main_v16 main_v17 rfl shapeCasts_S16384x1_S16384) ]

theorem hostA_sub : (hostA : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
theorem hostB_sub : (hostB : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.unary_bufs_sub .., StableHlo.reshape_bufs_sub .., StableHlo.reshape_bufs_sub .., StableHlo.reshape_bufs_sub .., StableHlo.reshape_bufs_sub .., StableHlo.reshape_bufs_sub ..⟩
theorem hostC_sub : (hostC : List (HloOp τ sig (Elt F))).Forall fun op => op.bufs ⊆ StableHlo.tcRefs τ sig :=
  StableHlo.reshape_bufs_sub ..

theorem hostA_fresh : (hostA : List (HloOp τ sig (Elt F))).Forall fun op => op.fresh = ∅ := by
  simp only [List.Forall]; repeat' constructor
theorem hostB_fresh : (hostB : List (HloOp τ sig (Elt F))).Forall fun op => op.fresh = ∅ := by
  simp only [List.Forall]; repeat' constructor
theorem hostC_fresh : (hostC : List (HloOp τ sig (Elt F))).Forall fun op => op.fresh = ∅ := by
  simp only [List.Forall]; repeat' constructor

/-! ## The launch element -/

/-- No pipeline has a prefetched table. -/
abbrev adm : (p : Fin 2) → (pcfgs (F := F) p).Adm := fun p => (cfgs p).toPCfg_adm
/-- The two pipelines as the several-regions rule names them. -/
abbrev pinned : Fin 2 → Pipeline.Cfg sig Λ₀ := Pipeline.pin (pcfgs (F := F)) adm
omit [FloatOps F] in
theorem cellOf_inj' : Function.Injective (Pipeline.cellOf (nD := nD) (τ := τ) (pinned (F := F))) := cellOf_inj

/-- The handshakes' rounds at their launch schedule, the pipelines' staging cells' rounds at theirs, no counter. -/
def u₀ : UU :=
  (initOf (K (F := F)).hsCells (K (F := F)).hsToks,
    initOf (Pipeline.cells (pinned (F := F)) cellOf_inj') (Pipeline.launchToks (pinned (F := F)) cellOf_inj'), 1)

omit [FloatOps F] in
theorem bigSep_emp' {I : Type} (s : Finset I) : (bigSep s fun _ => iprop(emp)) = (iprop(emp) : sProp 𝕄) := bigSep_emp_const s

/-- What the launch leaves a TensorCore for its two regions: both pipelines' cells' ghost state and duty tokens. -/
def G (d : Dev nD) : sProp 𝕄 :=
  bigSep Finset.univ fun p : Fin 2 => iprop(Pipeline.cellsGhost (pinned (F := F)) (EP (F := F)) p d ∗ Pipeline.toksInit (pinned (F := F)) (EP (F := F)) p d)

/-- The contents of a core's buffers at launch. -/
abbrev W0 (m : (ℓ : Loc nD τ sig) → Buf (Elt F) ℓ) : Dev nD → Valuation τ sig (Elt F) := fun c b => m (c, b)

/-! ## The launch element splits into the handshakes' part and the pipelines' part; the counters are not needed -/

omit [FloatOps F] in
theorem ownU_split (a : UH) (b : UP) : (ownU ((a, b, 1) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

/-- The pipelines' launch schedule funds every core's cells' ghost state and duty tokens. -/
theorem G_intro : (BI.own (EP (F := F) (initOf (Pipeline.cells (pinned (F := F)) cellOf_inj') (Pipeline.launchToks (pinned (F := F)) cellOf_inj'))) : sProp 𝕄)
    ⊢ iprop(|==> bigSep Finset.univ (G (F := F))) := by
  unfold G
  simp only [bigSep_sep']
  exact Pipeline.fund_ghost (pinned (F := F)) (EP (F := F)) cellOf_inj'

/-- The launch element: the handshakes' schedule, every TensorCore's pipelines' ghost state, and nothing for the
    gathering tasks (their copies are counted in counters they allocate themselves). -/
theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => P.x q thr) := by
  unfold u₀
  iintro Hu
  ihave H := (ownU_split _ _) $$ Hu
  icases H with ⟨HH, HP⟩
  imod (G_intro (F := F)) $$ HP with HG
  imodintro
  isplitl [HH]; · iexact HH
  isplitl [HG]; · iexact HG
  rw [show (bigSep Finset.univ fun thr : Thread nD τ => bigSep Finset.univ fun q : Fin 1 => P.x q thr) = (iprop(emp) : sProp 𝕄) from by
    simp only [hx]; rw [bigSep_congr fun _ _ => bigSep_emp' _, bigSep_emp']]
  iempintro

end Cert.Proof.KB

end
-- ==== Proof.KbRepackDefs.lean ====
import proofs.«212231_g88622355185883_cont_sun_m_1073_38_alg».proof.Proof.KbSetup
import Idealize.ShloMosaic.Lib.Pipeline.FrameBody
import Idealize.ShloMosaic.Lib.Pipeline.Value
import Idealize.ShloMosaic.Lib.ValueIdx

set_option maxRecDepth 16384

noncomputable section

namespace Cert.Proof.KB

open Cert.Kernel Cert.Kernel.Gen

open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2 eq_ix2)

variable {F : FTy → Type} [FloatOps F]

local notation "𝕄" => MT nD τ sig (HIx 1) (Elt F) ℕ UU ℕ

/-! ## The repacked table

Four tables of 32 rows and a million columns become one table of a million rows and 128 columns: row `v` of the
result is column `v` of the first table, then of the second, the third and the fourth, side by side. -/

/-- Entry `(v, j)` of the repacked table is entry `(j % 32, v)` of table number `j / 32`. -/
def repack (a0 a1 a2 a3 : S32x1000000.Idx → Elt F .f32) : S1000000x128.Idx → Elt F .f32 := fun i =>
  if (i 1).val < 32 then a0 (ix2 (n0 := 32) (n1 := 1000000) ⟨(i 1).val % 32, Nat.mod_lt _ (by decide)⟩ ⟨(i 0).val, (i 0).isLt⟩)
  else if (i 1).val < 64 then a1 (ix2 (n0 := 32) (n1 := 1000000) ⟨(i 1).val % 32, Nat.mod_lt _ (by decide)⟩ ⟨(i 0).val, (i 0).isLt⟩)
  else if (i 1).val < 96 then a2 (ix2 (n0 := 32) (n1 := 1000000) ⟨(i 1).val % 32, Nat.mod_lt _ (by decide)⟩ ⟨(i 0).val, (i 0).isLt⟩)
  else a3 (ix2 (n0 := 32) (n1 := 1000000) ⟨(i 1).val % 32, Nat.mod_lt _ (by decide)⟩ ⟨(i 0).val, (i 0).isLt⟩)

/-- The repacked table at an index whose column is `32 k + j`: table `k` at `(j, row)`. -/
theorem repack_apply (a0 a1 a2 a3 : S32x1000000.Idx → Elt F .f32) (i : S1000000x128.Idx) (k : Nat) (hk : k < 4) (j : Fin 32)
    (v : Fin 1000000) (hv : (i 0).val = v.val) (hj : (i 1).val = 32 * k + j.val) :
    repack a0 a1 a2 a3 i = (match k with | 0 => a0 | 1 => a1 | 2 => a2 | _ => a3) (ix2 (n0 := 32) (n1 := 1000000) j v) := by
  have e : (⟨(i 1).val % 32, Nat.mod_lt _ (by decide)⟩ : Fin 32) = j := Fin.ext (by show (i 1).val % 32 = j.val; have := j.isLt; omega)
  have ev : (⟨(i 0).val, (i 0).isLt⟩ : Fin 1000000) = v := Fin.ext hv
  unfold repack
  rw [e, ev]
  have hjl := j.isLt
  match k, hk with
  | 0, _ => rw [if_pos (by omega)]; rfl
  | 1, _ => rw [if_neg (by omega), if_pos (by omega)]; rfl
  | 2, _ => rw [if_neg (by omega), if_neg (by omega), if_pos (by omega)]; rfl
  | 3, _ => rw [if_neg (by omega), if_neg (by omega), if_neg (by omega)]; rfl

/-- A staging buffer filled by a transfer holds, at an index the transfer moves, what was transferred. -/
theorem fill_of_moved {G : Pipeline.Grid} (w : Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Window.fill; rw [dif_pos ((w.moved_iff i j).mpr h)]

/-! ## The blocks' positions

At grid point `t` every input window is at columns `4096 t ‥` of its table (all 32 rows) and the output window at
rows `4096 t ‥` of the result (all 128 columns); the last point's block reaches past the million and is cut there,
the inputs' columns and the output's rows alike. Decided over the 245 points. -/

theorem idx_facts0 : ∀ t : Fin cfg0.N,
    (win0_0.index t (0 : Fin 2) = 0 ∧ win0_0.index t (1 : Fin 2) = t.val ∧ win0_0.xsize (grid0.coords t) (0 : Fin 2) = 32
      ∧ win0_0.xsize (grid0.coords t) (1 : Fin 2) = win0_4.xsize (grid0.coords t) (0 : Fin 2))
    ∧ (win0_1.index t (0 : Fin 2) = 0 ∧ win0_1.index t (1 : Fin 2) = t.val ∧ win0_1.xsize (grid0.coords t) (0 : Fin 2) = 32
      ∧ win0_1.xsize (grid0.coords t) (1 : Fin 2) = win0_4.xsize (grid0.coords t) (0 : Fin 2))
    ∧ (win0_2.index t (0 : Fin 2) = 0 ∧ win0_2.index t (1 : Fin 2) = t.val ∧ win0_2.xsize (grid0.coords t) (0 : Fin 2) = 32
      ∧ win0_2.xsize (grid0.coords t) (1 : Fin 2) = win0_4.xsize (grid0.coords t) (0 : Fin 2))
    ∧ (win0_3.index t (0 : Fin 2) = 0 ∧ win0_3.index t (1 : Fin 2) = t.val ∧ win0_3.xsize (grid0.coords t) (0 : Fin 2) = 32
      ∧ win0_3.xsize (grid0.coords t) (1 : Fin 2) = win0_4.xsize (grid0.coords t) (0 : Fin 2))
    ∧ win0_4.index t (0 : Fin 2) = t.val ∧ win0_4.index t (1 : Fin 2) = 0 ∧ win0_4.xsize (grid0.coords t) (1 : Fin 2) = 128
    ∧ win0_4.xsize (grid0.coords t) (0 : Fin 2) ≤ 4096 ∧ 4096 * t.val + win0_4.xsize (grid0.coords t) (0 : Fin 2) ≤ 1000000
    ∧ (4096 * (t.val + 1) ≤ 1000000 → win0_4.xsize (grid0.coords t) (0 : Fin 2) = 4096)
    ∧ (1000000 < 4096 * (t.val + 1) → 4096 * t.val + win0_4.xsize (grid0.coords t) (0 : Fin 2) = 1000000) :=
  (by decide +kernel : ∀ t : Fin grid0.N, _)

section Region
variable (V : (c : Dev nD) → (b : Ref sig .tc) → Buf (Elt F) ((c.tc : Thread nD τ).loc b))
variable (O : Dev nD → CellTallies nD τ sig (HIx 1))

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The repacked table of the four input arrays as the region finds them. -/
abbrev rep0 (c : Dev nD) : S1000000x128.Idx → Elt F .f32 :=
  repack (V c main_v0) (V c main_v1) (V c main_v2) (V c main_v3)

/-- The word that stands, in the proof data, for the staging rows past the array's end (nothing reads it). -/
abbrev zf : Elt F .f32 := Scalar.ofBits .f32 0#32

/-- The region's invariant: the scoped buffers no window stages, each at some contents, and the generator register. -/
def Φ0 (c : Dev nD) : sProp 𝕄 :=
  iprop(Pipeline.scopedRest (Ix := HIx 1) (Name := ℕ) (U := UU) (Lvl := ℕ) (Val := Elt F) spec0 c ∗ ∃ r, prngReg c r)

/-- The proof data of the repacking pipeline on core `c`: the arrays as the region finds them; after the body at
    point `t` each input's buffer holds its block (on the columns inside the array) and the output's the block of
    the repacked table (on the rows inside the array); the core owes `O c` throughout. -/
def dat0 (c : Dev nD) : Dat τ (Elt F) (HIx 1) ℕ UU ℕ cfg0 c where
  A w := V c (Pipeline.arrRef spec0 w)
  after w t := match w with
    | ⟨0, _⟩ => win0_0.fill (grid0.coords t) (fun _ => zf) (iblk0 V c 0 t)
    | ⟨1, _⟩ => win0_1.fill (grid0.coords t) (fun _ => zf) (iblk0 V c 1 t)
    | ⟨2, _⟩ => win0_2.fill (grid0.coords t) (fun _ => zf) (iblk0 V c 2 t)
    | ⟨3, _⟩ => win0_3.fill (grid0.coords t) (fun _ => zf) (iblk0 V c 3 t)
    | ⟨4, _⟩ => win0_4.fill (grid0.coords t) (fun _ => zf) ((win0_4.blk t).view.read (Elt F) (rep0 V c))
  Φ _ := Φ0 c
  q _ := fullShare
  owed _ := O c
  recorded _ := {p : SemLoc sig × HIx 1 | p.2 = none}

theorem A_eq0 (c : Dev nD) (w : Fin cfg0.W) : (dat0 V O c).A w = V c (Pipeline.arrRef spec0 w) := by
  dsimp only [dat0]

example (c : Dev nD) : ∀ w, (dat0 V O c).A w = V c (Pipeline.arrRef spec0 w) := fun _ => rfl

end Region

end Cert.Proof.KB

end
-- ==== Proof.KbMlpBody.lean ====
/-
  The third region's kernel body, run once on arbitrary whole staging memrefs.

  The body loads its two row blocks [2048, 128] and its ten small operands whole, computes the
  three-layer perceptron and the product term row by row, and stores one [2048, 1] column. What the
  output buffer holds afterwards is the canonical contents of that one covering store: the payload
  term of the loads.
-/
import proofs.«212231_g88622355185883_cont_sun_m_1073_38_alg».proof.Proof.KbSetup
import Idealize.ShloMosaic.Lib.Pipeline.FrameBody
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses: every load and the one store take the whole buffer -/

abbrev rA : Rect S2048x128 := Rect.unit (s := S2048x128) ![0, 0] S2048x128.size inb_S2048x128_S2048x128_0_0
abbrev rW1 : Rect S32x128 := Rect.unit (s := S32x128) ![0, 0] S32x128.size inb_S32x128_S32x128_0_0
abbrev rB1 : Rect S1x128 := Rect.unit (s := S1x128) ![0, 0] S1x128.size inb_S1x128_S1x128_0_0
abbrev rW2 : Rect S128x64 := Rect.unit (s := S128x64) ![0, 0] S128x64.size inb_S128x64_S128x64_0_0
abbrev rB2 : Rect S1x64 := Rect.unit (s := S1x64) ![0, 0] S1x64.size inb_S1x64_S1x64_0_0
abbrev rW3 : Rect S64x32 := Rect.unit (s := S64x32) ![0, 0] S64x32.size inb_S64x32_S64x32_0_0
abbrev rB3 : Rect S1x32 := Rect.unit (s := S1x32) ![0, 0] S1x32.size inb_S1x32_S1x32_0_0
abbrev rBo : Rect S1x1 := Rect.unit (s := S1x1) ![0, 0] S1x1.size inb_S1x1_S1x1_0_0
abbrev rOut : Rect S2048x1 := Rect.unit (s := S2048x1) ![0, 0] S2048x1.size inb_S2048x1_S2048x1_0_0

/-! ## What the body leaves in the output window's buffer -/

/-- The output column after the body, from the twelve input buffers' contents: the one store's payload. -/
def out2_12 (x0 : Vec F S2048x128 .f32) (x1 : Vec F S2048x128 .f32) (x2 : Vec F S32x128 .f32) (x3 : Vec F S32x128 .f32) (x4 : Vec F S1x128 .f32) (x5 : Vec F S128x64 .f32) (x6 : Vec F S1x64 .f32) (x7 : Vec F S64x32 .f32) (x8 : Vec F S1x32 .f32) (x9 : Vec F S1x32 .f32) (x10 : Vec F S1x32 .f32) (x11 : Vec F S1x1 .f32) : Vec F S2048x1 .f32 :=
  View.canon [⟨rOut, k2_pay1 (k2_pay4 (View.ld x0 rA)) (k2_pay5 (View.ld x1 rA))
    (k2_pay6 (View.ld x0 rA) (View.ld x1 rA) (View.ld x2 rW1) (View.ld x3 rW1) (View.ld x4 rB1) (View.ld x5 rW2) (View.ld x6 rB2) (View.ld x7 rW3) (View.ld x8 rB3))
    (View.ld x9 rB3) (View.ld x10 rB3) (View.ld x11 rBo)⟩]

/-- The one store covers the buffer. -/
theorem cover2_12 (p0 : Vec F S2048x1 .f32) (y : S2048x1.Idx) :
    ∃ pc ∈ ([⟨rOut, p0⟩] : List (View.Piece (Elt F) S2048x1 .f32)), y ∈ pc.1.set :=
  View.cover_of_tiled [⟨rOut, p0⟩] S2048x1.size (by rfl) y

/-! ## The body's triple -/

set_option maxHeartbeats 4000000 in
/-- The body on whole staging memrefs, the twelve inputs' at read contents and the output's at anything, runs to
    the continuation holding the inputs' as they were and the output's at `out2_12` of the inputs'. -/
theorem sound_kernel2 (c : Dev nD) (E : Set ℕ) (i : grid2.Coords) (arg0 : Memref sig .tc .vmem S2048x128 .f32) (harg0 : arg0.IsWhole) (arg1 : Memref sig .tc .vmem S2048x128 .f32) (harg1 : arg1.IsWhole) (arg2 : Memref sig .tc .vmem S32x128 .f32) (harg2 : arg2.IsWhole) (arg3 : Memref sig .tc .vmem S32x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x1 .f32) (harg11 : arg11.IsWhole) (arg12 : Memref sig .tc .vmem S2048x1 .f32) (harg12 : arg12.IsWhole)
    (x0 : Vec F S2048x128 .f32) (x1 : Vec F S2048x128 .f32) (x2 : Vec F S32x128 .f32) (x3 : Vec F S32x128 .f32) (x4 : Vec F S1x128 .f32) (x5 : Vec F S128x64 .f32) (x6 : Vec F S1x64 .f32) (x7 : Vec F S64x32 .f32) (x8 : Vec F S1x32 .f32) (x9 : Vec F S1x32 .f32) (x10 : Vec F S1x32 .f32) (x11 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out2_12 x0 x1 x2 x3 x4 x5 x6 x7 x8 x9 x10 x11)) -∗ K ⟨⟩))
      ⊢ wp frame (wpE (defs₀ (F := F)) Variants.none c none) E (cc2_body i arg0 harg0 arg1 harg1 arg2 harg2 arg3 harg3 arg4 harg4 arg5 harg5 arg6 harg6 arg7 harg7 arg8 harg8 arg9 harg9 arg10 harg10 arg11 harg11 arg12 harg12) K := by
  simp only [cc2_body_eq_skeleton]; unfold cc2_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover2_12 _)

end Cert.Proof.KB

end
-- ==== Proof.KbMlpDat.lean ====
/-
  The third region's proof data at the buffer contents the region is entered with, and its body obligation.

  The proof data name, per window and grid point, what the staging buffer holds after the body: an input
  window's buffer still holds the block the pipeline fetched (rows 2048 t … 2048 t + 2047 of the two gathered
  row arrays; the ten small operands whole), and the output window's holds the body's column for those rows.
  The invariant is the class's (the scoped buffers no window stages, the generator register), and what the
  core owes the launch handshakes passes through every point unchanged.
-/
import proofs.«212231_g88622355185883_cont_sun_m_1073_38_alg».proof.Proof.KbSetup
import proofs.«212231_g88622355185883_cont_sun_m_1073_38_alg».proof.Proof.KbMlpBody

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region2

variable (V : (c : Dev nD) → (b : Ref sig .tc) → Buf (Elt F) ((c : Thread nD τ).loc b))
variable (O : Dev nD → CellTallies nD τ sig (HIx 1))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where the
    pipeline does not fetch, the block index has not moved and the body left the block in place. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not: where the
    pipeline does not fetch, the block index has not moved and the body left the block in place. -/
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not: where the
    pipeline does not fetch, the block index has not moved and the body left the block in place. -/
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not: where the
    pipeline does not fetch, the block index has not moved and the body left the block in place. -/
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not: where the
    pipeline does not fetch, the block index has not moved and the body left the block in place. -/
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not: where the
    pipeline does not fetch, the block index has not moved and the body left the block in place. -/
theorem before2_5_of {c : Dev nD} (dat : Dat τ (Elt F) (HIx 1) ℕ UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not: where the
    pipeline does not fetch, the block index has not moved and the body left the block in place. -/
theorem before2_6_of {c : Dev nD} (dat : Dat τ (Elt F) (HIx 1) ℕ UU ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not: where the
    pipeline does not fetch, the block index has not moved and the body left the block in place. -/
theorem before2_7_of {c : Dev nD} (dat : Dat τ (Elt F) (HIx 1) ℕ UU ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not: where the
    pipeline does not fetch, the block index has not moved and the body left the block in place. -/
theorem before2_8_of {c : Dev nD} (dat : Dat τ (Elt F) (HIx 1) ℕ UU ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not: where the
    pipeline does not fetch, the block index has not moved and the body left the block in place. -/
theorem before2_9_of {c : Dev nD} (dat : Dat τ (Elt F) (HIx 1) ℕ UU ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not: where the
    pipeline does not fetch, the block index has not moved and the body left the block in place. -/
theorem before2_10_of {c : Dev nD} (dat : Dat τ (Elt F) (HIx 1) ℕ UU ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not: where the
    pipeline does not fetch, the block index has not moved and the body left the block in place. -/
theorem before2_11_of {c : Dev nD} (dat : Dat τ (Elt F) (HIx 1) ℕ UU ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The region's invariant: the scoped buffers no window stages, each at some contents, and the generator register. -/
def Φ2 (c : Dev nD) : sProp 𝕄 :=
  iprop(Pipeline.scopedRest (Ix := HIx 1) (Name := ℕ) (U := UU) (Lvl := ℕ) (Val := Elt F) spec2 c ∗ ∃ r, prngReg c r)

/-- The proof data of the third region's pipeline on core `c`: the arrays as the region finds them; after the body
    at point `t` each input's buffer at its block and the output's at the body's column of the input blocks; the
    invariant `Φ2`; full shares; the core owes `O c` throughout. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
  Φ _ := Φ2 c
  q _ := fullShare
  owed _ := O c

/-- The proof data's arrays are the region-entry contents. -/
theorem A_eq2 (c : Dev nD) (w : Fin cfg2.W) : (dat2 V O c).A w = V c (Pipeline.arrRef spec2 w) := by
  dsimp only [dat2]

/-- What the body leaves, window by window. -/
theorem after2_0 (c : Dev nD) (t : Fin cfg2.N) : (dat2 V O c).after 0 t = iblk2 V c 0 t := by dsimp only [dat2]
theorem after2_1 (c : Dev nD) (t : Fin cfg2.N) : (dat2 V O c).after 1 t = iblk2 V c 1 t := by dsimp only [dat2]
theorem after2_2 (c : Dev nD) (t : Fin cfg2.N) : (dat2 V O c).after 2 t = iblk2 V c 2 t := by dsimp only [dat2]
theorem after2_3 (c : Dev nD) (t : Fin cfg2.N) : (dat2 V O c).after 3 t = iblk2 V c 3 t := by dsimp only [dat2]
theorem after2_4 (c : Dev nD) (t : Fin cfg2.N) : (dat2 V O c).after 4 t = iblk2 V c 4 t := by dsimp only [dat2]
theorem after2_5 (c : Dev nD) (t : Fin cfg2.N) : (dat2 V O c).after 5 t = iblk2 V c 5 t := by dsimp only [dat2]
theorem after2_6 (c : Dev nD) (t : Fin cfg2.N) : (dat2 V O c).after 6 t = iblk2 V c 6 t := by dsimp only [dat2]
theorem after2_7 (c : Dev nD) (t : Fin cfg2.N) : (dat2 V O c).after 7 t = iblk2 V c 7 t := by dsimp only [dat2]
theorem after2_8 (c : Dev nD) (t : Fin cfg2.N) : (dat2 V O c).after 8 t = iblk2 V c 8 t := by dsimp only [dat2]
theorem after2_9 (c : Dev nD) (t : Fin cfg2.N) : (dat2 V O c).after 9 t = iblk2 V c 9 t := by dsimp only [dat2]
theorem after2_10 (c : Dev nD) (t : Fin cfg2.N) : (dat2 V O c).after 10 t = iblk2 V c 10 t := by dsimp only [dat2]
theorem after2_11 (c : Dev nD) (t : Fin cfg2.N) : (dat2 V O c).after 11 t = iblk2 V c 11 t := by dsimp only [dat2]
theorem after2_12 (c : Dev nD) (t : Fin cfg2.N) : (dat2 V O c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) := by dsimp only [dat2]

/-- Each input's current staging buffer holds its block at every point. -/
theorem before2_0 (c : Dev nD) (t : Fin cfg2.N) (d) : (dat2 V O c).before 0 t d = iblk2 V c 0 t :=
  before2_0_of V (dat2 V O c) (A_eq2 V O c 0) (after2_0 V O c) t d
theorem before2_1 (c : Dev nD) (t : Fin cfg2.N) (d) : (dat2 V O c).before 1 t d = iblk2 V c 1 t :=
  before2_1_of V (dat2 V O c) (A_eq2 V O c 1) (after2_1 V O c) t d
theorem before2_2 (c : Dev nD) (t : Fin cfg2.N) (d) : (dat2 V O c).before 2 t d = iblk2 V c 2 t :=
  before2_2_of V (dat2 V O c) (A_eq2 V O c 2) (after2_2 V O c) t d
theorem before2_3 (c : Dev nD) (t : Fin cfg2.N) (d) : (dat2 V O c).before 3 t d = iblk2 V c 3 t :=
  before2_3_of V (dat2 V O c) (A_eq2 V O c 3) (after2_3 V O c) t d
theorem before2_4 (c : Dev nD) (t : Fin cfg2.N) (d) : (dat2 V O c).before 4 t d = iblk2 V c 4 t :=
  before2_4_of V (dat2 V O c) (A_eq2 V O c 4) (after2_4 V O c) t d
theorem before2_5 (c : Dev nD) (t : Fin cfg2.N) (d) : (dat2 V O c).before 5 t d = iblk2 V c 5 t :=
  before2_5_of V (dat2 V O c) (A_eq2 V O c 5) (after2_5 V O c) t d
theorem before2_6 (c : Dev nD) (t : Fin cfg2.N) (d) : (dat2 V O c).before 6 t d = iblk2 V c 6 t :=
  before2_6_of V (dat2 V O c) (A_eq2 V O c 6) (after2_6 V O c) t d
theorem before2_7 (c : Dev nD) (t : Fin cfg2.N) (d) : (dat2 V O c).before 7 t d = iblk2 V c 7 t :=
  before2_7_of V (dat2 V O c) (A_eq2 V O c 7) (after2_7 V O c) t d
theorem before2_8 (c : Dev nD) (t : Fin cfg2.N) (d) : (dat2 V O c).before 8 t d = iblk2 V c 8 t :=
  before2_8_of V (dat2 V O c) (A_eq2 V O c 8) (after2_8 V O c) t d
theorem before2_9 (c : Dev nD) (t : Fin cfg2.N) (d) : (dat2 V O c).before 9 t d = iblk2 V c 9 t :=
  before2_9_of V (dat2 V O c) (A_eq2 V O c 9) (after2_9 V O c) t d
theorem before2_10 (c : Dev nD) (t : Fin cfg2.N) (d) : (dat2 V O c).before 10 t d = iblk2 V c 10 t :=
  before2_10_of V (dat2 V O c) (A_eq2 V O c 10) (after2_10 V O c) t d
theorem before2_11 (c : Dev nD) (t : Fin cfg2.N) (d) : (dat2 V O c).before 11 t d = iblk2 V c 11 t :=
  before2_11_of V (dat2 V O c) (A_eq2 V O c 11) (after2_11 V O c) t d

/-! ## The body obligation, at a generic point -/

/-- What the body is called with at point `t`, the windows one by one, -/
def bodyPre2 (c : Dev nD) (t : Fin cfg2.N) : sProp 𝕄 :=
  iprop((dat2 V O c).Φ t.castSucc ∗ (dat2 V O c).owesAt (none : HIx 1) t.castSucc
    ∗ (∃ d, owns (c : Thread nD τ) (st2_0 t) fullShare ((dat2 V O c).before 0 t d))
    ∗ (∃ d, owns (c : Thread nD τ) (st2_1 t) fullShare ((dat2 V O c).before 1 t d))
    ∗ (∃ d, owns (c : Thread nD τ) (st2_2 t) fullShare ((dat2 V O c).before 2 t d))
    ∗ (∃ d, owns (c : Thread nD τ) (st2_3 t) fullShare ((dat2 V O c).before 3 t d))
    ∗ (∃ d, owns (c : Thread nD τ) (st2_4 t) fullShare ((dat2 V O c).before 4 t d))
    ∗ (∃ d, owns (c : Thread nD τ) (st2_5 t) fullShare ((dat2 V O c).before 5 t d))
    ∗ (∃ d, owns (c : Thread nD τ) (st2_6 t) fullShare ((dat2 V O c).before 6 t d))
    ∗ (∃ d, owns (c : Thread nD τ) (st2_7 t) fullShare ((dat2 V O c).before 7 t d))
    ∗ (∃ d, owns (c : Thread nD τ) (st2_8 t) fullShare ((dat2 V O c).before 8 t d))
    ∗ (∃ d, owns (c : Thread nD τ) (st2_9 t) fullShare ((dat2 V O c).before 9 t d))
    ∗ (∃ d, owns (c : Thread nD τ) (st2_10 t) fullShare ((dat2 V O c).before 10 t d))
    ∗ (∃ d, owns (c : Thread nD τ) (st2_11 t) fullShare ((dat2 V O c).before 11 t d))
    ∗ (∃ d, owns (c : Thread nD τ) (st2_12 t) fullShare ((dat2 V O c).before 12 t d)))

/-- and what it returns. -/
def bodyPost2 (c : Dev nD) (t : Fin cfg2.N) : sProp 𝕄 :=
  iprop((dat2 V O c).Φ t.succ ∗ (dat2 V O c).owesAt (none : HIx 1) t.succ
    ∗ owns (c : Thread nD τ) (st2_0 t) fullShare ((dat2 V O c).after 0 t)
    ∗ owns (c : Thread nD τ) (st2_1 t) fullShare ((dat2 V O c).after 1 t)
    ∗ owns (c : Thread nD τ) (st2_2 t) fullShare ((dat2 V O c).after 2 t)
    ∗ owns (c : Thread nD τ) (st2_3 t) fullShare ((dat2 V O c).after 3 t)
    ∗ owns (c : Thread nD τ) (st2_4 t) fullShare ((dat2 V O c).after 4 t)
    ∗ owns (c : Thread nD τ) (st2_5 t) fullShare ((dat2 V O c).after 5 t)
    ∗ owns (c : Thread nD τ) (st2_6 t) fullShare ((dat2 V O c).after 6 t)
    ∗ owns (c : Thread nD τ) (st2_7 t) fullShare ((dat2 V O c).after 7 t)
    ∗ owns (c : Thread nD τ) (st2_8 t) fullShare ((dat2 V O c).after 8 t)
    ∗ owns (c : Thread nD τ) (st2_9 t) fullShare ((dat2 V O c).after 9 t)
    ∗ owns (c : Thread nD τ) (st2_10 t) fullShare ((dat2 V O c).after 10 t)
    ∗ owns (c : Thread nD τ) (st2_11 t) fullShare ((dat2 V O c).after 11 t)
    ∗ owns (c : Thread nD τ) (st2_12 t) fullShare ((dat2 V O c).after 12 t))

/-- The body at any point: the inputs' memrefs hold their blocks, so the body's triple applies; the invariant and
    the core's `owes` pass through unread. -/
theorem sound_body2 (c : Dev nD) (t : Fin cfg2.N) :
    bodyPre2 V O c t ⊢ wp frame (wpE (defs₀ (F := F)) Variants.none c none) Set.univ (bodyAt2 t) (fun _ => bodyPost2 V O c t) := by
  unfold bodyPre2 bodyPost2 bodyAt2
  simp only [before2_0, before2_1, before2_2, before2_3, before2_4, before2_5, before2_6, before2_7, before2_8, before2_9, before2_10, before2_11]
  rw [show (dat2 V O c).Φ t.succ = (dat2 V O c).Φ t.castSucc from rfl,
    show (dat2 V O c).owesAt (none : HIx 1) t.succ = (dat2 V O c).owesAt (none : HIx 1) t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation2 (c : Dev nD) : BodyObligation (dat2 (F := F) V O c) (defs₀ (F := F)) Variants.none (none : HIx 1) Set.univ := fun t => by
  rw [bigSep_W2, bigSep_W2]
  exact sound_body2 V O c t

/-- The same in the form the several-regions launch takes. -/
theorem hbody2 (c : Dev nD) : Pipeline.BodyObligationLoose (dat2 (F := F) V O c) (defs₀ (F := F)) Variants.none (none : HIx 1) Set.univ :=
  (body_obligation2 V O c).loose

/-! ## The invariant at the region's two ends, and the inputs at its exit -/

/-- The invariant at every point is `Φ2`. -/
theorem Φ_eq2 (c : Dev nD) (t : Fin (cfg2.N + 1)) : (dat2 V O c).Φ t = Φ2 c := by dsimp only [dat2]

/-- Entry: the generator register and the scoped buffers no window stages make the invariant at the first point
    (whatever else is handed over beside them). -/
theorem hin2 (c : Dev nD) (P : sProp 𝕄) :
    iprop((∃ r, prngReg c r) ∗ P ∗ Pipeline.scopedRest (Ix := HIx 1) (Name := ℕ) (U := UU) (Lvl := ℕ) (Val := Elt F) spec2 c)
      ⊢ (dat2 V O c).Φ 0 := by
  rw [Φ_eq2]; unfold Φ2
  iintro ⟨Hp, -, Hr⟩
  isplitl [Hr]; · iexact Hr
  iexact Hp

/-- Exit: the invariant at the last point gives both back. -/
theorem hout2 (c : Dev nD) :
    (dat2 V O c).Φ (Fin.last cfg2.N)
      ⊢ iprop((∃ r, prngReg c r) ∗ (BI.emp : sProp 𝕄) ∗ Pipeline.scopedRest (Ix := HIx 1) (Name := ℕ) (U := UU) (Lvl := ℕ) (Val := Elt F) spec2 c) := by
  rw [Φ_eq2]; unfold Φ2
  iintro ⟨Hr, Hp⟩
  isplitl [Hp]; · iexact Hp
  isplitr; · iempintro
  iexact Hr

/-- An input window's array is never written: at every count of write-backs it holds the entry contents. -/
theorem kept2 (c : Dev nD) (w : Fin cfg2.W) (hw : (cfg2.win w).isOut = false) (n : Nat) :
    (dat2 V O c).arrAt w n = V c (Pipeline.arrRef spec2 w) :=
  ((dat2 V O c).arrAt_in w hw n).trans (A_eq2 V O c w)

end Region2

end Cert.Proof.KB

end
-- ==== Proof.KbScPay.lean ====
/-
  The row-gathering call as the launch sees it. The call reads two index arrays of 16384 words and a table of
  1000000 rows of 128, and writes two arrays of 16384 rows: row b of the first is the table's row named by user index b,
  row b of the second the one named by item index b (gU, gI; an index word names the row of its value). The work is
  cut into 32 slices of 512 indices, slice 2 i + c to vector subcore i of SparseCore c. A task is handed its slices of
  the index arrays and of the results and a read share of the whole table; a SparseCore's operands are its sixteen
  tasks'. The whole arrays are the 32 tasks' parts (st0_intro) and are put back from them (dn0_elim).
-/
import proofs.«212231_g88622355185883_cont_sun_m_1073_38_alg».proof.Proof.KbSetup
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

/-! ## The arrays of the row-gathering call, as the TensorCore names them -/

/-- The user indices, the item indices, the concatenated table, and the two gathered-row results, of device `d`. -/
abbrev uLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v4
abbrev ouLoc (d : Dev nD) : Loc nD τ sig := (SparseCore.T d).loc main_v5_0
abbrev oiLoc (d : Dev nD) : Loc nD τ sig := (SparseCore.T d).loc main_v5_1

variable (m : (ℓ : Loc nD τ sig) → Buf (Elt F) ℓ) (Tv : (d : Dev nD) → Buf (Elt F) (tLoc d))

/-- The table row an index word names: the word's value, clamped to the last row (total, so that no hypothesis
    enters the gathered arrays' definition; under `IdxOK` the clamp is the identity). -/
def rowOf (v : BitVec 32) : Fin 1000000 := ⟨min v.toNat 999999, by omega⟩

theorem rowOf_val {v : BitVec 32} (h : v.toNat < 1000000) : (rowOf v).val = v.toNat := by
  unfold rowOf; simp only; omega

/-- The gathered user rows: row `b` is the table's row named by user index `b`. -/
def gU (d : Dev nD) : Buf (Elt F) (ouLoc d) :=
  fun j => Tv d (ValueIdx.ix2 (rowOf (m (uLoc d) (ValueIdx.ix1 (j 0)))) (j 1))
/-- The gathered item rows: row `b` is the table's row named by item index `b`. -/
def gI (d : Dev nD) : Buf (Elt F) (oiLoc d) :=
  fun j => Tv d (ValueIdx.ix2 (rowOf (m (iLoc d) (ValueIdx.ix1 (j 0)))) (j 1))

theorem gU_apply (d : Dev nD) (b : Fin 16384) (q : Fin 128) :
    gU m Tv d (ValueIdx.ix2 b q) = Tv d (ValueIdx.ix2 (rowOf (m (uLoc d) (ValueIdx.ix1 b))) q) := rfl
theorem gI_apply (d : Dev nD) (b : Fin 16384) (q : Fin 128) :
    gI m Tv d (ValueIdx.ix2 b q) = Tv d (ValueIdx.ix2 (rowOf (m (iLoc d) (ValueIdx.ix1 b))) q) := rfl

/-- What the proof asks of the launch memory: every index word names a row of the table. -/
def IdxOK : Prop :=
  ∀ d : Dev nD, (∀ j, (m (uLoc d) j).toNat < 1000000) ∧ (∀ j, (m (iLoc d) j).toNat < 1000000)

/-! ## The thirty-two tasks' slices -/

theorem hdivI : 32 ∣ S16384.size 0 := ⟨512, rfl⟩
theorem hdivO : 32 ∣ S16384x128.size 0 := ⟨512, rfl⟩
/-- Slice `w` of an index array (512 words) and of a gathered-rows array (512 rows). -/
abbrev partI (w : Fin 32) : Rect S16384 := Rect.part (s := S16384) (a₀ := 0) hdivI w
abbrev partO (w : Fin 32) : Rect S16384x128 := Rect.part (s := S16384x128) (a₀ := 0) hdivO w
abbrev setI (w : Fin 32) : Finset S16384.Idx :=
  ((Memref.whole main_arg0_scv : Memref sig .scVector .hbm S16384 .i32).view.slice (partI w)).set
abbrev setO (w : Fin 32) : Finset S16384x128.Idx :=
  ((Memref.whole main_v5_0_scv : Memref sig .scVector .hbm S16384x128 .f32).view.slice (partO w)).set

/-- The task of vector subcore `i` of SparseCore `c` works on slice `2 i + c`. -/
def wid (c : Fin 2) (i : Fin 16) : Fin 32 := ⟨2 * i.val + c.val, by omega⟩

/-! ## Read shares of the table: `n` pieces of a share, nothing left over -/

/-- Piece `k` of `n` of the share `q`: the `k`-th right half for `k + 1 < n`, what is left for the last. -/
def pieceN (q : PosShare TreeShare) (n k : ℕ) : PosShare TreeShare :=
  if k + 1 < n then shareTokN q k else shareDrop q (n - 1)
abbrev piece (q : PosShare TreeShare) (n : ℕ) (k : Fin n) : PosShare TreeShare := pieceN q n k.val

/-- A points-to at `q` is its `n` pieces (`0 < n`). -/
theorem pointsTo_pieces {ℓ : Loc nD τ sig} {I : Finset (Idx ℓ)} {f : Buf (Elt F) ℓ} (q : PosShare TreeShare) {n : ℕ} (hn : 0 < n) :
    (ℓ ↦[I]{q} f : sProp 𝕄) = bigSep Finset.univ (fun k : Fin n => ℓ ↦[I]{piece q n k} f) := by
  obtain ⟨n', rfl⟩ : ∃ n', n = n' + 1 := ⟨n - 1, by omega⟩
  have e1 : bigSep Finset.univ (fun k : Fin (n' + 1) => (ℓ ↦[I]{piece q (n' + 1) k} f : sProp 𝕄))
      = bigSep (Finset.range (n' + 1)) (fun k => ℓ ↦[I]{pieceN q (n' + 1) k} f) := by
    rw [← Nat.Iio_eq_range, ← Fin.map_valEmbedding_univ, BI.bigSep_map]; rfl
  have e2 : bigSep (Finset.range n') (fun k => (ℓ ↦[I]{pieceN q (n' + 1) k} f : sProp 𝕄))
      = bigSep (Finset.range n') (fun k => ℓ ↦[I]{shareTokN q k} f) :=
    bigSep_congr fun k hk => by
      have hk' : k < n' := Finset.mem_range.mp hk
      unfold pieceN; rw [if_pos (by omega)]
  have e3 : pieceN q (n' + 1) n' = shareDrop q n' := by unfold pieceN; rw [if_neg (by omega)]; rfl
  rw [e1, Finset.range_add_one, BI.bigSep_insert Finset.notMem_range_self, e2, e3]
  have h := pointsTo_toks_range (ℓ := ℓ) (S := I) (f := f) (Val := Elt F) (U := UU) (Name := ℕ) (Lvl := ℕ) (Ix := HIx 1) q n'
  exact BI.equiv_iff.mp ⟨h.1, h.2⟩

/-- The share of the table the task on `(c, i)` reads through. -/
def tileShare (c : Fin 2) (i : Fin 16) : PosShare TreeShare := piece (piece fullShare 2 c) 16 i

/-! ## What the handshakes carry -/

/-- What the task on slice `w` is handed: its slices of the two index arrays, the table whole at its read share,
    its slices of the two results at any contents. -/
def tilePre (d : Dev nD) (w : Fin 32) (q : PosShare TreeShare) : sProp 𝕄 :=
  iprop((uLoc d ↦[setI w]{fullShare} m (uLoc d)) ∗ (iLoc d ↦[setI w]{fullShare} m (iLoc d)) ∗ (tLoc d ↦{q} Tv d)
    ∗ (∃ f, ouLoc d ↦[setO w]{fullShare} f) ∗ (∃ f, oiLoc d ↦[setO w]{fullShare} f))
/-- What it hands back: the same, its slices of the results at the gathered rows. -/
def tilePost (d : Dev nD) (w : Fin 32) (q : PosShare TreeShare) : sProp 𝕄 :=
  iprop((uLoc d ↦[setI w]{fullShare} m (uLoc d)) ∗ (iLoc d ↦[setI w]{fullShare} m (iLoc d)) ∗ (tLoc d ↦{q} Tv d)
    ∗ (ouLoc d ↦[setO w]{fullShare} gU m Tv d) ∗ (oiLoc d ↦[setO w]{fullShare} gI m Tv d))

/-- The one call: a SparseCore takes and brings back its sixteen tasks' parts. -/
def P : (K (F := F)).Pay (nD := nD) (Val := Elt F) (Name := ℕ) (U := UU) where
  st := fun q d c => match q with
    | 0 => bigSep Finset.univ fun i : Fin ((K (F := F)).nSub 0) =>
        tilePre m Tv d (wid (Fin.cast nCore_zero c) (Fin.cast nSub_zero i)) (tileShare (Fin.cast nCore_zero c) (Fin.cast nSub_zero i))
  dn := fun q d c => match q with
    | 0 => bigSep Finset.univ fun i : Fin ((K (F := F)).nSub 0) =>
        tilePost m Tv d (wid (Fin.cast nCore_zero c) (Fin.cast nSub_zero i)) (tileShare (Fin.cast nCore_zero c) (Fin.cast nSub_zero i))
  go := fun q d c i => match q with
    | 0 => tilePre m Tv d (wid (Fin.cast nCore_zero c) (Fin.cast nSub_zero i)) (tileShare (Fin.cast nCore_zero c) (Fin.cast nSub_zero i))
  td := fun q d c i => match q with
    | 0 => tilePost m Tv d (wid (Fin.cast nCore_zero c) (Fin.cast nSub_zero i)) (tileShare (Fin.cast nCore_zero c) (Fin.cast nSub_zero i))
  x := fun _ _ => iprop(emp)

instance tilePre_storable (d : Dev nD) (w : Fin 32) (q : PosShare TreeShare) : BI.Storable (upEmb : UEmb _ 𝕄) (tilePre m Tv d w q) := by
  unfold tilePre; infer_instance
instance tilePost_storable (d : Dev nD) (w : Fin 32) (q : PosShare TreeShare) : BI.Storable (upEmb : UEmb _ 𝕄) (tilePost m Tv d w q) := by
  unfold tilePost; infer_instance

instance P_storable : (P (F := F) m Tv).IsStorable where
  st q d c := match q with | 0 => by unfold P; infer_instance
  dn q d c := match q with | 0 => by unfold P; infer_instance
  go q d c i := match q with | 0 => by unfold P; infer_instance
  td q d c i := match q with | 0 => by unfold P; infer_instance

theorem P_go (d : Dev nD) (c : Fin ((K (F := F)).nCore 0)) (i : Fin ((K (F := F)).nSub 0)) :
    (P m Tv).go 0 d c i = tilePre m Tv d (wid (Fin.cast nCore_zero c) (Fin.cast nSub_zero i)) (tileShare (Fin.cast nCore_zero c) (Fin.cast nSub_zero i)) := rfl
theorem P_td (d : Dev nD) (c : Fin ((K (F := F)).nCore 0)) (i : Fin ((K (F := F)).nSub 0)) :
    (P m Tv).td 0 d c i = tilePost m Tv d (wid (Fin.cast nCore_zero c) (Fin.cast nSub_zero i)) (tileShare (Fin.cast nCore_zero c) (Fin.cast nSub_zero i)) := rfl
theorem P_x (q : Fin 1) (thr : Thread nD τ) : (P m Tv).x q thr = iprop(emp) := rfl
theorem P_ox : (P m Tv).ox = fun _ _ => 0 := rfl

/-- A SparseCore's operands are its tasks' by definition, and so are its results. -/
theorem vecSplit : (K (F := F)).VecSplit' (P m Tv) 0 := by
  intro d c
  show (bigSep Finset.univ fun i : Fin ((K (F := F)).nSub 0) => (P m Tv).go 0 d c i) ⊢ |={Set.univ}=> iprop(
      (bigSep Finset.univ fun i : Fin ((K (F := F)).nSub 0) => (P m Tv).go 0 d c i)
      ∗ ((bigSep Finset.univ fun i : Fin ((K (F := F)).nSub 0) => (P m Tv).td 0 d c i)
          -∗ (bigSep Finset.univ fun i : Fin ((K (F := F)).nSub 0) => (P m Tv).td 0 d c i)))
  iintro H; imodintro
  isplitl [H]; · iexact H
  iintro H; iexact H

/-- The TensorCore's view of the five arrays, whole. -/
abbrev uPts (d : Dev nD) : sProp 𝕄 := uLoc d ↦{fullShare} m (uLoc d)
abbrev iPts (d : Dev nD) : sProp 𝕄 := iLoc d ↦{fullShare} m (iLoc d)
abbrev tPts (d : Dev nD) : sProp 𝕄 := tLoc d ↦{fullShare} Tv d
abbrev ouPts (d : Dev nD) (f : Buf (Elt F) (ouLoc d)) : sProp 𝕄 := ouLoc d ↦{fullShare} f
abbrev oiPts (d : Dev nD) (f : Buf (Elt F) (oiLoc d)) : sProp 𝕄 := oiLoc d ↦{fullShare} f

/-! ## The whole arrays are the thirty-two tasks' parts -/

/-- Slices are numbered by (SparseCore, vector subcore) pairs. -/
def widEquiv : Fin 2 × Fin 16 ≃ Fin 32 where
  toFun p := wid p.1 p.2
  invFun w := (⟨w.val % 2, by omega⟩, ⟨w.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv w := by
    refine Fin.ext ?_
    show 2 * (w.val / 2) + w.val % 2 = w.val; omega

theorem bigSep_wid (Φ : Fin 32 → sProp 𝕄) :
    (bigSep Finset.univ fun c : Fin 2 => bigSep Finset.univ fun i : Fin 16 => Φ (wid c i)) = bigSep Finset.univ Φ := by
  rw [bigSep_univ_equiv widEquiv Φ, bigSep_univ_prod]; rfl

theorem setI_eq (w : Fin 32) : setI w = (partI w).set := by
  show ((View.whole (main_arg0_scv : Ref sig .scVector)).slice (partI w)).set = _
  rw [View.set_slice]; exact Finset.map_refl
theorem setO_eq (w : Fin 32) : setO w = (partO w).set := by
  show ((View.whole (main_v5_0_scv : Ref sig .scVector)).slice (partO w)).set = _
  rw [View.set_slice]; exact Finset.map_refl
theorem setI_disjoint : ∀ i ∈ (Finset.univ : Finset (Fin 32)), ∀ j ∈ (Finset.univ : Finset (Fin 32)), i ≠ j → Disjoint (setI i) (setI j) :=
  fun i _ j _ h => by rw [setI_eq, setI_eq]; exact Rect.part_disjoint hdivI h
theorem setO_disjoint : ∀ i ∈ (Finset.univ : Finset (Fin 32)), ∀ j ∈ (Finset.univ : Finset (Fin 32)), i ≠ j → Disjoint (setO i) (setO j) :=
  fun i _ j _ h => by rw [setO_eq, setO_eq]; exact Rect.part_disjoint hdivO h
theorem setI_cover : (Finset.univ : Finset (Fin 32)).biUnion setI = Finset.univ :=
  (Finset.biUnion_congr rfl fun i _ => setI_eq i).trans (Rect.biUnion_part hdivI)
theorem setO_cover : (Finset.univ : Finset (Fin 32)).biUnion setO = Finset.univ :=
  (Finset.biUnion_congr rfl fun i _ => setO_eq i).trans (Rect.biUnion_part hdivO)

theorem uPts_parts (d : Dev nD) (f : Buf (Elt F) (uLoc d)) :
    (uLoc d ↦{fullShare} f : sProp 𝕄) = bigSep Finset.univ fun w : Fin 32 => uLoc d ↦[setI w]{fullShare} f := by
  rw [← pointsTo_biUnion Finset.univ (ℓ := uLoc d) setI setI_disjoint, setI_cover]; try rfl
theorem iPts_parts (d : Dev nD) (f : Buf (Elt F) (iLoc d)) :
    (iLoc d ↦{fullShare} f : sProp 𝕄) = bigSep Finset.univ fun w : Fin 32 => iLoc d ↦[setI w]{fullShare} f := by
  rw [← pointsTo_biUnion Finset.univ (ℓ := iLoc d) setI setI_disjoint, setI_cover]; try rfl
theorem ouPts_parts (d : Dev nD) (f : Buf (Elt F) (ouLoc d)) :
    (ouLoc d ↦{fullShare} f : sProp 𝕄) = bigSep Finset.univ fun w : Fin 32 => ouLoc d ↦[setO w]{fullShare} f := by
  rw [← pointsTo_biUnion Finset.univ (ℓ := ouLoc d) setO setO_disjoint, setO_cover]; try rfl
theorem oiPts_parts (d : Dev nD) (f : Buf (Elt F) (oiLoc d)) :
    (oiLoc d ↦{fullShare} f : sProp 𝕄) = bigSep Finset.univ fun w : Fin 32 => oiLoc d ↦[setO w]{fullShare} f := by
  rw [← pointsTo_biUnion Finset.univ (ℓ := oiLoc d) setO setO_disjoint, setO_cover]; try rfl

/-- The table at the full share is the thirty-two tasks' read shares. -/
theorem tPts_shares (d : Dev nD) :
    (tLoc d ↦{fullShare} Tv d : sProp 𝕄) = bigSep Finset.univ fun c : Fin 2 => bigSep Finset.univ fun i : Fin 16 => tLoc d ↦{tileShare c i} Tv d := by
  rw [pointsTo_pieces (F := F) fullShare (n := 2) (by decide)]
  exact bigSep_congr fun c _ => pointsTo_pieces (F := F) (piece fullShare 2 c) (n := 16) (by decide)

theorem pts_ex {ℓ : Loc nD τ sig} {I : Finset (Idx ℓ)} (f : Buf (Elt F) ℓ) :
    (ℓ ↦[I]{fullShare} f : sProp 𝕄) ⊢ iprop(∃ g, ℓ ↦[I]{fullShare} g) := by
  iintro H; iexists f; iexact H

/-- What the call takes from the TensorCore: the five arrays whole, the results at any contents. -/
theorem st0_intro (d : Dev nD) :
    iprop(uPts m d ∗ iPts m d ∗ tPts Tv d ∗ (∃ f, ouPts d f) ∗ (∃ f, oiPts d f))
      ⊢ bigSep Finset.univ fun c : Fin ((K (F := F)).nCore 0) => (P m Tv).st 0 d c := by
  have hst : (bigSep Finset.univ fun c : Fin ((K (F := F)).nCore 0) => (P m Tv).st 0 d c)
      = bigSep Finset.univ fun c : Fin 2 => bigSep Finset.univ fun i : Fin 16 => tilePre m Tv d (wid c i) (tileShare c i) := rfl
  rw [hst]
  unfold tilePre
  simp only [bigSep_sep']
  rw [bigSep_wid (fun w => uLoc d ↦[setI w]{fullShare} m (uLoc d)), bigSep_wid (fun w => iLoc d ↦[setI w]{fullShare} m (iLoc d)),
    bigSep_wid (fun w => iprop(∃ f, ouLoc d ↦[setO w]{fullShare} f)), bigSep_wid (fun w => iprop(∃ f, oiLoc d ↦[setO w]{fullShare} f)),
    ← uPts_parts, ← iPts_parts, ← tPts_shares]
  have hou : ∀ fu, (bigSep Finset.univ fun w : Fin 32 => (ouLoc d ↦[setO w]{fullShare} fu : sProp 𝕄))
      ⊢ bigSep Finset.univ fun w : Fin 32 => iprop(∃ f, ouLoc d ↦[setO w]{fullShare} f) :=
    fun fu => bigSep_mono fun w _ => pts_ex fu
  have hoi : ∀ fi, (bigSep Finset.univ fun w : Fin 32 => (oiLoc d ↦[setO w]{fullShare} fi : sProp 𝕄))
      ⊢ bigSep Finset.univ fun w : Fin 32 => iprop(∃ f, oiLoc d ↦[setO w]{fullShare} f) :=
    fun fi => bigSep_mono fun w _ => pts_ex fi
  iintro ⟨Hu, Hi, Ht, ⟨%fu, Hou⟩, ⟨%fi, Hoi⟩⟩
  isplitl [Hu]; · iexact Hu
  isplitl [Hi]; · iexact Hi
  isplitl [Ht]; · iexact Ht
  isplitl [Hou]
  · ihave H := (Entails.of_eq (ouPts_parts d fu)) $$ Hou
    iapply (hou fu) $$ H
  · ihave H := (Entails.of_eq (oiPts_parts d fi)) $$ Hoi
    iapply (hoi fi) $$ H
/-- What it brings back: the same, the results at the gathered rows. -/
theorem dn0_elim (d : Dev nD) :
    (bigSep Finset.univ fun c : Fin ((K (F := F)).nCore 0) => (P m Tv).dn 0 d c)
      ⊢ iprop(uPts m d ∗ iPts m d ∗ tPts Tv d ∗ ouPts d (gU m Tv d) ∗ oiPts d (gI m Tv d)) := by
  have hdn : (bigSep Finset.univ fun c : Fin ((K (F := F)).nCore 0) => (P m Tv).dn 0 d c)
      = bigSep Finset.univ fun c : Fin 2 => bigSep Finset.univ fun i : Fin 16 => tilePost m Tv d (wid c i) (tileShare c i) := rfl
  rw [hdn]
  unfold tilePost
  simp only [bigSep_sep']
  rw [bigSep_wid (fun w => uLoc d ↦[setI w]{fullShare} m (uLoc d)), bigSep_wid (fun w => iLoc d ↦[setI w]{fullShare} m (iLoc d)),
    bigSep_wid (fun w => ouLoc d ↦[setO w]{fullShare} gU m Tv d), bigSep_wid (fun w => oiLoc d ↦[setO w]{fullShare} gI m Tv d),
    ← uPts_parts, ← iPts_parts, ← tPts_shares, ← ouPts_parts, ← oiPts_parts]

end Cert.Proof.KB

end
-- ==== Proof.KbLaunchRegions.lean ====
/-
  The contents of the TensorCore's buffers between the segments of the main function, and its two kernel regions as
  records of the several-regions rule. The buffers' contents are a fold through the main function: the launch
  memory, then the four transposes, then region one's arrays at what its pipeline leaves, then the two gathered
  arrays, then the weight slices and reshapes, then region two's arrays, then the closing reshape.
-/
import proofs.«212231_g88622355185883_cont_sun_m_1073_38_alg».proof.Proof.KbLaunchBase
import proofs.«212231_g88622355185883_cont_sun_m_1073_38_alg».proof.Proof.KbRepackDefs
import proofs.«212231_g88622355185883_cont_sun_m_1073_38_alg».proof.Proof.KbMlpDat
import proofs.«212231_g88622355185883_cont_sun_m_1073_38_alg».proof.Proof.KbScPay
import Idealize.ShloMosaic.Lib.Pipeline.FrameSuffix
import Idealize.ShloMosaic.Lib.Pipeline.RegionsLoop

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 1) (Elt F) ℕ UU ℕ

/-! ## What the TensorCore owes the launch handshakes: before the SparseCore call a start signal per SparseCore,
    after it nothing; never anything at the index of a kernel's own waits -/

abbrev KL : GSem nD τ sig → Finset (HIx 1) := (K (F := F)).L
abbrev Klev : GSem nD τ sig → HIx 1 → ℕ := (K (F := F)).lev
abbrev O0 : Dev nD → CellTallies nD τ sig (HIx 1) := fun d => (K (F := F)).Otc d 0
abbrev O2 : Dev nD → CellTallies nD τ sig (HIx 1) := fun d => (K (F := F)).Otc d 1

omit [FloatOps F] in
theorem O0_none (d : Dev nD) (g : GSem nD τ sig) : O0 (F := F) d g none = 0 := by
  by_contra h
  have := (K (F := F)).lev_of_Otc_pos (Nat.pos_of_ne_zero h); rw [SparseCore.Cfg.lev_none] at this; omega
omit [FloatOps F] in
theorem O2_none (d : Dev nD) (g : GSem nD τ sig) : O2 (F := F) d g none = 0 := by
  by_contra h
  have := (K (F := F)).lev_of_Otc_pos (Nat.pos_of_ne_zero h); rw [SparseCore.Cfg.lev_none] at this; omega

/-- What rides beside the buffers through a region: the generator register at some state, and the core's debt
    with every recorded wait pair at the index of a kernel's own waits. -/
abbrev Rst (O : Dev nD → CellTallies nD τ sig (HIx 1)) (c : Dev nD) : sProp 𝕄 :=
  iprop((∃ r, prngReg c r) ∗ ∃ W : Waits sig (HIx 1), ⌜∀ p ∈ W, p.2 = (none : HIx 1)⌝ ∗ owes (c.tc : Thread nD τ) (O c) W)

/-- The same with no bound on the recorded pairs (after the SparseCore call the waits on its completion are among them). -/
abbrev Rst' (O : Dev nD → CellTallies nD τ sig (HIx 1)) (c : Dev nD) : sProp 𝕄 :=
  iprop((∃ r, prngReg c r) ∗ ∃ W : Waits sig (HIx 1), owes (c.tc : Thread nD τ) (O c) W)

variable (m : (ℓ : Loc nD τ sig) → Buf (Elt F) ℓ)

/-! ## The buffers' contents at each segment boundary -/

/-- After the four transposes (region one's entry). -/
abbrev W1 : Dev nD → Valuation τ sig (Elt F) := fun c => after hostA (W0 m c)
abbrev V1 : (c : Dev nD) → (b : Ref sig .tc) → Buf (Elt F) ((c.tc : Thread nD τ).loc b) := fun c b => W1 m c b
/-- At region one's exit: its arrays at what the pipeline leaves, every other buffer as entered. -/
def W2 (c : Dev nD) : Valuation τ sig (Elt F) :=
  Pipeline.withArrays spec0 c (W1 m c) fun w => (dat0 (V1 m) (O0 (F := F)) c).arrAt w cfg0.N
theorem W2_arr (c : Dev nD) (w : Fin cfg0.W) :
    W2 m c (Proc.devRef .tc (Pipeline.arrRef spec0 w)) = (dat0 (V1 m) (O0 (F := F)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V1' : (c : Dev nD) → (b : Ref sig .tc) → Buf (Elt F) ((c.tc : Thread nD τ).loc b) := fun c b => W2 m c b
theorem hF0 (c : Dev nD) (w : Fin cfg0.W) : (dat0 (V1 m) (O0 (F := F)) c).arrAt w cfg0.N = V1' m c (Pipeline.arrRef spec0 w) :=
  (W2_arr m c w).symm
theorem hrest0 (c : Dev nD) : ∀ b, b ∉ Finset.univ.image (Pipeline.arrRef spec0) → V1' m c b = V1 m c b :=
  fun b hb => W2_of_ne m c b fun w e => hb (Finset.mem_image.mpr ⟨w, Finset.mem_univ _, e⟩)

/-- The repacked table as the SparseCore call finds it. -/
abbrev Tv : (d : Dev nD) → Buf (Elt F) (tLoc d) := fun d => W2 m d (Proc.devRef .tc main_v4)
/-- After the SparseCore call: the two gathered arrays at the rows the index words name, the rest as before. -/
def W3 (c : Dev nD) : Valuation τ sig (Elt F) :=
  Function.update (Function.update (W2 m c) (Proc.devRef .tc main_v5_0) (gU m (Tv m) c)) (Proc.devRef .tc main_v5_1) (gI m (Tv m) c)
/-- After the weight slices and reshapes (region two's entry). -/
abbrev W4 : Dev nD → Valuation τ sig (Elt F) := fun c => after hostB (W3 m c)
abbrev V4 : (c : Dev nD) → (b : Ref sig .tc) → Buf (Elt F) ((c.tc : Thread nD τ).loc b) := fun c b => W4 m c b
/-- At region two's exit. -/
def W5 (c : Dev nD) : Valuation τ sig (Elt F) :=
  Pipeline.withArrays spec2 c (W4 m c) fun w => (dat2 (V4 m) (O2 (F := F)) c).arrAt w cfg2.N
theorem W5_arr (c : Dev nD) (w : Fin cfg2.W) :
    W5 m c (Proc.devRef .tc (Pipeline.arrRef spec2 w)) = (dat2 (V4 m) (O2 (F := F)) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V4' : (c : Dev nD) → (b : Ref sig .tc) → Buf (Elt F) ((c.tc : Thread nD τ).loc b) := fun c b => W5 m c b
theorem hF2 (c : Dev nD) (w : Fin cfg2.W) : (dat2 (V4 m) (O2 (F := F)) c).arrAt w cfg2.N = V4' m c (Pipeline.arrRef spec2 w) :=
  (W5_arr m c w).symm
theorem hrest2 (c : Dev nD) : ∀ b, b ∉ Finset.univ.image (Pipeline.arrRef spec2) → V4' m c b = V4 m c b :=
  fun b hb => W5_of_ne m c b fun w e => hb (Finset.mem_image.mpr ⟨w, Finset.mem_univ _, e⟩)
/-- After the closing reshape: the end. -/
abbrev W6 : Dev nD → Valuation τ sig (Elt F) := fun c => after hostC (W5 m c)

/-! ## The proof data family -/

/-- Both pipelines' proof data, each at its region's entry contents. -/
def pdats : (p : Fin 2) → (c : Dev nD) → Pipeline.Dat τ (Elt F) (HIx 1) ℕ UU ℕ (Pipeline.pin (pcfgs (F := F)) adm p) c
  | ⟨0, _⟩ => fun c => dat0 (V1 m) (O0 (F := F)) c
  | ⟨1, _⟩ => fun c => dat2 (V4 m) (O2 (F := F)) c

variable (hb0 : ∀ c, Pipeline.BodyObligationLoose (dat0 (V1 m) (O0 (F := F)) c) (defs₀ (F := F)) 𝒱₀ (none : HIx 1) Set.univ)
variable (hb2 : ∀ c, Pipeline.BodyObligationLoose (dat2 (V4 m) (O2 (F := F)) c) (defs₀ (F := F)) 𝒱₀ (none : HIx 1) Set.univ)

/-! ## The regions as segments -/

-- a library lemma stated over the pinned configuration unifies with the printed one only when unification may unfold
-- plain definitions in a metavariable's type
set_option backward.isDefEq.respectTransparency.types false in
/-- The region of pipeline 0 over the thread state: entered from every unscoped buffer at `W1`, left at `W2`; its
    arrays are split out of the unscoped buffers and put back at their exit contents; the generator register goes into
    the region's invariant and comes back; what the core owes the launch handshakes rides through unchanged, its
    recorded wait pairs all at the index of a kernel's own waits. -/
def reg0 : Pipeline.RegionSeg (pcfgs (F := F)) adm (pdats m) (none : HIx 1) defs₀ 𝒱₀ (KL (F := F)) (Klev (F := F)) 0 where
  win := launch0.win.to₀
  block_pos := launch0.block_pos
  stage_whole := launch0.stage_whole
  K := PEmpty
  osem k := k.elim
  ho := Pipeline.OwnSemFacts.none _
  hbody c := hb0 c
  hwaits c := Pipeline.cellsWaits_intro (Pipeline.pin (pcfgs (F := F)) adm) (pdats m) (none : HIx 1) 0 c (R := levAts (KL (F := F)) (Klev (F := F)))
    fun w s t => (K (F := F)).mayWait_none _ (fun g => O0_none c g)
  pre c := iprop(held (c.tc : Thread nD τ) (Pipeline.ucRefs τ sig) (W1 m c) ∗ Rst (O0 (F := F)) c)
  post c := iprop(held (c.tc : Thread nD τ) (Pipeline.ucRefs τ sig) (W2 m c) ∗ Rst (O0 (F := F)) c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 0 c).Φ 0 = Φ0 c from rfl]; unfold Φ0
    iintro ⟨Hp, -, Hr⟩
    isplitl [Hr]; · iexact Hr
    iexact Hp
  hout c := by
    rw [Pipeline.ownSems0_none, show (pdats m 0 c).Φ (Fin.last _) = Φ0 c from rfl]; unfold Φ0
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V1' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro; intro p hp
      rcases hW hp with h | ⟨_, _, h⟩
      · exact h
      · rw [h]
    iexact HO

-- a library lemma stated over the pinned configuration unifies with the printed one only when unification may unfold
-- plain definitions in a metavariable's type
set_option backward.isDefEq.respectTransparency.types false in
/-- The region of pipeline 1 over the thread state: entered from every unscoped buffer at `W4`, left at `W5`; its
    arrays are split out of the unscoped buffers and put back at their exit contents; the generator register goes into
    the region's invariant and comes back; what the core owes the launch handshakes rides through unchanged, its
    recorded wait pairs all at the index of a kernel's own waits. -/
def reg2 : Pipeline.RegionSeg (pcfgs (F := F)) adm (pdats m) (none : HIx 1) defs₀ 𝒱₀ (KL (F := F)) (Klev (F := F)) 1 where
  win := launch2.win.to₀
  block_pos := launch2.block_pos
  stage_whole := launch2.stage_whole
  K := PEmpty
  osem k := k.elim
  ho := Pipeline.OwnSemFacts.none _
  hbody c := hb2 c
  hwaits c := Pipeline.cellsWaits_intro (Pipeline.pin (pcfgs (F := F)) adm) (pdats m) (none : HIx 1) 1 c (R := levAts (KL (F := F)) (Klev (F := F)))
    fun w s t => (K (F := F)).mayWait_none _ (fun g => O2_none c g)
  pre c := iprop(held (c.tc : Thread nD τ) (Pipeline.ucRefs τ sig) (W4 m c) ∗ Rst' (O2 (F := F)) c)
  post c := iprop(held (c.tc : Thread nD τ) (Pipeline.ucRefs τ sig) (W5 m c) ∗ Rst' (O2 (F := F)) c)
  X c := iprop(∃ r, prngReg c r)
  Y c := iprop(∃ r, prngReg c r)
  Z c := Pipeline.unscopedRest (Ix := HIx 1) (Name := ℕ) (U := UU) (Lvl := ℕ) spec2 c (V4 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Φ2 c from rfl]; unfold Φ2
    iintro ⟨Hp, -, Hr⟩
    isplitl [Hr]; · iexact Hr
    iexact Hp
  hout c := by
    rw [Pipeline.ownSems0_none, show (pdats m 1 c).Φ (Fin.last _) = Φ2 c from rfl]; unfold Φ2
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V4 m c) (V4' m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Proof.KB

end
-- ==== Proof.KbRepackBody.lean ====
import proofs.«212231_g88622355185883_cont_sun_m_1073_38_alg».proof.Proof.KbRepackDefs
import Idealize.ShloMosaic.Lib.ValueLayout
import Idealize.ShloMosaic.Lib.Pipeline.Frame
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2 eq_ix2)

variable {F : FTy → Type} [FloatOps F]

local notation "𝕄" => MT nD τ sig (HIx 1) (Elt F) ℕ UU ℕ

/-! ## The body's arithmetic, entry by entry -/

section Pay
variable {α : Type}

/-- Four blocks of 32 columns side by side: column `pre + j` of the whole is column `j` of the block starting at `pre`. -/
theorem concat4_apply (y0 y1 y2 y3 : S4096x32.Idx → α)
    (h : Shape.Concatenates [S4096x32, S4096x32, S4096x32, S4096x32] S4096x128 1) (r : Fin 4096) (j : Fin 32)
    (k : Nat) (hk : k < 4) (jj : Fin 128) (hjj : jj.val = 32 * k + j.val) :
    concatenate S4096x128 1 [⟨S4096x32, y0⟩, ⟨S4096x32, y1⟩, ⟨S4096x32, y2⟩, ⟨S4096x32, y3⟩] h (ix2 (n0 := 4096) (n1 := 128) r jj)
      = (match k with | 0 => y0 | 1 => y1 | 2 => y2 | _ => y3) (ix2 (n0 := 4096) (n1 := 32) r j) := by
  have hi : ∀ b : Fin S4096x32.rank, b.cast (rfl : S4096x32.rank = S4096x128.rank) ≠ (1 : Fin 2) →
      ((ix2 (n0 := 4096) (n1 := 32) r j) b).val = ((ix2 (n0 := 4096) (n1 := 128) r jj) (b.cast rfl)).val := by
    intro b hb
    match b with
    | ⟨0, _⟩ => rfl
    | ⟨1, _⟩ => exact absurd rfl hb
  match k, hk, hjj with
  | 0, _, hjj =>
    exact concatenate_apply_piece (t := S4096x128) (1 : Fin 2) [⟨S4096x32, y0⟩, ⟨S4096x32, y1⟩, ⟨S4096x32, y2⟩, ⟨S4096x32, y3⟩] h _ 0 (by show (_ : Nat) < 4; omega) S4096x32 y0 rfl rfl 0 rfl (ix2 (n0 := 4096) (n1 := 32) r j) hi (by show 0 + j.val = jj.val; omega)
  | 1, _, hjj =>
    exact concatenate_apply_piece (t := S4096x128) (1 : Fin 2) [⟨S4096x32, y0⟩, ⟨S4096x32, y1⟩, ⟨S4096x32, y2⟩, ⟨S4096x32, y3⟩] h _ 1 (by show (_ : Nat) < 4; omega) S4096x32 y1 rfl rfl 32 rfl (ix2 (n0 := 4096) (n1 := 32) r j) hi (by show 32 + j.val = jj.val; omega)
  | 2, _, hjj =>
    exact concatenate_apply_piece (t := S4096x128) (1 : Fin 2) [⟨S4096x32, y0⟩, ⟨S4096x32, y1⟩, ⟨S4096x32, y2⟩, ⟨S4096x32, y3⟩] h _ 2 (by show (_ : Nat) < 4; omega) S4096x32 y2 rfl rfl 64 rfl (ix2 (n0 := 4096) (n1 := 32) r j) hi (by show 64 + j.val = jj.val; omega)
  | 3, _, hjj =>
    exact concatenate_apply_piece (t := S4096x128) (1 : Fin 2) [⟨S4096x32, y0⟩, ⟨S4096x32, y1⟩, ⟨S4096x32, y2⟩, ⟨S4096x32, y3⟩] h _ 3 (by show (_ : Nat) < 4; omega) S4096x32 y3 rfl rfl 96 rfl (ix2 (n0 := 4096) (n1 := 32) r j) hi (by show 96 + j.val = jj.val; omega)

end Pay

/-- The body's store value, entry by entry: column `32 k + j` of row `r` is entry `(j, r)` of the `k`-th loaded block. -/
theorem pay_apply (x0 x1 x2 x3 : Vec F S32x4096 .f32) (r : Fin 4096) (j : Fin 32)
    (k : Nat) (hk : k < 4) (jj : Fin 128) (hjj : jj.val = 32 * k + j.val) :
    k0_pay1 x0 x1 x2 x3 (ix2 (n0 := 4096) (n1 := 128) r jj)
      = (match k with | 0 => x0 | 1 => x1 | 2 => x2 | _ => x3) (ix2 (n0 := 32) (n1 := 4096) j r) := by
  unfold k0_pay1
  simp only [shapeCast_self]
  refine (concat4_apply _ _ _ _ _ r j k hk jj hjj).trans ?_
  match k, hk with
  | 0, _ => exact ValueIdx.transpose_ix2_apply x0 _ r j
  | 1, _ => exact ValueIdx.transpose_ix2_apply x1 _ r j
  | 2, _ => exact ValueIdx.transpose_ix2_apply x2 _ r j
  | 3, _ => exact ValueIdx.transpose_ix2_apply x3 _ r j

/-! ## The body's accesses -/

abbrev rIn0 : Rect S32x4096 := Rect.unit (s := S32x4096) ![0, 0] S32x4096.size inb_S32x4096_S32x4096_0_0
abbrev rOut0 : Rect S4096x128 := Rect.unit (s := S4096x128) ![0, 0] S4096x128.size inb_S4096x128_S4096x128_0_0

theorem hz0 : (![0, 0] : Fin 2 → Nat) = fun _ => 0 := funext fun a => by fin_cases a <;> rfl

/-- The one store of the body writes the whole output buffer. -/
theorem cover0_4 (p0 : Vec F S4096x128 .f32) (y : S4096x128.Idx) :
    ∃ pc ∈ ([⟨rOut0, p0⟩] : List (View.Piece (Elt F) S4096x128 .f32)), y ∈ pc.1.set :=
  View.cover_of_tiled [⟨rOut0, p0⟩] S4096x128.size (by rfl) y

set_option maxHeartbeats 1000000 in
/-- The body on whole staging buffers: it loads the four input buffers whole, and stores the four transposes side
    by side over the whole output buffer; the inputs are left as they were. -/
theorem sound_kernel0 (c : Dev nD) (E : Set ℕ) (i : grid0.Coords)
    (arg1 : Memref sig .tc .vmem S32x4096 .f32) (harg1 : arg1.IsWhole) (arg2 : Memref sig .tc .vmem S32x4096 .f32) (harg2 : arg2.IsWhole)
    (arg3 : Memref sig .tc .vmem S32x4096 .f32) (harg3 : arg3.IsWhole) (arg4 : Memref sig .tc .vmem S32x4096 .f32) (harg4 : arg4.IsWhole)
    (arg5 : Memref sig .tc .vmem S4096x128 .f32) (harg5 : arg5.IsWhole)
    (x0 x1 x2 x3 : Vec F S32x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay1 x0 x1 x2 x3)) -∗ K ⟨⟩))
      ⊢ wp frame (wpE (defs₀ (F := F)) 𝒱₀ c none) E (cc0_body i arg1 harg1 arg2 harg2 arg3 harg3 arg4 harg4 arg5 harg5) K := by
  simp only [cc0_body_eq_skeleton]; unfold cc0_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover0_4 _)).trans ?_
  rw [View.canon_unit_zero hz0]
  show k0_pay1 (View.ld (View.read (Elt F) arg1.view f0) rIn0) (View.ld (View.read (Elt F) arg2.view f1) rIn0)
    (View.ld (View.read (Elt F) arg3.view f2) rIn0) (View.ld (View.read (Elt F) arg4.view f3) rIn0) = _
  rw [View.ld_unit_zero (S := S32x4096) hz0, View.ld_unit_zero (S := S32x4096) hz0, View.ld_unit_zero (S := S32x4096) hz0,
    View.ld_unit_zero (S := S32x4096) hz0]

/-! ## The proof data, window by window -/

section Region
variable (V : (c : Dev nD) → (b : Ref sig .tc) → Buf (Elt F) ((c.tc : Thread nD τ).loc b))
variable (O : Dev nD → CellTallies nD τ sig (HIx 1))

theorem after0_0 (c : Dev nD) (t : Fin cfg0.N) : (dat0 V O c).after 0 t = win0_0.fill (grid0.coords t) (fun _ => zf) (iblk0 V c 0 t) := by dsimp only [dat0]
theorem after0_1 (c : Dev nD) (t : Fin cfg0.N) : (dat0 V O c).after 1 t = win0_1.fill (grid0.coords t) (fun _ => zf) (iblk0 V c 1 t) := by dsimp only [dat0]
theorem after0_2 (c : Dev nD) (t : Fin cfg0.N) : (dat0 V O c).after 2 t = win0_2.fill (grid0.coords t) (fun _ => zf) (iblk0 V c 2 t) := by dsimp only [dat0]
theorem after0_3 (c : Dev nD) (t : Fin cfg0.N) : (dat0 V O c).after 3 t = win0_3.fill (grid0.coords t) (fun _ => zf) (iblk0 V c 3 t) := by dsimp only [dat0]
theorem after0_4 (c : Dev nD) (t : Fin cfg0.N) : (dat0 V O c).after 4 t = win0_4.fill (grid0.coords t) (fun _ => zf) ((win0_4.blk t).view.read (Elt F) (rep0 V c)) := by dsimp only [dat0]

/-- An input's staging buffer, fetched at every point, holds its block on the columns inside the array and whatever
    it held (`d`) past the array's end. -/
theorem before0_0 (c : Dev nD) (t : Fin cfg0.N) (d) : (dat0 V O c).before 0 t d = win0_0.fill (grid0.coords t) d (iblk0 V c 0 t) := by
  unfold Dat.before; rw [if_pos (fetch0_0 t)]; unfold Dat.fetched Dat.blockOf iblk0; rw [A_eq0]
theorem before0_1 (c : Dev nD) (t : Fin cfg0.N) (d) : (dat0 V O c).before 1 t d = win0_1.fill (grid0.coords t) d (iblk0 V c 1 t) := by
  unfold Dat.before; rw [if_pos (fetch0_1 t)]; unfold Dat.fetched Dat.blockOf iblk0; rw [A_eq0]
theorem before0_2 (c : Dev nD) (t : Fin cfg0.N) (d) : (dat0 V O c).before 2 t d = win0_2.fill (grid0.coords t) d (iblk0 V c 2 t) := by
  unfold Dat.before; rw [if_pos (fetch0_2 t)]; unfold Dat.fetched Dat.blockOf iblk0; rw [A_eq0]
theorem before0_3 (c : Dev nD) (t : Fin cfg0.N) (d) : (dat0 V O c).before 3 t d = win0_3.fill (grid0.coords t) d (iblk0 V c 3 t) := by
  unfold Dat.before; rw [if_pos (fetch0_3 t)]; unfold Dat.fetched Dat.blockOf iblk0; rw [A_eq0]
/-- The output's staging buffer, written back at every point, holds anything when the body runs. -/
theorem before0_4 (c : Dev nD) (t : Fin cfg0.N) (d) : (dat0 V O c).before 4 t d = d := by
  refine (dat0 V O c).before_out_reset 4 rfl t ?_ d
  by_cases h0 : t.val = 0
  · exact .inl h0
  · exact .inr ⟨h0, flush0_4 _⟩

/-! ## What the body writes is the block of the repacked table -/

/-- On the rows inside the array, the four transposes side by side of the four fetched blocks — whatever the buffers
    held past the array's end — are the output block of the repacked table: entry `(y0, 32 k + j)` of the store is entry
    `(j, y0)` of the `k`-th block, which is entry `(j, 4096 t + y0)` of the `k`-th table. -/
theorem cut_pay_eq (c : Dev nD) (t : Fin cfg0.N) (d0 d1 d2 d3 : S32x4096.Idx → Elt F .f32) :
    win0_4.cut (grid0.coords t) (k0_pay1 (win0_0.fill (grid0.coords t) d0 (iblk0 V c 0 t)) (win0_1.fill (grid0.coords t) d1 (iblk0 V c 1 t))
      (win0_2.fill (grid0.coords t) d2 (iblk0 V c 2 t)) (win0_3.fill (grid0.coords t) d3 (iblk0 V c 3 t)))
    = (win0_4.blk t).view.read (Elt F) (rep0 V c) := by
  obtain ⟨⟨a00, a01, a02, a03⟩, ⟨a10, a11, a12, a13⟩, ⟨a20, a21, a22, a23⟩, ⟨a30, a31, a32, a33⟩, b0, b1, b2, b3, b4, b5, b6⟩ := idx_facts0 t
  funext y
  have hy0 : (y 0).val < win0_4.xsize (grid0.coords t) (0 : Fin 2) := (y 0).isLt
  have hy1 : (y 1).val < win0_4.xsize (grid0.coords t) (1 : Fin 2) := (y 1).isLt
  have hy0' : (y 0).val < 4096 := by omega
  have hy1' : (y 1).val < 128 := by omega
  have hv : 4096 * t.val + (y 0).val < 1000000 := by omega
  have hk : (y 1).val / 32 < 4 := by omega
  have hjj : (y 1).val = 32 * ((y 1).val / 32) + (y 1).val % 32 := by omega
  show k0_pay1 _ _ _ _ (win0_4.xinj (grid0.coords t) y) = rep0 V c ((win0_4.blk t).view.emb y)
  rw [show win0_4.xinj (grid0.coords t) y = ix2 (n0 := 4096) (n1 := 128) ⟨(y 0).val, hy0'⟩ ⟨(y 1).val, hy1'⟩ from
    funext fun a => match a with | ⟨0, _⟩ => rfl | ⟨1, _⟩ => rfl]
  rw [pay_apply _ _ _ _ ⟨(y 0).val, hy0'⟩ ⟨(y 1).val % 32, Nat.mod_lt _ (by decide)⟩ ((y 1).val / 32) hk ⟨(y 1).val, hy1'⟩ hjj]
  show _ = repack (V c main_v0) (V c main_v1) (V c main_v2) (V c main_v3) ((win0_4.blk t).view.emb y)
  rw [repack_apply _ _ _ _ ((win0_4.blk t).view.emb y) ((y 1).val / 32) hk ⟨(y 1).val % 32, Nat.mod_lt _ (by decide)⟩
    ⟨4096 * t.val + (y 0).val, hv⟩
    (by show win0_4.index t (0 : Fin 2) * 4096 + 1 * (y 0).val = 4096 * t.val + (y 0).val; omega)
    (by show win0_4.index t (1 : Fin 2) * 128 + 1 * (y 1).val = 32 * ((y 1).val / 32) + (y 1).val % 32; omega)]
  generalize (y 1).val / 32 = k at hk
  generalize (⟨(y 1).val % 32, Nat.mod_lt _ (by decide)⟩ : Fin 32) = j
  match k, hk with
  | 0, _ =>
    show win0_0.fill (grid0.coords t) d0 (iblk0 V c 0 t) (ix2 (n0 := 32) (n1 := 4096) j ⟨(y 0).val, hy0'⟩) = V c main_v0 (ix2 (n0 := 32) (n1 := 1000000) j ⟨4096 * t.val + (y 0).val, hv⟩)
    rw [fill_of_moved win0_0 (grid0.coords t) d0 _ _ (fun a => match a with
      | ⟨0, _⟩ => by show j.val < win0_0.xsize (grid0.coords t) (0 : Fin 2); rw [a02]; exact j.isLt
      | ⟨1, _⟩ => by show (y 0).val < win0_0.xsize (grid0.coords t) (1 : Fin 2); rw [a03]; exact hy0)]
    show V c main_v0 ((win0_0.blk t).view.emb _) = _
    congr 1; funext a; apply Fin.ext
    match a with
    | ⟨0, _⟩ => show win0_0.index t (0 : Fin 2) * 32 + 1 * j.val = j.val; omega
    | ⟨1, _⟩ => show win0_0.index t (1 : Fin 2) * 4096 + 1 * (y 0).val = 4096 * t.val + (y 0).val; omega
  | 1, _ =>
    show win0_1.fill (grid0.coords t) d1 (iblk0 V c 1 t) (ix2 (n0 := 32) (n1 := 4096) j ⟨(y 0).val, hy0'⟩) = V c main_v1 (ix2 (n0 := 32) (n1 := 1000000) j ⟨4096 * t.val + (y 0).val, hv⟩)
    rw [fill_of_moved win0_1 (grid0.coords t) d1 _ _ (fun a => match a with
      | ⟨0, _⟩ => by show j.val < win0_1.xsize (grid0.coords t) (0 : Fin 2); rw [a12]; exact j.isLt
      | ⟨1, _⟩ => by show (y 0).val < win0_1.xsize (grid0.coords t) (1 : Fin 2); rw [a13]; exact hy0)]
    show V c main_v1 ((win0_1.blk t).view.emb _) = _
    congr 1; funext a; apply Fin.ext
    match a with
    | ⟨0, _⟩ => show win0_1.index t (0 : Fin 2) * 32 + 1 * j.val = j.val; omega
    | ⟨1, _⟩ => show win0_1.index t (1 : Fin 2) * 4096 + 1 * (y 0).val = 4096 * t.val + (y 0).val; omega
  | 2, _ =>
    show win0_2.fill (grid0.coords t) d2 (iblk0 V c 2 t) (ix2 (n0 := 32) (n1 := 4096) j ⟨(y 0).val, hy0'⟩) = V c main_v2 (ix2 (n0 := 32) (n1 := 1000000) j ⟨4096 * t.val + (y 0).val, hv⟩)
    rw [fill_of_moved win0_2 (grid0.coords t) d2 _ _ (fun a => match a with
      | ⟨0, _⟩ => by show j.val < win0_2.xsize (grid0.coords t) (0 : Fin 2); rw [a22]; exact j.isLt
      | ⟨1, _⟩ => by show (y 0).val < win0_2.xsize (grid0.coords t) (1 : Fin 2); rw [a23]; exact hy0)]
    show V c main_v2 ((win0_2.blk t).view.emb _) = _
    congr 1; funext a; apply Fin.ext
    match a with
    | ⟨0, _⟩ => show win0_2.index t (0 : Fin 2) * 32 + 1 * j.val = j.val; omega
    | ⟨1, _⟩ => show win0_2.index t (1 : Fin 2) * 4096 + 1 * (y 0).val = 4096 * t.val + (y 0).val; omega
  | 3, _ =>
    show win0_3.fill (grid0.coords t) d3 (iblk0 V c 3 t) (ix2 (n0 := 32) (n1 := 4096) j ⟨(y 0).val, hy0'⟩) = V c main_v3 (ix2 (n0 := 32) (n1 := 1000000) j ⟨4096 * t.val + (y 0).val, hv⟩)
    rw [fill_of_moved win0_3 (grid0.coords t) d3 _ _ (fun a => match a with
      | ⟨0, _⟩ => by show j.val < win0_3.xsize (grid0.coords t) (0 : Fin 2); rw [a32]; exact j.isLt
      | ⟨1, _⟩ => by show (y 0).val < win0_3.xsize (grid0.coords t) (1 : Fin 2); rw [a33]; exact hy0)]
    show V c main_v3 ((win0_3.blk t).view.emb _) = _
    congr 1; funext a; apply Fin.ext
    match a with
    | ⟨0, _⟩ => show win0_3.index t (0 : Fin 2) * 32 + 1 * j.val = j.val; omega
    | ⟨1, _⟩ => show win0_3.index t (1 : Fin 2) * 4096 + 1 * (y 0).val = 4096 * t.val + (y 0).val; omega

/-! ## The body obligation, at a generic point -/

/-- What the body is called with at point `t`, the windows one by one, -/
def bodyPre0 (c : Dev nD) (t : Fin cfg0.N) : sProp 𝕄 :=
  iprop((dat0 V O c).Φ t.castSucc ∗ (dat0 V O c).owesAt (none : HIx 1) t.castSucc
    ∗ (∃ d, owns (c : Thread nD τ) (st0_0 t) fullShare ((dat0 V O c).before 0 t d))
    ∗ (∃ d, owns (c : Thread nD τ) (st0_1 t) fullShare ((dat0 V O c).before 1 t d))
    ∗ (∃ d, owns (c : Thread nD τ) (st0_2 t) fullShare ((dat0 V O c).before 2 t d))
    ∗ (∃ d, owns (c : Thread nD τ) (st0_3 t) fullShare ((dat0 V O c).before 3 t d))
    ∗ (∃ d, owns (c : Thread nD τ) (st0_4 t) fullShare ((dat0 V O c).before 4 t d)))

/-- and what it returns: every buffer described on the part its window's transfers move. -/
def bodyPost0 (c : Dev nD) (t : Fin cfg0.N) : sProp 𝕄 :=
  iprop((dat0 V O c).Φ t.succ ∗ (dat0 V O c).owesAt (none : HIx 1) t.succ
    ∗ (∃ d, owns (c : Thread nD τ) (st0_0 t) fullShare (win0_0.fill (grid0.coords t) d (win0_0.cut (grid0.coords t) ((dat0 V O c).after 0 t))))
    ∗ (∃ d, owns (c : Thread nD τ) (st0_1 t) fullShare (win0_1.fill (grid0.coords t) d (win0_1.cut (grid0.coords t) ((dat0 V O c).after 1 t))))
    ∗ (∃ d, owns (c : Thread nD τ) (st0_2 t) fullShare (win0_2.fill (grid0.coords t) d (win0_2.cut (grid0.coords t) ((dat0 V O c).after 2 t))))
    ∗ (∃ d, owns (c : Thread nD τ) (st0_3 t) fullShare (win0_3.fill (grid0.coords t) d (win0_3.cut (grid0.coords t) ((dat0 V O c).after 3 t))))
    ∗ (∃ d, owns (c : Thread nD τ) (st0_4 t) fullShare (win0_4.fill (grid0.coords t) d (win0_4.cut (grid0.coords t) ((dat0 V O c).after 4 t)))))

/-- The body at any point: the inputs' buffers hold their blocks filled out with anything, the body leaves them so and
    stores the transposes side by side, which on the rows inside the array is the repacked table's block; the
    invariant and what the core owes pass through unread. -/
theorem sound_body0 (c : Dev nD) (t : Fin cfg0.N) :
    bodyPre0 V O c t ⊢ wp frame (wpE (defs₀ (F := F)) 𝒱₀ c none) Set.univ (bodyAt0 t) (fun _ => bodyPost0 V O c t) := by
  unfold bodyPre0 bodyPost0 bodyAt0
  simp only [before0_0, before0_1, before0_2, before0_3, before0_4]
  rw [show (dat0 V O c).Φ t.succ = (dat0 V O c).Φ t.castSucc from rfl,
    show (dat0 V O c).owesAt (none : HIx 1) t.succ = (dat0 V O c).owesAt (none : HIx 1) t.castSucc from rfl,
    after0_0, after0_1, after0_2, after0_3, after0_4,
    win0_0.cut_fill, win0_1.cut_fill, win0_2.cut_fill, win0_3.cut_fill, win0_4.cut_fill]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (win0_0.fill (grid0.coords t) d0 (iblk0 V c 0 t))
    (win0_1.fill (grid0.coords t) d1 (iblk0 V c 1 t)) (win0_2.fill (grid0.coords t) d2 (iblk0 V c 2 t))
    (win0_3.fill (grid0.coords t) d3 (iblk0 V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexists d3; iexact H3
  iexists (k0_pay1 (win0_0.fill (grid0.coords t) d0 (iblk0 V c 0 t)) (win0_1.fill (grid0.coords t) d1 (iblk0 V c 1 t))
    (win0_2.fill (grid0.coords t) d2 (iblk0 V c 2 t)) (win0_3.fill (grid0.coords t) d3 (iblk0 V c 3 t)))
  rw [← cut_pay_eq V c t d0 d1 d2 d3, win0_4.fill_cut]
  iexact H4

/-- The body obligation, at every point: each of the five windows is described on the part its transfers move. -/
theorem hbody0 (c : Dev nD) : BodyObligationLoose (dat0 V O c) (defs₀ (F := F)) 𝒱₀ (none : HIx 1) Set.univ := fun t => by
  rw [bigSep_W0, bigSep_W0]
  exact sound_body0 V O c t

/-! ## The invariant in and out -/

theorem hin0 (c : Dev nD) (P : sProp 𝕄) :
    iprop((∃ r, prngReg c r) ∗ P ∗ Pipeline.scopedRest (Ix := HIx 1) (Name := ℕ) (U := UU) (Lvl := ℕ) (Val := Elt F) spec0 c)
      ⊢ (dat0 V O c).Φ 0 := by
  rw [show (dat0 V O c).Φ 0 = Φ0 c from rfl]; unfold Φ0
  iintro ⟨Hp, -, Hr⟩
  isplitl [Hr]; · iexact Hr
  iexact Hp

theorem hout0 (c : Dev nD) (t : Fin (cfg0.N + 1)) :
    (dat0 V O c).Φ t ⊢ iprop((∃ r, prngReg c r) ∗ Pipeline.scopedRest (Ix := HIx 1) (Name := ℕ) (U := UU) (Lvl := ℕ) (Val := Elt F) spec0 c) := by
  rw [show (dat0 V O c).Φ t = Φ0 c from rfl]; unfold Φ0
  iintro ⟨Hr, Hp⟩
  isplitl [Hp]; · iexact Hp
  iexact Hr

end Region

end Cert.Proof.KB

end
-- ==== Proof.KbLaunchMain.lean ====
/-
  The main function on a device's TensorCore, from the launch to the return, under the SparseCore launch rule: four
  host transposes, the first kernel region, the SparseCore call, the weight slices and reshapes, the second kernel
  region, the closing reshape. Each step takes the buffers' contents from one boundary valuation to the next.
-/
import proofs.«212231_g88622355185883_cont_sun_m_1073_38_alg».proof.Proof.KbLaunchRegions
import proofs.«212231_g88622355185883_cont_sun_m_1073_38_alg».proof.Proof.KbRepackBody
import proofs.«212231_g88622355185883_cont_sun_m_1073_38_alg».proof.Proof.KbMlpDat

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 1) (Elt F) ℕ UU ℕ
/-- The body table the launch rule runs the program under. -/
abbrev DD : Defs nD τ sig (Elt F) (SparseCore.Sig (ΛP (F := F)) 1) := (K (F := F)).defs (D (F := F))

/-! ## The main function as host stretches, region calls and the SparseCore call -/

theorem main_eq (d : Dev nD) : main (F := F) d =
    (StableHlo.seq hostA >>= fun _ =>
      Prog.lift (.customCall (SparseCore.inner (Pipeline.entry 0)) ()) >>= fun _ =>
      (K (F := F)).run d 0 >>= fun _ =>
      StableHlo.seq hostB >>= fun _ =>
      Prog.lift (.customCall (SparseCore.inner (Pipeline.entry 1)) ()) >>= fun _ =>
      StableHlo.seq hostC >>= fun _ => pure ⟨⟩) := by
  simp only [main, StableHlo.seq, bind_assoc, pure_bind]

variable (m : (ℓ : Loc nD τ sig) → Buf (Elt F) ℓ)

/-! ## The regions' entry and exit states, spelt out -/

theorem reg0_pre (hb0 : ∀ c, Pipeline.BodyObligationLoose (dat0 (V1 m) (O0 (F := F)) c) (defs₀ (F := F)) 𝒱₀ (none : HIx 1) Set.univ) (d : Dev nD) :
    (reg0 m hb0).pre d = iprop(held (d.tc : Thread nD τ) (Pipeline.ucRefs τ sig) (W1 m d) ∗ Rst (O0 (F := F)) d) := rfl
theorem reg0_post (hb0 : ∀ c, Pipeline.BodyObligationLoose (dat0 (V1 m) (O0 (F := F)) c) (defs₀ (F := F)) 𝒱₀ (none : HIx 1) Set.univ) (d : Dev nD) :
    (reg0 m hb0).post d = iprop(held (d.tc : Thread nD τ) (Pipeline.ucRefs τ sig) (W2 m d) ∗ Rst (O0 (F := F)) d) := rfl
theorem reg2_pre (hb2 : ∀ c, Pipeline.BodyObligationLoose (dat2 (V4 m) (O2 (F := F)) c) (defs₀ (F := F)) 𝒱₀ (none : HIx 1) Set.univ) (d : Dev nD) :
    (reg2 m hb2).pre d = iprop(held (d.tc : Thread nD τ) (Pipeline.ucRefs τ sig) (W4 m d) ∗ Rst' (O2 (F := F)) d) := rfl
theorem reg2_post (hb2 : ∀ c, Pipeline.BodyObligationLoose (dat2 (V4 m) (O2 (F := F)) c) (defs₀ (F := F)) 𝒱₀ (none : HIx 1) Set.univ) (d : Dev nD) :
    (reg2 m hb2).post d = iprop(held (d.tc : Thread nD τ) (Pipeline.ucRefs τ sig) (W5 m d) ∗ Rst' (O2 (F := F)) d) := rfl

/-! ## A kernel region's step under the SparseCore body table -/

-- the region rule is stated over the pinned configuration and the TensorCore thread spelt `c.tc`
set_option backward.isDefEq.respectTransparency.types false in
set_option maxHeartbeats 800000 in
/-- The first region: from the boundary, every unscoped buffer at the contents after the transposes, the generator
    register, the core's debt and the first pipeline's ghost state, the region's call runs to the boundary and the
    buffers at the region's exit contents, the rest unchanged. -/
theorem regStep0 [∀ e, Nonempty (Elt F e)] (hb0 : ∀ c, Pipeline.BodyObligationLoose (dat0 (V1 m) (O0 (F := F)) c) (defs₀ (F := F)) 𝒱₀ (none : HIx 1) Set.univ)
    (d : Dev nD) {α : Type} (k : PUnit → Prog (TpuEff nD τ sig (Elt F) (SparseCore.Sig (ΛP (F := F)) 1) .tc) α) (Φ : α → sProp 𝕄) :
    iprop(boundary (d.tc : Thread nD τ) ∗ (held (d.tc : Thread nD τ) (Pipeline.ucRefs τ sig) (W1 m d) ∗ Rst (O0 (F := F)) d) ∗ levAts (KL (F := F)) (Klev (F := F))
        ∗ Pipeline.cellsGhost (pinned (F := F)) (EP (F := F)) 0 d ∗ Pipeline.toksInit (pinned (F := F)) (EP (F := F)) 0 d
        ∗ (iprop(boundary (d.tc : Thread nD τ) ∗ (held (d.tc : Thread nD τ) (Pipeline.ucRefs τ sig) (W2 m d) ∗ Rst (O0 (F := F)) d)) -∗ wp frame (wpE (DD (F := F)) 𝒱 (d.tc : Thread nD τ) none) Set.univ (k ⟨⟩) Φ))
      ⊢ wp frame (wpE (DD (F := F)) 𝒱 (d.tc : Thread nD τ) none) Set.univ
          (Prog.lift (.customCall (SparseCore.inner (Pipeline.entry 0)) ()) >>= k) Φ := by
  rw [← reg0_pre m hb0 d, ← reg0_post m hb0 d, wp_bind]
  iintro ⟨Hb, Hpre, Hlev, Hg, Ht, Hk⟩
  iapply ((K (F := F)).wp_liftProg (D (F := F)) 𝒱 (d.tc : Thread nD τ) Set.univ none
    (Prog.lift (.customCall (Pipeline.entry (0 : Fin 2)) ())) _)
  iapply (Pipeline.RegionSeg.wp (pcfgs (F := F)) adm (pdats m) (none : HIx 1) cellOf_inj (EP (F := F)) defs₀ 𝒱₀ (KL (F := F)) (Klev (F := F))
    (reg0 m hb0) d none (by intro u hu; cases hu) Prog.ret _) $$ [Hb Hpre Hlev Hg Ht Hk]
  isplitl [Hk]
  · iintro H
    rw [wp_ret]; imodintro
    iapply Hk; iexact H
  isplitl [Hb]; · iexact Hb
  isplitl [Hpre]; · iexact Hpre
  isplitl [Hlev]; · iexact Hlev
  isplitl [Hg]; · iexact Hg
  iexact Ht

-- as above
set_option backward.isDefEq.respectTransparency.types false in
set_option maxHeartbeats 800000 in
/-- The second region, the same way. -/
theorem regStep2 [∀ e, Nonempty (Elt F e)] (hb2 : ∀ c, Pipeline.BodyObligationLoose (dat2 (V4 m) (O2 (F := F)) c) (defs₀ (F := F)) 𝒱₀ (none : HIx 1) Set.univ)
    (d : Dev nD) {α : Type} (k : PUnit → Prog (TpuEff nD τ sig (Elt F) (SparseCore.Sig (ΛP (F := F)) 1) .tc) α) (Φ : α → sProp 𝕄) :
    iprop(boundary (d.tc : Thread nD τ) ∗ (held (d.tc : Thread nD τ) (Pipeline.ucRefs τ sig) (W4 m d) ∗ Rst' (O2 (F := F)) d) ∗ levAts (KL (F := F)) (Klev (F := F))
        ∗ Pipeline.cellsGhost (pinned (F := F)) (EP (F := F)) 1 d ∗ Pipeline.toksInit (pinned (F := F)) (EP (F := F)) 1 d
        ∗ (iprop(boundary (d.tc : Thread nD τ) ∗ (held (d.tc : Thread nD τ) (Pipeline.ucRefs τ sig) (W5 m d) ∗ Rst' (O2 (F := F)) d)) -∗ wp frame (wpE (DD (F := F)) 𝒱 (d.tc : Thread nD τ) none) Set.univ (k ⟨⟩) Φ))
      ⊢ wp frame (wpE (DD (F := F)) 𝒱 (d.tc : Thread nD τ) none) Set.univ
          (Prog.lift (.customCall (SparseCore.inner (Pipeline.entry 1)) ()) >>= k) Φ := by
  rw [← reg2_pre m hb2 d, ← reg2_post m hb2 d, wp_bind]
  iintro ⟨Hb, Hpre, Hlev, Hg, Ht, Hk⟩
  iapply ((K (F := F)).wp_liftProg (D (F := F)) 𝒱 (d.tc : Thread nD τ) Set.univ none
    (Prog.lift (.customCall (Pipeline.entry (1 : Fin 2)) ())) _)
  iapply (Pipeline.RegionSeg.wp (pcfgs (F := F)) adm (pdats m) (none : HIx 1) cellOf_inj (EP (F := F)) defs₀ 𝒱₀ (KL (F := F)) (Klev (F := F))
    (reg2 m hb2) d none (by intro u hu; cases hu) Prog.ret _) $$ [Hb Hpre Hlev Hg Ht Hk]
  isplitl [Hk]
  · iintro H
    rw [wp_ret]; imodintro
    iapply Hk; iexact H
  isplitl [Hb]; · iexact Hb
  isplitl [Hpre]; · iexact Hpre
  isplitl [Hlev]; · iexact Hlev
  isplitl [Hg]; · iexact Hg
  iexact Ht

/-! ## The five buffers the SparseCore call takes and gives back -/

abbrev r_u : DevRef τ sig := Proc.devRef .tc (main_arg0 : Ref sig .tc)
abbrev r_i : DevRef τ sig := Proc.devRef .tc (main_arg1 : Ref sig .tc)
abbrev r_t : DevRef τ sig := Proc.devRef .tc (main_v4 : Ref sig .tc)
abbrev r_ou : DevRef τ sig := Proc.devRef .tc (main_v5_0 : Ref sig .tc)
abbrev r_oi : DevRef τ sig := Proc.devRef .tc (main_v5_1 : Ref sig .tc)
abbrev S5 : Finset (DevRef τ sig) := {r_u, r_i, r_t, r_ou, r_oi}
theorem S5_sub : S5 ⊆ Pipeline.ucRefs τ sig := by decide

omit [FloatOps F] in
theorem held_S5 (d : Dev nD) (W : Valuation τ sig (Elt F)) :
    (held (T d) S5 W : sProp 𝕄) = iprop((uLoc d ↦{fullShare} W r_u) ∗ (iLoc d ↦{fullShare} W r_i) ∗ (tLoc d ↦{fullShare} W r_t)
      ∗ (ouLoc d ↦{fullShare} W r_ou) ∗ (oiLoc d ↦{fullShare} W r_oi)) := by
  unfold held S5
  rw [SparseCore.bigSep_insert' (by decide), SparseCore.bigSep_insert' (by decide), SparseCore.bigSep_insert' (by decide),
    SparseCore.bigSep_insert' (by decide), bigSep_singleton]

/-- The transposes write none of the index arrays, and region one none of them either. -/
theorem W2_u (d : Dev nD) : W2 m d r_u = m (uLoc d) :=
  (W2_of_ne m d main_arg0 (by decide)).trans (StableHlo.after_of_forall_not_mem (b := r_u) _ _ (List.forall_iff_forall_mem.mp (by
    simp only [hostA, List.Forall, StableHlo.unary_writes, Finset.mem_singleton]
    repeat' apply And.intro
    all_goals exact StableHlo.devRef_ne_of_ne (by decide))))
theorem W2_i (d : Dev nD) : W2 m d r_i = m (iLoc d) :=
  (W2_of_ne m d main_arg1 (by decide)).trans (StableHlo.after_of_forall_not_mem (b := r_i) _ _ (List.forall_iff_forall_mem.mp (by
    simp only [hostA, List.Forall, StableHlo.unary_writes, Finset.mem_singleton]
    repeat' apply And.intro
    all_goals exact StableHlo.devRef_ne_of_ne (by decide))))

theorem W3_u (d : Dev nD) : W3 m d r_u = m (uLoc d) := by
  unfold W3; rw [Function.update_of_ne (show r_u ≠ r_oi by decide), Function.update_of_ne (show r_u ≠ r_ou by decide)]; exact W2_u m d
theorem W3_i (d : Dev nD) : W3 m d r_i = m (iLoc d) := by
  unfold W3; rw [Function.update_of_ne (show r_i ≠ r_oi by decide), Function.update_of_ne (show r_i ≠ r_ou by decide)]; exact W2_i m d
theorem W3_t (d : Dev nD) : W3 m d r_t = Tv m d := by
  unfold W3; rw [Function.update_of_ne (show r_t ≠ r_oi by decide), Function.update_of_ne (show r_t ≠ r_ou by decide)]
theorem W3_ou (d : Dev nD) : W3 m d r_ou = gU m (Tv m) d := by
  unfold W3; rw [Function.update_of_ne (show r_ou ≠ r_oi by decide), Function.update_self]
theorem W3_oi (d : Dev nD) : W3 m d r_oi = gI m (Tv m) d := by
  unfold W3; rw [Function.update_self]
theorem W3_rest (d : Dev nD) : ∀ b ∈ Pipeline.ucRefs τ sig \ S5, W2 m d b = W3 m d b := by
  intro b hb
  have hb' := (Finset.mem_sdiff.mp hb).2
  have h1 : b ≠ r_oi := fun e => hb' (by rw [e]; decide)
  have h2 : b ≠ r_ou := fun e => hb' (by rw [e]; decide)
  unfold W3; rw [Function.update_of_ne h1, Function.update_of_ne h2]

/-! ## The SparseCore call -/

/-- The payloads of the launch handshakes, at the table region one leaves. -/
abbrev Pm : (K (F := F)).Pay (nD := nD) (Val := Elt F) (Name := ℕ) (U := UU) := P m (Tv m)

/-- The call: the two index arrays, the table and the two result arrays go to the SparseCores and come back, the
    result arrays holding the rows of the table the index words name. -/
theorem scStep (κ : GSem nD τ sig → ℕ) (d : Dev nD) {α : Type}
    (k : PUnit → Prog (TpuEff nD τ sig (Elt F) (SparseCore.Sig (ΛP (F := F)) 1) .tc) α) (Φ : α → sProp 𝕄) :
    iprop((K (F := F)).ctx EH (Pm m) κ ∗ (K (F := F)).tcSt EH d 0 ∗ held (T d) (Pipeline.ucRefs τ sig) (W2 m d)
        ∗ (iprop((K (F := F)).tcSt EH d 1 ∗ held (T d) (Pipeline.ucRefs τ sig) (W3 m d))
            -∗ wp frame (wpE (DD (F := F)) 𝒱 (T d) none) Set.univ (k ⟨⟩) Φ))
      ⊢ wp frame (wpE (DD (F := F)) 𝒱 (T d) none) Set.univ ((K (F := F)).run d 0 >>= k) Φ := by
  rw [wp_bind, StableHlo.held_sub_split (T d) S5_sub (W2 m d), held_S5, W2_u, W2_i]
  iintro ⟨#Hctx, Hst, ⟨⟨Hu, Hi, Ht, Hou, Hoi⟩, Hrest⟩, Hk⟩
  iapply ((K (F := F)).wp_run (D (F := F)) 𝒱 (EH := EH) (P := Pm m) κ d 0) $$ [Hst Hu Hi Ht Hou Hoi Hrest Hk]
  isplitr; · iexact Hctx
  isplitl [Hst]; · iexact Hst
  isplitl [Hu Hi Ht Hou Hoi]
  · iapply (st0_intro m (Tv m) d)
    isplitl [Hu]; · iexact Hu
    isplitl [Hi]; · iexact Hi
    isplitl [Ht]; · iexact Ht
    isplitl [Hou]; · iexists _; iexact Hou
    iexists _; iexact Hoi
  iintro ⟨Hst, Hdn⟩
  ihave H := (dn0_elim m (Tv m) d) $$ Hdn
  icases H with ⟨Hu, Hi, Ht, Hou, Hoi⟩
  iapply Hk
  isplitl [Hst]; · iexact Hst
  rw [StableHlo.held_sub_split (T d) S5_sub (W3 m d), held_S5, W3_u, W3_i, W3_t, W3_ou, W3_oi,
    ← StableHlo.held_congr (T d) (W3_rest m d)]
  isplitr [Hrest]
  · isplitl [Hu]; · iexact Hu
    isplitl [Hi]; · iexact Hi
    isplitl [Ht]; · iexact Ht
    isplitl [Hou]; · iexact Hou
    iexact Hoi
  iexact Hrest

/-! ## The whole main function -/

variable (ρ : Dev nD → PrngReg)

/-- What the main function leaves: every unscoped buffer at the last boundary's contents. -/
abbrev FIN (d : Dev nD) : sProp 𝕄 := held (T d) (Pipeline.ucRefs τ sig) (W6 m d)

/-- What a TensorCore owes the launch handshakes before call `n`, its recorded wait pairs bounded. -/
abbrev Debt (d : Dev nD) (n : ℕ) : sProp 𝕄 :=
  iprop(∃ W, ⌜(K (F := F)).WBelow (SparseCore.T d) W (8 * n)⌝ ∗ owes (SparseCore.T d) ((K (F := F)).Otc d n) W)

omit [FloatOps F] in
/-- A TensorCore's handshake state before call `n` is that debt beside the rest. -/
theorem tcSt_split (d : Dev nD) (n : ℕ) : ∃ B : sProp 𝕄, (K (F := F)).tcSt (EH (F := F)) d n = iprop(Debt (F := F) d n ∗ B) := ⟨_, rfl⟩

omit [FloatOps F] in
/-- Before the first call every recorded pair is at the index of a kernel's own waits, -/
theorem below_zero {d : Dev nD} {W : Waits sig (HIx 1)} (h : (K (F := F)).WBelow (SparseCore.T d) W (8 * 0)) : ∀ p ∈ W, p.2 = (none : HIx 1) := by
  intro p hp
  have h1 := h p hp
  cases hq : p.2 with
  | none => rfl
  | some q => rw [hq] at h1; have := (K (F := F)).lev_some_pos (SparseCore.T d, p.1) q; omega
omit [FloatOps F] in
/-- and conversely; -/
theorem below_of_none {d : Dev nD} {W : Waits sig (HIx 1)} (h : ∀ p ∈ W, p.2 = (none : HIx 1)) : (K (F := F)).WBelow (SparseCore.T d) W (8 * 0) := by
  intro p hp; rw [h p hp, SparseCore.Cfg.lev_none]
omit [FloatOps F] in
/-- after the only call every pair is low enough, whatever it is. -/
theorem below_one {d : Dev nD} (W : Waits sig (HIx 1)) : (K (F := F)).WBelow (SparseCore.T d) W (8 * 1) := by
  intro p hp
  cases hq : p.2 with
  | none => rw [SparseCore.Cfg.lev_none]; omega
  | some q => have h1 := (K (F := F)).lev_some_le (SparseCore.T d, p.1) q; have h2 := q.isLt; omega

-- the steps are stated at the TensorCore thread spelt `d.tc`, the launch rule spells it `T d`
set_option backward.isDefEq.respectTransparency.types false in
set_option maxHeartbeats 4000000 in
/-- The main function on device `d`'s TensorCore, from what the launch deals it to the buffers at the last boundary. -/
theorem hmain [∀ e, Nonempty (Elt F e)]
    (hb0 : ∀ c, Pipeline.BodyObligationLoose (dat0 (V1 m) (O0 (F := F)) c) (defs₀ (F := F)) 𝒱₀ (none : HIx 1) Set.univ)
    (hb2 : ∀ c, Pipeline.BodyObligationLoose (dat2 (V4 m) (O2 (F := F)) c) (defs₀ (F := F)) 𝒱₀ (none : HIx 1) Set.univ)
    (κ : GSem nD τ sig → ℕ) (d : Dev nD) :
    iprop((K (F := F)).ctx EH (Pm m) κ ∗ (K (F := F)).tcSt EH d 0 ∗ (K (F := F)).tcRes m ρ d ∗ G d)
      ⊢ wp frame (wpE (DD (F := F)) 𝒱 (SparseCore.T d) none) Set.univ (main d)
          fun _ => iprop((K (F := F)).tcSt EH d 1 ∗ FIN m d) := by
  obtain ⟨B0, hB0⟩ := tcSt_split (F := F) d 0
  obtain ⟨B1, hB1⟩ := tcSt_split (F := F) d 1
  have open0 : (K (F := F)).tcSt (EH (F := F)) d 0 ⊢ iprop(Debt (F := F) d 0 ∗ B0) := Entails.of_eq hB0
  have fold0 : iprop(Debt (F := F) d 0 ∗ B0) ⊢ (K (F := F)).tcSt (EH (F := F)) d 0 := Entails.of_eq hB0.symm
  have open1 : (K (F := F)).tcSt (EH (F := F)) d 1 ⊢ iprop(Debt (F := F) d 1 ∗ B1) := Entails.of_eq hB1
  have fold1 : iprop(Debt (F := F) d 1 ∗ B1) ⊢ (K (F := F)).tcSt (EH (F := F)) d 1 := Entails.of_eq hB1.symm
  unfold SparseCore.Cfg.tcRes G
  rw [show unscopedBufs d (fun b => m ((SparseCore.T d).loc b)) = held (d.tc : Thread nD τ) (Pipeline.ucRefs τ sig) (W0 m d)
        from Pipeline.unscopedBufs_held d (W0 m d),
    main_eq, show (Finset.univ : Finset (Fin 2)) = {0, 1} by decide, SparseCore.bigSep_insert' (by decide), bigSep_singleton]
  iintro ⟨#Hctx, Hst, ⟨Hb, Hheld, -, Hprng⟩, ⟨Hg0, Ht0⟩, ⟨Hg1, Ht1⟩⟩
  ihave #Hlev := (SparseCore.Cfg.ctx_levAts κ) $$ Hctx
  -- the transposes
  iapply (StableHlo.wp_seq (defs := DD (F := F)) 𝒱 none Set.univ d (Pipeline.ucRefs τ sig) _ hostA
      (fun op h => Pipeline.sub_ucRefs op ((List.forall_iff_forall_mem.mp hostA_sub) op h))
      (fun op h => (List.forall_iff_forall_mem.mp hostA_fresh) op h) (W0 m d)) $$ [Hb Hheld]
  · isplitl [Hb] <;> iassumption
  iintro ⟨Hb, Hheld⟩
  -- region one: the debt out of the handshake state, through the region, and back
  ihave Hst' := open0 $$ Hst
  icases Hst' with ⟨⟨%Wa, %hWa, HO⟩, HB0⟩
  iapply (regStep0 m hb0 d _ _) $$ [Hb Hheld Hprng HO Hg0 Ht0 HB0 Hg1 Ht1]
  isplitl [Hb]; · iexact Hb
  isplitl [Hheld Hprng HO]
  · isplitl [Hheld]; · iexact Hheld
    isplitl [Hprng]; · iexists _; iexact Hprng
    iexists Wa; isplitr; · ipureintro; exact below_zero hWa
    iexact HO
  isplitr; · iexact Hlev
  isplitl [Hg0]; · iexact Hg0
  isplitl [Ht0]; · iexact Ht0
  iintro ⟨Hb, Hheld, ⟨%r1, Hprng⟩, %Wb, %hWb, HO⟩
  -- the SparseCore call
  iapply (scStep m κ d _ _) $$ [Hheld HO HB0 Hb Hprng Hg1 Ht1]
  isplitr; · iexact Hctx
  isplitl [HO HB0]
  · iapply fold0
    isplitr [HB0]
    · iexists Wb; isplitr; · ipureintro; exact below_of_none hWb
      iexact HO
    iexact HB0
  isplitl [Hheld]; · iexact Hheld
  iintro ⟨Hst, Hheld⟩
  -- the slices and reshapes of the weights
  iapply (StableHlo.wp_seq (defs := DD (F := F)) 𝒱 none Set.univ d (Pipeline.ucRefs τ sig) _ hostB
      (fun op h => Pipeline.sub_ucRefs op ((List.forall_iff_forall_mem.mp hostB_sub) op h))
      (fun op h => (List.forall_iff_forall_mem.mp hostB_fresh) op h) (W3 m d)) $$ [Hb Hheld]
  · isplitl [Hb] <;> iassumption
  iintro ⟨Hb, Hheld⟩
  -- region two
  ihave Hst' := open1 $$ Hst
  icases Hst' with ⟨⟨%Wc, %hWc, HO⟩, HB1⟩
  iapply (regStep2 m hb2 d _ _) $$ [Hb Hheld Hprng HO Hg1 Ht1 HB1]
  isplitl [Hb]; · iexact Hb
  isplitl [Hheld Hprng HO]
  · isplitl [Hheld]; · iexact Hheld
    isplitl [Hprng]; · iexists _; iexact Hprng
    iexists Wc; iexact HO
  isplitr; · iexact Hlev
  isplitl [Hg1]; · iexact Hg1
  isplitl [Ht1]; · iexact Ht1
  iintro ⟨Hb, Hheld, ⟨%r2, Hprng⟩, %Wd, HO⟩
  -- the closing reshape
  iapply (StableHlo.wp_seq (defs := DD (F := F)) 𝒱 none Set.univ d (Pipeline.ucRefs τ sig) _ hostC
      (fun op h => Pipeline.sub_ucRefs op ((List.forall_iff_forall_mem.mp hostC_sub) op h))
      (fun op h => (List.forall_iff_forall_mem.mp hostC_fresh) op h) (W5 m d)) $$ [Hb Hheld]
  · isplitl [Hb] <;> iassumption
  iintro ⟨Hb, Hheld⟩
  rw [wp_pure]; imodintro
  isplitr [Hheld]
  · iapply fold1
    isplitr [HB1]
    · iexists Wd; isplitr; · ipureintro; exact below_one Wd
      iexact HO
    iexact HB1
  iexact Hheld

/-! ## Reading the last boundary off a final state -/

/-- Every unscoped buffer of the TensorCore holds the last boundary's contents. -/
def fq (d : Dev nD) (s' : Phys nD τ sig (Elt F)) : Prop :=
  ∀ b ∈ Pipeline.ucRefs τ sig, s'.mem.mem ((d.tc : Thread nD τ).1, b) = W6 m d b

set_option maxHeartbeats 1000000 in
theorem hfin (d : Dev nD) (s' : Phys nD τ sig (Elt F)) : iprop(FIN m d ∗ SI s') ⊢ (⌜fq m d s'⌝ : sProp 𝕄) := by
  iintro ⟨Hh, HSI⟩
  unfold FIN StableHlo.held
  ihave H := (pointsTo_read_all (Pipeline.ucRefs τ sig) (fun b => ((d.tc : Thread nD τ).1, b)) (W6 m d) s') $$ [Hh HSI]
  · isplitl [Hh] <;> iassumption
  icases H with ⟨%hq, -⟩
  ipureintro; exact hq

end Cert.Proof.KB

end
-- ==== Proof.KbRunKI.lean ====
/-
  The whole program's run under the SparseCore launch rule: from any memory whose index words name rows of the
  tables, every weakly fair execution of the thirty-five threads terminates, and every unscoped buffer of every
  TensorCore ends at the last boundary's contents. And the index ranges out of the stated precondition.
-/
import proofs.«212231_g88622355185883_cont_sun_m_1073_38_alg».proof.Proof.KbLaunchMain
import proofs.«212231_g88622355185883_cont_sun_m_1073_38_alg».proof.Proof.PreIdx
import Idealize.ShloMosaic.Lib.SparseCore.Launch

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 1) (Elt F) ℕ UU ℕ

/-! ## The index ranges out of the precondition -/

/-- The stated precondition, all ones on every device, says every index word names a row of the table. -/
theorem idxOK_of_pre (m : (ℓ : Loc nD τ sig) → Buf (Elt F) ℓ)
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      = fun _ => 1#1) : IdxOK m := fun d =>
  have r := Cert.Proof.Ref.idx_range (F := F) _ _ _ _ _ _ _ _ _ _ _ _ _ _ (h d)
  ⟨fun j => (r.1 j).2, fun j => (r.2 j).2⟩

/-! ## The run -/

section Run
variable (m : (ℓ : Loc nD τ sig) → Buf (Elt F) ℓ) (ρ : Dev nD → PrngReg)
-- the row-gathering task's obligation
variable (htile : (K (F := F)).TileObl (D (F := F)) 𝒱 (Pm m) v₀ 0)

include htile in
/-- From the launch memory every weakly fair execution of the program terminates, nothing faulting, and every unscoped
    buffer of every TensorCore ends holding the last boundary's contents. -/
theorem run_main [∀ e, Nonempty (Elt F e)] :
    θ_run (Cert.Kernel.defs (F := F)) (Cert.Kernel.threads (F := F)) ⟨m, fun _ => 0, ρ⟩
      (fun r => ∀ c : Dev nD, ∀ b ∈ Pipeline.ucRefs τ sig, r.2.mem (c, b) = W6 m c b) := by
  have hs : ∀ q, (K (F := F)).kind q = .scScalar → (K (F := F)).ScalarObl (D (F := F)) 𝒱 (Pm m) v₀ q (K (F := F)).lev :=
    fun q hq => match q with | 0 => nomatch hq
  have ht : ∀ q, (K (F := F)).kind q = .scVector → (K (F := F)).TileObl (D (F := F)) 𝒱 (Pm m) v₀ q (K (F := F)).lev :=
    fun q _ => match q with | 0 => htile
  have hv : ∀ q, (K (F := F)).kind q = .scVector → (K (F := F)).VecSplit (Pm m) q :=
    fun q _ => match q with | 0 => SparseCore.Cfg.VecSplit.of_plain (vecSplit m (Tv m))
  have hu := (sep_elim_left (Q := iprop((Pm m).oxCred ∗ (K (F := F)).freeSems0))).trans (hu₀ (F := F) (Pm m) fun _ _ => rfl)
  have hQ : ∀ s' : Phys nD τ sig (Elt F), (∀ d, fq m d s') →
      (fun r : PUnit.{1} × MemSt nD τ sig (Elt F) => ∀ c : Dev nD, ∀ b ∈ Pipeline.ucRefs τ sig, r.2.mem (c, b) = W6 m c b) (⟨⟩, s'.mem) :=
    fun s h c b hb => h c b hb
  -- each of the launch rule's premises is handed over in the spelling the rule states it in
  refine SparseCore.Cfg.θ_run_sc (K := K (F := F)) (D := D (F := F)) (𝒱 := 𝒱) (EH := EH) (P := Pm m) (lv := (K (F := F)).lev) facts v₀
    hs ht hv m ρ main G (FIN m) (u₀ (F := F)) ?hu ?hm (fq m) ?hf _ ?hQ rfl (SparseCore.Cfg.refines_self _)
  case hu => with_reducible exact hu
  case hm => intro κ d; with_reducible exact hmain m ρ (fun c => hbody0 (V1 m) (O0 (F := F)) c) (fun c => hbody2 (V4 m) (O2 (F := F)) c) κ d
  case hf => with_reducible exact hfin m
  case hQ => with_reducible exact hQ

end Run

end Cert.Proof.KB

end
-- ==== Proof.KbRepackValue.lean ====
import proofs.«212231_g88622355185883_cont_sun_m_1073_38_alg».proof.Proof.KbRepackDefs

set_option maxRecDepth 16384

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2 eq_ix2)

variable {F : FTy → Type} [FloatOps F]

/-! ## From the blocks to the whole table

Each grid point writes back, onto rows `4096 t ‥` of the result (cut at the millionth row), the block of the repacked
table there; the 245 blocks cover every row, so the result ends holding the repacked table. The four input tables
are never written. -/

section Region
variable (V : (c : Dev nD) → (b : Ref sig .tc) → Buf (Elt F) ((c.tc : Thread nD τ).loc b))
variable (O : Dev nD → CellTallies nD τ sig (HIx 1))

/-- What point `t` writes back is its block of the repacked table. -/
theorem flushed0_4 (c : Dev nD) (t : Fin cfg0.N) :
    (dat0 V O c).flushed 4 t = ((cfg0.win 4).blk t).view.read (Elt F) (rep0 V c) := by
  show (cfg0.win 4).cut (grid0.coords t) ((dat0 V O c).after 4 t) = _
  rw [show (dat0 V O c).after 4 t = win0_4.fill (grid0.coords t) (fun _ => zf) ((win0_4.blk t).view.read (Elt F) (rep0 V c)) from by
    dsimp only [dat0]]
  exact win0_4.cut_fill _ _ _

/-- An index of the result is in point `t`'s block iff each coordinate is in the block's range, cut at the array's end. -/
theorem mem_blk0_4 (t : Fin cfg0.N) (i : S1000000x128.Idx) :
    i ∈ ((cfg0.win 4).blk t).view.set ↔ ∀ a : Fin 2, win0_4.index t a * S4096x128.size a ≤ (i a).val
      ∧ (i a).val < win0_4.index t a * S4096x128.size a + win0_4.xsize (grid0.coords t) a := by
  show i ∈ ((View.whole main_v4).slice (win0_4.rect t)).set ↔ _
  rw [View.set_slice_whole, Rect.mem_set_unit]
  exact Iff.rfl

/-- Row `v` is in the block of point `v / 4096`. -/
theorem cover0 (i : S1000000x128.Idx) :
    ∃ t : Fin cfg0.N, (cfg0.win 4).flush t = true ∧ i ∈ ((cfg0.win 4).blk t).view.set := by
  have hi0 : (i 0).val < 1000000 := (i 0).isLt
  have hi1 : (i 1).val < 128 := (i 1).isLt
  have ht : (i 0).val / 4096 < cfg0.N := by
    show (i 0).val / 4096 < grid0.N
    rw [N_0]; omega
  obtain ⟨t, htv⟩ : ∃ t : Fin cfg0.N, t.val = (i 0).val / 4096 := ⟨⟨_, ht⟩, rfl⟩
  refine ⟨t, flush0_4 t, ?_⟩
  obtain ⟨-, -, -, -, b0, b1, b2, b3, b4, b5, b6⟩ := idx_facts0 t
  rw [mem_blk0_4]
  intro a
  match a with
  | ⟨0, _⟩ =>
    show win0_4.index t (0 : Fin 2) * 4096 ≤ (i 0).val
      ∧ (i 0).val < win0_4.index t (0 : Fin 2) * 4096 + win0_4.xsize (grid0.coords t) (0 : Fin 2)
    rw [b0]
    by_cases hl : 4096 * (t.val + 1) ≤ 1000000
    · have := b5 hl; omega
    · have := b6 (by omega); omega
  | ⟨1, _⟩ =>
    show win0_4.index t (1 : Fin 2) * 128 ≤ (i 1).val
      ∧ (i 1).val < win0_4.index t (1 : Fin 2) * 128 + win0_4.xsize (grid0.coords t) (1 : Fin 2)
    rw [b1, b2]; omega

/-- THE RESULT after the region: the repacked table of the four tables as the region found them. -/
theorem final0 (c : Dev nD) : (dat0 V O c).arrAt 4 cfg0.N = rep0 V c :=
  (dat0 V O c).arrAt_eq_of_cover 4 (rep0 V c) (fun t _ => flushed0_4 V O c t) cover0

/-- An input table is as the region found it. -/
theorem kept0 (c : Dev nD) (w : Fin cfg0.W) (hw : (cfg0.win w).isOut = false) :
    (dat0 V O c).arrAt w cfg0.N = V c (Pipeline.arrRef spec0 w) :=
  ((dat0 V O c).arrAt_in w hw _).trans (A_eq0 V O c w)

example (c : Dev nD) : (dat0 V O c).arrAt 0 cfg0.N = V c main_v0 := kept0 V O c 0 rfl
example (c : Dev nD) : (dat0 V O c).arrAt 3 cfg0.N = V c main_v3 := kept0 V O c 3 rfl

end Region

end Cert.Proof.KB

end
-- ==== Proof.KbMlpFinal.lean ====
/-
  From the output window's blocks to the whole result column.

  Point t of the grid writes back rows 2048 t … 2048 t + 2047 of the result; what it writes is the body's
  column computed from rows 2048 t … of the two gathered row arrays and from the ten small operands whole.
  The eight blocks tile the [16384, 1] result, so after the last point the result is ONE function of the twelve
  input arrays: row j is row j mod 2048 of the body's column on row block j / 2048.
-/
import proofs.«212231_g88622355185883_cont_sun_m_1073_38_alg».proof.Proof.KbSetup
import proofs.«212231_g88622355185883_cont_sun_m_1073_38_alg».proof.Proof.KbMlpDat
import Idealize.ShloMosaic.Lib.Pipeline.Value
import Idealize.ShloMosaic.Lib.ValueIdx

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix2 eq_ix2)

variable {F : FTy → Type} [FloatOps F]

local notation "𝕄" => MT nD τ sig (HIx 1) (Elt F) ℕ UU ℕ

theorem hz2 : (![0, 0] : Fin 2 → Nat) = fun _ => 0 := funext fun a => by fin_cases a <;> rfl

/-! ## The body's column as one function of the twelve loaded blocks -/

/-- The stored column, from the contents of the twelve input buffers. -/
def mlpBlk (x0 : S2048x128.Idx → Elt F .f32) (x1 : S2048x128.Idx → Elt F .f32) (x2 : S32x128.Idx → Elt F .f32) (x3 : S32x128.Idx → Elt F .f32) (x4 : S1x128.Idx → Elt F .f32) (x5 : S128x64.Idx → Elt F .f32) (x6 : S1x64.Idx → Elt F .f32) (x7 : S64x32.Idx → Elt F .f32) (x8 : S1x32.Idx → Elt F .f32) (x9 : S1x32.Idx → Elt F .f32) (x10 : S1x32.Idx → Elt F .f32) (x11 : S1x1.Idx → Elt F .f32) : S2048x1.Idx → Elt F .f32 :=
  k2_pay1 (k2_pay4 x0) (k2_pay5 x1) (k2_pay6 x0 x1 x2 x3 x4 x5 x6 x7 x8) x9 x10 x11

/-- What the body leaves in the output buffer is that column: its loads read whole buffers, its one store covers. -/
theorem out2_12_eq (x0 : S2048x128.Idx → Elt F .f32) (x1 : S2048x128.Idx → Elt F .f32) (x2 : S32x128.Idx → Elt F .f32) (x3 : S32x128.Idx → Elt F .f32) (x4 : S1x128.Idx → Elt F .f32) (x5 : S128x64.Idx → Elt F .f32) (x6 : S1x64.Idx → Elt F .f32) (x7 : S64x32.Idx → Elt F .f32) (x8 : S1x32.Idx → Elt F .f32) (x9 : S1x32.Idx → Elt F .f32) (x10 : S1x32.Idx → Elt F .f32) (x11 : S1x1.Idx → Elt F .f32) : out2_12 x0 x1 x2 x3 x4 x5 x6 x7 x8 x9 x10 x11 = mlpBlk x0 x1 x2 x3 x4 x5 x6 x7 x8 x9 x10 x11 := by
  unfold out2_12 mlpBlk
  rw [View.canon_unit_zero hz2]
  simp only [View.ld_unit_zero (S := S2048x128) hz2, View.ld_unit_zero (S := S32x128) hz2, View.ld_unit_zero (S := S1x128) hz2, View.ld_unit_zero (S := S128x64) hz2, View.ld_unit_zero (S := S1x64) hz2, View.ld_unit_zero (S := S64x32) hz2, View.ld_unit_zero (S := S1x32) hz2, View.ld_unit_zero (S := S1x1) hz2]

/-! ## The whole column -/

/-- Rows 2048 t … 2048 t + 2047 of a [16384, 128] array, as a [2048, 128] block. -/
def rowBlk (a : S16384x128.Idx → Elt F .f32) (t : Nat) : S2048x128.Idx → Elt F .f32 := fun y =>
  a (ix2 (n0 := 16384) (n1 := 128) ⟨(t * 2048 + (y 0).val) % 16384, Nat.mod_lt _ (by decide)⟩ ⟨(y 1).val, (y 1).isLt⟩)

/-- The result column as one function of the twelve input arrays: row j is row j mod 2048 of the body's column on
    row block j / 2048 of the two gathered row arrays. -/
def mlpOut (u i : S16384x128.Idx → Elt F .f32) (w1a w1b : S32x128.Idx → Elt F .f32) (b1 : S1x128.Idx → Elt F .f32) (w2 : S128x64.Idx → Elt F .f32) (b2 : S1x64.Idx → Elt F .f32) (w3 : S64x32.Idx → Elt F .f32) (b3 womf woh : S1x32.Idx → Elt F .f32) (bo : S1x1.Idx → Elt F .f32) : S16384x1.Idx → Elt F .f32 := fun j =>
  mlpBlk (rowBlk u ((j 0).val / 2048)) (rowBlk i ((j 0).val / 2048)) w1a w1b b1 w2 b2 w3 b3 womf woh bo
    (ix2 (n0 := 2048) (n1 := 1) ⟨(j 0).val % 2048, Nat.mod_lt _ (by decide)⟩ ⟨0, Nat.one_pos⟩)

/-- The body's column on row block t, read at row y, is the whole column at row 2048 t + y. -/
theorem mlpBlk_eq_mlpOut (u i : S16384x128.Idx → Elt F .f32) (w1a w1b : S32x128.Idx → Elt F .f32) (b1 : S1x128.Idx → Elt F .f32) (w2 : S128x64.Idx → Elt F .f32) (b2 : S1x64.Idx → Elt F .f32) (w3 : S64x32.Idx → Elt F .f32) (b3 womf woh : S1x32.Idx → Elt F .f32) (bo : S1x1.Idx → Elt F .f32) (t : Nat) (ht : t < 8) (x0 : S2048x128.Idx → Elt F .f32) (x1 : S2048x128.Idx → Elt F .f32) (x2 : S32x128.Idx → Elt F .f32) (x3 : S32x128.Idx → Elt F .f32) (x4 : S1x128.Idx → Elt F .f32) (x5 : S128x64.Idx → Elt F .f32) (x6 : S1x64.Idx → Elt F .f32) (x7 : S64x32.Idx → Elt F .f32) (x8 : S1x32.Idx → Elt F .f32) (x9 : S1x32.Idx → Elt F .f32) (x10 : S1x32.Idx → Elt F .f32) (x11 : S1x1.Idx → Elt F .f32)
    (h0 : x0 = rowBlk u t) (h1 : x1 = rowBlk i t) (h2 : x2 = w1a) (h3 : x3 = w1b) (h4 : x4 = b1) (h5 : x5 = w2) (h6 : x6 = b2) (h7 : x7 = w3) (h8 : x8 = b3) (h9 : x9 = womf) (h10 : x10 = woh) (h11 : x11 = bo)
    (y : S2048x1.Idx) (j : S16384x1.Idx) (hj : (j 0).val = t * 2048 + (y 0).val) :
    mlpBlk x0 x1 x2 x3 x4 x5 x6 x7 x8 x9 x10 x11 y = mlpOut u i w1a w1b b1 w2 b2 w3 b3 womf woh bo j := by
  subst h0 h1 h2 h3 h4 h5 h6 h7 h8 h9 h10 h11
  unfold mlpOut
  have hy0 : (y 0).val < 2048 := (y 0).isLt
  have hy1 : (y 1).val < 1 := (y 1).isLt
  have hq : (j 0).val / 2048 = t := by omega
  have hr : (j 0).val % 2048 = (y 0).val := by omega
  have hy : y = ix2 (n0 := 2048) (n1 := 1) ⟨(j 0).val % 2048, Nat.mod_lt _ (by decide)⟩ ⟨0, Nat.one_pos⟩ := by
    funext a; apply Fin.ext
    match a with
    | ⟨0, _⟩ => exact hr.symm
    | ⟨1, _⟩ => show (y 1).val = 0; omega
  rw [hq]
  exact congrArg _ hy

/-! ## The printed index maps, decided over the grid -/

theorem lt8 (t : Fin cfg2.N) : t.val < 8 := by have h : t.val < grid2.N := t.isLt; rw [N_2] at h; exact h

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_12 : ∀ t : Fin cfg2.N, win2_12.index t (0 : Fin 2) = t.val ∧ win2_12.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)
theorem idx2_9 : ∀ t : Fin cfg2.N, win2_9.index t (0 : Fin 2) = 0 ∧ win2_9.index t (1 : Fin 2) = 0 :=
  (by decide +kernel : ∀ t : Fin grid2.N, _)
theorem idx2_10 : ∀ t : Fin cfg2.N, win2_10.index t (0 : Fin 2) = 0 ∧ win2_10.index t (1 : Fin 2) = 0 :=
  (by decide +kernel : ∀ t : Fin grid2.N, _)
theorem idx2_11 : ∀ t : Fin cfg2.N, win2_11.index t (0 : Fin 2) = 0 ∧ win2_11.index t (1 : Fin 2) = 0 :=
  (by decide +kernel : ∀ t : Fin grid2.N, _)

section Region2

variable (V : (c : Dev nD) → (b : Ref sig .tc) → Buf (Elt F) ((c : Thread nD τ).loc b))
variable (O : Dev nD → CellTallies nD τ sig (HIx 1))

/-! ## Each input window's block, read off its array -/

/-- Window 0's block at point t is rows 2048 t … of its array. -/
theorem iblk2_0 (c : Dev nD) (t : Fin cfg2.N) : iblk2 V c 0 t = rowBlk (V c main_v5_0) t.val := by
  obtain ⟨e0, e1⟩ := idx2_0 t
  have ht := lt8 t
  funext z
  have hz0 : (z 0).val < 2048 := (z 0).isLt
  have hz1 : (z 1).val < 128 := (z 1).isLt
  show V c main_v5_0 (((cfg2.win 0).blk t).view.emb z) = V c main_v5_0 (ix2 (n0 := 16384) (n1 := 128) ⟨(t.val * 2048 + (z 0).val) % 16384, Nat.mod_lt _ (by decide)⟩ ⟨(z 1).val, (z 1).isLt⟩)
  refine congrArg _ (funext fun a => Fin.ext ?_)
  match a with
  | ⟨0, _⟩ => show win2_0.index t (0 : Fin 2) * 2048 + 1 * (z 0).val = (t.val * 2048 + (z 0).val) % 16384; omega
  | ⟨1, _⟩ => show win2_0.index t (1 : Fin 2) * 128 + 1 * (z 1).val = (z 1).val; omega
/-- Window 1's block at point t is rows 2048 t … of its array. -/
theorem iblk2_1 (c : Dev nD) (t : Fin cfg2.N) : iblk2 V c 1 t = rowBlk (V c main_v5_1) t.val := by
  obtain ⟨e0, e1⟩ := idx2_1 t
  have ht := lt8 t
  funext z
  have hz0 : (z 0).val < 2048 := (z 0).isLt
  have hz1 : (z 1).val < 128 := (z 1).isLt
  show V c main_v5_1 (((cfg2.win 1).blk t).view.emb z) = V c main_v5_1 (ix2 (n0 := 16384) (n1 := 128) ⟨(t.val * 2048 + (z 0).val) % 16384, Nat.mod_lt _ (by decide)⟩ ⟨(z 1).val, (z 1).isLt⟩)
  refine congrArg _ (funext fun a => Fin.ext ?_)
  match a with
  | ⟨0, _⟩ => show win2_1.index t (0 : Fin 2) * 2048 + 1 * (z 0).val = (t.val * 2048 + (z 0).val) % 16384; omega
  | ⟨1, _⟩ => show win2_1.index t (1 : Fin 2) * 128 + 1 * (z 1).val = (z 1).val; omega
/-- Window 2's block at every point is its whole array. -/
theorem iblk2_2 (c : Dev nD) (t : Fin cfg2.N) : iblk2 V c 2 t = V c main_v6 := by
  obtain ⟨e0, e1⟩ := idx2_2 t
  funext z
  show V c main_v6 (((cfg2.win 2).blk t).view.emb z) = V c main_v6 z
  refine congrArg _ (funext fun a => Fin.ext ?_)
  match a with
  | ⟨0, _⟩ => show win2_2.index t (0 : Fin 2) * 32 + 1 * (z 0).val = (z 0).val; omega
  | ⟨1, _⟩ => show win2_2.index t (1 : Fin 2) * 128 + 1 * (z 1).val = (z 1).val; omega
/-- Window 3's block at every point is its whole array. -/
theorem iblk2_3 (c : Dev nD) (t : Fin cfg2.N) : iblk2 V c 3 t = V c main_v7 := by
  obtain ⟨e0, e1⟩ := idx2_3 t
  funext z
  show V c main_v7 (((cfg2.win 3).blk t).view.emb z) = V c main_v7 z
  refine congrArg _ (funext fun a => Fin.ext ?_)
  match a with
  | ⟨0, _⟩ => show win2_3.index t (0 : Fin 2) * 32 + 1 * (z 0).val = (z 0).val; omega
  | ⟨1, _⟩ => show win2_3.index t (1 : Fin 2) * 128 + 1 * (z 1).val = (z 1).val; omega
/-- Window 4's block at every point is its whole array. -/
theorem iblk2_4 (c : Dev nD) (t : Fin cfg2.N) : iblk2 V c 4 t = V c main_v12 := by
  obtain ⟨e0, e1⟩ := idx2_4 t
  funext z
  show V c main_v12 (((cfg2.win 4).blk t).view.emb z) = V c main_v12 z
  refine congrArg _ (funext fun a => Fin.ext ?_)
  match a with
  | ⟨0, _⟩ => show win2_4.index t (0 : Fin 2) * 1 + 1 * (z 0).val = (z 0).val; omega
  | ⟨1, _⟩ => show win2_4.index t (1 : Fin 2) * 128 + 1 * (z 1).val = (z 1).val; omega
/-- Window 5's block at every point is its whole array. -/
theorem iblk2_5 (c : Dev nD) (t : Fin cfg2.N) : iblk2 V c 5 t = V c main_arg8 := by
  obtain ⟨e0, e1⟩ := idx2_5 t
  funext z
  show V c main_arg8 (((cfg2.win 5).blk t).view.emb z) = V c main_arg8 z
  refine congrArg _ (funext fun a => Fin.ext ?_)
  match a with
  | ⟨0, _⟩ => show win2_5.index t (0 : Fin 2) * 128 + 1 * (z 0).val = (z 0).val; omega
  | ⟨1, _⟩ => show win2_5.index t (1 : Fin 2) * 64 + 1 * (z 1).val = (z 1).val; omega
/-- Window 6's block at every point is its whole array. -/
theorem iblk2_6 (c : Dev nD) (t : Fin cfg2.N) : iblk2 V c 6 t = V c main_v13 := by
  obtain ⟨e0, e1⟩ := idx2_6 t
  funext z
  show V c main_v13 (((cfg2.win 6).blk t).view.emb z) = V c main_v13 z
  refine congrArg _ (funext fun a => Fin.ext ?_)
  match a with
  | ⟨0, _⟩ => show win2_6.index t (0 : Fin 2) * 1 + 1 * (z 0).val = (z 0).val; omega
  | ⟨1, _⟩ => show win2_6.index t (1 : Fin 2) * 64 + 1 * (z 1).val = (z 1).val; omega
/-- Window 7's block at every point is its whole array. -/
theorem iblk2_7 (c : Dev nD) (t : Fin cfg2.N) : iblk2 V c 7 t = V c main_arg10 := by
  obtain ⟨e0, e1⟩ := idx2_7 t
  funext z
  show V c main_arg10 (((cfg2.win 7).blk t).view.emb z) = V c main_arg10 z
  refine congrArg _ (funext fun a => Fin.ext ?_)
  match a with
  | ⟨0, _⟩ => show win2_7.index t (0 : Fin 2) * 64 + 1 * (z 0).val = (z 0).val; omega
  | ⟨1, _⟩ => show win2_7.index t (1 : Fin 2) * 32 + 1 * (z 1).val = (z 1).val; omega
/-- Window 8's block at every point is its whole array. -/
theorem iblk2_8 (c : Dev nD) (t : Fin cfg2.N) : iblk2 V c 8 t = V c main_v14 := by
  obtain ⟨e0, e1⟩ := idx2_8 t
  funext z
  show V c main_v14 (((cfg2.win 8).blk t).view.emb z) = V c main_v14 z
  refine congrArg _ (funext fun a => Fin.ext ?_)
  match a with
  | ⟨0, _⟩ => show win2_8.index t (0 : Fin 2) * 1 + 1 * (z 0).val = (z 0).val; omega
  | ⟨1, _⟩ => show win2_8.index t (1 : Fin 2) * 32 + 1 * (z 1).val = (z 1).val; omega
/-- Window 9's block at every point is its whole array. -/
theorem iblk2_9 (c : Dev nD) (t : Fin cfg2.N) : iblk2 V c 9 t = V c main_v9 := by
  obtain ⟨e0, e1⟩ := idx2_9 t
  funext z
  show V c main_v9 (((cfg2.win 9).blk t).view.emb z) = V c main_v9 z
  refine congrArg _ (funext fun a => Fin.ext ?_)
  match a with
  | ⟨0, _⟩ => show win2_9.index t (0 : Fin 2) * 1 + 1 * (z 0).val = (z 0).val; omega
  | ⟨1, _⟩ => show win2_9.index t (1 : Fin 2) * 32 + 1 * (z 1).val = (z 1).val; omega
/-- Window 10's block at every point is its whole array. -/
theorem iblk2_10 (c : Dev nD) (t : Fin cfg2.N) : iblk2 V c 10 t = V c main_v11 := by
  obtain ⟨e0, e1⟩ := idx2_10 t
  funext z
  show V c main_v11 (((cfg2.win 10).blk t).view.emb z) = V c main_v11 z
  refine congrArg _ (funext fun a => Fin.ext ?_)
  match a with
  | ⟨0, _⟩ => show win2_10.index t (0 : Fin 2) * 1 + 1 * (z 0).val = (z 0).val; omega
  | ⟨1, _⟩ => show win2_10.index t (1 : Fin 2) * 32 + 1 * (z 1).val = (z 1).val; omega
/-- Window 11's block at every point is its whole array. -/
theorem iblk2_11 (c : Dev nD) (t : Fin cfg2.N) : iblk2 V c 11 t = V c main_v15 := by
  obtain ⟨e0, e1⟩ := idx2_11 t
  funext z
  show V c main_v15 (((cfg2.win 11).blk t).view.emb z) = V c main_v15 z
  refine congrArg _ (funext fun a => Fin.ext ?_)
  match a with
  | ⟨0, _⟩ => show win2_11.index t (0 : Fin 2) * 1 + 1 * (z 0).val = (z 0).val; omega
  | ⟨1, _⟩ => show win2_11.index t (1 : Fin 2) * 1 + 1 * (z 1).val = (z 1).val; omega

/-! ## What each point writes back, the cover, and the whole column -/

/-- What point t writes back is block t of the whole column of the input arrays as the region finds them. -/
theorem flushed2_eq (c : Dev nD) (t : Fin cfg2.N) :
    (dat2 V O c).flushed 12 t = ((cfg2.win 12).blk t).view.read (Elt F) (mlpOut (V c main_v5_0) (V c main_v5_1) (V c main_v6) (V c main_v7) (V c main_v12) (V c main_arg8) (V c main_v13) (V c main_arg10) (V c main_v14) (V c main_v9) (V c main_v11) (V c main_v15)) := by
  show (cfg2.win 12).cut (grid2.coords t) ((dat2 V O c).after 12 t) = _
  rw [after2_12, out2_12_eq]
  obtain ⟨e0, e1⟩ := idx2_12 t
  funext y
  show mlpBlk (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) y = mlpOut (V c main_v5_0) (V c main_v5_1) (V c main_v6) (V c main_v7) (V c main_v12) (V c main_arg8) (V c main_v13) (V c main_arg10) (V c main_v14) (V c main_v9) (V c main_v11) (V c main_v15) (((cfg2.win 12).blk t).view.emb y)
  refine mlpBlk_eq_mlpOut (V c main_v5_0) (V c main_v5_1) (V c main_v6) (V c main_v7) (V c main_v12) (V c main_arg8) (V c main_v13) (V c main_arg10) (V c main_v14) (V c main_v9) (V c main_v11) (V c main_v15) t.val (lt8 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
    (iblk2_0 V c t) (iblk2_1 V c t) (iblk2_2 V c t) (iblk2_3 V c t) (iblk2_4 V c t) (iblk2_5 V c t) (iblk2_6 V c t) (iblk2_7 V c t) (iblk2_8 V c t) (iblk2_9 V c t) (iblk2_10 V c t) (iblk2_11 V c t) y _ ?_
  show win2_12.index t (0 : Fin 2) * 2048 + 1 * (y 0).val = t.val * 2048 + (y 0).val
  omega

/-- An index of the result is in point t's block iff each coordinate is in the block's range on its axis. -/
theorem mem_blk2 (t : Fin cfg2.N) (i : S16384x1.Idx) :
    i ∈ ((cfg2.win 12).blk t).view.set ↔ ∀ a : Fin 2, win2_12.index t a * S2048x1.size a ≤ (i a).val ∧ (i a).val < win2_12.index t a * S2048x1.size a + S2048x1.size a := by
  show i ∈ ((View.whole main_v16).slice (win2_12.rect t)).set ↔ _
  rw [View.set_slice_whole, Rect.mem_set_unit]
  exact Iff.rfl

/-- Every row of the result is in some point's block: row j in point j / 2048's. -/
theorem cover2 (i : S16384x1.Idx) : ∃ t : Fin cfg2.N, (cfg2.win 12).flush t = true ∧ i ∈ ((cfg2.win 12).blk t).view.set := by
  have hi0 : (i 0).val < 16384 := (i 0).isLt
  have hi1 : (i 1).val < 1 := (i 1).isLt
  have hN : (i 0).val / 2048 < cfg2.N := by show _ < grid2.N; rw [N_2]; omega
  obtain ⟨e0, e1⟩ := idx2_12 ⟨(i 0).val / 2048, hN⟩
  have e0' : win2_12.index ⟨(i 0).val / 2048, hN⟩ (0 : Fin 2) = (i 0).val / 2048 := e0
  refine ⟨⟨(i 0).val / 2048, hN⟩, flush2_12 _, ?_⟩
  rw [mem_blk2]
  intro a
  match a with
  | ⟨0, _⟩ => show win2_12.index ⟨(i 0).val / 2048, hN⟩ (0 : Fin 2) * 2048 ≤ (i 0).val ∧ (i 0).val < win2_12.index ⟨(i 0).val / 2048, hN⟩ (0 : Fin 2) * 2048 + 2048; omega
  | ⟨1, _⟩ => show win2_12.index ⟨(i 0).val / 2048, hN⟩ (1 : Fin 2) * 1 ≤ (i 1).val ∧ (i 1).val < win2_12.index ⟨(i 0).val / 2048, hN⟩ (1 : Fin 2) * 1 + 1; omega

/-- THE RESULT after the region: the whole column of the input arrays as the region finds them. -/
theorem final2 (c : Dev nD) : (dat2 V O c).arrAt 12 cfg2.N = mlpOut (V c main_v5_0) (V c main_v5_1) (V c main_v6) (V c main_v7) (V c main_v12) (V c main_arg8) (V c main_v13) (V c main_arg10) (V c main_v14) (V c main_v9) (V c main_v11) (V c main_v15) :=
  (dat2 V O c).arrAt_eq_of_cover 12 (mlpOut (V c main_v5_0) (V c main_v5_1) (V c main_v6) (V c main_v7) (V c main_v12) (V c main_arg8) (V c main_v13) (V c main_arg10) (V c main_v14) (V c main_v9) (V c main_v11) (V c main_v15)) (fun t _ => flushed2_eq V O c t) cover2

end Region2

end Cert.Proof.KB

end
-- ==== Proof.KbLaunchVals.lean ====
/-
  What the TensorCore's buffers hold at the end of the main function, read back through the fold of its segments:
  every argument array is as launched, and the result vector is the score column of the second kernel region
  computed from the rows the first region repacked and the row-gathering call gathered.
-/
import proofs.«212231_g88622355185883_cont_sun_m_1073_38_alg».proof.Proof.KbLaunchRegions
import proofs.«212231_g88622355185883_cont_sun_m_1073_38_alg».proof.Proof.KbRepackValue
import proofs.«212231_g88622355185883_cont_sun_m_1073_38_alg».proof.Proof.KbMlpFinal

set_option maxRecDepth 16384

noncomputable section

namespace Cert.Proof.KB

open Cert.Kernel Cert.Kernel.Gen

open Idealize.ShloMosaic Idealize.ShloMosaic.TcCoe
open Idealize.ShloMosaic.SparseCore.Cfg (HIx)
open Idealize.SL Idealize.SL.Sem
open Idealize.ShloMosaic.StableHlo (held after)
open Idealize.ShloMosaic.ValueIdx (ix1 ix2 eq_ix2)

variable {F : FTy → Type} [FloatOps F]

/-! ## What each stretch of host operations writes -/

abbrev hostA_W : List (Ref sig .tc) := [main_v0, main_v1, main_v2, main_v3]
abbrev hostB_W : List (Ref sig .tc) := [main_v6, main_v7, main_v8, main_v9, main_v10, main_v11, main_v12, main_v13, main_v14, main_v15]
abbrev hostC_W : List (Ref sig .tc) := [main_v17]

theorem hostA_writes : (hostA : List (HloOp τ sig (Elt F))).Forall fun op => op.writes ⊆ (hostA_W.map (Proc.devRef (τ := τ) .tc)).toFinset := by
  simp only [List.Forall]
  repeat' apply And.intro
  all_goals (simp only [StableHlo.unary_writes, StableHlo.reshape_writes, Finset.singleton_subset_iff, List.mem_toFinset]; exact List.mem_map_of_mem (by decide))
theorem hostB_writes : (hostB : List (HloOp τ sig (Elt F))).Forall fun op => op.writes ⊆ (hostB_W.map (Proc.devRef (τ := τ) .tc)).toFinset := by
  simp only [List.Forall]
  repeat' apply And.intro
  all_goals (simp only [StableHlo.unary_writes, StableHlo.reshape_writes, Finset.singleton_subset_iff, List.mem_toFinset]; exact List.mem_map_of_mem (by decide))
theorem hostC_writes : (hostC : List (HloOp τ sig (Elt F))).Forall fun op => op.writes ⊆ (hostC_W.map (Proc.devRef (τ := τ) .tc)).toFinset := by
  simp only [List.Forall]
  simp only [StableHlo.unary_writes, StableHlo.reshape_writes, Finset.singleton_subset_iff, List.mem_toFinset]; exact List.mem_map_of_mem (by decide)

variable (m : (ℓ : Loc nD τ sig) → Buf (Elt F) ℓ)

/-! ## What each segment leaves unchanged -/

theorem W1_of (c : Dev nD) (r : Ref sig .tc) (h : r ∉ hostA_W) : W1 m c (Proc.devRef .tc r) = W0 m c (Proc.devRef .tc r) :=
  StableHlo.after_of_writes_sub hostA _ hostA_writes h
theorem W3_of (c : Dev nD) (r : Ref sig .tc) (h : r ∉ ([main_v5_0, main_v5_1] : List (Ref sig .tc))) :
    W3 m c (Proc.devRef .tc r) = W2 m c (Proc.devRef .tc r) := by
  have h0 : r ≠ main_v5_0 := fun e => h (e ▸ List.mem_cons_self)
  have h1 : r ≠ main_v5_1 := fun e => h (e ▸ List.mem_cons_of_mem _ List.mem_cons_self)
  unfold W3
  rw [Function.update_of_ne (StableHlo.devRef_ne_of_ne h1), Function.update_of_ne (StableHlo.devRef_ne_of_ne h0)]
theorem W4_of (c : Dev nD) (r : Ref sig .tc) (h : r ∉ hostB_W) : W4 m c (Proc.devRef .tc r) = W3 m c (Proc.devRef .tc r) :=
  StableHlo.after_of_writes_sub hostB _ hostB_writes h
theorem W6_of (c : Dev nD) (r : Ref sig .tc) (h : r ∉ hostC_W) : W6 m c (Proc.devRef .tc r) = W5 m c (Proc.devRef .tc r) :=
  StableHlo.after_of_writes_sub hostC _ hostC_writes h

/-- A buffer that no host operation writes, that is no array of the first region and is neither gathered array, and
    that the second region leaves as it found it, ends as launched. -/
theorem W6_kept (c : Dev nD) (r : Ref sig .tc) (hA : r ∉ hostA_W) (h0 : ∀ w, Pipeline.arrRef spec0 w ≠ r)
    (h3 : r ∉ ([main_v5_0, main_v5_1] : List (Ref sig .tc))) (hB : r ∉ hostB_W)
    (h5 : W5 m c (Proc.devRef .tc r) = W4 m c (Proc.devRef .tc r)) (hC : r ∉ hostC_W) :
    W6 m c (Proc.devRef .tc r) = m ((c.tc : Thread nD τ).loc r) :=
  (W6_of m c r hC).trans <| h5.trans <| (W4_of m c r hB).trans <| (W3_of m c r h3).trans <|
    (W2_of_ne m c r h0).trans <| (W1_of m c r hA).trans rfl

/-! ## The argument arrays end as launched -/

theorem W6_main_arg0 (c : Dev nD) : W6 m c (Proc.devRef .tc main_arg0) = m ((c.tc : Thread nD τ).loc main_arg0) :=
  W6_kept m c main_arg0 (by decide) (by decide) (by decide) (by decide) (W5_of_ne m c _ (by decide)) (by decide)
theorem W6_main_arg1 (c : Dev nD) : W6 m c (Proc.devRef .tc main_arg1) = m ((c.tc : Thread nD τ).loc main_arg1) :=
  W6_kept m c main_arg1 (by decide) (by decide) (by decide) (by decide) (W5_of_ne m c _ (by decide)) (by decide)
theorem W6_main_arg2 (c : Dev nD) : W6 m c (Proc.devRef .tc main_arg2) = m ((c.tc : Thread nD τ).loc main_arg2) :=
  W6_kept m c main_arg2 (by decide) (by decide) (by decide) (by decide) (W5_of_ne m c _ (by decide)) (by decide)
theorem W6_main_arg3 (c : Dev nD) : W6 m c (Proc.devRef .tc main_arg3) = m ((c.tc : Thread nD τ).loc main_arg3) :=
  W6_kept m c main_arg3 (by decide) (by decide) (by decide) (by decide) (W5_of_ne m c _ (by decide)) (by decide)
theorem W6_main_arg4 (c : Dev nD) : W6 m c (Proc.devRef .tc main_arg4) = m ((c.tc : Thread nD τ).loc main_arg4) :=
  W6_kept m c main_arg4 (by decide) (by decide) (by decide) (by decide) (W5_of_ne m c _ (by decide)) (by decide)
theorem W6_main_arg5 (c : Dev nD) : W6 m c (Proc.devRef .tc main_arg5) = m ((c.tc : Thread nD τ).loc main_arg5) :=
  W6_kept m c main_arg5 (by decide) (by decide) (by decide) (by decide) (W5_of_ne m c _ (by decide)) (by decide)
theorem W6_main_arg6 (c : Dev nD) : W6 m c (Proc.devRef .tc main_arg6) = m ((c.tc : Thread nD τ).loc main_arg6) :=
  W6_kept m c main_arg6 (by decide) (by decide) (by decide) (by decide) (W5_of_ne m c _ (by decide)) (by decide)
theorem W6_main_arg7 (c : Dev nD) : W6 m c (Proc.devRef .tc main_arg7) = m ((c.tc : Thread nD τ).loc main_arg7) :=
  W6_kept m c main_arg7 (by decide) (by decide) (by decide) (by decide) (W5_of_ne m c _ (by decide)) (by decide)
theorem W6_main_arg8 (c : Dev nD) : W6 m c (Proc.devRef .tc main_arg8) = m ((c.tc : Thread nD τ).loc main_arg8) :=
  W6_kept m c main_arg8 (by decide) (by decide) (by decide) (by decide)
    ((W5_arr m c 5).trans (kept2 (V4 m) (O2 (F := F)) c 5 rfl _)) (by decide)
theorem W6_main_arg9 (c : Dev nD) : W6 m c (Proc.devRef .tc main_arg9) = m ((c.tc : Thread nD τ).loc main_arg9) :=
  W6_kept m c main_arg9 (by decide) (by decide) (by decide) (by decide) (W5_of_ne m c _ (by decide)) (by decide)
theorem W6_main_arg10 (c : Dev nD) : W6 m c (Proc.devRef .tc main_arg10) = m ((c.tc : Thread nD τ).loc main_arg10) :=
  W6_kept m c main_arg10 (by decide) (by decide) (by decide) (by decide)
    ((W5_arr m c 7).trans (kept2 (V4 m) (O2 (F := F)) c 7 rfl _)) (by decide)
theorem W6_main_arg11 (c : Dev nD) : W6 m c (Proc.devRef .tc main_arg11) = m ((c.tc : Thread nD τ).loc main_arg11) :=
  W6_kept m c main_arg11 (by decide) (by decide) (by decide) (by decide) (W5_of_ne m c _ (by decide)) (by decide)
theorem W6_main_arg12 (c : Dev nD) : W6 m c (Proc.devRef .tc main_arg12) = m ((c.tc : Thread nD τ).loc main_arg12) :=
  W6_kept m c main_arg12 (by decide) (by decide) (by decide) (by decide) (W5_of_ne m c _ (by decide)) (by decide)
theorem W6_main_arg13 (c : Dev nD) : W6 m c (Proc.devRef .tc main_arg13) = m ((c.tc : Thread nD τ).loc main_arg13) :=
  W6_kept m c main_arg13 (by decide) (by decide) (by decide) (by decide) (W5_of_ne m c _ (by decide)) (by decide)

/-! ## The buffers the second region reads, as terms of the launch memory -/

/-- A buffer that nothing before the weight slices writes is as launched when they run. -/
theorem W3_kept (c : Dev nD) (r : Ref sig .tc) (hA : r ∉ hostA_W) (h0 : ∀ w, Pipeline.arrRef spec0 w ≠ r)
    (h3 : r ∉ ([main_v5_0, main_v5_1] : List (Ref sig .tc))) :
    W3 m c (Proc.devRef .tc r) = m ((c.tc : Thread nD τ).loc r) :=
  (W3_of m c r h3).trans <| (W2_of_ne m c r h0).trans <| (W1_of m c r hA).trans rfl

/-- The four tables transposed, as the first region finds them. -/
theorem W1_v0 (c : Dev nD) : W1 m c (Proc.devRef .tc main_v0)
    = transpose S32x1000000 [1, 0] (m ((c.tc : Thread nD τ).loc main_arg2)) transposes_S1000000x32_S32x1000000_1_0 := by
  show after hostA (W0 m c) (Proc.devRef .tc main_v0) = _
  after_results
theorem W1_v1 (c : Dev nD) : W1 m c (Proc.devRef .tc main_v1)
    = transpose S32x1000000 [1, 0] (m ((c.tc : Thread nD τ).loc main_arg3)) transposes_S1000000x32_S32x1000000_1_0 := by
  show after hostA (W0 m c) (Proc.devRef .tc main_v1) = _
  after_results
theorem W1_v2 (c : Dev nD) : W1 m c (Proc.devRef .tc main_v2)
    = transpose S32x1000000 [1, 0] (m ((c.tc : Thread nD τ).loc main_arg4)) transposes_S1000000x32_S32x1000000_1_0 := by
  show after hostA (W0 m c) (Proc.devRef .tc main_v2) = _
  after_results
theorem W1_v3 (c : Dev nD) : W1 m c (Proc.devRef .tc main_v3)
    = transpose S32x1000000 [1, 0] (m ((c.tc : Thread nD τ).loc main_arg5)) transposes_S1000000x32_S32x1000000_1_0 := by
  show after hostA (W0 m c) (Proc.devRef .tc main_v3) = _
  after_results

/-- The table the row-gathering call reads: the four argument tables, transposed and repacked. -/
theorem Tv_eq (c : Dev nD) : Tv m c
    = repack (transpose S32x1000000 [1, 0] (m ((c.tc : Thread nD τ).loc main_arg2)) transposes_S1000000x32_S32x1000000_1_0)
        (transpose S32x1000000 [1, 0] (m ((c.tc : Thread nD τ).loc main_arg3)) transposes_S1000000x32_S32x1000000_1_0)
        (transpose S32x1000000 [1, 0] (m ((c.tc : Thread nD τ).loc main_arg4)) transposes_S1000000x32_S32x1000000_1_0)
        (transpose S32x1000000 [1, 0] (m ((c.tc : Thread nD τ).loc main_arg5)) transposes_S1000000x32_S32x1000000_1_0) := by
  have h := (W2_arr m c 4).trans (final0 (V1 m) (O0 (F := F)) c)
  refine Eq.trans h ?_
  show repack (W1 m c (Proc.devRef .tc main_v0)) (W1 m c (Proc.devRef .tc main_v1)) (W1 m c (Proc.devRef .tc main_v2))
    (W1 m c (Proc.devRef .tc main_v3)) = _
  rw [W1_v0, W1_v1, W1_v2, W1_v3]

/-- The gathered rows, as the second region finds them. -/
theorem W4_v5_0 (c : Dev nD) : W4 m c (Proc.devRef .tc main_v5_0) = gU m (Tv m) c := by
  rw [W4_of m c main_v5_0 (by decide)]
  unfold W3
  rw [Function.update_of_ne (StableHlo.devRef_ne_of_ne (by decide)), Function.update_self]
theorem W4_v5_1 (c : Dev nD) : W4 m c (Proc.devRef .tc main_v5_1) = gI m (Tv m) c := by
  rw [W4_of m c main_v5_1 (by decide)]
  unfold W3
  rw [Function.update_self]

/-- The weight slices and reshapes, as the second region finds them. -/
theorem W4_v6 (c : Dev nD) : W4 m c (Proc.devRef .tc main_v6)
    = extractStridedSlice S32x128 ![0, 0] (m ((c.tc : Thread nD τ).loc main_arg6)) slices_S64x128_S32x128_0_0 := by
  show after hostB (W3 m c) (Proc.devRef .tc main_v6) = _
  after_results
  rw [W3_kept m c main_arg6 (by decide) (by decide) (by decide)]
theorem W4_v7 (c : Dev nD) : W4 m c (Proc.devRef .tc main_v7)
    = extractStridedSlice S32x128 ![32, 0] (m ((c.tc : Thread nD τ).loc main_arg6)) slices_S64x128_S32x128_32_0 := by
  show after hostB (W3 m c) (Proc.devRef .tc main_v7) = _
  after_results
  rw [W3_kept m c main_arg6 (by decide) (by decide) (by decide)]
theorem W4_v9 (c : Dev nD) : W4 m c (Proc.devRef .tc main_v9)
    = shapeCast S1x32 (extractStridedSlice S32x1 ![0, 0] (m ((c.tc : Thread nD τ).loc main_arg12)) slices_S64x1_S32x1_0_0) shapeCasts_S32x1_S1x32 := by
  show after hostB (W3 m c) (Proc.devRef .tc main_v9) = _
  after_results
  rw [W3_kept m c main_arg12 (by decide) (by decide) (by decide)]; rfl
theorem W4_v11 (c : Dev nD) : W4 m c (Proc.devRef .tc main_v11)
    = shapeCast S1x32 (extractStridedSlice S32x1 ![32, 0] (m ((c.tc : Thread nD τ).loc main_arg12)) slices_S64x1_S32x1_32_0) shapeCasts_S32x1_S1x32 := by
  show after hostB (W3 m c) (Proc.devRef .tc main_v11) = _
  after_results
  rw [W3_kept m c main_arg12 (by decide) (by decide) (by decide)]; rfl
theorem W4_v12 (c : Dev nD) : W4 m c (Proc.devRef .tc main_v12)
    = shapeCast S1x128 (m ((c.tc : Thread nD τ).loc main_arg7)) shapeCasts_S128_S1x128 := by
  show after hostB (W3 m c) (Proc.devRef .tc main_v12) = _
  after_results
  rw [W3_kept m c main_arg7 (by decide) (by decide) (by decide)]; rfl
theorem W4_v13 (c : Dev nD) : W4 m c (Proc.devRef .tc main_v13)
    = shapeCast S1x64 (m ((c.tc : Thread nD τ).loc main_arg9)) shapeCasts_S64_S1x64 := by
  show after hostB (W3 m c) (Proc.devRef .tc main_v13) = _
  after_results
  rw [W3_kept m c main_arg9 (by decide) (by decide) (by decide)]; rfl
theorem W4_v14 (c : Dev nD) : W4 m c (Proc.devRef .tc main_v14)
    = shapeCast S1x32 (m ((c.tc : Thread nD τ).loc main_arg11)) shapeCasts_S32_S1x32 := by
  show after hostB (W3 m c) (Proc.devRef .tc main_v14) = _
  after_results
  rw [W3_kept m c main_arg11 (by decide) (by decide) (by decide)]; rfl
theorem W4_v15 (c : Dev nD) : W4 m c (Proc.devRef .tc main_v15)
    = shapeCast S1x1 (m ((c.tc : Thread nD τ).loc main_arg13)) shapeCasts_S1_S1x1 := by
  show after hostB (W3 m c) (Proc.devRef .tc main_v15) = _
  after_results
  rw [W3_kept m c main_arg13 (by decide) (by decide) (by decide)]; rfl
theorem W4_arg8 (c : Dev nD) : W4 m c (Proc.devRef .tc main_arg8) = m ((c.tc : Thread nD τ).loc main_arg8) :=
  (W4_of m c main_arg8 (by decide)).trans (W3_kept m c main_arg8 (by decide) (by decide) (by decide))
theorem W4_arg10 (c : Dev nD) : W4 m c (Proc.devRef .tc main_arg10) = m ((c.tc : Thread nD τ).loc main_arg10) :=
  (W4_of m c main_arg10 (by decide)).trans (W3_kept m c main_arg10 (by decide) (by decide) (by decide))

/-! ## The result -/

/-- The result vector as one term of the launch memory: the score column of the rows gathered from the repacked
    table, against the weight slices and reshaped biases, reshaped to a vector. -/
def kernelOut (c : Dev nD) : S16384.Idx → Elt F .f32 :=
  shapeCast S16384
    (mlpOut (gU m (Tv m) c) (gI m (Tv m) c)
      (extractStridedSlice S32x128 ![0, 0] (m ((c.tc : Thread nD τ).loc main_arg6)) slices_S64x128_S32x128_0_0)
      (extractStridedSlice S32x128 ![32, 0] (m ((c.tc : Thread nD τ).loc main_arg6)) slices_S64x128_S32x128_32_0)
      (shapeCast S1x128 (m ((c.tc : Thread nD τ).loc main_arg7)) shapeCasts_S128_S1x128)
      (m ((c.tc : Thread nD τ).loc main_arg8))
      (shapeCast S1x64 (m ((c.tc : Thread nD τ).loc main_arg9)) shapeCasts_S64_S1x64)
      (m ((c.tc : Thread nD τ).loc main_arg10))
      (shapeCast S1x32 (m ((c.tc : Thread nD τ).loc main_arg11)) shapeCasts_S32_S1x32)
      (shapeCast S1x32 (extractStridedSlice S32x1 ![0, 0] (m ((c.tc : Thread nD τ).loc main_arg12)) slices_S64x1_S32x1_0_0) shapeCasts_S32x1_S1x32)
      (shapeCast S1x32 (extractStridedSlice S32x1 ![32, 0] (m ((c.tc : Thread nD τ).loc main_arg12)) slices_S64x1_S32x1_32_0) shapeCasts_S32x1_S1x32)
      (shapeCast S1x1 (m ((c.tc : Thread nD τ).loc main_arg13)) shapeCasts_S1_S1x1))
    shapeCasts_S16384x1_S16384

/-- The second region's result column. -/
theorem W5_v16 (c : Dev nD) : W5 m c (Proc.devRef .tc main_v16)
    = mlpOut (W4 m c (Proc.devRef .tc main_v5_0)) (W4 m c (Proc.devRef .tc main_v5_1)) (W4 m c (Proc.devRef .tc main_v6))
        (W4 m c (Proc.devRef .tc main_v7)) (W4 m c (Proc.devRef .tc main_v12)) (W4 m c (Proc.devRef .tc main_arg8))
        (W4 m c (Proc.devRef .tc main_v13)) (W4 m c (Proc.devRef .tc main_arg10)) (W4 m c (Proc.devRef .tc main_v14))
        (W4 m c (Proc.devRef .tc main_v9)) (W4 m c (Proc.devRef .tc main_v11)) (W4 m c (Proc.devRef .tc main_v15)) :=
  (W5_arr m c 12).trans (final2 (V4 m) (O2 (F := F)) c)

/-- THE RESULT at the end of the main function. -/
theorem W6_main_v17 (c : Dev nD) : W6 m c (Proc.devRef .tc main_v17) = kernelOut m c := by
  show after hostC (W5 m c) (Proc.devRef .tc main_v17) = _
  after_results
  rw [W5_v16, W4_v5_0, W4_v5_1, W4_v6, W4_v7, W4_v12, W4_arg8, W4_v13, W4_arg10, W4_v14, W4_v9, W4_v11, W4_v15]
  rfl

end Cert.Proof.KB

end
-- ==== Proof.ClaimsKB.lean ====
/-
  The claim about the kernel at the word level: its frame. From any memory satisfying the stated precondition every
  weakly fair execution of the thirty-five threads terminates, nothing faulting, and the fourteen argument arrays end
  as launched: the precondition gives the index ranges the row gathers need, the program's run (given the row-gathering task's
  obligation) leaves every unscoped
  buffer of the TensorCore at the last boundary's contents, and no segment of the main function writes an argument
  array.
-/
import proofs.«212231_g88622355185883_cont_sun_m_1073_38_alg».proof.Proof.KbRunKI
import proofs.«212231_g88622355185883_cont_sun_m_1073_38_alg».proof.Proof.KbLaunchVals

noncomputable section

namespace Cert.Proof.KB

open Cert.Kernel Cert.Kernel.Gen

open Idealize.ShloMosaic Idealize.ShloMosaic.TcCoe
open Idealize.SL Idealize.SL.Sem

/-! ## The argument arrays are unscoped buffers of the TensorCore -/

theorem uc_arg0 : Proc.devRef (τ := τ) .tc main_arg0 ∈ Pipeline.ucRefs τ sig := by decide
theorem uc_arg1 : Proc.devRef (τ := τ) .tc main_arg1 ∈ Pipeline.ucRefs τ sig := by decide
theorem uc_arg2 : Proc.devRef (τ := τ) .tc main_arg2 ∈ Pipeline.ucRefs τ sig := by decide
theorem uc_arg3 : Proc.devRef (τ := τ) .tc main_arg3 ∈ Pipeline.ucRefs τ sig := by decide
theorem uc_arg4 : Proc.devRef (τ := τ) .tc main_arg4 ∈ Pipeline.ucRefs τ sig := by decide
theorem uc_arg5 : Proc.devRef (τ := τ) .tc main_arg5 ∈ Pipeline.ucRefs τ sig := by decide
theorem uc_arg6 : Proc.devRef (τ := τ) .tc main_arg6 ∈ Pipeline.ucRefs τ sig := by decide
theorem uc_arg7 : Proc.devRef (τ := τ) .tc main_arg7 ∈ Pipeline.ucRefs τ sig := by decide
theorem uc_arg8 : Proc.devRef (τ := τ) .tc main_arg8 ∈ Pipeline.ucRefs τ sig := by decide
theorem uc_arg9 : Proc.devRef (τ := τ) .tc main_arg9 ∈ Pipeline.ucRefs τ sig := by decide
theorem uc_arg10 : Proc.devRef (τ := τ) .tc main_arg10 ∈ Pipeline.ucRefs τ sig := by decide
theorem uc_arg11 : Proc.devRef (τ := τ) .tc main_arg11 ∈ Pipeline.ucRefs τ sig := by decide
theorem uc_arg12 : Proc.devRef (τ := τ) .tc main_arg12 ∈ Pipeline.ucRefs τ sig := by decide
theorem uc_arg13 : Proc.devRef (τ := τ) .tc main_arg13 ∈ Pipeline.ucRefs τ sig := by decide

section Claims
-- the row-gathering task's obligation, from any memory whose index words name rows of the tables
variable (htileB : ∀ (m : (ℓ : Loc nD τ sig) → Buf (Elt Bits) ℓ), IdxOK m →
  (K (F := Bits)).TileObl (D (F := Bits)) 𝒱 (Pm m) v₀ 0)

include htileB in
/-- The kernel's frame: the run, read at the argument arrays. -/
theorem frame_Kernel : Cert.frame_Kernel := fun m ρ hpre =>
  (θ_run Cert.Kernel.defs _ _).mono
    (fun r h c => ⟨(h c _ (uc_arg0)).trans (W6_main_arg0 m c),
      (h c _ (uc_arg1)).trans (W6_main_arg1 m c),
      (h c _ (uc_arg2)).trans (W6_main_arg2 m c),
      (h c _ (uc_arg3)).trans (W6_main_arg3 m c),
      (h c _ (uc_arg4)).trans (W6_main_arg4 m c),
      (h c _ (uc_arg5)).trans (W6_main_arg5 m c),
      (h c _ (uc_arg6)).trans (W6_main_arg6 m c),
      (h c _ (uc_arg7)).trans (W6_main_arg7 m c),
      (h c _ (uc_arg8)).trans (W6_main_arg8 m c),
      (h c _ (uc_arg9)).trans (W6_main_arg9 m c),
      (h c _ (uc_arg10)).trans (W6_main_arg10 m c),
      (h c _ (uc_arg11)).trans (W6_main_arg11 m c),
      (h c _ (uc_arg12)).trans (W6_main_arg12 m c),
      (h c _ (uc_arg13)).trans (W6_main_arg13 m c)⟩)
    (run_main m ρ (htileB m (idxOK_of_pre m hpre)))

end Claims

end Cert.Proof.KB

end
-- ==== Proof.ScRows.lean ====
/-
  One row of the table and one row of the row scratch as a copy names them: a one-row slice with the row axis dropped.
  Lane x of such a row is element (row, x) of the array, so the row's elements are those with that first coordinate,
  and a copy of table row r onto scratch row j leaves, at (j, x), the table's (r, x).
-/
import proofs.«212231_g88622355185883_cont_sun_m_1073_38_alg».proof.Proof.ScPay
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)

/-! ## One row of the table and one row of the row scratch, as a copy names them -/

/-- A 128-vector's index matched with the one-row shape: row 0, the same lane. -/
theorem reshape_lane (h : S128.numel = S1x128.numel) (x : S128.Idx) :
    Shape.reshapeEquiv h x = (ix2 (0 : Fin 1) (x 0) : S1x128.Idx) :=
  Shape.reshapeEquiv_eq_of_rowMajor h (by
    rw [Shape.rowMajor_val_two, Shape.rowMajor_val_one]
    show 0 * 128 + (x 0).val = (x 0).val
    omega)

abbrev tabV : Memref sig .scVector .hbm S1000000x128 .f32 := Memref.whole main_v4_scv
abbrev rowsV : Memref sig .scVector .vmem S512x128 .f32 := Memref.whole cc1_scratch2

/-- The table's row at offsets `off`, as a 128-vector. -/
abbrev srcRow (off : Fin 2 → ℕ) (h : ∀ a, off a + S1x128.size a ≤ S1000000x128.size a) : Memref sig .scVector .hbm S128 .f32 :=
  (tabV.slice (Rect.unit (s := S1000000x128) off S1x128.size h) (fun _ => rfl)).squeeze S128 squeezes_S1x128_S128
/-- The row scratch's row at offsets `off`, as a 128-vector. -/
abbrev dstRow (off : Fin 2 → ℕ) (h : ∀ a, off a + S1x128.size a ≤ S512x128.size a) : Memref sig .scVector .vmem S128 .f32 :=
  (rowsV.slice (Rect.unit (s := S512x128) off S1x128.size h) (fun _ => rfl)).squeeze S128 squeezes_S1x128_S128

theorem emb_srcRow (off : Fin 2 → ℕ) (h : ∀ a, off a + S1x128.size a ≤ S1000000x128.size a) (r : Fin 1000000) (hoff : off = ![r.val, 0])
    (x : S128.Idx) : (srcRow off h).view.emb x = (ix2 r (x 0) : S1000000x128.Idx) := by
  subst hoff
  show (Rect.unit (s := S1000000x128) ![r.val, 0] S1x128.size h).emb (Shape.reshapeEquiv squeezes_S1x128_S128.numel_eq x) = _
  rw [reshape_lane]
  funext a; apply Fin.ext
  rw [Rect.emb_apply]
  match a with
  | ⟨0, _⟩ => show r.val + 1 * 0 = r.val; omega
  | ⟨1, _⟩ => show 0 + 1 * (x 0).val = (x 0).val; omega

theorem emb_dstRow (off : Fin 2 → ℕ) (h : ∀ a, off a + S1x128.size a ≤ S512x128.size a) (j : Fin 512) (hoff : off = ![j.val, 0])
    (x : S128.Idx) : (dstRow off h).view.emb x = (ix2 j (x 0) : S512x128.Idx) := by
  subst hoff
  show (Rect.unit (s := S512x128) ![j.val, 0] S1x128.size h).emb (Shape.reshapeEquiv squeezes_S1x128_S128.numel_eq x) = _
  rw [reshape_lane]
  funext a; apply Fin.ext
  rw [Rect.emb_apply]
  match a with
  | ⟨0, _⟩ => show j.val + 1 * 0 = j.val; omega
  | ⟨1, _⟩ => show 0 + 1 * (x 0).val = (x 0).val; omega

/-- Row `j` of the row scratch, as a set of its elements. -/
def rowSetS (j : Fin 512) : Finset S512x128.Idx := Finset.univ.filter fun y => (y 0).val = j.val

theorem set_dstRow (off : Fin 2 → ℕ) (h : ∀ a, off a + S1x128.size a ≤ S512x128.size a) (j : Fin 512) (hoff : off = ![j.val, 0]) :
    (dstRow off h).view.set = rowSetS j := by
  ext y
  simp only [View.set, Finset.mem_map, Finset.mem_univ, true_and, rowSetS, Finset.mem_filter]
  constructor
  · rintro ⟨x, rfl⟩; rw [emb_dstRow off h j hoff]
  · intro hy
    refine ⟨ix1 (y 1), ?_⟩
    rw [emb_dstRow off h j hoff]
    show (ix2 j ((ix1 (y 1) : S128.Idx) 0) : S512x128.Idx) = y
    funext a
    match a with
    | ⟨0, _⟩ => exact (Fin.ext hy).symm
    | ⟨1, _⟩ => rfl

/-- Row `r` of the table, as a set of its elements. -/
def tabRowSet (r : Fin 1000000) : Finset S1000000x128.Idx := Finset.univ.filter fun y => (y 0).val = r.val

theorem set_srcRow (off : Fin 2 → ℕ) (h : ∀ a, off a + S1x128.size a ≤ S1000000x128.size a) (r : Fin 1000000) (hoff : off = ![r.val, 0]) :
    (srcRow off h).view.set = tabRowSet r := by
  ext y
  simp only [View.set, Finset.mem_map, Finset.mem_univ, true_and, tabRowSet, Finset.mem_filter]
  constructor
  · rintro ⟨x, rfl⟩; rw [emb_srcRow off h r hoff]
  · intro hy
    refine ⟨ix1 (y 1), ?_⟩
    rw [emb_srcRow off h r hoff]
    show (ix2 r ((ix1 (y 1) : S128.Idx) 0) : S1000000x128.Idx) = y
    funext a
    match a with
    | ⟨0, _⟩ => exact (Fin.ext hy).symm
    | ⟨1, _⟩ => rfl

theorem rowSetS_disjoint : ∀ i ∈ (Finset.univ : Finset (Fin 512)), ∀ j ∈ (Finset.univ : Finset (Fin 512)), i ≠ j → Disjoint (rowSetS i) (rowSetS j) := by
  intro i _ j _ hij
  refine Finset.disjoint_left.mpr fun y h1 h2 => hij (Fin.ext ?_)
  simp only [rowSetS, Finset.mem_filter, Finset.mem_univ, true_and] at h1 h2
  omega
theorem rowSetS_cover : (Finset.univ : Finset (Fin 512)).biUnion rowSetS = Finset.univ := by
  ext y
  simp only [Finset.mem_biUnion, Finset.mem_univ, true_and, iff_true, rowSetS, Finset.mem_filter]
  exact ⟨y 0, rfl⟩

/-- What a row copy lands on its destination row: the source row, lane by lane. -/
theorem landed_row (offD : Fin 2 → ℕ) (hD : ∀ a, offD a + S1x128.size a ≤ S512x128.size a) (j : Fin 512) (hoffD : offD = ![j.val, 0])
    (offS : Fin 2 → ℕ) (hS : ∀ a, offS a + S1x128.size a ≤ S1000000x128.size a) (r : Fin 1000000) (hoffS : offS = ![r.val, 0])
    (fd R : S512x128.Idx → Elt F .f32) (fs : S1000000x128.Idx → Elt F .f32)
    (hR : ∀ q : Fin 128, R (ix2 j q) = fs (ix2 r q)) :
    ∀ i ∈ (dstRow offD hD).view.set,
      (dstRow offD hD).view.write (Elt F) fd (ReadAs.same.apply ((srcRow offS hS).view.read (Elt F) fs)) Finset.univ i = R i := by
  intro i hi
  obtain ⟨x, -, rfl⟩ := Finset.mem_map.mp hi
  rw [View.write_emb_of_mem _ _ (Finset.mem_univ _), ReadAs.apply_same, View.read_apply, emb_dstRow offD hD j hoffD, emb_srcRow offS hS r hoffS]
  exact Eq.trans rfl (hR (x 0)).symm

end Cert.Proof.KI

end
-- ==== Proof.ScBatch.lean ====
/-
  The 512 row copies of one side, all completing on one semaphore. Copy t takes a 1/512 read share of the table's
  row ro t and the scratch's row t, and delivers that row at the landed contents (row t of the scratch is the table's
  row ro t) with the share back. issue_row: one such copy issued as transfer t of the batch.
-/
import proofs.«212231_g88622355185883_cont_sun_m_1073_38_alg».proof.Proof.ScRows
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)

variable (Tv : (d : Dev nD) → Buf (Elt F) (tLoc d))

/-! ## The row batch: 512 copies on one semaphore -/

section Batch

variable (d : Dev nD) (c : Fin τ.nSC) (i : Fin τ.nSub)

/-- The row scratch of the task's vector subcore. -/
abbrev rowsLoc : Loc nD τ sig := (V d c i).loc cc1_scratch2
/-- The one semaphore the 512 row copies complete on. -/
abbrev semB : DmaSem sig := cc1_scratch3.sem
/-- One row's credit. -/
abbrev NR : ℕ := (dstRow ![0, 0] inb_S512x128_S1x128_0_0).view.dmaCredit
theorem NR_pos : 0 < NR := View.dmaCredit_pos _ (by decide)

variable (ro : Fin 512 → Fin 1000000) (q : PosShare TreeShare)

/-- The row scratch once every copy has landed: row `t` is the table's row `ro t`. -/
def Rfun : Buf (Elt F) (rowsLoc d c i) := fun (y : S512x128.Idx) => Tv d (ix2 (ro (y 0)) (y 1))

/-- What copy `t` delivers: its row of the scratch at the landed contents, and its read share of the table's row back. -/
def Dl (t : Fin 512) : sProp 𝕄 :=
  iprop((rowsLoc d c i ↦[rowSetS t]{fullShare} Rfun Tv d c i ro) ∗ (tLoc d ↦[tabRowSet (ro t)]{piece q 512 t} Tv d))

instance Dl_storable (t : Fin 512) : BI.Storable (upEmb : UEmb _ 𝕄) (Dl Tv d c i ro q t) := by unfold Dl; infer_instance

variable [FloatOps F]

/-- One row copy issued: copy `t` of the batch, from the table's row `ro t` to the scratch's row `t`. -/
theorem issue_row {α : Type} {Q : α → sProp 𝕄} (k : PUnit → Prog (TpuEff nD τ sig (Elt F) Λ₀ (V d c i).2) α)
    (t : Fin 512) (offD : Fin 2 → ℕ) (hD : ∀ a, offD a + S1x128.size a ≤ S512x128.size a) (hoffD : offD = ![t.val, 0])
    (offS : Fin 2 → ℕ) (hS : ∀ a, offS a + S1x128.size a ≤ S1000000x128.size a) (hoffS : offS = ![(ro t).val, 0])
    (fd : Buf (Elt F) (rowsLoc d c i))
    (hsrc : (srcRow offS hS).view.WordExact) (hdst : (dstRow offD hD).view.WordExact)
    (hsem : DmaTarget.Typed (nD := nD) (τ := τ) (p := (V d c i).2) .hbm (SemLoc.dma semB) (.here (dstRow offD hD))) :
    iprop((tLoc d ↦{piece q 512 t} Tv d) ∗ (rowsLoc d c i ↦[rowSetS t]{fullShare} fd)
        ∗ Transfers.Batch countersEmb (V d c i) (.dma semB) none NR (Dl Tv d c i ro q) t.val 0)
      ⊢ iprop((iprop((tLoc d ↦[Finset.univ \ tabRowSet (ro t)]{piece q 512 t} Tv d)
                ∗ Transfers.Batch countersEmb (V d c i) (.dma semB) none NR (Dl Tv d c i ro q) (t.val + 1) 0)
              -∗ wp frame (wpE (defs₀ (F := F)) 𝒱₀ (V d c i) none) Set.univ (k ⟨⟩) Q)
          -∗ wp frame (wpE (defs₀ (F := F)) 𝒱₀ (V d c i) none) Set.univ
              (.op (.enqueueDmaAs (srcRow offS hS) (.here (dstRow offD hD)) .same (.dma semB) hsrc hdst hsem) k) Q) := by
  have es : (srcRow offS hS).view.set = tabRowSet (ro t) := set_srcRow offS hS (ro t) hoffS
  have ed : (dstRow offD hD).view.set = rowSetS t := set_dstRow offD hD t hoffD
  have hDl : iprop(((dstRow offD hD).view.loc (V d c i) ↦[rowSetS t]{fullShare}
                ((dstRow offD hD).view.write (Elt F) fd (ReadAs.same.apply ((srcRow offS hS).view.read (Elt F) (Tv d))) Finset.univ))
              ∗ ((srcRow offS hS).view.loc (V d c i) ↦[(srcRow offS hS).view.set]{piece q 512 t} Tv d))
            ⊢ Dl Tv d c i ro q ⟨t.val, t.isLt⟩ := by
    unfold Dl
    rw [es]
    have hc : ((dstRow offD hD).view.loc (V d c i) ↦[rowSetS t]{fullShare}
          ((dstRow offD hD).view.write (Elt F) fd (ReadAs.same.apply ((srcRow offS hS).view.read (Elt F) (Tv d))) Finset.univ) : sProp 𝕄)
        = (rowsLoc d c i ↦[rowSetS t]{fullShare} Rfun Tv d c i ro) :=
      pointsTo_congr fun y hy => landed_row offD hD t hoffD offS hS (ro t) hoffS fd (Rfun Tv d c i ro) (Tv d) (fun _ => rfl) y (ed ▸ hy)
    rw [hc]
  have e1 : (tLoc d ↦[tabRowSet (ro t)]{piece q 512 t} Tv d : sProp 𝕄)
      = ((srcRow offS hS).view.loc (V d c i) ↦[(srcRow offS hS).view.set]{piece q 512 t} Tv d) := by rw [es]
  iintro ⟨Ht, Hd, HB⟩ Hk
  ihave Hsp := (pointsTo_split_subset (I := tabRowSet (ro t)) (Finset.subset_univ _)).1 $$ Ht
  icases Hsp with ⟨Hrow, Hrest⟩
  ihave Hsrc := (Entails.of_eq e1) $$ Hrow
  iapply (Transfers.wp_dmaBatch countersEmb 𝒱₀ (V d c i) none (src := srcRow offS hS) (dst := dstRow offD hD) (via := .same)
      (q := piece q 512 t) (fs := Tv d) (Sd := rowSetS t) (fd := fd) (D := Dl Tv d c i ro q) (j := t.val) (u := 0)
      none NR rfl (by rw [ed]) t.isLt (Nat.zero_le _) hDl) $$ [Hsrc Hd HB]
  · isplitl [Hsrc]; · iexact Hsrc
    isplitl [Hd]; · iexact Hd
    iexact HB
  iintro HB
  iapply Hk
  isplitl [Hrest]; · iexact Hrest
  iexact HB

end Batch

end Cert.Proof.KI

end
-- ==== Proof.ScCoords.lean ====
/-
  The task's place — its SparseCore, its vector subcore, the number of its slice — and the arrays and scratches as
  the task's body names them.
-/
import proofs.«212231_g88622355185883_cont_sun_m_1073_38_alg».proof.Proof.ScBatch
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

/-! ## The task's place: its SparseCore, its vector subcore, its slice -/

section Tile

variable (L : grid1.Coords)

abbrev cV (L : grid1.Coords) : Fin τ.nSC := (L 0).castLE hcore1
abbrev jV (L : grid1.Coords) : Fin τ.nSub := (L 1).castLE hsub1
theorem bound0 : grid1.bound 0 = 2 := rfl
theorem bound1 : grid1.bound 1 = 16 := rfl
abbrev cL (L : grid1.Coords) : Fin 2 := Fin.cast bound0 (L 0)
abbrev iL (L : grid1.Coords) : Fin 16 := Fin.cast bound1 (L 1)
abbrev wL (L : grid1.Coords) : Fin 32 := wid (cL L) (iL L)

abbrev uV : Memref sig .scVector .hbm S16384 .i32 := Memref.whole main_arg0_scv
abbrev iV : Memref sig .scVector .hbm S16384 .i32 := Memref.whole main_arg1_scv
abbrev ouV : Memref sig .scVector .hbm S16384x128 .f32 := Memref.whole main_v5_0_scv
abbrev oiV : Memref sig .scVector .hbm S16384x128 .f32 := Memref.whole main_v5_1_scv
abbrev sU : Memref sig .scVector .vmem S512 .i32 := Memref.whole cc1_scratch0
abbrev sI : Memref sig .scVector .vmem S512 .i32 := Memref.whole cc1_scratch1

abbrev idxR (L : grid1.Coords) : Rect S16384 := Rect.unit (s := S16384) (k1_off1 L) S512.size (k1_off1_inb L)
abbrev outR (L : grid1.Coords) : Rect S16384x128 := Rect.unit (s := S16384x128) (k1_off36 L) S512x128.size (k1_off36_inb L)
abbrev uK (L : grid1.Coords) : Memref sig .scVector .hbm S512 .i32 := uV.slice (idxR L) (fun _ => rfl)
abbrev iK (L : grid1.Coords) : Memref sig .scVector .hbm S512 .i32 := iV.slice (idxR L) (fun _ => rfl)
abbrev ouK (L : grid1.Coords) : Memref sig .scVector .hbm S512x128 .f32 := ouV.slice (outR L) (fun _ => rfl)
abbrev oiK (L : grid1.Coords) : Memref sig .scVector .hbm S512x128 .f32 := oiV.slice (outR L) (fun _ => rfl)

end Tile

end Cert.Proof.KI

end
-- ==== Proof.ScFire.lean ====
/-
  The batch from its first issue to its last wait. Fire t: what the task holds once t copies are issued and none waited
  for (the shares not yet lent, what is left of the lent ones, the scratch rows not yet written). issue_step: one more
  issued. Drain n: the batch after n of the 512 waits, each of one row's amount; the first 511 learn nothing, the last
  hands every delivery back (wait_step). A loaded lane is the index word at its position; a word below the table's
  height names a row.
-/
import proofs.«212231_g88622355185883_cont_sun_m_1073_38_alg».proof.Proof.ScCoords
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)
open Idealize.ShloMosaic.Transfers (pending issued Batch MayWaits)

variable (Tv : (d : Dev nD) → Buf (Elt F) (tLoc d))

/-! ## The row batch from its first issue to its last wait -/

section Fire

variable (d : Dev nD) (c : Fin τ.nSC) (i : Fin τ.nSub)
variable (ro : Fin 512 → Fin 1000000) (q : PosShare TreeShare)

/-- What the task holds of the batch once `t` copies are issued and none waited for: the read shares of the table not yet
    lent, what is left of the lent ones (all but the row), the scratch rows not yet written, and the batch. -/
def Fire (t : ℕ) : sProp 𝕄 :=
  iprop(bigSep (pending (n := 512) t) (fun u => tLoc d ↦{piece q 512 u} Tv d)
    ∗ bigSep (issued (m := 512) t) (fun u => tLoc d ↦[Finset.univ \ tabRowSet (ro u)]{piece q 512 u} Tv d)
    ∗ bigSep (pending (n := 512) t) (fun u => iprop(∃ f, rowsLoc d c i ↦[rowSetS u]{fullShare} f))
    ∗ Batch countersEmb (V d c i) (.dma semB) none NR (Dl Tv d c i ro q) t 0)

variable [FloatOps F]

/-- One more copy issued. -/
theorem issue_step {α : Type} {Q : α → sProp 𝕄} (k : PUnit → Prog (TpuEff nD τ sig (Elt F) Λ₀ (V d c i).2) α)
    (t : ℕ) (ht : t < 512) (offD : Fin 2 → ℕ) (hD : ∀ a, offD a + S1x128.size a ≤ S512x128.size a) (hoffD : offD = ![t, 0])
    (offS : Fin 2 → ℕ) (hS : ∀ a, offS a + S1x128.size a ≤ S1000000x128.size a) (hoffS : offS = ![(ro ⟨t, ht⟩).val, 0])
    (hsrc : (srcRow offS hS).view.WordExact) (hdst : (dstRow offD hD).view.WordExact)
    (hsem : DmaTarget.Typed (nD := nD) (τ := τ) (p := (V d c i).2) .hbm (SemLoc.dma semB) (.here (dstRow offD hD))) :
    Fire Tv d c i ro q t
      ⊢ iprop((Fire Tv d c i ro q (t + 1) -∗ wp frame (wpE (defs₀ (F := F)) 𝒱₀ (V d c i) none) Set.univ (k ⟨⟩) Q)
          -∗ wp frame (wpE (defs₀ (F := F)) 𝒱₀ (V d c i) none) Set.univ
              (.op (.enqueueDmaAs (srcRow offS hS) (.here (dstRow offD hD)) .same (.dma semB) hsrc hdst hsem) k) Q) := by
  unfold Fire
  rw [Transfers.bigSep_pending_step _ t ht, Transfers.bigSep_pending_step _ t ht, Transfers.issued_succ ht,
    SparseCore.bigSep_insert' (Transfers.not_mem_issued ht)]
  iintro ⟨⟨Ht, Hsh⟩, Hre, ⟨⟨%fd, Hd⟩, Hrw⟩, HB⟩ Hk
  iapply (issue_row Tv d c i ro q k ⟨t, ht⟩ offD hD hoffD offS hS hoffS fd hsrc hdst hsem) $$ [Ht Hd HB]
  · isplitl [Ht]; · iexact Ht
    isplitl [Hd]; · iexact Hd
    iexact HB
  iintro ⟨Hrest, HB⟩
  iapply Hk
  isplitl [Hsh]; · iexact Hsh
  isplitl [Hrest Hre]
  · isplitl [Hrest]; · iexact Hrest
    iexact Hre
  isplitl [Hrw]; · iexact Hrw
  iexact HB

/-- The batch while it drains: after `n` of the 512 waits. The last wait hands every delivery back. -/
def Drain (n : ℕ) : sProp 𝕄 :=
  if n < 512 then Batch countersEmb (V d c i) (.dma semB) none NR (Dl Tv d c i ro q) 512 (n * NR)
  else iprop(bigSep Finset.univ (Dl Tv d c i ro q) ∗ semVal ((V d c i, SemLoc.dma semB) : GSem nD τ sig) 0)

/-- One of the 512 waits, each of one row's amount. -/
theorem wait_step {α : Type} {Q : α → sProp 𝕄} (k : PUnit → Prog (TpuEff nD τ sig (Elt F) Λ₀ (V d c i).2) α) (n : ℕ) (hn : n < 512)
    (O : CellTallies nD τ sig (HIx 1)) (W : Waits sig (HIx 1))
    (hsrc : (srcRow ![0, 0] inb_S1000000x128_S1x128_0_0).view.WordExact) (hdst : (dstRow ![0, 0] inb_S512x128_S1x128_0_0).view.WordExact) :
    iprop(Drain Tv d c i ro q n ∗ owes (V d c i) O W ∗ MayWaits (V d c i) none O)
      ⊢ iprop((iprop(Drain Tv d c i ro q (n + 1) ∗ owes (V d c i) O (insert (SemLoc.dma semB, none) W))
              -∗ wp frame (wpE (defs₀ (F := F)) 𝒱₀ (V d c i) none) Set.univ (k ⟨⟩) Q)
          -∗ wp frame (wpE (defs₀ (F := F)) 𝒱₀ (V d c i) none) Set.univ
              (.op (.waitDma2 semB (srcRow ![0, 0] inb_S1000000x128_S1x128_0_0) (dstRow ![0, 0] inb_S512x128_S1x128_0_0) hsrc hdst) k) Q) := by
  unfold Drain; rw [if_pos hn]
  by_cases hl : n + 1 < 512
  · rw [if_pos hl]
    iintro ⟨HD, HO, #Hmw⟩ Hk
    ihave Hw := (MayWaits.elim (SemLoc.dma semB)) $$ Hmw
    have hu : n * NR + NR < NR * 512 := by
      calc n * NR + NR = (n + 1) * NR := (Nat.succ_mul n NR).symm
        _ < 512 * NR := Nat.mul_lt_mul_of_pos_right hl NR_pos
        _ = NR * 512 := Nat.mul_comm _ _
    iapply (Transfers.wp_waitBatchO countersEmb 𝒱₀ (V d c i) none none (N := NR) rfl (u := n * NR) hu (O := O) (W := W)) $$ [HD HO Hw]
    · isplitl [HD]; · iexact HD
      isplitl [HO]; · iexact HO
      iexact Hw
    iintro ⟨HB, HO⟩
    iapply Hk
    isplitl [HB]; · rw [Nat.succ_mul]; iexact HB
    iexact HO
  · rw [if_neg hl]
    have hn' : n = 511 := by omega
    subst hn'
    iintro ⟨HD, HO, #Hmw⟩ Hk
    ihave Hw := (MayWaits.elim (SemLoc.dma semB)) $$ Hmw
    have hu : 511 * NR + NR = NR * 512 := by rw [← Nat.succ_mul]; exact Nat.mul_comm _ _
    iapply (Transfers.wp_waitBatchLastO countersEmb 𝒱₀ (V d c i) none none (N := NR) rfl NR_pos (u := 511 * NR) hu (O := O) (W := W)) $$ [HD HO Hw]
    · isplitl [HD]; · iexact HD
      isplitl [HO]; · iexact HO
      iexact Hw
    iintro ⟨HDs, Hv, HO⟩
    iapply Hk
    isplitl [HDs Hv]
    · isplitl [HDs]; · iexact HDs
      iexact Hv
    iexact HO

end Fire

/-! ## One lane of a firing trip -/

/-- A word below the table's height names a row: the side condition the body assumes of it. -/
theorem chk_of (w : BitVec 32) (h : w.toNat < 1000000) :
    ∀ a, (![w.toNat, 0] : Fin 2 → ℕ) a + S1x128.size a ≤ S1000000x128.size a := by
  intro a
  match a with
  | ⟨0, _⟩ => show w.toNat + 1 ≤ 1000000; omega
  | ⟨1, _⟩ => show 0 + 128 ≤ 128; omega

/-- Lane `l` of the sixteen index words a trip loads from the user-index scratch. -/
theorem lane_valU (s : S512.Idx → BitVec 32) (off : Fin 1 → ℕ) (hin : ∀ a, off a + S16.size a ≤ S512.size a) (tv : ℕ) (hoff : off = ![16 * tv])
    (l : Fin 16) (h : 16 * tv + l.val < 512) :
    (sU : Memref sig .scVector .vmem S512 .i32).view.readAt (Elt F) (Rect.unit (s := S512) off S16.size hin).toLoadRect s (ix1 l)
      = s (ix1 ⟨16 * tv + l.val, h⟩) := by
  subst hoff
  simp only [View.readAt_apply, Memref.view_whole, View.read_whole]
  refine congrArg s ?_
  funext a; apply Fin.ext
  rw [LoadRect.idx_apply, Subsingleton.elim a 0]
  show 16 * tv + 1 * l.val = 16 * tv + l.val
  omega
/-- The same for the item-index scratch. -/
theorem lane_valI (s : S512.Idx → BitVec 32) (off : Fin 1 → ℕ) (hin : ∀ a, off a + S16.size a ≤ S512.size a) (tv : ℕ) (hoff : off = ![16 * tv])
    (l : Fin 16) (h : 16 * tv + l.val < 512) :
    (sI : Memref sig .scVector .vmem S512 .i32).view.readAt (Elt F) (Rect.unit (s := S512) off S16.size hin).toLoadRect s (ix1 l)
      = s (ix1 ⟨16 * tv + l.val, h⟩) := by
  subst hoff
  simp only [View.readAt_apply, Memref.view_whole, View.read_whole]
  refine congrArg s ?_
  funext a; apply Fin.ext
  rw [LoadRect.idx_apply, Subsingleton.elim a 0]
  show 16 * tv + 1 * l.val = 16 * tv + l.val
  omega

section Lane

variable (d : Dev nD) (c : Fin τ.nSC) (i : Fin τ.nSub) (q : PosShare TreeShare)
variable (s : S512.Idx → BitVec 32)

/-- The rows the index words name. -/
abbrev roOf (s : S512.Idx → BitVec 32) : Fin 512 → Fin 1000000 := fun j => rowOf (s (ix1 j))

variable [FloatOps F]

/-- Copy `t` of a firing loop: the word `w` is index word `t`, its row goes to the scratch's row `t`. -/
theorem issue_lane (hlt : ∀ j : Fin 512, (s (ix1 j)).toNat < 1000000)
    {α : Type} {Q : α → sProp 𝕄} (k : PUnit → Prog (TpuEff nD τ sig (Elt F) Λ₀ (V d c i).2) α)
    (t : ℕ) (ht : t < 512) (offD : Fin 2 → ℕ) (hD : ∀ a, offD a + S1x128.size a ≤ S512x128.size a) (tD : ℕ) (hoffD : offD = ![tD, 0]) (htD : tD = t)
    (w : BitVec 32) (hw : w = s (ix1 ⟨t, ht⟩))
    (offS : Fin 2 → ℕ) (hS : ∀ a, offS a + S1x128.size a ≤ S1000000x128.size a) (hoffS : offS = ![w.toNat, 0])
    (hsrc : (srcRow offS hS).view.WordExact) (hdst : (dstRow offD hD).view.WordExact)
    (hsem : DmaTarget.Typed (nD := nD) (τ := τ) (p := (V d c i).2) .hbm (SemLoc.dma semB) (.here (dstRow offD hD))) :
    Fire Tv d c i (roOf s) q t
      ⊢ iprop((Fire Tv d c i (roOf s) q (t + 1) -∗ wp frame (wpE (defs₀ (F := F)) 𝒱₀ (V d c i) none) Set.univ (k ⟨⟩) Q)
          -∗ wp frame (wpE (defs₀ (F := F)) 𝒱₀ (V d c i) none) Set.univ
              (.op (.enqueueDmaAs (srcRow offS hS) (.here (dstRow offD hD)) .same (.dma semB) hsrc hdst hsem) k) Q) := by
  subst htD
  refine issue_step Tv d c i (roOf s) q k tD ht offD hD hoffD offS hS ?_ hsrc hdst hsem
  rw [hoffS, hw, rowOf_val (hlt _)]

end Lane

end Cert.Proof.KI

end
-- ==== Proof.ScLane.lean ====
/-
  One lane of a 16-lane index vector.

  The gathering task reads its row indices sixteen at a time and takes them apart lane by lane: a one-element
  slice at offset l of the (identically re-shaped) vector, then that slice's one element. Each such value is
  the vector's lane l.
-/
import proofs.«212231_g88622355185883_cont_sun_m_1073_38_alg».proof.Proof.Setup
import Idealize.ShloMosaic.Lib.ValueIdx
import Idealize.ShloMosaic.Lib.Pipeline.Value

noncomputable section

namespace Cert.Proof.KI

open Cert.KernelIdeal Cert.KernelIdeal.Gen

open Idealize.ShloMosaic Idealize.ShloMosaic.ValueIdx

variable {F : FTy → Type} [FloatOps F]

/-- The one element of the one-element slice at offset l is lane l. -/
theorem lane_slice {α : Type} (x : S16.Idx → α) (l : Fin 16) (off : Fin 1 → Nat) (hoff : off = ![l.val]) (hs : S16.Slices off S1)
    (hp : ∀ a, (![0] : Fin 1 → Nat) a < S1.size a) :
    extractAt ![0] (extractStridedSlice S1 off x hs) hp = x (ix1 l) := by
  subst hoff
  unfold extractAt
  refine extractStridedSlice_apply _ x hs _ (ix1 l) fun a => ?_
  match a with
  | ⟨0, _⟩ => show l.val = l.val + 0; omega

/-- The same through the identical re-shaping the task applies first. -/
theorem lane_cast_slice {α : Type} (x : S16.Idx → α) (l : Fin 16) (off : Fin 1 → Nat) (hoff : off = ![l.val]) (hc : S16.ShapeCasts S16)
    (hs : S16.Slices off S1) (hp : ∀ a, (![0] : Fin 1 → Nat) a < S1.size a) :
    extractAt ![0] (extractStridedSlice S1 off (shapeCast S16 x hc) hs) hp = x (ix1 l) := by
  rw [shapeCast_self]
  exact lane_slice x l off hoff hs hp

/-- The re-shaping of a 16-vector to a 16-vector changes nothing. -/
theorem k1_pay1_eq (v9 : Vec F S16 .i32) : k1_pay1 v9 = v9 := shapeCast_self _ _
theorem k1_pay17_eq (v9 : Vec F S16 .i32) : k1_pay17 v9 = v9 := shapeCast_self _ _

/-! ## The user side's sixteen lanes -/

theorem lane_pay2 (v9 : Vec F S16 .i32) : extractAt ![0] (k1_pay2 v9) inpos_S1_p0 = v9 (ix1 (0 : Fin 16)) :=
  lane_cast_slice v9 (0 : Fin 16) ![0] rfl shapeCasts_S16_S16 slices_S16_o0_S1 inpos_S1_p0
theorem lane_pay3 (v9 : Vec F S16 .i32) : extractAt ![0] (k1_pay3 v9) inpos_S1_p0 = v9 (ix1 (1 : Fin 16)) :=
  lane_cast_slice v9 (1 : Fin 16) ![1] rfl shapeCasts_S16_S16 slices_S16_o1_S1 inpos_S1_p0
theorem lane_pay4 (v9 : Vec F S16 .i32) : extractAt ![0] (k1_pay4 v9) inpos_S1_p0 = v9 (ix1 (2 : Fin 16)) :=
  lane_cast_slice v9 (2 : Fin 16) ![2] rfl shapeCasts_S16_S16 slices_S16_o2_S1 inpos_S1_p0
theorem lane_pay5 (v10 : IVec S16 32) : extractAt ![0] (k1_pay5 v10) inpos_S1_p0 = v10 (ix1 (3 : Fin 16)) :=
  lane_slice v10 (3 : Fin 16) ![3] rfl slices_S16_o3_S1 inpos_S1_p0
theorem lane_pay5_of (v9 : Vec F S16 .i32) : extractAt ![0] (k1_pay5 (k1_pay1 v9)) inpos_S1_p0 = v9 (ix1 (3 : Fin 16)) :=
  (lane_pay5 (k1_pay1 v9)).trans (congrFun (k1_pay1_eq v9) _)
theorem lane_pay6 (v10 : IVec S16 32) : extractAt ![0] (k1_pay6 v10) inpos_S1_p0 = v10 (ix1 (4 : Fin 16)) :=
  lane_slice v10 (4 : Fin 16) ![4] rfl slices_S16_o4_S1 inpos_S1_p0
theorem lane_pay6_of (v9 : Vec F S16 .i32) : extractAt ![0] (k1_pay6 (k1_pay1 v9)) inpos_S1_p0 = v9 (ix1 (4 : Fin 16)) :=
  (lane_pay6 (k1_pay1 v9)).trans (congrFun (k1_pay1_eq v9) _)
theorem lane_pay7 (v10 : IVec S16 32) : extractAt ![0] (k1_pay7 v10) inpos_S1_p0 = v10 (ix1 (5 : Fin 16)) :=
  lane_slice v10 (5 : Fin 16) ![5] rfl slices_S16_o5_S1 inpos_S1_p0
theorem lane_pay7_of (v9 : Vec F S16 .i32) : extractAt ![0] (k1_pay7 (k1_pay1 v9)) inpos_S1_p0 = v9 (ix1 (5 : Fin 16)) :=
  (lane_pay7 (k1_pay1 v9)).trans (congrFun (k1_pay1_eq v9) _)
theorem lane_pay8 (v10 : IVec S16 32) : extractAt ![0] (k1_pay8 v10) inpos_S1_p0 = v10 (ix1 (6 : Fin 16)) :=
  lane_slice v10 (6 : Fin 16) ![6] rfl slices_S16_o6_S1 inpos_S1_p0
theorem lane_pay8_of (v9 : Vec F S16 .i32) : extractAt ![0] (k1_pay8 (k1_pay1 v9)) inpos_S1_p0 = v9 (ix1 (6 : Fin 16)) :=
  (lane_pay8 (k1_pay1 v9)).trans (congrFun (k1_pay1_eq v9) _)
theorem lane_pay9 (v10 : IVec S16 32) : extractAt ![0] (k1_pay9 v10) inpos_S1_p0 = v10 (ix1 (7 : Fin 16)) :=
  lane_slice v10 (7 : Fin 16) ![7] rfl slices_S16_o7_S1 inpos_S1_p0
theorem lane_pay9_of (v9 : Vec F S16 .i32) : extractAt ![0] (k1_pay9 (k1_pay1 v9)) inpos_S1_p0 = v9 (ix1 (7 : Fin 16)) :=
  (lane_pay9 (k1_pay1 v9)).trans (congrFun (k1_pay1_eq v9) _)
theorem lane_pay10 (v10 : IVec S16 32) : extractAt ![0] (k1_pay10 v10) inpos_S1_p0 = v10 (ix1 (8 : Fin 16)) :=
  lane_slice v10 (8 : Fin 16) ![8] rfl slices_S16_o8_S1 inpos_S1_p0
theorem lane_pay10_of (v9 : Vec F S16 .i32) : extractAt ![0] (k1_pay10 (k1_pay1 v9)) inpos_S1_p0 = v9 (ix1 (8 : Fin 16)) :=
  (lane_pay10 (k1_pay1 v9)).trans (congrFun (k1_pay1_eq v9) _)
theorem lane_pay11 (v10 : IVec S16 32) : extractAt ![0] (k1_pay11 v10) inpos_S1_p0 = v10 (ix1 (9 : Fin 16)) :=
  lane_slice v10 (9 : Fin 16) ![9] rfl slices_S16_o9_S1 inpos_S1_p0
theorem lane_pay11_of (v9 : Vec F S16 .i32) : extractAt ![0] (k1_pay11 (k1_pay1 v9)) inpos_S1_p0 = v9 (ix1 (9 : Fin 16)) :=
  (lane_pay11 (k1_pay1 v9)).trans (congrFun (k1_pay1_eq v9) _)
theorem lane_pay12 (v10 : IVec S16 32) : extractAt ![0] (k1_pay12 v10) inpos_S1_p0 = v10 (ix1 (10 : Fin 16)) :=
  lane_slice v10 (10 : Fin 16) ![10] rfl slices_S16_o10_S1 inpos_S1_p0
theorem lane_pay12_of (v9 : Vec F S16 .i32) : extractAt ![0] (k1_pay12 (k1_pay1 v9)) inpos_S1_p0 = v9 (ix1 (10 : Fin 16)) :=
  (lane_pay12 (k1_pay1 v9)).trans (congrFun (k1_pay1_eq v9) _)
theorem lane_pay13 (v10 : IVec S16 32) : extractAt ![0] (k1_pay13 v10) inpos_S1_p0 = v10 (ix1 (11 : Fin 16)) :=
  lane_slice v10 (11 : Fin 16) ![11] rfl slices_S16_o11_S1 inpos_S1_p0
theorem lane_pay13_of (v9 : Vec F S16 .i32) : extractAt ![0] (k1_pay13 (k1_pay1 v9)) inpos_S1_p0 = v9 (ix1 (11 : Fin 16)) :=
  (lane_pay13 (k1_pay1 v9)).trans (congrFun (k1_pay1_eq v9) _)
theorem lane_pay14 (v10 : IVec S16 32) : extractAt ![0] (k1_pay14 v10) inpos_S1_p0 = v10 (ix1 (12 : Fin 16)) :=
  lane_slice v10 (12 : Fin 16) ![12] rfl slices_S16_o12_S1 inpos_S1_p0
theorem lane_pay14_of (v9 : Vec F S16 .i32) : extractAt ![0] (k1_pay14 (k1_pay1 v9)) inpos_S1_p0 = v9 (ix1 (12 : Fin 16)) :=
  (lane_pay14 (k1_pay1 v9)).trans (congrFun (k1_pay1_eq v9) _)
theorem lane_pay15 (v10 : IVec S16 32) : extractAt ![0] (k1_pay15 v10) inpos_S1_p0 = v10 (ix1 (13 : Fin 16)) :=
  lane_slice v10 (13 : Fin 16) ![13] rfl slices_S16_o13_S1 inpos_S1_p0
theorem lane_pay15_of (v9 : Vec F S16 .i32) : extractAt ![0] (k1_pay15 (k1_pay1 v9)) inpos_S1_p0 = v9 (ix1 (13 : Fin 16)) :=
  (lane_pay15 (k1_pay1 v9)).trans (congrFun (k1_pay1_eq v9) _)
theorem lane_pay16 (v10 : IVec S16 32) : extractAt ![0] (k1_pay16 v10) inpos_S1_p0 = v10 (ix1 (14 : Fin 16)) :=
  lane_slice v10 (14 : Fin 16) ![14] rfl slices_S16_o14_S1 inpos_S1_p0
theorem lane_pay16_of (v9 : Vec F S16 .i32) : extractAt ![0] (k1_pay16 (k1_pay1 v9)) inpos_S1_p0 = v9 (ix1 (14 : Fin 16)) :=
  (lane_pay16 (k1_pay1 v9)).trans (congrFun (k1_pay1_eq v9) _)
theorem lane_pay33 (v10 : IVec S16 32) : extractAt ![0] (k1_pay33 v10) inpos_S1_p0 = v10 (ix1 (15 : Fin 16)) :=
  lane_slice v10 (15 : Fin 16) ![15] rfl slices_S16_o15_S1 inpos_S1_p0
theorem lane_pay33_of (v9 : Vec F S16 .i32) : extractAt ![0] (k1_pay33 (k1_pay1 v9)) inpos_S1_p0 = v9 (ix1 (15 : Fin 16)) :=
  (lane_pay33 (k1_pay1 v9)).trans (congrFun (k1_pay1_eq v9) _)

/-! ## The item side's sixteen lanes -/

theorem lane_pay18 (v9 : Vec F S16 .i32) : extractAt ![0] (k1_pay18 v9) inpos_S1_p0 = v9 (ix1 (0 : Fin 16)) :=
  lane_cast_slice v9 (0 : Fin 16) ![0] rfl shapeCasts_S16_S16 slices_S16_o0_S1 inpos_S1_p0
theorem lane_pay19 (v9 : Vec F S16 .i32) : extractAt ![0] (k1_pay19 v9) inpos_S1_p0 = v9 (ix1 (1 : Fin 16)) :=
  lane_cast_slice v9 (1 : Fin 16) ![1] rfl shapeCasts_S16_S16 slices_S16_o1_S1 inpos_S1_p0
theorem lane_pay20 (v9 : Vec F S16 .i32) : extractAt ![0] (k1_pay20 v9) inpos_S1_p0 = v9 (ix1 (2 : Fin 16)) :=
  lane_cast_slice v9 (2 : Fin 16) ![2] rfl shapeCasts_S16_S16 slices_S16_o2_S1 inpos_S1_p0
theorem lane_pay21 (v10 : IVec S16 32) : extractAt ![0] (k1_pay21 v10) inpos_S1_p0 = v10 (ix1 (3 : Fin 16)) :=
  lane_slice v10 (3 : Fin 16) ![3] rfl slices_S16_o3_S1 inpos_S1_p0
theorem lane_pay21_of (v9 : Vec F S16 .i32) : extractAt ![0] (k1_pay21 (k1_pay17 v9)) inpos_S1_p0 = v9 (ix1 (3 : Fin 16)) :=
  (lane_pay21 (k1_pay17 v9)).trans (congrFun (k1_pay17_eq v9) _)
theorem lane_pay22 (v10 : IVec S16 32) : extractAt ![0] (k1_pay22 v10) inpos_S1_p0 = v10 (ix1 (4 : Fin 16)) :=
  lane_slice v10 (4 : Fin 16) ![4] rfl slices_S16_o4_S1 inpos_S1_p0
theorem lane_pay22_of (v9 : Vec F S16 .i32) : extractAt ![0] (k1_pay22 (k1_pay17 v9)) inpos_S1_p0 = v9 (ix1 (4 : Fin 16)) :=
  (lane_pay22 (k1_pay17 v9)).trans (congrFun (k1_pay17_eq v9) _)
theorem lane_pay23 (v10 : IVec S16 32) : extractAt ![0] (k1_pay23 v10) inpos_S1_p0 = v10 (ix1 (5 : Fin 16)) :=
  lane_slice v10 (5 : Fin 16) ![5] rfl slices_S16_o5_S1 inpos_S1_p0
theorem lane_pay23_of (v9 : Vec F S16 .i32) : extractAt ![0] (k1_pay23 (k1_pay17 v9)) inpos_S1_p0 = v9 (ix1 (5 : Fin 16)) :=
  (lane_pay23 (k1_pay17 v9)).trans (congrFun (k1_pay17_eq v9) _)
theorem lane_pay24 (v10 : IVec S16 32) : extractAt ![0] (k1_pay24 v10) inpos_S1_p0 = v10 (ix1 (6 : Fin 16)) :=
  lane_slice v10 (6 : Fin 16) ![6] rfl slices_S16_o6_S1 inpos_S1_p0
theorem lane_pay24_of (v9 : Vec F S16 .i32) : extractAt ![0] (k1_pay24 (k1_pay17 v9)) inpos_S1_p0 = v9 (ix1 (6 : Fin 16)) :=
  (lane_pay24 (k1_pay17 v9)).trans (congrFun (k1_pay17_eq v9) _)
theorem lane_pay25 (v10 : IVec S16 32) : extractAt ![0] (k1_pay25 v10) inpos_S1_p0 = v10 (ix1 (7 : Fin 16)) :=
  lane_slice v10 (7 : Fin 16) ![7] rfl slices_S16_o7_S1 inpos_S1_p0
theorem lane_pay25_of (v9 : Vec F S16 .i32) : extractAt ![0] (k1_pay25 (k1_pay17 v9)) inpos_S1_p0 = v9 (ix1 (7 : Fin 16)) :=
  (lane_pay25 (k1_pay17 v9)).trans (congrFun (k1_pay17_eq v9) _)
theorem lane_pay26 (v10 : IVec S16 32) : extractAt ![0] (k1_pay26 v10) inpos_S1_p0 = v10 (ix1 (8 : Fin 16)) :=
  lane_slice v10 (8 : Fin 16) ![8] rfl slices_S16_o8_S1 inpos_S1_p0
theorem lane_pay26_of (v9 : Vec F S16 .i32) : extractAt ![0] (k1_pay26 (k1_pay17 v9)) inpos_S1_p0 = v9 (ix1 (8 : Fin 16)) :=
  (lane_pay26 (k1_pay17 v9)).trans (congrFun (k1_pay17_eq v9) _)
theorem lane_pay27 (v10 : IVec S16 32) : extractAt ![0] (k1_pay27 v10) inpos_S1_p0 = v10 (ix1 (9 : Fin 16)) :=
  lane_slice v10 (9 : Fin 16) ![9] rfl slices_S16_o9_S1 inpos_S1_p0
theorem lane_pay27_of (v9 : Vec F S16 .i32) : extractAt ![0] (k1_pay27 (k1_pay17 v9)) inpos_S1_p0 = v9 (ix1 (9 : Fin 16)) :=
  (lane_pay27 (k1_pay17 v9)).trans (congrFun (k1_pay17_eq v9) _)
theorem lane_pay28 (v10 : IVec S16 32) : extractAt ![0] (k1_pay28 v10) inpos_S1_p0 = v10 (ix1 (10 : Fin 16)) :=
  lane_slice v10 (10 : Fin 16) ![10] rfl slices_S16_o10_S1 inpos_S1_p0
theorem lane_pay28_of (v9 : Vec F S16 .i32) : extractAt ![0] (k1_pay28 (k1_pay17 v9)) inpos_S1_p0 = v9 (ix1 (10 : Fin 16)) :=
  (lane_pay28 (k1_pay17 v9)).trans (congrFun (k1_pay17_eq v9) _)
theorem lane_pay29 (v10 : IVec S16 32) : extractAt ![0] (k1_pay29 v10) inpos_S1_p0 = v10 (ix1 (11 : Fin 16)) :=
  lane_slice v10 (11 : Fin 16) ![11] rfl slices_S16_o11_S1 inpos_S1_p0
theorem lane_pay29_of (v9 : Vec F S16 .i32) : extractAt ![0] (k1_pay29 (k1_pay17 v9)) inpos_S1_p0 = v9 (ix1 (11 : Fin 16)) :=
  (lane_pay29 (k1_pay17 v9)).trans (congrFun (k1_pay17_eq v9) _)
theorem lane_pay30 (v10 : IVec S16 32) : extractAt ![0] (k1_pay30 v10) inpos_S1_p0 = v10 (ix1 (12 : Fin 16)) :=
  lane_slice v10 (12 : Fin 16) ![12] rfl slices_S16_o12_S1 inpos_S1_p0
theorem lane_pay30_of (v9 : Vec F S16 .i32) : extractAt ![0] (k1_pay30 (k1_pay17 v9)) inpos_S1_p0 = v9 (ix1 (12 : Fin 16)) :=
  (lane_pay30 (k1_pay17 v9)).trans (congrFun (k1_pay17_eq v9) _)
theorem lane_pay31 (v10 : IVec S16 32) : extractAt ![0] (k1_pay31 v10) inpos_S1_p0 = v10 (ix1 (13 : Fin 16)) :=
  lane_slice v10 (13 : Fin 16) ![13] rfl slices_S16_o13_S1 inpos_S1_p0
theorem lane_pay31_of (v9 : Vec F S16 .i32) : extractAt ![0] (k1_pay31 (k1_pay17 v9)) inpos_S1_p0 = v9 (ix1 (13 : Fin 16)) :=
  (lane_pay31 (k1_pay17 v9)).trans (congrFun (k1_pay17_eq v9) _)
theorem lane_pay32 (v10 : IVec S16 32) : extractAt ![0] (k1_pay32 v10) inpos_S1_p0 = v10 (ix1 (14 : Fin 16)) :=
  lane_slice v10 (14 : Fin 16) ![14] rfl slices_S16_o14_S1 inpos_S1_p0
theorem lane_pay32_of (v9 : Vec F S16 .i32) : extractAt ![0] (k1_pay32 (k1_pay17 v9)) inpos_S1_p0 = v9 (ix1 (14 : Fin 16)) :=
  (lane_pay32 (k1_pay17 v9)).trans (congrFun (k1_pay17_eq v9) _)
theorem lane_pay34 (v10 : IVec S16 32) : extractAt ![0] (k1_pay34 v10) inpos_S1_p0 = v10 (ix1 (15 : Fin 16)) :=
  lane_slice v10 (15 : Fin 16) ![15] rfl slices_S16_o15_S1 inpos_S1_p0
theorem lane_pay34_of (v9 : Vec F S16 .i32) : extractAt ![0] (k1_pay34 (k1_pay17 v9)) inpos_S1_p0 = v9 (ix1 (15 : Fin 16)) :=
  (lane_pay34 (k1_pay17 v9)).trans (congrFun (k1_pay17_eq v9) _)

end Cert.Proof.KI

end
-- ==== Proof.ScRegionU.lean ====
/-
  One trip of the user side's firing loop: sixteen index words loaded, and for each the copy of the table row it names
  onto the next row of the scratch issued. Before trip k the batch has 16 k copies issued, after it 16 (k + 1).
-/
import proofs.«212231_g88622355185883_cont_sun_m_1073_38_alg».proof.Proof.ScFire
import proofs.«212231_g88622355185883_cont_sun_m_1073_38_alg».proof.Proof.ScLane
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)
open Idealize.ShloMosaic.Transfers (pending issued Batch MayWaits)
open Idealize.ShloMosaic.Tactic

variable (Tv : (d : Dev nD) → Buf (Elt F) (tLoc d))

section RegionU

variable (d : Dev nD) (L : grid1.Coords) (q : PosShare TreeShare) (s : S512.Idx → BitVec 32)
variable [FloatOps F]

/-- Before trip `k` of the user side's firing loop: the index scratch, and the batch with `16 k` copies issued. -/
def invFireU (k : ℕ) (_ : Unit) : sProp 𝕄 :=
  iprop(((sU : Memref sig .scVector .vmem S512 .i32).view.loc (V d (cV L) (jV L)) ↦{fullShare} s)
    ∗ Fire Tv d (cV L) (jV L) (roOf s) q (16 * k))

theorem trips1 : k1_t1_loop.trips = 32 := by decide

theorem fire_regionU (hlt : ∀ j : Fin 512, (s (ix1 j)).toNat < 1000000) (k : Fin k1_t1_loop.trips) (acc : Unit) :
    invFireU Tv d L q s k.val acc
      ⊢ wp frame (wpE (defs₀ (F := F)) 𝒱₀ (V d (cV L) (jV L)) none) Set.univ
          (k1_t1_body L uV (Memref.isWhole_whole _) iV (Memref.isWhole_whole _) tabV (Memref.isWhole_whole _) ouV (Memref.isWhole_whole _) oiV (Memref.isWhole_whole _)
            sU (Memref.isWhole_whole _) sI (Memref.isWhole_whole _) rowsV (Memref.isWhole_whole _) cc1_scratch3 cc1_scoped0 cc1_scoped1 cc1_scoped2 cc1_scoped3 k acc)
          (invFireU Tv d L q s (k.val + 1)) := by
  have hk : k.val < 32 := lt_of_lt_of_eq k.isLt trips1
  unfold invFireU
  iintro ⟨Hs, HF⟩
  unfold k1_t1_body
  simp only [k1_part1_eq_skeleton, k1_part2_eq_skeleton, k1_part3_eq_skeleton, k1_part4_eq_skeleton, k1_part5_eq_skeleton]
  unfold k1_part1_skel k1_part2_skel k1_part3_skel k1_part4_skel k1_part5_skel
  simp only [Prog.lift, Prog.bind_op, Prog.bind_ret, Prog.pure_eq_ret]
  iapply (wp_load 𝒱₀ (V d (cV L) (jV L)) none Set.univ (m := (sU : Memref sig .scVector .vmem S512 .i32)) (S := Finset.univ) (Finset.subset_univ _)) $$ Hs; iintro Hs
  have hv : ∀ l : Fin 16, (sU : Memref sig .scVector .vmem S512 .i32).view.readAt (Elt F) (Rect.unit (s := S512) (k1_off2 k) S16.size (k1_off2_inb k)).toLoadRect s (ix1 l)
      = s (ix1 ⟨16 * k.val + l.val, by have := l.isLt; omega⟩) :=
    fun l => lane_valU s (k1_off2 k) (k1_off2_inb k) k.val (k1_off2_eq k) l (by have := l.isLt; omega)
  generalize (sU : Memref sig .scVector .vmem S512 .i32).view.readAt (Elt F) (Rect.unit (s := S512) (k1_off2 k) S16.size (k1_off2_inb k)).toLoadRect s = v9 at hv ⊢
  ihave HF := (Entails.of_eq (congrArg (Fire Tv d (cV L) (jV L) (roOf s) q) (show 16 * k.val = 16 * k.val + 0 from rfl))) $$ HF
  -- lane 0
  have hw0 : extractAt ![0] (k1_pay2 v9) inpos_S1_p0 = s (ix1 ⟨16 * k.val + 0, by omega⟩) := (lane_pay2 v9).trans (hv (0 : Fin 16))
  rw [wp_assume_of _ _ _ _ (show k1_chk1 (extractAt ![0] (k1_pay2 v9) inpos_S1_p0) from chk_of _ (by rw [hw0]; exact hlt _))]
  iapply (issue_lane Tv d (cV L) (jV L) q s hlt _ (16 * k.val + 0) (by omega) _ _ (16 * k.val + 0) (k1_off5_eq k ⟨0, by decide⟩) (by omega) _ hw0 _ _ rfl _ _ _) $$ HF
  iintro HF
  ihave HF := (Entails.of_eq (congrArg (Fire Tv d (cV L) (jV L) (roOf s) q) (show 16 * k.val + 0 + 1 = 16 * k.val + 1 from rfl))) $$ HF
  -- lane 1
  have hw1 : extractAt ![0] (k1_pay3 v9) inpos_S1_p0 = s (ix1 ⟨16 * k.val + 1, by omega⟩) := (lane_pay3 v9).trans (hv (1 : Fin 16))
  rw [wp_assume_of _ _ _ _ (show k1_chk2 (extractAt ![0] (k1_pay3 v9) inpos_S1_p0) from chk_of _ (by rw [hw1]; exact hlt _))]
  iapply (issue_lane Tv d (cV L) (jV L) q s hlt _ (16 * k.val + 1) (by omega) _ _ (16 * k.val + 0 + 1) (k1_off7_eq k ⟨0, by decide⟩) (by omega) _ hw1 _ _ rfl _ _ _) $$ HF
  iintro HF
  ihave HF := (Entails.of_eq (congrArg (Fire Tv d (cV L) (jV L) (roOf s) q) (show 16 * k.val + 1 + 1 = 16 * k.val + 2 from rfl))) $$ HF
  -- lane 2
  have hw2 : extractAt ![0] (k1_pay4 v9) inpos_S1_p0 = s (ix1 ⟨16 * k.val + 2, by omega⟩) := (lane_pay4 v9).trans (hv (2 : Fin 16))
  rw [wp_assume_of _ _ _ _ (show k1_chk3 (extractAt ![0] (k1_pay4 v9) inpos_S1_p0) from chk_of _ (by rw [hw2]; exact hlt _))]
  iapply (issue_lane Tv d (cV L) (jV L) q s hlt _ (16 * k.val + 2) (by omega) _ _ (16 * k.val + 0 + 2) (k1_off9_eq k ⟨0, by decide⟩) (by omega) _ hw2 _ _ rfl _ _ _) $$ HF
  iintro HF
  ihave HF := (Entails.of_eq (congrArg (Fire Tv d (cV L) (jV L) (roOf s) q) (show 16 * k.val + 2 + 1 = 16 * k.val + 3 from rfl))) $$ HF
  -- lane 3
  have hw3 : extractAt ![0] (k1_pay5 (k1_pay1 v9)) inpos_S1_p0 = s (ix1 ⟨16 * k.val + 3, by omega⟩) := (lane_pay5_of v9).trans (hv (3 : Fin 16))
  rw [wp_assume_of _ _ _ _ (show k1_chk4 (extractAt ![0] (k1_pay5 (k1_pay1 v9)) inpos_S1_p0) from chk_of _ (by rw [hw3]; exact hlt _))]
  iapply (issue_lane Tv d (cV L) (jV L) q s hlt _ (16 * k.val + 3) (by omega) _ _ (16 * k.val + 0 + 3) (k1_off11_eq k ⟨0, by decide⟩) (by omega) _ hw3 _ _ rfl _ _ _) $$ HF
  iintro HF
  ihave HF := (Entails.of_eq (congrArg (Fire Tv d (cV L) (jV L) (roOf s) q) (show 16 * k.val + 3 + 1 = 16 * k.val + 4 from rfl))) $$ HF
  -- lane 4
  have hw4 : extractAt ![0] (k1_pay6 (k1_pay1 v9)) inpos_S1_p0 = s (ix1 ⟨16 * k.val + 4, by omega⟩) := (lane_pay6_of v9).trans (hv (4 : Fin 16))
  rw [wp_assume_of _ _ _ _ (show k1_chk5 (extractAt ![0] (k1_pay6 (k1_pay1 v9)) inpos_S1_p0) from chk_of _ (by rw [hw4]; exact hlt _))]
  iapply (issue_lane Tv d (cV L) (jV L) q s hlt _ (16 * k.val + 4) (by omega) _ _ (16 * k.val + 0 + 4) (k1_off13_eq k ⟨0, by decide⟩) (by omega) _ hw4 _ _ rfl _ _ _) $$ HF
  iintro HF
  ihave HF := (Entails.of_eq (congrArg (Fire Tv d (cV L) (jV L) (roOf s) q) (show 16 * k.val + 4 + 1 = 16 * k.val + 5 from rfl))) $$ HF
  -- lane 5
  have hw5 : extractAt ![0] (k1_pay7 (k1_pay1 v9)) inpos_S1_p0 = s (ix1 ⟨16 * k.val + 5, by omega⟩) := (lane_pay7_of v9).trans (hv (5 : Fin 16))
  rw [wp_assume_of _ _ _ _ (show k1_chk6 (extractAt ![0] (k1_pay7 (k1_pay1 v9)) inpos_S1_p0) from chk_of _ (by rw [hw5]; exact hlt _))]
  iapply (issue_lane Tv d (cV L) (jV L) q s hlt _ (16 * k.val + 5) (by omega) _ _ (16 * k.val + 0 + 5) (k1_off15_eq k ⟨0, by decide⟩) (by omega) _ hw5 _ _ rfl _ _ _) $$ HF
  iintro HF
  ihave HF := (Entails.of_eq (congrArg (Fire Tv d (cV L) (jV L) (roOf s) q) (show 16 * k.val + 5 + 1 = 16 * k.val + 6 from rfl))) $$ HF
  -- lane 6
  have hw6 : extractAt ![0] (k1_pay8 (k1_pay1 v9)) inpos_S1_p0 = s (ix1 ⟨16 * k.val + 6, by omega⟩) := (lane_pay8_of v9).trans (hv (6 : Fin 16))
  rw [wp_assume_of _ _ _ _ (show k1_chk7 (extractAt ![0] (k1_pay8 (k1_pay1 v9)) inpos_S1_p0) from chk_of _ (by rw [hw6]; exact hlt _))]
  iapply (issue_lane Tv d (cV L) (jV L) q s hlt _ (16 * k.val + 6) (by omega) _ _ (16 * k.val + 0 + 6) (k1_off17_eq k ⟨0, by decide⟩) (by omega) _ hw6 _ _ rfl _ _ _) $$ HF
  iintro HF
  ihave HF := (Entails.of_eq (congrArg (Fire Tv d (cV L) (jV L) (roOf s) q) (show 16 * k.val + 6 + 1 = 16 * k.val + 7 from rfl))) $$ HF
  -- lane 7
  have hw7 : extractAt ![0] (k1_pay9 (k1_pay1 v9)) inpos_S1_p0 = s (ix1 ⟨16 * k.val + 7, by omega⟩) := (lane_pay9_of v9).trans (hv (7 : Fin 16))
  rw [wp_assume_of _ _ _ _ (show k1_chk8 (extractAt ![0] (k1_pay9 (k1_pay1 v9)) inpos_S1_p0) from chk_of _ (by rw [hw7]; exact hlt _))]
  iapply (issue_lane Tv d (cV L) (jV L) q s hlt _ (16 * k.val + 7) (by omega) _ _ (16 * k.val + 0 + 7) (k1_off19_eq k ⟨0, by decide⟩) (by omega) _ hw7 _ _ rfl _ _ _) $$ HF
  iintro HF
  ihave HF := (Entails.of_eq (congrArg (Fire Tv d (cV L) (jV L) (roOf s) q) (show 16 * k.val + 7 + 1 = 16 * k.val + 8 from rfl))) $$ HF
  -- lane 8
  have hw8 : extractAt ![0] (k1_pay10 (k1_pay1 v9)) inpos_S1_p0 = s (ix1 ⟨16 * k.val + 8, by omega⟩) := (lane_pay10_of v9).trans (hv (8 : Fin 16))
  rw [wp_assume_of _ _ _ _ (show k1_chk9 (extractAt ![0] (k1_pay10 (k1_pay1 v9)) inpos_S1_p0) from chk_of _ (by rw [hw8]; exact hlt _))]
  iapply (issue_lane Tv d (cV L) (jV L) q s hlt _ (16 * k.val + 8) (by omega) _ _ (16 * k.val + 0 + 8) (k1_off21_eq k ⟨0, by decide⟩) (by omega) _ hw8 _ _ rfl _ _ _) $$ HF
  iintro HF
  ihave HF := (Entails.of_eq (congrArg (Fire Tv d (cV L) (jV L) (roOf s) q) (show 16 * k.val + 8 + 1 = 16 * k.val + 9 from rfl))) $$ HF
  -- lane 9
  have hw9 : extractAt ![0] (k1_pay11 (k1_pay1 v9)) inpos_S1_p0 = s (ix1 ⟨16 * k.val + 9, by omega⟩) := (lane_pay11_of v9).trans (hv (9 : Fin 16))
  rw [wp_assume_of _ _ _ _ (show k1_chk10 (extractAt ![0] (k1_pay11 (k1_pay1 v9)) inpos_S1_p0) from chk_of _ (by rw [hw9]; exact hlt _))]
  iapply (issue_lane Tv d (cV L) (jV L) q s hlt _ (16 * k.val + 9) (by omega) _ _ (16 * k.val + 0 + 9) (k1_off23_eq k ⟨0, by decide⟩) (by omega) _ hw9 _ _ rfl _ _ _) $$ HF
  iintro HF
  ihave HF := (Entails.of_eq (congrArg (Fire Tv d (cV L) (jV L) (roOf s) q) (show 16 * k.val + 9 + 1 = 16 * k.val + 10 from rfl))) $$ HF
  -- lane 10
  have hw10 : extractAt ![0] (k1_pay12 (k1_pay1 v9)) inpos_S1_p0 = s (ix1 ⟨16 * k.val + 10, by omega⟩) := (lane_pay12_of v9).trans (hv (10 : Fin 16))
  rw [wp_assume_of _ _ _ _ (show k1_chk11 (extractAt ![0] (k1_pay12 (k1_pay1 v9)) inpos_S1_p0) from chk_of _ (by rw [hw10]; exact hlt _))]
  iapply (issue_lane Tv d (cV L) (jV L) q s hlt _ (16 * k.val + 10) (by omega) _ _ (16 * k.val + 0 + 10) (k1_off25_eq k ⟨0, by decide⟩) (by omega) _ hw10 _ _ rfl _ _ _) $$ HF
  iintro HF
  ihave HF := (Entails.of_eq (congrArg (Fire Tv d (cV L) (jV L) (roOf s) q) (show 16 * k.val + 10 + 1 = 16 * k.val + 11 from rfl))) $$ HF
  -- lane 11
  have hw11 : extractAt ![0] (k1_pay13 (k1_pay1 v9)) inpos_S1_p0 = s (ix1 ⟨16 * k.val + 11, by omega⟩) := (lane_pay13_of v9).trans (hv (11 : Fin 16))
  rw [wp_assume_of _ _ _ _ (show k1_chk12 (extractAt ![0] (k1_pay13 (k1_pay1 v9)) inpos_S1_p0) from chk_of _ (by rw [hw11]; exact hlt _))]
  iapply (issue_lane Tv d (cV L) (jV L) q s hlt _ (16 * k.val + 11) (by omega) _ _ (16 * k.val + 0 + 11) (k1_off27_eq k ⟨0, by decide⟩) (by omega) _ hw11 _ _ rfl _ _ _) $$ HF
  iintro HF
  ihave HF := (Entails.of_eq (congrArg (Fire Tv d (cV L) (jV L) (roOf s) q) (show 16 * k.val + 11 + 1 = 16 * k.val + 12 from rfl))) $$ HF
  -- lane 12
  have hw12 : extractAt ![0] (k1_pay14 (k1_pay1 v9)) inpos_S1_p0 = s (ix1 ⟨16 * k.val + 12, by omega⟩) := (lane_pay14_of v9).trans (hv (12 : Fin 16))
  rw [wp_assume_of _ _ _ _ (show k1_chk13 (extractAt ![0] (k1_pay14 (k1_pay1 v9)) inpos_S1_p0) from chk_of _ (by rw [hw12]; exact hlt _))]
  iapply (issue_lane Tv d (cV L) (jV L) q s hlt _ (16 * k.val + 12) (by omega) _ _ (16 * k.val + 0 + 12) (k1_off29_eq k ⟨0, by decide⟩) (by omega) _ hw12 _ _ rfl _ _ _) $$ HF
  iintro HF
  ihave HF := (Entails.of_eq (congrArg (Fire Tv d (cV L) (jV L) (roOf s) q) (show 16 * k.val + 12 + 1 = 16 * k.val + 13 from rfl))) $$ HF
  -- lane 13
  have hw13 : extractAt ![0] (k1_pay15 (k1_pay1 v9)) inpos_S1_p0 = s (ix1 ⟨16 * k.val + 13, by omega⟩) := (lane_pay15_of v9).trans (hv (13 : Fin 16))
  rw [wp_assume_of _ _ _ _ (show k1_chk14 (extractAt ![0] (k1_pay15 (k1_pay1 v9)) inpos_S1_p0) from chk_of _ (by rw [hw13]; exact hlt _))]
  iapply (issue_lane Tv d (cV L) (jV L) q s hlt _ (16 * k.val + 13) (by omega) _ _ (16 * k.val + 0 + 13) (k1_off31_eq k ⟨0, by decide⟩) (by omega) _ hw13 _ _ rfl _ _ _) $$ HF
  iintro HF
  ihave HF := (Entails.of_eq (congrArg (Fire Tv d (cV L) (jV L) (roOf s) q) (show 16 * k.val + 13 + 1 = 16 * k.val + 14 from rfl))) $$ HF
  -- lane 14
  have hw14 : extractAt ![0] (k1_pay16 (k1_pay1 v9)) inpos_S1_p0 = s (ix1 ⟨16 * k.val + 14, by omega⟩) := (lane_pay16_of v9).trans (hv (14 : Fin 16))
  rw [wp_assume_of _ _ _ _ (show k1_chk15 (extractAt ![0] (k1_pay16 (k1_pay1 v9)) inpos_S1_p0) from chk_of _ (by rw [hw14]; exact hlt _))]
  iapply (issue_lane Tv d (cV L) (jV L) q s hlt _ (16 * k.val + 14) (by omega) _ _ (16 * k.val + 0 + 14) (k1_off33_eq k ⟨0, by decide⟩) (by omega) _ hw14 _ _ rfl _ _ _) $$ HF
  iintro HF
  ihave HF := (Entails.of_eq (congrArg (Fire Tv d (cV L) (jV L) (roOf s) q) (show 16 * k.val + 14 + 1 = 16 * k.val + 15 from rfl))) $$ HF
  -- lane 15
  have hw15 : extractAt ![0] (k1_pay33 (k1_pay1 v9)) inpos_S1_p0 = s (ix1 ⟨16 * k.val + 15, by omega⟩) := (lane_pay33_of v9).trans (hv (15 : Fin 16))
  rw [wp_assume_of _ _ _ _ (show k1_chk16 (extractAt ![0] (k1_pay33 (k1_pay1 v9)) inpos_S1_p0) from chk_of _ (by rw [hw15]; exact hlt _))]
  iapply (issue_lane Tv d (cV L) (jV L) q s hlt _ (16 * k.val + 15) (by omega) _ _ (16 * k.val + 15) (k1_off35_eq k) (by omega) _ hw15 _ _ rfl _ _ _) $$ HF
  iintro HF
  rw [wp_ret]; imodintro
  isplitl [Hs]; · iexact Hs
  ihave HF := (Entails.of_eq (congrArg (Fire Tv d (cV L) (jV L) (roOf s) q) (show 16 * k.val + 15 + 1 = 16 * (k.val + 1) by omega))) $$ HF
  iexact HF

end RegionU

end Cert.Proof.KI

end
-- ==== Proof.ScRegionI.lean ====
/-
  One trip of the item side's firing loop (as the user side's, over the item index scratch), and one trip of either
  side's waiting loop: one wait of one row's amount, the waits recorded.
-/
import proofs.«212231_g88622355185883_cont_sun_m_1073_38_alg».proof.Proof.ScFire
import proofs.«212231_g88622355185883_cont_sun_m_1073_38_alg».proof.Proof.ScLane
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)
open Idealize.ShloMosaic.Transfers (pending issued Batch MayWaits)
open Idealize.ShloMosaic.Tactic

variable (Tv : (d : Dev nD) → Buf (Elt F) (tLoc d))

section RegionI

variable (d : Dev nD) (L : grid1.Coords) (q : PosShare TreeShare) (s : S512.Idx → BitVec 32)
variable [FloatOps F]

/-- Before trip `k` of the item side's firing loop: the index scratch, and the batch with `16 k` copies issued. -/
def invFireI (k : ℕ) (_ : Unit) : sProp 𝕄 :=
  iprop(((sI : Memref sig .scVector .vmem S512 .i32).view.loc (V d (cV L) (jV L)) ↦{fullShare} s)
    ∗ Fire Tv d (cV L) (jV L) (roOf s) q (16 * k))

theorem trips3 : k1_t3_loop.trips = 32 := by decide

theorem fire_regionI (hlt : ∀ j : Fin 512, (s (ix1 j)).toNat < 1000000) (k : Fin k1_t3_loop.trips) (acc : Unit) :
    invFireI Tv d L q s k.val acc
      ⊢ wp frame (wpE (defs₀ (F := F)) 𝒱₀ (V d (cV L) (jV L)) none) Set.univ
          (k1_t3_body L uV (Memref.isWhole_whole _) iV (Memref.isWhole_whole _) tabV (Memref.isWhole_whole _) ouV (Memref.isWhole_whole _) oiV (Memref.isWhole_whole _)
            sU (Memref.isWhole_whole _) sI (Memref.isWhole_whole _) rowsV (Memref.isWhole_whole _) cc1_scratch3 cc1_scoped0 cc1_scoped1 cc1_scoped2 cc1_scoped3 k acc)
          (invFireI Tv d L q s (k.val + 1)) := by
  have hk : k.val < 32 := lt_of_lt_of_eq k.isLt trips3
  unfold invFireI
  iintro ⟨Hs, HF⟩
  unfold k1_t3_body
  simp only [k1_part6_eq_skeleton, k1_part7_eq_skeleton, k1_part8_eq_skeleton, k1_part9_eq_skeleton, k1_part10_eq_skeleton]
  unfold k1_part6_skel k1_part7_skel k1_part8_skel k1_part9_skel k1_part10_skel
  simp only [Prog.lift, Prog.bind_op, Prog.bind_ret, Prog.pure_eq_ret]
  iapply (wp_load 𝒱₀ (V d (cV L) (jV L)) none Set.univ (m := (sI : Memref sig .scVector .vmem S512 .i32)) (S := Finset.univ) (Finset.subset_univ _)) $$ Hs; iintro Hs
  have hv : ∀ l : Fin 16, (sI : Memref sig .scVector .vmem S512 .i32).view.readAt (Elt F) (Rect.unit (s := S512) (k1_off37 k) S16.size (k1_off37_inb k)).toLoadRect s (ix1 l)
      = s (ix1 ⟨16 * k.val + l.val, by have := l.isLt; omega⟩) :=
    fun l => lane_valI s (k1_off37 k) (k1_off37_inb k) k.val (k1_off37_eq k) l (by have := l.isLt; omega)
  generalize (sI : Memref sig .scVector .vmem S512 .i32).view.readAt (Elt F) (Rect.unit (s := S512) (k1_off37 k) S16.size (k1_off37_inb k)).toLoadRect s = v9 at hv ⊢
  ihave HF := (Entails.of_eq (congrArg (Fire Tv d (cV L) (jV L) (roOf s) q) (show 16 * k.val = 16 * k.val + 0 from rfl))) $$ HF
  -- lane 0
  have hw0 : extractAt ![0] (k1_pay18 v9) inpos_S1_p0 = s (ix1 ⟨16 * k.val + 0, by omega⟩) := (lane_pay18 v9).trans (hv (0 : Fin 16))
  rw [wp_assume_of _ _ _ _ (show k1_chk17 (extractAt ![0] (k1_pay18 v9) inpos_S1_p0) from chk_of _ (by rw [hw0]; exact hlt _))]
  iapply (issue_lane Tv d (cV L) (jV L) q s hlt _ (16 * k.val + 0) (by omega) _ _ (16 * k.val + 0) (k1_off40_eq k ⟨0, by decide⟩) (by omega) _ hw0 _ _ rfl _ _ _) $$ HF
  iintro HF
  ihave HF := (Entails.of_eq (congrArg (Fire Tv d (cV L) (jV L) (roOf s) q) (show 16 * k.val + 0 + 1 = 16 * k.val + 1 from rfl))) $$ HF
  -- lane 1
  have hw1 : extractAt ![0] (k1_pay19 v9) inpos_S1_p0 = s (ix1 ⟨16 * k.val + 1, by omega⟩) := (lane_pay19 v9).trans (hv (1 : Fin 16))
  rw [wp_assume_of _ _ _ _ (show k1_chk18 (extractAt ![0] (k1_pay19 v9) inpos_S1_p0) from chk_of _ (by rw [hw1]; exact hlt _))]
  iapply (issue_lane Tv d (cV L) (jV L) q s hlt _ (16 * k.val + 1) (by omega) _ _ (16 * k.val + 0 + 1) (k1_off42_eq k ⟨0, by decide⟩) (by omega) _ hw1 _ _ rfl _ _ _) $$ HF
  iintro HF
  ihave HF := (Entails.of_eq (congrArg (Fire Tv d (cV L) (jV L) (roOf s) q) (show 16 * k.val + 1 + 1 = 16 * k.val + 2 from rfl))) $$ HF
  -- lane 2
  have hw2 : extractAt ![0] (k1_pay20 v9) inpos_S1_p0 = s (ix1 ⟨16 * k.val + 2, by omega⟩) := (lane_pay20 v9).trans (hv (2 : Fin 16))
  rw [wp_assume_of _ _ _ _ (show k1_chk19 (extractAt ![0] (k1_pay20 v9) inpos_S1_p0) from chk_of _ (by rw [hw2]; exact hlt _))]
  iapply (issue_lane Tv d (cV L) (jV L) q s hlt _ (16 * k.val + 2) (by omega) _ _ (16 * k.val + 0 + 2) (k1_off44_eq k ⟨0, by decide⟩) (by omega) _ hw2 _ _ rfl _ _ _) $$ HF
  iintro HF
  ihave HF := (Entails.of_eq (congrArg (Fire Tv d (cV L) (jV L) (roOf s) q) (show 16 * k.val + 2 + 1 = 16 * k.val + 3 from rfl))) $$ HF
  -- lane 3
  have hw3 : extractAt ![0] (k1_pay21 (k1_pay17 v9)) inpos_S1_p0 = s (ix1 ⟨16 * k.val + 3, by omega⟩) := (lane_pay21_of v9).trans (hv (3 : Fin 16))
  rw [wp_assume_of _ _ _ _ (show k1_chk20 (extractAt ![0] (k1_pay21 (k1_pay17 v9)) inpos_S1_p0) from chk_of _ (by rw [hw3]; exact hlt _))]
  iapply (issue_lane Tv d (cV L) (jV L) q s hlt _ (16 * k.val + 3) (by omega) _ _ (16 * k.val + 0 + 3) (k1_off46_eq k ⟨0, by decide⟩) (by omega) _ hw3 _ _ rfl _ _ _) $$ HF
  iintro HF
  ihave HF := (Entails.of_eq (congrArg (Fire Tv d (cV L) (jV L) (roOf s) q) (show 16 * k.val + 3 + 1 = 16 * k.val + 4 from rfl))) $$ HF
  -- lane 4
  have hw4 : extractAt ![0] (k1_pay22 (k1_pay17 v9)) inpos_S1_p0 = s (ix1 ⟨16 * k.val + 4, by omega⟩) := (lane_pay22_of v9).trans (hv (4 : Fin 16))
  rw [wp_assume_of _ _ _ _ (show k1_chk21 (extractAt ![0] (k1_pay22 (k1_pay17 v9)) inpos_S1_p0) from chk_of _ (by rw [hw4]; exact hlt _))]
  iapply (issue_lane Tv d (cV L) (jV L) q s hlt _ (16 * k.val + 4) (by omega) _ _ (16 * k.val + 0 + 4) (k1_off48_eq k ⟨0, by decide⟩) (by omega) _ hw4 _ _ rfl _ _ _) $$ HF
  iintro HF
  ihave HF := (Entails.of_eq (congrArg (Fire Tv d (cV L) (jV L) (roOf s) q) (show 16 * k.val + 4 + 1 = 16 * k.val + 5 from rfl))) $$ HF
  -- lane 5
  have hw5 : extractAt ![0] (k1_pay23 (k1_pay17 v9)) inpos_S1_p0 = s (ix1 ⟨16 * k.val + 5, by omega⟩) := (lane_pay23_of v9).trans (hv (5 : Fin 16))
  rw [wp_assume_of _ _ _ _ (show k1_chk22 (extractAt ![0] (k1_pay23 (k1_pay17 v9)) inpos_S1_p0) from chk_of _ (by rw [hw5]; exact hlt _))]
  iapply (issue_lane Tv d (cV L) (jV L) q s hlt _ (16 * k.val + 5) (by omega) _ _ (16 * k.val + 0 + 5) (k1_off50_eq k ⟨0, by decide⟩) (by omega) _ hw5 _ _ rfl _ _ _) $$ HF
  iintro HF
  ihave HF := (Entails.of_eq (congrArg (Fire Tv d (cV L) (jV L) (roOf s) q) (show 16 * k.val + 5 + 1 = 16 * k.val + 6 from rfl))) $$ HF
  -- lane 6
  have hw6 : extractAt ![0] (k1_pay24 (k1_pay17 v9)) inpos_S1_p0 = s (ix1 ⟨16 * k.val + 6, by omega⟩) := (lane_pay24_of v9).trans (hv (6 : Fin 16))
  rw [wp_assume_of _ _ _ _ (show k1_chk23 (extractAt ![0] (k1_pay24 (k1_pay17 v9)) inpos_S1_p0) from chk_of _ (by rw [hw6]; exact hlt _))]
  iapply (issue_lane Tv d (cV L) (jV L) q s hlt _ (16 * k.val + 6) (by omega) _ _ (16 * k.val + 0 + 6) (k1_off52_eq k ⟨0, by decide⟩) (by omega) _ hw6 _ _ rfl _ _ _) $$ HF
  iintro HF
  ihave HF := (Entails.of_eq (congrArg (Fire Tv d (cV L) (jV L) (roOf s) q) (show 16 * k.val + 6 + 1 = 16 * k.val + 7 from rfl))) $$ HF
  -- lane 7
  have hw7 : extractAt ![0] (k1_pay25 (k1_pay17 v9)) inpos_S1_p0 = s (ix1 ⟨16 * k.val + 7, by omega⟩) := (lane_pay25_of v9).trans (hv (7 : Fin 16))
  rw [wp_assume_of _ _ _ _ (show k1_chk24 (extractAt ![0] (k1_pay25 (k1_pay17 v9)) inpos_S1_p0) from chk_of _ (by rw [hw7]; exact hlt _))]
  iapply (issue_lane Tv d (cV L) (jV L) q s hlt _ (16 * k.val + 7) (by omega) _ _ (16 * k.val + 0 + 7) (k1_off54_eq k ⟨0, by decide⟩) (by omega) _ hw7 _ _ rfl _ _ _) $$ HF
  iintro HF
  ihave HF := (Entails.of_eq (congrArg (Fire Tv d (cV L) (jV L) (roOf s) q) (show 16 * k.val + 7 + 1 = 16 * k.val + 8 from rfl))) $$ HF
  -- lane 8
  have hw8 : extractAt ![0] (k1_pay26 (k1_pay17 v9)) inpos_S1_p0 = s (ix1 ⟨16 * k.val + 8, by omega⟩) := (lane_pay26_of v9).trans (hv (8 : Fin 16))
  rw [wp_assume_of _ _ _ _ (show k1_chk25 (extractAt ![0] (k1_pay26 (k1_pay17 v9)) inpos_S1_p0) from chk_of _ (by rw [hw8]; exact hlt _))]
  iapply (issue_lane Tv d (cV L) (jV L) q s hlt _ (16 * k.val + 8) (by omega) _ _ (16 * k.val + 0 + 8) (k1_off56_eq k ⟨0, by decide⟩) (by omega) _ hw8 _ _ rfl _ _ _) $$ HF
  iintro HF
  ihave HF := (Entails.of_eq (congrArg (Fire Tv d (cV L) (jV L) (roOf s) q) (show 16 * k.val + 8 + 1 = 16 * k.val + 9 from rfl))) $$ HF
  -- lane 9
  have hw9 : extractAt ![0] (k1_pay27 (k1_pay17 v9)) inpos_S1_p0 = s (ix1 ⟨16 * k.val + 9, by omega⟩) := (lane_pay27_of v9).trans (hv (9 : Fin 16))
  rw [wp_assume_of _ _ _ _ (show k1_chk26 (extractAt ![0] (k1_pay27 (k1_pay17 v9)) inpos_S1_p0) from chk_of _ (by rw [hw9]; exact hlt _))]
  iapply (issue_lane Tv d (cV L) (jV L) q s hlt _ (16 * k.val + 9) (by omega) _ _ (16 * k.val + 0 + 9) (k1_off58_eq k ⟨0, by decide⟩) (by omega) _ hw9 _ _ rfl _ _ _) $$ HF
  iintro HF
  ihave HF := (Entails.of_eq (congrArg (Fire Tv d (cV L) (jV L) (roOf s) q) (show 16 * k.val + 9 + 1 = 16 * k.val + 10 from rfl))) $$ HF
  -- lane 10
  have hw10 : extractAt ![0] (k1_pay28 (k1_pay17 v9)) inpos_S1_p0 = s (ix1 ⟨16 * k.val + 10, by omega⟩) := (lane_pay28_of v9).trans (hv (10 : Fin 16))
  rw [wp_assume_of _ _ _ _ (show k1_chk27 (extractAt ![0] (k1_pay28 (k1_pay17 v9)) inpos_S1_p0) from chk_of _ (by rw [hw10]; exact hlt _))]
  iapply (issue_lane Tv d (cV L) (jV L) q s hlt _ (16 * k.val + 10) (by omega) _ _ (16 * k.val + 0 + 10) (k1_off60_eq k ⟨0, by decide⟩) (by omega) _ hw10 _ _ rfl _ _ _) $$ HF
  iintro HF
  ihave HF := (Entails.of_eq (congrArg (Fire Tv d (cV L) (jV L) (roOf s) q) (show 16 * k.val + 10 + 1 = 16 * k.val + 11 from rfl))) $$ HF
  -- lane 11
  have hw11 : extractAt ![0] (k1_pay29 (k1_pay17 v9)) inpos_S1_p0 = s (ix1 ⟨16 * k.val + 11, by omega⟩) := (lane_pay29_of v9).trans (hv (11 : Fin 16))
  rw [wp_assume_of _ _ _ _ (show k1_chk28 (extractAt ![0] (k1_pay29 (k1_pay17 v9)) inpos_S1_p0) from chk_of _ (by rw [hw11]; exact hlt _))]
  iapply (issue_lane Tv d (cV L) (jV L) q s hlt _ (16 * k.val + 11) (by omega) _ _ (16 * k.val + 0 + 11) (k1_off62_eq k ⟨0, by decide⟩) (by omega) _ hw11 _ _ rfl _ _ _) $$ HF
  iintro HF
  ihave HF := (Entails.of_eq (congrArg (Fire Tv d (cV L) (jV L) (roOf s) q) (show 16 * k.val + 11 + 1 = 16 * k.val + 12 from rfl))) $$ HF
  -- lane 12
  have hw12 : extractAt ![0] (k1_pay30 (k1_pay17 v9)) inpos_S1_p0 = s (ix1 ⟨16 * k.val + 12, by omega⟩) := (lane_pay30_of v9).trans (hv (12 : Fin 16))
  rw [wp_assume_of _ _ _ _ (show k1_chk29 (extractAt ![0] (k1_pay30 (k1_pay17 v9)) inpos_S1_p0) from chk_of _ (by rw [hw12]; exact hlt _))]
  iapply (issue_lane Tv d (cV L) (jV L) q s hlt _ (16 * k.val + 12) (by omega) _ _ (16 * k.val + 0 + 12) (k1_off64_eq k ⟨0, by decide⟩) (by omega) _ hw12 _ _ rfl _ _ _) $$ HF
  iintro HF
  ihave HF := (Entails.of_eq (congrArg (Fire Tv d (cV L) (jV L) (roOf s) q) (show 16 * k.val + 12 + 1 = 16 * k.val + 13 from rfl))) $$ HF
  -- lane 13
  have hw13 : extractAt ![0] (k1_pay31 (k1_pay17 v9)) inpos_S1_p0 = s (ix1 ⟨16 * k.val + 13, by omega⟩) := (lane_pay31_of v9).trans (hv (13 : Fin 16))
  rw [wp_assume_of _ _ _ _ (show k1_chk30 (extractAt ![0] (k1_pay31 (k1_pay17 v9)) inpos_S1_p0) from chk_of _ (by rw [hw13]; exact hlt _))]
  iapply (issue_lane Tv d (cV L) (jV L) q s hlt _ (16 * k.val + 13) (by omega) _ _ (16 * k.val + 0 + 13) (k1_off66_eq k ⟨0, by decide⟩) (by omega) _ hw13 _ _ rfl _ _ _) $$ HF
  iintro HF
  ihave HF := (Entails.of_eq (congrArg (Fire Tv d (cV L) (jV L) (roOf s) q) (show 16 * k.val + 13 + 1 = 16 * k.val + 14 from rfl))) $$ HF
  -- lane 14
  have hw14 : extractAt ![0] (k1_pay32 (k1_pay17 v9)) inpos_S1_p0 = s (ix1 ⟨16 * k.val + 14, by omega⟩) := (lane_pay32_of v9).trans (hv (14 : Fin 16))
  rw [wp_assume_of _ _ _ _ (show k1_chk31 (extractAt ![0] (k1_pay32 (k1_pay17 v9)) inpos_S1_p0) from chk_of _ (by rw [hw14]; exact hlt _))]
  iapply (issue_lane Tv d (cV L) (jV L) q s hlt _ (16 * k.val + 14) (by omega) _ _ (16 * k.val + 0 + 14) (k1_off68_eq k ⟨0, by decide⟩) (by omega) _ hw14 _ _ rfl _ _ _) $$ HF
  iintro HF
  ihave HF := (Entails.of_eq (congrArg (Fire Tv d (cV L) (jV L) (roOf s) q) (show 16 * k.val + 14 + 1 = 16 * k.val + 15 from rfl))) $$ HF
  -- lane 15
  have hw15 : extractAt ![0] (k1_pay34 (k1_pay17 v9)) inpos_S1_p0 = s (ix1 ⟨16 * k.val + 15, by omega⟩) := (lane_pay34_of v9).trans (hv (15 : Fin 16))
  rw [wp_assume_of _ _ _ _ (show k1_chk32 (extractAt ![0] (k1_pay34 (k1_pay17 v9)) inpos_S1_p0) from chk_of _ (by rw [hw15]; exact hlt _))]
  iapply (issue_lane Tv d (cV L) (jV L) q s hlt _ (16 * k.val + 15) (by omega) _ _ (16 * k.val + 15) (k1_off70_eq k) (by omega) _ hw15 _ _ rfl _ _ _) $$ HF
  iintro HF
  rw [wp_ret]; imodintro
  isplitl [Hs]; · iexact Hs
  ihave HF := (Entails.of_eq (congrArg (Fire Tv d (cV L) (jV L) (roOf s) q) (show 16 * k.val + 15 + 1 = 16 * (k.val + 1) by omega))) $$ HF
  iexact HF

end RegionI

section RegionW

variable (d : Dev nD) (L : grid1.Coords) (q : PosShare TreeShare) (ro : Fin 512 → Fin 1000000)
variable (O : CellTallies nD τ sig (HIx 1)) (W : Waits sig (HIx 1))
variable [FloatOps F]

/-- Before wait `k` of a draining loop: the batch with `k` rows' amounts consumed, the waits recorded so far. -/
def invWait (k : ℕ) (_ : Unit) : sProp 𝕄 :=
  iprop(MayWaits (V d (cV L) (jV L)) none O ∗ Drain Tv d (cV L) (jV L) ro q k
    ∗ ∃ W', ⌜∀ p ∈ W', p ∈ W ∨ p.2 = none⌝ ∗ owes (V d (cV L) (jV L)) O W')

theorem trips2 : k1_t2_loop.trips = 512 := by decide
theorem trips4 : k1_t4_loop.trips = 512 := by decide

theorem wait_regionU (k : Fin k1_t2_loop.trips) (acc : Unit) :
    invWait Tv d L q ro O W k.val acc
      ⊢ wp frame (wpE (defs₀ (F := F)) 𝒱₀ (V d (cV L) (jV L)) none) Set.univ
          (k1_t2_body L uV (Memref.isWhole_whole _) iV (Memref.isWhole_whole _) tabV (Memref.isWhole_whole _) ouV (Memref.isWhole_whole _) oiV (Memref.isWhole_whole _)
            sU (Memref.isWhole_whole _) sI (Memref.isWhole_whole _) rowsV (Memref.isWhole_whole _) cc1_scratch3 cc1_scoped0 cc1_scoped1 cc1_scoped2 cc1_scoped3 k acc)
          (invWait Tv d L q ro O W (k.val + 1)) := by
  have hk : k.val < 512 := lt_of_lt_of_eq k.isLt trips2
  unfold invWait
  iintro ⟨#Hmw, HD, %W', %hW', HO⟩
  unfold k1_t2_body
  simp only [Prog.lift, Prog.bind_op, Prog.bind_ret, Prog.pure_eq_ret]
  iapply (wait_step Tv d (cV L) (jV L) ro q _ k.val hk O W' _ _) $$ [HD HO]
  · isplitl [HD]; · iexact HD
    isplitl [HO]; · iexact HO
    iexact Hmw
  iintro ⟨HD, HO⟩
  rw [wp_ret]; imodintro
  isplitr; · iexact Hmw
  isplitl [HD]; · iexact HD
  iexists (insert (SemLoc.dma semB, none) W'); isplitr
  · ipureintro; intro p hp
    rcases Finset.mem_insert.mp hp with rfl | hp
    · exact .inr rfl
    · exact hW' p hp
  iexact HO

theorem wait_regionI (k : Fin k1_t4_loop.trips) (acc : Unit) :
    invWait Tv d L q ro O W k.val acc
      ⊢ wp frame (wpE (defs₀ (F := F)) 𝒱₀ (V d (cV L) (jV L)) none) Set.univ
          (k1_t4_body L uV (Memref.isWhole_whole _) iV (Memref.isWhole_whole _) tabV (Memref.isWhole_whole _) ouV (Memref.isWhole_whole _) oiV (Memref.isWhole_whole _)
            sU (Memref.isWhole_whole _) sI (Memref.isWhole_whole _) rowsV (Memref.isWhole_whole _) cc1_scratch3 cc1_scoped0 cc1_scoped1 cc1_scoped2 cc1_scoped3 k acc)
          (invWait Tv d L q ro O W (k.val + 1)) := by
  have hk : k.val < 512 := lt_of_lt_of_eq k.isLt trips4
  unfold invWait
  iintro ⟨#Hmw, HD, %W', %hW', HO⟩
  unfold k1_t4_body
  simp only [Prog.lift, Prog.bind_op, Prog.bind_ret, Prog.pure_eq_ret]
  iapply (wait_step Tv d (cV L) (jV L) ro q _ k.val hk O W' _ _) $$ [HD HO]
  · isplitl [HD]; · iexact HD
    isplitl [HO]; · iexact HO
    iexact Hmw
  iintro ⟨HD, HO⟩
  rw [wp_ret]; imodintro
  isplitr; · iexact Hmw
  isplitl [HD]; · iexact HD
  iexists (insert (SemLoc.dma semB, none) W'); isplitr
  · ipureintro; intro p hp
    rcases Finset.mem_insert.mp hp with rfl | hp
    · exact .inr rfl
    · exact hW' p hp
  iexact HO

end RegionW

end Cert.Proof.KI

end
-- ==== Proof.ScJoin.lean ====
/-
  The row batch's two ends.

  Before the first copy is issued the task holds the table at its read share and the row scratch whole: that is
  512 read shares of the table, one per copy, and the scratch's 512 rows one by one. After the last copy is issued
  nothing is pending. After the last wait every copy has delivered its row of the scratch, landed, and its share
  of the table's row: the rows join into the scratch whole at the landed contents, and each share's row rejoins
  what was left of the share, the 512 shares joining into the table at the task's read share again.
-/
import proofs.«212231_g88622355185883_cont_sun_m_1073_38_alg».proof.Proof.ScFire

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)
open Idealize.ShloMosaic.Transfers (pending issued Batch MayWaits)

variable (Tv : (d : Dev nD) → Buf (Elt F) (tLoc d))
variable (d : Dev nD) (c : Fin τ.nSC) (i : Fin τ.nSub) (ro : Fin 512 → Fin 1000000) (q : PosShare TreeShare)

/-- The row scratch whole is its 512 rows. -/
theorem rows_parts (f : Buf (Elt F) (rowsLoc d c i)) :
    (rowsLoc d c i ↦{fullShare} f : sProp 𝕄) = bigSep Finset.univ fun u : Fin 512 => rowsLoc d c i ↦[rowSetS u]{fullShare} f := by
  rw [← pointsTo_biUnion Finset.univ (ℓ := rowsLoc d c i) rowSetS rowSetS_disjoint, rowSetS_cover]; try rfl

/-- The table at the share `q` is its 512 pieces. -/
theorem table_pieces :
    (tLoc d ↦{q} Tv d : sProp 𝕄) = bigSep Finset.univ fun u : Fin 512 => tLoc d ↦{piece q 512 u} Tv d :=
  pointsTo_pieces (F := F) q (n := 512) (by decide)

/-- Nothing issued yet: the table's read share as its 512 pieces, the scratch as its 512 rows, the batch at zero. -/
theorem fire_init (f : Buf (Elt F) (rowsLoc d c i)) :
    iprop((tLoc d ↦{q} Tv d) ∗ (rowsLoc d c i ↦{fullShare} f) ∗ Batch countersEmb (V d c i) (.dma semB) none NR (Dl Tv d c i ro q) 0 0)
      ⊢ Fire Tv d c i ro q 0 := by
  have hex : (bigSep Finset.univ fun u : Fin 512 => (rowsLoc d c i ↦[rowSetS u]{fullShare} f : sProp 𝕄))
      ⊢ bigSep Finset.univ fun u : Fin 512 => iprop(∃ g, rowsLoc d c i ↦[rowSetS u]{fullShare} g) :=
    bigSep_mono fun u _ => pts_ex f
  unfold Fire
  rw [Transfers.pending_zero, Transfers.issued_zero, BI.bigSep_empty]
  iintro ⟨Ht, Hr, HB⟩
  isplitl [Ht]
  · iapply (Entails.of_eq (table_pieces Tv d q)) $$ Ht
  isplitr; · iempintro
  isplitl [Hr]
  · ihave H := (Entails.of_eq (rows_parts d c i f)) $$ Hr
    iapply hex $$ H
  iexact HB

theorem pending_all : pending (n := 512) 512 = ∅ := by
  unfold Transfers.pending
  exact Finset.filter_false_of_mem fun t _ => by have := t.isLt; omega

/-- Everything issued: what is left of every read share, and the batch ready to drain. -/
theorem fire_done :
    Fire Tv d c i ro q 512
      ⊢ iprop((bigSep Finset.univ fun u : Fin 512 => tLoc d ↦[Finset.univ \ tabRowSet (ro u)]{piece q 512 u} Tv d) ∗ Drain Tv d c i ro q 0) := by
  unfold Fire Drain
  rw [if_pos (by omega : 0 < 512), pending_all, Transfers.issued_all rfl, BI.bigSep_empty, BI.bigSep_empty, Nat.zero_mul]
  iintro ⟨-, Hre, -, HB⟩
  isplitl [Hre]; · iexact Hre
  iexact HB

/-- Everything landed: the scratch whole at the landed rows, the table at the read share again, the semaphore at zero. -/
theorem drain_done :
    iprop(Drain Tv d c i ro q 512 ∗ bigSep Finset.univ fun u : Fin 512 => tLoc d ↦[Finset.univ \ tabRowSet (ro u)]{piece q 512 u} Tv d)
      ⊢ iprop((rowsLoc d c i ↦{fullShare} Rfun Tv d c i ro) ∗ (tLoc d ↦{q} Tv d) ∗ semVal ((V d c i, SemLoc.dma semB) : GSem nD τ sig) 0) := by
  unfold Drain
  rw [if_neg (Nat.lt_irrefl 512)]
  unfold Dl
  rw [bigSep_sep']
  have hjoin : iprop((bigSep Finset.univ fun u : Fin 512 => (tLoc d ↦[tabRowSet (ro u)]{piece q 512 u} Tv d : sProp 𝕄))
        ∗ bigSep Finset.univ fun u : Fin 512 => tLoc d ↦[Finset.univ \ tabRowSet (ro u)]{piece q 512 u} Tv d)
      ⊢ bigSep Finset.univ fun u : Fin 512 => (tLoc d ↦{piece q 512 u} Tv d : sProp 𝕄) := by
    have hu : ∀ u : Fin 512, iprop((tLoc d ↦[tabRowSet (ro u)]{piece q 512 u} Tv d)
          ∗ (tLoc d ↦[Finset.univ \ tabRowSet (ro u)]{piece q 512 u} Tv d)) ⊢ (tLoc d ↦{piece q 512 u} Tv d : sProp 𝕄) :=
      fun u => (pointsTo_split_subset (ℓ := tLoc d) (S := Finset.univ) (I := tabRowSet (ro u)) (q := piece q 512 u) (f := Tv d) (Finset.subset_univ _)).2
    rw [← bigSep_sep']
    exact bigSep_mono fun u _ => hu u
  iintro ⟨⟨⟨Hrows, Htab⟩, Hv⟩, Hrest⟩
  isplitl [Hrows]
  · iapply (Entails.of_eq (rows_parts d c i (Rfun Tv d c i ro)).symm) $$ Hrows
  isplitl [Htab Hrest]
  · iapply (Entails.of_eq (table_pieces Tv d q).symm)
    iapply hjoin
    isplitl [Htab]; · iexact Htab
    iexact Hrest
  iexact Hv

end Cert.Proof.KI

end
-- ==== Proof.ScOut.lean ====
/-
  What the task's copy-out leaves in its slices of the two results.

  The task on grid point L works on rows 1024 L₁ + 512 L₀ … + 511 of the index arrays and of the results: its
  slices are slice number 2 L₁ + L₀ of thirty-two. Once its row scratch holds, in row j, the table's row named by
  its j-th index word, copying the scratch out to its slice of a result leaves there exactly the gathered rows:
  row 1024 L₁ + 512 L₀ + j of the result is the table's row named by index word 1024 L₁ + 512 L₀ + j.
-/
import proofs.«212231_g88622355185883_cont_sun_m_1073_38_alg».proof.Proof.ScCoords

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.Sem

open Idealize.ShloMosaic.ValueIdx (ix1 ix2 eq_ix1 eq_ix2)

variable {F : FTy → Type}

variable (L : grid1.Coords)

/-! ## The task's slices are slice 2 L₁ + L₀ of thirty-two -/

theorem idxR_eq : idxR L = partI (wL L) := by
  unfold idxR partI Rect.part Rect.block
  congr 1 <;> funext a
  · rw [k1_off1_eq]
    match a with
    | 0 => simp [Shape.partIx, Shape.partSize, wid]; omega
  · match a with
    | 0 => simp [Shape.partSize]
theorem outR_eq : outR L = partO (wL L) := by
  unfold outR partO Rect.part Rect.block
  congr 1 <;> funext a
  · rw [k1_off36_eq]
    match a with
    | 0 => simp [Shape.partIx, Shape.partSize, wid]; omega
    | 1 => simp [Shape.partIx, Shape.partSize]
  · match a with
    | 0 => simp [Shape.partSize]
    | 1 => simp [Shape.partSize]

theorem set_uK : (uK L).view.set = setI (wL L) := by
  show ((uV : Memref sig .scVector .hbm S16384 .i32).view.slice (idxR L)).set = ((uV : Memref sig .scVector .hbm S16384 .i32).view.slice (partI (wL L))).set
  rw [idxR_eq]
theorem set_iK : (iK L).view.set = setI (wL L) := by
  show ((iV : Memref sig .scVector .hbm S16384 .i32).view.slice (idxR L)).set = ((uV : Memref sig .scVector .hbm S16384 .i32).view.slice (partI (wL L))).set
  rw [idxR_eq]; rfl
theorem set_ouK : (ouK L).view.set = setO (wL L) := by
  show ((ouV : Memref sig .scVector .hbm S16384x128 .f32).view.slice (outR L)).set = ((ouV : Memref sig .scVector .hbm S16384x128 .f32).view.slice (partO (wL L))).set
  rw [outR_eq]
theorem set_oiK : (oiK L).view.set = setO (wL L) := by
  show ((oiV : Memref sig .scVector .hbm S16384x128 .f32).view.slice (outR L)).set = ((ouV : Memref sig .scVector .hbm S16384x128 .f32).view.slice (partO (wL L))).set
  rw [outR_eq]; rfl

/-! ## Where the slices' elements sit in the whole arrays -/

/-- Row j of the task's slice is row 1024 L₁ + 512 L₀ + j of the array. -/
def rowIx (j : Fin 512) : Fin 16384 :=
  ⟨1024 * (L 1).val + 512 * (L 0).val + j.val, by
    have h0 : (L 0).val < 2 := (L 0).isLt
    have h1 : (L 1).val < 16 := (L 1).isLt
    omega⟩

theorem emb_uK_eq (x : S512.Idx) : (uK L).view.emb x = (ix1 (rowIx L (x 0)) : S16384.Idx) := by
  have e := k1_off1_eq L
  funext a; apply Fin.ext
  match a with
  | ⟨0, _⟩ =>
    show k1_off1 L 0 + 1 * (x 0).val = 1024 * (L 1).val + 512 * (L 0).val + (x 0).val
    rw [e]; show (1024 * (L 1).val + 512 * (L 0).val) + 1 * (x 0).val = _; omega
theorem emb_iK_eq (x : S512.Idx) : (iK L).view.emb x = (ix1 (rowIx L (x 0)) : S16384.Idx) := by
  have e := k1_off1_eq L
  funext a; apply Fin.ext
  match a with
  | ⟨0, _⟩ =>
    show k1_off1 L 0 + 1 * (x 0).val = 1024 * (L 1).val + 512 * (L 0).val + (x 0).val
    rw [e]; show (1024 * (L 1).val + 512 * (L 0).val) + 1 * (x 0).val = _; omega

theorem emb_ouK_eq (x : S512x128.Idx) : (ouK L).view.emb x = (ix2 (rowIx L (x 0)) (x 1) : S16384x128.Idx) := by
  have e := k1_off36_eq L
  funext a; apply Fin.ext
  match a with
  | ⟨0, _⟩ =>
    show k1_off36 L 0 + 1 * (x 0).val = 1024 * (L 1).val + 512 * (L 0).val + (x 0).val
    rw [e]; show (1024 * (L 1).val + 512 * (L 0).val) + 1 * (x 0).val = _; omega
  | ⟨1, _⟩ =>
    show k1_off36 L 1 + 1 * (x 1).val = (x 1).val
    rw [e]; show 0 + 1 * (x 1).val = _; omega
theorem emb_oiK_eq (x : S512x128.Idx) : (oiK L).view.emb x = (ix2 (rowIx L (x 0)) (x 1) : S16384x128.Idx) := by
  have e := k1_off36_eq L
  funext a; apply Fin.ext
  match a with
  | ⟨0, _⟩ =>
    show k1_off36 L 0 + 1 * (x 0).val = 1024 * (L 1).val + 512 * (L 0).val + (x 0).val
    rw [e]; show (1024 * (L 1).val + 512 * (L 0).val) + 1 * (x 0).val = _; omega
  | ⟨1, _⟩ =>
    show k1_off36 L 1 + 1 * (x 1).val = (x 1).val
    rw [e]; show 0 + 1 * (x 1).val = _; omega

/-! ## The copy-out -/

variable (m : (ℓ : Loc nD τ sig) → Buf (Elt F) ℓ) (Tv : (d : Dev nD) → Buf (Elt F) (tLoc d))

/-- The row scratch, holding in row j the table's row named by the task's j-th user index word, copied out to the
    task's slice of the first result: the slice holds the gathered user rows. -/
theorem out_gU (d : Dev nD) (s : S512.Idx → BitVec 32) (hs : ∀ x, s x = m (uLoc d) ((uK L).view.emb x))
    (fou : S16384x128.Idx → Elt F .f32) (c : Fin τ.nSC) (i : Fin τ.nSub) :
    ∀ y ∈ setO (wL L),
      (ouK L).view.write (Elt F) fou (ReadAs.same.apply ((rowsV : Memref sig .scVector .vmem S512x128 .f32).view.read (Elt F)
        (Rfun Tv d c i (fun j => rowOf (s (ix1 j)))))) Finset.univ y = gU m Tv d y := by
  intro y hy
  rw [← set_ouK] at hy
  obtain ⟨x, -, rfl⟩ := Finset.mem_map.mp hy
  obtain ⟨r, q, rfl⟩ : ∃ (r : Fin 512) (q : Fin 128), x = ix2 r q := ⟨x 0, x 1, eq_ix2 x⟩
  rw [View.write_emb_of_mem _ _ (Finset.mem_univ _), ReadAs.apply_same, View.read_apply, emb_ouK_eq]
  have h : s (ix1 r) = m (uLoc d) (ix1 (rowIx L r)) := (hs (ix1 r)).trans (congrArg (m (uLoc d)) (emb_uK_eq L (ix1 r)))
  exact congrArg (fun w => Tv d (ix2 (rowOf w) q)) h

/-- The same for the item side and the second result. -/
theorem out_gI (d : Dev nD) (s : S512.Idx → BitVec 32) (hs : ∀ x, s x = m (iLoc d) ((iK L).view.emb x))
    (foi : S16384x128.Idx → Elt F .f32) (c : Fin τ.nSC) (i : Fin τ.nSub) :
    ∀ y ∈ setO (wL L),
      (oiK L).view.write (Elt F) foi (ReadAs.same.apply ((rowsV : Memref sig .scVector .vmem S512x128 .f32).view.read (Elt F)
        (Rfun Tv d c i (fun j => rowOf (s (ix1 j)))))) Finset.univ y = gI m Tv d y := by
  intro y hy
  rw [← set_oiK] at hy
  obtain ⟨x, -, rfl⟩ := Finset.mem_map.mp hy
  obtain ⟨r, q, rfl⟩ : ∃ (r : Fin 512) (q : Fin 128), x = ix2 r q := ⟨x 0, x 1, eq_ix2 x⟩
  rw [View.write_emb_of_mem _ _ (Finset.mem_univ _), ReadAs.apply_same, View.read_apply, emb_oiK_eq]
  have h : s (ix1 r) = m (iLoc d) (ix1 (rowIx L r)) := (hs (ix1 r)).trans (congrArg (m (iLoc d)) (emb_iK_eq L (ix1 r)))
  exact congrArg (fun w => Tv d (ix2 (rowOf w) q)) h

end Cert.Proof.KI

end
-- ==== Proof.ScCopy.lean ====
/-
  The gathered rows written out: the row scratch copied whole onto the task's slice of a result and waited for at once.
  The slice then holds the scratch's contents, the scratch is unchanged.
-/
import proofs.«212231_g88622355185883_cont_sun_m_1073_38_alg».proof.Proof.ScCoords
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)
open Idealize.ShloMosaic.Transfers (MayWaits)

/-! ## The rows written out: one copy, waited for at once -/

section CopyOut

variable (d : Dev nD) (c : Fin τ.nSC) (i : Fin τ.nSub)
variable [FloatOps F]

theorem copy_out {α : Type} {Q : α → sProp 𝕄} (dst : Memref sig .scVector .hbm S512x128 .f32) (sem : DmaSem sig)
    (k : PUnit → Prog (TpuEff nD τ sig (Elt F) Λ₀ (V d c i).2) α)
    (R : Buf (Elt F) ((rowsV : Memref sig .scVector .vmem S512x128 .f32).view.loc (V d c i))) (fd : Buf (Elt F) (dst.view.loc (V d c i)))
    (O : CellTallies nD τ sig (HIx 1)) (W : Waits sig (HIx 1))
    (hsrc : (rowsV : Memref sig .scVector .vmem S512x128 .f32).view.WordExact) (hdst : dst.view.WordExact)
    (hsem : DmaTarget.Typed (nD := nD) (τ := τ) (p := (V d c i).2) .vmem (SemLoc.dma sem) (.here dst))
    (hsrc' : (rowsV : Memref sig .scVector .vmem S512x128 .f32).view.WordExact) (hdst' : dst.view.WordExact) :
    iprop(((rowsV : Memref sig .scVector .vmem S512x128 .f32).view.loc (V d c i) ↦{fullShare} R)
        ∗ (dst.view.loc (V d c i) ↦[dst.view.set]{fullShare} fd) ∗ semVal ((V d c i, SemLoc.dma sem) : GSem nD τ sig) 0
        ∗ owes (V d c i) O W ∗ MayWaits (V d c i) none O)
      ⊢ iprop((iprop(((rowsV : Memref sig .scVector .vmem S512x128 .f32).view.loc (V d c i) ↦{fullShare} R)
                ∗ (dst.view.loc (V d c i) ↦[dst.view.set]{fullShare}
                    (dst.view.write (Elt F) fd (ReadAs.same.apply ((rowsV : Memref sig .scVector .vmem S512x128 .f32).view.read (Elt F) R)) Finset.univ))
                ∗ semVal ((V d c i, SemLoc.dma sem) : GSem nD τ sig) 0 ∗ owes (V d c i) O (insert (SemLoc.dma sem, none) W))
              -∗ wp frame (wpE (defs₀ (F := F)) 𝒱₀ (V d c i) none) Set.univ (k ⟨⟩) Q)
          -∗ wp frame (wpE (defs₀ (F := F)) 𝒱₀ (V d c i) none) Set.univ
              (.op (.enqueueDmaAs (rowsV : Memref sig .scVector .vmem S512x128 .f32) (.here dst) .same (.dma sem) hsrc hdst hsem)
                (fun _ => .op (.waitDma2 sem (rowsV : Memref sig .scVector .vmem S512x128 .f32) dst hsrc' hdst') k)) Q) := by
  have e : (((rowsV : Memref sig .scVector .vmem S512x128 .f32).view.loc (V d c i) ↦{fullShare} R) : sProp 𝕄)
      = ((rowsV : Memref sig .scVector .vmem S512x128 .f32).view.loc (V d c i)
          ↦[(rowsV : Memref sig .scVector .vmem S512x128 .f32).view.set]{fullShare} R) := by
    simp only [Memref.view_whole, View.set_whole]
  iintro ⟨Hr, Hd, Hv, HO, #Hmw⟩ Hk
  ihave Hr' := (Entails.of_eq e) $$ Hr
  iapply (Transfers.wp_dmaLocal countersEmb 𝒱₀ (V d c i) none (src := (rowsV : Memref sig .scVector .vmem S512x128 .f32)) (dst := dst) (via := .same)
      (q := fullShare) (fs := R) (Sd := dst.view.set) (fd := fd) none dst.view.dmaCredit rfl (View.dmaCredit_pos _ (by decide)) subset_rfl) $$ [Hr' Hd Hv]
  · isplitl [Hr']; · iexact Hr'
    isplitl [Hd]; · iexact Hd
    iexact Hv
  iintro HFl
  ihave Hw := (MayWaits.elim (SemLoc.dma sem)) $$ Hmw
  iapply (Transfers.wp_waitLocalO countersEmb 𝒱₀ (V d c i) none none (N := dst.view.dmaCredit) rfl (O := O) (W := W)) $$ [HFl HO Hw]
  · isplitl [HFl]; · iexact HFl
    isplitl [HO]; · iexact HO
    iexact Hw
  iintro ⟨⟨Hd, Hr'⟩, Hv, HO⟩
  iapply Hk
  isplitl [Hr']; · iapply (Entails.of_eq e.symm); iexact Hr'
  isplitl [Hd]; · iexact Hd
  isplitl [Hv]; · iexact Hv
  iexact HO

end CopyOut

end Cert.Proof.KI

end
-- ==== Proof.ScTile.lean ====
/-
  The row-gathering task of one vector subcore, whole: two index slices fetched, then per side 512 row copies
  started on one semaphore and waited for by 512 waits of one row's amount — nothing touching the table or the row
  scratch in between —, the rows written out to the task's slice of the result. What it leaves there is the table's
  rows named by the task's index words.
-/
import proofs.«212231_g88622355185883_cont_sun_m_1073_38_alg».proof.Proof.ScRegionU
import proofs.«212231_g88622355185883_cont_sun_m_1073_38_alg».proof.Proof.ScRegionI
import proofs.«212231_g88622355185883_cont_sun_m_1073_38_alg».proof.Proof.ScJoin
import proofs.«212231_g88622355185883_cont_sun_m_1073_38_alg».proof.Proof.ScOut
import proofs.«212231_g88622355185883_cont_sun_m_1073_38_alg».proof.Proof.ScCopy
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)
open Idealize.ShloMosaic.Transfers (pending issued Batch MayWaits)
open Idealize.ShloMosaic.Tactic

variable (Tv : (d : Dev nD) → Buf (Elt F) (tLoc d))

section TileRes

variable (d : Dev nD) (c : Fin τ.nSC) (i : Fin τ.nSub)

abbrev cB : GSem nD τ sig := (V d c i, .dma cc1_scratch3.sem)
abbrev c0 : GSem nD τ sig := (V d c i, .dma cc1_scoped0.sem)
abbrev c1 : GSem nD τ sig := (V d c i, .dma cc1_scoped1.sem)
abbrev c2 : GSem nD τ sig := (V d c i, .dma cc1_scoped2.sem)
abbrev c3 : GSem nD τ sig := (V d c i, .dma cc1_scoped3.sem)

theorem mem_own (sm : DmaSem sig) (h : (SemLoc.dma sm : SemLoc sig).isScoped .scVector = true) :
    ((V d c i, SemLoc.dma sm) : GSem nD τ sig) ∈ ownCells (sig := sig) (V d c i) :=
  (mem_ownCells (g := ((V d c i, SemLoc.dma sm) : GSem nD τ sig))).mpr ⟨rfl, h⟩

theorem cell_ne {a b : DmaSem sig} (h : a ≠ b) : ((V d c i, SemLoc.dma a) : GSem nD τ sig) ≠ (V d c i, SemLoc.dma b) :=
  fun e => h (SemLoc.dma.inj (Prod.mk.inj e).2)

/-- The task's five DMA semaphores are among the subcore's own: they, at zero, and the rest. -/
theorem ownSems0_V :
    (ownSems0 (V d c i) : sProp 𝕄)
      = iprop(semVal (cB d c i) 0 ∗ semVal (c0 d c i) 0 ∗ semVal (c1 d c i) 0 ∗ semVal (c2 d c i) 0 ∗ semVal (c3 d c i) 0
          ∗ bigSep ((((((ownCells (V d c i)).erase (cB d c i)).erase (c0 d c i)).erase (c1 d c i)).erase (c2 d c i)).erase (c3 d c i))
              fun g => semVal g 0) := by
  unfold SparseCore.Cfg.ownSems0
  have hB := mem_own d c i cc1_scratch3.sem (by decide)
  have h0 : c0 d c i ∈ (ownCells (sig := sig) (V d c i)).erase (cB d c i) :=
    Finset.mem_erase.mpr ⟨cell_ne d c i (by decide), mem_own d c i cc1_scoped0.sem (by decide)⟩
  have h1 : c1 d c i ∈ ((ownCells (sig := sig) (V d c i)).erase (cB d c i)).erase (c0 d c i) :=
    Finset.mem_erase.mpr ⟨cell_ne d c i (by decide), Finset.mem_erase.mpr ⟨cell_ne d c i (by decide), mem_own d c i cc1_scoped1.sem (by decide)⟩⟩
  have h2 : c2 d c i ∈ (((ownCells (sig := sig) (V d c i)).erase (cB d c i)).erase (c0 d c i)).erase (c1 d c i) :=
    Finset.mem_erase.mpr ⟨cell_ne d c i (by decide), Finset.mem_erase.mpr ⟨cell_ne d c i (by decide),
      Finset.mem_erase.mpr ⟨cell_ne d c i (by decide), mem_own d c i cc1_scoped2.sem (by decide)⟩⟩⟩
  have h3 : c3 d c i ∈ ((((ownCells (sig := sig) (V d c i)).erase (cB d c i)).erase (c0 d c i)).erase (c1 d c i)).erase (c2 d c i) :=
    Finset.mem_erase.mpr ⟨cell_ne d c i (by decide), Finset.mem_erase.mpr ⟨cell_ne d c i (by decide),
      Finset.mem_erase.mpr ⟨cell_ne d c i (by decide), Finset.mem_erase.mpr ⟨cell_ne d c i (by decide), mem_own d c i cc1_scoped3.sem (by decide)⟩⟩⟩⟩
  rw [SparseCore.bigSep_erase' hB, SparseCore.bigSep_erase' h0, SparseCore.bigSep_erase' h1, SparseCore.bigSep_erase' h2, SparseCore.bigSep_erase' h3]

/-- The three scratch buffers are among the subcore's own: they, at some contents, and the rest. -/
theorem ownBufs_V :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f)
          ∗ bigSep ((((ownRefs (τ := τ) (.scVector c i)).erase ((Proc.scVector c i).devRef cc1_scratch0)).erase
              ((Proc.scVector c i).devRef cc1_scratch1)).erase ((Proc.scVector c i).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector c i) (b := (Proc.scVector c i).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector c i) (b := (Proc.scVector c i).devRef cc1_scratch2) rfl⟩⟩)]

end TileRes

section Body

variable (m : (ℓ : Loc nD τ sig) → Buf (Elt F) ℓ)
variable (d : Dev nD) (L : grid1.Coords)
variable [FloatOps F]

theorem tile_body (hF : (K (F := F)).Facts) (hidx : IdxOK m) (O : CellTallies nD τ sig (HIx 1)) (W : Waits sig (HIx 1)) (hO : ∀ g, O g none = 0) :
    iprop(levAts (K (F := F)).L (K (F := F)).lev ∗ emp ∗ tilePre m Tv d (wL L) (tileShare (cL L) (iL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L uV (Memref.isWhole_whole _) iV (Memref.isWhole_whole _) tabV (Memref.isWhole_whole _) ouV (Memref.isWhole_whole _) oiV (Memref.isWhole_whole _)
            sU (Memref.isWhole_whole _) sI (Memref.isWhole_whole _) rowsV (Memref.isWhole_whole _) cc1_scratch3 cc1_scoped0 cc1_scoped1 cc1_scoped2 cc1_scoped3)
          fun _ => iprop(tilePost m Tv d (wL L) (tileShare (cL L) (iL L)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  simp only [k1_part11_eq_skeleton]; unfold k1_part11_skel
  simp only [Prog.bind_assoc]
  rw [(K (F := F)).scopedBufs_V hF d (cV L) (jV L), SparseCore.Cfg.scopedSems0_V (Val := Elt F) d (cV L) (jV L), ownSems0_V, ownBufs_V]
  unfold tilePre
  iintro ⟨#Hlv, -, ⟨Hu, Hi, Ht, ⟨%fou, Hou⟩, ⟨%foi, Hoi⟩⟩, ⟨⟨%fsu, Hsu⟩, ⟨%fsi, Hsi⟩, ⟨%frw, Hrw⟩, Hbufs⟩, ⟨HsemB, Hsem0, Hsem1, Hsem2, Hsem3, Hsems⟩, HO⟩
  ihave Hmw := ((K (F := F)).mayWaits_none (thr := V d (cV L) (jV L)) hO) $$ Hlv
  ihave Hu' := (Entails.of_eq (show (uLoc d ↦[setI (wL L)]{fullShare} m (uLoc d) : sProp 𝕄) = ((uK L).view.loc (V d (cV L) (jV L)) ↦[(uK L).view.set]{fullShare} m (uLoc d)) by rw [set_uK])) $$ Hu
  ihave Hi' := (Entails.of_eq (show (iLoc d ↦[setI (wL L)]{fullShare} m (iLoc d) : sProp 𝕄) = ((iK L).view.loc (V d (cV L) (jV L)) ↦[(iK L).view.set]{fullShare} m (iLoc d)) by rw [set_iK])) $$ Hi
  ihave Hsu' := (Entails.of_eq (show ((V d (cV L) (jV L)).loc cc1_scratch0 ↦{fullShare} fsu : sProp 𝕄) = ((sU : Memref sig .scVector .vmem S512 .i32).view.loc (V d (cV L) (jV L)) ↦{fullShare} fsu) from rfl)) $$ Hsu
  ihave Hsi' := (Entails.of_eq (show ((V d (cV L) (jV L)).loc cc1_scratch1 ↦{fullShare} fsi : sProp 𝕄) = ((sI : Memref sig .scVector .vmem S512 .i32).view.loc (V d (cV L) (jV L)) ↦{fullShare} fsi) from rfl)) $$ Hsi
  -- the two index slices fetched and waited for
  sl_exec
  have hsU : ∀ x : S512.Idx, View.write (Elt F) (sU : Memref sig .scVector .vmem S512 .i32).view fsu (tile_body.sl.dma0 m d L) Finset.univ x
      = m (uLoc d) ((uK L).view.emb x) := by
    intro x; exact (congrFun (View.write_whole_univ (cc1_scratch0 : Ref sig .scVector) fsu (tile_body.sl.dma0 m d L)) x).trans rfl
  have hsI : ∀ x : S512.Idx, View.write (Elt F) (sI : Memref sig .scVector .vmem S512 .i32).view fsi (tile_body.sl.dma0_1 m d L) Finset.univ x
      = m (iLoc d) ((iK L).view.emb x) := by
    intro x; exact (congrFun (View.write_whole_univ (cc1_scratch1 : Ref sig .scVector) fsi (tile_body.sl.dma0_1 m d L)) x).trans rfl
  generalize View.write (Elt F) (sU : Memref sig .scVector .vmem S512 .i32).view fsu (tile_body.sl.dma0 m d L) Finset.univ = sUv at hsU ⊢
  generalize View.write (Elt F) (sI : Memref sig .scVector .vmem S512 .i32).view fsi (tile_body.sl.dma0_1 m d L) Finset.univ = sIv at hsI ⊢
  have hltU : ∀ j : Fin 512, ((sUv : S512.Idx → BitVec 32) (ix1 j)).toNat < 1000000 := fun j => by rw [hsU]; exact (hidx d).1 _
  have hltI : ∀ j : Fin 512, ((sIv : S512.Idx → BitVec 32) (ix1 j)).toNat < 1000000 := fun j => by rw [hsI]; exact (hidx d).2 _
  -- the user side: 512 row copies on one semaphore
  imod (Transfers.batch_alloc' (Lvl := ℕ) countersEmb (V d (cV L) (jV L)) none NR
      (Dl Tv d (cV L) (jV L) (roOf sUv) (tileShare (cL L) (iL L))) (sm := .dma semB) (E := Set.univ)) $$ HsemB with HB
  ihave HF := (fire_init Tv d (cV L) (jV L) (roOf sUv) (tileShare (cL L) (iL L)) frw) $$ [Ht Hrw HB]
  · isplitl [Ht]; · iexact Ht
    isplitl [Hrw]; · iexact Hrw
    iexact HB
  sl_for (invFireU Tv d L (tileShare (cL L) (iL L)) sUv) $$ [Hsu' HF]
  case region => exact fire_regionU Tv d L (tileShare (cL L) (iL L)) sUv hltU
  · unfold invFireU
    isplitl [Hsu']; · iexact Hsu'
    iexact HF
  iintro %_ HI
  unfold invFireU
  icases HI with ⟨Hsu', HF⟩
  ihave HF := (Entails.of_eq (congrArg (Fire Tv d (cV L) (jV L) (roOf sUv) (tileShare (cL L) (iL L)))
      (by decide : 16 * Scf.trips k1_t1_loop.lb k1_t1_loop.ub k1_t1_loop.st = 512))) $$ HF
  ihave HF' := (fire_done Tv d (cV L) (jV L) (roOf sUv) (tileShare (cL L) (iL L))) $$ HF
  icases HF' with ⟨Hrests, HD⟩
  sl_for (invWait Tv d L (tileShare (cL L) (iL L)) (roOf sUv) O W) $$ [HD HO]
  case region => exact wait_regionU Tv d L (tileShare (cL L) (iL L)) (roOf sUv) O W
  · unfold invWait
    isplitr; · iexact Hmw
    isplitl [HD]; · iexact HD
    iexists (insert (SemLoc.dma cc1_scoped1.sem, (default : HIx 1)) (insert (SemLoc.dma cc1_scoped0.sem, (default : HIx 1)) W)); isplitr
    · ipureintro; intro p hp
      rcases Finset.mem_insert.mp hp with rfl | hp
      · exact .inr rfl
      rcases Finset.mem_insert.mp hp with rfl | hp
      · exact .inr rfl
      · exact .inl hp
    iexact HO
  iintro %_ HI
  unfold invWait
  icases HI with ⟨-, HD, %W1, %hW1, HO⟩
  ihave HD := (Entails.of_eq (congrArg (Drain Tv d (cV L) (jV L) (roOf sUv) (tileShare (cL L) (iL L)))
      (by decide : Scf.trips k1_t2_loop.lb k1_t2_loop.ub k1_t2_loop.st = 512))) $$ HD
  ihave Hj := (drain_done Tv d (cV L) (jV L) (roOf sUv) (tileShare (cL L) (iL L))) $$ [HD Hrests]
  · isplitl [HD]; · iexact HD
    iexact Hrests
  icases Hj with ⟨Hrw, Ht, HsemB⟩
  -- the user rows written out
  unfold tile_body.sl.prog.cont_2
  simp only [Prog.lift, Prog.bind_op, Prog.bind_ret, Prog.pure_eq_ret]
  ihave Hou' := (Entails.of_eq (show (ouLoc d ↦[setO (wL L)]{fullShare} fou : sProp 𝕄)
      = ((ouK L).view.loc (V d (cV L) (jV L)) ↦[(ouK L).view.set]{fullShare} fou) by rw [set_ouK])) $$ Hou
  iapply (copy_out d (cV L) (jV L) (ouK L) cc1_scoped2.sem _ (Rfun Tv d (cV L) (jV L) (roOf sUv)) fou O W1 _ _ _ _ _) $$ [Hrw Hou' Hsem2 HO]
  · isplitl [Hrw]; · iexact Hrw
    isplitl [Hou']; · iexact Hou'
    isplitl [Hsem2]; · iexact Hsem2
    isplitl [HO]; · iexact HO
    iexact Hmw
  iintro ⟨Hrw, Hou', Hsem2, HO⟩
  -- the item side: the same batch over the same scratch rows
  imod (Transfers.batch_alloc' (Lvl := ℕ) countersEmb (V d (cV L) (jV L)) none NR
      (Dl Tv d (cV L) (jV L) (roOf sIv) (tileShare (cL L) (iL L))) (sm := .dma semB) (E := Set.univ)) $$ HsemB with HB
  ihave Hrw := (Entails.of_eq (show (((rowsV : Memref sig .scVector .vmem S512x128 .f32).view.loc (V d (cV L) (jV L)) ↦{fullShare} Rfun Tv d (cV L) (jV L) (roOf sUv)) : sProp 𝕄)
      = (rowsLoc d (cV L) (jV L) ↦{fullShare} Rfun Tv d (cV L) (jV L) (roOf sUv)) from rfl)) $$ Hrw
  ihave HF := (fire_init Tv d (cV L) (jV L) (roOf sIv) (tileShare (cL L) (iL L)) (Rfun Tv d (cV L) (jV L) (roOf sUv))) $$ [Ht Hrw HB]
  · isplitl [Ht]; · iexact Ht
    isplitl [Hrw]; · iexact Hrw
    iexact HB
  ihave Hsi' := (Entails.of_eq (show ((View.loc (V d (cV L) (jV L)) (View.whole cc1_scratch1) ↦{fullShare} sIv) : sProp 𝕄)
      = ((sI : Memref sig .scVector .vmem S512 .i32).view.loc (V d (cV L) (jV L)) ↦{fullShare} sIv) from rfl)) $$ Hsi'
  sl_for (invFireI Tv d L (tileShare (cL L) (iL L)) sIv) $$ [Hsi' HF]
  case region => exact fire_regionI Tv d L (tileShare (cL L) (iL L)) sIv hltI
  · unfold invFireI
    isplitl [Hsi']; · iexact Hsi'
    iexact HF
  iintro %_ HI
  unfold invFireI
  icases HI with ⟨Hsi', HF⟩
  ihave HF := (Entails.of_eq (congrArg (Fire Tv d (cV L) (jV L) (roOf sIv) (tileShare (cL L) (iL L)))
      (by decide : 16 * Scf.trips k1_t3_loop.lb k1_t3_loop.ub k1_t3_loop.st = 512))) $$ HF
  ihave HF' := (fire_done Tv d (cV L) (jV L) (roOf sIv) (tileShare (cL L) (iL L))) $$ HF
  icases HF' with ⟨Hrests, HD⟩
  sl_for (invWait Tv d L (tileShare (cL L) (iL L)) (roOf sIv) O W) $$ [HD HO]
  case region => exact wait_regionI Tv d L (tileShare (cL L) (iL L)) (roOf sIv) O W
  · unfold invWait
    isplitr; · iexact Hmw
    isplitl [HD]; · iexact HD
    iexists (insert (SemLoc.dma cc1_scoped2.sem, (none : HIx 1)) W1); isplitr
    · ipureintro; intro p hp
      rcases Finset.mem_insert.mp hp with rfl | hp
      · exact .inr rfl
      · exact hW1 p hp
    iexact HO
  iintro %_ HI
  unfold invWait
  icases HI with ⟨-, HD, %W2, %hW2, HO⟩
  ihave HD := (Entails.of_eq (congrArg (Drain Tv d (cV L) (jV L) (roOf sIv) (tileShare (cL L) (iL L)))
      (by decide : Scf.trips k1_t4_loop.lb k1_t4_loop.ub k1_t4_loop.st = 512))) $$ HD
  ihave Hj := (drain_done Tv d (cV L) (jV L) (roOf sIv) (tileShare (cL L) (iL L))) $$ [HD Hrests]
  · isplitl [HD]; · iexact HD
    iexact Hrests
  icases Hj with ⟨Hrw, Ht, HsemB⟩
  -- the item rows written out
  unfold tile_body.sl.prog.cont_4
  simp only [Prog.lift, Prog.bind_op, Prog.bind_ret, Prog.pure_eq_ret]
  ihave Hoi' := (Entails.of_eq (show (oiLoc d ↦[setO (wL L)]{fullShare} foi : sProp 𝕄)
      = ((oiK L).view.loc (V d (cV L) (jV L)) ↦[(oiK L).view.set]{fullShare} foi) by rw [set_oiK])) $$ Hoi
  ihave Hrw := (Entails.of_eq (show ((rowsLoc d (cV L) (jV L) ↦{fullShare} Rfun Tv d (cV L) (jV L) (roOf sIv)) : sProp 𝕄)
      = ((rowsV : Memref sig .scVector .vmem S512x128 .f32).view.loc (V d (cV L) (jV L)) ↦{fullShare} Rfun Tv d (cV L) (jV L) (roOf sIv)) from rfl)) $$ Hrw
  iapply (copy_out d (cV L) (jV L) (oiK L) cc1_scoped3.sem _ (Rfun Tv d (cV L) (jV L) (roOf sIv)) foi O W2 _ _ _ _ _) $$ [Hrw Hoi' Hsem3 HO]
  · isplitl [Hrw]; · iexact Hrw
    isplitl [Hoi']; · iexact Hoi'
    isplitl [Hsem3]; · iexact Hsem3
    isplitl [HO]; · iexact HO
    iexact Hmw
  iintro ⟨Hrw, Hoi', Hsem3, HO⟩
  rw [wp_ret]; imodintro
  -- what the task hands back
  have eU : (((uK L).view.loc (V d (cV L) (jV L)) ↦[(uK L).view.set]{fullShare} m (uLoc d)) : sProp 𝕄) = (uLoc d ↦[setI (wL L)]{fullShare} m (uLoc d)) := by rw [set_uK]
  have eI : (((iK L).view.loc (V d (cV L) (jV L)) ↦[(iK L).view.set]{fullShare} m (iLoc d)) : sProp 𝕄) = (iLoc d ↦[setI (wL L)]{fullShare} m (iLoc d)) := by rw [set_iK]
  have eOU : (((ouK L).view.loc (V d (cV L) (jV L)) ↦[(ouK L).view.set]{fullShare}
        (View.write (Elt F) (ouK L).view fou (ReadAs.same.apply (View.read (Elt F) (rowsV : Memref sig .scVector .vmem S512x128 .f32).view (Rfun Tv d (cV L) (jV L) (roOf sUv)))) Finset.univ)) : sProp 𝕄)
      = (ouLoc d ↦[setO (wL L)]{fullShare} gU m Tv d) := by
    rw [set_ouK]; exact pointsTo_congr (out_gU L m Tv d sUv hsU fou (cV L) (jV L))
  have eOI : (((oiK L).view.loc (V d (cV L) (jV L)) ↦[(oiK L).view.set]{fullShare}
        (View.write (Elt F) (oiK L).view foi (ReadAs.same.apply (View.read (Elt F) (rowsV : Memref sig .scVector .vmem S512x128 .f32).view (Rfun Tv d (cV L) (jV L) (roOf sIv)))) Finset.univ)) : sProp 𝕄)
      = (oiLoc d ↦[setO (wL L)]{fullShare} gI m Tv d) := by
    rw [set_oiK]; exact pointsTo_congr (out_gI L m Tv d sIv hsI foi (cV L) (jV L))
  unfold tilePost
  isplitl [Hu' Hi' Ht Hou' Hoi']
  · isplitl [Hu']; · iapply (Entails.of_eq eU); iexact Hu'
    isplitl [Hi']; · iapply (Entails.of_eq eI); iexact Hi'
    isplitl [Ht]; · iexact Ht
    isplitl [Hou']; · iapply (Entails.of_eq eOU); iexact Hou'
    iapply (Entails.of_eq eOI); iexact Hoi'
  isplitl [Hsu' Hsi' Hrw Hbufs]
  · isplitl [Hsu']; · iexists sUv; iexact Hsu'
    isplitl [Hsi']; · iexists sIv; iexact Hsi'
    isplitl [Hrw]; · iexists (Rfun Tv d (cV L) (jV L) (roOf sIv)); iexact Hrw
    iexact Hbufs
  isplitl [HsemB Hsem0 Hsem1 Hsem2 Hsem3 Hsems]
  · isplitl [HsemB]; · iexact HsemB
    isplitl [Hsem0]; · iexact Hsem0
    isplitl [Hsem1]; · iexact Hsem1
    isplitl [Hsem2]; · iexact Hsem2
    isplitl [Hsem3]; · iexact Hsem3
    iexact Hsems
  iexists (insert (SemLoc.dma cc1_scoped3.sem, (none : HIx 1)) W2); isplitr
  · ipureintro; intro p hp
    rcases Finset.mem_insert.mp hp with rfl | hp
    · exact .inr rfl
    · exact hW2 p hp
  iexact HO

end Body

end Cert.Proof.KI

end
-- ==== Proof.ScObl.lean ====
/-
  The gathering task as the launch theorem asks for it.

  The launch theorem wants, for every device, SparseCore c and vector subcore i of the call's grid, the task's
  body proved from what the handshake hands it (its slices, its read share of the table, its scoped storage) to
  what it hands back. The body is proved once, at a symbolic grid point L; this module only matches the launch
  theorem's spelling of the thread and of the program — the label table's row for a vector subcore, which runs
  the kernel function at the subcore's coordinates — with the body's own.
-/
import proofs.«212231_g88622355185883_cont_sun_m_1073_38_alg».proof.Proof.ScCoords

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (Tv : (d : Dev nD) → Buf (Elt F) (tLoc d))

/-- The grid point of SparseCore c, vector subcore s. -/
def coordsV (c : Fin (grid1.bound 0)) (s : Fin (grid1.bound 1)) : grid1.Coords :=
  fun | 0 => c | 1 => s | ⟨_ + 2, h⟩ => absurd h (Nat.not_lt.2 (Nat.le_add_left _ _))

/-- The label table's row for a vector subcore: the kernel function at the subcore's coordinates, on the whole
    arrays and the subcore's scratch. -/
theorem defs₀_vector (c : Fin τ.nSC) (s : Fin τ.nSub) :
    defs₀ (F := F) (.scVector c s) 1 ()
      = SparseCore.onTile hcore1 hsub1 (fun c s => cc1_gather_kernel (coordsV c s)
          uV (Memref.isWhole_whole _) iV (Memref.isWhole_whole _) tabV (Memref.isWhole_whole _) ouV (Memref.isWhole_whole _)
          oiV (Memref.isWhole_whole _) sU (Memref.isWhole_whole _) sI (Memref.isWhole_whole _) rowsV (Memref.isWhole_whole _)
          cc1_scratch3 cc1_scoped0 cc1_scoped1 cc1_scoped2 cc1_scoped3) ⟨⟩ c s := rfl

omit [FloatOps F] in
/-- A body that records waits only at the index of no call leaves them within what the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for the gathering task, from the body proved at a symbolic grid point. -/
theorem tileObl_of
    (hbody : ∀ (d : Dev nD) (L : grid1.Coords) (O : CellTallies nD τ sig (HIx 1)) (W : Waits sig (HIx 1)), (∀ g, O g none = 0) →
      iprop(levAts (K (F := F)).L (K (F := F)).lev ∗ emp ∗ tilePre m Tv d (wL L) (tileShare (cL L) (iL L))
          ∗ scopedBufs (V d (cV L) (jV L)) ∗ scopedSems0 (V d (cV L) (jV L)) ∗ owes (V d (cV L) (jV L)) O W)
        ⊢ wp frame (wpE (defs₀ (F := F)) 𝒱₀ (V d (cV L) (jV L)) none) Set.univ
            (cc1_gather_kernel L uV (Memref.isWhole_whole _) iV (Memref.isWhole_whole _) tabV (Memref.isWhole_whole _)
              ouV (Memref.isWhole_whole _) oiV (Memref.isWhole_whole _) sU (Memref.isWhole_whole _) sI (Memref.isWhole_whole _)
              rowsV (Memref.isWhole_whole _) cc1_scratch3 cc1_scoped0 cc1_scoped1 cc1_scoped2 cc1_scoped3)
            fun _ => iprop(tilePost m Tv d (wL L) (tileShare (cL L) (iL L)) ∗ scopedBufs (V d (cV L) (jV L)) ∗ scopedSems0 (V d (cV L) (jV L))
              ∗ ∃ W', ⌜∀ p ∈ W', p ∈ W ∨ p.2 = none⌝ ∗ owes (V d (cV L) (jV L)) O W')) :
    (K (F := F)).TileObl (D (F := F)) 𝒱 (P m Tv) v₀ 0 := by
  intro d c i O W hO _ _
  simp only [show (P m Tv).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.Proof.KI

end
-- ==== Proof.ScGather.lean ====
/-
  The obligation of the row-gathering tasks: on every SparseCore and vector subcore, under index words that name rows
  of the table, the task terminates and leaves the gathered rows in its slices of the two results.
-/
import proofs.«212231_g88622355185883_cont_sun_m_1073_38_alg».proof.Proof.ScTile
import proofs.«212231_g88622355185883_cont_sun_m_1073_38_alg».proof.Proof.ScObl
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

/-! ## The launch theorem's obligation for the row-gathering tasks -/

variable (m : (ℓ : Loc nD τ sig) → Buf (Elt F) ℓ) (Tv : (d : Dev nD) → Buf (Elt F) (tLoc d))
variable [FloatOps F]

/-- Every task, on every SparseCore and vector subcore, from its slices of the index arrays, its read share of the
    table and its slices of the results, leaves the gathered rows in its slices. -/
theorem tileObl (hF : (K (F := F)).Facts) (hidx : IdxOK m) : (K (F := F)).TileObl (D (F := F)) 𝒱 (P m Tv) v₀ 0 :=
  tileObl_of m Tv fun d L O W hO => tile_body Tv m d L hF hidx O W hO

end Cert.Proof.KI

end
-- ==== Proof.KbScRows.lean ====
/-
  One row of the table and one row of the row scratch as a copy names them: a one-row slice with the row axis dropped.
  Lane x of such a row is element (row, x) of the array, so the row's elements are those with that first coordinate,
  and a copy of table row r onto scratch row j leaves, at (j, x), the table's (r, x).
-/
import proofs.«212231_g88622355185883_cont_sun_m_1073_38_alg».proof.Proof.KbScPay
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)

/-! ## One row of the table and one row of the row scratch, as a copy names them -/

/-- A 128-vector's index matched with the one-row shape: row 0, the same lane. -/
theorem reshape_lane (h : S128.numel = S1x128.numel) (x : S128.Idx) :
    Shape.reshapeEquiv h x = (ix2 (0 : Fin 1) (x 0) : S1x128.Idx) :=
  Shape.reshapeEquiv_eq_of_rowMajor h (by
    rw [Shape.rowMajor_val_two, Shape.rowMajor_val_one]
    show 0 * 128 + (x 0).val = (x 0).val
    omega)

abbrev tabV : Memref sig .scVector .hbm S1000000x128 .f32 := Memref.whole main_v4_scv
abbrev rowsV : Memref sig .scVector .vmem S512x128 .f32 := Memref.whole cc1_scratch2

/-- The table's row at offsets `off`, as a 128-vector. -/
abbrev srcRow (off : Fin 2 → ℕ) (h : ∀ a, off a + S1x128.size a ≤ S1000000x128.size a) : Memref sig .scVector .hbm S128 .f32 :=
  (tabV.slice (Rect.unit (s := S1000000x128) off S1x128.size h) (fun _ => rfl)).squeeze S128 squeezes_S1x128_S128
/-- The row scratch's row at offsets `off`, as a 128-vector. -/
abbrev dstRow (off : Fin 2 → ℕ) (h : ∀ a, off a + S1x128.size a ≤ S512x128.size a) : Memref sig .scVector .vmem S128 .f32 :=
  (rowsV.slice (Rect.unit (s := S512x128) off S1x128.size h) (fun _ => rfl)).squeeze S128 squeezes_S1x128_S128

theorem emb_srcRow (off : Fin 2 → ℕ) (h : ∀ a, off a + S1x128.size a ≤ S1000000x128.size a) (r : Fin 1000000) (hoff : off = ![r.val, 0])
    (x : S128.Idx) : (srcRow off h).view.emb x = (ix2 r (x 0) : S1000000x128.Idx) := by
  subst hoff
  show (Rect.unit (s := S1000000x128) ![r.val, 0] S1x128.size h).emb (Shape.reshapeEquiv squeezes_S1x128_S128.numel_eq x) = _
  rw [reshape_lane]
  funext a; apply Fin.ext
  rw [Rect.emb_apply]
  match a with
  | ⟨0, _⟩ => show r.val + 1 * 0 = r.val; omega
  | ⟨1, _⟩ => show 0 + 1 * (x 0).val = (x 0).val; omega

theorem emb_dstRow (off : Fin 2 → ℕ) (h : ∀ a, off a + S1x128.size a ≤ S512x128.size a) (j : Fin 512) (hoff : off = ![j.val, 0])
    (x : S128.Idx) : (dstRow off h).view.emb x = (ix2 j (x 0) : S512x128.Idx) := by
  subst hoff
  show (Rect.unit (s := S512x128) ![j.val, 0] S1x128.size h).emb (Shape.reshapeEquiv squeezes_S1x128_S128.numel_eq x) = _
  rw [reshape_lane]
  funext a; apply Fin.ext
  rw [Rect.emb_apply]
  match a with
  | ⟨0, _⟩ => show j.val + 1 * 0 = j.val; omega
  | ⟨1, _⟩ => show 0 + 1 * (x 0).val = (x 0).val; omega

/-- Row `j` of the row scratch, as a set of its elements. -/
def rowSetS (j : Fin 512) : Finset S512x128.Idx := Finset.univ.filter fun y => (y 0).val = j.val

theorem set_dstRow (off : Fin 2 → ℕ) (h : ∀ a, off a + S1x128.size a ≤ S512x128.size a) (j : Fin 512) (hoff : off = ![j.val, 0]) :
    (dstRow off h).view.set = rowSetS j := by
  ext y
  simp only [View.set, Finset.mem_map, Finset.mem_univ, true_and, rowSetS, Finset.mem_filter]
  constructor
  · rintro ⟨x, rfl⟩; rw [emb_dstRow off h j hoff]
  · intro hy
    refine ⟨ix1 (y 1), ?_⟩
    rw [emb_dstRow off h j hoff]
    show (ix2 j ((ix1 (y 1) : S128.Idx) 0) : S512x128.Idx) = y
    funext a
    match a with
    | ⟨0, _⟩ => exact (Fin.ext hy).symm
    | ⟨1, _⟩ => rfl

/-- Row `r` of the table, as a set of its elements. -/
def tabRowSet (r : Fin 1000000) : Finset S1000000x128.Idx := Finset.univ.filter fun y => (y 0).val = r.val

theorem set_srcRow (off : Fin 2 → ℕ) (h : ∀ a, off a + S1x128.size a ≤ S1000000x128.size a) (r : Fin 1000000) (hoff : off = ![r.val, 0]) :
    (srcRow off h).view.set = tabRowSet r := by
  ext y
  simp only [View.set, Finset.mem_map, Finset.mem_univ, true_and, tabRowSet, Finset.mem_filter]
  constructor
  · rintro ⟨x, rfl⟩; rw [emb_srcRow off h r hoff]
  · intro hy
    refine ⟨ix1 (y 1), ?_⟩
    rw [emb_srcRow off h r hoff]
    show (ix2 r ((ix1 (y 1) : S128.Idx) 0) : S1000000x128.Idx) = y
    funext a
    match a with
    | ⟨0, _⟩ => exact (Fin.ext hy).symm
    | ⟨1, _⟩ => rfl

theorem rowSetS_disjoint : ∀ i ∈ (Finset.univ : Finset (Fin 512)), ∀ j ∈ (Finset.univ : Finset (Fin 512)), i ≠ j → Disjoint (rowSetS i) (rowSetS j) := by
  intro i _ j _ hij
  refine Finset.disjoint_left.mpr fun y h1 h2 => hij (Fin.ext ?_)
  simp only [rowSetS, Finset.mem_filter, Finset.mem_univ, true_and] at h1 h2
  omega
theorem rowSetS_cover : (Finset.univ : Finset (Fin 512)).biUnion rowSetS = Finset.univ := by
  ext y
  simp only [Finset.mem_biUnion, Finset.mem_univ, true_and, iff_true, rowSetS, Finset.mem_filter]
  exact ⟨y 0, rfl⟩

/-- What a row copy lands on its destination row: the source row, lane by lane. -/
theorem landed_row (offD : Fin 2 → ℕ) (hD : ∀ a, offD a + S1x128.size a ≤ S512x128.size a) (j : Fin 512) (hoffD : offD = ![j.val, 0])
    (offS : Fin 2 → ℕ) (hS : ∀ a, offS a + S1x128.size a ≤ S1000000x128.size a) (r : Fin 1000000) (hoffS : offS = ![r.val, 0])
    (fd R : S512x128.Idx → Elt F .f32) (fs : S1000000x128.Idx → Elt F .f32)
    (hR : ∀ q : Fin 128, R (ix2 j q) = fs (ix2 r q)) :
    ∀ i ∈ (dstRow offD hD).view.set,
      (dstRow offD hD).view.write (Elt F) fd (ReadAs.same.apply ((srcRow offS hS).view.read (Elt F) fs)) Finset.univ i = R i := by
  intro i hi
  obtain ⟨x, -, rfl⟩ := Finset.mem_map.mp hi
  rw [View.write_emb_of_mem _ _ (Finset.mem_univ _), ReadAs.apply_same, View.read_apply, emb_dstRow offD hD j hoffD, emb_srcRow offS hS r hoffS]
  exact Eq.trans rfl (hR (x 0)).symm

end Cert.Proof.KB

end
-- ==== Proof.KbScBatch.lean ====
/-
  The 512 row copies of one side, all completing on one semaphore. Copy t takes a 1/512 read share of the table's
  row ro t and the scratch's row t, and delivers that row at the landed contents (row t of the scratch is the table's
  row ro t) with the share back. issue_row: one such copy issued as transfer t of the batch.
-/
import proofs.«212231_g88622355185883_cont_sun_m_1073_38_alg».proof.Proof.KbScRows
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)

variable (Tv : (d : Dev nD) → Buf (Elt F) (tLoc d))

/-! ## The row batch: 512 copies on one semaphore -/

section Batch

variable (d : Dev nD) (c : Fin τ.nSC) (i : Fin τ.nSub)

/-- The row scratch of the task's vector subcore. -/
abbrev rowsLoc : Loc nD τ sig := (V d c i).loc cc1_scratch2
/-- The one semaphore the 512 row copies complete on. -/
abbrev semB : DmaSem sig := cc1_scratch3.sem
/-- One row's credit. -/
abbrev NR : ℕ := (dstRow ![0, 0] inb_S512x128_S1x128_0_0).view.dmaCredit
theorem NR_pos : 0 < NR := View.dmaCredit_pos _ (by decide)

variable (ro : Fin 512 → Fin 1000000) (q : PosShare TreeShare)

/-- The row scratch once every copy has landed: row `t` is the table's row `ro t`. -/
def Rfun : Buf (Elt F) (rowsLoc d c i) := fun (y : S512x128.Idx) => Tv d (ix2 (ro (y 0)) (y 1))

/-- What copy `t` delivers: its row of the scratch at the landed contents, and its read share of the table's row back. -/
def Dl (t : Fin 512) : sProp 𝕄 :=
  iprop((rowsLoc d c i ↦[rowSetS t]{fullShare} Rfun Tv d c i ro) ∗ (tLoc d ↦[tabRowSet (ro t)]{piece q 512 t} Tv d))

instance Dl_storable (t : Fin 512) : BI.Storable (upEmb : UEmb _ 𝕄) (Dl Tv d c i ro q t) := by unfold Dl; infer_instance

variable [FloatOps F]

/-- One row copy issued: copy `t` of the batch, from the table's row `ro t` to the scratch's row `t`. -/
theorem issue_row {α : Type} {Q : α → sProp 𝕄} (k : PUnit → Prog (TpuEff nD τ sig (Elt F) Λ₀ (V d c i).2) α)
    (t : Fin 512) (offD : Fin 2 → ℕ) (hD : ∀ a, offD a + S1x128.size a ≤ S512x128.size a) (hoffD : offD = ![t.val, 0])
    (offS : Fin 2 → ℕ) (hS : ∀ a, offS a + S1x128.size a ≤ S1000000x128.size a) (hoffS : offS = ![(ro t).val, 0])
    (fd : Buf (Elt F) (rowsLoc d c i))
    (hsrc : (srcRow offS hS).view.WordExact) (hdst : (dstRow offD hD).view.WordExact)
    (hsem : DmaTarget.Typed (nD := nD) (τ := τ) (p := (V d c i).2) .hbm (SemLoc.dma semB) (.here (dstRow offD hD))) :
    iprop((tLoc d ↦{piece q 512 t} Tv d) ∗ (rowsLoc d c i ↦[rowSetS t]{fullShare} fd)
        ∗ Transfers.Batch countersEmb (V d c i) (.dma semB) none NR (Dl Tv d c i ro q) t.val 0)
      ⊢ iprop((iprop((tLoc d ↦[Finset.univ \ tabRowSet (ro t)]{piece q 512 t} Tv d)
                ∗ Transfers.Batch countersEmb (V d c i) (.dma semB) none NR (Dl Tv d c i ro q) (t.val + 1) 0)
              -∗ wp frame (wpE (defs₀ (F := F)) 𝒱₀ (V d c i) none) Set.univ (k ⟨⟩) Q)
          -∗ wp frame (wpE (defs₀ (F := F)) 𝒱₀ (V d c i) none) Set.univ
              (.op (.enqueueDmaAs (srcRow offS hS) (.here (dstRow offD hD)) .same (.dma semB) hsrc hdst hsem) k) Q) := by
  have es : (srcRow offS hS).view.set = tabRowSet (ro t) := set_srcRow offS hS (ro t) hoffS
  have ed : (dstRow offD hD).view.set = rowSetS t := set_dstRow offD hD t hoffD
  have hDl : iprop(((dstRow offD hD).view.loc (V d c i) ↦[rowSetS t]{fullShare}
                ((dstRow offD hD).view.write (Elt F) fd (ReadAs.same.apply ((srcRow offS hS).view.read (Elt F) (Tv d))) Finset.univ))
              ∗ ((srcRow offS hS).view.loc (V d c i) ↦[(srcRow offS hS).view.set]{piece q 512 t} Tv d))
            ⊢ Dl Tv d c i ro q ⟨t.val, t.isLt⟩ := by
    unfold Dl
    rw [es]
    have hc : ((dstRow offD hD).view.loc (V d c i) ↦[rowSetS t]{fullShare}
          ((dstRow offD hD).view.write (Elt F) fd (ReadAs.same.apply ((srcRow offS hS).view.read (Elt F) (Tv d))) Finset.univ) : sProp 𝕄)
        = (rowsLoc d c i ↦[rowSetS t]{fullShare} Rfun Tv d c i ro) :=
      pointsTo_congr fun y hy => landed_row offD hD t hoffD offS hS (ro t) hoffS fd (Rfun Tv d c i ro) (Tv d) (fun _ => rfl) y (ed ▸ hy)
    rw [hc]
  have e1 : (tLoc d ↦[tabRowSet (ro t)]{piece q 512 t} Tv d : sProp 𝕄)
      = ((srcRow offS hS).view.loc (V d c i) ↦[(srcRow offS hS).view.set]{piece q 512 t} Tv d) := by rw [es]
  iintro ⟨Ht, Hd, HB⟩ Hk
  ihave Hsp := (pointsTo_split_subset (I := tabRowSet (ro t)) (Finset.subset_univ _)).1 $$ Ht
  icases Hsp with ⟨Hrow, Hrest⟩
  ihave Hsrc := (Entails.of_eq e1) $$ Hrow
  iapply (Transfers.wp_dmaBatch countersEmb 𝒱₀ (V d c i) none (src := srcRow offS hS) (dst := dstRow offD hD) (via := .same)
      (q := piece q 512 t) (fs := Tv d) (Sd := rowSetS t) (fd := fd) (D := Dl Tv d c i ro q) (j := t.val) (u := 0)
      none NR rfl (by rw [ed]) t.isLt (Nat.zero_le _) hDl) $$ [Hsrc Hd HB]
  · isplitl [Hsrc]; · iexact Hsrc
    isplitl [Hd]; · iexact Hd
    iexact HB
  iintro HB
  iapply Hk
  isplitl [Hrest]; · iexact Hrest
  iexact HB

end Batch

end Cert.Proof.KB

end
-- ==== Proof.KbScCoords.lean ====
/-
  The task's place — its SparseCore, its vector subcore, the number of its slice — and the arrays and scratches as
  the task's body names them.
-/
import proofs.«212231_g88622355185883_cont_sun_m_1073_38_alg».proof.Proof.KbScBatch
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

/-! ## The task's place: its SparseCore, its vector subcore, its slice -/

section Tile

variable (L : grid1.Coords)

abbrev cV (L : grid1.Coords) : Fin τ.nSC := (L 0).castLE hcore1
abbrev jV (L : grid1.Coords) : Fin τ.nSub := (L 1).castLE hsub1
theorem bound0 : grid1.bound 0 = 2 := rfl
theorem bound1 : grid1.bound 1 = 16 := rfl
abbrev cL (L : grid1.Coords) : Fin 2 := Fin.cast bound0 (L 0)
abbrev iL (L : grid1.Coords) : Fin 16 := Fin.cast bound1 (L 1)
abbrev wL (L : grid1.Coords) : Fin 32 := wid (cL L) (iL L)

abbrev uV : Memref sig .scVector .hbm S16384 .i32 := Memref.whole main_arg0_scv
abbrev iV : Memref sig .scVector .hbm S16384 .i32 := Memref.whole main_arg1_scv
abbrev ouV : Memref sig .scVector .hbm S16384x128 .f32 := Memref.whole main_v5_0_scv
abbrev oiV : Memref sig .scVector .hbm S16384x128 .f32 := Memref.whole main_v5_1_scv
abbrev sU : Memref sig .scVector .vmem S512 .i32 := Memref.whole cc1_scratch0
abbrev sI : Memref sig .scVector .vmem S512 .i32 := Memref.whole cc1_scratch1

abbrev idxR (L : grid1.Coords) : Rect S16384 := Rect.unit (s := S16384) (k1_off1 L) S512.size (k1_off1_inb L)
abbrev outR (L : grid1.Coords) : Rect S16384x128 := Rect.unit (s := S16384x128) (k1_off36 L) S512x128.size (k1_off36_inb L)
abbrev uK (L : grid1.Coords) : Memref sig .scVector .hbm S512 .i32 := uV.slice (idxR L) (fun _ => rfl)
abbrev iK (L : grid1.Coords) : Memref sig .scVector .hbm S512 .i32 := iV.slice (idxR L) (fun _ => rfl)
abbrev ouK (L : grid1.Coords) : Memref sig .scVector .hbm S512x128 .f32 := ouV.slice (outR L) (fun _ => rfl)
abbrev oiK (L : grid1.Coords) : Memref sig .scVector .hbm S512x128 .f32 := oiV.slice (outR L) (fun _ => rfl)

end Tile

end Cert.Proof.KB

end
-- ==== Proof.KbScFire.lean ====
/-
  The batch from its first issue to its last wait. Fire t: what the task holds once t copies are issued and none waited
  for (the shares not yet lent, what is left of the lent ones, the scratch rows not yet written). issue_step: one more
  issued. Drain n: the batch after n of the 512 waits, each of one row's amount; the first 511 learn nothing, the last
  hands every delivery back (wait_step). A loaded lane is the index word at its position; a word below the table's
  height names a row.
-/
import proofs.«212231_g88622355185883_cont_sun_m_1073_38_alg».proof.Proof.KbScCoords
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)
open Idealize.ShloMosaic.Transfers (pending issued Batch MayWaits)

variable (Tv : (d : Dev nD) → Buf (Elt F) (tLoc d))

/-! ## The row batch from its first issue to its last wait -/

section Fire

variable (d : Dev nD) (c : Fin τ.nSC) (i : Fin τ.nSub)
variable (ro : Fin 512 → Fin 1000000) (q : PosShare TreeShare)

/-- What the task holds of the batch once `t` copies are issued and none waited for: the read shares of the table not yet
    lent, what is left of the lent ones (all but the row), the scratch rows not yet written, and the batch. -/
def Fire (t : ℕ) : sProp 𝕄 :=
  iprop(bigSep (pending (n := 512) t) (fun u => tLoc d ↦{piece q 512 u} Tv d)
    ∗ bigSep (issued (m := 512) t) (fun u => tLoc d ↦[Finset.univ \ tabRowSet (ro u)]{piece q 512 u} Tv d)
    ∗ bigSep (pending (n := 512) t) (fun u => iprop(∃ f, rowsLoc d c i ↦[rowSetS u]{fullShare} f))
    ∗ Batch countersEmb (V d c i) (.dma semB) none NR (Dl Tv d c i ro q) t 0)

variable [FloatOps F]

/-- One more copy issued. -/
theorem issue_step {α : Type} {Q : α → sProp 𝕄} (k : PUnit → Prog (TpuEff nD τ sig (Elt F) Λ₀ (V d c i).2) α)
    (t : ℕ) (ht : t < 512) (offD : Fin 2 → ℕ) (hD : ∀ a, offD a + S1x128.size a ≤ S512x128.size a) (hoffD : offD = ![t, 0])
    (offS : Fin 2 → ℕ) (hS : ∀ a, offS a + S1x128.size a ≤ S1000000x128.size a) (hoffS : offS = ![(ro ⟨t, ht⟩).val, 0])
    (hsrc : (srcRow offS hS).view.WordExact) (hdst : (dstRow offD hD).view.WordExact)
    (hsem : DmaTarget.Typed (nD := nD) (τ := τ) (p := (V d c i).2) .hbm (SemLoc.dma semB) (.here (dstRow offD hD))) :
    Fire Tv d c i ro q t
      ⊢ iprop((Fire Tv d c i ro q (t + 1) -∗ wp frame (wpE (defs₀ (F := F)) 𝒱₀ (V d c i) none) Set.univ (k ⟨⟩) Q)
          -∗ wp frame (wpE (defs₀ (F := F)) 𝒱₀ (V d c i) none) Set.univ
              (.op (.enqueueDmaAs (srcRow offS hS) (.here (dstRow offD hD)) .same (.dma semB) hsrc hdst hsem) k) Q) := by
  unfold Fire
  rw [Transfers.bigSep_pending_step _ t ht, Transfers.bigSep_pending_step _ t ht, Transfers.issued_succ ht,
    SparseCore.bigSep_insert' (Transfers.not_mem_issued ht)]
  iintro ⟨⟨Ht, Hsh⟩, Hre, ⟨⟨%fd, Hd⟩, Hrw⟩, HB⟩ Hk
  iapply (issue_row Tv d c i ro q k ⟨t, ht⟩ offD hD hoffD offS hS hoffS fd hsrc hdst hsem) $$ [Ht Hd HB]
  · isplitl [Ht]; · iexact Ht
    isplitl [Hd]; · iexact Hd
    iexact HB
  iintro ⟨Hrest, HB⟩
  iapply Hk
  isplitl [Hsh]; · iexact Hsh
  isplitl [Hrest Hre]
  · isplitl [Hrest]; · iexact Hrest
    iexact Hre
  isplitl [Hrw]; · iexact Hrw
  iexact HB

/-- The batch while it drains: after `n` of the 512 waits. The last wait hands every delivery back. -/
def Drain (n : ℕ) : sProp 𝕄 :=
  if n < 512 then Batch countersEmb (V d c i) (.dma semB) none NR (Dl Tv d c i ro q) 512 (n * NR)
  else iprop(bigSep Finset.univ (Dl Tv d c i ro q) ∗ semVal ((V d c i, SemLoc.dma semB) : GSem nD τ sig) 0)

/-- One of the 512 waits, each of one row's amount. -/
theorem wait_step {α : Type} {Q : α → sProp 𝕄} (k : PUnit → Prog (TpuEff nD τ sig (Elt F) Λ₀ (V d c i).2) α) (n : ℕ) (hn : n < 512)
    (O : CellTallies nD τ sig (HIx 1)) (W : Waits sig (HIx 1))
    (hsrc : (srcRow ![0, 0] inb_S1000000x128_S1x128_0_0).view.WordExact) (hdst : (dstRow ![0, 0] inb_S512x128_S1x128_0_0).view.WordExact) :
    iprop(Drain Tv d c i ro q n ∗ owes (V d c i) O W ∗ MayWaits (V d c i) none O)
      ⊢ iprop((iprop(Drain Tv d c i ro q (n + 1) ∗ owes (V d c i) O (insert (SemLoc.dma semB, none) W))
              -∗ wp frame (wpE (defs₀ (F := F)) 𝒱₀ (V d c i) none) Set.univ (k ⟨⟩) Q)
          -∗ wp frame (wpE (defs₀ (F := F)) 𝒱₀ (V d c i) none) Set.univ
              (.op (.waitDma2 semB (srcRow ![0, 0] inb_S1000000x128_S1x128_0_0) (dstRow ![0, 0] inb_S512x128_S1x128_0_0) hsrc hdst) k) Q) := by
  unfold Drain; rw [if_pos hn]
  by_cases hl : n + 1 < 512
  · rw [if_pos hl]
    iintro ⟨HD, HO, #Hmw⟩ Hk
    ihave Hw := (MayWaits.elim (SemLoc.dma semB)) $$ Hmw
    have hu : n * NR + NR < NR * 512 := by
      calc n * NR + NR = (n + 1) * NR := (Nat.succ_mul n NR).symm
        _ < 512 * NR := Nat.mul_lt_mul_of_pos_right hl NR_pos
        _ = NR * 512 := Nat.mul_comm _ _
    iapply (Transfers.wp_waitBatchO countersEmb 𝒱₀ (V d c i) none none (N := NR) rfl (u := n * NR) hu (O := O) (W := W)) $$ [HD HO Hw]
    · isplitl [HD]; · iexact HD
      isplitl [HO]; · iexact HO
      iexact Hw
    iintro ⟨HB, HO⟩
    iapply Hk
    isplitl [HB]; · rw [Nat.succ_mul]; iexact HB
    iexact HO
  · rw [if_neg hl]
    have hn' : n = 511 := by omega
    subst hn'
    iintro ⟨HD, HO, #Hmw⟩ Hk
    ihave Hw := (MayWaits.elim (SemLoc.dma semB)) $$ Hmw
    have hu : 511 * NR + NR = NR * 512 := by rw [← Nat.succ_mul]; exact Nat.mul_comm _ _
    iapply (Transfers.wp_waitBatchLastO countersEmb 𝒱₀ (V d c i) none none (N := NR) rfl NR_pos (u := 511 * NR) hu (O := O) (W := W)) $$ [HD HO Hw]
    · isplitl [HD]; · iexact HD
      isplitl [HO]; · iexact HO
      iexact Hw
    iintro ⟨HDs, Hv, HO⟩
    iapply Hk
    isplitl [HDs Hv]
    · isplitl [HDs]; · iexact HDs
      iexact Hv
    iexact HO

end Fire

/-! ## One lane of a firing trip -/

/-- A word below the table's height names a row: the side condition the body assumes of it. -/
theorem chk_of (w : BitVec 32) (h : w.toNat < 1000000) :
    ∀ a, (![w.toNat, 0] : Fin 2 → ℕ) a + S1x128.size a ≤ S1000000x128.size a := by
  intro a
  match a with
  | ⟨0, _⟩ => show w.toNat + 1 ≤ 1000000; omega
  | ⟨1, _⟩ => show 0 + 128 ≤ 128; omega

/-- Lane `l` of the sixteen index words a trip loads from the user-index scratch. -/
theorem lane_valU (s : S512.Idx → BitVec 32) (off : Fin 1 → ℕ) (hin : ∀ a, off a + S16.size a ≤ S512.size a) (tv : ℕ) (hoff : off = ![16 * tv])
    (l : Fin 16) (h : 16 * tv + l.val < 512) :
    (sU : Memref sig .scVector .vmem S512 .i32).view.readAt (Elt F) (Rect.unit (s := S512) off S16.size hin).toLoadRect s (ix1 l)
      = s (ix1 ⟨16 * tv + l.val, h⟩) := by
  subst hoff
  simp only [View.readAt_apply, Memref.view_whole, View.read_whole]
  refine congrArg s ?_
  funext a; apply Fin.ext
  rw [LoadRect.idx_apply, Subsingleton.elim a 0]
  show 16 * tv + 1 * l.val = 16 * tv + l.val
  omega
/-- The same for the item-index scratch. -/
theorem lane_valI (s : S512.Idx → BitVec 32) (off : Fin 1 → ℕ) (hin : ∀ a, off a + S16.size a ≤ S512.size a) (tv : ℕ) (hoff : off = ![16 * tv])
    (l : Fin 16) (h : 16 * tv + l.val < 512) :
    (sI : Memref sig .scVector .vmem S512 .i32).view.readAt (Elt F) (Rect.unit (s := S512) off S16.size hin).toLoadRect s (ix1 l)
      = s (ix1 ⟨16 * tv + l.val, h⟩) := by
  subst hoff
  simp only [View.readAt_apply, Memref.view_whole, View.read_whole]
  refine congrArg s ?_
  funext a; apply Fin.ext
  rw [LoadRect.idx_apply, Subsingleton.elim a 0]
  show 16 * tv + 1 * l.val = 16 * tv + l.val
  omega

section Lane

variable (d : Dev nD) (c : Fin τ.nSC) (i : Fin τ.nSub) (q : PosShare TreeShare)
variable (s : S512.Idx → BitVec 32)

/-- The rows the index words name. -/
abbrev roOf (s : S512.Idx → BitVec 32) : Fin 512 → Fin 1000000 := fun j => rowOf (s (ix1 j))

variable [FloatOps F]

/-- Copy `t` of a firing loop: the word `w` is index word `t`, its row goes to the scratch's row `t`. -/
theorem issue_lane (hlt : ∀ j : Fin 512, (s (ix1 j)).toNat < 1000000)
    {α : Type} {Q : α → sProp 𝕄} (k : PUnit → Prog (TpuEff nD τ sig (Elt F) Λ₀ (V d c i).2) α)
    (t : ℕ) (ht : t < 512) (offD : Fin 2 → ℕ) (hD : ∀ a, offD a + S1x128.size a ≤ S512x128.size a) (tD : ℕ) (hoffD : offD = ![tD, 0]) (htD : tD = t)
    (w : BitVec 32) (hw : w = s (ix1 ⟨t, ht⟩))
    (offS : Fin 2 → ℕ) (hS : ∀ a, offS a + S1x128.size a ≤ S1000000x128.size a) (hoffS : offS = ![w.toNat, 0])
    (hsrc : (srcRow offS hS).view.WordExact) (hdst : (dstRow offD hD).view.WordExact)
    (hsem : DmaTarget.Typed (nD := nD) (τ := τ) (p := (V d c i).2) .hbm (SemLoc.dma semB) (.here (dstRow offD hD))) :
    Fire Tv d c i (roOf s) q t
      ⊢ iprop((Fire Tv d c i (roOf s) q (t + 1) -∗ wp frame (wpE (defs₀ (F := F)) 𝒱₀ (V d c i) none) Set.univ (k ⟨⟩) Q)
          -∗ wp frame (wpE (defs₀ (F := F)) 𝒱₀ (V d c i) none) Set.univ
              (.op (.enqueueDmaAs (srcRow offS hS) (.here (dstRow offD hD)) .same (.dma semB) hsrc hdst hsem) k) Q) := by
  subst htD
  refine issue_step Tv d c i (roOf s) q k tD ht offD hD hoffD offS hS ?_ hsrc hdst hsem
  rw [hoffS, hw, rowOf_val (hlt _)]

end Lane

end Cert.Proof.KB

end
-- ==== Proof.KbScLane.lean ====
/-
  One lane of a 16-lane index vector.

  The gathering task reads its row indices sixteen at a time and takes them apart lane by lane: a one-element
  slice at offset l of the (identically re-shaped) vector, then that slice's one element. Each such value is
  the vector's lane l.
-/
import proofs.«212231_g88622355185883_cont_sun_m_1073_38_alg».proof.Proof.KbSetup
import Idealize.ShloMosaic.Lib.ValueIdx
import Idealize.ShloMosaic.Lib.Pipeline.Value

noncomputable section

namespace Cert.Proof.KB

open Cert.Kernel Cert.Kernel.Gen

open Idealize.ShloMosaic Idealize.ShloMosaic.ValueIdx

variable {F : FTy → Type} [FloatOps F]

/-- The one element of the one-element slice at offset l is lane l. -/
theorem lane_slice {α : Type} (x : S16.Idx → α) (l : Fin 16) (off : Fin 1 → Nat) (hoff : off = ![l.val]) (hs : S16.Slices off S1)
    (hp : ∀ a, (![0] : Fin 1 → Nat) a < S1.size a) :
    extractAt ![0] (extractStridedSlice S1 off x hs) hp = x (ix1 l) := by
  subst hoff
  unfold extractAt
  refine extractStridedSlice_apply _ x hs _ (ix1 l) fun a => ?_
  match a with
  | ⟨0, _⟩ => show l.val = l.val + 0; omega

/-- The same through the identical re-shaping the task applies first. -/
theorem lane_cast_slice {α : Type} (x : S16.Idx → α) (l : Fin 16) (off : Fin 1 → Nat) (hoff : off = ![l.val]) (hc : S16.ShapeCasts S16)
    (hs : S16.Slices off S1) (hp : ∀ a, (![0] : Fin 1 → Nat) a < S1.size a) :
    extractAt ![0] (extractStridedSlice S1 off (shapeCast S16 x hc) hs) hp = x (ix1 l) := by
  rw [shapeCast_self]
  exact lane_slice x l off hoff hs hp

/-- The re-shaping of a 16-vector to a 16-vector changes nothing. -/
theorem k1_pay1_eq (v9 : Vec F S16 .i32) : k1_pay1 v9 = v9 := shapeCast_self _ _
theorem k1_pay17_eq (v9 : Vec F S16 .i32) : k1_pay17 v9 = v9 := shapeCast_self _ _

/-! ## The user side's sixteen lanes -/

theorem lane_pay2 (v9 : Vec F S16 .i32) : extractAt ![0] (k1_pay2 v9) inpos_S1_p0 = v9 (ix1 (0 : Fin 16)) :=
  lane_cast_slice v9 (0 : Fin 16) ![0] rfl shapeCasts_S16_S16 slices_S16_o0_S1 inpos_S1_p0
theorem lane_pay3 (v9 : Vec F S16 .i32) : extractAt ![0] (k1_pay3 v9) inpos_S1_p0 = v9 (ix1 (1 : Fin 16)) :=
  lane_cast_slice v9 (1 : Fin 16) ![1] rfl shapeCasts_S16_S16 slices_S16_o1_S1 inpos_S1_p0
theorem lane_pay4 (v9 : Vec F S16 .i32) : extractAt ![0] (k1_pay4 v9) inpos_S1_p0 = v9 (ix1 (2 : Fin 16)) :=
  lane_cast_slice v9 (2 : Fin 16) ![2] rfl shapeCasts_S16_S16 slices_S16_o2_S1 inpos_S1_p0
theorem lane_pay5 (v10 : IVec S16 32) : extractAt ![0] (k1_pay5 v10) inpos_S1_p0 = v10 (ix1 (3 : Fin 16)) :=
  lane_slice v10 (3 : Fin 16) ![3] rfl slices_S16_o3_S1 inpos_S1_p0
theorem lane_pay5_of (v9 : Vec F S16 .i32) : extractAt ![0] (k1_pay5 (k1_pay1 v9)) inpos_S1_p0 = v9 (ix1 (3 : Fin 16)) :=
  (lane_pay5 (k1_pay1 v9)).trans (congrFun (k1_pay1_eq v9) _)
theorem lane_pay6 (v10 : IVec S16 32) : extractAt ![0] (k1_pay6 v10) inpos_S1_p0 = v10 (ix1 (4 : Fin 16)) :=
  lane_slice v10 (4 : Fin 16) ![4] rfl slices_S16_o4_S1 inpos_S1_p0
theorem lane_pay6_of (v9 : Vec F S16 .i32) : extractAt ![0] (k1_pay6 (k1_pay1 v9)) inpos_S1_p0 = v9 (ix1 (4 : Fin 16)) :=
  (lane_pay6 (k1_pay1 v9)).trans (congrFun (k1_pay1_eq v9) _)
theorem lane_pay7 (v10 : IVec S16 32) : extractAt ![0] (k1_pay7 v10) inpos_S1_p0 = v10 (ix1 (5 : Fin 16)) :=
  lane_slice v10 (5 : Fin 16) ![5] rfl slices_S16_o5_S1 inpos_S1_p0
theorem lane_pay7_of (v9 : Vec F S16 .i32) : extractAt ![0] (k1_pay7 (k1_pay1 v9)) inpos_S1_p0 = v9 (ix1 (5 : Fin 16)) :=
  (lane_pay7 (k1_pay1 v9)).trans (congrFun (k1_pay1_eq v9) _)
theorem lane_pay8 (v10 : IVec S16 32) : extractAt ![0] (k1_pay8 v10) inpos_S1_p0 = v10 (ix1 (6 : Fin 16)) :=
  lane_slice v10 (6 : Fin 16) ![6] rfl slices_S16_o6_S1 inpos_S1_p0
theorem lane_pay8_of (v9 : Vec F S16 .i32) : extractAt ![0] (k1_pay8 (k1_pay1 v9)) inpos_S1_p0 = v9 (ix1 (6 : Fin 16)) :=
  (lane_pay8 (k1_pay1 v9)).trans (congrFun (k1_pay1_eq v9) _)
theorem lane_pay9 (v10 : IVec S16 32) : extractAt ![0] (k1_pay9 v10) inpos_S1_p0 = v10 (ix1 (7 : Fin 16)) :=
  lane_slice v10 (7 : Fin 16) ![7] rfl slices_S16_o7_S1 inpos_S1_p0
theorem lane_pay9_of (v9 : Vec F S16 .i32) : extractAt ![0] (k1_pay9 (k1_pay1 v9)) inpos_S1_p0 = v9 (ix1 (7 : Fin 16)) :=
  (lane_pay9 (k1_pay1 v9)).trans (congrFun (k1_pay1_eq v9) _)
theorem lane_pay10 (v10 : IVec S16 32) : extractAt ![0] (k1_pay10 v10) inpos_S1_p0 = v10 (ix1 (8 : Fin 16)) :=
  lane_slice v10 (8 : Fin 16) ![8] rfl slices_S16_o8_S1 inpos_S1_p0
theorem lane_pay10_of (v9 : Vec F S16 .i32) : extractAt ![0] (k1_pay10 (k1_pay1 v9)) inpos_S1_p0 = v9 (ix1 (8 : Fin 16)) :=
  (lane_pay10 (k1_pay1 v9)).trans (congrFun (k1_pay1_eq v9) _)
theorem lane_pay11 (v10 : IVec S16 32) : extractAt ![0] (k1_pay11 v10) inpos_S1_p0 = v10 (ix1 (9 : Fin 16)) :=
  lane_slice v10 (9 : Fin 16) ![9] rfl slices_S16_o9_S1 inpos_S1_p0
theorem lane_pay11_of (v9 : Vec F S16 .i32) : extractAt ![0] (k1_pay11 (k1_pay1 v9)) inpos_S1_p0 = v9 (ix1 (9 : Fin 16)) :=
  (lane_pay11 (k1_pay1 v9)).trans (congrFun (k1_pay1_eq v9) _)
theorem lane_pay12 (v10 : IVec S16 32) : extractAt ![0] (k1_pay12 v10) inpos_S1_p0 = v10 (ix1 (10 : Fin 16)) :=
  lane_slice v10 (10 : Fin 16) ![10] rfl slices_S16_o10_S1 inpos_S1_p0
theorem lane_pay12_of (v9 : Vec F S16 .i32) : extractAt ![0] (k1_pay12 (k1_pay1 v9)) inpos_S1_p0 = v9 (ix1 (10 : Fin 16)) :=
  (lane_pay12 (k1_pay1 v9)).trans (congrFun (k1_pay1_eq v9) _)
theorem lane_pay13 (v10 : IVec S16 32) : extractAt ![0] (k1_pay13 v10) inpos_S1_p0 = v10 (ix1 (11 : Fin 16)) :=
  lane_slice v10 (11 : Fin 16) ![11] rfl slices_S16_o11_S1 inpos_S1_p0
theorem lane_pay13_of (v9 : Vec F S16 .i32) : extractAt ![0] (k1_pay13 (k1_pay1 v9)) inpos_S1_p0 = v9 (ix1 (11 : Fin 16)) :=
  (lane_pay13 (k1_pay1 v9)).trans (congrFun (k1_pay1_eq v9) _)
theorem lane_pay14 (v10 : IVec S16 32) : extractAt ![0] (k1_pay14 v10) inpos_S1_p0 = v10 (ix1 (12 : Fin 16)) :=
  lane_slice v10 (12 : Fin 16) ![12] rfl slices_S16_o12_S1 inpos_S1_p0
theorem lane_pay14_of (v9 : Vec F S16 .i32) : extractAt ![0] (k1_pay14 (k1_pay1 v9)) inpos_S1_p0 = v9 (ix1 (12 : Fin 16)) :=
  (lane_pay14 (k1_pay1 v9)).trans (congrFun (k1_pay1_eq v9) _)
theorem lane_pay15 (v10 : IVec S16 32) : extractAt ![0] (k1_pay15 v10) inpos_S1_p0 = v10 (ix1 (13 : Fin 16)) :=
  lane_slice v10 (13 : Fin 16) ![13] rfl slices_S16_o13_S1 inpos_S1_p0
theorem lane_pay15_of (v9 : Vec F S16 .i32) : extractAt ![0] (k1_pay15 (k1_pay1 v9)) inpos_S1_p0 = v9 (ix1 (13 : Fin 16)) :=
  (lane_pay15 (k1_pay1 v9)).trans (congrFun (k1_pay1_eq v9) _)
theorem lane_pay16 (v10 : IVec S16 32) : extractAt ![0] (k1_pay16 v10) inpos_S1_p0 = v10 (ix1 (14 : Fin 16)) :=
  lane_slice v10 (14 : Fin 16) ![14] rfl slices_S16_o14_S1 inpos_S1_p0
theorem lane_pay16_of (v9 : Vec F S16 .i32) : extractAt ![0] (k1_pay16 (k1_pay1 v9)) inpos_S1_p0 = v9 (ix1 (14 : Fin 16)) :=
  (lane_pay16 (k1_pay1 v9)).trans (congrFun (k1_pay1_eq v9) _)
theorem lane_pay33 (v10 : IVec S16 32) : extractAt ![0] (k1_pay33 v10) inpos_S1_p0 = v10 (ix1 (15 : Fin 16)) :=
  lane_slice v10 (15 : Fin 16) ![15] rfl slices_S16_o15_S1 inpos_S1_p0
theorem lane_pay33_of (v9 : Vec F S16 .i32) : extractAt ![0] (k1_pay33 (k1_pay1 v9)) inpos_S1_p0 = v9 (ix1 (15 : Fin 16)) :=
  (lane_pay33 (k1_pay1 v9)).trans (congrFun (k1_pay1_eq v9) _)

/-! ## The item side's sixteen lanes -/

theorem lane_pay18 (v9 : Vec F S16 .i32) : extractAt ![0] (k1_pay18 v9) inpos_S1_p0 = v9 (ix1 (0 : Fin 16)) :=
  lane_cast_slice v9 (0 : Fin 16) ![0] rfl shapeCasts_S16_S16 slices_S16_o0_S1 inpos_S1_p0
theorem lane_pay19 (v9 : Vec F S16 .i32) : extractAt ![0] (k1_pay19 v9) inpos_S1_p0 = v9 (ix1 (1 : Fin 16)) :=
  lane_cast_slice v9 (1 : Fin 16) ![1] rfl shapeCasts_S16_S16 slices_S16_o1_S1 inpos_S1_p0
theorem lane_pay20 (v9 : Vec F S16 .i32) : extractAt ![0] (k1_pay20 v9) inpos_S1_p0 = v9 (ix1 (2 : Fin 16)) :=
  lane_cast_slice v9 (2 : Fin 16) ![2] rfl shapeCasts_S16_S16 slices_S16_o2_S1 inpos_S1_p0
theorem lane_pay21 (v10 : IVec S16 32) : extractAt ![0] (k1_pay21 v10) inpos_S1_p0 = v10 (ix1 (3 : Fin 16)) :=
  lane_slice v10 (3 : Fin 16) ![3] rfl slices_S16_o3_S1 inpos_S1_p0
theorem lane_pay21_of (v9 : Vec F S16 .i32) : extractAt ![0] (k1_pay21 (k1_pay17 v9)) inpos_S1_p0 = v9 (ix1 (3 : Fin 16)) :=
  (lane_pay21 (k1_pay17 v9)).trans (congrFun (k1_pay17_eq v9) _)
theorem lane_pay22 (v10 : IVec S16 32) : extractAt ![0] (k1_pay22 v10) inpos_S1_p0 = v10 (ix1 (4 : Fin 16)) :=
  lane_slice v10 (4 : Fin 16) ![4] rfl slices_S16_o4_S1 inpos_S1_p0
theorem lane_pay22_of (v9 : Vec F S16 .i32) : extractAt ![0] (k1_pay22 (k1_pay17 v9)) inpos_S1_p0 = v9 (ix1 (4 : Fin 16)) :=
  (lane_pay22 (k1_pay17 v9)).trans (congrFun (k1_pay17_eq v9) _)
theorem lane_pay23 (v10 : IVec S16 32) : extractAt ![0] (k1_pay23 v10) inpos_S1_p0 = v10 (ix1 (5 : Fin 16)) :=
  lane_slice v10 (5 : Fin 16) ![5] rfl slices_S16_o5_S1 inpos_S1_p0
theorem lane_pay23_of (v9 : Vec F S16 .i32) : extractAt ![0] (k1_pay23 (k1_pay17 v9)) inpos_S1_p0 = v9 (ix1 (5 : Fin 16)) :=
  (lane_pay23 (k1_pay17 v9)).trans (congrFun (k1_pay17_eq v9) _)
theorem lane_pay24 (v10 : IVec S16 32) : extractAt ![0] (k1_pay24 v10) inpos_S1_p0 = v10 (ix1 (6 : Fin 16)) :=
  lane_slice v10 (6 : Fin 16) ![6] rfl slices_S16_o6_S1 inpos_S1_p0
theorem lane_pay24_of (v9 : Vec F S16 .i32) : extractAt ![0] (k1_pay24 (k1_pay17 v9)) inpos_S1_p0 = v9 (ix1 (6 : Fin 16)) :=
  (lane_pay24 (k1_pay17 v9)).trans (congrFun (k1_pay17_eq v9) _)
theorem lane_pay25 (v10 : IVec S16 32) : extractAt ![0] (k1_pay25 v10) inpos_S1_p0 = v10 (ix1 (7 : Fin 16)) :=
  lane_slice v10 (7 : Fin 16) ![7] rfl slices_S16_o7_S1 inpos_S1_p0
theorem lane_pay25_of (v9 : Vec F S16 .i32) : extractAt ![0] (k1_pay25 (k1_pay17 v9)) inpos_S1_p0 = v9 (ix1 (7 : Fin 16)) :=
  (lane_pay25 (k1_pay17 v9)).trans (congrFun (k1_pay17_eq v9) _)
theorem lane_pay26 (v10 : IVec S16 32) : extractAt ![0] (k1_pay26 v10) inpos_S1_p0 = v10 (ix1 (8 : Fin 16)) :=
  lane_slice v10 (8 : Fin 16) ![8] rfl slices_S16_o8_S1 inpos_S1_p0
theorem lane_pay26_of (v9 : Vec F S16 .i32) : extractAt ![0] (k1_pay26 (k1_pay17 v9)) inpos_S1_p0 = v9 (ix1 (8 : Fin 16)) :=
  (lane_pay26 (k1_pay17 v9)).trans (congrFun (k1_pay17_eq v9) _)
theorem lane_pay27 (v10 : IVec S16 32) : extractAt ![0] (k1_pay27 v10) inpos_S1_p0 = v10 (ix1 (9 : Fin 16)) :=
  lane_slice v10 (9 : Fin 16) ![9] rfl slices_S16_o9_S1 inpos_S1_p0
theorem lane_pay27_of (v9 : Vec F S16 .i32) : extractAt ![0] (k1_pay27 (k1_pay17 v9)) inpos_S1_p0 = v9 (ix1 (9 : Fin 16)) :=
  (lane_pay27 (k1_pay17 v9)).trans (congrFun (k1_pay17_eq v9) _)
theorem lane_pay28 (v10 : IVec S16 32) : extractAt ![0] (k1_pay28 v10) inpos_S1_p0 = v10 (ix1 (10 : Fin 16)) :=
  lane_slice v10 (10 : Fin 16) ![10] rfl slices_S16_o10_S1 inpos_S1_p0
theorem lane_pay28_of (v9 : Vec F S16 .i32) : extractAt ![0] (k1_pay28 (k1_pay17 v9)) inpos_S1_p0 = v9 (ix1 (10 : Fin 16)) :=
  (lane_pay28 (k1_pay17 v9)).trans (congrFun (k1_pay17_eq v9) _)
theorem lane_pay29 (v10 : IVec S16 32) : extractAt ![0] (k1_pay29 v10) inpos_S1_p0 = v10 (ix1 (11 : Fin 16)) :=
  lane_slice v10 (11 : Fin 16) ![11] rfl slices_S16_o11_S1 inpos_S1_p0
theorem lane_pay29_of (v9 : Vec F S16 .i32) : extractAt ![0] (k1_pay29 (k1_pay17 v9)) inpos_S1_p0 = v9 (ix1 (11 : Fin 16)) :=
  (lane_pay29 (k1_pay17 v9)).trans (congrFun (k1_pay17_eq v9) _)
theorem lane_pay30 (v10 : IVec S16 32) : extractAt ![0] (k1_pay30 v10) inpos_S1_p0 = v10 (ix1 (12 : Fin 16)) :=
  lane_slice v10 (12 : Fin 16) ![12] rfl slices_S16_o12_S1 inpos_S1_p0
theorem lane_pay30_of (v9 : Vec F S16 .i32) : extractAt ![0] (k1_pay30 (k1_pay17 v9)) inpos_S1_p0 = v9 (ix1 (12 : Fin 16)) :=
  (lane_pay30 (k1_pay17 v9)).trans (congrFun (k1_pay17_eq v9) _)
theorem lane_pay31 (v10 : IVec S16 32) : extractAt ![0] (k1_pay31 v10) inpos_S1_p0 = v10 (ix1 (13 : Fin 16)) :=
  lane_slice v10 (13 : Fin 16) ![13] rfl slices_S16_o13_S1 inpos_S1_p0
theorem lane_pay31_of (v9 : Vec F S16 .i32) : extractAt ![0] (k1_pay31 (k1_pay17 v9)) inpos_S1_p0 = v9 (ix1 (13 : Fin 16)) :=
  (lane_pay31 (k1_pay17 v9)).trans (congrFun (k1_pay17_eq v9) _)
theorem lane_pay32 (v10 : IVec S16 32) : extractAt ![0] (k1_pay32 v10) inpos_S1_p0 = v10 (ix1 (14 : Fin 16)) :=
  lane_slice v10 (14 : Fin 16) ![14] rfl slices_S16_o14_S1 inpos_S1_p0
theorem lane_pay32_of (v9 : Vec F S16 .i32) : extractAt ![0] (k1_pay32 (k1_pay17 v9)) inpos_S1_p0 = v9 (ix1 (14 : Fin 16)) :=
  (lane_pay32 (k1_pay17 v9)).trans (congrFun (k1_pay17_eq v9) _)
theorem lane_pay34 (v10 : IVec S16 32) : extractAt ![0] (k1_pay34 v10) inpos_S1_p0 = v10 (ix1 (15 : Fin 16)) :=
  lane_slice v10 (15 : Fin 16) ![15] rfl slices_S16_o15_S1 inpos_S1_p0
theorem lane_pay34_of (v9 : Vec F S16 .i32) : extractAt ![0] (k1_pay34 (k1_pay17 v9)) inpos_S1_p0 = v9 (ix1 (15 : Fin 16)) :=
  (lane_pay34 (k1_pay17 v9)).trans (congrFun (k1_pay17_eq v9) _)

end Cert.Proof.KB

end
-- ==== Proof.KbScRegionU.lean ====
/-
  One trip of the user side's firing loop: sixteen index words loaded, and for each the copy of the table row it names
  onto the next row of the scratch issued. Before trip k the batch has 16 k copies issued, after it 16 (k + 1).
-/
import proofs.«212231_g88622355185883_cont_sun_m_1073_38_alg».proof.Proof.KbScFire
import proofs.«212231_g88622355185883_cont_sun_m_1073_38_alg».proof.Proof.KbScLane
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)
open Idealize.ShloMosaic.Transfers (pending issued Batch MayWaits)
open Idealize.ShloMosaic.Tactic

variable (Tv : (d : Dev nD) → Buf (Elt F) (tLoc d))

section RegionU

variable (d : Dev nD) (L : grid1.Coords) (q : PosShare TreeShare) (s : S512.Idx → BitVec 32)
variable [FloatOps F]

/-- Before trip `k` of the user side's firing loop: the index scratch, and the batch with `16 k` copies issued. -/
def invFireU (k : ℕ) (_ : Unit) : sProp 𝕄 :=
  iprop(((sU : Memref sig .scVector .vmem S512 .i32).view.loc (V d (cV L) (jV L)) ↦{fullShare} s)
    ∗ Fire Tv d (cV L) (jV L) (roOf s) q (16 * k))

theorem trips1 : k1_t1_loop.trips = 32 := by decide

theorem fire_regionU (hlt : ∀ j : Fin 512, (s (ix1 j)).toNat < 1000000) (k : Fin k1_t1_loop.trips) (acc : Unit) :
    invFireU Tv d L q s k.val acc
      ⊢ wp frame (wpE (defs₀ (F := F)) 𝒱₀ (V d (cV L) (jV L)) none) Set.univ
          (k1_t1_body L uV (Memref.isWhole_whole _) iV (Memref.isWhole_whole _) tabV (Memref.isWhole_whole _) ouV (Memref.isWhole_whole _) oiV (Memref.isWhole_whole _)
            sU (Memref.isWhole_whole _) sI (Memref.isWhole_whole _) rowsV (Memref.isWhole_whole _) cc1_scratch3 cc1_scoped0 cc1_scoped1 cc1_scoped2 cc1_scoped3 k acc)
          (invFireU Tv d L q s (k.val + 1)) := by
  have hk : k.val < 32 := lt_of_lt_of_eq k.isLt trips1
  unfold invFireU
  iintro ⟨Hs, HF⟩
  unfold k1_t1_body
  simp only [k1_part1_eq_skeleton, k1_part2_eq_skeleton, k1_part3_eq_skeleton, k1_part4_eq_skeleton, k1_part5_eq_skeleton]
  unfold k1_part1_skel k1_part2_skel k1_part3_skel k1_part4_skel k1_part5_skel
  simp only [Prog.lift, Prog.bind_op, Prog.bind_ret, Prog.pure_eq_ret]
  iapply (wp_load 𝒱₀ (V d (cV L) (jV L)) none Set.univ (m := (sU : Memref sig .scVector .vmem S512 .i32)) (S := Finset.univ) (Finset.subset_univ _)) $$ Hs; iintro Hs
  have hv : ∀ l : Fin 16, (sU : Memref sig .scVector .vmem S512 .i32).view.readAt (Elt F) (Rect.unit (s := S512) (k1_off2 k) S16.size (k1_off2_inb k)).toLoadRect s (ix1 l)
      = s (ix1 ⟨16 * k.val + l.val, by have := l.isLt; omega⟩) :=
    fun l => lane_valU s (k1_off2 k) (k1_off2_inb k) k.val (k1_off2_eq k) l (by have := l.isLt; omega)
  generalize (sU : Memref sig .scVector .vmem S512 .i32).view.readAt (Elt F) (Rect.unit (s := S512) (k1_off2 k) S16.size (k1_off2_inb k)).toLoadRect s = v9 at hv ⊢
  ihave HF := (Entails.of_eq (congrArg (Fire Tv d (cV L) (jV L) (roOf s) q) (show 16 * k.val = 16 * k.val + 0 from rfl))) $$ HF
  -- lane 0
  have hw0 : extractAt ![0] (k1_pay2 v9) inpos_S1_p0 = s (ix1 ⟨16 * k.val + 0, by omega⟩) := (lane_pay2 v9).trans (hv (0 : Fin 16))
  rw [wp_assume_of _ _ _ _ (show k1_chk1 (extractAt ![0] (k1_pay2 v9) inpos_S1_p0) from chk_of _ (by rw [hw0]; exact hlt _))]
  iapply (issue_lane Tv d (cV L) (jV L) q s hlt _ (16 * k.val + 0) (by omega) _ _ (16 * k.val + 0) (k1_off5_eq k ⟨0, by decide⟩) (by omega) _ hw0 _ _ rfl _ _ _) $$ HF
  iintro HF
  ihave HF := (Entails.of_eq (congrArg (Fire Tv d (cV L) (jV L) (roOf s) q) (show 16 * k.val + 0 + 1 = 16 * k.val + 1 from rfl))) $$ HF
  -- lane 1
  have hw1 : extractAt ![0] (k1_pay3 v9) inpos_S1_p0 = s (ix1 ⟨16 * k.val + 1, by omega⟩) := (lane_pay3 v9).trans (hv (1 : Fin 16))
  rw [wp_assume_of _ _ _ _ (show k1_chk2 (extractAt ![0] (k1_pay3 v9) inpos_S1_p0) from chk_of _ (by rw [hw1]; exact hlt _))]
  iapply (issue_lane Tv d (cV L) (jV L) q s hlt _ (16 * k.val + 1) (by omega) _ _ (16 * k.val + 0 + 1) (k1_off7_eq k ⟨0, by decide⟩) (by omega) _ hw1 _ _ rfl _ _ _) $$ HF
  iintro HF
  ihave HF := (Entails.of_eq (congrArg (Fire Tv d (cV L) (jV L) (roOf s) q) (show 16 * k.val + 1 + 1 = 16 * k.val + 2 from rfl))) $$ HF
  -- lane 2
  have hw2 : extractAt ![0] (k1_pay4 v9) inpos_S1_p0 = s (ix1 ⟨16 * k.val + 2, by omega⟩) := (lane_pay4 v9).trans (hv (2 : Fin 16))
  rw [wp_assume_of _ _ _ _ (show k1_chk3 (extractAt ![0] (k1_pay4 v9) inpos_S1_p0) from chk_of _ (by rw [hw2]; exact hlt _))]
  iapply (issue_lane Tv d (cV L) (jV L) q s hlt _ (16 * k.val + 2) (by omega) _ _ (16 * k.val + 0 + 2) (k1_off9_eq k ⟨0, by decide⟩) (by omega) _ hw2 _ _ rfl _ _ _) $$ HF
  iintro HF
  ihave HF := (Entails.of_eq (congrArg (Fire Tv d (cV L) (jV L) (roOf s) q) (show 16 * k.val + 2 + 1 = 16 * k.val + 3 from rfl))) $$ HF
  -- lane 3
  have hw3 : extractAt ![0] (k1_pay5 (k1_pay1 v9)) inpos_S1_p0 = s (ix1 ⟨16 * k.val + 3, by omega⟩) := (lane_pay5_of v9).trans (hv (3 : Fin 16))
  rw [wp_assume_of _ _ _ _ (show k1_chk4 (extractAt ![0] (k1_pay5 (k1_pay1 v9)) inpos_S1_p0) from chk_of _ (by rw [hw3]; exact hlt _))]
  iapply (issue_lane Tv d (cV L) (jV L) q s hlt _ (16 * k.val + 3) (by omega) _ _ (16 * k.val + 0 + 3) (k1_off11_eq k ⟨0, by decide⟩) (by omega) _ hw3 _ _ rfl _ _ _) $$ HF
  iintro HF
  ihave HF := (Entails.of_eq (congrArg (Fire Tv d (cV L) (jV L) (roOf s) q) (show 16 * k.val + 3 + 1 = 16 * k.val + 4 from rfl))) $$ HF
  -- lane 4
  have hw4 : extractAt ![0] (k1_pay6 (k1_pay1 v9)) inpos_S1_p0 = s (ix1 ⟨16 * k.val + 4, by omega⟩) := (lane_pay6_of v9).trans (hv (4 : Fin 16))
  rw [wp_assume_of _ _ _ _ (show k1_chk5 (extractAt ![0] (k1_pay6 (k1_pay1 v9)) inpos_S1_p0) from chk_of _ (by rw [hw4]; exact hlt _))]
  iapply (issue_lane Tv d (cV L) (jV L) q s hlt _ (16 * k.val + 4) (by omega) _ _ (16 * k.val + 0 + 4) (k1_off13_eq k ⟨0, by decide⟩) (by omega) _ hw4 _ _ rfl _ _ _) $$ HF
  iintro HF
  ihave HF := (Entails.of_eq (congrArg (Fire Tv d (cV L) (jV L) (roOf s) q) (show 16 * k.val + 4 + 1 = 16 * k.val + 5 from rfl))) $$ HF
  -- lane 5
  have hw5 : extractAt ![0] (k1_pay7 (k1_pay1 v9)) inpos_S1_p0 = s (ix1 ⟨16 * k.val + 5, by omega⟩) := (lane_pay7_of v9).trans (hv (5 : Fin 16))
  rw [wp_assume_of _ _ _ _ (show k1_chk6 (extractAt ![0] (k1_pay7 (k1_pay1 v9)) inpos_S1_p0) from chk_of _ (by rw [hw5]; exact hlt _))]
  iapply (issue_lane Tv d (cV L) (jV L) q s hlt _ (16 * k.val + 5) (by omega) _ _ (16 * k.val + 0 + 5) (k1_off15_eq k ⟨0, by decide⟩) (by omega) _ hw5 _ _ rfl _ _ _) $$ HF
  iintro HF
  ihave HF := (Entails.of_eq (congrArg (Fire Tv d (cV L) (jV L) (roOf s) q) (show 16 * k.val + 5 + 1 = 16 * k.val + 6 from rfl))) $$ HF
  -- lane 6
  have hw6 : extractAt ![0] (k1_pay8 (k1_pay1 v9)) inpos_S1_p0 = s (ix1 ⟨16 * k.val + 6, by omega⟩) := (lane_pay8_of v9).trans (hv (6 : Fin 16))
  rw [wp_assume_of _ _ _ _ (show k1_chk7 (extractAt ![0] (k1_pay8 (k1_pay1 v9)) inpos_S1_p0) from chk_of _ (by rw [hw6]; exact hlt _))]
  iapply (issue_lane Tv d (cV L) (jV L) q s hlt _ (16 * k.val + 6) (by omega) _ _ (16 * k.val + 0 + 6) (k1_off17_eq k ⟨0, by decide⟩) (by omega) _ hw6 _ _ rfl _ _ _) $$ HF
  iintro HF
  ihave HF := (Entails.of_eq (congrArg (Fire Tv d (cV L) (jV L) (roOf s) q) (show 16 * k.val + 6 + 1 = 16 * k.val + 7 from rfl))) $$ HF
  -- lane 7
  have hw7 : extractAt ![0] (k1_pay9 (k1_pay1 v9)) inpos_S1_p0 = s (ix1 ⟨16 * k.val + 7, by omega⟩) := (lane_pay9_of v9).trans (hv (7 : Fin 16))
  rw [wp_assume_of _ _ _ _ (show k1_chk8 (extractAt ![0] (k1_pay9 (k1_pay1 v9)) inpos_S1_p0) from chk_of _ (by rw [hw7]; exact hlt _))]
  iapply (issue_lane Tv d (cV L) (jV L) q s hlt _ (16 * k.val + 7) (by omega) _ _ (16 * k.val + 0 + 7) (k1_off19_eq k ⟨0, by decide⟩) (by omega) _ hw7 _ _ rfl _ _ _) $$ HF
  iintro HF
  ihave HF := (Entails.of_eq (congrArg (Fire Tv d (cV L) (jV L) (roOf s) q) (show 16 * k.val + 7 + 1 = 16 * k.val + 8 from rfl))) $$ HF
  -- lane 8
  have hw8 : extractAt ![0] (k1_pay10 (k1_pay1 v9)) inpos_S1_p0 = s (ix1 ⟨16 * k.val + 8, by omega⟩) := (lane_pay10_of v9).trans (hv (8 : Fin 16))
  rw [wp_assume_of _ _ _ _ (show k1_chk9 (extractAt ![0] (k1_pay10 (k1_pay1 v9)) inpos_S1_p0) from chk_of _ (by rw [hw8]; exact hlt _))]
  iapply (issue_lane Tv d (cV L) (jV L) q s hlt _ (16 * k.val + 8) (by omega) _ _ (16 * k.val + 0 + 8) (k1_off21_eq k ⟨0, by decide⟩) (by omega) _ hw8 _ _ rfl _ _ _) $$ HF
  iintro HF
  ihave HF := (Entails.of_eq (congrArg (Fire Tv d (cV L) (jV L) (roOf s) q) (show 16 * k.val + 8 + 1 = 16 * k.val + 9 from rfl))) $$ HF
  -- lane 9
  have hw9 : extractAt ![0] (k1_pay11 (k1_pay1 v9)) inpos_S1_p0 = s (ix1 ⟨16 * k.val + 9, by omega⟩) := (lane_pay11_of v9).trans (hv (9 : Fin 16))
  rw [wp_assume_of _ _ _ _ (show k1_chk10 (extractAt ![0] (k1_pay11 (k1_pay1 v9)) inpos_S1_p0) from chk_of _ (by rw [hw9]; exact hlt _))]
  iapply (issue_lane Tv d (cV L) (jV L) q s hlt _ (16 * k.val + 9) (by omega) _ _ (16 * k.val + 0 + 9) (k1_off23_eq k ⟨0, by decide⟩) (by omega) _ hw9 _ _ rfl _ _ _) $$ HF
  iintro HF
  ihave HF := (Entails.of_eq (congrArg (Fire Tv d (cV L) (jV L) (roOf s) q) (show 16 * k.val + 9 + 1 = 16 * k.val + 10 from rfl))) $$ HF
  -- lane 10
  have hw10 : extractAt ![0] (k1_pay12 (k1_pay1 v9)) inpos_S1_p0 = s (ix1 ⟨16 * k.val + 10, by omega⟩) := (lane_pay12_of v9).trans (hv (10 : Fin 16))
  rw [wp_assume_of _ _ _ _ (show k1_chk11 (extractAt ![0] (k1_pay12 (k1_pay1 v9)) inpos_S1_p0) from chk_of _ (by rw [hw10]; exact hlt _))]
  iapply (issue_lane Tv d (cV L) (jV L) q s hlt _ (16 * k.val + 10) (by omega) _ _ (16 * k.val + 0 + 10) (k1_off25_eq k ⟨0, by decide⟩) (by omega) _ hw10 _ _ rfl _ _ _) $$ HF
  iintro HF
  ihave HF := (Entails.of_eq (congrArg (Fire Tv d (cV L) (jV L) (roOf s) q) (show 16 * k.val + 10 + 1 = 16 * k.val + 11 from rfl))) $$ HF
  -- lane 11
  have hw11 : extractAt ![0] (k1_pay13 (k1_pay1 v9)) inpos_S1_p0 = s (ix1 ⟨16 * k.val + 11, by omega⟩) := (lane_pay13_of v9).trans (hv (11 : Fin 16))
  rw [wp_assume_of _ _ _ _ (show k1_chk12 (extractAt ![0] (k1_pay13 (k1_pay1 v9)) inpos_S1_p0) from chk_of _ (by rw [hw11]; exact hlt _))]
  iapply (issue_lane Tv d (cV L) (jV L) q s hlt _ (16 * k.val + 11) (by omega) _ _ (16 * k.val + 0 + 11) (k1_off27_eq k ⟨0, by decide⟩) (by omega) _ hw11 _ _ rfl _ _ _) $$ HF
  iintro HF
  ihave HF := (Entails.of_eq (congrArg (Fire Tv d (cV L) (jV L) (roOf s) q) (show 16 * k.val + 11 + 1 = 16 * k.val + 12 from rfl))) $$ HF
  -- lane 12
  have hw12 : extractAt ![0] (k1_pay14 (k1_pay1 v9)) inpos_S1_p0 = s (ix1 ⟨16 * k.val + 12, by omega⟩) := (lane_pay14_of v9).trans (hv (12 : Fin 16))
  rw [wp_assume_of _ _ _ _ (show k1_chk13 (extractAt ![0] (k1_pay14 (k1_pay1 v9)) inpos_S1_p0) from chk_of _ (by rw [hw12]; exact hlt _))]
  iapply (issue_lane Tv d (cV L) (jV L) q s hlt _ (16 * k.val + 12) (by omega) _ _ (16 * k.val + 0 + 12) (k1_off29_eq k ⟨0, by decide⟩) (by omega) _ hw12 _ _ rfl _ _ _) $$ HF
  iintro HF
  ihave HF := (Entails.of_eq (congrArg (Fire Tv d (cV L) (jV L) (roOf s) q) (show 16 * k.val + 12 + 1 = 16 * k.val + 13 from rfl))) $$ HF
  -- lane 13
  have hw13 : extractAt ![0] (k1_pay15 (k1_pay1 v9)) inpos_S1_p0 = s (ix1 ⟨16 * k.val + 13, by omega⟩) := (lane_pay15_of v9).trans (hv (13 : Fin 16))
  rw [wp_assume_of _ _ _ _ (show k1_chk14 (extractAt ![0] (k1_pay15 (k1_pay1 v9)) inpos_S1_p0) from chk_of _ (by rw [hw13]; exact hlt _))]
  iapply (issue_lane Tv d (cV L) (jV L) q s hlt _ (16 * k.val + 13) (by omega) _ _ (16 * k.val + 0 + 13) (k1_off31_eq k ⟨0, by decide⟩) (by omega) _ hw13 _ _ rfl _ _ _) $$ HF
  iintro HF
  ihave HF := (Entails.of_eq (congrArg (Fire Tv d (cV L) (jV L) (roOf s) q) (show 16 * k.val + 13 + 1 = 16 * k.val + 14 from rfl))) $$ HF
  -- lane 14
  have hw14 : extractAt ![0] (k1_pay16 (k1_pay1 v9)) inpos_S1_p0 = s (ix1 ⟨16 * k.val + 14, by omega⟩) := (lane_pay16_of v9).trans (hv (14 : Fin 16))
  rw [wp_assume_of _ _ _ _ (show k1_chk15 (extractAt ![0] (k1_pay16 (k1_pay1 v9)) inpos_S1_p0) from chk_of _ (by rw [hw14]; exact hlt _))]
  iapply (issue_lane Tv d (cV L) (jV L) q s hlt _ (16 * k.val + 14) (by omega) _ _ (16 * k.val + 0 + 14) (k1_off33_eq k ⟨0, by decide⟩) (by omega) _ hw14 _ _ rfl _ _ _) $$ HF
  iintro HF
  ihave HF := (Entails.of_eq (congrArg (Fire Tv d (cV L) (jV L) (roOf s) q) (show 16 * k.val + 14 + 1 = 16 * k.val + 15 from rfl))) $$ HF
  -- lane 15
  have hw15 : extractAt ![0] (k1_pay33 (k1_pay1 v9)) inpos_S1_p0 = s (ix1 ⟨16 * k.val + 15, by omega⟩) := (lane_pay33_of v9).trans (hv (15 : Fin 16))
  rw [wp_assume_of _ _ _ _ (show k1_chk16 (extractAt ![0] (k1_pay33 (k1_pay1 v9)) inpos_S1_p0) from chk_of _ (by rw [hw15]; exact hlt _))]
  iapply (issue_lane Tv d (cV L) (jV L) q s hlt _ (16 * k.val + 15) (by omega) _ _ (16 * k.val + 15) (k1_off35_eq k) (by omega) _ hw15 _ _ rfl _ _ _) $$ HF
  iintro HF
  rw [wp_ret]; imodintro
  isplitl [Hs]; · iexact Hs
  ihave HF := (Entails.of_eq (congrArg (Fire Tv d (cV L) (jV L) (roOf s) q) (show 16 * k.val + 15 + 1 = 16 * (k.val + 1) by omega))) $$ HF
  iexact HF

end RegionU

end Cert.Proof.KB

end
-- ==== Proof.KbScRegionI.lean ====
/-
  One trip of the item side's firing loop (as the user side's, over the item index scratch), and one trip of either
  side's waiting loop: one wait of one row's amount, the waits recorded.
-/
import proofs.«212231_g88622355185883_cont_sun_m_1073_38_alg».proof.Proof.KbScFire
import proofs.«212231_g88622355185883_cont_sun_m_1073_38_alg».proof.Proof.KbScLane
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)
open Idealize.ShloMosaic.Transfers (pending issued Batch MayWaits)
open Idealize.ShloMosaic.Tactic

variable (Tv : (d : Dev nD) → Buf (Elt F) (tLoc d))

section RegionI

variable (d : Dev nD) (L : grid1.Coords) (q : PosShare TreeShare) (s : S512.Idx → BitVec 32)
variable [FloatOps F]

/-- Before trip `k` of the item side's firing loop: the index scratch, and the batch with `16 k` copies issued. -/
def invFireI (k : ℕ) (_ : Unit) : sProp 𝕄 :=
  iprop(((sI : Memref sig .scVector .vmem S512 .i32).view.loc (V d (cV L) (jV L)) ↦{fullShare} s)
    ∗ Fire Tv d (cV L) (jV L) (roOf s) q (16 * k))

theorem trips3 : k1_t3_loop.trips = 32 := by decide

theorem fire_regionI (hlt : ∀ j : Fin 512, (s (ix1 j)).toNat < 1000000) (k : Fin k1_t3_loop.trips) (acc : Unit) :
    invFireI Tv d L q s k.val acc
      ⊢ wp frame (wpE (defs₀ (F := F)) 𝒱₀ (V d (cV L) (jV L)) none) Set.univ
          (k1_t3_body L uV (Memref.isWhole_whole _) iV (Memref.isWhole_whole _) tabV (Memref.isWhole_whole _) ouV (Memref.isWhole_whole _) oiV (Memref.isWhole_whole _)
            sU (Memref.isWhole_whole _) sI (Memref.isWhole_whole _) rowsV (Memref.isWhole_whole _) cc1_scratch3 cc1_scoped0 cc1_scoped1 cc1_scoped2 cc1_scoped3 k acc)
          (invFireI Tv d L q s (k.val + 1)) := by
  have hk : k.val < 32 := lt_of_lt_of_eq k.isLt trips3
  unfold invFireI
  iintro ⟨Hs, HF⟩
  unfold k1_t3_body
  simp only [k1_part6_eq_skeleton, k1_part7_eq_skeleton, k1_part8_eq_skeleton, k1_part9_eq_skeleton, k1_part10_eq_skeleton]
  unfold k1_part6_skel k1_part7_skel k1_part8_skel k1_part9_skel k1_part10_skel
  simp only [Prog.lift, Prog.bind_op, Prog.bind_ret, Prog.pure_eq_ret]
  iapply (wp_load 𝒱₀ (V d (cV L) (jV L)) none Set.univ (m := (sI : Memref sig .scVector .vmem S512 .i32)) (S := Finset.univ) (Finset.subset_univ _)) $$ Hs; iintro Hs
  have hv : ∀ l : Fin 16, (sI : Memref sig .scVector .vmem S512 .i32).view.readAt (Elt F) (Rect.unit (s := S512) (k1_off37 k) S16.size (k1_off37_inb k)).toLoadRect s (ix1 l)
      = s (ix1 ⟨16 * k.val + l.val, by have := l.isLt; omega⟩) :=
    fun l => lane_valI s (k1_off37 k) (k1_off37_inb k) k.val (k1_off37_eq k) l (by have := l.isLt; omega)
  generalize (sI : Memref sig .scVector .vmem S512 .i32).view.readAt (Elt F) (Rect.unit (s := S512) (k1_off37 k) S16.size (k1_off37_inb k)).toLoadRect s = v9 at hv ⊢
  ihave HF := (Entails.of_eq (congrArg (Fire Tv d (cV L) (jV L) (roOf s) q) (show 16 * k.val = 16 * k.val + 0 from rfl))) $$ HF
  -- lane 0
  have hw0 : extractAt ![0] (k1_pay18 v9) inpos_S1_p0 = s (ix1 ⟨16 * k.val + 0, by omega⟩) := (lane_pay18 v9).trans (hv (0 : Fin 16))
  rw [wp_assume_of _ _ _ _ (show k1_chk17 (extractAt ![0] (k1_pay18 v9) inpos_S1_p0) from chk_of _ (by rw [hw0]; exact hlt _))]
  iapply (issue_lane Tv d (cV L) (jV L) q s hlt _ (16 * k.val + 0) (by omega) _ _ (16 * k.val + 0) (k1_off40_eq k ⟨0, by decide⟩) (by omega) _ hw0 _ _ rfl _ _ _) $$ HF
  iintro HF
  ihave HF := (Entails.of_eq (congrArg (Fire Tv d (cV L) (jV L) (roOf s) q) (show 16 * k.val + 0 + 1 = 16 * k.val + 1 from rfl))) $$ HF
  -- lane 1
  have hw1 : extractAt ![0] (k1_pay19 v9) inpos_S1_p0 = s (ix1 ⟨16 * k.val + 1, by omega⟩) := (lane_pay19 v9).trans (hv (1 : Fin 16))
  rw [wp_assume_of _ _ _ _ (show k1_chk18 (extractAt ![0] (k1_pay19 v9) inpos_S1_p0) from chk_of _ (by rw [hw1]; exact hlt _))]
  iapply (issue_lane Tv d (cV L) (jV L) q s hlt _ (16 * k.val + 1) (by omega) _ _ (16 * k.val + 0 + 1) (k1_off42_eq k ⟨0, by decide⟩) (by omega) _ hw1 _ _ rfl _ _ _) $$ HF
  iintro HF
  ihave HF := (Entails.of_eq (congrArg (Fire Tv d (cV L) (jV L) (roOf s) q) (show 16 * k.val + 1 + 1 = 16 * k.val + 2 from rfl))) $$ HF
  -- lane 2
  have hw2 : extractAt ![0] (k1_pay20 v9) inpos_S1_p0 = s (ix1 ⟨16 * k.val + 2, by omega⟩) := (lane_pay20 v9).trans (hv (2 : Fin 16))
  rw [wp_assume_of _ _ _ _ (show k1_chk19 (extractAt ![0] (k1_pay20 v9) inpos_S1_p0) from chk_of _ (by rw [hw2]; exact hlt _))]
  iapply (issue_lane Tv d (cV L) (jV L) q s hlt _ (16 * k.val + 2) (by omega) _ _ (16 * k.val + 0 + 2) (k1_off44_eq k ⟨0, by decide⟩) (by omega) _ hw2 _ _ rfl _ _ _) $$ HF
  iintro HF
  ihave HF := (Entails.of_eq (congrArg (Fire Tv d (cV L) (jV L) (roOf s) q) (show 16 * k.val + 2 + 1 = 16 * k.val + 3 from rfl))) $$ HF
  -- lane 3
  have hw3 : extractAt ![0] (k1_pay21 (k1_pay17 v9)) inpos_S1_p0 = s (ix1 ⟨16 * k.val + 3, by omega⟩) := (lane_pay21_of v9).trans (hv (3 : Fin 16))
  rw [wp_assume_of _ _ _ _ (show k1_chk20 (extractAt ![0] (k1_pay21 (k1_pay17 v9)) inpos_S1_p0) from chk_of _ (by rw [hw3]; exact hlt _))]
  iapply (issue_lane Tv d (cV L) (jV L) q s hlt _ (16 * k.val + 3) (by omega) _ _ (16 * k.val + 0 + 3) (k1_off46_eq k ⟨0, by decide⟩) (by omega) _ hw3 _ _ rfl _ _ _) $$ HF
  iintro HF
  ihave HF := (Entails.of_eq (congrArg (Fire Tv d (cV L) (jV L) (roOf s) q) (show 16 * k.val + 3 + 1 = 16 * k.val + 4 from rfl))) $$ HF
  -- lane 4
  have hw4 : extractAt ![0] (k1_pay22 (k1_pay17 v9)) inpos_S1_p0 = s (ix1 ⟨16 * k.val + 4, by omega⟩) := (lane_pay22_of v9).trans (hv (4 : Fin 16))
  rw [wp_assume_of _ _ _ _ (show k1_chk21 (extractAt ![0] (k1_pay22 (k1_pay17 v9)) inpos_S1_p0) from chk_of _ (by rw [hw4]; exact hlt _))]
  iapply (issue_lane Tv d (cV L) (jV L) q s hlt _ (16 * k.val + 4) (by omega) _ _ (16 * k.val + 0 + 4) (k1_off48_eq k ⟨0, by decide⟩) (by omega) _ hw4 _ _ rfl _ _ _) $$ HF
  iintro HF
  ihave HF := (Entails.of_eq (congrArg (Fire Tv d (cV L) (jV L) (roOf s) q) (show 16 * k.val + 4 + 1 = 16 * k.val + 5 from rfl))) $$ HF
  -- lane 5
  have hw5 : extractAt ![0] (k1_pay23 (k1_pay17 v9)) inpos_S1_p0 = s (ix1 ⟨16 * k.val + 5, by omega⟩) := (lane_pay23_of v9).trans (hv (5 : Fin 16))
  rw [wp_assume_of _ _ _ _ (show k1_chk22 (extractAt ![0] (k1_pay23 (k1_pay17 v9)) inpos_S1_p0) from chk_of _ (by rw [hw5]; exact hlt _))]
  iapply (issue_lane Tv d (cV L) (jV L) q s hlt _ (16 * k.val + 5) (by omega) _ _ (16 * k.val + 0 + 5) (k1_off50_eq k ⟨0, by decide⟩) (by omega) _ hw5 _ _ rfl _ _ _) $$ HF
  iintro HF
  ihave HF := (Entails.of_eq (congrArg (Fire Tv d (cV L) (jV L) (roOf s) q) (show 16 * k.val + 5 + 1 = 16 * k.val + 6 from rfl))) $$ HF
  -- lane 6
  have hw6 : extractAt ![0] (k1_pay24 (k1_pay17 v9)) inpos_S1_p0 = s (ix1 ⟨16 * k.val + 6, by omega⟩) := (lane_pay24_of v9).trans (hv (6 : Fin 16))
  rw [wp_assume_of _ _ _ _ (show k1_chk23 (extractAt ![0] (k1_pay24 (k1_pay17 v9)) inpos_S1_p0) from chk_of _ (by rw [hw6]; exact hlt _))]
  iapply (issue_lane Tv d (cV L) (jV L) q s hlt _ (16 * k.val + 6) (by omega) _ _ (16 * k.val + 0 + 6) (k1_off52_eq k ⟨0, by decide⟩) (by omega) _ hw6 _ _ rfl _ _ _) $$ HF
  iintro HF
  ihave HF := (Entails.of_eq (congrArg (Fire Tv d (cV L) (jV L) (roOf s) q) (show 16 * k.val + 6 + 1 = 16 * k.val + 7 from rfl))) $$ HF
  -- lane 7
  have hw7 : extractAt ![0] (k1_pay25 (k1_pay17 v9)) inpos_S1_p0 = s (ix1 ⟨16 * k.val + 7, by omega⟩) := (lane_pay25_of v9).trans (hv (7 : Fin 16))
  rw [wp_assume_of _ _ _ _ (show k1_chk24 (extractAt ![0] (k1_pay25 (k1_pay17 v9)) inpos_S1_p0) from chk_of _ (by rw [hw7]; exact hlt _))]
  iapply (issue_lane Tv d (cV L) (jV L) q s hlt _ (16 * k.val + 7) (by omega) _ _ (16 * k.val + 0 + 7) (k1_off54_eq k ⟨0, by decide⟩) (by omega) _ hw7 _ _ rfl _ _ _) $$ HF
  iintro HF
  ihave HF := (Entails.of_eq (congrArg (Fire Tv d (cV L) (jV L) (roOf s) q) (show 16 * k.val + 7 + 1 = 16 * k.val + 8 from rfl))) $$ HF
  -- lane 8
  have hw8 : extractAt ![0] (k1_pay26 (k1_pay17 v9)) inpos_S1_p0 = s (ix1 ⟨16 * k.val + 8, by omega⟩) := (lane_pay26_of v9).trans (hv (8 : Fin 16))
  rw [wp_assume_of _ _ _ _ (show k1_chk25 (extractAt ![0] (k1_pay26 (k1_pay17 v9)) inpos_S1_p0) from chk_of _ (by rw [hw8]; exact hlt _))]
  iapply (issue_lane Tv d (cV L) (jV L) q s hlt _ (16 * k.val + 8) (by omega) _ _ (16 * k.val + 0 + 8) (k1_off56_eq k ⟨0, by decide⟩) (by omega) _ hw8 _ _ rfl _ _ _) $$ HF
  iintro HF
  ihave HF := (Entails.of_eq (congrArg (Fire Tv d (cV L) (jV L) (roOf s) q) (show 16 * k.val + 8 + 1 = 16 * k.val + 9 from rfl))) $$ HF
  -- lane 9
  have hw9 : extractAt ![0] (k1_pay27 (k1_pay17 v9)) inpos_S1_p0 = s (ix1 ⟨16 * k.val + 9, by omega⟩) := (lane_pay27_of v9).trans (hv (9 : Fin 16))
  rw [wp_assume_of _ _ _ _ (show k1_chk26 (extractAt ![0] (k1_pay27 (k1_pay17 v9)) inpos_S1_p0) from chk_of _ (by rw [hw9]; exact hlt _))]
  iapply (issue_lane Tv d (cV L) (jV L) q s hlt _ (16 * k.val + 9) (by omega) _ _ (16 * k.val + 0 + 9) (k1_off58_eq k ⟨0, by decide⟩) (by omega) _ hw9 _ _ rfl _ _ _) $$ HF
  iintro HF
  ihave HF := (Entails.of_eq (congrArg (Fire Tv d (cV L) (jV L) (roOf s) q) (show 16 * k.val + 9 + 1 = 16 * k.val + 10 from rfl))) $$ HF
  -- lane 10
  have hw10 : extractAt ![0] (k1_pay28 (k1_pay17 v9)) inpos_S1_p0 = s (ix1 ⟨16 * k.val + 10, by omega⟩) := (lane_pay28_of v9).trans (hv (10 : Fin 16))
  rw [wp_assume_of _ _ _ _ (show k1_chk27 (extractAt ![0] (k1_pay28 (k1_pay17 v9)) inpos_S1_p0) from chk_of _ (by rw [hw10]; exact hlt _))]
  iapply (issue_lane Tv d (cV L) (jV L) q s hlt _ (16 * k.val + 10) (by omega) _ _ (16 * k.val + 0 + 10) (k1_off60_eq k ⟨0, by decide⟩) (by omega) _ hw10 _ _ rfl _ _ _) $$ HF
  iintro HF
  ihave HF := (Entails.of_eq (congrArg (Fire Tv d (cV L) (jV L) (roOf s) q) (show 16 * k.val + 10 + 1 = 16 * k.val + 11 from rfl))) $$ HF
  -- lane 11
  have hw11 : extractAt ![0] (k1_pay29 (k1_pay17 v9)) inpos_S1_p0 = s (ix1 ⟨16 * k.val + 11, by omega⟩) := (lane_pay29_of v9).trans (hv (11 : Fin 16))
  rw [wp_assume_of _ _ _ _ (show k1_chk28 (extractAt ![0] (k1_pay29 (k1_pay17 v9)) inpos_S1_p0) from chk_of _ (by rw [hw11]; exact hlt _))]
  iapply (issue_lane Tv d (cV L) (jV L) q s hlt _ (16 * k.val + 11) (by omega) _ _ (16 * k.val + 0 + 11) (k1_off62_eq k ⟨0, by decide⟩) (by omega) _ hw11 _ _ rfl _ _ _) $$ HF
  iintro HF
  ihave HF := (Entails.of_eq (congrArg (Fire Tv d (cV L) (jV L) (roOf s) q) (show 16 * k.val + 11 + 1 = 16 * k.val + 12 from rfl))) $$ HF
  -- lane 12
  have hw12 : extractAt ![0] (k1_pay30 (k1_pay17 v9)) inpos_S1_p0 = s (ix1 ⟨16 * k.val + 12, by omega⟩) := (lane_pay30_of v9).trans (hv (12 : Fin 16))
  rw [wp_assume_of _ _ _ _ (show k1_chk29 (extractAt ![0] (k1_pay30 (k1_pay17 v9)) inpos_S1_p0) from chk_of _ (by rw [hw12]; exact hlt _))]
  iapply (issue_lane Tv d (cV L) (jV L) q s hlt _ (16 * k.val + 12) (by omega) _ _ (16 * k.val + 0 + 12) (k1_off64_eq k ⟨0, by decide⟩) (by omega) _ hw12 _ _ rfl _ _ _) $$ HF
  iintro HF
  ihave HF := (Entails.of_eq (congrArg (Fire Tv d (cV L) (jV L) (roOf s) q) (show 16 * k.val + 12 + 1 = 16 * k.val + 13 from rfl))) $$ HF
  -- lane 13
  have hw13 : extractAt ![0] (k1_pay31 (k1_pay17 v9)) inpos_S1_p0 = s (ix1 ⟨16 * k.val + 13, by omega⟩) := (lane_pay31_of v9).trans (hv (13 : Fin 16))
  rw [wp_assume_of _ _ _ _ (show k1_chk30 (extractAt ![0] (k1_pay31 (k1_pay17 v9)) inpos_S1_p0) from chk_of _ (by rw [hw13]; exact hlt _))]
  iapply (issue_lane Tv d (cV L) (jV L) q s hlt _ (16 * k.val + 13) (by omega) _ _ (16 * k.val + 0 + 13) (k1_off66_eq k ⟨0, by decide⟩) (by omega) _ hw13 _ _ rfl _ _ _) $$ HF
  iintro HF
  ihave HF := (Entails.of_eq (congrArg (Fire Tv d (cV L) (jV L) (roOf s) q) (show 16 * k.val + 13 + 1 = 16 * k.val + 14 from rfl))) $$ HF
  -- lane 14
  have hw14 : extractAt ![0] (k1_pay32 (k1_pay17 v9)) inpos_S1_p0 = s (ix1 ⟨16 * k.val + 14, by omega⟩) := (lane_pay32_of v9).trans (hv (14 : Fin 16))
  rw [wp_assume_of _ _ _ _ (show k1_chk31 (extractAt ![0] (k1_pay32 (k1_pay17 v9)) inpos_S1_p0) from chk_of _ (by rw [hw14]; exact hlt _))]
  iapply (issue_lane Tv d (cV L) (jV L) q s hlt _ (16 * k.val + 14) (by omega) _ _ (16 * k.val + 0 + 14) (k1_off68_eq k ⟨0, by decide⟩) (by omega) _ hw14 _ _ rfl _ _ _) $$ HF
  iintro HF
  ihave HF := (Entails.of_eq (congrArg (Fire Tv d (cV L) (jV L) (roOf s) q) (show 16 * k.val + 14 + 1 = 16 * k.val + 15 from rfl))) $$ HF
  -- lane 15
  have hw15 : extractAt ![0] (k1_pay34 (k1_pay17 v9)) inpos_S1_p0 = s (ix1 ⟨16 * k.val + 15, by omega⟩) := (lane_pay34_of v9).trans (hv (15 : Fin 16))
  rw [wp_assume_of _ _ _ _ (show k1_chk32 (extractAt ![0] (k1_pay34 (k1_pay17 v9)) inpos_S1_p0) from chk_of _ (by rw [hw15]; exact hlt _))]
  iapply (issue_lane Tv d (cV L) (jV L) q s hlt _ (16 * k.val + 15) (by omega) _ _ (16 * k.val + 15) (k1_off70_eq k) (by omega) _ hw15 _ _ rfl _ _ _) $$ HF
  iintro HF
  rw [wp_ret]; imodintro
  isplitl [Hs]; · iexact Hs
  ihave HF := (Entails.of_eq (congrArg (Fire Tv d (cV L) (jV L) (roOf s) q) (show 16 * k.val + 15 + 1 = 16 * (k.val + 1) by omega))) $$ HF
  iexact HF

end RegionI

section RegionW

variable (d : Dev nD) (L : grid1.Coords) (q : PosShare TreeShare) (ro : Fin 512 → Fin 1000000)
variable (O : CellTallies nD τ sig (HIx 1)) (W : Waits sig (HIx 1))
variable [FloatOps F]

/-- Before wait `k` of a draining loop: the batch with `k` rows' amounts consumed, the waits recorded so far. -/
def invWait (k : ℕ) (_ : Unit) : sProp 𝕄 :=
  iprop(MayWaits (V d (cV L) (jV L)) none O ∗ Drain Tv d (cV L) (jV L) ro q k
    ∗ ∃ W', ⌜∀ p ∈ W', p ∈ W ∨ p.2 = none⌝ ∗ owes (V d (cV L) (jV L)) O W')

theorem trips2 : k1_t2_loop.trips = 512 := by decide
theorem trips4 : k1_t4_loop.trips = 512 := by decide

theorem wait_regionU (k : Fin k1_t2_loop.trips) (acc : Unit) :
    invWait Tv d L q ro O W k.val acc
      ⊢ wp frame (wpE (defs₀ (F := F)) 𝒱₀ (V d (cV L) (jV L)) none) Set.univ
          (k1_t2_body L uV (Memref.isWhole_whole _) iV (Memref.isWhole_whole _) tabV (Memref.isWhole_whole _) ouV (Memref.isWhole_whole _) oiV (Memref.isWhole_whole _)
            sU (Memref.isWhole_whole _) sI (Memref.isWhole_whole _) rowsV (Memref.isWhole_whole _) cc1_scratch3 cc1_scoped0 cc1_scoped1 cc1_scoped2 cc1_scoped3 k acc)
          (invWait Tv d L q ro O W (k.val + 1)) := by
  have hk : k.val < 512 := lt_of_lt_of_eq k.isLt trips2
  unfold invWait
  iintro ⟨#Hmw, HD, %W', %hW', HO⟩
  unfold k1_t2_body
  simp only [Prog.lift, Prog.bind_op, Prog.bind_ret, Prog.pure_eq_ret]
  iapply (wait_step Tv d (cV L) (jV L) ro q _ k.val hk O W' _ _) $$ [HD HO]
  · isplitl [HD]; · iexact HD
    isplitl [HO]; · iexact HO
    iexact Hmw
  iintro ⟨HD, HO⟩
  rw [wp_ret]; imodintro
  isplitr; · iexact Hmw
  isplitl [HD]; · iexact HD
  iexists (insert (SemLoc.dma semB, none) W'); isplitr
  · ipureintro; intro p hp
    rcases Finset.mem_insert.mp hp with rfl | hp
    · exact .inr rfl
    · exact hW' p hp
  iexact HO

theorem wait_regionI (k : Fin k1_t4_loop.trips) (acc : Unit) :
    invWait Tv d L q ro O W k.val acc
      ⊢ wp frame (wpE (defs₀ (F := F)) 𝒱₀ (V d (cV L) (jV L)) none) Set.univ
          (k1_t4_body L uV (Memref.isWhole_whole _) iV (Memref.isWhole_whole _) tabV (Memref.isWhole_whole _) ouV (Memref.isWhole_whole _) oiV (Memref.isWhole_whole _)
            sU (Memref.isWhole_whole _) sI (Memref.isWhole_whole _) rowsV (Memref.isWhole_whole _) cc1_scratch3 cc1_scoped0 cc1_scoped1 cc1_scoped2 cc1_scoped3 k acc)
          (invWait Tv d L q ro O W (k.val + 1)) := by
  have hk : k.val < 512 := lt_of_lt_of_eq k.isLt trips4
  unfold invWait
  iintro ⟨#Hmw, HD, %W', %hW', HO⟩
  unfold k1_t4_body
  simp only [Prog.lift, Prog.bind_op, Prog.bind_ret, Prog.pure_eq_ret]
  iapply (wait_step Tv d (cV L) (jV L) ro q _ k.val hk O W' _ _) $$ [HD HO]
  · isplitl [HD]; · iexact HD
    isplitl [HO]; · iexact HO
    iexact Hmw
  iintro ⟨HD, HO⟩
  rw [wp_ret]; imodintro
  isplitr; · iexact Hmw
  isplitl [HD]; · iexact HD
  iexists (insert (SemLoc.dma semB, none) W'); isplitr
  · ipureintro; intro p hp
    rcases Finset.mem_insert.mp hp with rfl | hp
    · exact .inr rfl
    · exact hW' p hp
  iexact HO

end RegionW

end Cert.Proof.KB

end
-- ==== Proof.KbScJoin.lean ====
/-
  The row batch's two ends.

  Before the first copy is issued the task holds the table at its read share and the row scratch whole: that is
  512 read shares of the table, one per copy, and the scratch's 512 rows one by one. After the last copy is issued
  nothing is pending. After the last wait every copy has delivered its row of the scratch, landed, and its share
  of the table's row: the rows join into the scratch whole at the landed contents, and each share's row rejoins
  what was left of the share, the 512 shares joining into the table at the task's read share again.
-/
import proofs.«212231_g88622355185883_cont_sun_m_1073_38_alg».proof.Proof.KbScFire

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)
open Idealize.ShloMosaic.Transfers (pending issued Batch MayWaits)

variable (Tv : (d : Dev nD) → Buf (Elt F) (tLoc d))
variable (d : Dev nD) (c : Fin τ.nSC) (i : Fin τ.nSub) (ro : Fin 512 → Fin 1000000) (q : PosShare TreeShare)

/-- The row scratch whole is its 512 rows. -/
theorem rows_parts (f : Buf (Elt F) (rowsLoc d c i)) :
    (rowsLoc d c i ↦{fullShare} f : sProp 𝕄) = bigSep Finset.univ fun u : Fin 512 => rowsLoc d c i ↦[rowSetS u]{fullShare} f := by
  rw [← pointsTo_biUnion Finset.univ (ℓ := rowsLoc d c i) rowSetS rowSetS_disjoint, rowSetS_cover]; try rfl

/-- The table at the share `q` is its 512 pieces. -/
theorem table_pieces :
    (tLoc d ↦{q} Tv d : sProp 𝕄) = bigSep Finset.univ fun u : Fin 512 => tLoc d ↦{piece q 512 u} Tv d :=
  pointsTo_pieces (F := F) q (n := 512) (by decide)

/-- Nothing issued yet: the table's read share as its 512 pieces, the scratch as its 512 rows, the batch at zero. -/
theorem fire_init (f : Buf (Elt F) (rowsLoc d c i)) :
    iprop((tLoc d ↦{q} Tv d) ∗ (rowsLoc d c i ↦{fullShare} f) ∗ Batch countersEmb (V d c i) (.dma semB) none NR (Dl Tv d c i ro q) 0 0)
      ⊢ Fire Tv d c i ro q 0 := by
  have hex : (bigSep Finset.univ fun u : Fin 512 => (rowsLoc d c i ↦[rowSetS u]{fullShare} f : sProp 𝕄))
      ⊢ bigSep Finset.univ fun u : Fin 512 => iprop(∃ g, rowsLoc d c i ↦[rowSetS u]{fullShare} g) :=
    bigSep_mono fun u _ => pts_ex f
  unfold Fire
  rw [Transfers.pending_zero, Transfers.issued_zero, BI.bigSep_empty]
  iintro ⟨Ht, Hr, HB⟩
  isplitl [Ht]
  · iapply (Entails.of_eq (table_pieces Tv d q)) $$ Ht
  isplitr; · iempintro
  isplitl [Hr]
  · ihave H := (Entails.of_eq (rows_parts d c i f)) $$ Hr
    iapply hex $$ H
  iexact HB

theorem pending_all : pending (n := 512) 512 = ∅ := by
  unfold Transfers.pending
  exact Finset.filter_false_of_mem fun t _ => by have := t.isLt; omega

/-- Everything issued: what is left of every read share, and the batch ready to drain. -/
theorem fire_done :
    Fire Tv d c i ro q 512
      ⊢ iprop((bigSep Finset.univ fun u : Fin 512 => tLoc d ↦[Finset.univ \ tabRowSet (ro u)]{piece q 512 u} Tv d) ∗ Drain Tv d c i ro q 0) := by
  unfold Fire Drain
  rw [if_pos (by omega : 0 < 512), pending_all, Transfers.issued_all rfl, BI.bigSep_empty, BI.bigSep_empty, Nat.zero_mul]
  iintro ⟨-, Hre, -, HB⟩
  isplitl [Hre]; · iexact Hre
  iexact HB

/-- Everything landed: the scratch whole at the landed rows, the table at the read share again, the semaphore at zero. -/
theorem drain_done :
    iprop(Drain Tv d c i ro q 512 ∗ bigSep Finset.univ fun u : Fin 512 => tLoc d ↦[Finset.univ \ tabRowSet (ro u)]{piece q 512 u} Tv d)
      ⊢ iprop((rowsLoc d c i ↦{fullShare} Rfun Tv d c i ro) ∗ (tLoc d ↦{q} Tv d) ∗ semVal ((V d c i, SemLoc.dma semB) : GSem nD τ sig) 0) := by
  unfold Drain
  rw [if_neg (Nat.lt_irrefl 512)]
  unfold Dl
  rw [bigSep_sep']
  have hjoin : iprop((bigSep Finset.univ fun u : Fin 512 => (tLoc d ↦[tabRowSet (ro u)]{piece q 512 u} Tv d : sProp 𝕄))
        ∗ bigSep Finset.univ fun u : Fin 512 => tLoc d ↦[Finset.univ \ tabRowSet (ro u)]{piece q 512 u} Tv d)
      ⊢ bigSep Finset.univ fun u : Fin 512 => (tLoc d ↦{piece q 512 u} Tv d : sProp 𝕄) := by
    have hu : ∀ u : Fin 512, iprop((tLoc d ↦[tabRowSet (ro u)]{piece q 512 u} Tv d)
          ∗ (tLoc d ↦[Finset.univ \ tabRowSet (ro u)]{piece q 512 u} Tv d)) ⊢ (tLoc d ↦{piece q 512 u} Tv d : sProp 𝕄) :=
      fun u => (pointsTo_split_subset (ℓ := tLoc d) (S := Finset.univ) (I := tabRowSet (ro u)) (q := piece q 512 u) (f := Tv d) (Finset.subset_univ _)).2
    rw [← bigSep_sep']
    exact bigSep_mono fun u _ => hu u
  iintro ⟨⟨⟨Hrows, Htab⟩, Hv⟩, Hrest⟩
  isplitl [Hrows]
  · iapply (Entails.of_eq (rows_parts d c i (Rfun Tv d c i ro)).symm) $$ Hrows
  isplitl [Htab Hrest]
  · iapply (Entails.of_eq (table_pieces Tv d q).symm)
    iapply hjoin
    isplitl [Htab]; · iexact Htab
    iexact Hrest
  iexact Hv

end Cert.Proof.KB

end
-- ==== Proof.KbScOut.lean ====
/-
  What the task's copy-out leaves in its slices of the two results.

  The task on grid point L works on rows 1024 L₁ + 512 L₀ … + 511 of the index arrays and of the results: its
  slices are slice number 2 L₁ + L₀ of thirty-two. Once its row scratch holds, in row j, the table's row named by
  its j-th index word, copying the scratch out to its slice of a result leaves there exactly the gathered rows:
  row 1024 L₁ + 512 L₀ + j of the result is the table's row named by index word 1024 L₁ + 512 L₀ + j.
-/
import proofs.«212231_g88622355185883_cont_sun_m_1073_38_alg».proof.Proof.KbScCoords

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.Sem

open Idealize.ShloMosaic.ValueIdx (ix1 ix2 eq_ix1 eq_ix2)

variable {F : FTy → Type}

variable (L : grid1.Coords)

/-! ## The task's slices are slice 2 L₁ + L₀ of thirty-two -/

theorem idxR_eq : idxR L = partI (wL L) := by
  unfold idxR partI Rect.part Rect.block
  congr 1 <;> funext a
  · rw [k1_off1_eq]
    match a with
    | 0 => simp [Shape.partIx, Shape.partSize, wid]; omega
  · match a with
    | 0 => simp [Shape.partSize]
theorem outR_eq : outR L = partO (wL L) := by
  unfold outR partO Rect.part Rect.block
  congr 1 <;> funext a
  · rw [k1_off36_eq]
    match a with
    | 0 => simp [Shape.partIx, Shape.partSize, wid]; omega
    | 1 => simp [Shape.partIx, Shape.partSize]
  · match a with
    | 0 => simp [Shape.partSize]
    | 1 => simp [Shape.partSize]

theorem set_uK : (uK L).view.set = setI (wL L) := by
  show ((uV : Memref sig .scVector .hbm S16384 .i32).view.slice (idxR L)).set = ((uV : Memref sig .scVector .hbm S16384 .i32).view.slice (partI (wL L))).set
  rw [idxR_eq]
theorem set_iK : (iK L).view.set = setI (wL L) := by
  show ((iV : Memref sig .scVector .hbm S16384 .i32).view.slice (idxR L)).set = ((uV : Memref sig .scVector .hbm S16384 .i32).view.slice (partI (wL L))).set
  rw [idxR_eq]; rfl
theorem set_ouK : (ouK L).view.set = setO (wL L) := by
  show ((ouV : Memref sig .scVector .hbm S16384x128 .f32).view.slice (outR L)).set = ((ouV : Memref sig .scVector .hbm S16384x128 .f32).view.slice (partO (wL L))).set
  rw [outR_eq]
theorem set_oiK : (oiK L).view.set = setO (wL L) := by
  show ((oiV : Memref sig .scVector .hbm S16384x128 .f32).view.slice (outR L)).set = ((ouV : Memref sig .scVector .hbm S16384x128 .f32).view.slice (partO (wL L))).set
  rw [outR_eq]; rfl

/-! ## Where the slices' elements sit in the whole arrays -/

/-- Row j of the task's slice is row 1024 L₁ + 512 L₀ + j of the array. -/
def rowIx (j : Fin 512) : Fin 16384 :=
  ⟨1024 * (L 1).val + 512 * (L 0).val + j.val, by
    have h0 : (L 0).val < 2 := (L 0).isLt
    have h1 : (L 1).val < 16 := (L 1).isLt
    omega⟩

theorem emb_uK_eq (x : S512.Idx) : (uK L).view.emb x = (ix1 (rowIx L (x 0)) : S16384.Idx) := by
  have e := k1_off1_eq L
  funext a; apply Fin.ext
  match a with
  | ⟨0, _⟩ =>
    show k1_off1 L 0 + 1 * (x 0).val = 1024 * (L 1).val + 512 * (L 0).val + (x 0).val
    rw [e]; show (1024 * (L 1).val + 512 * (L 0).val) + 1 * (x 0).val = _; omega
theorem emb_iK_eq (x : S512.Idx) : (iK L).view.emb x = (ix1 (rowIx L (x 0)) : S16384.Idx) := by
  have e := k1_off1_eq L
  funext a; apply Fin.ext
  match a with
  | ⟨0, _⟩ =>
    show k1_off1 L 0 + 1 * (x 0).val = 1024 * (L 1).val + 512 * (L 0).val + (x 0).val
    rw [e]; show (1024 * (L 1).val + 512 * (L 0).val) + 1 * (x 0).val = _; omega

theorem emb_ouK_eq (x : S512x128.Idx) : (ouK L).view.emb x = (ix2 (rowIx L (x 0)) (x 1) : S16384x128.Idx) := by
  have e := k1_off36_eq L
  funext a; apply Fin.ext
  match a with
  | ⟨0, _⟩ =>
    show k1_off36 L 0 + 1 * (x 0).val = 1024 * (L 1).val + 512 * (L 0).val + (x 0).val
    rw [e]; show (1024 * (L 1).val + 512 * (L 0).val) + 1 * (x 0).val = _; omega
  | ⟨1, _⟩ =>
    show k1_off36 L 1 + 1 * (x 1).val = (x 1).val
    rw [e]; show 0 + 1 * (x 1).val = _; omega
theorem emb_oiK_eq (x : S512x128.Idx) : (oiK L).view.emb x = (ix2 (rowIx L (x 0)) (x 1) : S16384x128.Idx) := by
  have e := k1_off36_eq L
  funext a; apply Fin.ext
  match a with
  | ⟨0, _⟩ =>
    show k1_off36 L 0 + 1 * (x 0).val = 1024 * (L 1).val + 512 * (L 0).val + (x 0).val
    rw [e]; show (1024 * (L 1).val + 512 * (L 0).val) + 1 * (x 0).val = _; omega
  | ⟨1, _⟩ =>
    show k1_off36 L 1 + 1 * (x 1).val = (x 1).val
    rw [e]; show 0 + 1 * (x 1).val = _; omega

/-! ## The copy-out -/

variable (m : (ℓ : Loc nD τ sig) → Buf (Elt F) ℓ) (Tv : (d : Dev nD) → Buf (Elt F) (tLoc d))

/-- The row scratch, holding in row j the table's row named by the task's j-th user index word, copied out to the
    task's slice of the first result: the slice holds the gathered user rows. -/
theorem out_gU (d : Dev nD) (s : S512.Idx → BitVec 32) (hs : ∀ x, s x = m (uLoc d) ((uK L).view.emb x))
    (fou : S16384x128.Idx → Elt F .f32) (c : Fin τ.nSC) (i : Fin τ.nSub) :
    ∀ y ∈ setO (wL L),
      (ouK L).view.write (Elt F) fou (ReadAs.same.apply ((rowsV : Memref sig .scVector .vmem S512x128 .f32).view.read (Elt F)
        (Rfun Tv d c i (fun j => rowOf (s (ix1 j)))))) Finset.univ y = gU m Tv d y := by
  intro y hy
  rw [← set_ouK] at hy
  obtain ⟨x, -, rfl⟩ := Finset.mem_map.mp hy
  obtain ⟨r, q, rfl⟩ : ∃ (r : Fin 512) (q : Fin 128), x = ix2 r q := ⟨x 0, x 1, eq_ix2 x⟩
  rw [View.write_emb_of_mem _ _ (Finset.mem_univ _), ReadAs.apply_same, View.read_apply, emb_ouK_eq]
  have h : s (ix1 r) = m (uLoc d) (ix1 (rowIx L r)) := (hs (ix1 r)).trans (congrArg (m (uLoc d)) (emb_uK_eq L (ix1 r)))
  exact congrArg (fun w => Tv d (ix2 (rowOf w) q)) h

/-- The same for the item side and the second result. -/
theorem out_gI (d : Dev nD) (s : S512.Idx → BitVec 32) (hs : ∀ x, s x = m (iLoc d) ((iK L).view.emb x))
    (foi : S16384x128.Idx → Elt F .f32) (c : Fin τ.nSC) (i : Fin τ.nSub) :
    ∀ y ∈ setO (wL L),
      (oiK L).view.write (Elt F) foi (ReadAs.same.apply ((rowsV : Memref sig .scVector .vmem S512x128 .f32).view.read (Elt F)
        (Rfun Tv d c i (fun j => rowOf (s (ix1 j)))))) Finset.univ y = gI m Tv d y := by
  intro y hy
  rw [← set_oiK] at hy
  obtain ⟨x, -, rfl⟩ := Finset.mem_map.mp hy
  obtain ⟨r, q, rfl⟩ : ∃ (r : Fin 512) (q : Fin 128), x = ix2 r q := ⟨x 0, x 1, eq_ix2 x⟩
  rw [View.write_emb_of_mem _ _ (Finset.mem_univ _), ReadAs.apply_same, View.read_apply, emb_oiK_eq]
  have h : s (ix1 r) = m (iLoc d) (ix1 (rowIx L r)) := (hs (ix1 r)).trans (congrArg (m (iLoc d)) (emb_iK_eq L (ix1 r)))
  exact congrArg (fun w => Tv d (ix2 (rowOf w) q)) h

end Cert.Proof.KB

end
-- ==== Proof.KbScCopy.lean ====
/-
  The gathered rows written out: the row scratch copied whole onto the task's slice of a result and waited for at once.
  The slice then holds the scratch's contents, the scratch is unchanged.
-/
import proofs.«212231_g88622355185883_cont_sun_m_1073_38_alg».proof.Proof.KbScCoords
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)
open Idealize.ShloMosaic.Transfers (MayWaits)

/-! ## The rows written out: one copy, waited for at once -/

section CopyOut

variable (d : Dev nD) (c : Fin τ.nSC) (i : Fin τ.nSub)
variable [FloatOps F]

theorem copy_out {α : Type} {Q : α → sProp 𝕄} (dst : Memref sig .scVector .hbm S512x128 .f32) (sem : DmaSem sig)
    (k : PUnit → Prog (TpuEff nD τ sig (Elt F) Λ₀ (V d c i).2) α)
    (R : Buf (Elt F) ((rowsV : Memref sig .scVector .vmem S512x128 .f32).view.loc (V d c i))) (fd : Buf (Elt F) (dst.view.loc (V d c i)))
    (O : CellTallies nD τ sig (HIx 1)) (W : Waits sig (HIx 1))
    (hsrc : (rowsV : Memref sig .scVector .vmem S512x128 .f32).view.WordExact) (hdst : dst.view.WordExact)
    (hsem : DmaTarget.Typed (nD := nD) (τ := τ) (p := (V d c i).2) .vmem (SemLoc.dma sem) (.here dst))
    (hsrc' : (rowsV : Memref sig .scVector .vmem S512x128 .f32).view.WordExact) (hdst' : dst.view.WordExact) :
    iprop(((rowsV : Memref sig .scVector .vmem S512x128 .f32).view.loc (V d c i) ↦{fullShare} R)
        ∗ (dst.view.loc (V d c i) ↦[dst.view.set]{fullShare} fd) ∗ semVal ((V d c i, SemLoc.dma sem) : GSem nD τ sig) 0
        ∗ owes (V d c i) O W ∗ MayWaits (V d c i) none O)
      ⊢ iprop((iprop(((rowsV : Memref sig .scVector .vmem S512x128 .f32).view.loc (V d c i) ↦{fullShare} R)
                ∗ (dst.view.loc (V d c i) ↦[dst.view.set]{fullShare}
                    (dst.view.write (Elt F) fd (ReadAs.same.apply ((rowsV : Memref sig .scVector .vmem S512x128 .f32).view.read (Elt F) R)) Finset.univ))
                ∗ semVal ((V d c i, SemLoc.dma sem) : GSem nD τ sig) 0 ∗ owes (V d c i) O (insert (SemLoc.dma sem, none) W))
              -∗ wp frame (wpE (defs₀ (F := F)) 𝒱₀ (V d c i) none) Set.univ (k ⟨⟩) Q)
          -∗ wp frame (wpE (defs₀ (F := F)) 𝒱₀ (V d c i) none) Set.univ
              (.op (.enqueueDmaAs (rowsV : Memref sig .scVector .vmem S512x128 .f32) (.here dst) .same (.dma sem) hsrc hdst hsem)
                (fun _ => .op (.waitDma2 sem (rowsV : Memref sig .scVector .vmem S512x128 .f32) dst hsrc' hdst') k)) Q) := by
  have e : (((rowsV : Memref sig .scVector .vmem S512x128 .f32).view.loc (V d c i) ↦{fullShare} R) : sProp 𝕄)
      = ((rowsV : Memref sig .scVector .vmem S512x128 .f32).view.loc (V d c i)
          ↦[(rowsV : Memref sig .scVector .vmem S512x128 .f32).view.set]{fullShare} R) := by
    simp only [Memref.view_whole, View.set_whole]
  iintro ⟨Hr, Hd, Hv, HO, #Hmw⟩ Hk
  ihave Hr' := (Entails.of_eq e) $$ Hr
  iapply (Transfers.wp_dmaLocal countersEmb 𝒱₀ (V d c i) none (src := (rowsV : Memref sig .scVector .vmem S512x128 .f32)) (dst := dst) (via := .same)
      (q := fullShare) (fs := R) (Sd := dst.view.set) (fd := fd) none dst.view.dmaCredit rfl (View.dmaCredit_pos _ (by decide)) subset_rfl) $$ [Hr' Hd Hv]
  · isplitl [Hr']; · iexact Hr'
    isplitl [Hd]; · iexact Hd
    iexact Hv
  iintro HFl
  ihave Hw := (MayWaits.elim (SemLoc.dma sem)) $$ Hmw
  iapply (Transfers.wp_waitLocalO countersEmb 𝒱₀ (V d c i) none none (N := dst.view.dmaCredit) rfl (O := O) (W := W)) $$ [HFl HO Hw]
  · isplitl [HFl]; · iexact HFl
    isplitl [HO]; · iexact HO
    iexact Hw
  iintro ⟨⟨Hd, Hr'⟩, Hv, HO⟩
  iapply Hk
  isplitl [Hr']; · iapply (Entails.of_eq e.symm); iexact Hr'
  isplitl [Hd]; · iexact Hd
  isplitl [Hv]; · iexact Hv
  iexact HO

end CopyOut

end Cert.Proof.KB

end
-- ==== Proof.KbScTile.lean ====
/-
  The row-gathering task of one vector subcore, whole: two index slices fetched, then per side 512 row copies
  started on one semaphore and waited for by 512 waits of one row's amount — nothing touching the table or the row
  scratch in between —, the rows written out to the task's slice of the result. What it leaves there is the table's
  rows named by the task's index words.
-/
import proofs.«212231_g88622355185883_cont_sun_m_1073_38_alg».proof.Proof.KbScRegionU
import proofs.«212231_g88622355185883_cont_sun_m_1073_38_alg».proof.Proof.KbScRegionI
import proofs.«212231_g88622355185883_cont_sun_m_1073_38_alg».proof.Proof.KbScJoin
import proofs.«212231_g88622355185883_cont_sun_m_1073_38_alg».proof.Proof.KbScOut
import proofs.«212231_g88622355185883_cont_sun_m_1073_38_alg».proof.Proof.KbScCopy
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

open Idealize.ShloMosaic.ValueIdx (ix1 ix2 eq_ix1 eq_ix2)
open Idealize.ShloMosaic.Transfers (pending issued Batch MayWaits)
open Idealize.ShloMosaic.Tactic

variable (Tv : (d : Dev nD) → Buf (Elt F) (tLoc d))

section TileRes

variable (d : Dev nD) (c : Fin τ.nSC) (i : Fin τ.nSub)

abbrev cB : GSem nD τ sig := (V d c i, .dma cc1_scratch3.sem)
abbrev c0 : GSem nD τ sig := (V d c i, .dma cc1_scoped0.sem)
abbrev c1 : GSem nD τ sig := (V d c i, .dma cc1_scoped1.sem)
abbrev c2 : GSem nD τ sig := (V d c i, .dma cc1_scoped2.sem)
abbrev c3 : GSem nD τ sig := (V d c i, .dma cc1_scoped3.sem)

theorem mem_own (sm : DmaSem sig) (h : (SemLoc.dma sm : SemLoc sig).isScoped .scVector = true) :
    ((V d c i, SemLoc.dma sm) : GSem nD τ sig) ∈ ownCells (sig := sig) (V d c i) :=
  (mem_ownCells (g := ((V d c i, SemLoc.dma sm) : GSem nD τ sig))).mpr ⟨rfl, h⟩

theorem cell_ne {a b : DmaSem sig} (h : a ≠ b) : ((V d c i, SemLoc.dma a) : GSem nD τ sig) ≠ (V d c i, SemLoc.dma b) :=
  fun e => h (SemLoc.dma.inj (Prod.mk.inj e).2)

/-- The task's five DMA semaphores are among the subcore's own: they, at zero, and the rest. -/
theorem ownSems0_V :
    (ownSems0 (V d c i) : sProp 𝕄)
      = iprop(semVal (cB d c i) 0 ∗ semVal (c0 d c i) 0 ∗ semVal (c1 d c i) 0 ∗ semVal (c2 d c i) 0 ∗ semVal (c3 d c i) 0
          ∗ bigSep ((((((ownCells (V d c i)).erase (cB d c i)).erase (c0 d c i)).erase (c1 d c i)).erase (c2 d c i)).erase (c3 d c i))
              fun g => semVal g 0) := by
  unfold SparseCore.Cfg.ownSems0
  have hB := mem_own d c i cc1_scratch3.sem (by decide)
  have h0 : c0 d c i ∈ (ownCells (sig := sig) (V d c i)).erase (cB d c i) :=
    Finset.mem_erase.mpr ⟨cell_ne d c i (by decide), mem_own d c i cc1_scoped0.sem (by decide)⟩
  have h1 : c1 d c i ∈ ((ownCells (sig := sig) (V d c i)).erase (cB d c i)).erase (c0 d c i) :=
    Finset.mem_erase.mpr ⟨cell_ne d c i (by decide), Finset.mem_erase.mpr ⟨cell_ne d c i (by decide), mem_own d c i cc1_scoped1.sem (by decide)⟩⟩
  have h2 : c2 d c i ∈ (((ownCells (sig := sig) (V d c i)).erase (cB d c i)).erase (c0 d c i)).erase (c1 d c i) :=
    Finset.mem_erase.mpr ⟨cell_ne d c i (by decide), Finset.mem_erase.mpr ⟨cell_ne d c i (by decide),
      Finset.mem_erase.mpr ⟨cell_ne d c i (by decide), mem_own d c i cc1_scoped2.sem (by decide)⟩⟩⟩
  have h3 : c3 d c i ∈ ((((ownCells (sig := sig) (V d c i)).erase (cB d c i)).erase (c0 d c i)).erase (c1 d c i)).erase (c2 d c i) :=
    Finset.mem_erase.mpr ⟨cell_ne d c i (by decide), Finset.mem_erase.mpr ⟨cell_ne d c i (by decide),
      Finset.mem_erase.mpr ⟨cell_ne d c i (by decide), Finset.mem_erase.mpr ⟨cell_ne d c i (by decide), mem_own d c i cc1_scoped3.sem (by decide)⟩⟩⟩⟩
  rw [SparseCore.bigSep_erase' hB, SparseCore.bigSep_erase' h0, SparseCore.bigSep_erase' h1, SparseCore.bigSep_erase' h2, SparseCore.bigSep_erase' h3]

/-- The three scratch buffers are among the subcore's own: they, at some contents, and the rest. -/
theorem ownBufs_V :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f)
          ∗ bigSep ((((ownRefs (τ := τ) (.scVector c i)).erase ((Proc.scVector c i).devRef cc1_scratch0)).erase
              ((Proc.scVector c i).devRef cc1_scratch1)).erase ((Proc.scVector c i).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector c i) (b := (Proc.scVector c i).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector c i) (b := (Proc.scVector c i).devRef cc1_scratch2) rfl⟩⟩)]

end TileRes

section Body

variable (m : (ℓ : Loc nD τ sig) → Buf (Elt F) ℓ)
variable (d : Dev nD) (L : grid1.Coords)
variable [FloatOps F]

theorem tile_body (hF : (K (F := F)).Facts) (hidx : IdxOK m) (O : CellTallies nD τ sig (HIx 1)) (W : Waits sig (HIx 1)) (hO : ∀ g, O g none = 0) :
    iprop(levAts (K (F := F)).L (K (F := F)).lev ∗ emp ∗ tilePre m Tv d (wL L) (tileShare (cL L) (iL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L uV (Memref.isWhole_whole _) iV (Memref.isWhole_whole _) tabV (Memref.isWhole_whole _) ouV (Memref.isWhole_whole _) oiV (Memref.isWhole_whole _)
            sU (Memref.isWhole_whole _) sI (Memref.isWhole_whole _) rowsV (Memref.isWhole_whole _) cc1_scratch3 cc1_scoped0 cc1_scoped1 cc1_scoped2 cc1_scoped3)
          fun _ => iprop(tilePost m Tv d (wL L) (tileShare (cL L) (iL L)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  simp only [k1_part11_eq_skeleton]; unfold k1_part11_skel
  simp only [Prog.bind_assoc]
  rw [(K (F := F)).scopedBufs_V hF d (cV L) (jV L), SparseCore.Cfg.scopedSems0_V (Val := Elt F) d (cV L) (jV L), ownSems0_V, ownBufs_V]
  unfold tilePre
  iintro ⟨#Hlv, -, ⟨Hu, Hi, Ht, ⟨%fou, Hou⟩, ⟨%foi, Hoi⟩⟩, ⟨⟨%fsu, Hsu⟩, ⟨%fsi, Hsi⟩, ⟨%frw, Hrw⟩, Hbufs⟩, ⟨HsemB, Hsem0, Hsem1, Hsem2, Hsem3, Hsems⟩, HO⟩
  ihave Hmw := ((K (F := F)).mayWaits_none (thr := V d (cV L) (jV L)) hO) $$ Hlv
  ihave Hu' := (Entails.of_eq (show (uLoc d ↦[setI (wL L)]{fullShare} m (uLoc d) : sProp 𝕄) = ((uK L).view.loc (V d (cV L) (jV L)) ↦[(uK L).view.set]{fullShare} m (uLoc d)) by rw [set_uK])) $$ Hu
  ihave Hi' := (Entails.of_eq (show (iLoc d ↦[setI (wL L)]{fullShare} m (iLoc d) : sProp 𝕄) = ((iK L).view.loc (V d (cV L) (jV L)) ↦[(iK L).view.set]{fullShare} m (iLoc d)) by rw [set_iK])) $$ Hi
  ihave Hsu' := (Entails.of_eq (show ((V d (cV L) (jV L)).loc cc1_scratch0 ↦{fullShare} fsu : sProp 𝕄) = ((sU : Memref sig .scVector .vmem S512 .i32).view.loc (V d (cV L) (jV L)) ↦{fullShare} fsu) from rfl)) $$ Hsu
  ihave Hsi' := (Entails.of_eq (show ((V d (cV L) (jV L)).loc cc1_scratch1 ↦{fullShare} fsi : sProp 𝕄) = ((sI : Memref sig .scVector .vmem S512 .i32).view.loc (V d (cV L) (jV L)) ↦{fullShare} fsi) from rfl)) $$ Hsi
  -- the two index slices fetched and waited for
  sl_exec
  have hsU : ∀ x : S512.Idx, View.write (Elt F) (sU : Memref sig .scVector .vmem S512 .i32).view fsu (tile_body.sl.dma0 m d L) Finset.univ x
      = m (uLoc d) ((uK L).view.emb x) := by
    intro x; exact (congrFun (View.write_whole_univ (cc1_scratch0 : Ref sig .scVector) fsu (tile_body.sl.dma0 m d L)) x).trans rfl
  have hsI : ∀ x : S512.Idx, View.write (Elt F) (sI : Memref sig .scVector .vmem S512 .i32).view fsi (tile_body.sl.dma0_1 m d L) Finset.univ x
      = m (iLoc d) ((iK L).view.emb x) := by
    intro x; exact (congrFun (View.write_whole_univ (cc1_scratch1 : Ref sig .scVector) fsi (tile_body.sl.dma0_1 m d L)) x).trans rfl
  generalize View.write (Elt F) (sU : Memref sig .scVector .vmem S512 .i32).view fsu (tile_body.sl.dma0 m d L) Finset.univ = sUv at hsU ⊢
  generalize View.write (Elt F) (sI : Memref sig .scVector .vmem S512 .i32).view fsi (tile_body.sl.dma0_1 m d L) Finset.univ = sIv at hsI ⊢
  have hltU : ∀ j : Fin 512, ((sUv : S512.Idx → BitVec 32) (ix1 j)).toNat < 1000000 := fun j => by rw [hsU]; exact (hidx d).1 _
  have hltI : ∀ j : Fin 512, ((sIv : S512.Idx → BitVec 32) (ix1 j)).toNat < 1000000 := fun j => by rw [hsI]; exact (hidx d).2 _
  -- the user side: 512 row copies on one semaphore
  imod (Transfers.batch_alloc' (Lvl := ℕ) countersEmb (V d (cV L) (jV L)) none NR
      (Dl Tv d (cV L) (jV L) (roOf sUv) (tileShare (cL L) (iL L))) (sm := .dma semB) (E := Set.univ)) $$ HsemB with HB
  ihave HF := (fire_init Tv d (cV L) (jV L) (roOf sUv) (tileShare (cL L) (iL L)) frw) $$ [Ht Hrw HB]
  · isplitl [Ht]; · iexact Ht
    isplitl [Hrw]; · iexact Hrw
    iexact HB
  sl_for (invFireU Tv d L (tileShare (cL L) (iL L)) sUv) $$ [Hsu' HF]
  case region => exact fire_regionU Tv d L (tileShare (cL L) (iL L)) sUv hltU
  · unfold invFireU
    isplitl [Hsu']; · iexact Hsu'
    iexact HF
  iintro %_ HI
  unfold invFireU
  icases HI with ⟨Hsu', HF⟩
  ihave HF := (Entails.of_eq (congrArg (Fire Tv d (cV L) (jV L) (roOf sUv) (tileShare (cL L) (iL L)))
      (by decide : 16 * Scf.trips k1_t1_loop.lb k1_t1_loop.ub k1_t1_loop.st = 512))) $$ HF
  ihave HF' := (fire_done Tv d (cV L) (jV L) (roOf sUv) (tileShare (cL L) (iL L))) $$ HF
  icases HF' with ⟨Hrests, HD⟩
  sl_for (invWait Tv d L (tileShare (cL L) (iL L)) (roOf sUv) O W) $$ [HD HO]
  case region => exact wait_regionU Tv d L (tileShare (cL L) (iL L)) (roOf sUv) O W
  · unfold invWait
    isplitr; · iexact Hmw
    isplitl [HD]; · iexact HD
    iexists (insert (SemLoc.dma cc1_scoped1.sem, (default : HIx 1)) (insert (SemLoc.dma cc1_scoped0.sem, (default : HIx 1)) W)); isplitr
    · ipureintro; intro p hp
      rcases Finset.mem_insert.mp hp with rfl | hp
      · exact .inr rfl
      rcases Finset.mem_insert.mp hp with rfl | hp
      · exact .inr rfl
      · exact .inl hp
    iexact HO
  iintro %_ HI
  unfold invWait
  icases HI with ⟨-, HD, %W1, %hW1, HO⟩
  ihave HD := (Entails.of_eq (congrArg (Drain Tv d (cV L) (jV L) (roOf sUv) (tileShare (cL L) (iL L)))
      (by decide : Scf.trips k1_t2_loop.lb k1_t2_loop.ub k1_t2_loop.st = 512))) $$ HD
  ihave Hj := (drain_done Tv d (cV L) (jV L) (roOf sUv) (tileShare (cL L) (iL L))) $$ [HD Hrests]
  · isplitl [HD]; · iexact HD
    iexact Hrests
  icases Hj with ⟨Hrw, Ht, HsemB⟩
  -- the user rows written out
  unfold tile_body.sl.prog.cont_2
  simp only [Prog.lift, Prog.bind_op, Prog.bind_ret, Prog.pure_eq_ret]
  ihave Hou' := (Entails.of_eq (show (ouLoc d ↦[setO (wL L)]{fullShare} fou : sProp 𝕄)
      = ((ouK L).view.loc (V d (cV L) (jV L)) ↦[(ouK L).view.set]{fullShare} fou) by rw [set_ouK])) $$ Hou
  iapply (copy_out d (cV L) (jV L) (ouK L) cc1_scoped2.sem _ (Rfun Tv d (cV L) (jV L) (roOf sUv)) fou O W1 _ _ _ _ _) $$ [Hrw Hou' Hsem2 HO]
  · isplitl [Hrw]; · iexact Hrw
    isplitl [Hou']; · iexact Hou'
    isplitl [Hsem2]; · iexact Hsem2
    isplitl [HO]; · iexact HO
    iexact Hmw
  iintro ⟨Hrw, Hou', Hsem2, HO⟩
  -- the item side: the same batch over the same scratch rows
  imod (Transfers.batch_alloc' (Lvl := ℕ) countersEmb (V d (cV L) (jV L)) none NR
      (Dl Tv d (cV L) (jV L) (roOf sIv) (tileShare (cL L) (iL L))) (sm := .dma semB) (E := Set.univ)) $$ HsemB with HB
  ihave Hrw := (Entails.of_eq (show (((rowsV : Memref sig .scVector .vmem S512x128 .f32).view.loc (V d (cV L) (jV L)) ↦{fullShare} Rfun Tv d (cV L) (jV L) (roOf sUv)) : sProp 𝕄)
      = (rowsLoc d (cV L) (jV L) ↦{fullShare} Rfun Tv d (cV L) (jV L) (roOf sUv)) from rfl)) $$ Hrw
  ihave HF := (fire_init Tv d (cV L) (jV L) (roOf sIv) (tileShare (cL L) (iL L)) (Rfun Tv d (cV L) (jV L) (roOf sUv))) $$ [Ht Hrw HB]
  · isplitl [Ht]; · iexact Ht
    isplitl [Hrw]; · iexact Hrw
    iexact HB
  ihave Hsi' := (Entails.of_eq (show ((View.loc (V d (cV L) (jV L)) (View.whole cc1_scratch1) ↦{fullShare} sIv) : sProp 𝕄)
      = ((sI : Memref sig .scVector .vmem S512 .i32).view.loc (V d (cV L) (jV L)) ↦{fullShare} sIv) from rfl)) $$ Hsi'
  sl_for (invFireI Tv d L (tileShare (cL L) (iL L)) sIv) $$ [Hsi' HF]
  case region => exact fire_regionI Tv d L (tileShare (cL L) (iL L)) sIv hltI
  · unfold invFireI
    isplitl [Hsi']; · iexact Hsi'
    iexact HF
  iintro %_ HI
  unfold invFireI
  icases HI with ⟨Hsi', HF⟩
  ihave HF := (Entails.of_eq (congrArg (Fire Tv d (cV L) (jV L) (roOf sIv) (tileShare (cL L) (iL L)))
      (by decide : 16 * Scf.trips k1_t3_loop.lb k1_t3_loop.ub k1_t3_loop.st = 512))) $$ HF
  ihave HF' := (fire_done Tv d (cV L) (jV L) (roOf sIv) (tileShare (cL L) (iL L))) $$ HF
  icases HF' with ⟨Hrests, HD⟩
  sl_for (invWait Tv d L (tileShare (cL L) (iL L)) (roOf sIv) O W) $$ [HD HO]
  case region => exact wait_regionI Tv d L (tileShare (cL L) (iL L)) (roOf sIv) O W
  · unfold invWait
    isplitr; · iexact Hmw
    isplitl [HD]; · iexact HD
    iexists (insert (SemLoc.dma cc1_scoped2.sem, (none : HIx 1)) W1); isplitr
    · ipureintro; intro p hp
      rcases Finset.mem_insert.mp hp with rfl | hp
      · exact .inr rfl
      · exact hW1 p hp
    iexact HO
  iintro %_ HI
  unfold invWait
  icases HI with ⟨-, HD, %W2, %hW2, HO⟩
  ihave HD := (Entails.of_eq (congrArg (Drain Tv d (cV L) (jV L) (roOf sIv) (tileShare (cL L) (iL L)))
      (by decide : Scf.trips k1_t4_loop.lb k1_t4_loop.ub k1_t4_loop.st = 512))) $$ HD
  ihave Hj := (drain_done Tv d (cV L) (jV L) (roOf sIv) (tileShare (cL L) (iL L))) $$ [HD Hrests]
  · isplitl [HD]; · iexact HD
    iexact Hrests
  icases Hj with ⟨Hrw, Ht, HsemB⟩
  -- the item rows written out
  unfold tile_body.sl.prog.cont_4
  simp only [Prog.lift, Prog.bind_op, Prog.bind_ret, Prog.pure_eq_ret]
  ihave Hoi' := (Entails.of_eq (show (oiLoc d ↦[setO (wL L)]{fullShare} foi : sProp 𝕄)
      = ((oiK L).view.loc (V d (cV L) (jV L)) ↦[(oiK L).view.set]{fullShare} foi) by rw [set_oiK])) $$ Hoi
  ihave Hrw := (Entails.of_eq (show ((rowsLoc d (cV L) (jV L) ↦{fullShare} Rfun Tv d (cV L) (jV L) (roOf sIv)) : sProp 𝕄)
      = ((rowsV : Memref sig .scVector .vmem S512x128 .f32).view.loc (V d (cV L) (jV L)) ↦{fullShare} Rfun Tv d (cV L) (jV L) (roOf sIv)) from rfl)) $$ Hrw
  iapply (copy_out d (cV L) (jV L) (oiK L) cc1_scoped3.sem _ (Rfun Tv d (cV L) (jV L) (roOf sIv)) foi O W2 _ _ _ _ _) $$ [Hrw Hoi' Hsem3 HO]
  · isplitl [Hrw]; · iexact Hrw
    isplitl [Hoi']; · iexact Hoi'
    isplitl [Hsem3]; · iexact Hsem3
    isplitl [HO]; · iexact HO
    iexact Hmw
  iintro ⟨Hrw, Hoi', Hsem3, HO⟩
  rw [wp_ret]; imodintro
  -- what the task hands back
  have eU : (((uK L).view.loc (V d (cV L) (jV L)) ↦[(uK L).view.set]{fullShare} m (uLoc d)) : sProp 𝕄) = (uLoc d ↦[setI (wL L)]{fullShare} m (uLoc d)) := by rw [set_uK]
  have eI : (((iK L).view.loc (V d (cV L) (jV L)) ↦[(iK L).view.set]{fullShare} m (iLoc d)) : sProp 𝕄) = (iLoc d ↦[setI (wL L)]{fullShare} m (iLoc d)) := by rw [set_iK]
  have eOU : (((ouK L).view.loc (V d (cV L) (jV L)) ↦[(ouK L).view.set]{fullShare}
        (View.write (Elt F) (ouK L).view fou (ReadAs.same.apply (View.read (Elt F) (rowsV : Memref sig .scVector .vmem S512x128 .f32).view (Rfun Tv d (cV L) (jV L) (roOf sUv)))) Finset.univ)) : sProp 𝕄)
      = (ouLoc d ↦[setO (wL L)]{fullShare} gU m Tv d) := by
    rw [set_ouK]; exact pointsTo_congr (out_gU L m Tv d sUv hsU fou (cV L) (jV L))
  have eOI : (((oiK L).view.loc (V d (cV L) (jV L)) ↦[(oiK L).view.set]{fullShare}
        (View.write (Elt F) (oiK L).view foi (ReadAs.same.apply (View.read (Elt F) (rowsV : Memref sig .scVector .vmem S512x128 .f32).view (Rfun Tv d (cV L) (jV L) (roOf sIv)))) Finset.univ)) : sProp 𝕄)
      = (oiLoc d ↦[setO (wL L)]{fullShare} gI m Tv d) := by
    rw [set_oiK]; exact pointsTo_congr (out_gI L m Tv d sIv hsI foi (cV L) (jV L))
  unfold tilePost
  isplitl [Hu' Hi' Ht Hou' Hoi']
  · isplitl [Hu']; · iapply (Entails.of_eq eU); iexact Hu'
    isplitl [Hi']; · iapply (Entails.of_eq eI); iexact Hi'
    isplitl [Ht]; · iexact Ht
    isplitl [Hou']; · iapply (Entails.of_eq eOU); iexact Hou'
    iapply (Entails.of_eq eOI); iexact Hoi'
  isplitl [Hsu' Hsi' Hrw Hbufs]
  · isplitl [Hsu']; · iexists sUv; iexact Hsu'
    isplitl [Hsi']; · iexists sIv; iexact Hsi'
    isplitl [Hrw]; · iexists (Rfun Tv d (cV L) (jV L) (roOf sIv)); iexact Hrw
    iexact Hbufs
  isplitl [HsemB Hsem0 Hsem1 Hsem2 Hsem3 Hsems]
  · isplitl [HsemB]; · iexact HsemB
    isplitl [Hsem0]; · iexact Hsem0
    isplitl [Hsem1]; · iexact Hsem1
    isplitl [Hsem2]; · iexact Hsem2
    isplitl [Hsem3]; · iexact Hsem3
    iexact Hsems
  iexists (insert (SemLoc.dma cc1_scoped3.sem, (none : HIx 1)) W2); isplitr
  · ipureintro; intro p hp
    rcases Finset.mem_insert.mp hp with rfl | hp
    · exact .inr rfl
    · exact hW2 p hp
  iexact HO

end Body

end Cert.Proof.KB

end
-- ==== Proof.KbScObl.lean ====
/-
  The gathering task as the launch theorem asks for it.

  The launch theorem wants, for every device, SparseCore c and vector subcore i of the call's grid, the task's
  body proved from what the handshake hands it (its slices, its read share of the table, its scoped storage) to
  what it hands back. The body is proved once, at a symbolic grid point L; this module only matches the launch
  theorem's spelling of the thread and of the program — the label table's row for a vector subcore, which runs
  the kernel function at the subcore's coordinates — with the body's own.
-/
import proofs.«212231_g88622355185883_cont_sun_m_1073_38_alg».proof.Proof.KbScCoords

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (Tv : (d : Dev nD) → Buf (Elt F) (tLoc d))

/-- The grid point of SparseCore c, vector subcore s. -/
def coordsV (c : Fin (grid1.bound 0)) (s : Fin (grid1.bound 1)) : grid1.Coords :=
  fun | 0 => c | 1 => s | ⟨_ + 2, h⟩ => absurd h (Nat.not_lt.2 (Nat.le_add_left _ _))

/-- The label table's row for a vector subcore: the kernel function at the subcore's coordinates, on the whole
    arrays and the subcore's scratch. -/
theorem defs₀_vector (c : Fin τ.nSC) (s : Fin τ.nSub) :
    defs₀ (F := F) (.scVector c s) 1 ()
      = SparseCore.onTile hcore1 hsub1 (fun c s => cc1_gather_kernel (coordsV c s)
          uV (Memref.isWhole_whole _) iV (Memref.isWhole_whole _) tabV (Memref.isWhole_whole _) ouV (Memref.isWhole_whole _)
          oiV (Memref.isWhole_whole _) sU (Memref.isWhole_whole _) sI (Memref.isWhole_whole _) rowsV (Memref.isWhole_whole _)
          cc1_scratch3 cc1_scoped0 cc1_scoped1 cc1_scoped2 cc1_scoped3) ⟨⟩ c s := rfl

omit [FloatOps F] in
/-- A body that records waits only at the index of no call leaves them within what the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for the gathering task, from the body proved at a symbolic grid point. -/
theorem tileObl_of
    (hbody : ∀ (d : Dev nD) (L : grid1.Coords) (O : CellTallies nD τ sig (HIx 1)) (W : Waits sig (HIx 1)), (∀ g, O g none = 0) →
      iprop(levAts (K (F := F)).L (K (F := F)).lev ∗ emp ∗ tilePre m Tv d (wL L) (tileShare (cL L) (iL L))
          ∗ scopedBufs (V d (cV L) (jV L)) ∗ scopedSems0 (V d (cV L) (jV L)) ∗ owes (V d (cV L) (jV L)) O W)
        ⊢ wp frame (wpE (defs₀ (F := F)) 𝒱₀ (V d (cV L) (jV L)) none) Set.univ
            (cc1_gather_kernel L uV (Memref.isWhole_whole _) iV (Memref.isWhole_whole _) tabV (Memref.isWhole_whole _)
              ouV (Memref.isWhole_whole _) oiV (Memref.isWhole_whole _) sU (Memref.isWhole_whole _) sI (Memref.isWhole_whole _)
              rowsV (Memref.isWhole_whole _) cc1_scratch3 cc1_scoped0 cc1_scoped1 cc1_scoped2 cc1_scoped3)
            fun _ => iprop(tilePost m Tv d (wL L) (tileShare (cL L) (iL L)) ∗ scopedBufs (V d (cV L) (jV L)) ∗ scopedSems0 (V d (cV L) (jV L))
              ∗ ∃ W', ⌜∀ p ∈ W', p ∈ W ∨ p.2 = none⌝ ∗ owes (V d (cV L) (jV L)) O W')) :
    (K (F := F)).TileObl (D (F := F)) 𝒱 (P m Tv) v₀ 0 := by
  intro d c i O W hO _ _
  simp only [show (P m Tv).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.Proof.KB

end
-- ==== Proof.KbScGather.lean ====
/-
  The obligation of the row-gathering tasks: on every SparseCore and vector subcore, under index words that name rows
  of the table, the task terminates and leaves the gathered rows in its slices of the two results.
-/
import proofs.«212231_g88622355185883_cont_sun_m_1073_38_alg».proof.Proof.KbScTile
import proofs.«212231_g88622355185883_cont_sun_m_1073_38_alg».proof.Proof.KbScObl
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

local notation "𝕄" => MT nD τ sig (HIx 1) (Elt F) ℕ UU ℕ

/-! ## The launch theorem's obligation for the row-gathering tasks -/

variable (m : (ℓ : Loc nD τ sig) → Buf (Elt F) ℓ) (Tv : (d : Dev nD) → Buf (Elt F) (tLoc d))
variable [FloatOps F]

/-- Every task, on every SparseCore and vector subcore, from its slices of the index arrays, its read share of the
    table and its slices of the results, leaves the gathered rows in its slices. -/
theorem tileObl (hF : (K (F := F)).Facts) (hidx : IdxOK m) : (K (F := F)).TileObl (D (F := F)) 𝒱 (P m Tv) v₀ 0 :=
  tileObl_of m Tv fun d L O W hO => tile_body Tv m d L hF hidx O W hO

end Cert.Proof.KB

end
-- ==== Proof.lean ====
/-
  The five claims of this certificate, assembled.

  The kernel gathers, for each of 16384 (user, item) pairs, four embedding rows and scores the pair: the elementwise
  product of the two factorisation rows and the output of a three-layer rectified tower over the two other rows,
  concatenated, against one weight column, plus a bias. It does so in three steps: a pipelined TensorCore region lays
  the four tables side by side in one table of a million rows of 128; the SparseCores' thirty-two vector subcores
  each copy 512 user rows and 512 item rows of that table out, every row by a copy of its own, all copies of a side
  waited for before the rows are read; a second pipelined region computes the score block by block. The reference
  takes the rows by four lookups and computes the same score with one concatenated first layer and one 64-long final
  sum.

  Frames: the word-level and the idealized kernel run under the SparseCore launch rule, the main function stepped
  through its host operations, both regions and the SparseCore call, every buffer's contents named at each boundary;
  the reference's run is its operations' composed term. No ideal-pass rewrite was applied, so the idealization claim is
  trivial. The value claim: entry by entry both programs compute the score of the rows the two index words name (the
  index range of the precondition makes every lookup land inside its table); the two arrangements of the first layer
  and of the final sum agree by splitting a sum over 64 into two over 32 and distributing a sum over an entrywise
  addition, which hold on the extended reals without any finiteness.
-/
import proofs.«212231_g88622355185883_cont_sun_m_1073_38_alg».proof.Defs
import proofs.«212231_g88622355185883_cont_sun_m_1073_38_alg».proof.Proof.ClaimsKI
import proofs.«212231_g88622355185883_cont_sun_m_1073_38_alg».proof.Proof.ClaimsKB
import proofs.«212231_g88622355185883_cont_sun_m_1073_38_alg».proof.Proof.ScGather
import proofs.«212231_g88622355185883_cont_sun_m_1073_38_alg».proof.Proof.KbScGather
import proofs.«212231_g88622355185883_cont_sun_m_1073_38_alg».proof.Proof.RefValueClaim
import proofs.«212231_g88622355185883_cont_sun_m_1073_38_alg».proof.Proof.Gen.Kernel
import proofs.«212231_g88622355185883_cont_sun_m_1073_38_alg».proof.Proof.Gen.KernelIdeal
import proofs.«212231_g88622355185883_cont_sun_m_1073_38_alg».proof.Proof.Gen.ReferenceIdeal
import proofs.«212231_g88622355185883_cont_sun_m_1073_38_alg».proof.Proof.Gen.Pre_input_domain
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.KB.frame_Kernel (fun m hidx => Cert.Proof.KB.tileObl m (Cert.Proof.KB.Tv m) Cert.Proof.KB.facts hidx),
    Cert.Proof.KI.frame_KernelIdeal (fun m hidx => Cert.Proof.KI.tileObl m (Cert.Proof.KI.Tv m) Cert.Proof.KI.facts hidx),
    Cert.Proof.Ref.ref_frame, trivial,
    Cert.Proof.KI.algebraic_KernelIdeal_ReferenceIdeal (fun m hidx => Cert.Proof.KI.tileObl m (Cert.Proof.KI.Tv m) Cert.Proof.KI.facts hidx)⟩

end Cert.Proof

end
